-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)
  ∧ IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S1024x128 : Shape := ⟨2, ![1024, 128]⟩
abbrev S1024 : Shape := ⟨1, ![1024]⟩
abbrev S512x1024 : Shape := ⟨2, ![512, 1024]⟩
abbrev S512 : Shape := ⟨1, ![512]⟩
abbrev S64x512 : Shape := ⟨2, ![64, 512]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S4096x200 : S_.BroadcastsInDim S4096x200 (![] : Fin 0 → Fin S4096x200.rank)
  reducesTo_S4096x200_S_d0_1 : S4096x200.ReducesTo [0, 1] S_

variable [Facts]

def fn_part2 {F : FTy → Type} [FloatOps F] (main_arg0 : IVec S4096x200 32) (main_v33 : IVec S_ 1) : IVec S_ 1 :=
  let main_c_12 : IVec S_ 32 := constantI S_ 32 0#32
  let main_v34 : IVec S4096x200 32 := broadcastInDim S4096x200 ![] bcast_S_S4096x200 main_c_12
  let main_v35 : IVec S4096x200 1 := cmpi .sge main_arg0 main_v34
  let main_c_13 : IVec S_ 32 := constantI S_ 32 99999#32
  let main_v36 : IVec S4096x200 32 := broadcastInDim S4096x200 ![] bcast_S_S4096x200 main_c_13
  let main_v37 : IVec S4096x200 1 := cmpi .sle main_arg0 main_v36
  let main_v38 : IVec S4096x200 1 := andi main_v35 main_v37
  let main_c_14 : IVec S_ 1 := constantI S_ 1 1#1
  let main_v39 : IVec S_ 1 := (fun x v => Host.reduce IntOp.andi x v reducesTo_S4096x200_S_d0_1 h_S_) main_v38 main_c_14
  let main_v40 : IVec S_ 1 := andi main_v33 main_v39
  main_v40

def fn_part1 {F : FTy → Type} [FloatOps F] (main_arg0 : IVec S4096x200 32) (main_arg5 : FVec F S512 .f32) (main_arg6 : FVec F S64x512 .f32) (main_arg7 : FVec F S64 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S64x512 .f32 := Host.absf main_arg6
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_v33

def fn {F : FTy → Type} [FloatOps F] (main_arg0 : IVec S4096x200 32) (main_arg1 : FVec F S100000x128 .f32) (main_arg2 : FVec F S1024x128 .f32) (main_arg3 : FVec F S1024 .f32) (main_arg4 : FVec F S512x1024 .f32) (main_arg5 : FVec F S512 .f32) (main_arg6 : FVec F S64x512 .f32) (main_arg7 : FVec F S64 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg0 main_arg5 main_arg6 main_arg7 main_v13 main_v16
-- ==== Kernel.lean ====
abbrev S4096x200 : Shape := ⟨2, ![4096, 200]⟩
abbrev S100000x128 : Shape := ⟨2, ![100000, 128]⟩
abbrev S1024x128 : Shape := ⟨2, ![1024, 128]⟩
abbrev S1024 : Shape := ⟨1, ![1024]⟩
abbrev S512x1024 : Shape := ⟨2, ![512, 1024]⟩
abbrev S512 : Shape := ⟨1, ![512]⟩
abbrev S64x512 : Shape := ⟨2, ![64, 512]⟩
abbrev S64 : Shape := ⟨1, ![64]⟩
abbrev S32x256x100 : Shape := ⟨3, ![32, 256, 100]⟩
abbrev S4096x128 : Shape := ⟨2, ![4096, 128]⟩
abbrev S256x100 : Shape := ⟨2, ![256, 100]⟩
abbrev S6x100x128 : Shape := ⟨3, ![6, 100, 128]⟩
abbrev S128x128 : Shape := ⟨2, ![128, 128]⟩
abbrev S_ : Shape := ⟨0, ![]⟩
abbrev S1x256x100 : Shape := ⟨3, ![1, 256, 100]⟩
abbrev S1x100x128 : Shape := ⟨3, ![1, 100, 128]⟩
abbrev S100x128 : Shape := ⟨2, ![100, 128]⟩
abbrev S1x100 : Shape := ⟨2, ![1, 100]⟩
abbrev S100 : Shape := ⟨1, ![100]⟩
abbrev S16 : Shape := ⟨1, ![16]⟩
abbrev S1x16 : Shape := ⟨2, ![1, 16]⟩
abbrev S128x1024 : Shape := ⟨2, ![128, 1024]⟩
abbrev S1x1024 : Shape := ⟨2, ![1, 1024]⟩
abbrev S1024x512 : Shape := ⟨2, ![1024, 512]⟩
abbrev S1x512 : Shape := ⟨2, ![1, 512]⟩
abbrev S512x64 : Shape := ⟨2, ![512, 64]⟩
abbrev S1x64 : Shape := ⟨2, ![1, 64]⟩
abbrev S4096x64 : Shape := ⟨2, ![4096, 64]⟩
abbrev S2048x128 : Shape := ⟨2, ![2048, 128]⟩
abbrev S2048x64 : Shape := ⟨2, ![2048, 64]⟩
abbrev S2048x1024 : Shape := ⟨2, ![2048, 1024]⟩
abbrev S2048x512 : Shape := ⟨2, ![2048, 512]⟩

abbrev nBuf : Table → Nat
  | .hbm => 20
  | .local .tc .vmem => 10
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S1024x128, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S64x512, .f32⟩
  | .hbm, ⟨7, _⟩ => ⟨S64, .f32⟩
  | .hbm, ⟨8, _⟩ => ⟨S32x256x100, .i32⟩
  | .hbm, ⟨9, _⟩ => ⟨S4096x128, .f32⟩
  | .hbm, ⟨10, _⟩ => ⟨S128x1024, .f32⟩
  | .hbm, ⟨11, _⟩ => ⟨S128x1024, .bf16⟩
  | .hbm, ⟨12, _⟩ => ⟨S1x1024, .f32⟩
  | .hbm, ⟨13, _⟩ => ⟨S1024x512, .f32⟩
  | .hbm, ⟨14, _⟩ => ⟨S1024x512, .bf16⟩
  | .hbm, ⟨15, _⟩ => ⟨S1x512, .f32⟩
  | .hbm, ⟨16, _⟩ => ⟨S512x64, .f32⟩
  | .hbm, ⟨17, _⟩ => ⟨S512x64, .bf16⟩
  | .hbm, ⟨18, _⟩ => ⟨S1x64, .f32⟩
  | .hbm, ⟨19, _⟩ => ⟨S4096x64, .f32⟩
  | .local .tc .vmem, ⟨0, _⟩ => ⟨S2048x128, .f32⟩
  | .local .tc .vmem, ⟨1, _⟩ => ⟨S2048x128, .f32⟩
  | .local .tc .vmem, ⟨2, _⟩ => ⟨S128x1024, .bf16⟩
  | .local .tc .vmem, ⟨3, _⟩ => ⟨S1x1024, .f32⟩
  | .local .tc .vmem, ⟨4, _⟩ => ⟨S1024x512, .bf16⟩
  | .local .tc .vmem, ⟨5, _⟩ => ⟨S1x512, .f32⟩
  | .local .tc .vmem, ⟨6, _⟩ => ⟨S512x64, .bf16⟩
  | .local .tc .vmem, ⟨7, _⟩ => ⟨S1x64, .f32⟩
  | .local .tc .vmem, ⟨8, _⟩ => ⟨S2048x64, .f32⟩
  | .local .tc .vmem, ⟨9, _⟩ => ⟨S2048x64, .f32⟩
  | .local .scVector .vmem, ⟨0, _⟩ => ⟨S256x100, .i32⟩
  | .local .scVector .vmem, ⟨1, _⟩ => ⟨S6x100x128, .f32⟩
  | .local .scVector .vmem, ⟨2, _⟩ => ⟨S128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v0_scv : Ref sig .scVector := ⟨.hbm, 8, rfl⟩
abbrev main_arg1_scv : Ref sig .scVector := ⟨.hbm, 1, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_132_r0 : BitVec 32 := 0#32
  let c0_i32_133_r0 : BitVec 32 := 0#32
  ![v1.toNat, 0, 0]
@[reducible] def k0_t1_loop : Scf.Loop 32 :=
  let c0_i32_32 : BitVec 32 := 0#32
  let c42_i32 : BitVec 32 := 42#32
  let v27 : BitVec 32 := Scalar.addi c0_i32_32 c42_i32
  let c1_i32_33 : BitVec 32 := 1#32
  ⟨c0_i32_32, v27, c1_i32_33⟩
def k0_cond1 (k0_t1 : Fin k0_t1_loop.trips) : BitVec 1 :=
  let c6_i32 : BitVec 32 := 6#32
  let c0_i32_32 : BitVec 32 := 0#32
  let c1_i32_33 : BitVec 32 := 1#32
  let arg14 : BitVec 32 := Scf.iv c0_i32_32 c1_i32_33 k0_t1
  let v177 : BitVec 32 := Scalar.muli c6_i32 arg14
  let c0_i32_140 : BitVec 32 := 0#32
  let v178 : BitVec 32 := Scalar.addi v177 c0_i32_140
  let c6_i32_141 : BitVec 32 := 6#32
  let v179 : BitVec 32 := Scalar.addi v178 c6_i32_141
  let c1_i32_142 : BitVec 32 := 1#32
  let v180 : BitVec 32 := Scalar.subi v179 c1_i32_142
  let c256_i32 : BitVec 32 := 256#32
  let v181 : BitVec 1 := Scalar.cmpi .slt v180 c256_i32
  let v182 : BitVec 32 := Scalar.extui v181
  let c0_i32_143 : BitVec 32 := 0#32
  let v183 : BitVec 1 := Scalar.cmpi .ne v182 c0_i32_143
  v183

def k0_off2 (k0_t1 : Fin k0_t1_loop.trips) : Fin 2 → Nat :=
  let c6_i32 : BitVec 32 := 6#32
  let c0_i32_32 : BitVec 32 := 0#32
  let c1_i32_33 : BitVec 32 := 1#32
  let arg14 : BitVec 32 := Scf.iv c0_i32_32 c1_i32_33 k0_t1
  let v177 : BitVec 32 := Scalar.muli c6_i32 arg14
  let c0_i32_140 : BitVec 32 := 0#32
  let v178 : BitVec 32 := Scalar.addi v177 c0_i32_140
  let c6_i32_141 : BitVec 32 := 6#32
  let v179 : BitVec 32 := Scalar.addi v178 c6_i32_141
  let c1_i32_142 : BitVec 32 := 1#32
  let v180 : BitVec 32 := Scalar.subi v179 c1_i32_142
  let c0_i32_288 : BitVec 32 := 0#32
  ![v180.toNat, 0]
def k0_off3 (k0_t1 : Fin k0_t1_loop.trips) (c0_i32_140 : BitVec 32) : Fin 2 → Nat :=
  let c6_i32 : BitVec 32 := 6#32
  let c0_i32_32 : BitVec 32 := 0#32
  let c1_i32_33 : BitVec 32 := 1#32
  let arg14 : BitVec 32 := Scf.iv c0_i32_32 c1_i32_33 k0_t1
  let v177 : BitVec 32 := Scalar.muli c6_i32 arg14
  let v178 : BitVec 32 := Scalar.addi v177 c0_i32_140
  let c0_i32_147 : BitVec 32 := 0#32
  ![v178.toNat, 0]
@[reducible] def k0_t2_loop : Scf.Loop 32 :=
  let c0_i32_151 : BitVec 32 := 0#32
  let c100_i32_152 : BitVec 32 := 100#32
  let v189 : BitVec 32 := Scalar.addi c0_i32_151 c100_i32_152
  let c1_i32_153 : BitVec 32 := 1#32
  ⟨c0_i32_151, v189, c1_i32_153⟩
def k0_off4 (k0_t2 : Fin k0_t2_loop.trips) : Fin 2 → Nat :=
  let c0_i32_151 : BitVec 32 := 0#32
  let c1_i32_153 : BitVec 32 := 1#32
  let arg15 : BitVec 32 := Scf.iv c0_i32_151 c1_i32_153 k0_t2
  let v429 : Index := Scalar.indexCast arg15
  let c0_287 : Index := 0#32
  ![v429.toNat, 0]
def k0_off5 (k0_t2 : Fin k0_t2_loop.trips) : Fin 2 → Nat :=
  let c0_i32_151 : BitVec 32 := 0#32
  let c1_i32_153 : BitVec 32 := 1#32
  let arg15 : BitVec 32 := Scf.iv c0_i32_151 c1_i32_153 k0_t2
  let v435 : Index := Scalar.indexCast arg15
  let c16_290 : Index := 16#32
  ![v435.toNat, 16]
def k0_off6 (k0_t2 : Fin k0_t2_loop.trips) : Fin 2 → Nat :=
  let c0_i32_151 : BitVec 32 := 0#32
  let c1_i32_153 : BitVec 32 := 1#32
  let arg15 : BitVec 32 := Scf.iv c0_i32_151 c1_i32_153 k0_t2
  let v441 : Index := Scalar.indexCast arg15
  let c32_293 : Index := 32#32
  ![v441.toNat, 32]
def k0_off7 (k0_t2 : Fin k0_t2_loop.trips) : Fin 2 → Nat :=
  let c0_i32_151 : BitVec 32 := 0#32
  let c1_i32_153 : BitVec 32 := 1#32
  let arg15 : BitVec 32 := Scf.iv c0_i32_151 c1_i32_153 k0_t2
  let v447 : Index := Scalar.indexCast arg15
  let c48_296 : Index := 48#32
  ![v447.toNat, 48]
def k0_off8 (k0_t2 : Fin k0_t2_loop.trips) : Fin 2 → Nat :=
  let c0_i32_151 : BitVec 32 := 0#32
  let c1_i32_153 : BitVec 32 := 1#32
  let arg15 : BitVec 32 := Scf.iv c0_i32_151 c1_i32_153 k0_t2
  let v453 : Index := Scalar.indexCast arg15
  let c64_299 : Index := 64#32
  ![v453.toNat, 64]
def k0_off9 (k0_t2 : Fin k0_t2_loop.trips) : Fin 2 → Nat :=
  let c0_i32_151 : BitVec 32 := 0#32
  let c1_i32_153 : BitVec 32 := 1#32
  let arg15 : BitVec 32 := Scf.iv c0_i32_151 c1_i32_153 k0_t2
  let v459 : Index := Scalar.indexCast arg15
  let c80_302 : Index := 80#32
  ![v459.toNat, 80]
def k0_off10 (k0_t2 : Fin k0_t2_loop.trips) : Fin 2 → Nat :=
  let c0_i32_151 : BitVec 32 := 0#32
  let c1_i32_153 : BitVec 32 := 1#32
  let arg15 : BitVec 32 := Scf.iv c0_i32_151 c1_i32_153 k0_t2
  let v465 : Index := Scalar.indexCast arg15
  let c96_305 : Index := 96#32
  ![v465.toNat, 96]
def k0_off11 (k0_t2 : Fin k0_t2_loop.trips) : Fin 2 → Nat :=
  let c0_i32_151 : BitVec 32 := 0#32
  let c1_i32_153 : BitVec 32 := 1#32
  let arg15 : BitVec 32 := Scf.iv c0_i32_151 c1_i32_153 k0_t2
  let v471 : Index := Scalar.indexCast arg15
  let c112_308 : Index := 112#32
  ![v471.toNat, 112]
def k0_cond2 (k0_t1 : Fin k0_t1_loop.trips) : BitVec 1 :=
  let c6_i32_155 : BitVec 32 := 6#32
  let c0_i32_32 : BitVec 32 := 0#32
  let c1_i32_33 : BitVec 32 := 1#32
  let arg14 : BitVec 32 := Scf.iv c0_i32_32 c1_i32_33 k0_t1
  let v191 : BitVec 32 := Scalar.muli c6_i32_155 arg14
  let c1_i32_156 : BitVec 32 := 1#32
  let v192 : BitVec 32 := Scalar.addi v191 c1_i32_156
  let c6_i32_157 : BitVec 32 := 6#32
  let v193 : BitVec 32 := Scalar.addi v192 c6_i32_157
  let c1_i32_158 : BitVec 32 := 1#32
  let v194 : BitVec 32 := Scalar.subi v193 c1_i32_158
  let c256_i32_159 : BitVec 32 := 256#32
  let v195 : BitVec 1 := Scalar.cmpi .slt v194 c256_i32_159
  let v196 : BitVec 32 := Scalar.extui v195
  let c0_i32_160 : BitVec 32 := 0#32
  let v197 : BitVec 1 := Scalar.cmpi .ne v196 c0_i32_160
  v197

def k0_off12 (k0_t1 : Fin k0_t1_loop.trips) : Fin 2 → Nat :=
  let c6_i32_155 : BitVec 32 := 6#32
  let c0_i32_32 : BitVec 32 := 0#32
  let c1_i32_33 : BitVec 32 := 1#32
  let arg14 : BitVec 32 := Scf.iv c0_i32_32 c1_i32_33 k0_t1
  let v191 : BitVec 32 := Scalar.muli c6_i32_155 arg14
  let c1_i32_156 : BitVec 32 := 1#32
  let v192 : BitVec 32 := Scalar.addi v191 c1_i32_156
  let c6_i32_157 : BitVec 32 := 6#32
  let v193 : BitVec 32 := Scalar.addi v192 c6_i32_157
  let c1_i32_158 : BitVec 32 := 1#32
  let v194 : BitVec 32 := Scalar.subi v193 c1_i32_158
  let c0_i32_288 : BitVec 32 := 0#32
  ![v194.toNat, 0]
@[reducible] def k0_t3_loop : Scf.Loop 32 :=
  let c0_i32_168 : BitVec 32 := 0#32
  let c100_i32_169 : BitVec 32 := 100#32
  let v203 : BitVec 32 := Scalar.addi c0_i32_168 c100_i32_169
  let c1_i32_170 : BitVec 32 := 1#32
  ⟨c0_i32_168, v203, c1_i32_170⟩
def k0_off13 (k0_t3 : Fin k0_t3_loop.trips) : Fin 2 → Nat :=
  let c0_i32_168 : BitVec 32 := 0#32
  let c1_i32_170 : BitVec 32 := 1#32
  let arg15 : BitVec 32 := Scf.iv c0_i32_168 c1_i32_170 k0_t3
  let v429 : Index := Scalar.indexCast arg15
  let c0_287 : Index := 0#32
  ![v429.toNat, 0]
def k0_off14 (k0_t3 : Fin k0_t3_loop.trips) : Fin 2 → Nat :=
  let c0_i32_168 : BitVec 32 := 0#32
  let c1_i32_170 : BitVec 32 := 1#32
  let arg15 : BitVec 32 := Scf.iv c0_i32_168 c1_i32_170 k0_t3
  let v435 : Index := Scalar.indexCast arg15
  let c16_290 : Index := 16#32
  ![v435.toNat, 16]
def k0_off15 (k0_t3 : Fin k0_t3_loop.trips) : Fin 2 → Nat :=
  let c0_i32_168 : BitVec 32 := 0#32
  let c1_i32_170 : BitVec 32 := 1#32
  let arg15 : BitVec 32 := Scf.iv c0_i32_168 c1_i32_170 k0_t3
  let v441 : Index := Scalar.indexCast arg15
  let c32_293 : Index := 32#32
  ![v441.toNat, 32]
def k0_off16 (k0_t3 : Fin k0_t3_loop.trips) : Fin 2 → Nat :=
  let c0_i32_168 : BitVec 32 := 0#32
  let c1_i32_170 : BitVec 32 := 1#32
  let arg15 : BitVec 32 := Scf.iv c0_i32_168 c1_i32_170 k0_t3
  let v447 : Index := Scalar.indexCast arg15
  let c48_296 : Index := 48#32
  ![v447.toNat, 48]
def k0_off17 (k0_t3 : Fin k0_t3_loop.trips) : Fin 2 → Nat :=
  let c0_i32_168 : BitVec 32 := 0#32
  let c1_i32_170 : BitVec 32 := 1#32
  let arg15 : BitVec 32 := Scf.iv c0_i32_168 c1_i32_170 k0_t3
  let v453 : Index := Scalar.indexCast arg15
  let c64_299 : Index := 64#32
  ![v453.toNat, 64]
def k0_off18 (k0_t3 : Fin k0_t3_loop.trips) : Fin 2 → Nat :=
  let c0_i32_168 : BitVec 32 := 0#32
  let c1_i32_170 : BitVec 32 := 1#32
  let arg15 : BitVec 32 := Scf.iv c0_i32_168 c1_i32_170 k0_t3
  let v459 : Index := Scalar.indexCast arg15
  let c80_302 : Index := 80#32
  ![v459.toNat, 80]
def k0_off19 (k0_t3 : Fin k0_t3_loop.trips) : Fin 2 → Nat :=
  let c0_i32_168 : BitVec 32 := 0#32
  let c1_i32_170 : BitVec 32 := 1#32
  let arg15 : BitVec 32 := Scf.iv c0_i32_168 c1_i32_170 k0_t3
  let v465 : Index := Scalar.indexCast arg15
  let c96_305 : Index := 96#32
  ![v465.toNat, 96]
def k0_off20 (k0_t3 : Fin k0_t3_loop.trips) : Fin 2 → Nat :=
  let c0_i32_168 : BitVec 32 := 0#32
  let c1_i32_170 : BitVec 32 := 1#32
  let arg15 : BitVec 32 := Scf.iv c0_i32_168 c1_i32_170 k0_t3
  let v471 : Index := Scalar.indexCast arg15
  let c112_308 : Index := 112#32
  ![v471.toNat, 112]
def k0_off21 (k0_t1 : Fin k0_t1_loop.trips) (c0_i32_173 : BitVec 32) : Fin 2 → Nat :=
  let c3_i32_172 : BitVec 32 := 3#32
  let c0_i32_32 : BitVec 32 := 0#32
  let c1_i32_33 : BitVec 32 := 1#32
  let arg14 : BitVec 32 := Scf.iv c0_i32_32 c1_i32_33 k0_t1
  let v205 : BitVec 32 := Scalar.muli c3_i32_172 arg14
  let v206 : BitVec 32 := Scalar.addi v205 c0_i32_173
  let v209 : Index := Scalar.indexCast v206
  let c0_174 : Index := 0#32
  ![v209.toNat, 0]
def k0_off22 (k0_t1 : Fin k0_t1_loop.trips) (c0_i32_173 : BitVec 32) : Fin 2 → Nat :=
  let c3_i32_172 : BitVec 32 := 3#32
  let c0_i32_32 : BitVec 32 := 0#32
  let c1_i32_33 : BitVec 32 := 1#32
  let arg14 : BitVec 32 := Scf.iv c0_i32_32 c1_i32_33 k0_t1
  let v205 : BitVec 32 := Scalar.muli c3_i32_172 arg14
  let v206 : BitVec 32 := Scalar.addi v205 c0_i32_173
  let v215 : Index := Scalar.indexCast v206
  let c16_175 : Index := 16#32
  ![v215.toNat, 16]
def k0_off23 (k0_t1 : Fin k0_t1_loop.trips) (c0_i32_173 : BitVec 32) : Fin 2 → Nat :=
  let c3_i32_172 : BitVec 32 := 3#32
  let c0_i32_32 : BitVec 32 := 0#32
  let c1_i32_33 : BitVec 32 := 1#32
  let arg14 : BitVec 32 := Scf.iv c0_i32_32 c1_i32_33 k0_t1
  let v205 : BitVec 32 := Scalar.muli c3_i32_172 arg14
  let v206 : BitVec 32 := Scalar.addi v205 c0_i32_173
  let v221 : Index := Scalar.indexCast v206
  let c32_176 : Index := 32#32
  ![v221.toNat, 32]
def k0_off24 (k0_t1 : Fin k0_t1_loop.trips) (c0_i32_173 : BitVec 32) : Fin 2 → Nat :=
  let c3_i32_172 : BitVec 32 := 3#32
  let c0_i32_32 : BitVec 32 := 0#32
  let c1_i32_33 : BitVec 32 := 1#32
  let arg14 : BitVec 32 := Scf.iv c0_i32_32 c1_i32_33 k0_t1
  let v205 : BitVec 32 := Scalar.muli c3_i32_172 arg14
  let v206 : BitVec 32 := Scalar.addi v205 c0_i32_173
  let v227 : Index := Scalar.indexCast v206
  let c48_177 : Index := 48#32
  ![v227.toNat, 48]
def k0_off25 (k0_t1 : Fin k0_t1_loop.trips) (c0_i32_173 : BitVec 32) : Fin 2 → Nat :=
  let c3_i32_172 : BitVec 32 := 3#32
  let c0_i32_32 : BitVec 32 := 0#32
  let c1_i32_33 : BitVec 32 := 1#32
  let arg14 : BitVec 32 := Scf.iv c0_i32_32 c1_i32_33 k0_t1
  let v205 : BitVec 32 := Scalar.muli c3_i32_172 arg14
  let v206 : BitVec 32 := Scalar.addi v205 c0_i32_173
  let v233 : Index := Scalar.indexCast v206
  let c64_178 : Index := 64#32
  ![v233.toNat, 64]
def k0_off26 (k0_t1 : Fin k0_t1_loop.trips) (c0_i32_173 : BitVec 32) : Fin 2 → Nat :=
  let c3_i32_172 : BitVec 32 := 3#32
  let c0_i32_32 : BitVec 32 := 0#32
  let c1_i32_33 : BitVec 32 := 1#32
  let arg14 : BitVec 32 := Scf.iv c0_i32_32 c1_i32_33 k0_t1
  let v205 : BitVec 32 := Scalar.muli c3_i32_172 arg14
  let v206 : BitVec 32 := Scalar.addi v205 c0_i32_173
  let v239 : Index := Scalar.indexCast v206
  let c80_179 : Index := 80#32
  ![v239.toNat, 80]
def k0_off27 (k0_t1 : Fin k0_t1_loop.trips) (c0_i32_173 : BitVec 32) : Fin 2 → Nat :=
  let c3_i32_172 : BitVec 32 := 3#32
  let c0_i32_32 : BitVec 32 := 0#32
  let c1_i32_33 : BitVec 32 := 1#32
  let arg14 : BitVec 32 := Scf.iv c0_i32_32 c1_i32_33 k0_t1
  let v205 : BitVec 32 := Scalar.muli c3_i32_172 arg14
  let v206 : BitVec 32 := Scalar.addi v205 c0_i32_173
  let v245 : Index := Scalar.indexCast v206
  let c96_180 : Index := 96#32
  ![v245.toNat, 96]
def k0_off28 (k0_t1 : Fin k0_t1_loop.trips) (c0_i32_173 : BitVec 32) : Fin 2 → Nat :=
  let c3_i32_172 : BitVec 32 := 3#32
  let c0_i32_32 : BitVec 32 := 0#32
  let c1_i32_33 : BitVec 32 := 1#32
  let arg14 : BitVec 32 := Scf.iv c0_i32_32 c1_i32_33 k0_t1
  let v205 : BitVec 32 := Scalar.muli c3_i32_172 arg14
  let v206 : BitVec 32 := Scalar.addi v205 c0_i32_173
  let v251 : Index := Scalar.indexCast v206
  let c112_181 : Index := 112#32
  ![v251.toNat, 112]
def k0_cond3 (k0_t1 : Fin k0_t1_loop.trips) : BitVec 1 :=
  let c6_i32_190 : BitVec 32 := 6#32
  let c0_i32_32 : BitVec 32 := 0#32
  let c1_i32_33 : BitVec 32 := 1#32
  let arg14 : BitVec 32 := Scf.iv c0_i32_32 c1_i32_33 k0_t1
  let v263 : BitVec 32 := Scalar.muli c6_i32_190 arg14
  let c2_i32_191 : BitVec 32 := 2#32
  let v264 : BitVec 32 := Scalar.addi v263 c2_i32_191
  let c6_i32_192 : BitVec 32 := 6#32
  let v265 : BitVec 32 := Scalar.addi v264 c6_i32_192
  let c1_i32_193 : BitVec 32 := 1#32
  let v266 : BitVec 32 := Scalar.subi v265 c1_i32_193
  let c256_i32_194 : BitVec 32 := 256#32
  let v267 : BitVec 1 := Scalar.cmpi .slt v266 c256_i32_194
  let v268 : BitVec 32 := Scalar.extui v267
  let c0_i32_195 : BitVec 32 := 0#32
  let v269 : BitVec 1 := Scalar.cmpi .ne v268 c0_i32_195
  v269

def k0_off29 (k0_t1 : Fin k0_t1_loop.trips) : Fin 2 → Nat :=
  let c6_i32_190 : BitVec 32 := 6#32
  let c0_i32_32 : BitVec 32 := 0#32
  let c1_i32_33 : BitVec 32 := 1#32
  let arg14 : BitVec 32 := Scf.iv c0_i32_32 c1_i32_33 k0_t1
  let v263 : BitVec 32 := Scalar.muli c6_i32_190 arg14
  let c2_i32_191 : BitVec 32 := 2#32
  let v264 : BitVec 32 := Scalar.addi v263 c2_i32_191
  let c6_i32_192 : BitVec 32 := 6#32
  let v265 : BitVec 32 := Scalar.addi v264 c6_i32_192
  let c1_i32_193 : BitVec 32 := 1#32
  let v266 : BitVec 32 := Scalar.subi v265 c1_i32_193
  let c0_i32_288 : BitVec 32 := 0#32
  ![v266.toNat, 0]
@[reducible] def k0_t4_loop : Scf.Loop 32 :=
  let c0_i32_203 : BitVec 32 := 0#32
  let c100_i32_204 : BitVec 32 := 100#32
  let v275 : BitVec 32 := Scalar.addi c0_i32_203 c100_i32_204
  let c1_i32_205 : BitVec 32 := 1#32
  ⟨c0_i32_203, v275, c1_i32_205⟩
def k0_off30 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let v429 : Index := Scalar.indexCast arg15
  let c0_287 : Index := 0#32
  ![v429.toNat, 0]
def k0_off31 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let v435 : Index := Scalar.indexCast arg15
  let c16_290 : Index := 16#32
  ![v435.toNat, 16]
def k0_off32 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let v441 : Index := Scalar.indexCast arg15
  let c32_293 : Index := 32#32
  ![v441.toNat, 32]
def k0_off33 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let v447 : Index := Scalar.indexCast arg15
  let c48_296 : Index := 48#32
  ![v447.toNat, 48]
def k0_off34 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let v453 : Index := Scalar.indexCast arg15
  let c64_299 : Index := 64#32
  ![v453.toNat, 64]
def k0_off35 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let v459 : Index := Scalar.indexCast arg15
  let c80_302 : Index := 80#32
  ![v459.toNat, 80]
def k0_off36 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let v465 : Index := Scalar.indexCast arg15
  let c96_305 : Index := 96#32
  ![v465.toNat, 96]
def k0_off37 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let v471 : Index := Scalar.indexCast arg15
  let c112_308 : Index := 112#32
  ![v471.toNat, 112]
def k0_cond4 (k0_t1 : Fin k0_t1_loop.trips) : BitVec 1 :=
  let c6_i32_207 : BitVec 32 := 6#32
  let c0_i32_32 : BitVec 32 := 0#32
  let c1_i32_33 : BitVec 32 := 1#32
  let arg14 : BitVec 32 := Scf.iv c0_i32_32 c1_i32_33 k0_t1
  let v277 : BitVec 32 := Scalar.muli c6_i32_207 arg14
  let c3_i32_208 : BitVec 32 := 3#32
  let v278 : BitVec 32 := Scalar.addi v277 c3_i32_208
  let c6_i32_209 : BitVec 32 := 6#32
  let v279 : BitVec 32 := Scalar.addi v278 c6_i32_209
  let c1_i32_210 : BitVec 32 := 1#32
  let v280 : BitVec 32 := Scalar.subi v279 c1_i32_210
  let c256_i32_211 : BitVec 32 := 256#32
  let v281 : BitVec 1 := Scalar.cmpi .slt v280 c256_i32_211
  let v282 : BitVec 32 := Scalar.extui v281
  let c0_i32_212 : BitVec 32 := 0#32
  let v283 : BitVec 1 := Scalar.cmpi .ne v282 c0_i32_212
  v283

def k0_off38 (k0_t1 : Fin k0_t1_loop.trips) : Fin 2 → Nat :=
  let c6_i32_207 : BitVec 32 := 6#32
  let c0_i32_32 : BitVec 32 := 0#32
  let c1_i32_33 : BitVec 32 := 1#32
  let arg14 : BitVec 32 := Scf.iv c0_i32_32 c1_i32_33 k0_t1
  let v277 : BitVec 32 := Scalar.muli c6_i32_207 arg14
  let c3_i32_208 : BitVec 32 := 3#32
  let v278 : BitVec 32 := Scalar.addi v277 c3_i32_208
  let c6_i32_209 : BitVec 32 := 6#32
  let v279 : BitVec 32 := Scalar.addi v278 c6_i32_209
  let c1_i32_210 : BitVec 32 := 1#32
  let v280 : BitVec 32 := Scalar.subi v279 c1_i32_210
  let c0_i32_288 : BitVec 32 := 0#32
  ![v280.toNat, 0]
@[reducible] def k0_t5_loop : Scf.Loop 32 :=
  let c0_i32_220 : BitVec 32 := 0#32
  let c100_i32_221 : BitVec 32 := 100#32
  let v289 : BitVec 32 := Scalar.addi c0_i32_220 c100_i32_221
  let c1_i32_222 : BitVec 32 := 1#32
  ⟨c0_i32_220, v289, c1_i32_222⟩
def k0_off39 (k0_t5 : Fin k0_t5_loop.trips) : Fin 2 → Nat :=
  let c0_i32_220 : BitVec 32 := 0#32
  let c1_i32_222 : BitVec 32 := 1#32
  let arg15 : BitVec 32 := Scf.iv c0_i32_220 c1_i32_222 k0_t5
  let v429 : Index := Scalar.indexCast arg15
  let c0_287 : Index := 0#32
  ![v429.toNat, 0]
def k0_off40 (k0_t5 : Fin k0_t5_loop.trips) : Fin 2 → Nat :=
  let c0_i32_220 : BitVec 32 := 0#32
  let c1_i32_222 : BitVec 32 := 1#32
  let arg15 : BitVec 32 := Scf.iv c0_i32_220 c1_i32_222 k0_t5
  let v435 : Index := Scalar.indexCast arg15
  let c16_290 : Index := 16#32
  ![v435.toNat, 16]
def k0_off41 (k0_t5 : Fin k0_t5_loop.trips) : Fin 2 → Nat :=
  let c0_i32_220 : BitVec 32 := 0#32
  let c1_i32_222 : BitVec 32 := 1#32
  let arg15 : BitVec 32 := Scf.iv c0_i32_220 c1_i32_222 k0_t5
  let v441 : Index := Scalar.indexCast arg15
  let c32_293 : Index := 32#32
  ![v441.toNat, 32]
def k0_off42 (k0_t5 : Fin k0_t5_loop.trips) : Fin 2 → Nat :=
  let c0_i32_220 : BitVec 32 := 0#32
  let c1_i32_222 : BitVec 32 := 1#32
  let arg15 : BitVec 32 := Scf.iv c0_i32_220 c1_i32_222 k0_t5
  let v447 : Index := Scalar.indexCast arg15
  let c48_296 : Index := 48#32
  ![v447.toNat, 48]
def k0_off43 (k0_t5 : Fin k0_t5_loop.trips) : Fin 2 → Nat :=
  let c0_i32_220 : BitVec 32 := 0#32
  let c1_i32_222 : BitVec 32 := 1#32
  let arg15 : BitVec 32 := Scf.iv c0_i32_220 c1_i32_222 k0_t5
  let v453 : Index := Scalar.indexCast arg15
  let c64_299 : Index := 64#32
  ![v453.toNat, 64]
def k0_off44 (k0_t5 : Fin k0_t5_loop.trips) : Fin 2 → Nat :=
  let c0_i32_220 : BitVec 32 := 0#32
  let c1_i32_222 : BitVec 32 := 1#32
  let arg15 : BitVec 32 := Scf.iv c0_i32_220 c1_i32_222 k0_t5
  let v459 : Index := Scalar.indexCast arg15
  let c80_302 : Index := 80#32
  ![v459.toNat, 80]
def k0_off45 (k0_t5 : Fin k0_t5_loop.trips) : Fin 2 → Nat :=
  let c0_i32_220 : BitVec 32 := 0#32
  let c1_i32_222 : BitVec 32 := 1#32
  let arg15 : BitVec 32 := Scf.iv c0_i32_220 c1_i32_222 k0_t5
  let v465 : Index := Scalar.indexCast arg15
  let c96_305 : Index := 96#32
  ![v465.toNat, 96]
def k0_off46 (k0_t5 : Fin k0_t5_loop.trips) : Fin 2 → Nat :=
  let c0_i32_220 : BitVec 32 := 0#32
  let c1_i32_222 : BitVec 32 := 1#32
  let arg15 : BitVec 32 := Scf.iv c0_i32_220 c1_i32_222 k0_t5
  let v471 : Index := Scalar.indexCast arg15
  let c112_308 : Index := 112#32
  ![v471.toNat, 112]
def k0_cond5 (k0_t1 : Fin k0_t1_loop.trips) : BitVec 1 :=
  let c6_i32_242 : BitVec 32 := 6#32
  let c0_i32_32 : BitVec 32 := 0#32
  let c1_i32_33 : BitVec 32 := 1#32
  let arg14 : BitVec 32 := Scf.iv c0_i32_32 c1_i32_33 k0_t1
  let v349 : BitVec 32 := Scalar.muli c6_i32_242 arg14
  let c4_i32_243 : BitVec 32 := 4#32
  let v350 : BitVec 32 := Scalar.addi v349 c4_i32_243
  let c6_i32_244 : BitVec 32 := 6#32
  let v351 : BitVec 32 := Scalar.addi v350 c6_i32_244
  let c1_i32_245 : BitVec 32 := 1#32
  let v352 : BitVec 32 := Scalar.subi v351 c1_i32_245
  let c256_i32_246 : BitVec 32 := 256#32
  let v353 : BitVec 1 := Scalar.cmpi .slt v352 c256_i32_246
  let v354 : BitVec 32 := Scalar.extui v353
  let c0_i32_247 : BitVec 32 := 0#32
  let v355 : BitVec 1 := Scalar.cmpi .ne v354 c0_i32_247
  v355

def k0_off47 (k0_t1 : Fin k0_t1_loop.trips) : Fin 2 → Nat :=
  let c6_i32_242 : BitVec 32 := 6#32
  let c0_i32_32 : BitVec 32 := 0#32
  let c1_i32_33 : BitVec 32 := 1#32
  let arg14 : BitVec 32 := Scf.iv c0_i32_32 c1_i32_33 k0_t1
  let v349 : BitVec 32 := Scalar.muli c6_i32_242 arg14
  let c4_i32_243 : BitVec 32 := 4#32
  let v350 : BitVec 32 := Scalar.addi v349 c4_i32_243
  let c6_i32_244 : BitVec 32 := 6#32
  let v351 : BitVec 32 := Scalar.addi v350 c6_i32_244
  let c1_i32_245 : BitVec 32 := 1#32
  let v352 : BitVec 32 := Scalar.subi v351 c1_i32_245
  let c0_i32_288 : BitVec 32 := 0#32
  ![v352.toNat, 0]
@[reducible] def k0_t6_loop : Scf.Loop 32 :=
  let c0_i32_255 : BitVec 32 := 0#32
  let c100_i32_256 : BitVec 32 := 100#32
  let v361 : BitVec 32 := Scalar.addi c0_i32_255 c100_i32_256
  let c1_i32_257 : BitVec 32 := 1#32
  ⟨c0_i32_255, v361, c1_i32_257⟩
def k0_off48 (k0_t6 : Fin k0_t6_loop.trips) : Fin 2 → Nat :=
  let c0_i32_255 : BitVec 32 := 0#32
  let c1_i32_257 : BitVec 32 := 1#32
  let arg15 : BitVec 32 := Scf.iv c0_i32_255 c1_i32_257 k0_t6
  let v429 : Index := Scalar.indexCast arg15
  let c0_287 : Index := 0#32
  ![v429.toNat, 0]
def k0_off49 (k0_t6 : Fin k0_t6_loop.trips) : Fin 2 → Nat :=
  let c0_i32_255 : BitVec 32 := 0#32
  let c1_i32_257 : BitVec 32 := 1#32
  let arg15 : BitVec 32 := Scf.iv c0_i32_255 c1_i32_257 k0_t6
  let v435 : Index := Scalar.indexCast arg15
  let c16_290 : Index := 16#32
  ![v435.toNat, 16]
def k0_off50 (k0_t6 : Fin k0_t6_loop.trips) : Fin 2 → Nat :=
  let c0_i32_255 : BitVec 32 := 0#32
  let c1_i32_257 : BitVec 32 := 1#32
  let arg15 : BitVec 32 := Scf.iv c0_i32_255 c1_i32_257 k0_t6
  let v441 : Index := Scalar.indexCast arg15
  let c32_293 : Index := 32#32
  ![v441.toNat, 32]
def k0_off51 (k0_t6 : Fin k0_t6_loop.trips) : Fin 2 → Nat :=
  let c0_i32_255 : BitVec 32 := 0#32
  let c1_i32_257 : BitVec 32 := 1#32
  let arg15 : BitVec 32 := Scf.iv c0_i32_255 c1_i32_257 k0_t6
  let v447 : Index := Scalar.indexCast arg15
  let c48_296 : Index := 48#32
  ![v447.toNat, 48]
def k0_off52 (k0_t6 : Fin k0_t6_loop.trips) : Fin 2 → Nat :=
  let c0_i32_255 : BitVec 32 := 0#32
  let c1_i32_257 : BitVec 32 := 1#32
  let arg15 : BitVec 32 := Scf.iv c0_i32_255 c1_i32_257 k0_t6
  let v453 : Index := Scalar.indexCast arg15
  let c64_299 : Index := 64#32
  ![v453.toNat, 64]
def k0_off53 (k0_t6 : Fin k0_t6_loop.trips) : Fin 2 → Nat :=
  let c0_i32_255 : BitVec 32 := 0#32
  let c1_i32_257 : BitVec 32 := 1#32
  let arg15 : BitVec 32 := Scf.iv c0_i32_255 c1_i32_257 k0_t6
  let v459 : Index := Scalar.indexCast arg15
  let c80_302 : Index := 80#32
  ![v459.toNat, 80]
def k0_off54 (k0_t6 : Fin k0_t6_loop.trips) : Fin 2 → Nat :=
  let c0_i32_255 : BitVec 32 := 0#32
  let c1_i32_257 : BitVec 32 := 1#32
  let arg15 : BitVec 32 := Scf.iv c0_i32_255 c1_i32_257 k0_t6
  let v465 : Index := Scalar.indexCast arg15
  let c96_305 : Index := 96#32
  ![v465.toNat, 96]
def k0_off55 (k0_t6 : Fin k0_t6_loop.trips) : Fin 2 → Nat :=
  let c0_i32_255 : BitVec 32 := 0#32
  let c1_i32_257 : BitVec 32 := 1#32
  let arg15 : BitVec 32 := Scf.iv c0_i32_255 c1_i32_257 k0_t6
  let v471 : Index := Scalar.indexCast arg15
  let c112_308 : Index := 112#32
  ![v471.toNat, 112]
def k0_cond6 (k0_t1 : Fin k0_t1_loop.trips) : BitVec 1 :=
  let c6_i32_259 : BitVec 32 := 6#32
  let c0_i32_32 : BitVec 32 := 0#32
  let c1_i32_33 : BitVec 32 := 1#32
  let arg14 : BitVec 32 := Scf.iv c0_i32_32 c1_i32_33 k0_t1
  let v363 : BitVec 32 := Scalar.muli c6_i32_259 arg14
  let c5_i32 : BitVec 32 := 5#32
  let v364 : BitVec 32 := Scalar.addi v363 c5_i32
  let c6_i32_260 : BitVec 32 := 6#32
  let v365 : BitVec 32 := Scalar.addi v364 c6_i32_260
  let c1_i32_261 : BitVec 32 := 1#32
  let v366 : BitVec 32 := Scalar.subi v365 c1_i32_261
  let c256_i32_262 : BitVec 32 := 256#32
  let v367 : BitVec 1 := Scalar.cmpi .slt v366 c256_i32_262
  let v368 : BitVec 32 := Scalar.extui v367
  let c0_i32_263 : BitVec 32 := 0#32
  let v369 : BitVec 1 := Scalar.cmpi .ne v368 c0_i32_263
  v369

def k0_off56 (k0_t1 : Fin k0_t1_loop.trips) : Fin 2 → Nat :=
  let c6_i32_259 : BitVec 32 := 6#32
  let c0_i32_32 : BitVec 32 := 0#32
  let c1_i32_33 : BitVec 32 := 1#32
  let arg14 : BitVec 32 := Scf.iv c0_i32_32 c1_i32_33 k0_t1
  let v363 : BitVec 32 := Scalar.muli c6_i32_259 arg14
  let c5_i32 : BitVec 32 := 5#32
  let v364 : BitVec 32 := Scalar.addi v363 c5_i32
  let c6_i32_260 : BitVec 32 := 6#32
  let v365 : BitVec 32 := Scalar.addi v364 c6_i32_260
  let c1_i32_261 : BitVec 32 := 1#32
  let v366 : BitVec 32 := Scalar.subi v365 c1_i32_261
  let c0_i32_288 : BitVec 32 := 0#32
  ![v366.toNat, 0]
@[reducible] def k0_t7_loop : Scf.Loop 32 :=
  let c0_i32_271 : BitVec 32 := 0#32
  let c100_i32_272 : BitVec 32 := 100#32
  let v375 : BitVec 32 := Scalar.addi c0_i32_271 c100_i32_272
  let c1_i32_273 : BitVec 32 := 1#32
  ⟨c0_i32_271, v375, c1_i32_273⟩
def k0_off57 (k0_t7 : Fin k0_t7_loop.trips) : Fin 2 → Nat :=
  let c0_i32_271 : BitVec 32 := 0#32
  let c1_i32_273 : BitVec 32 := 1#32
  let arg15 : BitVec 32 := Scf.iv c0_i32_271 c1_i32_273 k0_t7
  let v429 : Index := Scalar.indexCast arg15
  let c0_287 : Index := 0#32
  ![v429.toNat, 0]
def k0_off58 (k0_t7 : Fin k0_t7_loop.trips) : Fin 2 → Nat :=
  let c0_i32_271 : BitVec 32 := 0#32
  let c1_i32_273 : BitVec 32 := 1#32
  let arg15 : BitVec 32 := Scf.iv c0_i32_271 c1_i32_273 k0_t7
  let v435 : Index := Scalar.indexCast arg15
  let c16_290 : Index := 16#32
  ![v435.toNat, 16]
def k0_off59 (k0_t7 : Fin k0_t7_loop.trips) : Fin 2 → Nat :=
  let c0_i32_271 : BitVec 32 := 0#32
  let c1_i32_273 : BitVec 32 := 1#32
  let arg15 : BitVec 32 := Scf.iv c0_i32_271 c1_i32_273 k0_t7
  let v441 : Index := Scalar.indexCast arg15
  let c32_293 : Index := 32#32
  ![v441.toNat, 32]
def k0_off60 (k0_t7 : Fin k0_t7_loop.trips) : Fin 2 → Nat :=
  let c0_i32_271 : BitVec 32 := 0#32
  let c1_i32_273 : BitVec 32 := 1#32
  let arg15 : BitVec 32 := Scf.iv c0_i32_271 c1_i32_273 k0_t7
  let v447 : Index := Scalar.indexCast arg15
  let c48_296 : Index := 48#32
  ![v447.toNat, 48]
def k0_off61 (k0_t7 : Fin k0_t7_loop.trips) : Fin 2 → Nat :=
  let c0_i32_271 : BitVec 32 := 0#32
  let c1_i32_273 : BitVec 32 := 1#32
  let arg15 : BitVec 32 := Scf.iv c0_i32_271 c1_i32_273 k0_t7
  let v453 : Index := Scalar.indexCast arg15
  let c64_299 : Index := 64#32
  ![v453.toNat, 64]
def k0_off62 (k0_t7 : Fin k0_t7_loop.trips) : Fin 2 → Nat :=
  let c0_i32_271 : BitVec 32 := 0#32
  let c1_i32_273 : BitVec 32 := 1#32
  let arg15 : BitVec 32 := Scf.iv c0_i32_271 c1_i32_273 k0_t7
  let v459 : Index := Scalar.indexCast arg15
  let c80_302 : Index := 80#32
  ![v459.toNat, 80]
def k0_off63 (k0_t7 : Fin k0_t7_loop.trips) : Fin 2 → Nat :=
  let c0_i32_271 : BitVec 32 := 0#32
  let c1_i32_273 : BitVec 32 := 1#32
  let arg15 : BitVec 32 := Scf.iv c0_i32_271 c1_i32_273 k0_t7
  let v465 : Index := Scalar.indexCast arg15
  let c96_305 : Index := 96#32
  ![v465.toNat, 96]
def k0_off64 (k0_t7 : Fin k0_t7_loop.trips) : Fin 2 → Nat :=
  let c0_i32_271 : BitVec 32 := 0#32
  let c1_i32_273 : BitVec 32 := 1#32
  let arg15 : BitVec 32 := Scf.iv c0_i32_271 c1_i32_273 k0_t7
  let v471 : Index := Scalar.indexCast arg15
  let c112_308 : Index := 112#32
  ![v471.toNat, 112]
@[reducible] def k0_t8_loop : Scf.Loop 32 :=
  let c0_i32_50 : BitVec 32 := 0#32
  let c100_i32 : BitVec 32 := 100#32
  let v41 : BitVec 32 := Scalar.addi c0_i32_50 c100_i32
  let c1_i32_51 : BitVec 32 := 1#32
  ⟨c0_i32_50, v41, c1_i32_51⟩
def k0_off65 (k0_t8 : Fin k0_t8_loop.trips) : Fin 2 → Nat :=
  let c0_i32_50 : BitVec 32 := 0#32
  let c1_i32_51 : BitVec 32 := 1#32
  let arg14 : BitVec 32 := Scf.iv c0_i32_50 c1_i32_51 k0_t8
  let v171 : Index := Scalar.indexCast arg14
  let c0_134 : Index := 0#32
  ![v171.toNat, 0]
def k0_off66 (k0_t8 : Fin k0_t8_loop.trips) : Fin 2 → Nat :=
  let c0_i32_50 : BitVec 32 := 0#32
  let c1_i32_51 : BitVec 32 := 1#32
  let arg14 : BitVec 32 := Scf.iv c0_i32_50 c1_i32_51 k0_t8
  let v177 : Index := Scalar.indexCast arg14
  let c16_137 : Index := 16#32
  ![v177.toNat, 16]
def k0_off67 (k0_t8 : Fin k0_t8_loop.trips) : Fin 2 → Nat :=
  let c0_i32_50 : BitVec 32 := 0#32
  let c1_i32_51 : BitVec 32 := 1#32
  let arg14 : BitVec 32 := Scf.iv c0_i32_50 c1_i32_51 k0_t8
  let v183 : Index := Scalar.indexCast arg14
  let c32_140 : Index := 32#32
  ![v183.toNat, 32]
def k0_off68 (k0_t8 : Fin k0_t8_loop.trips) : Fin 2 → Nat :=
  let c0_i32_50 : BitVec 32 := 0#32
  let c1_i32_51 : BitVec 32 := 1#32
  let arg14 : BitVec 32 := Scf.iv c0_i32_50 c1_i32_51 k0_t8
  let v189 : Index := Scalar.indexCast arg14
  let c48_143 : Index := 48#32
  ![v189.toNat, 48]
def k0_off69 (k0_t8 : Fin k0_t8_loop.trips) : Fin 2 → Nat :=
  let c0_i32_50 : BitVec 32 := 0#32
  let c1_i32_51 : BitVec 32 := 1#32
  let arg14 : BitVec 32 := Scf.iv c0_i32_50 c1_i32_51 k0_t8
  let v195 : Index := Scalar.indexCast arg14
  let c64_146 : Index := 64#32
  ![v195.toNat, 64]
def k0_off70 (k0_t8 : Fin k0_t8_loop.trips) : Fin 2 → Nat :=
  let c0_i32_50 : BitVec 32 := 0#32
  let c1_i32_51 : BitVec 32 := 1#32
  let arg14 : BitVec 32 := Scf.iv c0_i32_50 c1_i32_51 k0_t8
  let v201 : Index := Scalar.indexCast arg14
  let c80_149 : Index := 80#32
  ![v201.toNat, 80]
def k0_off71 (k0_t8 : Fin k0_t8_loop.trips) : Fin 2 → Nat :=
  let c0_i32_50 : BitVec 32 := 0#32
  let c1_i32_51 : BitVec 32 := 1#32
  let arg14 : BitVec 32 := Scf.iv c0_i32_50 c1_i32_51 k0_t8
  let v207 : Index := Scalar.indexCast arg14
  let c96_152 : Index := 96#32
  ![v207.toNat, 96]
def k0_off72 (k0_t8 : Fin k0_t8_loop.trips) : Fin 2 → Nat :=
  let c0_i32_50 : BitVec 32 := 0#32
  let c1_i32_51 : BitVec 32 := 1#32
  let arg14 : BitVec 32 := Scf.iv c0_i32_50 c1_i32_51 k0_t8
  let v213 : Index := Scalar.indexCast arg14
  let c112_155 : Index := 112#32
  ![v213.toNat, 112]
@[reducible] def k0_t9_loop : Scf.Loop 32 :=
  let c0_i32_60 : BitVec 32 := 0#32
  let c100_i32_61 : BitVec 32 := 100#32
  let v48 : BitVec 32 := Scalar.addi c0_i32_60 c100_i32_61
  let c1_i32_62 : BitVec 32 := 1#32
  ⟨c0_i32_60, v48, c1_i32_62⟩
def k0_off73 (k0_t9 : Fin k0_t9_loop.trips) : Fin 2 → Nat :=
  let c0_i32_60 : BitVec 32 := 0#32
  let c1_i32_62 : BitVec 32 := 1#32
  let arg14 : BitVec 32 := Scf.iv c0_i32_60 c1_i32_62 k0_t9
  let v171 : Index := Scalar.indexCast arg14
  let c0_134 : Index := 0#32
  ![v171.toNat, 0]
def k0_off74 (k0_t9 : Fin k0_t9_loop.trips) : Fin 2 → Nat :=
  let c0_i32_60 : BitVec 32 := 0#32
  let c1_i32_62 : BitVec 32 := 1#32
  let arg14 : BitVec 32 := Scf.iv c0_i32_60 c1_i32_62 k0_t9
  let v177 : Index := Scalar.indexCast arg14
  let c16_137 : Index := 16#32
  ![v177.toNat, 16]
def k0_off75 (k0_t9 : Fin k0_t9_loop.trips) : Fin 2 → Nat :=
  let c0_i32_60 : BitVec 32 := 0#32
  let c1_i32_62 : BitVec 32 := 1#32
  let arg14 : BitVec 32 := Scf.iv c0_i32_60 c1_i32_62 k0_t9
  let v183 : Index := Scalar.indexCast arg14
  let c32_140 : Index := 32#32
  ![v183.toNat, 32]
def k0_off76 (k0_t9 : Fin k0_t9_loop.trips) : Fin 2 → Nat :=
  let c0_i32_60 : BitVec 32 := 0#32
  let c1_i32_62 : BitVec 32 := 1#32
  let arg14 : BitVec 32 := Scf.iv c0_i32_60 c1_i32_62 k0_t9
  let v189 : Index := Scalar.indexCast arg14
  let c48_143 : Index := 48#32
  ![v189.toNat, 48]
def k0_off77 (k0_t9 : Fin k0_t9_loop.trips) : Fin 2 → Nat :=
  let c0_i32_60 : BitVec 32 := 0#32
  let c1_i32_62 : BitVec 32 := 1#32
  let arg14 : BitVec 32 := Scf.iv c0_i32_60 c1_i32_62 k0_t9
  let v195 : Index := Scalar.indexCast arg14
  let c64_146 : Index := 64#32
  ![v195.toNat, 64]
def k0_off78 (k0_t9 : Fin k0_t9_loop.trips) : Fin 2 → Nat :=
  let c0_i32_60 : BitVec 32 := 0#32
  let c1_i32_62 : BitVec 32 := 1#32
  let arg14 : BitVec 32 := Scf.iv c0_i32_60 c1_i32_62 k0_t9
  let v201 : Index := Scalar.indexCast arg14
  let c80_149 : Index := 80#32
  ![v201.toNat, 80]
def k0_off79 (k0_t9 : Fin k0_t9_loop.trips) : Fin 2 → Nat :=
  let c0_i32_60 : BitVec 32 := 0#32
  let c1_i32_62 : BitVec 32 := 1#32
  let arg14 : BitVec 32 := Scf.iv c0_i32_60 c1_i32_62 k0_t9
  let v207 : Index := Scalar.indexCast arg14
  let c96_152 : Index := 96#32
  ![v207.toNat, 96]
def k0_off80 (k0_t9 : Fin k0_t9_loop.trips) : Fin 2 → Nat :=
  let c0_i32_60 : BitVec 32 := 0#32
  let c1_i32_62 : BitVec 32 := 1#32
  let arg14 : BitVec 32 := Scf.iv c0_i32_60 c1_i32_62 k0_t9
  let v213 : Index := Scalar.indexCast arg14
  let c112_155 : Index := 112#32
  ![v213.toNat, 112]
@[reducible] def k0_t10_loop : Scf.Loop 32 :=
  let c0_i32_94 : BitVec 32 := 0#32
  let c100_i32_95 : BitVec 32 := 100#32
  let v111 : BitVec 32 := Scalar.addi c0_i32_94 c100_i32_95
  let c1_i32_96 : BitVec 32 := 1#32
  ⟨c0_i32_94, v111, c1_i32_96⟩
def k0_off81 (k0_t10 : Fin k0_t10_loop.trips) : Fin 2 → Nat :=
  let c0_i32_94 : BitVec 32 := 0#32
  let c1_i32_96 : BitVec 32 := 1#32
  let arg14 : BitVec 32 := Scf.iv c0_i32_94 c1_i32_96 k0_t10
  let v171 : Index := Scalar.indexCast arg14
  let c0_134 : Index := 0#32
  ![v171.toNat, 0]
def k0_off82 (k0_t10 : Fin k0_t10_loop.trips) : Fin 2 → Nat :=
  let c0_i32_94 : BitVec 32 := 0#32
  let c1_i32_96 : BitVec 32 := 1#32
  let arg14 : BitVec 32 := Scf.iv c0_i32_94 c1_i32_96 k0_t10
  let v177 : Index := Scalar.indexCast arg14
  let c16_137 : Index := 16#32
  ![v177.toNat, 16]
def k0_off83 (k0_t10 : Fin k0_t10_loop.trips) : Fin 2 → Nat :=
  let c0_i32_94 : BitVec 32 := 0#32
  let c1_i32_96 : BitVec 32 := 1#32
  let arg14 : BitVec 32 := Scf.iv c0_i32_94 c1_i32_96 k0_t10
  let v183 : Index := Scalar.indexCast arg14
  let c32_140 : Index := 32#32
  ![v183.toNat, 32]
def k0_off84 (k0_t10 : Fin k0_t10_loop.trips) : Fin 2 → Nat :=
  let c0_i32_94 : BitVec 32 := 0#32
  let c1_i32_96 : BitVec 32 := 1#32
  let arg14 : BitVec 32 := Scf.iv c0_i32_94 c1_i32_96 k0_t10
  let v189 : Index := Scalar.indexCast arg14
  let c48_143 : Index := 48#32
  ![v189.toNat, 48]
def k0_off85 (k0_t10 : Fin k0_t10_loop.trips) : Fin 2 → Nat :=
  let c0_i32_94 : BitVec 32 := 0#32
  let c1_i32_96 : BitVec 32 := 1#32
  let arg14 : BitVec 32 := Scf.iv c0_i32_94 c1_i32_96 k0_t10
  let v195 : Index := Scalar.indexCast arg14
  let c64_146 : Index := 64#32
  ![v195.toNat, 64]
def k0_off86 (k0_t10 : Fin k0_t10_loop.trips) : Fin 2 → Nat :=
  let c0_i32_94 : BitVec 32 := 0#32
  let c1_i32_96 : BitVec 32 := 1#32
  let arg14 : BitVec 32 := Scf.iv c0_i32_94 c1_i32_96 k0_t10
  let v201 : Index := Scalar.indexCast arg14
  let c80_149 : Index := 80#32
  ![v201.toNat, 80]
def k0_off87 (k0_t10 : Fin k0_t10_loop.trips) : Fin 2 → Nat :=
  let c0_i32_94 : BitVec 32 := 0#32
  let c1_i32_96 : BitVec 32 := 1#32
  let arg14 : BitVec 32 := Scf.iv c0_i32_94 c1_i32_96 k0_t10
  let v207 : Index := Scalar.indexCast arg14
  let c96_152 : Index := 96#32
  ![v207.toNat, 96]
def k0_off88 (k0_t10 : Fin k0_t10_loop.trips) : Fin 2 → Nat :=
  let c0_i32_94 : BitVec 32 := 0#32
  let c1_i32_96 : BitVec 32 := 1#32
  let arg14 : BitVec 32 := Scf.iv c0_i32_94 c1_i32_96 k0_t10
  let v213 : Index := Scalar.indexCast arg14
  let c112_155 : Index := 112#32
  ![v213.toNat, 112]
@[reducible] def k0_t11_loop : Scf.Loop 32 :=
  let c0_i32_105 : BitVec 32 := 0#32
  let c100_i32_106 : BitVec 32 := 100#32
  let v118 : BitVec 32 := Scalar.addi c0_i32_105 c100_i32_106
  let c1_i32_107 : BitVec 32 := 1#32
  ⟨c0_i32_105, v118, c1_i32_107⟩
def k0_off89 (k0_t11 : Fin k0_t11_loop.trips) : Fin 2 → Nat :=
  let c0_i32_105 : BitVec 32 := 0#32
  let c1_i32_107 : BitVec 32 := 1#32
  let arg14 : BitVec 32 := Scf.iv c0_i32_105 c1_i32_107 k0_t11
  let v171 : Index := Scalar.indexCast arg14
  let c0_134 : Index := 0#32
  ![v171.toNat, 0]
def k0_off90 (k0_t11 : Fin k0_t11_loop.trips) : Fin 2 → Nat :=
  let c0_i32_105 : BitVec 32 := 0#32
  let c1_i32_107 : BitVec 32 := 1#32
  let arg14 : BitVec 32 := Scf.iv c0_i32_105 c1_i32_107 k0_t11
  let v177 : Index := Scalar.indexCast arg14
  let c16_137 : Index := 16#32
  ![v177.toNat, 16]
def k0_off91 (k0_t11 : Fin k0_t11_loop.trips) : Fin 2 → Nat :=
  let c0_i32_105 : BitVec 32 := 0#32
  let c1_i32_107 : BitVec 32 := 1#32
  let arg14 : BitVec 32 := Scf.iv c0_i32_105 c1_i32_107 k0_t11
  let v183 : Index := Scalar.indexCast arg14
  let c32_140 : Index := 32#32
  ![v183.toNat, 32]
def k0_off92 (k0_t11 : Fin k0_t11_loop.trips) : Fin 2 → Nat :=
  let c0_i32_105 : BitVec 32 := 0#32
  let c1_i32_107 : BitVec 32 := 1#32
  let arg14 : BitVec 32 := Scf.iv c0_i32_105 c1_i32_107 k0_t11
  let v189 : Index := Scalar.indexCast arg14
  let c48_143 : Index := 48#32
  ![v189.toNat, 48]
def k0_off93 (k0_t11 : Fin k0_t11_loop.trips) : Fin 2 → Nat :=
  let c0_i32_105 : BitVec 32 := 0#32
  let c1_i32_107 : BitVec 32 := 1#32
  let arg14 : BitVec 32 := Scf.iv c0_i32_105 c1_i32_107 k0_t11
  let v195 : Index := Scalar.indexCast arg14
  let c64_146 : Index := 64#32
  ![v195.toNat, 64]
def k0_off94 (k0_t11 : Fin k0_t11_loop.trips) : Fin 2 → Nat :=
  let c0_i32_105 : BitVec 32 := 0#32
  let c1_i32_107 : BitVec 32 := 1#32
  let arg14 : BitVec 32 := Scf.iv c0_i32_105 c1_i32_107 k0_t11
  let v201 : Index := Scalar.indexCast arg14
  let c80_149 : Index := 80#32
  ![v201.toNat, 80]
def k0_off95 (k0_t11 : Fin k0_t11_loop.trips) : Fin 2 → Nat :=
  let c0_i32_105 : BitVec 32 := 0#32
  let c1_i32_107 : BitVec 32 := 1#32
  let arg14 : BitVec 32 := Scf.iv c0_i32_105 c1_i32_107 k0_t11
  let v207 : Index := Scalar.indexCast arg14
  let c96_152 : Index := 96#32
  ![v207.toNat, 96]
def k0_off96 (k0_t11 : Fin k0_t11_loop.trips) : Fin 2 → Nat :=
  let c0_i32_105 : BitVec 32 := 0#32
  let c1_i32_107 : BitVec 32 := 1#32
  let arg14 : BitVec 32 := Scf.iv c0_i32_105 c1_i32_107 k0_t11
  let v213 : Index := Scalar.indexCast arg14
  let c112_155 : Index := 112#32
  ![v213.toNat, 112]
def k0_off97 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v168 : BitVec 32 := Scalar.muli v1 c128_i32
  let c0_i32_132_r1 : BitVec 32 := 0#32
  ![v168.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S32x256x100 : S4096x200.ShapeCasts S32x256x100
  squeezes_S1x256x100_S256x100 : S1x256x100.Squeezes S256x100
  inb_S6x100x128_S1x100x128_0_0_0 : ∀ a, (![0, 0, 0] : Fin 3 → Nat) a + S1x100x128.size a ≤ S6x100x128.size a
  squeezes_S1x100x128_S100x128 : S1x100x128.Squeezes S100x128
  inb_S256x100_S1x100_0_0 : ∀ a, (![0, 0] : Fin 2 → Nat) a + S1x100.size a ≤ S256x100.size a
  squeezes_S1x100_S100 : S1x100.Squeezes S100
  inb_S100000x128_S100000x128_0_0 : ∀ a, (![0, 0] : Fin 2 → Nat) a + S100000x128.size a ≤ S100000x128.size a
  gathers_S100000x128_S100x128 : S100000x128.Gathers 0 S100x128
  inb_S6x100x128_S1x100x128_1_0_0 : ∀ a, (![1, 0, 0] : Fin 3 → Nat) a + S1x100x128.size a ≤ S6x100x128.size a
  inb_S256x100_S1x100_1_0 : ∀ a, (![1, 0] : Fin 2 → Nat) a + S1x100.size a ≤ S256x100.size a
  inb_S6x100x128_S1x100x128_2_0_0 : ∀ a, (![2, 0, 0] : Fin 3 → Nat) a + S1x100x128.size a ≤ S6x100x128.size a
  inb_S256x100_S1x100_2_0 : ∀ a, (![2, 0] : Fin 2 → Nat) a + S1x100.size a ≤ S256x100.size a
  inb_S6x100x128_S1x100x128_3_0_0 : ∀ a, (![3, 0, 0] : Fin 3 → Nat) a + S1x100x128.size a ≤ S6x100x128.size a
  inb_S256x100_S1x100_3_0 : ∀ a, (![3, 0] : Fin 2 → Nat) a + S1x100.size a ≤ S256x100.size a
  inb_S6x100x128_S1x100x128_4_0_0 : ∀ a, (![4, 0, 0] : Fin 3 → Nat) a + S1x100x128.size a ≤ S6x100x128.size a
  inb_S256x100_S1x100_4_0 : ∀ a, (![4, 0] : Fin 2 → Nat) a + S1x100.size a ≤ S256x100.size a
  inb_S6x100x128_S1x100x128_5_0_0 : ∀ a, (![5, 0, 0] : Fin 3 → Nat) a + S1x100x128.size a ≤ S6x100x128.size a
  h_S1x16 : 0 < S1x16.numel
  shapeCasts_S1x16_S16 : S1x16.ShapeCasts S16
  shapeCasts_S16_S1x16 : S16.ShapeCasts S1x16
  inb_S256x100_S1x100_252_0 : ∀ a, (![252, 0] : Fin 2 → Nat) a + S1x100.size a ≤ S256x100.size a
  inb_S256x100_S1x100_253_0 : ∀ a, (![253, 0] : Fin 2 → Nat) a + S1x100.size a ≤ S256x100.size a
  inb_S128x128_S1x16_126_0 : ∀ a, (![126, 0] : Fin 2 → Nat) a + S1x16.size a ≤ S128x128.size a
  inb_S128x128_S1x16_126_16 : ∀ a, (![126, 16] : Fin 2 → Nat) a + S1x16.size a ≤ S128x128.size a
  inb_S128x128_S1x16_126_32 : ∀ a, (![126, 32] : Fin 2 → Nat) a + S1x16.size a ≤ S128x128.size a
  inb_S128x128_S1x16_126_48 : ∀ a, (![126, 48] : Fin 2 → Nat) a + S1x16.size a ≤ S128x128.size a
  inb_S128x128_S1x16_126_64 : ∀ a, (![126, 64] : Fin 2 → Nat) a + S1x16.size a ≤ S128x128.size a
  inb_S128x128_S1x16_126_80 : ∀ a, (![126, 80] : Fin 2 → Nat) a + S1x16.size a ≤ S128x128.size a
  inb_S128x128_S1x16_126_96 : ∀ a, (![126, 96] : Fin 2 → Nat) a + S1x16.size a ≤ S128x128.size a
  inb_S128x128_S1x16_126_112 : ∀ a, (![126, 112] : Fin 2 → Nat) a + S1x16.size a ≤ S128x128.size a
  inb_S256x100_S1x100_254_0 : ∀ a, (![254, 0] : Fin 2 → Nat) a + S1x100.size a ≤ S256x100.size a
  inb_S256x100_S1x100_255_0 : ∀ a, (![255, 0] : Fin 2 → Nat) a + S1x100.size a ≤ S256x100.size a
  inb_S128x128_S1x16_127_0 : ∀ a, (![127, 0] : Fin 2 → Nat) a + S1x16.size a ≤ S128x128.size a
  inb_S128x128_S1x16_127_16 : ∀ a, (![127, 16] : Fin 2 → Nat) a + S1x16.size a ≤ S128x128.size a
  inb_S128x128_S1x16_127_32 : ∀ a, (![127, 32] : Fin 2 → Nat) a + S1x16.size a ≤ S128x128.size a
  inb_S128x128_S1x16_127_48 : ∀ a, (![127, 48] : Fin 2 → Nat) a + S1x16.size a ≤ S128x128.size a
  inb_S128x128_S1x16_127_64 : ∀ a, (![127, 64] : Fin 2 → Nat) a + S1x16.size a ≤ S128x128.size a
  inb_S128x128_S1x16_127_80 : ∀ a, (![127, 80] : Fin 2 → Nat) a + S1x16.size a ≤ S128x128.size a
  inb_S128x128_S1x16_127_96 : ∀ a, (![127, 96] : Fin 2 → Nat) a + S1x16.size a ≤ S128x128.size a
  inb_S128x128_S1x16_127_112 : ∀ a, (![127, 112] : Fin 2 → Nat) a + S1x16.size a ≤ S128x128.size a
  transposes_S1024x128_S128x1024_1_0 : S1024x128.Transposes [1, 0] S128x1024
  bitsLt_bf16_f32 : FTy.bits .bf16 < FTy.bits .f32
  shapeCasts_S1024_S1x1024 : S1024.ShapeCasts S1x1024
  transposes_S512x1024_S1024x512_1_0 : S512x1024.Transposes [1, 0] S1024x512
  shapeCasts_S512_S1x512 : S512.ShapeCasts S1x512
  transposes_S64x512_S512x64_1_0 : S64x512.Transposes [1, 0] S512x64
  shapeCasts_S64_S1x64 : S64.ShapeCasts S1x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  dot_S2048x128_S128x1024_S2048x1024_1_0_0_1_n_n_wf : DotDims.WF S2048x128 S128x1024 S2048x1024 [1] [0] [0] [1] [] []
  dot_S2048x1024_S1024x512_S2048x512_1_0_0_1_n_n_wf : DotDims.WF S2048x1024 S1024x512 S2048x512 [1] [0] [0] [1] [] []
  dot_S2048x512_S512x64_S2048x64_1_0_0_1_n_n_wf : DotDims.WF S2048x512 S512x64 S2048x64 [1] [0] [0] [1] [] []
  hcc0_scratch3 : 0 + S_.numel ≤ 18
  hcc0_scratch4 : 1 + S_.numel ≤ 18
  hcc0_scratch5 : 2 + S_.numel ≤ 18
  hcc0_scratch6 : 3 + S_.numel ≤ 18
  hcc0_scratch7 : 4 + S_.numel ≤ 18
  hcc0_scratch8 : 5 + S_.numel ≤ 18
  hcc0_scoped0 : 6 + S_.numel ≤ 18
  hcc0_scoped1 : 7 + S_.numel ≤ 18
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x256x100.size a ≤ S32x256x100.size a
  k0_t1_ok : k0_t1_loop.OK
  k0_off2_inb : ∀ k0_t1 : Fin k0_t1_loop.trips, ∀ (k0_h1 : k0_cond1 k0_t1 = 1#1), ∀ a, (k0_off2 k0_t1) a + S1x100.size a ≤ S256x100.size a
  k0_off3_inb : ∀ k0_t1 : Fin k0_t1_loop.trips, ∀ (r : Fin 6), ∀ a, (k0_off3 k0_t1 (BitVec.ofNat 32 r.val)) a + S1x100.size a ≤ S256x100.size a
  k0_t2_ok : k0_t2_loop.OK
  k0_off4_inb : ∀ k0_t2 : Fin k0_t2_loop.trips, ∀ a, (k0_off4 k0_t2) a + S1x16.size a ≤ S100x128.size a
  k0_off5_inb : ∀ k0_t2 : Fin k0_t2_loop.trips, ∀ a, (k0_off5 k0_t2) a + S1x16.size a ≤ S100x128.size a
  k0_off6_inb : ∀ k0_t2 : Fin k0_t2_loop.trips, ∀ a, (k0_off6 k0_t2) a + S1x16.size a ≤ S100x128.size a
  k0_off7_inb : ∀ k0_t2 : Fin k0_t2_loop.trips, ∀ a, (k0_off7 k0_t2) a + S1x16.size a ≤ S100x128.size a
  k0_off8_inb : ∀ k0_t2 : Fin k0_t2_loop.trips, ∀ a, (k0_off8 k0_t2) a + S1x16.size a ≤ S100x128.size a
  k0_off9_inb : ∀ k0_t2 : Fin k0_t2_loop.trips, ∀ a, (k0_off9 k0_t2) a + S1x16.size a ≤ S100x128.size a
  k0_off10_inb : ∀ k0_t2 : Fin k0_t2_loop.trips, ∀ a, (k0_off10 k0_t2) a + S1x16.size a ≤ S100x128.size a
  k0_off11_inb : ∀ k0_t2 : Fin k0_t2_loop.trips, ∀ a, (k0_off11 k0_t2) a + S1x16.size a ≤ S100x128.size a
  k0_off12_inb : ∀ k0_t1 : Fin k0_t1_loop.trips, ∀ (k0_h2 : k0_cond2 k0_t1 = 1#1), ∀ a, (k0_off12 k0_t1) a + S1x100.size a ≤ S256x100.size a
  k0_t3_ok : k0_t3_loop.OK
  k0_off13_inb : ∀ k0_t3 : Fin k0_t3_loop.trips, ∀ a, (k0_off13 k0_t3) a + S1x16.size a ≤ S100x128.size a
  k0_off14_inb : ∀ k0_t3 : Fin k0_t3_loop.trips, ∀ a, (k0_off14 k0_t3) a + S1x16.size a ≤ S100x128.size a
  k0_off15_inb : ∀ k0_t3 : Fin k0_t3_loop.trips, ∀ a, (k0_off15 k0_t3) a + S1x16.size a ≤ S100x128.size a
  k0_off16_inb : ∀ k0_t3 : Fin k0_t3_loop.trips, ∀ a, (k0_off16 k0_t3) a + S1x16.size a ≤ S100x128.size a
  k0_off17_inb : ∀ k0_t3 : Fin k0_t3_loop.trips, ∀ a, (k0_off17 k0_t3) a + S1x16.size a ≤ S100x128.size a
  k0_off18_inb : ∀ k0_t3 : Fin k0_t3_loop.trips, ∀ a, (k0_off18 k0_t3) a + S1x16.size a ≤ S100x128.size a
  k0_off19_inb : ∀ k0_t3 : Fin k0_t3_loop.trips, ∀ a, (k0_off19 k0_t3) a + S1x16.size a ≤ S100x128.size a
  k0_off20_inb : ∀ k0_t3 : Fin k0_t3_loop.trips, ∀ a, (k0_off20 k0_t3) a + S1x16.size a ≤ S100x128.size a
  k0_off21_inb : ∀ k0_t1 : Fin k0_t1_loop.trips, ∀ (r : Fin 3), ∀ a, (k0_off21 k0_t1 (BitVec.ofNat 32 r.val)) a + S1x16.size a ≤ S128x128.size a
  k0_off22_inb : ∀ k0_t1 : Fin k0_t1_loop.trips, ∀ (r : Fin 3), ∀ a, (k0_off22 k0_t1 (BitVec.ofNat 32 r.val)) a + S1x16.size a ≤ S128x128.size a
  k0_off23_inb : ∀ k0_t1 : Fin k0_t1_loop.trips, ∀ (r : Fin 3), ∀ a, (k0_off23 k0_t1 (BitVec.ofNat 32 r.val)) a + S1x16.size a ≤ S128x128.size a
  k0_off24_inb : ∀ k0_t1 : Fin k0_t1_loop.trips, ∀ (r : Fin 3), ∀ a, (k0_off24 k0_t1 (BitVec.ofNat 32 r.val)) a + S1x16.size a ≤ S128x128.size a
  k0_off25_inb : ∀ k0_t1 : Fin k0_t1_loop.trips, ∀ (r : Fin 3), ∀ a, (k0_off25 k0_t1 (BitVec.ofNat 32 r.val)) a + S1x16.size a ≤ S128x128.size a
  k0_off26_inb : ∀ k0_t1 : Fin k0_t1_loop.trips, ∀ (r : Fin 3), ∀ a, (k0_off26 k0_t1 (BitVec.ofNat 32 r.val)) a + S1x16.size a ≤ S128x128.size a
  k0_off27_inb : ∀ k0_t1 : Fin k0_t1_loop.trips, ∀ (r : Fin 3), ∀ a, (k0_off27 k0_t1 (BitVec.ofNat 32 r.val)) a + S1x16.size a ≤ S128x128.size a
  k0_off28_inb : ∀ k0_t1 : Fin k0_t1_loop.trips, ∀ (r : Fin 3), ∀ a, (k0_off28 k0_t1 (BitVec.ofNat 32 r.val)) a + S1x16.size a ≤ S128x128.size a
  k0_off29_inb : ∀ k0_t1 : Fin k0_t1_loop.trips, ∀ (k0_h3 : k0_cond3 k0_t1 = 1#1), ∀ a, (k0_off29 k0_t1) a + S1x100.size a ≤ S256x100.size a
  k0_t4_ok : k0_t4_loop.OK
  k0_off30_inb : ∀ k0_t4 : Fin k0_t4_loop.trips, ∀ a, (k0_off30 k0_t4) a + S1x16.size a ≤ S100x128.size a
  k0_off31_inb : ∀ k0_t4 : Fin k0_t4_loop.trips, ∀ a, (k0_off31 k0_t4) a + S1x16.size a ≤ S100x128.size a
  k0_off32_inb : ∀ k0_t4 : Fin k0_t4_loop.trips, ∀ a, (k0_off32 k0_t4) a + S1x16.size a ≤ S100x128.size a
  k0_off33_inb : ∀ k0_t4 : Fin k0_t4_loop.trips, ∀ a, (k0_off33 k0_t4) a + S1x16.size a ≤ S100x128.size a
  k0_off34_inb : ∀ k0_t4 : Fin k0_t4_loop.trips, ∀ a, (k0_off34 k0_t4) a + S1x16.size a ≤ S100x128.size a
  k0_off35_inb : ∀ k0_t4 : Fin k0_t4_loop.trips, ∀ a, (k0_off35 k0_t4) a + S1x16.size a ≤ S100x128.size a
  k0_off36_inb : ∀ k0_t4 : Fin k0_t4_loop.trips, ∀ a, (k0_off36 k0_t4) a + S1x16.size a ≤ S100x128.size a
  k0_off37_inb : ∀ k0_t4 : Fin k0_t4_loop.trips, ∀ a, (k0_off37 k0_t4) a + S1x16.size a ≤ S100x128.size a
  k0_off38_inb : ∀ k0_t1 : Fin k0_t1_loop.trips, ∀ (k0_h4 : k0_cond4 k0_t1 = 1#1), ∀ a, (k0_off38 k0_t1) a + S1x100.size a ≤ S256x100.size a
  k0_t5_ok : k0_t5_loop.OK
  k0_off39_inb : ∀ k0_t5 : Fin k0_t5_loop.trips, ∀ a, (k0_off39 k0_t5) a + S1x16.size a ≤ S100x128.size a
  k0_off40_inb : ∀ k0_t5 : Fin k0_t5_loop.trips, ∀ a, (k0_off40 k0_t5) a + S1x16.size a ≤ S100x128.size a
  k0_off41_inb : ∀ k0_t5 : Fin k0_t5_loop.trips, ∀ a, (k0_off41 k0_t5) a + S1x16.size a ≤ S100x128.size a
  k0_off42_inb : ∀ k0_t5 : Fin k0_t5_loop.trips, ∀ a, (k0_off42 k0_t5) a + S1x16.size a ≤ S100x128.size a
  k0_off43_inb : ∀ k0_t5 : Fin k0_t5_loop.trips, ∀ a, (k0_off43 k0_t5) a + S1x16.size a ≤ S100x128.size a
  k0_off44_inb : ∀ k0_t5 : Fin k0_t5_loop.trips, ∀ a, (k0_off44 k0_t5) a + S1x16.size a ≤ S100x128.size a
  k0_off45_inb : ∀ k0_t5 : Fin k0_t5_loop.trips, ∀ a, (k0_off45 k0_t5) a + S1x16.size a ≤ S100x128.size a
  k0_off46_inb : ∀ k0_t5 : Fin k0_t5_loop.trips, ∀ a, (k0_off46 k0_t5) a + S1x16.size a ≤ S100x128.size a
  k0_off47_inb : ∀ k0_t1 : Fin k0_t1_loop.trips, ∀ (k0_h5 : k0_cond5 k0_t1 = 1#1), ∀ a, (k0_off47 k0_t1) a + S1x100.size a ≤ S256x100.size a
  k0_t6_ok : k0_t6_loop.OK
  k0_off48_inb : ∀ k0_t6 : Fin k0_t6_loop.trips, ∀ a, (k0_off48 k0_t6) a + S1x16.size a ≤ S100x128.size a
  k0_off49_inb : ∀ k0_t6 : Fin k0_t6_loop.trips, ∀ a, (k0_off49 k0_t6) a + S1x16.size a ≤ S100x128.size a
  k0_off50_inb : ∀ k0_t6 : Fin k0_t6_loop.trips, ∀ a, (k0_off50 k0_t6) a + S1x16.size a ≤ S100x128.size a
  k0_off51_inb : ∀ k0_t6 : Fin k0_t6_loop.trips, ∀ a, (k0_off51 k0_t6) a + S1x16.size a ≤ S100x128.size a
  k0_off52_inb : ∀ k0_t6 : Fin k0_t6_loop.trips, ∀ a, (k0_off52 k0_t6) a + S1x16.size a ≤ S100x128.size a
  k0_off53_inb : ∀ k0_t6 : Fin k0_t6_loop.trips, ∀ a, (k0_off53 k0_t6) a + S1x16.size a ≤ S100x128.size a
  k0_off54_inb : ∀ k0_t6 : Fin k0_t6_loop.trips, ∀ a, (k0_off54 k0_t6) a + S1x16.size a ≤ S100x128.size a
  k0_off55_inb : ∀ k0_t6 : Fin k0_t6_loop.trips, ∀ a, (k0_off55 k0_t6) a + S1x16.size a ≤ S100x128.size a
  k0_off56_inb : ∀ k0_t1 : Fin k0_t1_loop.trips, ∀ (k0_h6 : k0_cond6 k0_t1 = 1#1), ∀ a, (k0_off56 k0_t1) a + S1x100.size a ≤ S256x100.size a
  k0_t7_ok : k0_t7_loop.OK
  k0_off57_inb : ∀ k0_t7 : Fin k0_t7_loop.trips, ∀ a, (k0_off57 k0_t7) a + S1x16.size a ≤ S100x128.size a
  k0_off58_inb : ∀ k0_t7 : Fin k0_t7_loop.trips, ∀ a, (k0_off58 k0_t7) a + S1x16.size a ≤ S100x128.size a
  k0_off59_inb : ∀ k0_t7 : Fin k0_t7_loop.trips, ∀ a, (k0_off59 k0_t7) a + S1x16.size a ≤ S100x128.size a
  k0_off60_inb : ∀ k0_t7 : Fin k0_t7_loop.trips, ∀ a, (k0_off60 k0_t7) a + S1x16.size a ≤ S100x128.size a
  k0_off61_inb : ∀ k0_t7 : Fin k0_t7_loop.trips, ∀ a, (k0_off61 k0_t7) a + S1x16.size a ≤ S100x128.size a
  k0_off62_inb : ∀ k0_t7 : Fin k0_t7_loop.trips, ∀ a, (k0_off62 k0_t7) a + S1x16.size a ≤ S100x128.size a
  k0_off63_inb : ∀ k0_t7 : Fin k0_t7_loop.trips, ∀ a, (k0_off63 k0_t7) a + S1x16.size a ≤ S100x128.size a
  k0_off64_inb : ∀ k0_t7 : Fin k0_t7_loop.trips, ∀ a, (k0_off64 k0_t7) a + S1x16.size a ≤ S100x128.size a
  k0_t8_ok : k0_t8_loop.OK
  k0_off65_inb : ∀ k0_t8 : Fin k0_t8_loop.trips, ∀ a, (k0_off65 k0_t8) a + S1x16.size a ≤ S100x128.size a
  k0_off66_inb : ∀ k0_t8 : Fin k0_t8_loop.trips, ∀ a, (k0_off66 k0_t8) a + S1x16.size a ≤ S100x128.size a
  k0_off67_inb : ∀ k0_t8 : Fin k0_t8_loop.trips, ∀ a, (k0_off67 k0_t8) a + S1x16.size a ≤ S100x128.size a
  k0_off68_inb : ∀ k0_t8 : Fin k0_t8_loop.trips, ∀ a, (k0_off68 k0_t8) a + S1x16.size a ≤ S100x128.size a
  k0_off69_inb : ∀ k0_t8 : Fin k0_t8_loop.trips, ∀ a, (k0_off69 k0_t8) a + S1x16.size a ≤ S100x128.size a
  k0_off70_inb : ∀ k0_t8 : Fin k0_t8_loop.trips, ∀ a, (k0_off70 k0_t8) a + S1x16.size a ≤ S100x128.size a
  k0_off71_inb : ∀ k0_t8 : Fin k0_t8_loop.trips, ∀ a, (k0_off71 k0_t8) a + S1x16.size a ≤ S100x128.size a
  k0_off72_inb : ∀ k0_t8 : Fin k0_t8_loop.trips, ∀ a, (k0_off72 k0_t8) a + S1x16.size a ≤ S100x128.size a
  k0_t9_ok : k0_t9_loop.OK
  k0_off73_inb : ∀ k0_t9 : Fin k0_t9_loop.trips, ∀ a, (k0_off73 k0_t9) a + S1x16.size a ≤ S100x128.size a
  k0_off74_inb : ∀ k0_t9 : Fin k0_t9_loop.trips, ∀ a, (k0_off74 k0_t9) a + S1x16.size a ≤ S100x128.size a
  k0_off75_inb : ∀ k0_t9 : Fin k0_t9_loop.trips, ∀ a, (k0_off75 k0_t9) a + S1x16.size a ≤ S100x128.size a
  k0_off76_inb : ∀ k0_t9 : Fin k0_t9_loop.trips, ∀ a, (k0_off76 k0_t9) a + S1x16.size a ≤ S100x128.size a
  k0_off77_inb : ∀ k0_t9 : Fin k0_t9_loop.trips, ∀ a, (k0_off77 k0_t9) a + S1x16.size a ≤ S100x128.size a
  k0_off78_inb : ∀ k0_t9 : Fin k0_t9_loop.trips, ∀ a, (k0_off78 k0_t9) a + S1x16.size a ≤ S100x128.size a
  k0_off79_inb : ∀ k0_t9 : Fin k0_t9_loop.trips, ∀ a, (k0_off79 k0_t9) a + S1x16.size a ≤ S100x128.size a
  k0_off80_inb : ∀ k0_t9 : Fin k0_t9_loop.trips, ∀ a, (k0_off80 k0_t9) a + S1x16.size a ≤ S100x128.size a
  k0_t10_ok : k0_t10_loop.OK
  k0_off81_inb : ∀ k0_t10 : Fin k0_t10_loop.trips, ∀ a, (k0_off81 k0_t10) a + S1x16.size a ≤ S100x128.size a
  k0_off82_inb : ∀ k0_t10 : Fin k0_t10_loop.trips, ∀ a, (k0_off82 k0_t10) a + S1x16.size a ≤ S100x128.size a
  k0_off83_inb : ∀ k0_t10 : Fin k0_t10_loop.trips, ∀ a, (k0_off83 k0_t10) a + S1x16.size a ≤ S100x128.size a
  k0_off84_inb : ∀ k0_t10 : Fin k0_t10_loop.trips, ∀ a, (k0_off84 k0_t10) a + S1x16.size a ≤ S100x128.size a
  k0_off85_inb : ∀ k0_t10 : Fin k0_t10_loop.trips, ∀ a, (k0_off85 k0_t10) a + S1x16.size a ≤ S100x128.size a
  k0_off86_inb : ∀ k0_t10 : Fin k0_t10_loop.trips, ∀ a, (k0_off86 k0_t10) a + S1x16.size a ≤ S100x128.size a
  k0_off87_inb : ∀ k0_t10 : Fin k0_t10_loop.trips, ∀ a, (k0_off87 k0_t10) a + S1x16.size a ≤ S100x128.size a
  k0_off88_inb : ∀ k0_t10 : Fin k0_t10_loop.trips, ∀ a, (k0_off88 k0_t10) a + S1x16.size a ≤ S100x128.size a
  k0_t11_ok : k0_t11_loop.OK
  k0_off89_inb : ∀ k0_t11 : Fin k0_t11_loop.trips, ∀ a, (k0_off89 k0_t11) a + S1x16.size a ≤ S100x128.size a
  k0_off90_inb : ∀ k0_t11 : Fin k0_t11_loop.trips, ∀ a, (k0_off90 k0_t11) a + S1x16.size a ≤ S100x128.size a
  k0_off91_inb : ∀ k0_t11 : Fin k0_t11_loop.trips, ∀ a, (k0_off91 k0_t11) a + S1x16.size a ≤ S100x128.size a
  k0_off92_inb : ∀ k0_t11 : Fin k0_t11_loop.trips, ∀ a, (k0_off92 k0_t11) a + S1x16.size a ≤ S100x128.size a
  k0_off93_inb : ∀ k0_t11 : Fin k0_t11_loop.trips, ∀ a, (k0_off93 k0_t11) a + S1x16.size a ≤ S100x128.size a
  k0_off94_inb : ∀ k0_t11 : Fin k0_t11_loop.trips, ∀ a, (k0_off94 k0_t11) a + S1x16.size a ≤ S100x128.size a
  k0_off95_inb : ∀ k0_t11 : Fin k0_t11_loop.trips, ∀ a, (k0_off95 k0_t11) a + S1x16.size a ≤ S100x128.size a
  k0_off96_inb : ∀ k0_t11 : Fin k0_t11_loop.trips, ∀ a, (k0_off96 k0_t11) a + S1x16.size a ≤ S100x128.size a
  k0_off97_inb : ∀ i : grid0.Coords, ∀ a, (k0_off97 i) a + S128x128.size a ≤ S4096x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S4096x128.size a
  hwx1_0 : ∀ i : grid1.Coords, EltTy.bits .f32 = 32 ∨ (Rect.block (s := S4096x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .bf16 = 32 ∨ (Rect.block (s := S128x1024) S128x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x512.size a
  hwx1_3 : ∀ i : grid1.Coords, EltTy.bits .bf16 = 32 ∨ (Rect.block (s := S1024x512) S1024x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S512x64.size a
  hwx1_5 : ∀ i : grid1.Coords, EltTy.bits .bf16 = 32 ∨ (Rect.block (s := S512x64) S512x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x64.size a ≤ S4096x64.size a
  hwx1_7 : ∀ i : grid1.Coords, EltTy.bits .f32 = 32 ∨ (Rect.block (s := S4096x64) S2048x64.size (cc1_transform_7 i) (hinb1_7 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scoped0 : DmaSems sig S_ := SemArray.consecutive 6 S_ hcc0_scoped0
abbrev cc0_scoped1 : DmaSems sig S_ := SemArray.consecutive 7 S_ hcc0_scoped1
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win1_0 : Pipeline.Window sig grid1 :=
  Pipeline.Window.ofSpec (Memref.whole main_v1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S512x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S2048x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x200 : Shape := ⟨2, ![4096, 200]⟩
abbrev S100000x128 : Shape := ⟨2, ![100000, 128]⟩
abbrev S1024x128 : Shape := ⟨2, ![1024, 128]⟩
abbrev S1024 : Shape := ⟨1, ![1024]⟩
abbrev S512x1024 : Shape := ⟨2, ![512, 1024]⟩
abbrev S512 : Shape := ⟨1, ![512]⟩
abbrev S64x512 : Shape := ⟨2, ![64, 512]⟩
abbrev S64 : Shape := ⟨1, ![64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x128 : Shape := ⟨2, ![4096, 128]⟩
abbrev S128x1024 : Shape := ⟨2, ![128, 1024]⟩
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S1x512 : Shape := ⟨2, ![1, 512]⟩
abbrev S512x64 : Shape := ⟨2, ![512, 64]⟩
abbrev S4096x64 : Shape := ⟨2, ![4096, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S1024x128, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S64x512, .f32⟩
  | .hbm, ⟨7, _⟩ => ⟨S64, .f32⟩
  | .hbm, ⟨8, _⟩ => ⟨S_, .i32⟩
  | .hbm, ⟨9, _⟩ => ⟨S4096x200, .i32⟩
  | .hbm, ⟨10, _⟩ => ⟨S4096x200, .i1⟩
  | .hbm, ⟨11, _⟩ => ⟨S_, .i32⟩
  | .hbm, ⟨12, _⟩ => ⟨S4096x200, .i32⟩
  | .hbm, ⟨13, _⟩ => ⟨S4096x200, .i32⟩
  | .hbm, ⟨14, _⟩ => ⟨S4096x200, .i32⟩
  | .hbm, ⟨15, _⟩ => ⟨S4096x200x1, .i32⟩
  | .hbm, ⟨16, _⟩ => ⟨S1, .i32⟩
  | .hbm, ⟨17, _⟩ => ⟨S_, .i32⟩
  | .hbm, ⟨18, _⟩ => ⟨S4096x200x1, .i32⟩
  | .hbm, ⟨19, _⟩ => ⟨S4096x200x1, .i1⟩
  | .hbm, ⟨20, _⟩ => ⟨S1x1x1, .i32⟩
  | .hbm, ⟨21, _⟩ => ⟨S4096x200x1, .i32⟩
  | .hbm, ⟨22, _⟩ => ⟨S4096x200x1, .i1⟩
  | .hbm, ⟨23, _⟩ => ⟨S4096x200x1, .i1⟩
  | .hbm, ⟨24, _⟩ => ⟨S_, .i1⟩
  | .hbm, ⟨25, _⟩ => ⟨S4096x200, .i1⟩
  | .hbm, ⟨26, _⟩ => ⟨S4096x200x128, .f32⟩
  | .hbm, ⟨27, _⟩ => ⟨S4096x200x128, .i1⟩
  | .hbm, ⟨28, _⟩ => ⟨S_, .f32⟩
  | .hbm, ⟨29, _⟩ => ⟨S4096x200x128, .f32⟩
  | .hbm, ⟨30, _⟩ => ⟨S4096x200x128, .f32⟩
  | .hbm, ⟨31, _⟩ => ⟨S_, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | .hbm, ⟨36, _⟩ => ⟨S128x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1024x512, .f32⟩
  | .hbm, ⟨45, _⟩ => ⟨S4096x512, .f32⟩
  | .hbm, ⟨46, _⟩ => ⟨S1x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S512x64, .f32⟩
  | .hbm, ⟨53, _⟩ => ⟨S4096x64, .f32⟩
  | .hbm, ⟨54, _⟩ => ⟨S1x64, .f32⟩
  | .hbm, ⟨55, _⟩ => ⟨S4096x64, .f32⟩
  | .hbm, ⟨56, _⟩ => ⟨S4096x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_cst_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_call1_cst : Ref sig .tc := ⟨.hbm, 41, rfl⟩
abbrev main_call1_v0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_call2_cst : Ref sig .tc := ⟨.hbm, 49, rfl⟩
abbrev main_call2_v0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  reducesTo_S4096x200x128_S4096x128_d1 : S4096x200x128.ReducesTo [1] S4096x128
  bcast_S_S4096x128 : S_.BroadcastsInDim S4096x128 (![] : Fin 0 → Fin S4096x128.rank)
  transposes_S1024x128_S128x1024_1_0 : S1024x128.Transposes [1, 0] S128x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  transposes_S64x512_S512x64_1_0 : S64x512.Transposes [1, 0] S512x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  gather_S100000x128_S4096x200x1_S4096x200x128_2_0_n_n_0_2_1128_wf : GatherDims.WF S100000x128 S4096x200x1 S4096x200x128 [2] [0] [] [0] [] 2 ![1, 128]
  dot_S4096x128_S128x1024_S4096x1024_1_0_0_1_n_n_wf : DotDims.WF S4096x128 S128x1024 S4096x1024 [1] [0] [0] [1] [] []
  dot_S4096x1024_S1024x512_S4096x512_1_0_0_1_n_n_wf : DotDims.WF S4096x1024 S1024x512 S4096x512 [1] [0] [0] [1] [] []
  dot_S4096x512_S512x64_S4096x64_1_0_0_1_n_n_wf : DotDims.WF S4096x512 S512x64 S4096x64 [1] [0] [0] [1] [] []

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

class Facts : Prop extends Facts₀ where

variable [Facts]
-- ==== Proof.LaunchBase.lean ====
/-
  The launch of the program's threads, first part: the program as the SparseCore launch theorem sees it
  (its configuration over the pipeline's label signature, the body table, the variants), the side facts of
  the handshake semaphores, and the resource algebra: the handshakes' rounds, the rounds of the TensorCore
  pipeline's staging cells, and the transfers' counters, side by side, with the embedding of each.
-/
import proofs.«207436_g25675314495810_cont_9to1_828_42_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«207436_g25675314495810_cont_9to1_828_42_alg».proof.Proof.Gen.KernelIdeal
import proofs.«207436_g25675314495810_cont_9to1_828_42_alg».proof.Proof.Gen.KernelIdeal.Launch
import proofs.«207436_g25675314495810_cont_9to1_828_42_alg».proof.Proof.Gen.KernelIdeal.Points

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The pipeline's prefetched tables: none. -/
abbrev adm : (p : Fin 1) → (pcfgs (F := F) p).Adm := fun p => (cfgs p).toPCfg_adm

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The staging cells' rounds: the left of the right component. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by unfold EP; infer_instance

/-- The launch element: the handshakes' cells and tokens, the staging cells' and the pipeline's transfers', no counter yet. -/
def u₀ : UU := (initOf (K (F := F)).hsCells (K (F := F)).hsToks, (initOf (Pipeline.cells cfgs cellOf_inj) (Pipeline.launchToks cfgs cellOf_inj), 1))

theorem ownU_split : (ownU (u₀ (F := F)) : sProp 𝕄)
    ⊢ iprop(BI.own (EH (initOf (K (F := F)).hsCells (K (F := F)).hsToks))
        ∗ BI.own (EP (F := F) (initOf (Pipeline.cells cfgs cellOf_inj) (Pipeline.launchToks cfgs cellOf_inj)))) := by
  unfold u₀ EP
  iintro Hu
  ihave H := (ownU_pair _ _) $$ Hu
  icases H with ⟨HH, HR⟩
  ihave H2 := (own_pair_emb embR _ _) $$ HR
  icases H2 with ⟨HP, -⟩
  isplitl [HH]; · iexact HH
  iexact HP

end Cert.KernelIdeal.Run

end
-- ==== Proof.TileDefs.lean ====
/-
  One vector subcore's task of the pooling kernel, as the launch sees it: the places it touches and what it
  leaves there. Tile (c, s) of the 2 × 16 grid has number w = 2 s + c. It reads block w of the token array
  (256 lists of 100 tokens: batch rows 128 w … 128 w + 127, two lists per row), reads rows of the embedding
  table named by the tokens, and writes rows 128 w … 128 w + 127 of the pooled array: entry (128 w + b, e) is
  the sum, taken in order l = 0 … 199 from zero, of table entry (token (w, b, l), e), times the scale.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«207436_g25675314495810_cont_9to1_828_42_alg».proof.Proof.Gen.KernelIdeal
import proofs.«207436_g25675314495810_cont_9to1_828_42_alg».proof.Proof.Gen.KernelIdeal.Skeleton

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-! ## The arrays and the tile's pieces of them -/

/-- The token array (32 blocks of 256 lists of 100), the embedding table and the pooled array on device `d`. -/
abbrev iLoc (d : Dev nD) : Loc nD τ sig := (SparseCore.T d).loc main_v0
abbrev eLoc (d : Dev nD) : Loc nD τ sig := (SparseCore.T d).loc main_arg1
abbrev oLoc (d : Dev nD) : Loc nD τ sig := (SparseCore.T d).loc main_v1

abbrev iV : Memref sig .scVector .hbm S32x256x100 .i32 := Memref.whole main_v0_scv
abbrev eV : Memref sig .scVector .hbm S100000x128 .f32 := Memref.whole main_arg1_scv
abbrev oV : Memref sig .scVector .hbm S4096x128 .f32 := Memref.whole main_v1_scv
abbrev sI : Memref sig .scVector .vmem S256x100 .i32 := Memref.whole cc0_scratch0
abbrev sR : Memref sig .scVector .vmem S6x100x128 .f32 := Memref.whole cc0_scratch1
abbrev sA : Memref sig .scVector .vmem S128x128 .f32 := Memref.whole cc0_scratch2

abbrev cV (L : grid0.Coords) : Fin τ.nSC := (L 0).castLE hcore0
abbrev jV (L : grid0.Coords) : Fin τ.nSub := (L 1).castLE hsub0
/-- The tile's number. -/
def wid (L : grid0.Coords) : ℕ := 2 * (L 1).val + (L 0).val

/-- Block `wid L` of the token array, as the task addresses it (its 256 lists). -/
abbrev iRowK (L : grid0.Coords) : Memref sig .scVector .hbm S256x100 .i32 :=
  ((iV).slice (Rect.unit (s := S32x256x100) (k0_off1 L) S1x256x100.size (k0_off1_inb L)) (fun _ => rfl)).squeeze S256x100 squeezes_S1x256x100_S256x100
/-- Rows `128 · wid L …` of the pooled array, as the task addresses them. -/
abbrev oRowK (L : grid0.Coords) : Memref sig .scVector .hbm S128x128 .f32 :=
  (oV).slice (Rect.unit (s := S4096x128) (k0_off97 L) S128x128.size (k0_off97_inb L)) (fun _ => rfl)
abbrev iRowSet (L : grid0.Coords) : Finset S32x256x100.Idx := (iRowK L).view.set
abbrev oRowSet (L : grid0.Coords) : Finset S4096x128.Idx := (oRowK L).view.set

/-! ## What the task leaves in its rows of the pooled array -/

/-- A running sum from zero, in order. -/
def accF (g : ℕ → F .f32) : ℕ → F .f32
  | 0 => FloatOps.ofBits .f32 0x00000000#32
  | n + 1 => FloatOps.addf (accF g n) (g n)

/-- The table's entry in row `n`, column `e` (zero where `n` names no row). -/
def embAtF (fe : S100000x128.Idx → F .f32) (n : ℕ) (e : Fin 128) : F .f32 :=
  if h : n < 100000 then fe (ix2 ⟨n, h⟩ e) else FloatOps.ofBits .f32 0x00000000#32

/-- Token `l` of batch row `r` in the reshaped token array: row `r` is lists `2 (r mod 128)`, `2 (r mod 128) + 1` of block `r / 128`. -/
def tokF (fi : S32x256x100.Idx → BitVec 32) (r : Fin 4096) (l : Fin 200) : ℕ :=
  (fi (ix3 ⟨r.val / 128, by omega⟩ ⟨2 * (r.val % 128) + l.val / 100, by omega⟩ ⟨l.val % 100, Nat.mod_lt _ (by decide)⟩)).toNat

/-- The pooled array: the 200 table rows a batch row's tokens name, summed in order from zero, times the scale. -/
def pooledBuf (scale : F .f32) (fe : S100000x128.Idx → F .f32) (fi : S32x256x100.Idx → BitVec 32) : S4096x128.Idx → F .f32 :=
  fun i => FloatOps.mulf (accF (fun l => if h : l < 200 then embAtF fe (tokF fi (i 0) ⟨l, h⟩) (i 1) else FloatOps.ofBits .f32 0x00000000#32) 200) scale

/-- The scale the kernel multiplies by. -/
abbrev scaleC : F .f32 := Named.named κ "inv_200" 0x3BA3D70A#32

end Cert.KernelIdeal.Tile

end
-- ==== Proof.LaunchSplit.lean ====
/-
  The launch, second part: how the three arrays the pooling kernel works on divide among the 2 × 16 tiles.
  Tile (c, s) has number w = 2 s + c in 0 … 31. The token array (32 blocks) and the pooled array (4096 rows,
  128 per tile) are cut along their first axis into 32 equal parts, part w going to tile w; the parts are
  pairwise disjoint and cover the array. The embedding table is read whole by every tile, so it goes out as
  32 read shares: the leaves of the full share halved five times. Both divisions are equalities of
  assertions, used in one direction before the call and in the other after it.
-/
import proofs.«207436_g25675314495810_cont_9to1_828_42_alg».proof.Proof.LaunchBase
import proofs.«207436_g25675314495810_cont_9to1_828_42_alg».proof.Proof.TileDefs

noncomputable section

namespace Cert.KernelIdeal.Run

open Cert.KernelIdeal Cert.KernelIdeal.Gen
open Cert.KernelIdeal.Tile (iLoc eLoc oLoc iV eV oV iRowK oRowK iRowSet oRowSet pooledBuf scaleC)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Shares: the full share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## The tiles and their numbers -/

theorem bound_zero : grid0.bound 0 = 2 := rfl
theorem bound_one : grid0.bound 1 = 16 := rfl

/-- The coordinates of tile `s` of SparseCore `c`, as the body table spells them. -/
def coordsV (c : Fin (grid0.bound 0)) (s : Fin (grid0.bound 1)) : grid0.Coords :=
  fun | 0 => c | 1 => s | ⟨_ + 2, h⟩ => absurd h (Nat.not_lt.2 (Nat.le_add_left _ _))

/-- The same from plain indices. -/
def Lof (c : Fin 2) (i : Fin 16) : grid0.Coords := coordsV (Fin.cast bound_zero.symm c) (Fin.cast bound_one.symm i)

/-- The tile's number `2 s + c`. -/
def widF (L : grid0.Coords) : Fin 32 :=
  ⟨2 * (L 1).val + (L 0).val, by have h0 : (L 0).val < 2 := (L 0).isLt; have h1 : (L 1).val < 16 := (L 1).isLt; omega⟩

/-- Numbering the tiles is a bijection of the grid with `0 … 31`. -/
def tileEquiv : Fin 2 × Fin 16 ≃ Fin 32 where
  toFun p := ⟨2 * p.2.val + p.1.val, by have := p.1.isLt; have := p.2.isLt; omega⟩
  invFun j := (⟨j.val % 2, Nat.mod_lt _ (by decide)⟩, ⟨j.val / 2, by have := j.isLt; omega⟩)
  left_inv p := by
    obtain ⟨⟨c, hc⟩, ⟨i, hi⟩⟩ := p
    simp only [Prod.mk.injEq, Fin.mk.injEq]
    omega
  right_inv j := by
    obtain ⟨j, hj⟩ := j
    simp only [Fin.mk.injEq]
    omega

theorem widF_Lof (c : Fin 2) (i : Fin 16) : widF (Lof c i) = tileEquiv (c, i) := rfl

/-- The share of the table tile `L` reads it at. -/
abbrev xq (L : grid0.Coords) : PosShare TreeShare := leaf 5 fullShare (widF L)

/-! ## The rows -/

theorem idiv : 32 ∣ S32x256x100.size 0 := ⟨1, rfl⟩
theorem odiv : 32 ∣ S4096x128.size 0 := ⟨128, rfl⟩
abbrev irow (j : Fin 32) : Rect S32x256x100 := Rect.part (s := S32x256x100) (a₀ := 0) idiv j
abbrev orow (j : Fin 32) : Rect S4096x128 := Rect.part (s := S4096x128) (a₀ := 0) odiv j

theorem irowK_eq (L : grid0.Coords) :
    Rect.unit (s := S32x256x100) (k0_off1 L) S1x256x100.size (k0_off1_inb L) = irow (widF L) := by
  unfold irow Rect.part Rect.block
  congr 1 <;> funext a
  · rw [k0_off1_eq]
    match a with
    | 0 => simp [Shape.partIx, Shape.partSize, widF]
    | 1 => simp [Shape.partIx, Shape.partSize]
    | 2 => simp [Shape.partIx, Shape.partSize]
  · match a with
    | 0 => simp [Shape.partSize]
    | 1 => simp [Shape.partSize]
    | 2 => simp [Shape.partSize]

theorem orowK_eq (L : grid0.Coords) :
    Rect.unit (s := S4096x128) (k0_off97 L) S128x128.size (k0_off97_inb L) = orow (widF L) := by
  unfold orow Rect.part Rect.block
  congr 1 <;> funext a
  · rw [k0_off97_eq]
    match a with
    | 0 => simp [Shape.partIx, Shape.partSize, widF]; omega
    | 1 => simp [Shape.partIx, Shape.partSize]
  · match a with
    | 0 => simp [Shape.partSize]
    | 1 => simp [Shape.partSize]

theorem iRowSet_eq (L : grid0.Coords) : iRowSet L = (irow (widF L)).set := by
  show (((iV).view.slice (Rect.unit (s := S32x256x100) (k0_off1 L) S1x256x100.size (k0_off1_inb L))).reshape S256x100 squeezes_S1x256x100_S256x100.numel_eq).set = _
  rw [View.set_reshape]
  refine (show ((iV).view.slice (Rect.unit (s := S32x256x100) (k0_off1 L) S1x256x100.size (k0_off1_inb L))).set
      = ((iV).view.slice (irow (widF L))).set from irowK_eq L ▸ rfl).trans ?_
  show ((View.whole (main_v0_scv : Ref sig .scVector)).slice (irow (widF L))).set = _
  rw [View.set_slice]; exact Finset.map_refl

theorem oRowSet_eq (L : grid0.Coords) : oRowSet L = (orow (widF L)).set := by
  show ((oV).view.slice (Rect.unit (s := S4096x128) (k0_off97 L) S128x128.size (k0_off97_inb L))).set = _
  refine (show ((oV).view.slice (Rect.unit (s := S4096x128) (k0_off97 L) S128x128.size (k0_off97_inb L))).set
      = ((oV).view.slice (orow (widF L))).set from orowK_eq L ▸ rfl).trans ?_
  show ((View.whole (main_v1_scv : Ref sig .scVector)).slice (orow (widF L))).set = _
  rw [View.set_slice]; exact Finset.map_refl

theorem iPts_rows (d : Dev nD) (f : Buf (Elt F) (iLoc d)) :
    (iLoc d ↦{fullShare} f : sProp 𝕄) = bigSep Finset.univ fun j : Fin 32 => iLoc d ↦[(irow j).set]{fullShare} f := by
  rw [← pointsTo_biUnion Finset.univ (ℓ := iLoc d) (fun j : Fin 32 => (irow j).set) (fun i _ j _ h => Rect.part_disjoint idiv h), Rect.biUnion_part idiv]; try rfl
theorem oPts_rows (d : Dev nD) (f : Buf (Elt F) (oLoc d)) :
    (oLoc d ↦{fullShare} f : sProp 𝕄) = bigSep Finset.univ fun j : Fin 32 => oLoc d ↦[(orow j).set]{fullShare} f := by
  rw [← pointsTo_biUnion Finset.univ (ℓ := oLoc d) (fun j : Fin 32 => (orow j).set) (fun i _ j _ h => Rect.part_disjoint odiv h), Rect.biUnion_part odiv]; try rfl

/-! ## What a tile is handed, and the three arrays as all the tiles' -/

/-- Tile `L`'s block of the token array, its share of the table, its rows of the pooled array at contents `g`. -/
abbrev tileRes (d : Dev nD) (fi : Buf (Elt F) (iLoc d)) (fe : Buf (Elt F) (eLoc d)) (g : Buf (Elt F) (oLoc d)) (L : grid0.Coords) : sProp 𝕄 :=
  iprop((iLoc d ↦[iRowSet L]{fullShare} fi) ∗ (eLoc d ↦{xq L} fe) ∗ oLoc d ↦[oRowSet L]{fullShare} g)

/-- The three arrays whole are every tile's pieces together. -/
theorem arrays_tiles (d : Dev nD) (fi : Buf (Elt F) (iLoc d)) (fe : Buf (Elt F) (eLoc d)) (g : Buf (Elt F) (oLoc d)) :
    (iprop((iLoc d ↦{fullShare} fi) ∗ (eLoc d ↦{fullShare} fe) ∗ oLoc d ↦{fullShare} g) : sProp 𝕄)
      = bigSep Finset.univ fun c : Fin 2 => bigSep Finset.univ fun i : Fin 16 => tileRes d fi fe g (Lof c i) := by
  rw [iPts_rows, oPts_rows, pointsTo_leaves Finset.univ fe 5 fullShare,
    bigSep_univ_equiv tileEquiv (fun j : Fin 32 => (iLoc d ↦[(irow j).set]{fullShare} fi : sProp 𝕄)),
    bigSep_univ_equiv tileEquiv (fun j : Fin 32 => (oLoc d ↦[(orow j).set]{fullShare} g : sProp 𝕄)),
    bigSep_univ_equiv tileEquiv (fun j : Fin (2 ^ 5) => (eLoc d ↦[Finset.univ]{leaf 5 fullShare j} fe : sProp 𝕄)),
    ← bigSep_sep', ← bigSep_sep', ← bigSep_univ_prod (fun p : Fin 2 × Fin 16 => tileRes d fi fe g (Lof p.1 p.2))]
  refine bigSep_congr fun p _ => ?_
  unfold tileRes xq
  rw [iRowSet_eq, oRowSet_eq, widF_Lof]

end Cert.KernelIdeal.Run

end
-- ==== Proof.LaunchPay.lean ====
/-
  The launch, third part: what the handshakes of the pooling call carry, one tile's task as the launch
  theorem's obligation, and the split of a SparseCore's operands among its sixteen tiles.
  A SparseCore is started with its sixteen tiles' pieces (each tile's block of the token array, its share
  of the embedding table, its 128 rows of the pooled array at the launch contents) and hands them back with
  the rows at the pooled values; so the split among the tiles is the identity.
-/
import proofs.«207436_g25675314495810_cont_9to1_828_42_alg».proof.Proof.LaunchSplit

noncomputable section

namespace Cert.KernelIdeal.Run

open Cert.KernelIdeal Cert.KernelIdeal.Gen
open Cert.KernelIdeal.Tile (iLoc eLoc oLoc iV eV oV sI sR sA iRowK oRowK iRowSet oRowSet pooledBuf scaleC cV jV)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The contents the call works on -/

/-- Per device: the token array as the call finds it, the table, the pooled array before the call. -/
structure Ops (F : FTy → Type) where
  fi : (d : Dev nD) → Buf (Elt F) (iLoc d)
  fe : (d : Dev nD) → Buf (Elt F) (eLoc d)
  old : (d : Dev nD) → Buf (Elt F) (oLoc d)

variable (o : Ops F)

/-- The pooled array after the call. -/
abbrev pooledOf (d : Dev nD) : Buf (Elt F) (oLoc d) := pooledBuf scaleC (o.fe d) (o.fi d)

/-! ## What the handshakes carry -/

abbrev tileOf (c : Fin ((K (F := F)).nCore 0)) (i : Fin ((K (F := F)).nSub 0)) : grid0.Coords := Lof (Fin.cast nCore_zero c) (Fin.cast nSub_zero i)

def P : (K (F := F)).Pay (nD := nD) (Val := Elt F) (Name := ℕ) (U := UU) where
  st := fun q d c => match q with
    | 0 => bigSep Finset.univ fun i : Fin ((K (F := F)).nSub 0) => tileRes d (o.fi d) (o.fe d) (o.old d) (tileOf c i)
  dn := fun q d c => match q with
    | 0 => bigSep Finset.univ fun i : Fin ((K (F := F)).nSub 0) => tileRes d (o.fi d) (o.fe d) (pooledOf o d) (tileOf c i)
  go := fun q d c i => match q with
    | 0 => tileRes d (o.fi d) (o.fe d) (o.old d) (tileOf c i)
  td := fun q d c i => match q with
    | 0 => tileRes d (o.fi d) (o.fe d) (pooledOf o d) (tileOf c i)
  x := fun _ _ => iprop(emp)

instance P_storable : (P (F := F) o).IsStorable where
  st q d c := match q with
    | 0 => (inferInstance : BI.Storable (upEmb : UEmb _ 𝕄) (bigSep Finset.univ fun i : Fin ((K (F := F)).nSub 0) => tileRes d (o.fi d) (o.fe d) (o.old d) (tileOf c i)))
  dn q d c := match q with
    | 0 => (inferInstance : BI.Storable (upEmb : UEmb _ 𝕄) (bigSep Finset.univ fun i : Fin ((K (F := F)).nSub 0) => tileRes d (o.fi d) (o.fe d) (pooledOf o d) (tileOf c i)))
  go q d c i := match q with
    | 0 => (inferInstance : BI.Storable (upEmb : UEmb _ 𝕄) (tileRes d (o.fi d) (o.fe d) (o.old d) (tileOf c i)))
  td q d c i := match q with
    | 0 => (inferInstance : BI.Storable (upEmb : UEmb _ 𝕄) (tileRes d (o.fi d) (o.fe d) (pooledOf o d) (tileOf c i)))

/-! ## One tile's task -/

/-- What is asked of one tile's run of the kernel, at any tile, any share of the table and any contents whose tokens
    name rows of the table: from its pieces, its scoped storage and what it owes, the kernel runs and leaves its rows of
    the pooled array at the pooled values. -/
def TileBodySpec : Prop :=
  ∀ (d : Dev nD) (L : grid0.Coords) (q : PosShare TreeShare)
    (fi : Buf (Elt F) (iLoc d)) (fe : Buf (Elt F) (eLoc d)) (old : Buf (Elt F) (oLoc d)) (_ : ∀ j, (fi j).toNat < 100000)
    (_ : (K (F := F)).Facts) (O : CellTallies nD τ sig (HIx 1)) (W : Waits sig (HIx 1)) (_ : ∀ g, O g none = 0),
    (iprop(levAts (K (F := F)).L (K (F := F)).lev ∗ emp
        ∗ ((iLoc d ↦[iRowSet L]{fullShare} fi) ∗ (eLoc d ↦{q} fe) ∗ oLoc d ↦[oRowSet L]{fullShare} old)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__pool L iV (Memref.isWhole_whole _) eV (Memref.isWhole_whole _) oV (Memref.isWhole_whole _)
            sI (Memref.isWhole_whole _) sR (Memref.isWhole_whole _) sA (Memref.isWhole_whole _)
            cc0_scratch3 cc0_scratch4 cc0_scratch5 cc0_scratch6 cc0_scratch7 cc0_scratch8 cc0_scoped0 cc0_scoped1)
          fun _ => iprop(((iLoc d ↦[iRowSet L]{fullShare} fi) ∗ (eLoc d ↦{q} fe) ∗ oLoc d ↦[oRowSet L]{fullShare} pooledBuf scaleC fe fi)
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => cc0__pool (coordsV c s)
          iV (Memref.isWhole_whole _) eV (Memref.isWhole_whole _) oV (Memref.isWhole_whole _)
          sI (Memref.isWhole_whole _) sR (Memref.isWhole_whole _) sA (Memref.isWhole_whole _)
          cc0_scratch3 cc0_scratch4 cc0_scratch5 cc0_scratch6 cc0_scratch7 cc0_scratch8 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hb : TileBodySpec (F := F)) (hF : (K (F := F)).Facts) (hin : ∀ d j, (o.fi d j).toNat < 100000) :
    (K (F := F)).TileObl (D (F := F)) 𝒱 (P o) v₀ 0 := by
  intro d c i O W hO _ _
  simp only [show (P o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (hb d (coordsV ⟨_, hci.1⟩ ⟨_, hci.2⟩) _ (o.fi d) (o.fe d) (o.old d) (hin d) hF O W hO).trans (wp_mono frame _ _ fun _ => obl_post)

/-! ## The split among a SparseCore's tiles: the identity -/

theorem vecSplit : (K (F := F)).VecSplit' (P o) 0 := by
  intro d c
  show (bigSep Finset.univ fun i : Fin ((K (F := F)).nSub 0) => tileRes d (o.fi d) (o.fe d) (o.old d) (tileOf c i)) ⊢ |={Set.univ}=> iprop(
      (bigSep Finset.univ fun i : Fin ((K (F := F)).nSub 0) => tileRes d (o.fi d) (o.fe d) (o.old d) (tileOf c i))
      ∗ ((bigSep Finset.univ fun i : Fin ((K (F := F)).nSub 0) => tileRes d (o.fi d) (o.fe d) (pooledOf o d) (tileOf c i))
          -∗ (bigSep Finset.univ fun i : Fin ((K (F := F)).nSub 0) => tileRes d (o.fi d) (o.fe d) (pooledOf o d) (tileOf c i))))
  iintro H; imodintro
  isplitl [H]; · iexact H
  iintro H; iexact H

/-! ## The call's operands, for every SparseCore of the grid, are the three arrays whole -/

theorem st_all (d : Dev nD) :
    (bigSep Finset.univ fun c : Fin ((K (F := F)).nCore 0) => (P o).st 0 d c)
      = iprop((iLoc d ↦{fullShare} o.fi d) ∗ (eLoc d ↦{fullShare} o.fe d) ∗ oLoc d ↦{fullShare} o.old d) := by
  rw [arrays_tiles]
  exact bigSep_congr fun c _ => rfl
theorem dn_all (d : Dev nD) :
    (bigSep Finset.univ fun c : Fin ((K (F := F)).nCore 0) => (P o).dn 0 d c)
      = iprop((iLoc d ↦{fullShare} o.fi d) ∗ (eLoc d ↦{fullShare} o.fe d) ∗ oLoc d ↦{fullShare} pooledOf o d) := by
  rw [arrays_tiles]
  exact bigSep_congr fun c _ => rfl

end Cert.KernelIdeal.Run

end
-- ==== Proof.LaunchHost.lean ====
/-
  The launch, fourth part: @main on the TensorCore. @main is one host operation (the token array reshaped to
  32 blocks of 256 lists of 100), the pooling call on the two SparseCores, nine host operations (each weight
  matrix transposed and converted, each bias reshaped to a row), and the TensorCore kernel region.
  The TensorCore's unscoped buffers are tracked as one set held at a valuation: the launch contents, then the
  reshape's result, then the pooled array put in place of the old one after the call, then the nine
  operations' results. For the call the three arrays it works on are taken out of the set, divided among
  the 32 tiles, and put back when the call returns.
-/
import proofs.«207436_g25675314495810_cont_9to1_828_42_alg».proof.Proof.LaunchPay

noncomputable section

namespace Cert.KernelIdeal.Run

open Cert.KernelIdeal Cert.KernelIdeal.Gen
open Cert.KernelIdeal.Tile (iLoc eLoc oLoc iV eV oV sI sR sA iRowK oRowK iRowSet oRowSet pooledBuf scaleC cV jV)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The unscoped buffers as a held set -/

/-- A TensorCore reference as a buffer of the device. -/
abbrev dr (b : Ref sig .tc) : DevRef τ sig := Proc.devRef (τ := τ) .tc b

/-- The TensorCore's unscoped buffers. -/
def ucRefs : Finset (DevRef τ sig) := (StableHlo.tcRefs τ sig).filter fun b => ¬ b.isScoped

omit [FloatOps F] [Named F] in
theorem unscopedBufs_held (d : Dev nD) (W : Valuation τ sig (Elt F)) :
    (unscopedBufs d (fun b => W (dr b)) : sProp 𝕄) = StableHlo.held (T d) ucRefs W := by
  unfold unscopedBufs StableHlo.held ucRefs StableHlo.tcRefs
  rw [Finset.filter_map, bigSep_map]
  rfl

omit [FloatOps F] [Named F] in
theorem sub_ucRefs (op : HloOp τ sig (Elt F)) (h : op.bufs ⊆ StableHlo.tcRefs τ sig) : op.bufs ⊆ ucRefs := by
  intro b hb
  refine Finset.mem_filter.mpr ⟨h hb, ?_⟩
  rw [op.no_scoped b hb]; simp

omit [FloatOps F] [Named F] in
theorem dr_mem_ucRefs (b : Ref sig .tc) (hb : (dr b).isScoped = false) : dr b ∈ ucRefs :=
  Finset.mem_filter.mpr ⟨StableHlo.devRef_mem_tcRefs b, by rw [hb]; simp⟩

/-! ## The host operations -/

/-- The reshape before the call. -/
abbrev op0 : HloOp τ sig (Elt F) := StableHlo.reshape main_arg0 main_v0 rfl shapeCasts_S4096x200_S32x256x100

/-- The nine operations between the call and the region. -/
def hostOps : List (HloOp τ sig (Elt F)) :=
  [StableHlo.unary main_arg2 main_v2 ((transpose S128x1024 [1, 0] · transposes_S1024x128_S128x1024_1_0) : (⟨S1024x128, .f32⟩ : BufTy).Contents (Elt F) → (⟨S128x1024, .f32⟩ : BufTy).Contents (Elt F)),
   StableHlo.unary main_v2 main_v3 ((truncf .bf16 · bitsLt_bf16_f32) : (⟨S128x1024, .f32⟩ : BufTy).Contents (Elt F) → (⟨S128x1024, .bf16⟩ : BufTy).Contents (Elt F)),
   StableHlo.reshape main_arg3 main_v4 rfl shapeCasts_S1024_S1x1024,
   StableHlo.unary main_arg4 main_v5 ((transpose S1024x512 [1, 0] · transposes_S512x1024_S1024x512_1_0) : (⟨S512x1024, .f32⟩ : BufTy).Contents (Elt F) → (⟨S1024x512, .f32⟩ : BufTy).Contents (Elt F)),
   StableHlo.unary main_v5 main_v6 ((truncf .bf16 · bitsLt_bf16_f32) : (⟨S1024x512, .f32⟩ : BufTy).Contents (Elt F) → (⟨S1024x512, .bf16⟩ : BufTy).Contents (Elt F)),
   StableHlo.reshape main_arg5 main_v7 rfl shapeCasts_S512_S1x512,
   StableHlo.unary main_arg6 main_v8 ((transpose S512x64 [1, 0] · transposes_S64x512_S512x64_1_0) : (⟨S64x512, .f32⟩ : BufTy).Contents (Elt F) → (⟨S512x64, .f32⟩ : BufTy).Contents (Elt F)),
   StableHlo.unary main_v8 main_v9 ((truncf .bf16 · bitsLt_bf16_f32) : (⟨S512x64, .f32⟩ : BufTy).Contents (Elt F) → (⟨S512x64, .bf16⟩ : BufTy).Contents (Elt F)),
   StableHlo.reshape main_arg7 main_v10 rfl shapeCasts_S64_S1x64]

/-- @main, spelt as: the reshape, the call, the nine operations, the region. -/
theorem main_eq (d : Dev nD) :
    main (F := F) d = (StableHlo.seq [op0 (F := F)] >>= fun _ => (K (F := F)).run d 0 >>= fun _ => StableHlo.seq (hostOps (F := F)) >>= fun _ =>
      Prog.lift (.customCall (SparseCore.inner (Pipeline.entry 0)) ()) >>= fun _ => pure ⟨⟩) := rfl

theorem op0_sub : ∀ op ∈ [op0 (F := F)], op.bufs ⊆ ucRefs := by
  intro op h
  rw [List.mem_singleton] at h; subst h
  exact sub_ucRefs _ (by simp)
theorem op0_fresh : ∀ op ∈ [op0 (F := F)], op.fresh = ∅ := by
  intro op h
  rw [List.mem_singleton] at h; subst h; rfl
theorem hostOps_sub : ∀ op ∈ hostOps (F := F), op.bufs ⊆ ucRefs := by
  intro op h
  simp only [hostOps, List.mem_cons, List.mem_nil_iff, or_false] at h
  rcases h with rfl | rfl | rfl | rfl | rfl | rfl | rfl | rfl | rfl <;> exact sub_ucRefs _ (by simp)
theorem hostOps_fresh : ∀ op ∈ hostOps (F := F), op.fresh = ∅ := by
  intro op h
  simp only [hostOps, List.mem_cons, List.mem_nil_iff, or_false] at h
  rcases h with rfl | rfl | rfl | rfl | rfl | rfl | rfl | rfl | rfl <;> rfl

/-! ## The valuations -/

variable (m : (ℓ : Loc nD τ sig) → Buf (Elt F) ℓ) (ρ : Dev nD → PrngReg)

/-- The launch contents; -/
abbrev V₀ (d : Dev nD) : Valuation τ sig (Elt F) := fun b => m ((d, b) : Loc nD τ sig)
/-- after the reshape; -/
abbrev V1 (d : Dev nD) : Valuation τ sig (Elt F) := (op0 (F := F)).result (V₀ m d)

/-- what the call works on; -/
def opsOf : Ops F where
  fi d := V1 m d (dr main_v0)
  fe d := V1 m d (dr main_arg1)
  old d := V1 m d (dr main_v1)

/-- after the call: the pooled array in place; -/
def V2 (d : Dev nD) : Valuation τ sig (Elt F) := Function.update (V1 m d) (dr main_v1) (pooledOf (opsOf m) d)
/-- when the region is entered. -/
def V3 (d : Dev nD) : Valuation τ sig (Elt F) := StableHlo.after (hostOps (F := F)) (V2 m d)

set_option maxHeartbeats 4000000 in
/-- The launch's unscoped buffers are the set held at the launch contents. -/
theorem unscopedBufs_m (d : Dev nD) :
    (unscopedBufs d (fun b => m ((SparseCore.T d).loc b)) : sProp 𝕄) = StableHlo.held (SparseCore.T d) ucRefs (V₀ m d) := by
  unfold unscopedBufs StableHlo.held ucRefs StableHlo.tcRefs
  rw [Finset.filter_map, bigSep_map]
  exact bigSep_congr fun b _ => rfl

/-! ## The call's three arrays within the set -/

def scRefs : Finset (DevRef τ sig) := {dr main_v0, dr main_arg1, dr main_v1}

theorem scRefs_sub : scRefs ⊆ ucRefs := by
  intro b hb
  simp only [scRefs, Finset.mem_insert, Finset.mem_singleton] at hb
  rcases hb with rfl | rfl | rfl <;> exact dr_mem_ucRefs _ rfl

omit [FloatOps F] [Named F] in
theorem held_sc (d : Dev nD) (W : Valuation τ sig (Elt F)) :
    (StableHlo.held (T d) scRefs W : sProp 𝕄)
      = iprop((iLoc d ↦{fullShare} W (dr main_v0)) ∗ (eLoc d ↦{fullShare} W (dr main_arg1)) ∗ oLoc d ↦{fullShare} W (dr main_v1)) := by
  unfold StableHlo.held scRefs
  rw [bigSep_insert (by
      simp only [Finset.mem_insert, Finset.mem_singleton, not_or]
      exact ⟨StableHlo.devRef_ne_of_ne (by decide), StableHlo.devRef_ne_of_ne (by decide)⟩),
    bigSep_insert (by
      simp only [Finset.mem_singleton]
      exact StableHlo.devRef_ne_of_ne (by decide)), bigSep_singleton]
  rfl

theorem V2_v0 (d : Dev nD) : V2 m d (dr main_v0) = (opsOf m).fi d :=
  Function.update_of_ne (StableHlo.devRef_ne_of_ne (by decide)) _ _
theorem V2_arg1 (d : Dev nD) : V2 m d (dr main_arg1) = (opsOf m).fe d :=
  Function.update_of_ne (StableHlo.devRef_ne_of_ne (by decide)) _ _
theorem V2_v1 (d : Dev nD) : V2 m d (dr main_v1) = pooledOf (opsOf m) d := Function.update_self _ _ _

theorem held_rest (d : Dev nD) :
    (StableHlo.held (T d) (ucRefs \ scRefs) (V1 m d) : sProp 𝕄) = StableHlo.held (T d) (ucRefs \ scRefs) (V2 m d) :=
  StableHlo.held_congr (T d) fun b hb => (Function.update_of_ne (fun e => (Finset.mem_sdiff.mp hb).2 (by
    rw [e]; simp [scRefs])) _ _).symm

/-! ## @main -/

/-- What the launch leaves the TensorCore of the pipeline's ghost state: its staging cells' and its transfers' tokens. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- What the TensorCore owes, and has recorded of its waits, once the call is over. -/
abbrev owesAfter (d : Dev nD) : sProp 𝕄 :=
  iprop(∃ W, ⌜(K (F := F)).WBelow (T d) W (8 * 1)⌝ ∗ owes (T d) ((K (F := F)).Otc d 1) W)

/-- What is asked of the region: entered with the unscoped buffers at the valuation `V3`, it runs and leaves `R d`. -/
def RegionSpec (R : Dev nD → sProp 𝕄) : Prop :=
  ∀ (κ : GSem nD τ sig → ℕ) (d : Dev nD),
    iprop((K (F := F)).ctx EH (P (opsOf m)) κ ∗ boundary (T d) ∗ StableHlo.held (T d) ucRefs (V3 m d) ∗ owesAfter (F := F) d ∗ G (F := F) d)
      ⊢ wp frame (wpE ((K (F := F)).defs (D (F := F))) 𝒱 (T d) none) Set.univ
          (Prog.lift (.customCall (SparseCore.inner (Pipeline.entry 0)) ()) >>= fun _ => pure PUnit.unit)
          fun _ => iprop(owesAfter (F := F) d ∗ R d)

set_option maxRecDepth 8192 in
/-- @main on device `d`'s TensorCore. -/
theorem hmain (R : Dev nD → sProp 𝕄) (hreg : RegionSpec m R) (κ : GSem nD τ sig → ℕ) (d : Dev nD) :
    iprop((K (F := F)).ctx EH (P (opsOf m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ R d) := by
  rw [main_eq]
  unfold SparseCore.Cfg.tcRes
  rw [unscopedBufs_m]
  iintro ⟨#Hctx, Hst, ⟨Hb, Hh, -, -⟩, HG⟩
  -- the reshape
  iapply (StableHlo.wp_seq 𝒱 none Set.univ d ucRefs _ [op0 (F := F)] op0_sub op0_fresh (V₀ m d)) $$ [Hb Hh]
  · isplitl [Hb]; · iexact Hb
    iexact Hh
  iintro ⟨Hb, Hh⟩
  ihave Hh := (Entails.of_eq (show (StableHlo.held (SparseCore.T d) ucRefs (StableHlo.after [op0 (F := F)] (V₀ m d)) : sProp 𝕄)
      = StableHlo.held (SparseCore.T d) ucRefs (V1 m d) from rfl)) $$ Hh
  -- the call: its three arrays out of the set, to the tiles
  ihave Hh' := (Entails.of_eq (StableHlo.held_sub_split (T d) scRefs_sub (V1 m d))) $$ Hh
  icases Hh' with ⟨H3, Hrest⟩
  ihave H3' := (Entails.of_eq (held_sc d (V1 m d))) $$ H3
  rw [wp_bind]
  iapply ((K (F := F)).wp_run (D (F := F)) 𝒱 (EH := EH) (P := P (opsOf m)) κ d 0) $$ [Hst H3' Hrest Hb HG]
  isplitr; · iexact Hctx
  isplitl [Hst]; · iexact Hst
  isplitl [H3']
  · rw [st_all]; iexact H3'
  iintro ⟨Hst, Hdn⟩
  ihave Hdn' := (Entails.of_eq (dn_all (opsOf m) d)) $$ Hdn
  -- back into the set, the pooled array in place
  ihave H3 := (Entails.of_eq (show (iprop((iLoc d ↦{fullShare} (opsOf m).fi d) ∗ (eLoc d ↦{fullShare} (opsOf m).fe d) ∗ oLoc d ↦{fullShare} pooledOf (opsOf m) d) : sProp 𝕄)
      = StableHlo.held (T d) scRefs (V2 m d) by rw [held_sc, V2_v0, V2_arg1, V2_v1])) $$ Hdn'
  ihave Hrest' := (Entails.of_eq (held_rest m d)) $$ Hrest
  ihave Hh := (Entails.of_eq (StableHlo.held_sub_split (T d) scRefs_sub (V2 m d)).symm) $$ [H3 Hrest']
  · isplitl [H3]; · iexact H3
    iexact Hrest'
  -- the nine operations
  iapply (StableHlo.wp_seq 𝒱 none Set.univ d ucRefs _ (hostOps (F := F)) hostOps_sub hostOps_fresh (V2 m d)) $$ [Hb Hh]
  · isplitl [Hb]; · iexact Hb
    iexact Hh
  iintro ⟨Hb, Hh⟩
  ihave Hh := (Entails.of_eq (show (StableHlo.held (SparseCore.T d) ucRefs (StableHlo.after (hostOps (F := F)) (V2 m d)) : sProp 𝕄)
      = StableHlo.held (SparseCore.T d) ucRefs (V3 m d) from rfl)) $$ Hh
  -- the region
  unfold SparseCore.Cfg.tcSt
  icases Hst with ⟨HO, Hat⟩
  iapply (wp_wand_r frame _ Set.univ)
  isplitl [Hb Hh HO HG]
  · iapply (hreg κ d)
    isplitr; · iexact Hctx
    isplitl [Hb]; · iexact Hb
    isplitl [Hh]; · iexact Hh
    isplitl [HO]; · iexact HO
    iexact HG
  iintro %_ ⟨HO, HR⟩
  isplitr [HR]
  · isplitl [HO]; · iexact HO
    iexact Hat
  iexact HR

end Cert.KernelIdeal.Run

end
-- ==== Proof.LaunchRun.lean ====
/-
  The launch, fifth part: the launch element of the ghost state, the range of the tokens the call reads, and
  the program's run from @main's proof: every weakly fair execution of all the threads terminates, nothing
  faulting, and the final memory satisfies what the TensorCores' final assertions say of it.
-/
import proofs.«207436_g25675314495810_cont_9to1_828_42_alg».proof.Proof.LaunchHost

noncomputable section

namespace Cert.KernelIdeal.Run

open Cert.KernelIdeal Cert.KernelIdeal.Gen
open Cert.KernelIdeal.Tile (iLoc eLoc oLoc iV eV oV sI sR sA iRowK oRowK iRowSet oRowSet pooledBuf scaleC cV jV)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The launch element -/

omit [FloatOps F] [Named F] in
theorem bigSep_emp' {I : Type} (s : Finset I) : (bigSep s fun _ => iprop(emp)) = (iprop(emp) : sProp 𝕄) := bigSep_emp_const s

theorem hu₀ (o : Ops F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P o).x q thr) := by
  iintro Hu
  ihave H := (ownU_split (F := F)) $$ Hu
  icases H with ⟨HH, HP⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1)
        (Φ := fun p : Fin 1 => (Pipeline.cellsGhost cfgs (EP (F := F)) p d : sProp 𝕄)))); iexact Hg
    · iapply (Entails.of_eq (bigSep_congr fun d _ => bigSep_univ_of_subsingleton (0 : Fin 1)
        (Φ := fun p : Fin 1 => (Pipeline.toksInit cfgs (EP (F := F)) p d : sProp 𝕄)))); iexact Ht
  rw [show (bigSep Finset.univ fun thr : Thread nD τ => bigSep Finset.univ fun q : Fin 1 => (P (F := F) o).x q thr) = bigSep Finset.univ fun _ => iprop(emp) from
    bigSep_congr fun _ _ => bigSep_univ_of_subsingleton (0 : Fin 1), bigSep_emp']
  iempintro

/-! ## The tokens the call reads -/

variable (m : (ℓ : Loc nD τ sig) → Buf (Elt F) ℓ) (ρ : Dev nD → PrngReg)

/-- The reshaped token array holds the tokens of the argument, re-indexed. -/
theorem fi_eq (d : Dev nD) (j : S32x256x100.Idx) :
    (opsOf m).fi d j = m ((SparseCore.T d).loc main_arg0) (Shape.reshapeEquiv shapeCasts_S4096x200_S32x256x100 j) := by
  show (op0 (F := F)).result (V₀ m d) (dr main_v0) j = _
  unfold op0
  rw [StableHlo.reshape_result]
  rfl

theorem fe_eq (d : Dev nD) : (opsOf m).fe d = m ((SparseCore.T d).loc main_arg1) := by
  show (op0 (F := F)).result (V₀ m d) (dr main_arg1) = _
  exact (op0 (F := F)).result_of_not_mem (V₀ m d) (by
    rw [show (op0 (F := F)).writes = {dr main_v0} from rfl, Finset.mem_singleton]; exact StableHlo.devRef_ne_of_ne (by decide))

theorem fi_inb (hin : ∀ d j, (m ((SparseCore.T d).loc main_arg0) j).toNat < 100000) (d : Dev nD) (j : S32x256x100.Idx) :
    ((opsOf m).fi d j).toNat < 100000 := by
  rw [fi_eq]; exact hin d _

/-! ## The run -/

/-- The program's run, from the tile's body, the region and the reading of the final assertion. -/
theorem run_main_of [∀ e, Nonempty (Elt F e)] (hb : TileBodySpec (F := F))
    (hin : ∀ d j, (m ((SparseCore.T d).loc main_arg0) j).toNat < 100000)
    (R : Dev nD → sProp 𝕄) (hreg : RegionSpec m R)
    (fq : Dev nD → Phys nD τ sig (Elt F) → Prop) (hfin : ∀ d s', iprop(R d ∗ SI s') ⊢ (⌜fq d s'⌝ : sProp 𝕄))
    (Q' : PUnit × MemSt nD τ sig (Elt F) → Prop) (hQ : ∀ s', (∀ d, fq d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P (opsOf m)) facts v₀
    (fun q hq => match q with | 0 => nomatch hq)
    (fun q _ => match q with | 0 => tileObl (opsOf m) hb facts (fi_inb m hin))
    (fun q _ => match q with | 0 => SparseCore.Cfg.VecSplit.of_plain (vecSplit (opsOf m)))
    m ρ main (G (F := F)) R (u₀ (F := F)) (sep_elim_left.trans (hu₀ (opsOf m))) (hmain m ρ R hreg) fq hfin Q' hQ

end Cert.KernelIdeal.Run

end
-- ==== Proof.MlpBody.lean ====
/-
  The three-layer perceptron kernel on one block of 2048 rows. The body reads its eight staging buffers whole
  — the block of inputs, three weight matrices, three bias rows and, unused, the output block — and writes the
  output block whole with one pure function of the seven inputs: three matrix products into zero accumulators,
  each followed by the addition of a bias row repeated down the rows, the first two also by a maximum with
  zero. Run from the seven inputs at any contents and the output at anything, it ends with the inputs as they
  were and the output buffer holding that function of them.
-/
import proofs.«207436_g25675314495810_cont_9to1_828_42_alg».proof.Proof.Gen.KernelIdeal.Skeleton
import proofs.«207436_g25675314495810_cont_9to1_828_42_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- What the body leaves in the output block, from what it read of the seven inputs: the block of rows
    `x`, the weights `w1 w2 w3` (already transposed: contraction index first) and the bias rows `c1 c2 c3`. -/
def mlpBlock (x : Vec F S2048x128 .f32) (w1 : Vec F S128x1024 .bf16) (c1 : Vec F S1x1024 .f32)
    (w2 : Vec F S1024x512 .bf16) (c2 : Vec F S1x512 .f32) (w3 : Vec F S512x64 .bf16) (c3 : Vec F S1x64 .f32) :
    Vec F S2048x64 .f32 :=
  k1_pay1 x w1 c1 w2 c2 w3 c3

/-- The offsets of every access of the body: zero on both axes. -/
theorem hz2 : (![0, 0] : Fin 2 → Nat) = fun _ => 0 := by
  funext a; match a with | ⟨0, _⟩ => rfl | ⟨1, _⟩ => rfl

section Whole
variable {sig' : RefSig} {κ : Kind} {sp : Space} {S : Shape} {e : EltTy} {Val : EltTy → Type}

/-- A load of a whole buffer — through the rectangle of the buffer's own sizes at zero offsets — reads what the
    buffer holds. -/
theorem readAt_whole (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-- One unmasked store through that rectangle leaves its payload, whatever the buffer held. -/
theorem read_store_whole [∀ e, Nonempty (Val e)] (v : View sig' κ sp S e) (f : v.ty.Contents Val) (w : S.Idx → Val e)
    {off : Fin S.rank → Nat} (h : off = fun _ => 0) (inb : ∀ a, off a + S.size a ≤ S.size a) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

end Whole

/-- The payload at equal arguments. -/
theorem pay_congr {x x' : Vec F S2048x128 .f32} {w1 w1' : Vec F S128x1024 .bf16} {c1 c1' : Vec F S1x1024 .f32}
    {w2 w2' : Vec F S1024x512 .bf16} {c2 c2' : Vec F S1x512 .f32} {w3 w3' : Vec F S512x64 .bf16} {c3 c3' : Vec F S1x64 .f32}
    (h1 : x = x') (h2 : w1 = w1') (h3 : c1 = c1') (h4 : w2 = w2') (h5 : c2 = c2') (h6 : w3 = w3') (h7 : c3 = c3') :
    k1_pay1 x w1 c1 w2 c2 w3 c3 = mlpBlock x' w1' c1' w2' c2' w3' c3' := by
  subst h1 h2 h3 h4 h5 h6 h7; rfl

set_option maxHeartbeats 400000 in
/-- The body on whole staging memrefs, the inputs' at contents `x … c3` and the output's at anything, runs to
    the continuation holding the inputs' as they were and the output's at `mlpBlock` of them. -/
theorem sound_mlp (𝒱 : Variants) (c : Dev nD) (E : Set Name) (i : grid1.Coords)
    (arg1 : Memref sig .tc .vmem S2048x128 .f32) (harg1 : arg1.IsWhole)
    (arg2 : Memref sig .tc .vmem S128x1024 .bf16) (harg2 : arg2.IsWhole)
    (arg3 : Memref sig .tc .vmem S1x1024 .f32) (harg3 : arg3.IsWhole)
    (arg4 : Memref sig .tc .vmem S1024x512 .bf16) (harg4 : arg4.IsWhole)
    (arg5 : Memref sig .tc .vmem S1x512 .f32) (harg5 : arg5.IsWhole)
    (arg6 : Memref sig .tc .vmem S512x64 .bf16) (harg6 : arg6.IsWhole)
    (arg7 : Memref sig .tc .vmem S1x64 .f32) (harg7 : arg7.IsWhole)
    (arg8 : Memref sig .tc .vmem S2048x64 .f32) (harg8 : arg8.IsWhole)
    (x : Vec F S2048x128 .f32) (w1 : Vec F S128x1024 .bf16) (c1 : Vec F S1x1024 .f32)
    (w2 : Vec F S1024x512 .bf16) (c2 : Vec F S1x512 .f32) (w3 : Vec F S512x64 .bf16) (c3 : Vec F S1x64 .f32)
    (K : PUnit → sProp 𝕄) :
    iprop(owns (c : Thread nD τ) arg1 fullShare x ∗ owns (c : Thread nD τ) arg2 fullShare w1
        ∗ owns (c : Thread nD τ) arg3 fullShare c1 ∗ owns (c : Thread nD τ) arg4 fullShare w2
        ∗ owns (c : Thread nD τ) arg5 fullShare c2 ∗ owns (c : Thread nD τ) arg6 fullShare w3
        ∗ owns (c : Thread nD τ) arg7 fullShare c3 ∗ (∃ d, owns (c : Thread nD τ) arg8 fullShare d)
        ∗ (iprop(owns (c : Thread nD τ) arg1 fullShare x ∗ owns (c : Thread nD τ) arg2 fullShare w1
            ∗ owns (c : Thread nD τ) arg3 fullShare c1 ∗ owns (c : Thread nD τ) arg4 fullShare w2
            ∗ owns (c : Thread nD τ) arg5 fullShare c2 ∗ owns (c : Thread nD τ) arg6 fullShare w3
            ∗ owns (c : Thread nD τ) arg7 fullShare c3
            ∗ owns (c : Thread nD τ) arg8 fullShare (mlpBlock x w1 c1 w2 c2 w3 c3)) -∗ K ⟨⟩))
      ⊢ wp frame (wpE (defs₀ (F := F)) 𝒱 c none) E
          (cc1__mlp_body i arg1 harg1 arg2 harg2 arg3 harg3 arg4 harg4 arg5 harg5 arg6 harg6 arg7 harg7 arg8 harg8) K := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (read_store_whole _ _ _ hz2 _).trans ?_
  exact pay_congr (readAt_whole _ _ hz2 _) (readAt_whole _ _ hz2 _) (readAt_whole _ _ hz2 _) (readAt_whole _ _ hz2 _)
    (readAt_whole _ _ hz2 _) (readAt_whole _ _ hz2 _) (readAt_whole _ _ hz2 _)

end Cert.KernelIdeal.Mlp

end
-- ==== Proof.MlpDat.lean ====
/-
  The perceptron kernel's pipeline: what each of its eight staging buffers holds after the body at each of the
  two grid points, and the array the two write-backs leave. Window 0 brings in rows [2048 t, 2048 t + 2048) of the
  4096 input rows at point t; windows 1 to 6 bring in the three weight matrices and the three bias rows whole,
  once; window 7 takes the 2048 output rows of point t back to rows [2048 t, 2048 t + 2048) of the result. The
  body leaves every input buffer as it found it and the output buffer at the perceptron of the block, so the result
  array ends, at row r, with the perceptron of the block of rows that holds r, read at r's place in it.
-/
import proofs.«207436_g25675314495810_cont_9to1_828_42_alg».proof.Proof.MlpBody
import proofs.«207436_g25675314495810_cont_9to1_828_42_alg».proof.Proof.Gen.KernelIdeal.Launch
import proofs.«207436_g25675314495810_cont_9to1_828_42_alg».proof.Proof.Gen.KernelIdeal.Points
import Idealize.ShloMosaic.Lib.Pipeline.FrameBody
import Idealize.ShloMosaic.Lib.Pipeline.Value
import Idealize.ShloMosaic.Lib.ValueIdx

set_option maxRecDepth 16384

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

variable (c : Dev nD) (A : (w : Fin cfg1.W) → Buf (Elt F) ((cfg1.win w).arr.view.loc (c.tc : Thread nD τ)))

/-! ## The proof data -/

/-- Window `w`'s block at point `t`, read off its array as the pipeline finds it. -/
def iblk (w : Fin cfg1.W) (t : Fin cfg1.N) : ((cfg1.win w).xblock (cfg1.grid.coords t)).Idx → Elt F (cfg1.win w).elt :=
  ((cfg1.win w).blk t).view.read (Elt F) (A w)

/-- The pipeline's proof data on core `c`, from the arrays' contents `A` when it starts: after the body every input
    buffer holds its block, the output buffer the perceptron of the seven; no invariant; what the core owes (`O`) and
    the bound on its recorded waits (`B`) are the same at every point. -/
def dats (O : CellTallies nD τ sig Ix) (B : Set (SemLoc sig × Ix)) : Dat τ (Elt F) Ix Name U Lvl cfg1 c where
  A := A
  after w t := match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => iblk c A 5 t
    | ⟨6, _⟩ => iblk c A 6 t
    | ⟨7, _⟩ => mlpBlock (iblk c A 0 t) (iblk c A 1 t) (iblk c A 2 t) (iblk c A 3 t) (iblk c A 4 t) (iblk c A 5 t) (iblk c A 6 t)
  Φ _ := (BI.emp : sProp 𝕄)
  q _ := fullShare
  owed _ := O
  recorded _ := B

variable (O : CellTallies nD τ sig Ix) (B : Set (SemLoc sig × Ix))

theorem A_eq (w : Fin cfg1.W) : (dats (Name := Name) (U := U) (Lvl := Lvl) c A O B).A w = A w := by dsimp only [dats]

theorem after1_0 (t : Fin cfg1.N) : (dats (Name := Name) (U := U) (Lvl := Lvl) c A O B).after 0 t = iblk c A 0 t := by dsimp only [dats]
theorem after1_1 (t : Fin cfg1.N) : (dats (Name := Name) (U := U) (Lvl := Lvl) c A O B).after 1 t = iblk c A 1 t := by dsimp only [dats]
theorem after1_2 (t : Fin cfg1.N) : (dats (Name := Name) (U := U) (Lvl := Lvl) c A O B).after 2 t = iblk c A 2 t := by dsimp only [dats]
theorem after1_3 (t : Fin cfg1.N) : (dats (Name := Name) (U := U) (Lvl := Lvl) c A O B).after 3 t = iblk c A 3 t := by dsimp only [dats]
theorem after1_4 (t : Fin cfg1.N) : (dats (Name := Name) (U := U) (Lvl := Lvl) c A O B).after 4 t = iblk c A 4 t := by dsimp only [dats]
theorem after1_5 (t : Fin cfg1.N) : (dats (Name := Name) (U := U) (Lvl := Lvl) c A O B).after 5 t = iblk c A 5 t := by dsimp only [dats]
theorem after1_6 (t : Fin cfg1.N) : (dats (Name := Name) (U := U) (Lvl := Lvl) c A O B).after 6 t = iblk c A 6 t := by dsimp only [dats]
theorem after1_7 (t : Fin cfg1.N) : (dats (Name := Name) (U := U) (Lvl := Lvl) c A O B).after 7 t
    = mlpBlock (iblk c A 0 t) (iblk c A 1 t) (iblk c A 2 t) (iblk c A 3 t) (iblk c A 4 t) (iblk c A 5 t) (iblk c A 6 t) := by
  dsimp only [dats]

/-- An input window's current staging buffer holds its block at every point, fetched there or not: unfetched, the
    block index has not moved and the body left the block in place. -/
theorem before1_0 (t : Fin cfg1.N) (d) : (dats (Name := Name) (U := U) (Lvl := Lvl) c A O B).before 0 t d = iblk c A 0 t :=
  ((dats (Name := Name) (U := U) (Lvl := Lvl) c A O B).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
theorem before1_1 (t : Fin cfg1.N) (d) : (dats (Name := Name) (U := U) (Lvl := Lvl) c A O B).before 1 t d = iblk c A 1 t :=
  ((dats (Name := Name) (U := U) (Lvl := Lvl) c A O B).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)
theorem before1_2 (t : Fin cfg1.N) (d) : (dats (Name := Name) (U := U) (Lvl := Lvl) c A O B).before 2 t d = iblk c A 2 t :=
  ((dats (Name := Name) (U := U) (Lvl := Lvl) c A O B).before_in_eq_fetched 2 rfl (fun _ => rfl) (fun _ _ _ => rfl)
      (fun t => by rw [after1_2]; unfold Dat.blockOf iblk; rw [A_eq]; try rfl) t d).trans
    (by unfold Dat.fetched Dat.blockOf iblk; rw [A_eq]; try rfl)
theorem before1_3 (t : Fin cfg1.N) (d) : (dats (Name := Name) (U := U) (Lvl := Lvl) c A O B).before 3 t d = iblk c A 3 t :=
  ((dats (Name := Name) (U := U) (Lvl := Lvl) c A O B).before_in_eq_fetched 3 rfl (fun _ => rfl) (fun _ _ _ => rfl)
      (fun t => by rw [after1_3]; unfold Dat.blockOf iblk; rw [A_eq]; try rfl) t d).trans
    (by unfold Dat.fetched Dat.blockOf iblk; rw [A_eq]; try rfl)
theorem before1_4 (t : Fin cfg1.N) (d) : (dats (Name := Name) (U := U) (Lvl := Lvl) c A O B).before 4 t d = iblk c A 4 t :=
  ((dats (Name := Name) (U := U) (Lvl := Lvl) c A O B).before_in_eq_fetched 4 rfl (fun _ => rfl) (fun _ _ _ => rfl)
      (fun t => by rw [after1_4]; unfold Dat.blockOf iblk; rw [A_eq]; try rfl) t d).trans
    (by unfold Dat.fetched Dat.blockOf iblk; rw [A_eq]; try rfl)
theorem before1_5 (t : Fin cfg1.N) (d) : (dats (Name := Name) (U := U) (Lvl := Lvl) c A O B).before 5 t d = iblk c A 5 t :=
  ((dats (Name := Name) (U := U) (Lvl := Lvl) c A O B).before_in_eq_fetched 5 rfl (fun _ => rfl) (fun _ _ _ => rfl)
      (fun t => by rw [after1_5]; unfold Dat.blockOf iblk; rw [A_eq]; try rfl) t d).trans
    (by unfold Dat.fetched Dat.blockOf iblk; rw [A_eq]; try rfl)
theorem before1_6 (t : Fin cfg1.N) (d) : (dats (Name := Name) (U := U) (Lvl := Lvl) c A O B).before 6 t d = iblk c A 6 t :=
  ((dats (Name := Name) (U := U) (Lvl := Lvl) c A O B).before_in_eq_fetched 6 rfl (fun _ => rfl) (fun _ _ _ => rfl)
      (fun t => by rw [after1_6]; unfold Dat.blockOf iblk; rw [A_eq]; try rfl) t d).trans
    (by unfold Dat.fetched Dat.blockOf iblk; rw [A_eq]; try rfl)

/-! ## The body obligation -/

variable (ι : Ix)

/-- What the body is called with at point `t`: the core's `owes` and the eight current staging buffers, -/
def bodyPre (t : Fin cfg1.N) : sProp 𝕄 :=
  iprop((dats (Name := Name) (U := U) (Lvl := Lvl) c A O B).Φ t.castSucc ∗ (dats (Name := Name) (U := U) (Lvl := Lvl) c A O B).owesAt ι t.castSucc
    ∗ (∃ d, owns (c : Thread nD τ) (st1_0 t) fullShare ((dats (Name := Name) (U := U) (Lvl := Lvl) c A O B).before 0 t d))
    ∗ (∃ d, owns (c : Thread nD τ) (st1_1 t) fullShare ((dats (Name := Name) (U := U) (Lvl := Lvl) c A O B).before 1 t d))
    ∗ (∃ d, owns (c : Thread nD τ) (st1_2 t) fullShare ((dats (Name := Name) (U := U) (Lvl := Lvl) c A O B).before 2 t d))
    ∗ (∃ d, owns (c : Thread nD τ) (st1_3 t) fullShare ((dats (Name := Name) (U := U) (Lvl := Lvl) c A O B).before 3 t d))
    ∗ (∃ d, owns (c : Thread nD τ) (st1_4 t) fullShare ((dats (Name := Name) (U := U) (Lvl := Lvl) c A O B).before 4 t d))
    ∗ (∃ d, owns (c : Thread nD τ) (st1_5 t) fullShare ((dats (Name := Name) (U := U) (Lvl := Lvl) c A O B).before 5 t d))
    ∗ (∃ d, owns (c : Thread nD τ) (st1_6 t) fullShare ((dats (Name := Name) (U := U) (Lvl := Lvl) c A O B).before 6 t d))
    ∗ (∃ d, owns (c : Thread nD τ) (st1_7 t) fullShare ((dats (Name := Name) (U := U) (Lvl := Lvl) c A O B).before 7 t d)))

/-- and what it returns. -/
def bodyPost (t : Fin cfg1.N) : sProp 𝕄 :=
  iprop((dats (Name := Name) (U := U) (Lvl := Lvl) c A O B).Φ t.succ ∗ (dats (Name := Name) (U := U) (Lvl := Lvl) c A O B).owesAt ι t.succ
    ∗ owns (c : Thread nD τ) (st1_0 t) fullShare ((dats (Name := Name) (U := U) (Lvl := Lvl) c A O B).after 0 t)
    ∗ owns (c : Thread nD τ) (st1_1 t) fullShare ((dats (Name := Name) (U := U) (Lvl := Lvl) c A O B).after 1 t)
    ∗ owns (c : Thread nD τ) (st1_2 t) fullShare ((dats (Name := Name) (U := U) (Lvl := Lvl) c A O B).after 2 t)
    ∗ owns (c : Thread nD τ) (st1_3 t) fullShare ((dats (Name := Name) (U := U) (Lvl := Lvl) c A O B).after 3 t)
    ∗ owns (c : Thread nD τ) (st1_4 t) fullShare ((dats (Name := Name) (U := U) (Lvl := Lvl) c A O B).after 4 t)
    ∗ owns (c : Thread nD τ) (st1_5 t) fullShare ((dats (Name := Name) (U := U) (Lvl := Lvl) c A O B).after 5 t)
    ∗ owns (c : Thread nD τ) (st1_6 t) fullShare ((dats (Name := Name) (U := U) (Lvl := Lvl) c A O B).after 6 t)
    ∗ owns (c : Thread nD τ) (st1_7 t) fullShare ((dats (Name := Name) (U := U) (Lvl := Lvl) c A O B).after 7 t))

/-- The body at any point: the seven input buffers hold their blocks, so the body's run applies; what the core owes
    passes through unread. -/
theorem sound_body (t : Fin cfg1.N) :
    bodyPre (Name := Name) (U := U) (Lvl := Lvl) c A O B ι t
      ⊢ wp frame (wpE (defs₀ (F := F)) Variants.none c none) Set.univ (bodyAt1 t)
          (fun _ => bodyPost (Name := Name) (U := U) (Lvl := Lvl) c A O B ι t) := by
  unfold bodyPre bodyPost bodyAt1
  simp only [before1_0, before1_1, before1_2, before1_3, before1_4, before1_5, before1_6]
  rw [show (dats (Name := Name) (U := U) (Lvl := Lvl) c A O B).Φ t.succ = (dats (Name := Name) (U := U) (Lvl := Lvl) c A O B).Φ t.castSucc from rfl,
    show (dats (Name := Name) (U := U) (Lvl := Lvl) c A O B).owesAt ι t.succ = (dats (Name := Name) (U := U) (Lvl := Lvl) c A O B).owesAt ι t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_mlp Variants.none c Set.univ (grid1.coords t) _ _ _ _ _ _ _ _ _ _ _ _ _ _ _ _
    (iblk c A 0 t) (iblk c A 1 t) (iblk c A 2 t) (iblk c A 3 t) (iblk c A 4 t) (iblk c A 5 t) (iblk c A 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation : BodyObligation (dats (Name := Name) (U := U) (Lvl := Lvl) c A O B) (defs₀ (F := F)) Variants.none ι Set.univ := fun t => by
  rw [bigSep_W1, bigSep_W1]
  exact sound_body c A O B ι t

/-! ## The arrays after the pipeline -/

/-- An input array is never written. -/
theorem arrAt_in (w : Fin cfg1.W) (hw : w ≠ 7) : (dats (Name := Name) (U := U) (Lvl := Lvl) c A O B).arrAt w cfg1.N = A w :=
  match w, hw with
  | ⟨0, _⟩, _ => ((dats (Name := Name) (U := U) (Lvl := Lvl) c A O B).arrAt_in 0 rfl _).trans (A_eq c A O B 0)
  | ⟨1, _⟩, _ => ((dats (Name := Name) (U := U) (Lvl := Lvl) c A O B).arrAt_in 1 rfl _).trans (A_eq c A O B 1)
  | ⟨2, _⟩, _ => ((dats (Name := Name) (U := U) (Lvl := Lvl) c A O B).arrAt_in 2 rfl _).trans (A_eq c A O B 2)
  | ⟨3, _⟩, _ => ((dats (Name := Name) (U := U) (Lvl := Lvl) c A O B).arrAt_in 3 rfl _).trans (A_eq c A O B 3)
  | ⟨4, _⟩, _ => ((dats (Name := Name) (U := U) (Lvl := Lvl) c A O B).arrAt_in 4 rfl _).trans (A_eq c A O B 4)
  | ⟨5, _⟩, _ => ((dats (Name := Name) (U := U) (Lvl := Lvl) c A O B).arrAt_in 5 rfl _).trans (A_eq c A O B 5)
  | ⟨6, _⟩, _ => ((dats (Name := Name) (U := U) (Lvl := Lvl) c A O B).arrAt_in 6 rfl _).trans (A_eq c A O B 6)
  | ⟨7, _⟩, h => absurd rfl h

end Cert.KernelIdeal.Mlp

end
-- ==== Proof.LaunchRegion.lean ====
/-
  The launch, sixth part: the TensorCore kernel region, and the program's run with its result named.
  The region is entered with the unscoped buffers at the valuation the nine host operations left. Its eight
  windows' arrays — the pooled array, the three converted weight matrices, the three bias rows, the result —
  go to the pipeline at those contents; every other unscoped buffer bypasses it. The kernel has no semaphore of
  its own and the body keeps no invariant. The TensorCore owes nothing during the region, so the pipeline's
  waits need no level evidence; its waits are recorded at the index of level zero, which keeps the bound on the
  recorded waits that the handshake state asks for. At the end the eight arrays are read off the final memory
  at what the pipeline's account computes, the arguments at what the host operations left: their launch
  contents, no operation and no call writing them.
-/
import proofs.«207436_g25675314495810_cont_9to1_828_42_alg».proof.Proof.LaunchRun
import proofs.«207436_g25675314495810_cont_9to1_828_42_alg».proof.Proof.MlpDat

noncomputable section

namespace Cert.KernelIdeal.Run

open Cert.KernelIdeal Cert.KernelIdeal.Gen
open Cert.KernelIdeal.Tile (iLoc eLoc oLoc iV eV oV sI sR sA iRowK oRowK iRowSet oRowSet pooledBuf scaleC cV jV)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The proof data -/

/-- The unscoped buffers when the region is entered, by reference; -/
abbrev Vr (d : Dev nD) : (b : Ref sig .tc) → Buf (Elt F) ((d.tc : Thread nD τ).loc b) := fun b => V3 m d (dr b)
/-- the windows' arrays among them. -/
abbrev Aof (d : Dev nD) : (w : Fin cfg1.W) → Buf (Elt F) ((cfg1.win w).arr.view.loc (d.tc : Thread nD τ)) :=
  fun w => Vr m d (Pipeline.arrRef spec1 w)

/-- The waits the TensorCore may have recorded: those at a level the handshake state allows after the call. -/
def Bof (d : Dev nD) : Set (SemLoc sig × HIx 1) := {p | (K (F := F)).lev (SparseCore.T d, p.1) p.2 ≤ 8 * 1}

/-- The pipeline's proof data: the arrays as entered, nothing owed. -/
abbrev dat (_ : Fin 1) (d : Dev nD) : Pipeline.Dat τ (Elt F) (HIx 1) ℕ UU ℕ cfg1 d :=
  Cert.KernelIdeal.Mlp.dats (Name := ℕ) (U := UU) (Lvl := ℕ) d (Aof m d) (0 : CellTallies nD τ sig (HIx 1)) (Bof (F := F) d)

/-- What is asked of the kernel body: the pipeline's body obligation at these data. -/
def BodySpec : Prop := ∀ d : Dev nD, Pipeline.BodyObligation (dat m 0 d) (defs₀ (F := F)) 𝒱₀ (none : HIx 1) Set.univ

/-- It holds: the body leaves its inputs and writes the perceptron of the block. -/
theorem bodySpec : BodySpec m := fun d =>
  Cert.KernelIdeal.Mlp.body_obligation (Name := ℕ) (U := UU) (Lvl := ℕ) d (Aof m d) (0 : CellTallies nD τ sig (HIx 1)) (Bof (F := F) d) (none : HIx 1)

/-! ## The thread states around the region -/

/-- The TensorCore owing nothing, its recorded waits within the handshake state's bound. -/
abbrev owes0 (d : Dev nD) : sProp 𝕄 :=
  iprop(∃ W, ⌜(K (F := F)).WBelow (SparseCore.T d) W (8 * 1)⌝ ∗ owes (SparseCore.T d) (0 : CellTallies nD τ sig (HIx 1)) W)

omit [FloatOps F] [Named F] in
theorem owesAfter_eq (d : Dev nD) : (owesAfter (F := F) d : sProp 𝕄) = owes0 (F := F) d := by
  unfold owesAfter owes0
  rw [(K (F := F)).Otc_end d (le_refl 1)]

/-- What the region leaves: the windows' arrays at their final contents, the other unscoped buffers as entered. -/
abbrev Rr (d : Dev nD) : sProp 𝕄 :=
  iprop((dat m 0 d).arrays ((dat m 0 d).arrAt · cfg1.N) ∗ Pipeline.unscopedRest spec1 d (Vr m d))

theorem share_full (d : Dev nD) : ∀ w, (dat m 0 d).share w = fullShare := (dat m 0 d).share_full fun _ => rfl

set_option backward.isDefEq.respectTransparency.types false in
/-- The region. -/
def reg (hbody : BodySpec m) : Pipeline.RegionSeg (pcfgs (F := F)) adm (dat m) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (hbody d).loose
  hwaits := Pipeline.hwaits_of_owed_zero _ _ _ _ (K (F := F)).L (K (F := F)).lev 0 fun _ _ => rfl
  pre d := iprop(StableHlo.held (SparseCore.T d) ucRefs (V3 m d) ∗ owes0 (F := F) d)
  post d := iprop(Rr m d ∗ owes0 (F := F) d)
  X _ := iprop(emp)
  Y _ := iprop(emp)
  Z d := Pipeline.unscopedRest spec1 d (Vr m d)
  hentry d := by
    rw [← unscopedBufs_held d (V3 m d)]
    iintro ⟨⟨Hub, %W, %hW, HO⟩, -, -⟩
    ihave H := (Pipeline.arrays_of_unscopedBufs (pcfgs (F := F)) adm (dat m) launch1.win launch1.arr_whole d (share_full m d) (Vr m d) fun _ => rfl) $$ Hub
    icases H with ⟨Ha, Hz⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p (Finset.mem_coe.mp hp))
      iexact HO
    isplitr; · iempintro
    iexact Hz
  hin d := by
    iintro -
    iempintro
  hout d := by
    rw [Pipeline.ownSems0_none, scopedRest1_eq]
    iintro -
    isplitr; · iempintro
    isplitr <;> iempintro
  hexit d := by
    iintro ⟨Ha, HO, -, Hz⟩
    imodintro
    isplitl [Ha Hz]
    · isplitl [Ha]; · iexact Ha
      iexact Hz
    unfold Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact Nat.zero_le _
    iexact HO

theorem reg_pre (hbody : BodySpec m) (d : Dev nD) :
    (reg m hbody).pre d = iprop(StableHlo.held (SparseCore.T d) ucRefs (V3 m d) ∗ owes0 (F := F) d) := rfl
theorem reg_post (hbody : BodySpec m) (d : Dev nD) : (reg m hbody).post d = iprop(Rr m d ∗ owes0 (F := F) d) := rfl

/-! ## The region as @main meets it -/

/-- The call of the region's entry under the SparseCore launch's labels is the entry's call, lifted. -/
theorem lift_eq :
    (Prog.lift (.customCall (SparseCore.inner (Pipeline.entry 0)) ()) >>= fun _ => pure PUnit.unit :
        Prog (TpuEff nD τ sig (Elt F) (SparseCore.Sig (ΛP (F := F)) 1) .tc) PUnit)
      = SparseCore.liftProg (Q := 1) (Prog.op (.customCall (Pipeline.entry 0) ()) fun _ => .ret PUnit.unit) := rfl

set_option backward.isDefEq.respectTransparency.types false in
theorem region_spec [∀ e, Nonempty (Elt F e)] (hbody : BodySpec m) : RegionSpec m (Rr m) := by
  intro κ d
  rw [owesAfter_eq, lift_eq]
  iintro ⟨#Hctx, Hb, Hh, HO, ⟨Hcg, Hti⟩⟩
  ihave #Hlev := (SparseCore.Cfg.ctx_levAts κ) $$ Hctx
  iapply ((K (F := F)).wp_liftProg (D (F := F)) 𝒱 (SparseCore.T d) Set.univ none _ _)
  iapply (Pipeline.RegionSeg.wp (pcfgs (F := F)) adm (dat m) (none : HIx 1) cellOf_inj (EP (F := F)) defs₀ 𝒱₀ (K (F := F)).L (K (F := F)).lev
    (reg m hbody) d none (fun u hu => nomatch hu) (fun _ => .ret PUnit.unit) _) $$ [Hb Hh HO Hcg Hti]
  rw [reg_pre, reg_post]
  isplitr
  · iintro ⟨-, ⟨HR, HO⟩⟩
    rw [wp_ret]; imodintro
    isplitl [HO]; · iexact HO
    iexact HR
  isplitl [Hb]; · iexact Hb
  isplitl [Hh HO]
  · isplitl [Hh]; · iexact Hh
    iexact HO
  isplitr; · iexact Hlev
  isplitl [Hcg]; · iexact Hcg
  iexact Hti

/-! ## Reading the final memory -/

omit [FloatOps F] [Named F] in
/-- A whole buffer held beside the state interpretation says what the memory holds there. -/
theorem read_whole (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

/-- What the final memory holds on device `d`: the windows' arrays at what the pipeline's account computes, the arguments at the region's entry valuation. -/
def fq (d : Dev nD) (s' : Phys nD τ sig (Elt F)) : Prop :=
  (∀ w : Fin cfg1.W, s'.mem.mem ((cfg1.win w).arr.view.loc (d.tc : Thread nD τ)) = (dat m 0 d).arrAt w cfg1.N)
    ∧ s'.mem.mem ((d.tc : Thread nD τ).loc main_arg0) = Vr m d main_arg0 ∧ s'.mem.mem ((d.tc : Thread nD τ).loc main_arg1) = Vr m d main_arg1
    ∧ s'.mem.mem ((d.tc : Thread nD τ).loc main_arg2) = Vr m d main_arg2 ∧ s'.mem.mem ((d.tc : Thread nD τ).loc main_arg3) = Vr m d main_arg3
    ∧ s'.mem.mem ((d.tc : Thread nD τ).loc main_arg4) = Vr m d main_arg4 ∧ s'.mem.mem ((d.tc : Thread nD τ).loc main_arg5) = Vr m d main_arg5
    ∧ s'.mem.mem ((d.tc : Thread nD τ).loc main_arg6) = Vr m d main_arg6 ∧ s'.mem.mem ((d.tc : Thread nD τ).loc main_arg7) = Vr m d main_arg7

set_option backward.isDefEq.respectTransparency.types false in
set_option maxRecDepth 16384 in
theorem hfin (d : Dev nD) (s' : Phys nD τ sig (Elt F)) : iprop(Rr m d ∗ SI s') ⊢ (⌜fq m d s'⌝ : sProp 𝕄) := by
  iintro ⟨⟨Ha, Hz⟩, HSI⟩
  ihave Hr := (Pipeline.arrays_read (pcfgs (F := F)) adm (dat m) launch1.arr_whole d (share_full m d) _ s') $$ [Ha HSI]
  · isplitl [Ha] <;> iassumption
  icases Hr with ⟨%ha, HSI⟩
  ihave Hz' := (Entails.of_eq (unscopedRest1_eq d (Vr m d))) $$ Hz
  icases Hz' with ⟨H0, H1, H2, H3, H4, H5, H6, H7, -⟩
  ihave Hx := (read_whole _ _ s') $$ [HSI H0]; · isplitl [HSI] <;> iassumption
  icases Hx with ⟨%h0, HSI⟩
  ihave Hx := (read_whole _ _ s') $$ [HSI H1]; · isplitl [HSI] <;> iassumption
  icases Hx with ⟨%h1, HSI⟩
  ihave Hx := (read_whole _ _ s') $$ [HSI H2]; · isplitl [HSI] <;> iassumption
  icases Hx with ⟨%h2, HSI⟩
  ihave Hx := (read_whole _ _ s') $$ [HSI H3]; · isplitl [HSI] <;> iassumption
  icases Hx with ⟨%h3, HSI⟩
  ihave Hx := (read_whole _ _ s') $$ [HSI H4]; · isplitl [HSI] <;> iassumption
  icases Hx with ⟨%h4, HSI⟩
  ihave Hx := (read_whole _ _ s') $$ [HSI H5]; · isplitl [HSI] <;> iassumption
  icases Hx with ⟨%h5, HSI⟩
  ihave Hx := (read_whole _ _ s') $$ [HSI H6]; · isplitl [HSI] <;> iassumption
  icases Hx with ⟨%h6, HSI⟩
  ihave Hx := (read_whole _ _ s') $$ [HSI H7]; · isplitl [HSI] <;> iassumption
  icases Hx with ⟨%h7, -⟩
  ipureintro
  exact ⟨ha, h0, h1, h2, h3, h4, h5, h6, h7⟩

/-! ## The arguments are as launched -/

/-- The buffers the nine operations write. -/
def wlist : List (Ref sig .tc) := [main_v2, main_v3, main_v4, main_v5, main_v6, main_v7, main_v8, main_v9, main_v10]

theorem hostOps_writes : ∀ op ∈ hostOps (F := F), ∃ y ∈ wlist, op.writes = {dr y} := by
  intro op h
  simp only [hostOps, List.mem_cons, List.mem_nil_iff, or_false] at h
  rcases h with rfl | rfl | rfl | rfl | rfl | rfl | rfl | rfl | rfl
  · exact ⟨main_v2, by simp [wlist], rfl⟩
  · exact ⟨main_v3, by simp [wlist], rfl⟩
  · exact ⟨main_v4, by simp [wlist], rfl⟩
  · exact ⟨main_v5, by simp [wlist], rfl⟩
  · exact ⟨main_v6, by simp [wlist], rfl⟩
  · exact ⟨main_v7, by simp [wlist], rfl⟩
  · exact ⟨main_v8, by simp [wlist], rfl⟩
  · exact ⟨main_v9, by simp [wlist], rfl⟩
  · exact ⟨main_v10, by simp [wlist], rfl⟩

/-- A buffer that neither the reshape, nor the call, nor the nine operations write is, at the region's entry, as launched. -/
theorem Vr_unwritten (d : Dev nD) (r : Ref sig .tc) (h0 : r ≠ main_v0) (h1 : r ≠ main_v1) (hr : r ∉ wlist) :
    Vr m d r = m ((d.tc : Thread nD τ).loc r) := by
  show V3 m d (dr r) = _
  unfold V3
  rw [StableHlo.after_of_forall_not_mem (b := dr r) (hostOps (F := F)) (V2 m d) (fun op hop => by
    obtain ⟨y, hy, e⟩ := hostOps_writes op hop
    rw [e, Finset.mem_singleton]
    exact StableHlo.devRef_ne_of_ne fun e' => hr (e' ▸ hy))]
  unfold V2
  rw [Function.update_of_ne (StableHlo.devRef_ne_of_ne h1)]
  exact (op0 (F := F)).result_of_not_mem (V₀ m d) (by
    rw [show (op0 (F := F)).writes = {dr main_v0} from rfl, Finset.mem_singleton]; exact StableHlo.devRef_ne_of_ne h0)

/-! ## The run -/

/-- The result array after the run: what the pipeline's two write-backs leave of the entry contents. -/
abbrev resultOf (d : Dev nD) : Buf (Elt F) ((d.tc : Thread nD τ).loc main_v11) := (dat m 0 d).arrAt 7 cfg1.N

/-- The claim's post, the result named. -/
def QC : PUnit × MemSt nD τ sig (Elt F) → Prop := fun r => ∀ c : Dev nD,
  r.2.mem ((c.tc : Thread nD τ).loc main_v11) = resultOf m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

/-- The program's run: from any memory whose tokens name rows of the table, every weakly fair execution of all the
    threads terminates, nothing faulting; the result array ends at `resultOf`, the arguments unchanged. -/
theorem run_main [∀ e, Nonempty (Elt F e)] (hb : TileBodySpec (F := F))
    (hin : ∀ (d : Dev nD) j, (m ((d.tc : Thread nD τ).loc main_arg0) j).toNat < 100000) :
    θ_run (Cert.KernelIdeal.defs (F := F)) (Cert.KernelIdeal.threads (F := F)) ⟨m, fun _ => 0, ρ⟩ (QC m) :=
  run_main_of m ρ hb hin (Rr m) (region_spec m (bodySpec m)) (fq m) (hfin m) (QC m) fun s' h c => by
    obtain ⟨ha, h0, h1, h2, h3, h4, h5, h6, h7⟩ := h c
    refine ⟨ha 7, ?_, ?_, ?_, ?_, ?_, ?_, ?_, ?_⟩
    · rw [h0]; exact Vr_unwritten m c main_arg0 (by decide) (by decide) (by decide)
    · rw [h1]; exact Vr_unwritten m c main_arg1 (by decide) (by decide) (by decide)
    · rw [h2]; exact Vr_unwritten m c main_arg2 (by decide) (by decide) (by decide)
    · rw [h3]; exact Vr_unwritten m c main_arg3 (by decide) (by decide) (by decide)
    · rw [h4]; exact Vr_unwritten m c main_arg4 (by decide) (by decide) (by decide)
    · rw [h5]; exact Vr_unwritten m c main_arg5 (by decide) (by decide) (by decide)
    · rw [h6]; exact Vr_unwritten m c main_arg6 (by decide) (by decide) (by decide)
    · rw [h7]; exact Vr_unwritten m c main_arg7 (by decide) (by decide) (by decide)

end Cert.KernelIdeal.Run

end
-- ==== Proof.LaunchValue.lean ====
/-
  The launch, seventh part: what the windows' arrays hold when the region is entered, as terms of the arguments.
  The pooled array is the pooled values of the table and of the token array reshaped; each weight matrix is its
  argument transposed and converted; each bias row is its argument reshaped to one row. Each is read off the
  valuation the host operations leave, operation by operation.
-/
import proofs.«207436_g25675314495810_cont_9to1_828_42_alg».proof.Proof.LaunchRegion

noncomputable section

namespace Cert.KernelIdeal.Run

open Cert.KernelIdeal Cert.KernelIdeal.Gen
open Cert.KernelIdeal.Tile (iLoc eLoc oLoc pooledBuf scaleC)

open Idealize.ShloMosaic
open Idealize.ShloMosaic.StableHlo
open Idealize.ShloMosaic.SparseCore (S V T)
open Idealize.ShloMosaic.SparseCore.Cfg (HIx)
open Idealize.SL Idealize.SL.Sem

variable {F : FTy → Type} [FloatOps F] [Named F]

variable (m : (ℓ : Loc nD τ sig) → Buf (Elt F) ℓ)

/-- The token array as the call finds it: the argument under the other shape. -/
theorem fi_cast (d : Dev nD) :
    (opsOf m).fi d = shapeCast S32x256x100 (m ((d.tc : Thread nD τ).loc main_arg0)) shapeCasts_S4096x200_S32x256x100 :=
  funext fun j => fi_eq m d j

/-- A buffer neither the reshape nor the call writes is, after the call, as launched. -/
theorem V2_launch (d : Dev nD) (r : Ref sig .tc) (h0 : r ≠ main_v0) (h1 : r ≠ main_v1) :
    V2 m d (dr r) = m ((d.tc : Thread nD τ).loc r) := by
  unfold V2
  rw [Function.update_of_ne (StableHlo.devRef_ne_of_ne h1)]
  exact (op0 (F := F)).result_of_not_mem (V₀ m d) (by
    rw [show (op0 (F := F)).writes = {dr main_v0} from rfl, Finset.mem_singleton]; exact StableHlo.devRef_ne_of_ne h0)

/-- Window 0's array: the pooled values. -/
theorem Aof_0 (d : Dev nD) :
    Aof m d 0 = pooledBuf scaleC (m ((d.tc : Thread nD τ).loc main_arg1))
      (shapeCast S32x256x100 (m ((d.tc : Thread nD τ).loc main_arg0)) shapeCasts_S4096x200_S32x256x100) := by
  show StableHlo.after (hostOps (F := F)) (V2 m d) (dr main_v1) = _
  unfold hostOps
  after_results_simp
  rw [V2_v1]
  show pooledBuf scaleC ((opsOf m).fe d) ((opsOf m).fi d) = _
  rw [fe_eq, fi_cast]

/-- Window 1's: the first weight matrix transposed and converted. -/
theorem Aof_1 (d : Dev nD) :
    Aof m d 1 = truncf .bf16 (transpose S128x1024 [1, 0] (m ((d.tc : Thread nD τ).loc main_arg2)) transposes_S1024x128_S128x1024_1_0) bitsLt_bf16_f32 := by
  show StableHlo.after (hostOps (F := F)) (V2 m d) (dr main_v3) = _
  unfold hostOps
  after_results_simp
  rw [V2_launch m d main_arg2 (by decide) (by decide)]

/-- Window 2's: the first bias as a row. -/
theorem Aof_2 (d : Dev nD) :
    Aof m d 2 = shapeCast S1x1024 (m ((d.tc : Thread nD τ).loc main_arg3)) shapeCasts_S1024_S1x1024 := by
  show StableHlo.after (hostOps (F := F)) (V2 m d) (dr main_v4) = _
  unfold hostOps
  after_results_simp
  rw [V2_launch m d main_arg3 (by decide) (by decide)]
  rfl

/-- Window 3's: the second weight matrix transposed and converted. -/
theorem Aof_3 (d : Dev nD) :
    Aof m d 3 = truncf .bf16 (transpose S1024x512 [1, 0] (m ((d.tc : Thread nD τ).loc main_arg4)) transposes_S512x1024_S1024x512_1_0) bitsLt_bf16_f32 := by
  show StableHlo.after (hostOps (F := F)) (V2 m d) (dr main_v6) = _
  unfold hostOps
  after_results_simp
  rw [V2_launch m d main_arg4 (by decide) (by decide)]

/-- Window 4's: the second bias as a row. -/
theorem Aof_4 (d : Dev nD) :
    Aof m d 4 = shapeCast S1x512 (m ((d.tc : Thread nD τ).loc main_arg5)) shapeCasts_S512_S1x512 := by
  show StableHlo.after (hostOps (F := F)) (V2 m d) (dr main_v7) = _
  unfold hostOps
  after_results_simp
  rw [V2_launch m d main_arg5 (by decide) (by decide)]
  rfl

/-- Window 5's: the third weight matrix transposed and converted. -/
theorem Aof_5 (d : Dev nD) :
    Aof m d 5 = truncf .bf16 (transpose S512x64 [1, 0] (m ((d.tc : Thread nD τ).loc main_arg6)) transposes_S64x512_S512x64_1_0) bitsLt_bf16_f32 := by
  show StableHlo.after (hostOps (F := F)) (V2 m d) (dr main_v9) = _
  unfold hostOps
  after_results_simp
  rw [V2_launch m d main_arg6 (by decide) (by decide)]

/-- Window 6's: the third bias as a row. -/
theorem Aof_6 (d : Dev nD) :
    Aof m d 6 = shapeCast S1x64 (m ((d.tc : Thread nD τ).loc main_arg7)) shapeCasts_S64_S1x64 := by
  show StableHlo.after (hostOps (F := F)) (V2 m d) (dr main_v10) = _
  unfold hostOps
  after_results_simp
  rw [V2_launch m d main_arg7 (by decide) (by decide)]
  rfl

end Cert.KernelIdeal.Run

end
-- ==== Proof.MlpOut.lean ====
/-
  The result array after the perceptron's pipeline. The two grid points write rows [0, 2048) and [2048, 4096) of
  the result, each with the perceptron of the matching block of input rows and the whole weights and biases; the
  two blocks cover the array, so entry (r, o) of the result is the perceptron of the block of rows that holds r
  — rows [2048 (r / 2048), 2048 (r / 2048) + 2048) — read at (r mod 2048, o).
-/
import proofs.«207436_g25675314495810_cont_9to1_828_42_alg».proof.Proof.MlpDat

set_option maxRecDepth 16384

noncomputable section

namespace Cert.KernelIdeal.Mlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.ShloMosaic.Pipeline (Dat Cfg Window)

variable {F : FTy → Type} [FloatOps F] [Named F]
variable {Ix : Type} [DecidableEq Ix] {Name : Type} [DecidableEq Name] {U : Type} [URA U] {Lvl : Type} [Preorder Lvl]

/-! ## The result as one function of the arrays -/

/-- Rows [2048 p, 2048 p + 2048) of an array of 4096 rows. -/
def rowsOf (a : S4096x128.Idx → Elt F .f32) (p : Fin 2) : Vec F S2048x128 .f32 :=
  fun y => a (ix2 (⟨2048 * p.val + (y 0).val, by have := p.isLt; have := idx2_lt0 y; omega⟩ : Fin 4096) (⟨(y 1).val, idx2_lt1 y⟩ : Fin 128))

theorem div_lt (i : S4096x64.Idx) : (i 0).val / 2048 < 2 := by have := idx2_lt0 i; omega
theorem mod_lt (i : S4096x64.Idx) : (i 0).val % 2048 < 2048 := by omega

/-- The result array: at row r the perceptron of the block of rows holding r, at r's place in the block. -/
def outArr (a0 : S4096x128.Idx → Elt F .f32) (a1 : Vec F S128x1024 .bf16) (a2 : Vec F S1x1024 .f32)
    (a3 : Vec F S1024x512 .bf16) (a4 : Vec F S1x512 .f32) (a5 : Vec F S512x64 .bf16) (a6 : Vec F S1x64 .f32) :
    S4096x64.Idx → Elt F .f32 :=
  fun i => mlpBlock (rowsOf a0 ⟨(i 0).val / 2048, div_lt i⟩) a1 a2 a3 a4 a5 a6
    (ix2 (⟨(i 0).val % 2048, mod_lt i⟩ : Fin 2048) (⟨(i 1).val, idx2_lt1 i⟩ : Fin 64))

/-- The result at the entry of block `p` under block index `j`. -/
theorem outArr_at (a0 : S4096x128.Idx → Elt F .f32) (a1 : Vec F S128x1024 .bf16) (a2 : Vec F S1x1024 .f32)
    (a3 : Vec F S1024x512 .bf16) (a4 : Vec F S1x512 .f32) (a5 : Vec F S512x64 .bf16) (a6 : Vec F S1x64 .f32)
    (p : Fin 2) (j : S2048x64.Idx) (i : S4096x64.Idx) (h0 : (i 0).val = 2048 * p.val + (j 0).val) (h1 : (i 1).val = (j 1).val) :
    outArr a0 a1 a2 a3 a4 a5 a6 i = mlpBlock (rowsOf a0 p) a1 a2 a3 a4 a5 a6 j := by
  have hj0 : (j 0).val < 2048 := idx2_lt0 j
  have hp : (⟨(i 0).val / 2048, div_lt i⟩ : Fin 2) = p := Fin.ext (by show (i 0).val / 2048 = p.val; omega)
  have hj : ix2 (⟨(i 0).val % 2048, mod_lt i⟩ : Fin 2048) (⟨(i 1).val, idx2_lt1 i⟩ : Fin 64) = j := by
    funext a
    match a with
    | ⟨0, _⟩ => exact Fin.ext (by show (i 0).val % 2048 = (j 0).val; omega)
    | ⟨1, _⟩ => exact Fin.ext h1
  exact congr (congrArg (fun q => mlpBlock (rowsOf a0 q) a1 a2 a3 a4 a5 a6) hp) hj

/-- The perceptron of a block at equal arguments. -/
theorem mlpBlock_congr {x x' : Vec F S2048x128 .f32} {w1 w1' : Vec F S128x1024 .bf16} {c1 c1' : Vec F S1x1024 .f32}
    {w2 w2' : Vec F S1024x512 .bf16} {c2 c2' : Vec F S1x512 .f32} {w3 w3' : Vec F S512x64 .bf16} {c3 c3' : Vec F S1x64 .f32}
    (h1 : x = x') (h2 : w1 = w1') (h3 : c1 = c1') (h4 : w2 = w2') (h5 : c2 = c2') (h6 : w3 = w3') (h7 : c3 = c3') :
    mlpBlock x w1 c1 w2 c2 w3 c3 = mlpBlock x' w1' c1' w2' c2' w3' c3' := by
  subst h1 h2 h3 h4 h5 h6 h7; rfl

/-! ## The windows' blocks -/

/-- The printed index maps, decided over the two points: the input rows' and the result's block index is the point
    on the rows and 0 on the columns; every other window's is 0 on both axes. -/
theorem idx_facts : ∀ t : Fin cfg1.N, win1_0.index t (0 : Fin 2) = t.val
    ∧ win1_0.index t (1 : Fin 2) = 0
    ∧ win1_7.index t (0 : Fin 2) = t.val
    ∧ win1_7.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0 :=
  (by decide +kernel : ∀ t : Fin grid1.N, _)

variable (c : Dev nD) (A : (w : Fin cfg1.W) → Buf (Elt F) ((cfg1.win w).arr.view.loc (c.tc : Thread nD τ)))

/-- The point as a block number. -/
abbrev blkNo (t : Fin cfg1.N) : Fin 2 := t.cast N_1

/-- Window 0's block at point `t` is rows [2048 t, 2048 t + 2048) of its array. -/
theorem iblk0_eq (t : Fin cfg1.N) : (iblk c A 0 t : Vec F S2048x128 .f32) = rowsOf (A 0) (blkNo t) := by
  have e0 := (idx_facts t).1
  have e1 := (idx_facts t).2.1
  funext y
  show A 0 (((cfg1.win 0).blk t).view.emb y) = A 0 _
  refine congrArg (A 0) (funext fun a => Fin.ext ?_)
  match a with
  | ⟨0, _⟩ => show win1_0.index t (0 : Fin 2) * 2048 + 1 * (y 0).val = 2048 * t.val + (y 0).val; omega
  | ⟨1, _⟩ => show win1_0.index t (1 : Fin 2) * 128 + 1 * (y 1).val = (y 1).val; omega

theorem iblk1_eq (t : Fin cfg1.N) : (iblk c A 1 t : Vec F S128x1024 .bf16) = (A 1 : S128x1024.Idx → Elt F .bf16) := by
  have e0 := (idx_facts t).2.2.2.2.1
  have e1 := (idx_facts t).2.2.2.2.2.1
  funext y
  show A 1 (((cfg1.win 1).blk t).view.emb y) = A 1 y
  refine congrArg (A 1) (funext fun a => Fin.ext ?_)
  match a with
  | ⟨0, _⟩ => show win1_1.index t (0 : Fin 2) * 128 + 1 * (y 0).val = (y 0).val; omega
  | ⟨1, _⟩ => show win1_1.index t (1 : Fin 2) * 1024 + 1 * (y 1).val = (y 1).val; omega

theorem iblk2_eq (t : Fin cfg1.N) : (iblk c A 2 t : Vec F S1x1024 .f32) = (A 2 : S1x1024.Idx → Elt F .f32) := by
  have e0 := (idx_facts t).2.2.2.2.2.2.1
  have e1 := (idx_facts t).2.2.2.2.2.2.2.1
  funext y
  show A 2 (((cfg1.win 2).blk t).view.emb y) = A 2 y
  refine congrArg (A 2) (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

theorem iblk3_eq (t : Fin cfg1.N) : (iblk c A 3 t : Vec F S1024x512 .bf16) = (A 3 : S1024x512.Idx → Elt F .bf16) := by
  have e0 := (idx_facts t).2.2.2.2.2.2.2.2.1
  have e1 := (idx_facts t).2.2.2.2.2.2.2.2.2.1
  funext y
  show A 3 (((cfg1.win 3).blk t).view.emb y) = A 3 y
  refine congrArg (A 3) (funext fun a => Fin.ext ?_)
  match a with
  | ⟨0, _⟩ => show win1_3.index t (0 : Fin 2) * 1024 + 1 * (y 0).val = (y 0).val; omega
  | ⟨1, _⟩ => show win1_3.index t (1 : Fin 2) * 512 + 1 * (y 1).val = (y 1).val; omega

theorem iblk4_eq (t : Fin cfg1.N) : (iblk c A 4 t : Vec F S1x512 .f32) = (A 4 : S1x512.Idx → Elt F .f32) := by
  have e0 := (idx_facts t).2.2.2.2.2.2.2.2.2.2.1
  have e1 := (idx_facts t).2.2.2.2.2.2.2.2.2.2.2.1
  funext y
  show A 4 (((cfg1.win 4).blk t).view.emb y) = A 4 y
  refine congrArg (A 4) (funext fun a => Fin.ext ?_)
  match a with
  | ⟨0, _⟩ => show win1_4.index t (0 : Fin 2) * 1 + 1 * (y 0).val = (y 0).val; omega
  | ⟨1, _⟩ => show win1_4.index t (1 : Fin 2) * 512 + 1 * (y 1).val = (y 1).val; omega

theorem iblk5_eq (t : Fin cfg1.N) : (iblk c A 5 t : Vec F S512x64 .bf16) = (A 5 : S512x64.Idx → Elt F .bf16) := by
  have e0 := (idx_facts t).2.2.2.2.2.2.2.2.2.2.2.2.1
  have e1 := (idx_facts t).2.2.2.2.2.2.2.2.2.2.2.2.2.1
  funext y
  show A 5 (((cfg1.win 5).blk t).view.emb y) = A 5 y
  refine congrArg (A 5) (funext fun a => Fin.ext ?_)
  match a with
  | ⟨0, _⟩ => show win1_5.index t (0 : Fin 2) * 512 + 1 * (y 0).val = (y 0).val; omega
  | ⟨1, _⟩ => show win1_5.index t (1 : Fin 2) * 64 + 1 * (y 1).val = (y 1).val; omega

theorem iblk6_eq (t : Fin cfg1.N) : (iblk c A 6 t : Vec F S1x64 .f32) = (A 6 : S1x64.Idx → Elt F .f32) := by
  have e0 := (idx_facts t).2.2.2.2.2.2.2.2.2.2.2.2.2.2.1
  have e1 := (idx_facts t).2.2.2.2.2.2.2.2.2.2.2.2.2.2.2
  funext y
  show A 6 (((cfg1.win 6).blk t).view.emb y) = A 6 y
  refine congrArg (A 6) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

variable (O : CellTallies nD τ sig Ix) (B : Set (SemLoc sig × Ix))

/-! ## What each point writes back, and the array the two leave -/

/-- What point `t` writes back is block `t` of `outArr` of the arrays. -/
theorem flushed7_eq (t : Fin cfg1.N) :
    (dats (Name := Name) (U := U) (Lvl := Lvl) c A O B).flushed 7 t
      = ((cfg1.win 7).blk t).view.read (Elt F) (outArr (A 0) (A 1) (A 2) (A 3) (A 4) (A 5) (A 6)) := by
  show (cfg1.win 7).cut (grid1.coords t) ((dats (Name := Name) (U := U) (Lvl := Lvl) c A O B).after 7 t) = _
  rw [after1_7]
  have e0 := (idx_facts t).2.2.1
  have e1 := (idx_facts t).2.2.2.1
  funext j
  show mlpBlock (iblk c A 0 t) (iblk c A 1 t) (iblk c A 2 t) (iblk c A 3 t) (iblk c A 4 t) (iblk c A 5 t) (iblk c A 6 t) j
    = outArr (A 0) (A 1) (A 2) (A 3) (A 4) (A 5) (A 6) (((cfg1.win 7).blk t).view.emb j)
  refine (congrFun (mlpBlock_congr (iblk0_eq c A t) (iblk1_eq c A t) (iblk2_eq c A t) (iblk3_eq c A t) (iblk4_eq c A t)
    (iblk5_eq c A t) (iblk6_eq c A t)) j).trans ?_
  refine (outArr_at (A 0) (A 1) (A 2) (A 3) (A 4) (A 5) (A 6) (blkNo t) j _ ?_ ?_).symm
  · show win1_7.index t (0 : Fin 2) * 2048 + 1 * (j 0).val = 2048 * t.val + (j 0).val; omega
  · show win1_7.index t (1 : Fin 2) * 64 + 1 * (j 1).val = (j 1).val; omega

/-- An index of the result is in point `t`'s block iff each coordinate is in the block's range on its axis. -/
theorem mem_blk7 (t : Fin cfg1.N) (i : S4096x64.Idx) :
    i ∈ ((cfg1.win 7).blk t).view.set ↔ ∀ a : Fin 2, win1_7.index t a * S2048x64.size a ≤ (i a).val ∧ (i a).val < win1_7.index t a * S2048x64.size a + S2048x64.size a := by
  show i ∈ ((View.whole main_v11).slice (win1_7.rect t)).set ↔ _
  rw [View.set_slice_whole, Rect.mem_set_unit]
  exact Iff.rfl

/-- Every index of the result is in the block of the point its row falls to. -/
theorem cover7 (i : S4096x64.Idx) : ∃ t : Fin cfg1.N, (cfg1.win 7).flush t = true ∧ i ∈ ((cfg1.win 7).blk t).view.set := by
  have hi0 : (i 0).val < 4096 := idx2_lt0 i
  have hi1 : (i 1).val < 64 := idx2_lt1 i
  have hN : (i 0).val / 2048 < cfg1.N := by rw [show cfg1.N = 2 from N_1]; omega
  refine ⟨⟨(i 0).val / 2048, hN⟩, flush1_7 _, ?_⟩
  have e0 := (idx_facts ⟨(i 0).val / 2048, hN⟩).2.2.1
  have e1 := (idx_facts ⟨(i 0).val / 2048, hN⟩).2.2.2.1
  have ht : (⟨(i 0).val / 2048, hN⟩ : Fin cfg1.N).val = (i 0).val / 2048 := rfl
  rw [mem_blk7]
  intro a
  match a with
  | ⟨0, _⟩ =>
    show win1_7.index ⟨(i 0).val / 2048, hN⟩ (0 : Fin 2) * 2048 ≤ (i 0).val ∧ (i 0).val < win1_7.index ⟨(i 0).val / 2048, hN⟩ (0 : Fin 2) * 2048 + 2048
    omega
  | ⟨1, _⟩ =>
    show win1_7.index ⟨(i 0).val / 2048, hN⟩ (1 : Fin 2) * 64 ≤ (i 1).val ∧ (i 1).val < win1_7.index ⟨(i 0).val / 2048, hN⟩ (1 : Fin 2) * 64 + 64
    omega

/-- The result array after the pipeline. -/
theorem arrAt_out : (dats (Name := Name) (U := U) (Lvl := Lvl) c A O B).arrAt 7 cfg1.N
    = outArr (A 0) (A 1) (A 2) (A 3) (A 4) (A 5) (A 6) :=
  (dats (Name := Name) (U := U) (Lvl := Lvl) c A O B).arrAt_eq_of_cover 7 (outArr (A 0) (A 1) (A 2) (A 3) (A 4) (A 5) (A 6))
    (fun t _ => flushed7_eq c A O B t) cover7

end Cert.KernelIdeal.Mlp

end
-- ==== Proof.Spec.lean ====
/-
  The common specification of the computation, as a term over the extended reals.

  A batch row's pooled embedding is the sum of its 200 gathered table rows times 1/200 (a token outside the table
  contributes 0); three affine layers follow, the first two followed by max(·, 0).  Both programs of the claim are
  proved equal to `out` of their argument arrays, index by index.
-/
import Idealize.ShloMosaic.PureOps.Ideal
import Idealize.ShloMosaic.Lib.ValueIdx

noncomputable section

open scoped BigOperators

namespace Cert.Spec

open Idealize.ShloMosaic Idealize.ShloMosaic.ValueIdx

/-- Row `n` of the embedding table at column `e`; 0 outside the table. -/
def embAt (emb : (⟨2, ![100000, 128]⟩ : Shape).Idx → EReal) (n : ℕ) (e : Fin 128) : EReal :=
  if h : n < 100000 then emb (ix2 ⟨n, h⟩ e) else 0

/-- The mean of a batch row's 200 embedding rows: their sum times 1/200. -/
def pooled (text : (⟨2, ![4096, 200]⟩ : Shape).Idx → BitVec 32) (emb : (⟨2, ![100000, 128]⟩ : Shape).Idx → EReal)
    (b : Fin 4096) (e : Fin 128) : EReal :=
  (∑ l : Fin 200, embAt emb (text (ix2 b l)).toNat e) * ((1 / 200 : ℝ) : EReal)

/-- The pooled embeddings as an array. -/
def pooledArr (text : (⟨2, ![4096, 200]⟩ : Shape).Idx → BitVec 32) (emb : (⟨2, ![100000, 128]⟩ : Shape).Idx → EReal) :
    (⟨2, ![4096, 128]⟩ : Shape).Idx → EReal :=
  fun i => pooled text emb (i 0) (i 1)

/-- The first layer: x · W1ᵀ + b1, then max with 0. -/
def mlp1 (x : (⟨2, ![4096, 128]⟩ : Shape).Idx → EReal) (W1 : (⟨2, ![1024, 128]⟩ : Shape).Idx → EReal)
    (b1 : (⟨1, ![1024]⟩ : Shape).Idx → EReal) (b : Fin 4096) (j : Fin 1024) : EReal :=
  max ((∑ e : Fin 128, x (ix2 b e) * W1 (ix2 j e)) + b1 (ix1 j)) 0

/-- The second layer: h1 · W2ᵀ + b2, then max with 0. -/
def mlp2 (x : (⟨2, ![4096, 128]⟩ : Shape).Idx → EReal) (W1 : (⟨2, ![1024, 128]⟩ : Shape).Idx → EReal)
    (b1 : (⟨1, ![1024]⟩ : Shape).Idx → EReal) (W2 : (⟨2, ![512, 1024]⟩ : Shape).Idx → EReal)
    (b2 : (⟨1, ![512]⟩ : Shape).Idx → EReal) (b : Fin 4096) (k : Fin 512) : EReal :=
  max ((∑ j : Fin 1024, mlp1 x W1 b1 b j * W2 (ix2 k j)) + b2 (ix1 k)) 0

/-- The third layer: h2 · W3ᵀ + b3. -/
def mlp (x : (⟨2, ![4096, 128]⟩ : Shape).Idx → EReal) (W1 : (⟨2, ![1024, 128]⟩ : Shape).Idx → EReal)
    (b1 : (⟨1, ![1024]⟩ : Shape).Idx → EReal) (W2 : (⟨2, ![512, 1024]⟩ : Shape).Idx → EReal)
    (b2 : (⟨1, ![512]⟩ : Shape).Idx → EReal) (W3 : (⟨2, ![64, 512]⟩ : Shape).Idx → EReal)
    (b3 : (⟨1, ![64]⟩ : Shape).Idx → EReal) : (⟨2, ![4096, 64]⟩ : Shape).Idx → EReal :=
  fun i => (∑ k : Fin 512, mlp2 x W1 b1 W2 b2 (i 0) k * W3 (ix2 (i 1) k)) + b3 (ix1 (i 1))

/-- The whole computation: pooling, then the three layers. -/
def out (text : (⟨2, ![4096, 200]⟩ : Shape).Idx → BitVec 32) (emb : (⟨2, ![100000, 128]⟩ : Shape).Idx → EReal)
    (W1 : (⟨2, ![1024, 128]⟩ : Shape).Idx → EReal) (b1 : (⟨1, ![1024]⟩ : Shape).Idx → EReal)
    (W2 : (⟨2, ![512, 1024]⟩ : Shape).Idx → EReal) (b2 : (⟨1, ![512]⟩ : Shape).Idx → EReal)
    (W3 : (⟨2, ![64, 512]⟩ : Shape).Idx → EReal) (b3 : (⟨1, ![64]⟩ : Shape).Idx → EReal) :
    (⟨2, ![4096, 64]⟩ : Shape).Idx → EReal :=
  mlp (pooledArr text emb) W1 b1 W2 b2 W3 b3

end Cert.Spec
-- ==== Proof.MlpValue.lean ====
/-
  The perceptron of one block of rows, read at an entry. At the extended reals a matrix product into a zero
  accumulator is the sum over the contracted index of the products of the entries, the change of float format is
  the identity, a bias row repeated down the rows reads its one row, and the maximum with the zero constant is the
  maximum with 0: so entry (r, o) of the block is three nested sums over row r of the inputs. With the weights
  transposed and the biases laid out as rows — as the host prepares them — and the block the rows
  [2048 t, 2048 t + 2048) of the 4096, that is the specification's entry (2048 t + r, o).
-/
import proofs.«207436_g25675314495810_cont_9to1_828_42_alg».proof.Proof.MlpBody
import proofs.«207436_g25675314495810_cont_9to1_828_42_alg».proof.Proof.Spec
import Idealize.ShloMosaic.Lib.StackMember
import Idealize.ShloMosaic.Lib.KernelVsHost
import Idealize.ShloMosaic.Lib.ValueLayout
import Idealize.ShloMosaic.Lib.ValueIdx

noncomputable section

open scoped BigOperators

namespace Cert.KernelIdeal.Mlp

open Cert.KernelIdeal Cert.KernelIdeal.Gen
open Idealize.ShloMosaic Idealize.ShloMosaic.ValueIdx

/-! ## One affine layer at an entry -/

section Layer
variable {m k n : Nat} {φ₁ φ₂ : FTy}

/-- A product of an m×k by a k×n matrix into the zero accumulator, plus a bias row repeated down the rows, at entry
    (r, j): the sum over the contracted index of the products, plus the bias at j. -/
theorem affine_apply (d : DotDims ⟨2, ![m, k]⟩ ⟨2, ![k, n]⟩ ⟨2, ![m, n]⟩) (hd : d = DotDims.plain m k n)
    (lhs : FVec Ideal ⟨2, ![m, k]⟩ φ₁) (rhs : FVec Ideal ⟨2, ![k, n]⟩ φ₂)
    (bias : FVec Ideal ⟨2, ![1, n]⟩ .f32) (hb : (⟨2, ![1, n]⟩ : Shape).Broadcasts ⟨2, ![m, n]⟩) (r : Fin m) (j : Fin n) :
    addf (matmul d none lhs rhs (constant (F := Ideal) ⟨2, ![m, n]⟩ .f32 0x00000000#32)) (broadcastTo ⟨2, ![m, n]⟩ bias hb) (ix2 r j)
      = (∑ e : Fin k, lhs (ix2 r e) * rhs (ix2 e j)) + bias (ix2 (0 : Fin 1) j) := by
  subst hd
  rw [addf_apply, matmul_zero_eq_dotGeneral, broadcastTo_1b_ab_apply]
  exact congrArg (· + bias (ix2 (0 : Fin 1) j)) (StackMember.dotGeneral_plain_apply none lhs rhs r j)

end Layer

/-- The printed dimension numbers are the plain product's. -/
theorem dot1_eq : dot_S2048x128_S128x1024_S2048x1024_1_0_0_1_n_n = DotDims.plain 2048 128 1024 := rfl
theorem dot2_eq : dot_S2048x1024_S1024x512_S2048x512_1_0_0_1_n_n = DotDims.plain 2048 1024 512 := rfl
theorem dot3_eq : dot_S2048x512_S512x64_S2048x64_1_0_0_1_n_n = DotDims.plain 2048 512 64 := rfl

/-! ## The block at an entry -/

/-- The first layer of a block at (r, j): weights with the contracted index first, the bias a row. -/
def blk1 (x : Vec Ideal S2048x128 .f32) (w1 : Vec Ideal S128x1024 .bf16) (c1 : Vec Ideal S1x1024 .f32)
    (r : Fin 2048) (j : Fin 1024) : EReal :=
  max ((∑ e : Fin 128, x (ix2 r e) * w1 (ix2 e j)) + c1 (ix2 (0 : Fin 1) j)) 0

/-- The second layer at (r, k). -/
def blk2 (x : Vec Ideal S2048x128 .f32) (w1 : Vec Ideal S128x1024 .bf16) (c1 : Vec Ideal S1x1024 .f32)
    (w2 : Vec Ideal S1024x512 .bf16) (c2 : Vec Ideal S1x512 .f32) (r : Fin 2048) (k : Fin 512) : EReal :=
  max ((∑ j : Fin 1024, blk1 x w1 c1 r j * w2 (ix2 j k)) + c2 (ix2 (0 : Fin 1) k)) 0

/-- The third layer at (r, o). -/
def blk3 (x : Vec Ideal S2048x128 .f32) (w1 : Vec Ideal S128x1024 .bf16) (c1 : Vec Ideal S1x1024 .f32)
    (w2 : Vec Ideal S1024x512 .bf16) (c2 : Vec Ideal S1x512 .f32) (w3 : Vec Ideal S512x64 .bf16) (c3 : Vec Ideal S1x64 .f32)
    (r : Fin 2048) (o : Fin 64) : EReal :=
  (∑ k : Fin 512, blk2 x w1 c1 w2 c2 r k * w3 (ix2 k o)) + c3 (ix2 (0 : Fin 1) o)

/-- The maximum with the zero constant, repeated over the block, at an entry. -/
theorem relu_apply {s : Shape} (a : FVec Ideal s .f32) (i : s.Idx) :
    maximumf a (broadcast s (Scalar.ofBits (F := Ideal) .f32 0x00000000#32)) i = max (a i) 0 := by
  show max (a i) (Ideal.ofBits .f32 0x00000000#32) = _
  rw [Ideal.ofBits_zero_f32]

/-- What the body leaves in the output block, at entry (r, o). -/
theorem mlpBlock_apply (x : Vec Ideal S2048x128 .f32) (w1 : Vec Ideal S128x1024 .bf16) (c1 : Vec Ideal S1x1024 .f32)
    (w2 : Vec Ideal S1024x512 .bf16) (c2 : Vec Ideal S1x512 .f32) (w3 : Vec Ideal S512x64 .bf16) (c3 : Vec Ideal S1x64 .f32)
    (r : Fin 2048) (o : Fin 64) :
    mlpBlock x w1 c1 w2 c2 w3 c3 (ix2 r o) = blk3 x w1 c1 w2 c2 w3 c3 r o := by
  unfold mlpBlock k1_pay1 blk3
  simp only [shapeCast_self]
  rw [affine_apply _ dot3_eq]
  refine congrArg (· + c3 (ix2 (0 : Fin 1) o)) (Finset.sum_congr rfl fun kk _ => congrArg (· * w3 (ix2 kk o)) ?_)
  unfold blk2
  rw [truncf_apply, relu_apply, affine_apply _ dot2_eq]
  refine congrArg (max · 0) (congrArg (· + c2 (ix2 (0 : Fin 1) kk)) (Finset.sum_congr rfl fun jj _ => congrArg (· * w2 (ix2 jj kk)) ?_))
  unfold blk1
  rw [truncf_apply, relu_apply, affine_apply _ dot1_eq]
  rfl

end Cert.KernelIdeal.Mlp

end
-- ==== Proof.MlpSpec.lean ====
/-
  The result array of the perceptron's pipeline is the specification. With the input rows any array x, the weight
  windows the host's transposes of W1, W2, W3 (their change of float format the identity at the extended reals) and
  the bias windows b1, b2, b3 laid out as one row each, entry (b, o) of the result is the perceptron of the block of
  rows holding b read at b's place: row b mod 2048 of rows [2048 (b / 2048), …) is row b of x, a transposed
  weight at (e, j) is the weight at (j, e), and a bias row at (0, j) is the bias at j — the three layers of the
  specification at (b, o).
-/
import proofs.«207436_g25675314495810_cont_9to1_828_42_alg».proof.Proof.MlpOut
import proofs.«207436_g25675314495810_cont_9to1_828_42_alg».proof.Proof.MlpValue

noncomputable section

open scoped BigOperators

namespace Cert.KernelIdeal.Mlp

open Cert.KernelIdeal Cert.KernelIdeal.Gen
open Idealize.ShloMosaic Idealize.ShloMosaic.ValueIdx

/-! ## The windows' arrays as the host prepares them -/

/-- A weight matrix transposed, its float format changed (the identity here). -/
abbrev hostW1 (W1 : S1024x128.Idx → EReal) : Vec Ideal S128x1024 .bf16 :=
  truncf (F := Ideal) .bf16 (transpose S128x1024 [1, 0] (W1 : FVec Ideal S1024x128 .f32) transposes_S1024x128_S128x1024_1_0) bitsLt_bf16_f32
abbrev hostW2 (W2 : S512x1024.Idx → EReal) : Vec Ideal S1024x512 .bf16 :=
  truncf (F := Ideal) .bf16 (transpose S1024x512 [1, 0] (W2 : FVec Ideal S512x1024 .f32) transposes_S512x1024_S1024x512_1_0) bitsLt_bf16_f32
abbrev hostW3 (W3 : S64x512.Idx → EReal) : Vec Ideal S512x64 .bf16 :=
  truncf (F := Ideal) .bf16 (transpose S512x64 [1, 0] (W3 : FVec Ideal S64x512 .f32) transposes_S64x512_S512x64_1_0) bitsLt_bf16_f32
/-- A bias vector laid out as one row. -/
abbrev hostB1 (b1 : S1024.Idx → EReal) : Vec Ideal S1x1024 .f32 := shapeCast S1x1024 (b1 : FVec Ideal S1024 .f32) shapeCasts_S1024_S1x1024
abbrev hostB2 (b2 : S512.Idx → EReal) : Vec Ideal S1x512 .f32 := shapeCast S1x512 (b2 : FVec Ideal S512 .f32) shapeCasts_S512_S1x512
abbrev hostB3 (b3 : S64.Idx → EReal) : Vec Ideal S1x64 .f32 := shapeCast S1x64 (b3 : FVec Ideal S64 .f32) shapeCasts_S64_S1x64

theorem hostW1_apply (W1 : S1024x128.Idx → EReal) (e : Fin 128) (j : Fin 1024) : hostW1 W1 (ix2 e j) = W1 (ix2 j e) :=
  transpose_ix2_apply (W1 : FVec Ideal S1024x128 .f32) transposes_S1024x128_S128x1024_1_0 e j
theorem hostW2_apply (W2 : S512x1024.Idx → EReal) (j : Fin 1024) (k : Fin 512) : hostW2 W2 (ix2 j k) = W2 (ix2 k j) :=
  transpose_ix2_apply (W2 : FVec Ideal S512x1024 .f32) transposes_S512x1024_S1024x512_1_0 j k
theorem hostW3_apply (W3 : S64x512.Idx → EReal) (k : Fin 512) (o : Fin 64) : hostW3 W3 (ix2 k o) = W3 (ix2 o k) :=
  transpose_ix2_apply (W3 : FVec Ideal S64x512 .f32) transposes_S64x512_S512x64_1_0 k o
theorem hostB1_apply (b1 : S1024.Idx → EReal) (j : Fin 1024) : hostB1 b1 (ix2 (0 : Fin 1) j) = b1 (ix1 j) :=
  shapeCast_a_1a_apply (b1 : FVec Ideal S1024 .f32) shapeCasts_S1024_S1x1024 0 j
theorem hostB2_apply (b2 : S512.Idx → EReal) (k : Fin 512) : hostB2 b2 (ix2 (0 : Fin 1) k) = b2 (ix1 k) :=
  shapeCast_a_1a_apply (b2 : FVec Ideal S512 .f32) shapeCasts_S512_S1x512 0 k
theorem hostB3_apply (b3 : S64.Idx → EReal) (o : Fin 64) : hostB3 b3 (ix2 (0 : Fin 1) o) = b3 (ix1 o) :=
  shapeCast_a_1a_apply (b3 : FVec Ideal S64 .f32) shapeCasts_S64_S1x64 0 o

/-! ## The layers of a block are the layers of the specification -/

section Block
variable (x : S4096x128.Idx → EReal) (W1 : S1024x128.Idx → EReal) (b1 : S1024.Idx → EReal)
  (W2 : S512x1024.Idx → EReal) (b2 : S512.Idx → EReal) (W3 : S64x512.Idx → EReal) (b3 : S64.Idx → EReal)
  (p : Fin 2) (r : Fin 2048) (b : Fin 4096) (h : 2048 * p.val + r.val = b.val)
include h

/-- Row r of block p is row b of the array. -/
theorem rows_at (e : Fin 128) : rowsOf (F := Ideal) x p (ix2 r e) = x (ix2 b e) := by
  unfold rowsOf
  refine congrArg x (funext fun a => ?_)
  match a with
  | ⟨0, _⟩ => exact Fin.ext h
  | ⟨1, _⟩ => rfl

theorem blk1_host (j : Fin 1024) :
    blk1 (rowsOf (F := Ideal) x p) (hostW1 W1) (hostB1 b1) r j = Cert.Spec.mlp1 x W1 b1 b j := by
  unfold blk1 Cert.Spec.mlp1
  rw [hostB1_apply]
  refine congrArg (max · 0) (congrArg (· + b1 (ix1 j)) (Finset.sum_congr rfl fun e _ => ?_))
  rw [rows_at x p r b h, hostW1_apply]

theorem blk2_host (k : Fin 512) :
    blk2 (rowsOf (F := Ideal) x p) (hostW1 W1) (hostB1 b1) (hostW2 W2) (hostB2 b2) r k = Cert.Spec.mlp2 x W1 b1 W2 b2 b k := by
  unfold blk2 Cert.Spec.mlp2
  rw [hostB2_apply]
  refine congrArg (max · 0) (congrArg (· + b2 (ix1 k)) (Finset.sum_congr rfl fun j _ => ?_))
  rw [blk1_host x W1 b1 p r b h, hostW2_apply]

theorem blk3_host (o : Fin 64) :
    blk3 (rowsOf (F := Ideal) x p) (hostW1 W1) (hostB1 b1) (hostW2 W2) (hostB2 b2) (hostW3 W3) (hostB3 b3) r o
      = Cert.Spec.mlp x W1 b1 W2 b2 W3 b3 (ix2 b o) := by
  unfold blk3 Cert.Spec.mlp
  rw [hostB3_apply]
  refine congrArg (· + b3 (ix1 o)) (Finset.sum_congr rfl fun k _ => ?_)
  rw [blk2_host x W1 b1 W2 b2 p r b h, hostW3_apply]

end Block

/-- The result array of the pipeline, from the rows x and the host's weight and bias windows, is the specification's
    perceptron of x. -/
theorem outArr_eq (x : S4096x128.Idx → EReal) (W1 : S1024x128.Idx → EReal) (b1 : S1024.Idx → EReal)
    (W2 : S512x1024.Idx → EReal) (b2 : S512.Idx → EReal) (W3 : S64x512.Idx → EReal) (b3 : S64.Idx → EReal) :
    outArr (F := Ideal) x (hostW1 W1) (hostB1 b1) (hostW2 W2) (hostB2 b2) (hostW3 W3) (hostB3 b3)
      = Cert.Spec.mlp x W1 b1 W2 b2 W3 b3 := by
  funext i
  obtain ⟨b, o, rfl⟩ : ∃ (b : Fin 4096) (o : Fin 64), i = ix2 b o := ⟨i 0, i 1, eq_ix2 i⟩
  unfold outArr
  rw [mlpBlock_apply]
  exact blk3_host x W1 b1 W2 b2 W3 b3 _ _ b (by show 2048 * (b.val / 2048) + b.val % 2048 = b.val; omega) o

/-! ## The pipeline's result -/

section Result
open Idealize.ShloMosaic.TcCoe
open Idealize.SL Idealize.SL.RA Idealize.SL.BI

variable {Ix : Type} [DecidableEq Ix] {Name : Type} [DecidableEq Name] {U : Type} [URA U] {Lvl : Type} [Preorder Lvl]

/-- The result array after the pipeline, when the windows' arrays are the rows x and the host's weight and bias
    arrays, is the specification's perceptron of x. -/
theorem arrAt_out_spec (c : Dev nD) (A : (w : Fin cfg1.W) → Buf (Elt Ideal) ((cfg1.win w).arr.view.loc (c.tc : Thread nD τ)))
    (O : CellTallies nD τ sig Ix) (B : Set (SemLoc sig × Ix))
    (x : S4096x128.Idx → EReal) (W1 : S1024x128.Idx → EReal) (b1 : S1024.Idx → EReal)
    (W2 : S512x1024.Idx → EReal) (b2 : S512.Idx → EReal) (W3 : S64x512.Idx → EReal) (b3 : S64.Idx → EReal)
    (h0 : (A 0 : S4096x128.Idx → EReal) = x) (h1 : (A 1 : Vec Ideal S128x1024 .bf16) = hostW1 W1)
    (h2 : (A 2 : Vec Ideal S1x1024 .f32) = hostB1 b1) (h3 : (A 3 : Vec Ideal S1024x512 .bf16) = hostW2 W2)
    (h4 : (A 4 : Vec Ideal S1x512 .f32) = hostB2 b2) (h5 : (A 5 : Vec Ideal S512x64 .bf16) = hostW3 W3)
    (h6 : (A 6 : Vec Ideal S1x64 .f32) = hostB3 b3) :
    (dats (F := Ideal) (Name := Name) (U := U) (Lvl := Lvl) c A O B).arrAt 7 cfg1.N = Cert.Spec.mlp x W1 b1 W2 b2 W3 b3 := by
  have e : outArr (F := Ideal) (A 0) (A 1) (A 2) (A 3) (A 4) (A 5) (A 6)
      = outArr (F := Ideal) x (hostW1 W1) (hostB1 b1) (hostW2 W2) (hostB2 b2) (hostW3 W3) (hostB3 b3) := by
    rw [h0, h1, h2, h3, h4, h5, h6]
  exact (arrAt_out c A O B).trans (e.trans (outArr_eq x W1 b1 W2 b2 W3 b3))

end Result

end Cert.KernelIdeal.Mlp

end
-- ==== Proof.PoolValue.lean ====
/-
  The pooled array the vector subcores leave, at the ideal values, is the specification's.

  A batch row's 200 tokens are read off the token array reshaped to 32 blocks of 256 lists of 100: token l of row r
  sits at block r / 128, list 2 (r mod 128) + l / 100, place l mod 100, which is row-major position 200 r + l, the
  position of (r, l) in the [4096, 200] array.  The running sum from zero over l = 0 … 199 is the finite sum; the
  product with the named scale is the product with 1/200.
-/
import proofs.«207436_g25675314495810_cont_9to1_828_42_alg».proof.Proof.TileDefs
import proofs.«207436_g25675314495810_cont_9to1_828_42_alg».proof.Proof.Spec
import Idealize.ShloMosaic.Lib.Pipeline.Value
import Idealize.ShloMosaic.PureOps.IdealRules
import Idealize.ShloMosaic.PureOps.Ideal.Laws

noncomputable section

open scoped BigOperators

namespace Cert.KernelIdeal.PoolValue

open Cert.KernelIdeal Cert.KernelIdeal.Tile Idealize.ShloMosaic Idealize.ShloMosaic.ValueIdx

/-- The reshaped token array, read where the task reads token l of row r, is the token (r, l). -/
theorem tokF_shapeCast (text : S4096x200.Idx → BitVec 32) (h : S4096x200.ShapeCasts S32x256x100) (r : Fin 4096) (l : Fin 200) :
    tokF (shapeCast S32x256x100 text h) r l = (text (ix2 r l)).toNat := by
  unfold tokF
  rw [shapeCast_apply text h _ (ix2 r l) (by
    rw [Shape.rowMajor_val_two, Shape.rowMajor_val_three]
    show r.val * 200 + l.val = ((r.val / 128) * 256 + (2 * (r.val % 128) + l.val / 100)) * 100 + l.val % 100
    omega)]

/-- At the ideal values the running sum from zero is the finite sum. -/
theorem accF_ideal (g : ℕ → EReal) : ∀ n : ℕ, accF (F := Ideal) g n = ∑ k : Fin n, g k.val
  | 0 => by
    show Ideal.ofBits .f32 0x00000000#32 = _
    rw [Ideal.ofBits_zero_f32]; simp
  | n + 1 => by
    show accF (F := Ideal) g n + g n = _
    rw [accF_ideal g n, Fin.sum_univ_castSucc]
    rfl

/-- The table entry the task sums is the specification's. -/
theorem embAtF_ideal (fe : S100000x128.Idx → EReal) (n : ℕ) (e : Fin 128) :
    embAtF (F := Ideal) fe n e = Cert.Spec.embAt fe n e := by
  unfold embAtF Cert.Spec.embAt
  split
  · rfl
  · exact Ideal.ofBits_zero_f32

/-- The scale is 1/200. -/
theorem scaleC_ideal : scaleC (F := Ideal) = ((1 / 200 : ℝ) : EReal) :=
  IdealRules.named_const.ideal_named_scalar _ _ _ _ rfl

/-- The pooled array over the reshaped tokens is the specification's pooled array. -/
theorem pooledBuf_eq_spec (text : (⟨2, ![4096, 200]⟩ : Shape).Idx → BitVec 32) (fe : S100000x128.Idx → EReal)
    (h : S4096x200.ShapeCasts S32x256x100) :
    pooledBuf (F := Ideal) (scaleC (F := Ideal)) fe (shapeCast S32x256x100 text h) = Cert.Spec.pooledArr text fe := by
  funext i
  obtain ⟨b, e, rfl⟩ : ∃ (b : Fin 4096) (e : Fin 128), i = ix2 b e := ⟨_, _, eq_ix2 i⟩
  show accF (F := Ideal) _ 200 * scaleC (F := Ideal) = Cert.Spec.pooled text fe b e
  rw [accF_ideal, scaleC_ideal]
  unfold Cert.Spec.pooled
  refine congrArg (fun s : EReal => s * ((1 / 200 : ℝ) : EReal)) ?_
  refine Finset.sum_congr rfl fun l _ => ?_
  show (if hl : l.val < 200 then embAtF (F := Ideal) fe (tokF (shapeCast S32x256x100 text h) b ⟨l.val, hl⟩) e
      else Ideal.ofBits .f32 0x00000000#32) = _
  rw [dif_pos l.isLt, embAtF_ideal, tokF_shapeCast]

end Cert.KernelIdeal.PoolValue

end
-- ==== Proof.RefRun.lean ====
/-
  The reference program's run, as a straight line of host operations.

  The reference computes, from the token array and the table: the tokens with negative ones wrapped by the table's
  height, the mask "token in range", the gathered rows selected against a fill value by that mask, their sum over
  the sequence axis divided by 200; then three affine layers (a contraction with the transposed weights plus the
  broadcast bias), the first two followed by a maximum with zero.  Its outlined functions (the lookup, the select, the
  two maxima) are listed inline at their calls.  Every weakly fair execution terminates with the result buffer at that
  composed term of the launch contents of the arguments, and the arguments unchanged.
-/
import proofs.«207436_g25675314495810_cont_9to1_828_42_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, in stages -/

/-- The tokens, a negative one wrapped by the table's height. -/
def idx (text : IVec S4096x200 32) : IVec S4096x200 32 :=
  select (cmpi .slt text (broadcastInDim S4096x200 ![] bcast_S_S4096x200 (constantI S_ 32 0#32)))
    (addi text (broadcastInDim S4096x200 ![] bcast_S_S4096x200 (constantI S_ 32 100000#32))) text

/-- The same with a trailing unit axis: the gather's start indices. -/
def idx3 (text : IVec S4096x200 32) : IVec S4096x200x1 32 :=
  broadcastInDim S4096x200x1 ![0, 1] bcast_S4096x200_S4096x200x1_0_1 (idx text)

/-- The mask: the wrapped token is at least 0 and at most 99999. -/
def inb (text : IVec S4096x200 32) : IVec S4096x200 1 :=
  Host.reduce IntOp.andi
    (andi (cmpi .sge (idx3 text) (broadcastInDim S4096x200x1 ![] bcast_S_S4096x200x1 (constantI S_ 32 0#32)))
      (cmpi .sle (idx3 text) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The gathered rows, the fill value where the mask is off. -/
def taken (text : IVec S4096x200 32) (emb : FVec F S100000x128 .f32) : FVec F S4096x200x128 .f32 :=
  select (broadcastInDim S4096x200x128 ![0, 1] bcast_S4096x200_S4096x200x128_0_1 (inb text))
    (Host.gather gather_S100000x128_S4096x200x1_S4096x200x128_2_0_n_n_0_2_1128 emb (idx3 text))
    (broadcastInDim S4096x200x128 ![] bcast_S_S4096x200x128 (constant S_ .f32 0x7FC00000#32))

/-- The mean over the sequence axis: the sum divided by 200. -/
def meanT (text : IVec S4096x200 32) (emb : FVec F S100000x128 .f32) : FVec F S4096x128 .f32 :=
  Host.divf (Host.reduceAdd (taken text emb) (constant S_ .f32 0x00000000#32) reducesTo_S4096x200x128_S4096x128_d1 h_S_)
    (broadcastInDim S4096x128 ![] bcast_S_S4096x128 (constant S_ .f32 0x43480000#32))

/-- The first layer. -/
def layer1 (x : FVec F S4096x128 .f32) (W1 : FVec F S1024x128 .f32) (b1 : FVec F S1024 .f32) : FVec F S4096x1024 .f32 :=
  maximumf
    (addf (Host.dotGeneral dot_S4096x128_S128x1024_S4096x1024_1_0_0_1_n_n none x
        (transpose S128x1024 [1, 0] W1 transposes_S1024x128_S128x1024_1_0))
      (broadcastInDim S4096x1024 ![0, 1] bcast_S1x1024_S4096x1024_0_1 (broadcastInDim S1x1024 ![1] bcast_S1024_S1x1024_1 b1)))
    (broadcastInDim S4096x1024 ![] bcast_S_S4096x1024 (constant S_ .f32 0x00000000#32))

/-- The second layer. -/
def layer2 (x : FVec F S4096x1024 .f32) (W2 : FVec F S512x1024 .f32) (b2 : FVec F S512 .f32) : FVec F S4096x512 .f32 :=
  maximumf
    (addf (Host.dotGeneral dot_S4096x1024_S1024x512_S4096x512_1_0_0_1_n_n none x
        (transpose S1024x512 [1, 0] W2 transposes_S512x1024_S1024x512_1_0))
      (broadcastInDim S4096x512 ![0, 1] bcast_S1x512_S4096x512_0_1 (broadcastInDim S1x512 ![1] bcast_S512_S1x512_1 b2)))
    (broadcastInDim S4096x512 ![] bcast_S_S4096x512 (constant S_ .f32 0x00000000#32))

/-- The third layer. -/
def layer3 (x : FVec F S4096x512 .f32) (W3 : FVec F S64x512 .f32) (b3 : FVec F S64 .f32) : FVec F S4096x64 .f32 :=
  addf (Host.dotGeneral dot_S4096x512_S512x64_S4096x64_1_0_0_1_n_n none x
      (transpose S512x64 [1, 0] W3 transposes_S64x512_S512x64_1_0))
    (broadcastInDim S4096x64 ![0, 1] bcast_S1x64_S4096x64_0_1 (broadcastInDim S1x64 ![1] bcast_S64_S1x64_1 b3))

/-- The reference's result as a term of its arguments. -/
def refTerm (text : IVec S4096x200 32) (emb : FVec F S100000x128 .f32) (W1 : FVec F S1024x128 .f32) (b1 : FVec F S1024 .f32)
    (W2 : FVec F S512x1024 .f32) (b2 : FVec F S512 .f32) (W3 : FVec F S64x512 .f32) (b3 : FVec F S64 .f32) :
    FVec F S4096x64 .f32 :=
  layer3 (layer2 (layer1 (meanT text emb) W1 b1) W2 b2) W3 b3

/-! ## The operations and the run -/

/-- @main's 49 operations, in order, the outlined functions' listed at their calls over the calls' buffer records. -/
abbrev ops : List (HloOp τ sig (Elt F)) :=
  [
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    nullary main_cst (constant S_ .f32 0x00000000#32),
    binary main_v0 main_cst main_v1 ((fun x v => Host.reduceAdd x v reducesTo_S4096x200x128_S4096x128_d1 h_S_) : (⟨S4096x200x128, .f32⟩ : BufTy).Contents (Elt F) → (⟨S_, .f32⟩ : BufTy).Contents (Elt F) → (⟨S4096x128, .f32⟩ : BufTy).Contents (Elt F)),
    nullary main_cst_0 (constant S_ .f32 0x43480000#32),
    unary main_cst_0 main_v2 (broadcastInDim S4096x128 ![] bcast_S_S4096x128 : (⟨S_, .f32⟩ : BufTy).Contents (Elt F) → (⟨S4096x128, .f32⟩ : BufTy).Contents (Elt F)),
    binary main_v1 main_v2 main_v3 (Host.divf : (⟨S4096x128, .f32⟩ : BufTy).Contents (Elt F) → (⟨S4096x128, .f32⟩ : BufTy).Contents (Elt F) → (⟨S4096x128, .f32⟩ : BufTy).Contents (Elt F)),
    unary main_arg2 main_v4 ((transpose S128x1024 [1, 0] · transposes_S1024x128_S128x1024_1_0) : (⟨S1024x128, .f32⟩ : BufTy).Contents (Elt F) → (⟨S128x1024, .f32⟩ : BufTy).Contents (Elt F)),
    binary main_v3 main_v4 main_v5 ((fun l r => Host.dotGeneral dot_S4096x128_S128x1024_S4096x1024_1_0_0_1_n_n none l r) : (⟨S4096x128, .f32⟩ : BufTy).Contents (Elt F) → (⟨S128x1024, .f32⟩ : BufTy).Contents (Elt F) → (⟨S4096x1024, .f32⟩ : BufTy).Contents (Elt F)),
    unary main_arg3 main_v6 (broadcastInDim S1x1024 ![1] bcast_S1024_S1x1024_1 : (⟨S1024, .f32⟩ : BufTy).Contents (Elt F) → (⟨S1x1024, .f32⟩ : BufTy).Contents (Elt F)),
    unary main_v6 main_v7 (broadcastInDim S4096x1024 ![0, 1] bcast_S1x1024_S4096x1024_0_1 : (⟨S1x1024, .f32⟩ : BufTy).Contents (Elt F) → (⟨S4096x1024, .f32⟩ : BufTy).Contents (Elt F)),
    binary main_v5 main_v7 main_v8 (addf : (⟨S4096x1024, .f32⟩ : BufTy).Contents (Elt F) → (⟨S4096x1024, .f32⟩ : BufTy).Contents (Elt F) → (⟨S4096x1024, .f32⟩ : BufTy).Contents (Elt F)),
    TRef.nullary main_call1.cst (constant S_ .f32 0x00000000#32),
    TRef.unary main_call1.cst main_call1.v0 (broadcastInDim S4096x1024 ![] bcast_S_S4096x1024),
    TRef.binary (.of main_v8) main_call1.v0 main_call1.v1 maximumf,
    unary main_arg4 main_v10 ((transpose S1024x512 [1, 0] · transposes_S512x1024_S1024x512_1_0) : (⟨S512x1024, .f32⟩ : BufTy).Contents (Elt F) → (⟨S1024x512, .f32⟩ : BufTy).Contents (Elt F)),
    binary main_v9 main_v10 main_v11 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    unary main_arg5 main_v12 (broadcastInDim S1x512 ![1] bcast_S512_S1x512_1 : (⟨S512, .f32⟩ : BufTy).Contents (Elt F) → (⟨S1x512, .f32⟩ : BufTy).Contents (Elt F)),
    unary main_v12 main_v13 (broadcastInDim S4096x512 ![0, 1] bcast_S1x512_S4096x512_0_1 : (⟨S1x512, .f32⟩ : BufTy).Contents (Elt F) → (⟨S4096x512, .f32⟩ : BufTy).Contents (Elt F)),
    binary main_v11 main_v13 main_v14 (addf : (⟨S4096x512, .f32⟩ : BufTy).Contents (Elt F) → (⟨S4096x512, .f32⟩ : BufTy).Contents (Elt F) → (⟨S4096x512, .f32⟩ : BufTy).Contents (Elt F)),
    TRef.nullary main_call2.cst (constant S_ .f32 0x00000000#32),
    TRef.unary main_call2.cst main_call2.v0 (broadcastInDim S4096x512 ![] bcast_S_S4096x512),
    TRef.binary (.of main_v14) main_call2.v0 main_call2.v1 maximumf,
    unary main_arg6 main_v16 ((transpose S512x64 [1, 0] · transposes_S64x512_S512x64_1_0) : (⟨S64x512, .f32⟩ : BufTy).Contents (Elt F) → (⟨S512x64, .f32⟩ : BufTy).Contents (Elt F)),
    binary main_v15 main_v16 main_v17 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    unary main_arg7 main_v18 (broadcastInDim S1x64 ![1] bcast_S64_S1x64_1 : (⟨S64, .f32⟩ : BufTy).Contents (Elt F) → (⟨S1x64, .f32⟩ : BufTy).Contents (Elt F)),
    unary main_v18 main_v19 (broadcastInDim S4096x64 ![0, 1] bcast_S1x64_S4096x64_0_1 : (⟨S1x64, .f32⟩ : BufTy).Contents (Elt F) → (⟨S4096x64, .f32⟩ : BufTy).Contents (Elt F)),
    binary main_v17 main_v19 main_v20 (addf : (⟨S4096x64, .f32⟩ : BufTy).Contents (Elt F) → (⟨S4096x64, .f32⟩ : BufTy).Contents (Elt F) → (⟨S4096x64, .f32⟩ : BufTy).Contents (Elt F)) ]

set_option maxRecDepth 2048 in
theorem main_eq (c : Dev nD) : main (F := F) c = seq ops := by
  simp only [main, fn_take.body, fn_where.body, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub ..⟩

attribute [local irreducible] Host.reduce Host.gather Host.reduceAdd in
set_option maxRecDepth 8192 in
set_option maxHeartbeats 1000000 in
/-- The fold of the operations at the result buffer is the composed term. -/
theorem out_eq (V : Valuation τ sig (Elt F)) :
    after ops V (main_v20 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

set_option maxRecDepth 8192 in
theorem arg0_eq (V : Valuation τ sig (Elt F)) : after ops V (main_arg0 : DevRef τ sig) = V (main_arg0 : DevRef τ sig) := by
  after_results_simp
set_option maxRecDepth 8192 in
theorem arg1_eq (V : Valuation τ sig (Elt F)) : after ops V (main_arg1 : DevRef τ sig) = V (main_arg1 : DevRef τ sig) := by
  after_results_simp
set_option maxRecDepth 8192 in
theorem arg2_eq (V : Valuation τ sig (Elt F)) : after ops V (main_arg2 : DevRef τ sig) = V (main_arg2 : DevRef τ sig) := by
  after_results_simp
set_option maxRecDepth 8192 in
theorem arg3_eq (V : Valuation τ sig (Elt F)) : after ops V (main_arg3 : DevRef τ sig) = V (main_arg3 : DevRef τ sig) := by
  after_results_simp
set_option maxRecDepth 8192 in
theorem arg4_eq (V : Valuation τ sig (Elt F)) : after ops V (main_arg4 : DevRef τ sig) = V (main_arg4 : DevRef τ sig) := by
  after_results_simp
set_option maxRecDepth 8192 in
theorem arg5_eq (V : Valuation τ sig (Elt F)) : after ops V (main_arg5 : DevRef τ sig) = V (main_arg5 : DevRef τ sig) := by
  after_results_simp
set_option maxRecDepth 8192 in
theorem arg6_eq (V : Valuation τ sig (Elt F)) : after ops V (main_arg6 : DevRef τ sig) = V (main_arg6 : DevRef τ sig) := by
  after_results_simp
set_option maxRecDepth 8192 in
theorem arg7_eq (V : Valuation τ sig (Elt F)) : after ops V (main_arg7 : DevRef τ sig) = V (main_arg7 : DevRef τ sig) := by
  after_results_simp

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v20).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.PreText.lean ====
/-
  The precondition, decoded for the token array.

  The precondition's last conjunct says, of every token word t (read as a signed 32-bit integer), 0 ≤ t and t ≤ 99999,
  all conjuncts folded by "and" into one bit that is 1.  Hence every token, read as a natural number, is below 100000:
  a row of the embedding table.  Stated once for any float instance, then for each of the three programs' memories.
-/
import proofs.«207436_g25675314495810_cont_9to1_828_42_alg».proof.Defs
import proofs.«207436_g25675314495810_cont_9to1_828_42_alg».proof.Proof.Gen.Pre_input_domain
import Idealize.ShloMosaic.Lib.ReduceAll
import Idealize.ShloMosaic.Lib.ValueIdx

noncomputable section

namespace Cert.PreText

open Idealize.ShloMosaic

/-- The scalar shape has one index. -/
instance : Subsingleton Cert.Pre_input_domain.S_.Idx := ⟨fun a b => funext fun d => d.elim0⟩

/-- A word that is ≥ 0 and ≤ 99999 as a signed integer is, as a natural number, below 100000. -/
theorem word_inb (v : BitVec 32)
    (e : IntOp.andi (IntOp.cmpi .sge v 0#32) (IntOp.cmpi .sle v 99999#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Under the precondition every token is a row of the table, at any float instance. -/
theorem text_inb {F : FTy → Type} [FloatOps F] [Cert.Pre_input_domain.Facts]
    (text : IVec Cert.Pre_input_domain.S4096x200 32) (emb : FVec F Cert.Pre_input_domain.S100000x128 .f32)
    (W1 : FVec F Cert.Pre_input_domain.S1024x128 .f32) (b1 : FVec F Cert.Pre_input_domain.S1024 .f32)
    (W2 : FVec F Cert.Pre_input_domain.S512x1024 .f32) (b2 : FVec F Cert.Pre_input_domain.S512 .f32)
    (W3 : FVec F Cert.Pre_input_domain.S64x512 .f32) (b3 : FVec F Cert.Pre_input_domain.S64 .f32)
    (h : Cert.Pre_input_domain.fn (F := F) text emb W1 b1 W2 b2 W3 b3 = fun _ => 1#1) :
    ∀ j, (text j).toNat < 100000 := by
  intro j
  have e := congrFun h ValueIdx.ix0
  dsimp only [Cert.Pre_input_domain.fn, Cert.Pre_input_domain.fn_part1, Cert.Pre_input_domain.fn_part2] at e
  have e2 := (IntOp.andi_eq_one.1 e).2
  have e3 := Host.reduce_andi_all _ _ _ _ _ e2 j
  exact word_inb _ e3

/-- `Kernel`'s memory: under its precondition every token on every device is a row of the table. -/
theorem text_inb_Kernel [Cert.Pre_input_domain.Facts]
    (m : (ℓ : Loc Cert.Kernel.nD Cert.Kernel.τ Cert.Kernel.sig) → Buf (Elt Bits) ℓ) (h : Cert.Pre_Kernel m) :
    ∀ (c : Dev Cert.Kernel.nD) (j : (⟨2, ![4096, 200]⟩ : Shape).Idx),
      (m ((c.tc : Thread Cert.Kernel.nD Cert.Kernel.τ).loc Cert.Kernel.main_arg0) j).toNat < 100000 :=
  fun c => text_inb (F := Bits) _ _ _ _ _ _ _ _ (h c)

/-- `KernelIdeal`'s memory: under its precondition every token on every device is a row of the table. -/
theorem text_inb_KernelIdeal [Cert.Pre_input_domain.Facts]
    (m : (ℓ : Loc Cert.KernelIdeal.nD Cert.KernelIdeal.τ Cert.KernelIdeal.sig) → Buf (Elt Ideal) ℓ) (h : Cert.Pre_KernelIdeal m) :
    ∀ (c : Dev Cert.KernelIdeal.nD) (j : (⟨2, ![4096, 200]⟩ : Shape).Idx),
      (m ((c.tc : Thread Cert.KernelIdeal.nD Cert.KernelIdeal.τ).loc Cert.KernelIdeal.main_arg0) j).toNat < 100000 :=
  fun c => text_inb (F := Ideal) _ _ _ _ _ _ _ _ (h c)

/-- `ReferenceIdeal`'s memory: under its precondition every token on every device is a row of the table. -/
theorem text_inb_ReferenceIdeal [Cert.Pre_input_domain.Facts]
    (m : (ℓ : Loc Cert.ReferenceIdeal.nD Cert.ReferenceIdeal.τ Cert.ReferenceIdeal.sig) → Buf (Elt Ideal) ℓ) (h : Cert.Pre_ReferenceIdeal m) :
    ∀ (c : Dev Cert.ReferenceIdeal.nD) (j : (⟨2, ![4096, 200]⟩ : Shape).Idx),
      (m ((c.tc : Thread Cert.ReferenceIdeal.nD Cert.ReferenceIdeal.τ).loc Cert.ReferenceIdeal.main_arg0) j).toNat < 100000 :=
  fun c => text_inb (F := Ideal) _ _ _ _ _ _ _ _ (h c)

end Cert.PreText
-- ==== Proof.RefValue.lean ====
/-
  The reference's composed term, read index by index, is the common specification.

  With every token a row of the table: the wrapped token is the token; the range mask is on; the gather reads the
  table's row of the token, so the selected value is that row's entry; the sum over the sequence axis divided by 200
  is the sum times 1/200.  A layer is, at (b, j), the sum over the contracted coordinate of the products of the input's
  row b and the weight's row j, plus the bias at j (then the maximum with 0 for the first two layers).
-/
import proofs.«207436_g25675314495810_cont_9to1_828_42_alg».proof.Proof.RefRun
import proofs.«207436_g25675314495810_cont_9to1_828_42_alg».proof.Proof.Spec
import proofs.«207436_g25675314495810_cont_9to1_828_42_alg».proof.Proof.PreText
import Idealize.ShloMosaic.Lib.StackMember
import Idealize.ShloMosaic.Lib.ValueLayout
import Idealize.ShloMosaic.Lib.IdealHost

noncomputable section

open scoped BigOperators

namespace Cert.ReferenceIdeal.RefValue

open Cert.ReferenceIdeal Cert.ReferenceIdeal.Gen Cert.ReferenceIdeal.RefRun Idealize.ShloMosaic Idealize.ShloMosaic.ValueIdx
  Idealize.SL.Sem

/-! ## Words -/

/-- A token below 100000 is not negative as a signed word: the wrap leaves it alone. -/
theorem wrap_eq (v : BitVec 32) (h : v.toNat < 100000) :
    Scalar.select (IntOp.cmpi .slt v 0#32) (IntOp.addi v 100000#32) v = v := by
  have hn : v.slt 0#32 = false := by
    simp only [BitVec.slt_eq_decide, BitVec.toInt_eq_toNat_cond, BitVec.toNat_ofNat, Nat.reducePow, Nat.reduceMod,
      decide_eq_false_iff_not]
    omega
  have hs : IntOp.cmpi .slt v 0#32 = 0#1 := by
    show BitVec.ofBool (v.slt 0#32) = 0#1
    rw [hn]; rfl
  rw [hs, select_zero]

/-- A token below 100000 passes both range comparisons. -/
theorem range_one (v : BitVec 32) (h : v.toNat < 100000) :
    IntOp.andi (IntOp.cmpi .sge v 0#32) (IntOp.cmpi .sle v 99999#32) = 1#1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod]
  omega

/-- Such a token read as a signed integer and clamped to the table's rows is itself. -/
theorem clamp_eq (v : BitVec 32) (h : v.toNat < 100000) : min v.toInt.toNat (100000 - 1) = v.toNat := by
  have : v.toInt = (v.toNat : ℤ) := by
    rw [BitVec.toInt_eq_toNat_cond, if_pos (by omega)]
  rw [this, Int.toNat_natCast]; omega

/-! ## The lookup -/

/-- A left fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_one f l (fun n hn => h n (List.mem_cons_of_mem _ hn))

section Lookup

variable (text : IVec S4096x200 32) (htext : ∀ j, (text j).toNat < 100000)
include htext

/-- The wrapped token is the token. -/
theorem idx_apply (k : S4096x200.Idx) : idx text k = text k := wrap_eq _ (htext k)

/-- The start indices at (b, l, 0) read the token at (b, l). -/
theorem idx3_apply (b : Fin 4096) (l : Fin 200) (z : Fin 1) : idx3 text (ix3 b l z) = text (ix2 b l) := by
  unfold idx3
  refine (broadcastInDim_apply (s := S4096x200) (t := S4096x200x1) ![0, 1] bcast_S4096x200_S4096x200x1_0_1 (idx text)
    (ix3 b l z) (ix2 b l) (fun a => ?_)).trans (idx_apply text htext _)
  match a with
  | ⟨0, _⟩ => rfl
  | ⟨1, _⟩ => rfl

/-- The range mask is on everywhere. -/
theorem inb_apply (k : S4096x200.Idx) : inb text k = 1#1 := by
  unfold inb Host.reduce
  refine foldl_andi_one _ _ (fun n _ => ?_)
  obtain ⟨b, l, z, hn⟩ : ∃ (b : Fin 4096) (l : Fin 200) (z : Fin 1), S4096x200x1.rowMajor.symm n = ix3 b l z :=
    ⟨_, _, _, eq_ix3 _⟩
  rw [hn]
  show IntOp.andi (IntOp.cmpi .sge (idx3 text (ix3 b l z)) 0#32) (IntOp.cmpi .sle (idx3 text (ix3 b l z)) 99999#32) = 1#1
  rw [idx3_apply text htext]
  exact range_one _ (htext _)

end Lookup

/-- The gather's dimension numbers: rows of a [100000, 128] table at start indices [4096, 200, 1]. -/
abbrev rowsDims (wf : GatherDims.WF (⟨2, ![100000, 128]⟩ : Shape) ⟨3, ![4096, 200, 1]⟩ ⟨3, ![4096, 200, 128]⟩ [2] [0] [] [0] [] 2 ![1, 128]) :
    GatherDims (⟨2, ![100000, 128]⟩ : Shape) ⟨3, ![4096, 200, 1]⟩ ⟨3, ![4096, 200, 128]⟩ where
  offsetDims := [2]
  collapsedSliceDims := [0]
  operandBatchingDims := []
  startIndicesBatchingDims := []
  startIndexMap := [0]
  indexVectorDim := 2
  sliceSizes := ![1, 128]
  wf := wf

theorem kept_rows : Shape.kept (⟨2, ![100000, 128]⟩ : Shape) [0] = [1] := by decide

/-- The gather read at (b, l, e): the table at the row the start index (b, l, 0) names, read signed and clamped to
    the table's rows, and at column e. -/
theorem gather_rows_apply {α : Type} (wf) (x : (⟨2, ![100000, 128]⟩ : Shape).Idx → α) (ids : IVec ⟨3, ![4096, 200, 1]⟩ 32)
    (b : Fin 4096) (l : Fin 200) (e : Fin 128) :
    Host.gather (rowsDims wf) x ids (ix3 b l e)
      = x (ix2 ⟨min (ids (ix3 b l (0 : Fin 1))).toInt.toNat (100000 - 1), by omega⟩ e) := by
  have h0 : ((rowsDims wf).operandIdx (ix3 b l e) ids (0 : Fin 2)).val = min (ids (ix3 b l (0 : Fin 1))).toInt.toNat (100000 - 1) := by
    show (rowsDims wf).start (ix3 b l e) ids 0 + (rowsDims wf).batchCoord (ix3 b l e) 0 + (rowsDims wf).offCoord (ix3 b l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix3 b l e) ⟨List.idxOf (0 : Fin 2) (rowsDims wf).startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  have h1 : ((rowsDims wf).operandIdx (ix3 b l e) ids (1 : Fin 2)).val = e.val := by
    show (rowsDims wf).start (ix3 b l e) ids 1 + (rowsDims wf).batchCoord (ix3 b l e) 1 + (rowsDims wf).offCoord (ix3 b l e) 1 = _
    rw [GatherDims.batchCoord_eq_zero _ _ _ List.not_mem_nil]
    have hs : (rowsDims wf).start (ix3 b l e) ids (1 : Fin 2) = 0 := by
      unfold GatherDims.start
      rw [dif_neg (fun h => absurd (List.mem_singleton.mp h) (by decide))]
    rw [hs]
    have hk : (rowsDims wf).sKept = [(1 : Fin 2)] := kept_rows
    have hm : (1 : Fin 2) ∈ (rowsDims wf).sKept := by rw [hk]; exact List.mem_singleton.mpr rfl
    unfold GatherDims.offCoord
    rw [dif_pos hm]
    simp only [Nat.zero_add]
    have hi : List.idxOf (1 : Fin 2) (rowsDims wf).sKept = 0 := by rw [hk]; rfl
    have key : ∀ (n : ℕ) (hn : n < [(2 : Fin 3)].length), n = 0 → ((ix3 b l e) ([(2 : Fin 3)][n]'hn)).val = e.val := by
      intro n hn h0; subst h0; rfl
    exact key _ _ hi
  unfold Host.gather
  congr 1
  funext a
  refine Fin.ext ?_
  match a with
  | ⟨0, _⟩ => exact h0
  | ⟨1, _⟩ => exact h1

/-! ## The pooled rows -/

/-- The f32 word 0x43480000 is the real 200. -/
theorem ofBits_200 : Ideal.ofBits .f32 0x43480000#32 = ((200 : ℝ) : EReal) := by
  simp [Ideal.ofBits, Ideal.ieee, -EReal.coe_mul]; norm_num

/-- The gather of the program is the gather of rows. -/
theorem gatherDims_eq : gather_S100000x128_S4096x200x1_S4096x200x128_2_0_n_n_0_2_1128
    = rowsDims gather_S100000x128_S4096x200x1_S4096x200x128_2_0_n_n_0_2_1128_wf := rfl

/-- The selected gathered value at (b, l, e) is the table's row of the token (b, l) at column e. -/
theorem taken_apply (text : IVec S4096x200 32) (htext : ∀ j, (text j).toNat < 100000) (emb : FVec Ideal S100000x128 .f32)
    (b : Fin 4096) (l : Fin 200) (e : Fin 128) :
    taken text emb (ix3 b l e) = Cert.Spec.embAt emb (text (ix2 b l)).toNat e := by
  unfold taken
  rw [select_apply]
  have hm : broadcastInDim S4096x200x128 ![0, 1] bcast_S4096x200_S4096x200x128_0_1 (inb text) (ix3 b l e) = 1#1 := by
    unfold broadcastInDim
    exact inb_apply text htext _
  rw [hm, select_one, gatherDims_eq, gather_rows_apply]
  unfold Cert.Spec.embAt
  rw [dif_pos (htext (ix2 b l))]
  refine congrArg emb (funext fun a => Fin.ext ?_)
  match a with
  | ⟨0, _⟩ =>
    show min (idx3 text (ix3 b l (0 : Fin 1))).toInt.toNat (100000 - 1) = (text (ix2 b l)).toNat
    rw [idx3_apply text htext]
    exact clamp_eq _ (htext _)
  | ⟨1, _⟩ => rfl

set_option maxRecDepth 4096 in
theorem reduces_seq : S4096x200x128.Reduces [1] S4096x128 := by decide

/-- The mean at (b, e) is the specification's pooled value. -/
theorem meanT_apply (text : IVec S4096x200 32) (htext : ∀ j, (text j).toNat < 100000) (emb : FVec Ideal S100000x128 .f32)
    (b : Fin 4096) (e : Fin 128) :
    meanT text emb (ix2 b e) = Cert.Spec.pooled text emb b e := by
  unfold meanT
  rw [hostDivf_apply]
  rw [hostReduceAdd_apply]
  rw [Ideal.hostReduceAdd_single _ reduces_seq]
  have hc : broadcastInDim S4096x128 ![] bcast_S_S4096x128 (constant (F := Ideal) S_ .f32 0x43480000#32) (ix2 b e)
      = ((200 : ℝ) : EReal) := ofBits_200
  have hz : constant (F := Ideal) S_ .f32 0x00000000#32 (Shape.Idx.first h_S_) = (0 : EReal) := Ideal.ofBits_zero_f32
  rw [hc, hz, Ideal.div_coe (by norm_num : (200 : ℝ) ≠ 0), zero_add]
  unfold Cert.Spec.pooled
  refine congrArg (fun s : EReal => s * ((1 / 200 : ℝ) : EReal)) ?_
  refine Finset.sum_congr rfl fun l _ => ?_
  have hl : reduces_seq.lift (ix2 b e) l = ix3 b l e := by
    funext c; refine Fin.ext ?_
    match c with
    | ⟨0, _⟩ => rfl
    | ⟨1, _⟩ => rfl
    | ⟨2, _⟩ => rfl
  rw [hl]
  exact taken_apply text htext emb b l e

/-! ## The layers -/

/-- A layer's affine part at (b, j): the contraction of the input's row b with the weight's row j, plus the bias at j. -/
theorem affine_apply {m k n : ℕ} (hn : n ≠ 1)
    (D : DotDims (⟨2, ![m, k]⟩ : Shape) ⟨2, ![k, n]⟩ ⟨2, ![m, n]⟩) (hD : D = DotDims.plain m k n)
    (hT : (⟨2, ![n, k]⟩ : Shape).Transposes [1, 0] ⟨2, ![k, n]⟩)
    (hb1 : (⟨1, ![n]⟩ : Shape).BroadcastsInDim ⟨2, ![1, n]⟩ ![1])
    (hb2 : (⟨2, ![1, n]⟩ : Shape).BroadcastsInDim ⟨2, ![m, n]⟩ ![0, 1])
    (x : FVec Ideal ⟨2, ![m, k]⟩ .f32) (W : FVec Ideal ⟨2, ![n, k]⟩ .f32) (bias : FVec Ideal ⟨1, ![n]⟩ .f32)
    (b : Fin m) (j : Fin n) :
    addf (Host.dotGeneral D none x (transpose ⟨2, ![k, n]⟩ [1, 0] W hT))
        (broadcastInDim ⟨2, ![m, n]⟩ ![0, 1] hb2 (broadcastInDim ⟨2, ![1, n]⟩ ![1] hb1 bias)) (ix2 b j)
      = (∑ c : Fin k, x (ix2 b c) * W (ix2 j c)) + bias (ix1 j) := by
  subst hD
  rw [addf_apply, StackMember.dotGeneral_plain_apply]
  have hsum : (∑ c : Fin k, x (ix2 b c) * transpose ⟨2, ![k, n]⟩ [1, 0] W hT (ix2 c j)) = ∑ c : Fin k, x (ix2 b c) * W (ix2 j c) :=
    Finset.sum_congr rfl fun c _ => by rw [transpose_ix2_apply]
  have hbias : broadcastInDim ⟨2, ![m, n]⟩ ![0, 1] hb2 (broadcastInDim ⟨2, ![1, n]⟩ ![1] hb1 bias) (ix2 b j) = bias (ix1 j) := by
    rw [broadcastInDim_apply ![0, 1] hb2 _ (ix2 b j) (ix2 (0 : Fin 1) j) (fun a => by
        match a with
        | ⟨0, _⟩ => rfl
        | ⟨1, _⟩ => show j.val = if n = 1 then 0 else j.val; rw [if_neg hn]),
      broadcastInDim_apply ![1] hb1 _ (ix2 (0 : Fin 1) j) (ix1 j) (fun a => by
        match a with
        | ⟨0, _⟩ => show j.val = if n = 1 then 0 else j.val; rw [if_neg hn])]
  rw [hsum, hbias]

theorem layer1_apply (x : FVec Ideal S4096x128 .f32) (W1 : FVec Ideal S1024x128 .f32) (b1 : FVec Ideal S1024 .f32)
    (b : Fin 4096) (j : Fin 1024) :
    layer1 x W1 b1 (ix2 b j) = max ((∑ e : Fin 128, x (ix2 b e) * W1 (ix2 j e)) + b1 (ix1 j)) 0 := by
  unfold layer1
  rw [maximumf_apply]
  rw [affine_apply (m := 4096) (k := 128) (n := 1024) (by decide) dot_S4096x128_S128x1024_S4096x1024_1_0_0_1_n_n rfl]
  show max _ (Ideal.ofBits .f32 0x00000000#32) = _
  rw [Ideal.ofBits_zero_f32]

theorem layer2_apply (x : FVec Ideal S4096x1024 .f32) (W2 : FVec Ideal S512x1024 .f32) (b2 : FVec Ideal S512 .f32)
    (b : Fin 4096) (k : Fin 512) :
    layer2 x W2 b2 (ix2 b k) = max ((∑ j : Fin 1024, x (ix2 b j) * W2 (ix2 k j)) + b2 (ix1 k)) 0 := by
  unfold layer2
  rw [maximumf_apply]
  rw [affine_apply (m := 4096) (k := 1024) (n := 512) (by decide) dot_S4096x1024_S1024x512_S4096x512_1_0_0_1_n_n rfl]
  show max _ (Ideal.ofBits .f32 0x00000000#32) = _
  rw [Ideal.ofBits_zero_f32]

theorem layer3_apply (x : FVec Ideal S4096x512 .f32) (W3 : FVec Ideal S64x512 .f32) (b3 : FVec Ideal S64 .f32)
    (b : Fin 4096) (o : Fin 64) :
    layer3 x W3 b3 (ix2 b o) = (∑ k : Fin 512, x (ix2 b k) * W3 (ix2 o k)) + b3 (ix1 o) := by
  unfold layer3
  rw [affine_apply (m := 4096) (k := 512) (n := 64) (by decide) dot_S4096x512_S512x64_S4096x64_1_0_0_1_n_n rfl]

/-! ## The composed term is the specification -/

section Whole

variable (text : IVec S4096x200 32) (htext : ∀ j, (text j).toNat < 100000)
  (emb : FVec Ideal S100000x128 .f32) (W1 : FVec Ideal S1024x128 .f32) (b1 : FVec Ideal S1024 .f32)
  (W2 : FVec Ideal S512x1024 .f32) (b2 : FVec Ideal S512 .f32) (W3 : FVec Ideal S64x512 .f32) (b3 : FVec Ideal S64 .f32)
include htext

theorem stage1 (b : Fin 4096) (j : Fin 1024) :
    layer1 (meanT text emb) W1 b1 (ix2 b j) = Cert.Spec.mlp1 (Cert.Spec.pooledArr text emb) W1 b1 b j := by
  rw [layer1_apply]
  unfold Cert.Spec.mlp1
  simp only [meanT_apply text htext]
  rfl

theorem stage2 (b : Fin 4096) (k : Fin 512) :
    layer2 (layer1 (meanT text emb) W1 b1) W2 b2 (ix2 b k)
      = Cert.Spec.mlp2 (Cert.Spec.pooledArr text emb) W1 b1 W2 b2 b k := by
  rw [layer2_apply]
  unfold Cert.Spec.mlp2
  simp only [stage1 text htext]

/-- Under the range hypothesis the reference's term is the specification. -/
theorem refTerm_eq : refTerm text emb W1 b1 W2 b2 W3 b3 = Cert.Spec.out text emb W1 b1 W2 b2 W3 b3 := by
  funext i
  obtain ⟨b, o, rfl⟩ : ∃ (b : Fin 4096) (o : Fin 64), i = ix2 b o := ⟨_, _, eq_ix2 i⟩
  unfold refTerm
  rw [layer3_apply]
  simp only [stage2 text htext]
  rfl

end Whole

/-! ## The run against the specification, and the frame -/

/-- Under the precondition every weakly fair execution of the reference terminates with its result the specification
    of the arguments and the arguments unchanged. -/
theorem run_spec (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v20)
        = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c).1.trans (refTerm_eq _ (Cert.PreText.text_inb_ReferenceIdeal m hpre c) _ _ _ _ _ _ _), (h c).2⟩)
    (RefRun.run (F := Ideal) m ρ)

/-- The reference runs and leaves its arguments unchanged. -/
theorem frame_ri : Cert.frame_ReferenceIdeal := fun m ρ hpre =>
  (θ_run defs _ _).mono (fun _ h c => (h c).2) (run_spec m ρ hpre)

end Cert.ReferenceIdeal.RefValue

end
-- ==== Proof.Glue.lean ====
/-
  The reference's half of the comparison, and the idealization's ledger.

  From memories that agree on the eight arguments the precondition passes from the kernel's memory to the reference's
  (it is one function of the argument arrays), so the reference ends with its result the common specification of the
  kernel's arguments and its own arguments unchanged.  The idealization replaced one literal, seventeen times, by the
  named constant 1/200: each replacement's statement holds because the table gives the name that value.
-/
import proofs.«207436_g25675314495810_cont_9to1_828_42_alg».proof.Proof.RefValue

noncomputable section

namespace Cert.Glue

open Idealize.ShloMosaic Idealize.SL.Sem

/-- The precondition passes along the agreement of the arguments. -/
theorem pre_transfer
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))) :
    Cert.Pre_ReferenceIdeal m' := by
  intro c
  obtain ⟨h0, h1, h2, h3, h4, h5, h6, h7⟩ := hagree c
  have := hpre c
  rw [h0, h1, h2, h3, h4, h5, h6, h7]
  exact this

/-- The specification of the kernel's arguments on device `c`: the common result. -/
def v0 (m : (ℓ : Loc Cert.KernelIdeal.nD Cert.KernelIdeal.τ Cert.KernelIdeal.sig) → Buf (Elt Ideal) ℓ) (c : Dev Cert.KernelIdeal.nD) :
    (⟨2, ![4096, 64]⟩ : Shape).Idx → EReal :=
  Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

/-- The reference, from a memory agreeing with the kernel's on the arguments, ends with the specification of the
    kernel's arguments and its own arguments unchanged. -/
theorem ref_half
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v20) = v0 m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono (fun _ h c => by
      obtain ⟨h0, h1, h2, h3, h4, h5, h6, h7⟩ := hagree c
      refine ⟨?_, (h c).2⟩
      rw [(h c).1, h0, h1, h2, h3, h4, h5, h6, h7]
      rfl)
    (Cert.ReferenceIdeal.RefValue.run_spec m' g' (pre_transfer m m' hpre hagree))

/-- The idealization's ledger: the table gives "inv_200" the value 1/200. -/
theorem inv_200 : IdealRules.named_const.Statement Cert.KernelIdeal.κ "inv_200" .f32 0x3BA3D70A#32 ((1 / 200 : ℝ) : EReal) :=
  IdealRules.named_const.statement _ _ _ _ _ rfl

theorem preserves : Cert.preserves_Kernel_KernelIdeal :=
  ⟨inv_200, inv_200, inv_200, inv_200, inv_200, inv_200, inv_200, inv_200, inv_200, inv_200, inv_200, inv_200, inv_200, inv_200, inv_200, inv_200, inv_200⟩

end Cert.Glue

end
-- ==== Proof.Assemble.lean ====
/-
  The kernel's side of the comparison and its frame, at the ideal values.

  The run of all the threads ends with the result array the perceptron's pipeline leaves of the windows' arrays at
  its entry; those are the pooled array (the specification's, by the pooled values read at an index), the weights
  transposed and the biases as rows; so the result is the specification of the arguments.
-/
import proofs.«207436_g25675314495810_cont_9to1_828_42_alg».proof.Proof.LaunchValue
import proofs.«207436_g25675314495810_cont_9to1_828_42_alg».proof.Proof.MlpSpec
import proofs.«207436_g25675314495810_cont_9to1_828_42_alg».proof.Proof.PoolValue
import proofs.«207436_g25675314495810_cont_9to1_828_42_alg».proof.Proof.Glue

noncomputable section

namespace Cert.Assemble

open Idealize.ShloMosaic Idealize.SL.Sem
open Cert.KernelIdeal Cert.KernelIdeal.Gen

/-- The result array after the run is the specification of the arguments. -/
theorem resultOf_eq_spec (m : (ℓ : Loc nD τ sig) → Buf (Elt Ideal) ℓ) (c : Dev nD) :
    Cert.KernelIdeal.Run.resultOf (F := Ideal) m c = Cert.Glue.v0 m c := by
  show (Cert.KernelIdeal.Mlp.dats c (Cert.KernelIdeal.Run.Aof m c) _ _).arrAt 7 cfg1.N = _
  rw [Cert.KernelIdeal.Mlp.arrAt_out, Cert.KernelIdeal.Run.Aof_0, Cert.KernelIdeal.Run.Aof_1, Cert.KernelIdeal.Run.Aof_2,
    Cert.KernelIdeal.Run.Aof_3, Cert.KernelIdeal.Run.Aof_4, Cert.KernelIdeal.Run.Aof_5, Cert.KernelIdeal.Run.Aof_6,
    Cert.KernelIdeal.PoolValue.pooledBuf_eq_spec]
  exact Cert.KernelIdeal.Mlp.outArr_eq _ _ _ _ _ _ _

/-- The kernel's half: under the precondition and the tile's body, every weakly fair execution of all the threads
    terminates with the result the specification of the arguments and the arguments unchanged. -/
theorem kernel_half (hb : Cert.KernelIdeal.Run.TileBodySpec (F := Ideal))
    (m : (ℓ : Loc nD τ sig) → Buf (Elt Ideal) ℓ) (g : Dev nD → PrngReg) (hpre : Cert.Pre_KernelIdeal m) :
    θ_run (Cert.KernelIdeal.defs (F := Ideal)) (Cert.KernelIdeal.threads (F := Ideal)) ⟨m, fun _ => 0, g⟩ (fun r => ∀ c : Dev nD,
      r.2.mem ((c.tc : Thread nD τ).loc main_v11) = Cert.Glue.v0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := Ideal)) _ _).mono (fun _ h c => ⟨(h c).1.trans (resultOf_eq_spec m c), (h c).2⟩)
    (Cert.KernelIdeal.Run.run_main (F := Ideal) m g hb (Cert.PreText.text_inb_KernelIdeal m hpre))

theorem frame_ki (hb : Cert.KernelIdeal.Run.TileBodySpec (F := Ideal)) : Cert.frame_KernelIdeal := fun m g hpre =>
  (θ_run (Cert.KernelIdeal.defs (F := Ideal)) _ _).mono (fun _ h c => (h c).2) (kernel_half hb m g hpre)

theorem algebraic (hb : Cert.KernelIdeal.Run.TileBodySpec (F := Ideal)) : Cert.algebraic_KernelIdeal_ReferenceIdeal :=
  fun m g m' g' hpre hagree => ⟨Cert.Glue.v0 m, kernel_half hb m g hpre, Cert.Glue.ref_half m m' g' hpre hagree⟩

end Cert.Assemble

end
-- ==== Proof.LaunchBaseK.lean ====
/-
  The launch of the program's threads, first part: the program as the SparseCore launch theorem sees it
  (its configuration over the pipeline's label signature, the body table, the variants), the side facts of
  the handshake semaphores, and the resource algebra: the handshakes' rounds, the rounds of the TensorCore
  pipeline's staging cells, and the transfers' counters, side by side, with the embedding of each.
-/
import proofs.«207436_g25675314495810_cont_9to1_828_42_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«207436_g25675314495810_cont_9to1_828_42_alg».proof.Proof.Gen.Kernel
import proofs.«207436_g25675314495810_cont_9to1_828_42_alg».proof.Proof.Gen.Kernel.Launch
import proofs.«207436_g25675314495810_cont_9to1_828_42_alg».proof.Proof.Gen.Kernel.Points

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The pipeline's prefetched tables: none. -/
abbrev adm : (p : Fin 1) → (pcfgs (F := F) p).Adm := fun p => (cfgs p).toPCfg_adm

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left component. -/
abbrev EH : Emb UH (MT nD τ sig (HIx 1) (Elt F) ℕ UU ℕ) := embL
/-- The staging cells' rounds: the left of the right component. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by unfold EP; infer_instance

/-- The launch element: the handshakes' cells and tokens, the staging cells' and the pipeline's transfers', no counter yet. -/
def u₀ : UU := (initOf (K (F := F)).hsCells (K (F := F)).hsToks, (initOf (Pipeline.cells cfgs cellOf_inj) (Pipeline.launchToks cfgs cellOf_inj), 1))

theorem ownU_split : (ownU (u₀ (F := F)) : sProp 𝕄)
    ⊢ iprop(BI.own (EH (initOf (K (F := F)).hsCells (K (F := F)).hsToks))
        ∗ BI.own (EP (F := F) (initOf (Pipeline.cells cfgs cellOf_inj) (Pipeline.launchToks cfgs cellOf_inj)))) := by
  unfold u₀ EP
  iintro Hu
  ihave H := (ownU_pair _ _) $$ Hu
  icases H with ⟨HH, HR⟩
  ihave H2 := (own_pair_emb embR _ _) $$ HR
  icases H2 with ⟨HP, -⟩
  isplitl [HH]; · iexact HH
  iexact HP

end Cert.Kernel.Run

end
-- ==== Proof.TileDefsK.lean ====
/-
  One vector subcore's task of the pooling kernel, as the launch sees it: the places it touches and what it
  leaves there. Tile (c, s) of the 2 × 16 grid has number w = 2 s + c. It reads block w of the token array
  (256 lists of 100 tokens: batch rows 128 w … 128 w + 127, two lists per row), reads rows of the embedding
  table named by the tokens, and writes rows 128 w … 128 w + 127 of the pooled array: entry (128 w + b, e) is
  the sum, taken in order l = 0 … 199 from zero, of table entry (token (w, b, l), e), times the scale.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«207436_g25675314495810_cont_9to1_828_42_alg».proof.Proof.Gen.Kernel
import proofs.«207436_g25675314495810_cont_9to1_828_42_alg».proof.Proof.Gen.Kernel.Skeleton

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-! ## The arrays and the tile's pieces of them -/

/-- The token array (32 blocks of 256 lists of 100), the embedding table and the pooled array on device `d`. -/
abbrev iLoc (d : Dev nD) : Loc nD τ sig := (SparseCore.T d).loc main_v0
abbrev eLoc (d : Dev nD) : Loc nD τ sig := (SparseCore.T d).loc main_arg1
abbrev oLoc (d : Dev nD) : Loc nD τ sig := (SparseCore.T d).loc main_v1

abbrev iV : Memref sig .scVector .hbm S32x256x100 .i32 := Memref.whole main_v0_scv
abbrev eV : Memref sig .scVector .hbm S100000x128 .f32 := Memref.whole main_arg1_scv
abbrev oV : Memref sig .scVector .hbm S4096x128 .f32 := Memref.whole main_v1_scv
abbrev sI : Memref sig .scVector .vmem S256x100 .i32 := Memref.whole cc0_scratch0
abbrev sR : Memref sig .scVector .vmem S6x100x128 .f32 := Memref.whole cc0_scratch1
abbrev sA : Memref sig .scVector .vmem S128x128 .f32 := Memref.whole cc0_scratch2

abbrev cV (L : grid0.Coords) : Fin τ.nSC := (L 0).castLE hcore0
abbrev jV (L : grid0.Coords) : Fin τ.nSub := (L 1).castLE hsub0
/-- The tile's number. -/
def wid (L : grid0.Coords) : ℕ := 2 * (L 1).val + (L 0).val

/-- Block `wid L` of the token array, as the task addresses it (its 256 lists). -/
abbrev iRowK (L : grid0.Coords) : Memref sig .scVector .hbm S256x100 .i32 :=
  ((iV).slice (Rect.unit (s := S32x256x100) (k0_off1 L) S1x256x100.size (k0_off1_inb L)) (fun _ => rfl)).squeeze S256x100 squeezes_S1x256x100_S256x100
/-- Rows `128 · wid L …` of the pooled array, as the task addresses them. -/
abbrev oRowK (L : grid0.Coords) : Memref sig .scVector .hbm S128x128 .f32 :=
  (oV).slice (Rect.unit (s := S4096x128) (k0_off97 L) S128x128.size (k0_off97_inb L)) (fun _ => rfl)
abbrev iRowSet (L : grid0.Coords) : Finset S32x256x100.Idx := (iRowK L).view.set
abbrev oRowSet (L : grid0.Coords) : Finset S4096x128.Idx := (oRowK L).view.set

/-! ## What the task leaves in its rows of the pooled array -/

/-- A running sum from zero, in order. -/
def accF (g : ℕ → F .f32) : ℕ → F .f32
  | 0 => FloatOps.ofBits .f32 0x00000000#32
  | n + 1 => FloatOps.addf (accF g n) (g n)

/-- The table's entry in row `n`, column `e` (zero where `n` names no row). -/
def embAtF (fe : S100000x128.Idx → F .f32) (n : ℕ) (e : Fin 128) : F .f32 :=
  if h : n < 100000 then fe (ix2 ⟨n, h⟩ e) else FloatOps.ofBits .f32 0x00000000#32

/-- Token `l` of batch row `r` in the reshaped token array: row `r` is lists `2 (r mod 128)`, `2 (r mod 128) + 1` of block `r / 128`. -/
def tokF (fi : S32x256x100.Idx → BitVec 32) (r : Fin 4096) (l : Fin 200) : ℕ :=
  (fi (ix3 ⟨r.val / 128, by omega⟩ ⟨2 * (r.val % 128) + l.val / 100, by omega⟩ ⟨l.val % 100, Nat.mod_lt _ (by decide)⟩)).toNat

/-- The pooled array: the 200 table rows a batch row's tokens name, summed in order from zero, times the scale. -/
def pooledBuf (scale : F .f32) (fe : S100000x128.Idx → F .f32) (fi : S32x256x100.Idx → BitVec 32) : S4096x128.Idx → F .f32 :=
  fun i => FloatOps.mulf (accF (fun l => if h : l < 200 then embAtF fe (tokF fi (i 0) ⟨l, h⟩) (i 1) else FloatOps.ofBits .f32 0x00000000#32) 200) scale

/-- The scale the kernel multiplies by. -/
abbrev scaleC : F .f32 := Scalar.ofBits .f32 0x3BA3D70A#32

end Cert.Kernel.Tile

end
-- ==== Proof.LaunchSplitK.lean ====
/-
  The launch, second part: how the three arrays the pooling kernel works on divide among the 2 × 16 tiles.
  Tile (c, s) has number w = 2 s + c in 0 … 31. The token array (32 blocks) and the pooled array (4096 rows,
  128 per tile) are cut along their first axis into 32 equal parts, part w going to tile w; the parts are
  pairwise disjoint and cover the array. The embedding table is read whole by every tile, so it goes out as
  32 read shares: the leaves of the full share halved five times. Both divisions are equalities of
  assertions, used in one direction before the call and in the other after it.
-/
import proofs.«207436_g25675314495810_cont_9to1_828_42_alg».proof.Proof.LaunchBaseK
import proofs.«207436_g25675314495810_cont_9to1_828_42_alg».proof.Proof.TileDefsK

noncomputable section

namespace Cert.Kernel.Run

open Cert.Kernel Cert.Kernel.Gen
open Cert.Kernel.Tile (iLoc eLoc oLoc iV eV oV iRowK oRowK iRowSet oRowSet pooledBuf scaleC)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Shares: the full share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## The tiles and their numbers -/

theorem bound_zero : grid0.bound 0 = 2 := rfl
theorem bound_one : grid0.bound 1 = 16 := rfl

/-- The coordinates of tile `s` of SparseCore `c`, as the body table spells them. -/
def coordsV (c : Fin (grid0.bound 0)) (s : Fin (grid0.bound 1)) : grid0.Coords :=
  fun | 0 => c | 1 => s | ⟨_ + 2, h⟩ => absurd h (Nat.not_lt.2 (Nat.le_add_left _ _))

/-- The same from plain indices. -/
def Lof (c : Fin 2) (i : Fin 16) : grid0.Coords := coordsV (Fin.cast bound_zero.symm c) (Fin.cast bound_one.symm i)

/-- The tile's number `2 s + c`. -/
def widF (L : grid0.Coords) : Fin 32 :=
  ⟨2 * (L 1).val + (L 0).val, by have h0 : (L 0).val < 2 := (L 0).isLt; have h1 : (L 1).val < 16 := (L 1).isLt; omega⟩

/-- Numbering the tiles is a bijection of the grid with `0 … 31`. -/
def tileEquiv : Fin 2 × Fin 16 ≃ Fin 32 where
  toFun p := ⟨2 * p.2.val + p.1.val, by have := p.1.isLt; have := p.2.isLt; omega⟩
  invFun j := (⟨j.val % 2, Nat.mod_lt _ (by decide)⟩, ⟨j.val / 2, by have := j.isLt; omega⟩)
  left_inv p := by
    obtain ⟨⟨c, hc⟩, ⟨i, hi⟩⟩ := p
    simp only [Prod.mk.injEq, Fin.mk.injEq]
    omega
  right_inv j := by
    obtain ⟨j, hj⟩ := j
    simp only [Fin.mk.injEq]
    omega

theorem widF_Lof (c : Fin 2) (i : Fin 16) : widF (Lof c i) = tileEquiv (c, i) := rfl

/-- The share of the table tile `L` reads it at. -/
abbrev xq (L : grid0.Coords) : PosShare TreeShare := leaf 5 fullShare (widF L)

/-! ## The rows -/

theorem idiv : 32 ∣ S32x256x100.size 0 := ⟨1, rfl⟩
theorem odiv : 32 ∣ S4096x128.size 0 := ⟨128, rfl⟩
abbrev irow (j : Fin 32) : Rect S32x256x100 := Rect.part (s := S32x256x100) (a₀ := 0) idiv j
abbrev orow (j : Fin 32) : Rect S4096x128 := Rect.part (s := S4096x128) (a₀ := 0) odiv j

theorem irowK_eq (L : grid0.Coords) :
    Rect.unit (s := S32x256x100) (k0_off1 L) S1x256x100.size (k0_off1_inb L) = irow (widF L) := by
  unfold irow Rect.part Rect.block
  congr 1 <;> funext a
  · rw [k0_off1_eq]
    match a with
    | 0 => simp [Shape.partIx, Shape.partSize, widF]
    | 1 => simp [Shape.partIx, Shape.partSize]
    | 2 => simp [Shape.partIx, Shape.partSize]
  · match a with
    | 0 => simp [Shape.partSize]
    | 1 => simp [Shape.partSize]
    | 2 => simp [Shape.partSize]

theorem orowK_eq (L : grid0.Coords) :
    Rect.unit (s := S4096x128) (k0_off97 L) S128x128.size (k0_off97_inb L) = orow (widF L) := by
  unfold orow Rect.part Rect.block
  congr 1 <;> funext a
  · rw [k0_off97_eq]
    match a with
    | 0 => simp [Shape.partIx, Shape.partSize, widF]; omega
    | 1 => simp [Shape.partIx, Shape.partSize]
  · match a with
    | 0 => simp [Shape.partSize]
    | 1 => simp [Shape.partSize]

theorem iRowSet_eq (L : grid0.Coords) : iRowSet L = (irow (widF L)).set := by
  show (((iV).view.slice (Rect.unit (s := S32x256x100) (k0_off1 L) S1x256x100.size (k0_off1_inb L))).reshape S256x100 squeezes_S1x256x100_S256x100.numel_eq).set = _
  rw [View.set_reshape]
  refine (show ((iV).view.slice (Rect.unit (s := S32x256x100) (k0_off1 L) S1x256x100.size (k0_off1_inb L))).set
      = ((iV).view.slice (irow (widF L))).set from irowK_eq L ▸ rfl).trans ?_
  show ((View.whole (main_v0_scv : Ref sig .scVector)).slice (irow (widF L))).set = _
  rw [View.set_slice]; exact Finset.map_refl

theorem oRowSet_eq (L : grid0.Coords) : oRowSet L = (orow (widF L)).set := by
  show ((oV).view.slice (Rect.unit (s := S4096x128) (k0_off97 L) S128x128.size (k0_off97_inb L))).set = _
  refine (show ((oV).view.slice (Rect.unit (s := S4096x128) (k0_off97 L) S128x128.size (k0_off97_inb L))).set
      = ((oV).view.slice (orow (widF L))).set from orowK_eq L ▸ rfl).trans ?_
  show ((View.whole (main_v1_scv : Ref sig .scVector)).slice (orow (widF L))).set = _
  rw [View.set_slice]; exact Finset.map_refl

theorem iPts_rows (d : Dev nD) (f : Buf (Elt F) (iLoc d)) :
    (iLoc d ↦{fullShare} f : sProp 𝕄) = bigSep Finset.univ fun j : Fin 32 => iLoc d ↦[(irow j).set]{fullShare} f := by
  rw [← pointsTo_biUnion Finset.univ (ℓ := iLoc d) (fun j : Fin 32 => (irow j).set) (fun i _ j _ h => Rect.part_disjoint idiv h), Rect.biUnion_part idiv]; try rfl
theorem oPts_rows (d : Dev nD) (f : Buf (Elt F) (oLoc d)) :
    (oLoc d ↦{fullShare} f : sProp 𝕄) = bigSep Finset.univ fun j : Fin 32 => oLoc d ↦[(orow j).set]{fullShare} f := by
  rw [← pointsTo_biUnion Finset.univ (ℓ := oLoc d) (fun j : Fin 32 => (orow j).set) (fun i _ j _ h => Rect.part_disjoint odiv h), Rect.biUnion_part odiv]; try rfl

/-! ## What a tile is handed, and the three arrays as all the tiles' -/

/-- Tile `L`'s block of the token array, its share of the table, its rows of the pooled array at contents `g`. -/
abbrev tileRes (d : Dev nD) (fi : Buf (Elt F) (iLoc d)) (fe : Buf (Elt F) (eLoc d)) (g : Buf (Elt F) (oLoc d)) (L : grid0.Coords) : sProp 𝕄 :=
  iprop((iLoc d ↦[iRowSet L]{fullShare} fi) ∗ (eLoc d ↦{xq L} fe) ∗ oLoc d ↦[oRowSet L]{fullShare} g)

/-- The three arrays whole are every tile's pieces together. -/
theorem arrays_tiles (d : Dev nD) (fi : Buf (Elt F) (iLoc d)) (fe : Buf (Elt F) (eLoc d)) (g : Buf (Elt F) (oLoc d)) :
    (iprop((iLoc d ↦{fullShare} fi) ∗ (eLoc d ↦{fullShare} fe) ∗ oLoc d ↦{fullShare} g) : sProp 𝕄)
      = bigSep Finset.univ fun c : Fin 2 => bigSep Finset.univ fun i : Fin 16 => tileRes d fi fe g (Lof c i) := by
  rw [iPts_rows, oPts_rows, pointsTo_leaves Finset.univ fe 5 fullShare,
    bigSep_univ_equiv tileEquiv (fun j : Fin 32 => (iLoc d ↦[(irow j).set]{fullShare} fi : sProp 𝕄)),
    bigSep_univ_equiv tileEquiv (fun j : Fin 32 => (oLoc d ↦[(orow j).set]{fullShare} g : sProp 𝕄)),
    bigSep_univ_equiv tileEquiv (fun j : Fin (2 ^ 5) => (eLoc d ↦[Finset.univ]{leaf 5 fullShare j} fe : sProp 𝕄)),
    ← bigSep_sep', ← bigSep_sep', ← bigSep_univ_prod (fun p : Fin 2 × Fin 16 => tileRes d fi fe g (Lof p.1 p.2))]
  refine bigSep_congr fun p _ => ?_
  unfold tileRes xq
  rw [iRowSet_eq, oRowSet_eq, widF_Lof]

end Cert.Kernel.Run

end
-- ==== Proof.LaunchPayK.lean ====
/-
  The launch, third part: what the handshakes of the pooling call carry, one tile's task as the launch
  theorem's obligation, and the split of a SparseCore's operands among its sixteen tiles.
  A SparseCore is started with its sixteen tiles' pieces (each tile's block of the token array, its share
  of the embedding table, its 128 rows of the pooled array at the launch contents) and hands them back with
  the rows at the pooled values; so the split among the tiles is the identity.
-/
import proofs.«207436_g25675314495810_cont_9to1_828_42_alg».proof.Proof.LaunchSplitK

noncomputable section

namespace Cert.Kernel.Run

open Cert.Kernel Cert.Kernel.Gen
open Cert.Kernel.Tile (iLoc eLoc oLoc iV eV oV sI sR sA iRowK oRowK iRowSet oRowSet pooledBuf scaleC cV jV)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The contents the call works on -/

/-- Per device: the token array as the call finds it, the table, the pooled array before the call. -/
structure Ops (F : FTy → Type) where
  fi : (d : Dev nD) → Buf (Elt F) (iLoc d)
  fe : (d : Dev nD) → Buf (Elt F) (eLoc d)
  old : (d : Dev nD) → Buf (Elt F) (oLoc d)

variable (o : Ops F)

/-- The pooled array after the call. -/
abbrev pooledOf (d : Dev nD) : Buf (Elt F) (oLoc d) := pooledBuf scaleC (o.fe d) (o.fi d)

/-! ## What the handshakes carry -/

abbrev tileOf (c : Fin ((K (F := F)).nCore 0)) (i : Fin ((K (F := F)).nSub 0)) : grid0.Coords := Lof (Fin.cast nCore_zero c) (Fin.cast nSub_zero i)

def P : (K (F := F)).Pay (nD := nD) (Val := Elt F) (Name := ℕ) (U := UU) where
  st := fun q d c => match q with
    | 0 => bigSep Finset.univ fun i : Fin ((K (F := F)).nSub 0) => tileRes d (o.fi d) (o.fe d) (o.old d) (tileOf c i)
  dn := fun q d c => match q with
    | 0 => bigSep Finset.univ fun i : Fin ((K (F := F)).nSub 0) => tileRes d (o.fi d) (o.fe d) (pooledOf o d) (tileOf c i)
  go := fun q d c i => match q with
    | 0 => tileRes d (o.fi d) (o.fe d) (o.old d) (tileOf c i)
  td := fun q d c i => match q with
    | 0 => tileRes d (o.fi d) (o.fe d) (pooledOf o d) (tileOf c i)
  x := fun _ _ => iprop(emp)

instance P_storable : (P (F := F) o).IsStorable where
  st q d c := match q with
    | 0 => (inferInstance : BI.Storable (upEmb : UEmb _ 𝕄) (bigSep Finset.univ fun i : Fin ((K (F := F)).nSub 0) => tileRes d (o.fi d) (o.fe d) (o.old d) (tileOf c i)))
  dn q d c := match q with
    | 0 => (inferInstance : BI.Storable (upEmb : UEmb _ 𝕄) (bigSep Finset.univ fun i : Fin ((K (F := F)).nSub 0) => tileRes d (o.fi d) (o.fe d) (pooledOf o d) (tileOf c i)))
  go q d c i := match q with
    | 0 => (inferInstance : BI.Storable (upEmb : UEmb _ 𝕄) (tileRes d (o.fi d) (o.fe d) (o.old d) (tileOf c i)))
  td q d c i := match q with
    | 0 => (inferInstance : BI.Storable (upEmb : UEmb _ 𝕄) (tileRes d (o.fi d) (o.fe d) (pooledOf o d) (tileOf c i)))

/-! ## One tile's task -/

/-- What is asked of one tile's run of the kernel, at any tile, any share of the table and any contents whose tokens
    name rows of the table: from its pieces, its scoped storage and what it owes, the kernel runs and leaves its rows of
    the pooled array at the pooled values. -/
def TileBodySpec : Prop :=
  ∀ (d : Dev nD) (L : grid0.Coords) (q : PosShare TreeShare)
    (fi : Buf (Elt F) (iLoc d)) (fe : Buf (Elt F) (eLoc d)) (old : Buf (Elt F) (oLoc d)) (_ : ∀ j, (fi j).toNat < 100000)
    (_ : (K (F := F)).Facts) (O : CellTallies nD τ sig (HIx 1)) (W : Waits sig (HIx 1)) (_ : ∀ g, O g none = 0),
    (iprop(levAts (K (F := F)).L (K (F := F)).lev ∗ emp
        ∗ ((iLoc d ↦[iRowSet L]{fullShare} fi) ∗ (eLoc d ↦{q} fe) ∗ oLoc d ↦[oRowSet L]{fullShare} old)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__pool L iV (Memref.isWhole_whole _) eV (Memref.isWhole_whole _) oV (Memref.isWhole_whole _)
            sI (Memref.isWhole_whole _) sR (Memref.isWhole_whole _) sA (Memref.isWhole_whole _)
            cc0_scratch3 cc0_scratch4 cc0_scratch5 cc0_scratch6 cc0_scratch7 cc0_scratch8 cc0_scoped0 cc0_scoped1)
          fun _ => iprop(((iLoc d ↦[iRowSet L]{fullShare} fi) ∗ (eLoc d ↦{q} fe) ∗ oLoc d ↦[oRowSet L]{fullShare} pooledBuf scaleC fe fi)
            ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 0 ()
      = SparseCore.onTile hcore0 hsub0 (fun c s => cc0__pool (coordsV c s)
          iV (Memref.isWhole_whole _) eV (Memref.isWhole_whole _) oV (Memref.isWhole_whole _)
          sI (Memref.isWhole_whole _) sR (Memref.isWhole_whole _) sA (Memref.isWhole_whole _)
          cc0_scratch3 cc0_scratch4 cc0_scratch5 cc0_scratch6 cc0_scratch7 cc0_scratch8 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hb : TileBodySpec (F := F)) (hF : (K (F := F)).Facts) (hin : ∀ d j, (o.fi d j).toNat < 100000) :
    (K (F := F)).TileObl (D (F := F)) 𝒱 (P o) v₀ 0 := by
  intro d c i O W hO _ _
  simp only [show (P o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (hb d (coordsV ⟨_, hci.1⟩ ⟨_, hci.2⟩) _ (o.fi d) (o.fe d) (o.old d) (hin d) hF O W hO).trans (wp_mono frame _ _ fun _ => obl_post)

/-! ## The split among a SparseCore's tiles: the identity -/

theorem vecSplit : (K (F := F)).VecSplit' (P o) 0 := by
  intro d c
  show (bigSep Finset.univ fun i : Fin ((K (F := F)).nSub 0) => tileRes d (o.fi d) (o.fe d) (o.old d) (tileOf c i)) ⊢ |={Set.univ}=> iprop(
      (bigSep Finset.univ fun i : Fin ((K (F := F)).nSub 0) => tileRes d (o.fi d) (o.fe d) (o.old d) (tileOf c i))
      ∗ ((bigSep Finset.univ fun i : Fin ((K (F := F)).nSub 0) => tileRes d (o.fi d) (o.fe d) (pooledOf o d) (tileOf c i))
          -∗ (bigSep Finset.univ fun i : Fin ((K (F := F)).nSub 0) => tileRes d (o.fi d) (o.fe d) (pooledOf o d) (tileOf c i))))
  iintro H; imodintro
  isplitl [H]; · iexact H
  iintro H; iexact H

/-! ## The call's operands, for every SparseCore of the grid, are the three arrays whole -/

theorem st_all (d : Dev nD) :
    (bigSep Finset.univ fun c : Fin ((K (F := F)).nCore 0) => (P o).st 0 d c)
      = iprop((iLoc d ↦{fullShare} o.fi d) ∗ (eLoc d ↦{fullShare} o.fe d) ∗ oLoc d ↦{fullShare} o.old d) := by
  rw [arrays_tiles]
  exact bigSep_congr fun c _ => rfl
theorem dn_all (d : Dev nD) :
    (bigSep Finset.univ fun c : Fin ((K (F := F)).nCore 0) => (P o).dn 0 d c)
      = iprop((iLoc d ↦{fullShare} o.fi d) ∗ (eLoc d ↦{fullShare} o.fe d) ∗ oLoc d ↦{fullShare} pooledOf o d) := by
  rw [arrays_tiles]
  exact bigSep_congr fun c _ => rfl

end Cert.Kernel.Run

end
-- ==== Proof.LaunchHostK.lean ====
/-
  The launch, fourth part: @main on the TensorCore. @main is one host operation (the token array reshaped to
  32 blocks of 256 lists of 100), the pooling call on the two SparseCores, nine host operations (each weight
  matrix transposed and converted, each bias reshaped to a row), and the TensorCore kernel region.
  The TensorCore's unscoped buffers are tracked as one set held at a valuation: the launch contents, then the
  reshape's result, then the pooled array put in place of the old one after the call, then the nine
  operations' results. For the call the three arrays it works on are taken out of the set, divided among
  the 32 tiles, and put back when the call returns.
-/
import proofs.«207436_g25675314495810_cont_9to1_828_42_alg».proof.Proof.LaunchPayK

noncomputable section

namespace Cert.Kernel.Run

open Cert.Kernel Cert.Kernel.Gen
open Cert.Kernel.Tile (iLoc eLoc oLoc iV eV oV sI sR sA iRowK oRowK iRowSet oRowSet pooledBuf scaleC cV jV)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The unscoped buffers as a held set -/

/-- A TensorCore reference as a buffer of the device. -/
abbrev dr (b : Ref sig .tc) : DevRef τ sig := Proc.devRef (τ := τ) .tc b

/-- The TensorCore's unscoped buffers. -/
def ucRefs : Finset (DevRef τ sig) := (StableHlo.tcRefs τ sig).filter fun b => ¬ b.isScoped

omit [FloatOps F] in
theorem unscopedBufs_held (d : Dev nD) (W : Valuation τ sig (Elt F)) :
    (unscopedBufs d (fun b => W (dr b)) : sProp 𝕄) = StableHlo.held (T d) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := by
  intro b hb
  refine Finset.mem_filter.mpr ⟨h hb, ?_⟩
  rw [op.no_scoped b hb]; simp

omit [FloatOps F] in
theorem dr_mem_ucRefs (b : Ref sig .tc) (hb : (dr b).isScoped = false) : dr b ∈ ucRefs :=
  Finset.mem_filter.mpr ⟨StableHlo.devRef_mem_tcRefs b, by rw [hb]; simp⟩

/-! ## The host operations -/

/-- The reshape before the call. -/
abbrev op0 : HloOp τ sig (Elt F) := StableHlo.reshape main_arg0 main_v0 rfl shapeCasts_S4096x200_S32x256x100

/-- The nine operations between the call and the region. -/
def hostOps : List (HloOp τ sig (Elt F)) :=
  [StableHlo.unary main_arg2 main_v2 ((transpose S128x1024 [1, 0] · transposes_S1024x128_S128x1024_1_0) : (⟨S1024x128, .f32⟩ : BufTy).Contents (Elt F) → (⟨S128x1024, .f32⟩ : BufTy).Contents (Elt F)),
   StableHlo.unary main_v2 main_v3 ((truncf .bf16 · bitsLt_bf16_f32) : (⟨S128x1024, .f32⟩ : BufTy).Contents (Elt F) → (⟨S128x1024, .bf16⟩ : BufTy).Contents (Elt F)),
   StableHlo.reshape main_arg3 main_v4 rfl shapeCasts_S1024_S1x1024,
   StableHlo.unary main_arg4 main_v5 ((transpose S1024x512 [1, 0] · transposes_S512x1024_S1024x512_1_0) : (⟨S512x1024, .f32⟩ : BufTy).Contents (Elt F) → (⟨S1024x512, .f32⟩ : BufTy).Contents (Elt F)),
   StableHlo.unary main_v5 main_v6 ((truncf .bf16 · bitsLt_bf16_f32) : (⟨S1024x512, .f32⟩ : BufTy).Contents (Elt F) → (⟨S1024x512, .bf16⟩ : BufTy).Contents (Elt F)),
   StableHlo.reshape main_arg5 main_v7 rfl shapeCasts_S512_S1x512,
   StableHlo.unary main_arg6 main_v8 ((transpose S512x64 [1, 0] · transposes_S64x512_S512x64_1_0) : (⟨S64x512, .f32⟩ : BufTy).Contents (Elt F) → (⟨S512x64, .f32⟩ : BufTy).Contents (Elt F)),
   StableHlo.unary main_v8 main_v9 ((truncf .bf16 · bitsLt_bf16_f32) : (⟨S512x64, .f32⟩ : BufTy).Contents (Elt F) → (⟨S512x64, .bf16⟩ : BufTy).Contents (Elt F)),
   StableHlo.reshape main_arg7 main_v10 rfl shapeCasts_S64_S1x64]

/-- @main, spelt as: the reshape, the call, the nine operations, the region. -/
theorem main_eq (d : Dev nD) :
    main (F := F) d = (StableHlo.seq [op0 (F := F)] >>= fun _ => (K (F := F)).run d 0 >>= fun _ => StableHlo.seq (hostOps (F := F)) >>= fun _ =>
      Prog.lift (.customCall (SparseCore.inner (Pipeline.entry 0)) ()) >>= fun _ => pure ⟨⟩) := rfl

theorem op0_sub : ∀ op ∈ [op0 (F := F)], op.bufs ⊆ ucRefs := by
  intro op h
  rw [List.mem_singleton] at h; subst h
  exact sub_ucRefs _ (by simp)
theorem op0_fresh : ∀ op ∈ [op0 (F := F)], op.fresh = ∅ := by
  intro op h
  rw [List.mem_singleton] at h; subst h; rfl
theorem hostOps_sub : ∀ op ∈ hostOps (F := F), op.bufs ⊆ ucRefs := by
  intro op h
  simp only [hostOps, List.mem_cons, List.mem_nil_iff, or_false] at h
  rcases h with rfl | rfl | rfl | rfl | rfl | rfl | rfl | rfl | rfl <;> exact sub_ucRefs _ (by simp)
theorem hostOps_fresh : ∀ op ∈ hostOps (F := F), op.fresh = ∅ := by
  intro op h
  simp only [hostOps, List.mem_cons, List.mem_nil_iff, or_false] at h
  rcases h with rfl | rfl | rfl | rfl | rfl | rfl | rfl | rfl | rfl <;> rfl

/-! ## The valuations -/

variable (m : (ℓ : Loc nD τ sig) → Buf (Elt F) ℓ) (ρ : Dev nD → PrngReg)

/-- The launch contents; -/
abbrev V₀ (d : Dev nD) : Valuation τ sig (Elt F) := fun b => m ((d, b) : Loc nD τ sig)
/-- after the reshape; -/
abbrev V1 (d : Dev nD) : Valuation τ sig (Elt F) := (op0 (F := F)).result (V₀ m d)

/-- what the call works on; -/
def opsOf : Ops F where
  fi d := V1 m d (dr main_v0)
  fe d := V1 m d (dr main_arg1)
  old d := V1 m d (dr main_v1)

/-- after the call: the pooled array in place; -/
def V2 (d : Dev nD) : Valuation τ sig (Elt F) := Function.update (V1 m d) (dr main_v1) (pooledOf (opsOf m) d)
/-- when the region is entered. -/
def V3 (d : Dev nD) : Valuation τ sig (Elt F) := StableHlo.after (hostOps (F := F)) (V2 m d)

set_option maxHeartbeats 4000000 in
/-- The launch's unscoped buffers are the set held at the launch contents. -/
theorem unscopedBufs_m (d : Dev nD) :
    (unscopedBufs d (fun b => m ((SparseCore.T d).loc b)) : sProp 𝕄) = StableHlo.held (SparseCore.T d) ucRefs (V₀ m d) := by
  unfold unscopedBufs StableHlo.held ucRefs StableHlo.tcRefs
  rw [Finset.filter_map, bigSep_map]
  exact bigSep_congr fun b _ => rfl

/-! ## The call's three arrays within the set -/

def scRefs : Finset (DevRef τ sig) := {dr main_v0, dr main_arg1, dr main_v1}

theorem scRefs_sub : scRefs ⊆ ucRefs := by
  intro b hb
  simp only [scRefs, Finset.mem_insert, Finset.mem_singleton] at hb
  rcases hb with rfl | rfl | rfl <;> exact dr_mem_ucRefs _ rfl

omit [FloatOps F] in
theorem held_sc (d : Dev nD) (W : Valuation τ sig (Elt F)) :
    (StableHlo.held (T d) scRefs W : sProp 𝕄)
      = iprop((iLoc d ↦{fullShare} W (dr main_v0)) ∗ (eLoc d ↦{fullShare} W (dr main_arg1)) ∗ oLoc d ↦{fullShare} W (dr main_v1)) := by
  unfold StableHlo.held scRefs
  rw [bigSep_insert (by
      simp only [Finset.mem_insert, Finset.mem_singleton, not_or]
      exact ⟨StableHlo.devRef_ne_of_ne (by decide), StableHlo.devRef_ne_of_ne (by decide)⟩),
    bigSep_insert (by
      simp only [Finset.mem_singleton]
      exact StableHlo.devRef_ne_of_ne (by decide)), bigSep_singleton]
  rfl

theorem V2_v0 (d : Dev nD) : V2 m d (dr main_v0) = (opsOf m).fi d :=
  Function.update_of_ne (StableHlo.devRef_ne_of_ne (by decide)) _ _
theorem V2_arg1 (d : Dev nD) : V2 m d (dr main_arg1) = (opsOf m).fe d :=
  Function.update_of_ne (StableHlo.devRef_ne_of_ne (by decide)) _ _
theorem V2_v1 (d : Dev nD) : V2 m d (dr main_v1) = pooledOf (opsOf m) d := Function.update_self _ _ _

theorem held_rest (d : Dev nD) :
    (StableHlo.held (T d) (ucRefs \ scRefs) (V1 m d) : sProp 𝕄) = StableHlo.held (T d) (ucRefs \ scRefs) (V2 m d) :=
  StableHlo.held_congr (T d) fun b hb => (Function.update_of_ne (fun e => (Finset.mem_sdiff.mp hb).2 (by
    rw [e]; simp [scRefs])) _ _).symm

/-! ## @main -/

/-- What the launch leaves the TensorCore of the pipeline's ghost state: its staging cells' and its transfers' tokens. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- What the TensorCore owes, and has recorded of its waits, once the call is over. -/
abbrev owesAfter (d : Dev nD) : sProp 𝕄 :=
  iprop(∃ W, ⌜(K (F := F)).WBelow (T d) W (8 * 1)⌝ ∗ owes (T d) ((K (F := F)).Otc d 1) W)

/-- What is asked of the region: entered with the unscoped buffers at the valuation `V3`, it runs and leaves `R d`. -/
def RegionSpec (R : Dev nD → sProp 𝕄) : Prop :=
  ∀ (κ : GSem nD τ sig → ℕ) (d : Dev nD),
    iprop((K (F := F)).ctx EH (P (opsOf m)) κ ∗ boundary (T d) ∗ StableHlo.held (T d) ucRefs (V3 m d) ∗ owesAfter (F := F) d ∗ G (F := F) d)
      ⊢ wp frame (wpE ((K (F := F)).defs (D (F := F))) 𝒱 (T d) none) Set.univ
          (Prog.lift (.customCall (SparseCore.inner (Pipeline.entry 0)) ()) >>= fun _ => pure PUnit.unit)
          fun _ => iprop(owesAfter (F := F) d ∗ R d)

set_option maxRecDepth 8192 in
/-- @main on device `d`'s TensorCore. -/
theorem hmain (R : Dev nD → sProp 𝕄) (hreg : RegionSpec m R) (κ : GSem nD τ sig → ℕ) (d : Dev nD) :
    iprop((K (F := F)).ctx EH (P (opsOf m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ R d) := by
  rw [main_eq]
  unfold SparseCore.Cfg.tcRes
  rw [unscopedBufs_m]
  iintro ⟨#Hctx, Hst, ⟨Hb, Hh, -, -⟩, HG⟩
  -- the reshape
  iapply (StableHlo.wp_seq 𝒱 none Set.univ d ucRefs _ [op0 (F := F)] op0_sub op0_fresh (V₀ m d)) $$ [Hb Hh]
  · isplitl [Hb]; · iexact Hb
    iexact Hh
  iintro ⟨Hb, Hh⟩
  ihave Hh := (Entails.of_eq (show (StableHlo.held (SparseCore.T d) ucRefs (StableHlo.after [op0 (F := F)] (V₀ m d)) : sProp 𝕄)
      = StableHlo.held (SparseCore.T d) ucRefs (V1 m d) from rfl)) $$ Hh
  -- the call: its three arrays out of the set, to the tiles
  ihave Hh' := (Entails.of_eq (StableHlo.held_sub_split (T d) scRefs_sub (V1 m d))) $$ Hh
  icases Hh' with ⟨H3, Hrest⟩
  ihave H3' := (Entails.of_eq (held_sc d (V1 m d))) $$ H3
  rw [wp_bind]
  iapply ((K (F := F)).wp_run (D (F := F)) 𝒱 (EH := EH) (P := P (opsOf m)) κ d 0) $$ [Hst H3' Hrest Hb HG]
  isplitr; · iexact Hctx
  isplitl [Hst]; · iexact Hst
  isplitl [H3']
  · rw [st_all]; iexact H3'
  iintro ⟨Hst, Hdn⟩
  ihave Hdn' := (Entails.of_eq (dn_all (opsOf m) d)) $$ Hdn
  -- back into the set, the pooled array in place
  ihave H3 := (Entails.of_eq (show (iprop((iLoc d ↦{fullShare} (opsOf m).fi d) ∗ (eLoc d ↦{fullShare} (opsOf m).fe d) ∗ oLoc d ↦{fullShare} pooledOf (opsOf m) d) : sProp 𝕄)
      = StableHlo.held (T d) scRefs (V2 m d) by rw [held_sc, V2_v0, V2_arg1, V2_v1])) $$ Hdn'
  ihave Hrest' := (Entails.of_eq (held_rest m d)) $$ Hrest
  ihave Hh := (Entails.of_eq (StableHlo.held_sub_split (T d) scRefs_sub (V2 m d)).symm) $$ [H3 Hrest']
  · isplitl [H3]; · iexact H3
    iexact Hrest'
  -- the nine operations
  iapply (StableHlo.wp_seq 𝒱 none Set.univ d ucRefs _ (hostOps (F := F)) hostOps_sub hostOps_fresh (V2 m d)) $$ [Hb Hh]
  · isplitl [Hb]; · iexact Hb
    iexact Hh
  iintro ⟨Hb, Hh⟩
  ihave Hh := (Entails.of_eq (show (StableHlo.held (SparseCore.T d) ucRefs (StableHlo.after (hostOps (F := F)) (V2 m d)) : sProp 𝕄)
      = StableHlo.held (SparseCore.T d) ucRefs (V3 m d) from rfl)) $$ Hh
  -- the region
  unfold SparseCore.Cfg.tcSt
  icases Hst with ⟨HO, Hat⟩
  iapply (wp_wand_r frame _ Set.univ)
  isplitl [Hb Hh HO HG]
  · iapply (hreg κ d)
    isplitr; · iexact Hctx
    isplitl [Hb]; · iexact Hb
    isplitl [Hh]; · iexact Hh
    isplitl [HO]; · iexact HO
    iexact HG
  iintro %_ ⟨HO, HR⟩
  isplitr [HR]
  · isplitl [HO]; · iexact HO
    iexact Hat
  iexact HR

end Cert.Kernel.Run

end
-- ==== Proof.LaunchRunK.lean ====
/-
  The launch, fifth part: the launch element of the ghost state, the range of the tokens the call reads, and
  the program's run from @main's proof: every weakly fair execution of all the threads terminates, nothing
  faulting, and the final memory satisfies what the TensorCores' final assertions say of it.
-/
import proofs.«207436_g25675314495810_cont_9to1_828_42_alg».proof.Proof.LaunchHostK

noncomputable section

namespace Cert.Kernel.Run

open Cert.Kernel Cert.Kernel.Gen
open Cert.Kernel.Tile (iLoc eLoc oLoc iV eV oV sI sR sA iRowK oRowK iRowSet oRowSet pooledBuf scaleC cV jV)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch element -/

omit [FloatOps F] in
theorem bigSep_emp' {I : Type} (s : Finset I) : (bigSep s fun _ => iprop(emp)) = (iprop(emp) : sProp 𝕄) := bigSep_emp_const s

theorem hu₀ (o : Ops F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P o).x q thr) := by
  iintro Hu
  ihave H := (ownU_split (F := F)) $$ Hu
  icases H with ⟨HH, HP⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1)
        (Φ := fun p : Fin 1 => (Pipeline.cellsGhost cfgs (EP (F := F)) p d : sProp 𝕄)))); iexact Hg
    · iapply (Entails.of_eq (bigSep_congr fun d _ => bigSep_univ_of_subsingleton (0 : Fin 1)
        (Φ := fun p : Fin 1 => (Pipeline.toksInit cfgs (EP (F := F)) p d : sProp 𝕄)))); iexact Ht
  rw [show (bigSep Finset.univ fun thr : Thread nD τ => bigSep Finset.univ fun q : Fin 1 => (P (F := F) o).x q thr) = bigSep Finset.univ fun _ => iprop(emp) from
    bigSep_congr fun _ _ => bigSep_univ_of_subsingleton (0 : Fin 1), bigSep_emp']
  iempintro

/-! ## The tokens the call reads -/

variable (m : (ℓ : Loc nD τ sig) → Buf (Elt F) ℓ) (ρ : Dev nD → PrngReg)

/-- The reshaped token array holds the tokens of the argument, re-indexed. -/
theorem fi_eq (d : Dev nD) (j : S32x256x100.Idx) :
    (opsOf m).fi d j = m ((SparseCore.T d).loc main_arg0) (Shape.reshapeEquiv shapeCasts_S4096x200_S32x256x100 j) := by
  show (op0 (F := F)).result (V₀ m d) (dr main_v0) j = _
  unfold op0
  rw [StableHlo.reshape_result]
  rfl

theorem fe_eq (d : Dev nD) : (opsOf m).fe d = m ((SparseCore.T d).loc main_arg1) := by
  show (op0 (F := F)).result (V₀ m d) (dr main_arg1) = _
  exact (op0 (F := F)).result_of_not_mem (V₀ m d) (by
    rw [show (op0 (F := F)).writes = {dr main_v0} from rfl, Finset.mem_singleton]; exact StableHlo.devRef_ne_of_ne (by decide))

theorem fi_inb (hin : ∀ d j, (m ((SparseCore.T d).loc main_arg0) j).toNat < 100000) (d : Dev nD) (j : S32x256x100.Idx) :
    ((opsOf m).fi d j).toNat < 100000 := by
  rw [fi_eq]; exact hin d _

/-! ## The run -/

/-- The program's run, from the tile's body, the region and the reading of the final assertion. -/
theorem run_main_of [∀ e, Nonempty (Elt F e)] (hb : TileBodySpec (F := F))
    (hin : ∀ d j, (m ((SparseCore.T d).loc main_arg0) j).toNat < 100000)
    (R : Dev nD → sProp 𝕄) (hreg : RegionSpec m R)
    (fq : Dev nD → Phys nD τ sig (Elt F) → Prop) (hfin : ∀ d s', iprop(R d ∗ SI s') ⊢ (⌜fq d s'⌝ : sProp 𝕄))
    (Q' : PUnit × MemSt nD τ sig (Elt F) → Prop) (hQ : ∀ s', (∀ d, fq d s') → Q' (⟨⟩, s'.mem)) :
    θ_run (Cert.Kernel.defs (F := F)) (Cert.Kernel.threads (F := F)) ⟨m, fun _ => 0, ρ⟩ Q' :=
  SparseCore.Cfg.θ_run_sc (K := K (F := F)) (D := D (F := F)) (𝒱 := 𝒱) (EH := EH) (P := P (opsOf m)) facts v₀
    (fun q hq => match q with | 0 => nomatch hq)
    (fun q _ => match q with | 0 => tileObl (opsOf m) hb facts (fi_inb m hin))
    (fun q _ => match q with | 0 => SparseCore.Cfg.VecSplit.of_plain (vecSplit (opsOf m)))
    m ρ main (G (F := F)) R (u₀ (F := F)) (sep_elim_left.trans (hu₀ (opsOf m))) (hmain m ρ R hreg) fq hfin Q' hQ

end Cert.Kernel.Run

end
-- ==== Proof.MlpBodyK.lean ====
/-
  The three-layer perceptron kernel on one block of 2048 rows. The body reads its eight staging buffers whole
  — the block of inputs, three weight matrices, three bias rows and, unused, the output block — and writes the
  output block whole with one pure function of the seven inputs: three matrix products into zero accumulators,
  each followed by the addition of a bias row repeated down the rows, the first two also by a maximum with
  zero. Run from the seven inputs at any contents and the output at anything, it ends with the inputs as they
  were and the output buffer holding that function of them.
-/
import proofs.«207436_g25675314495810_cont_9to1_828_42_alg».proof.Proof.Gen.Kernel.Skeleton
import proofs.«207436_g25675314495810_cont_9to1_828_42_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- What the body leaves in the output block, from what it read of the seven inputs: the block of rows
    `x`, the weights `w1 w2 w3` (already transposed: contraction index first) and the bias rows `c1 c2 c3`. -/
def mlpBlock (x : Vec F S2048x128 .f32) (w1 : Vec F S128x1024 .bf16) (c1 : Vec F S1x1024 .f32)
    (w2 : Vec F S1024x512 .bf16) (c2 : Vec F S1x512 .f32) (w3 : Vec F S512x64 .bf16) (c3 : Vec F S1x64 .f32) :
    Vec F S2048x64 .f32 :=
  k1_pay1 x w1 c1 w2 c2 w3 c3

/-- The offsets of every access of the body: zero on both axes. -/
theorem hz2 : (![0, 0] : Fin 2 → Nat) = fun _ => 0 := by
  funext a; match a with | ⟨0, _⟩ => rfl | ⟨1, _⟩ => rfl

section Whole
variable {sig' : RefSig} {κ : Kind} {sp : Space} {S : Shape} {e : EltTy} {Val : EltTy → Type}

/-- A load of a whole buffer — through the rectangle of the buffer's own sizes at zero offsets — reads what the
    buffer holds. -/
theorem readAt_whole (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-- One unmasked store through that rectangle leaves its payload, whatever the buffer held. -/
theorem read_store_whole [∀ e, Nonempty (Val e)] (v : View sig' κ sp S e) (f : v.ty.Contents Val) (w : S.Idx → Val e)
    {off : Fin S.rank → Nat} (h : off = fun _ => 0) (inb : ∀ a, off a + S.size a ≤ S.size a) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

end Whole

/-- The payload at equal arguments. -/
theorem pay_congr {x x' : Vec F S2048x128 .f32} {w1 w1' : Vec F S128x1024 .bf16} {c1 c1' : Vec F S1x1024 .f32}
    {w2 w2' : Vec F S1024x512 .bf16} {c2 c2' : Vec F S1x512 .f32} {w3 w3' : Vec F S512x64 .bf16} {c3 c3' : Vec F S1x64 .f32}
    (h1 : x = x') (h2 : w1 = w1') (h3 : c1 = c1') (h4 : w2 = w2') (h5 : c2 = c2') (h6 : w3 = w3') (h7 : c3 = c3') :
    k1_pay1 x w1 c1 w2 c2 w3 c3 = mlpBlock x' w1' c1' w2' c2' w3' c3' := by
  subst h1 h2 h3 h4 h5 h6 h7; rfl

set_option maxHeartbeats 400000 in
/-- The body on whole staging memrefs, the inputs' at contents `x … c3` and the output's at anything, runs to
    the continuation holding the inputs' as they were and the output's at `mlpBlock` of them. -/
theorem sound_mlp (𝒱 : Variants) (c : Dev nD) (E : Set Name) (i : grid1.Coords)
    (arg1 : Memref sig .tc .vmem S2048x128 .f32) (harg1 : arg1.IsWhole)
    (arg2 : Memref sig .tc .vmem S128x1024 .bf16) (harg2 : arg2.IsWhole)
    (arg3 : Memref sig .tc .vmem S1x1024 .f32) (harg3 : arg3.IsWhole)
    (arg4 : Memref sig .tc .vmem S1024x512 .bf16) (harg4 : arg4.IsWhole)
    (arg5 : Memref sig .tc .vmem S1x512 .f32) (harg5 : arg5.IsWhole)
    (arg6 : Memref sig .tc .vmem S512x64 .bf16) (harg6 : arg6.IsWhole)
    (arg7 : Memref sig .tc .vmem S1x64 .f32) (harg7 : arg7.IsWhole)
    (arg8 : Memref sig .tc .vmem S2048x64 .f32) (harg8 : arg8.IsWhole)
    (x : Vec F S2048x128 .f32) (w1 : Vec F S128x1024 .bf16) (c1 : Vec F S1x1024 .f32)
    (w2 : Vec F S1024x512 .bf16) (c2 : Vec F S1x512 .f32) (w3 : Vec F S512x64 .bf16) (c3 : Vec F S1x64 .f32)
    (K : PUnit → sProp 𝕄) :
    iprop(owns (c : Thread nD τ) arg1 fullShare x ∗ owns (c : Thread nD τ) arg2 fullShare w1
        ∗ owns (c : Thread nD τ) arg3 fullShare c1 ∗ owns (c : Thread nD τ) arg4 fullShare w2
        ∗ owns (c : Thread nD τ) arg5 fullShare c2 ∗ owns (c : Thread nD τ) arg6 fullShare w3
        ∗ owns (c : Thread nD τ) arg7 fullShare c3 ∗ (∃ d, owns (c : Thread nD τ) arg8 fullShare d)
        ∗ (iprop(owns (c : Thread nD τ) arg1 fullShare x ∗ owns (c : Thread nD τ) arg2 fullShare w1
            ∗ owns (c : Thread nD τ) arg3 fullShare c1 ∗ owns (c : Thread nD τ) arg4 fullShare w2
            ∗ owns (c : Thread nD τ) arg5 fullShare c2 ∗ owns (c : Thread nD τ) arg6 fullShare w3
            ∗ owns (c : Thread nD τ) arg7 fullShare c3
            ∗ owns (c : Thread nD τ) arg8 fullShare (mlpBlock x w1 c1 w2 c2 w3 c3)) -∗ K ⟨⟩))
      ⊢ wp frame (wpE (defs₀ (F := F)) 𝒱 c none) E
          (cc1__mlp_body i arg1 harg1 arg2 harg2 arg3 harg3 arg4 harg4 arg5 harg5 arg6 harg6 arg7 harg7 arg8 harg8) K := by
  simp only [cc1__mlp_body_eq_skeleton]; unfold cc1__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (read_store_whole _ _ _ hz2 _).trans ?_
  exact pay_congr (readAt_whole _ _ hz2 _) (readAt_whole _ _ hz2 _) (readAt_whole _ _ hz2 _) (readAt_whole _ _ hz2 _)
    (readAt_whole _ _ hz2 _) (readAt_whole _ _ hz2 _) (readAt_whole _ _ hz2 _)

end Cert.Kernel.Mlp

end
-- ==== Proof.MlpDatK.lean ====
/-
  The perceptron kernel's pipeline: what each of its eight staging buffers holds after the body at each of the
  two grid points, and the array the two write-backs leave. Window 0 brings in rows [2048 t, 2048 t + 2048) of the
  4096 input rows at point t; windows 1 to 6 bring in the three weight matrices and the three bias rows whole,
  once; window 7 takes the 2048 output rows of point t back to rows [2048 t, 2048 t + 2048) of the result. The
  body leaves every input buffer as it found it and the output buffer at the perceptron of the block, so the result
  array ends, at row r, with the perceptron of the block of rows that holds r, read at r's place in it.
-/
import proofs.«207436_g25675314495810_cont_9to1_828_42_alg».proof.Proof.MlpBodyK
import proofs.«207436_g25675314495810_cont_9to1_828_42_alg».proof.Proof.Gen.Kernel.Launch
import proofs.«207436_g25675314495810_cont_9to1_828_42_alg».proof.Proof.Gen.Kernel.Points
import Idealize.ShloMosaic.Lib.Pipeline.FrameBody
import Idealize.ShloMosaic.Lib.Pipeline.Value
import Idealize.ShloMosaic.Lib.ValueIdx

set_option maxRecDepth 16384

noncomputable section

namespace Cert.Kernel.Mlp

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (c : Dev nD) (A : (w : Fin cfg1.W) → Buf (Elt F) ((cfg1.win w).arr.view.loc (c.tc : Thread nD τ)))

/-! ## The proof data -/

/-- Window `w`'s block at point `t`, read off its array as the pipeline finds it. -/
def iblk (w : Fin cfg1.W) (t : Fin cfg1.N) : ((cfg1.win w).xblock (cfg1.grid.coords t)).Idx → Elt F (cfg1.win w).elt :=
  ((cfg1.win w).blk t).view.read (Elt F) (A w)

/-- The pipeline's proof data on core `c`, from the arrays' contents `A` when it starts: after the body every input
    buffer holds its block, the output buffer the perceptron of the seven; no invariant; what the core owes (`O`) and
    the bound on its recorded waits (`B`) are the same at every point. -/
def dats (O : CellTallies nD τ sig Ix) (B : Set (SemLoc sig × Ix)) : Dat τ (Elt F) Ix Name U Lvl cfg1 c where
  A := A
  after w t := match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => iblk c A 5 t
    | ⟨6, _⟩ => iblk c A 6 t
    | ⟨7, _⟩ => mlpBlock (iblk c A 0 t) (iblk c A 1 t) (iblk c A 2 t) (iblk c A 3 t) (iblk c A 4 t) (iblk c A 5 t) (iblk c A 6 t)
  Φ _ := (BI.emp : sProp 𝕄)
  q _ := fullShare
  owed _ := O
  recorded _ := B

variable (O : CellTallies nD τ sig Ix) (B : Set (SemLoc sig × Ix))

theorem A_eq (w : Fin cfg1.W) : (dats (Name := Name) (U := U) (Lvl := Lvl) c A O B).A w = A w := by dsimp only [dats]

theorem after1_0 (t : Fin cfg1.N) : (dats (Name := Name) (U := U) (Lvl := Lvl) c A O B).after 0 t = iblk c A 0 t := by dsimp only [dats]
theorem after1_1 (t : Fin cfg1.N) : (dats (Name := Name) (U := U) (Lvl := Lvl) c A O B).after 1 t = iblk c A 1 t := by dsimp only [dats]
theorem after1_2 (t : Fin cfg1.N) : (dats (Name := Name) (U := U) (Lvl := Lvl) c A O B).after 2 t = iblk c A 2 t := by dsimp only [dats]
theorem after1_3 (t : Fin cfg1.N) : (dats (Name := Name) (U := U) (Lvl := Lvl) c A O B).after 3 t = iblk c A 3 t := by dsimp only [dats]
theorem after1_4 (t : Fin cfg1.N) : (dats (Name := Name) (U := U) (Lvl := Lvl) c A O B).after 4 t = iblk c A 4 t := by dsimp only [dats]
theorem after1_5 (t : Fin cfg1.N) : (dats (Name := Name) (U := U) (Lvl := Lvl) c A O B).after 5 t = iblk c A 5 t := by dsimp only [dats]
theorem after1_6 (t : Fin cfg1.N) : (dats (Name := Name) (U := U) (Lvl := Lvl) c A O B).after 6 t = iblk c A 6 t := by dsimp only [dats]
theorem after1_7 (t : Fin cfg1.N) : (dats (Name := Name) (U := U) (Lvl := Lvl) c A O B).after 7 t
    = mlpBlock (iblk c A 0 t) (iblk c A 1 t) (iblk c A 2 t) (iblk c A 3 t) (iblk c A 4 t) (iblk c A 5 t) (iblk c A 6 t) := by
  dsimp only [dats]

/-- An input window's current staging buffer holds its block at every point, fetched there or not: unfetched, the
    block index has not moved and the body left the block in place. -/
theorem before1_0 (t : Fin cfg1.N) (d) : (dats (Name := Name) (U := U) (Lvl := Lvl) c A O B).before 0 t d = iblk c A 0 t :=
  ((dats (Name := Name) (U := U) (Lvl := Lvl) c A O B).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
theorem before1_1 (t : Fin cfg1.N) (d) : (dats (Name := Name) (U := U) (Lvl := Lvl) c A O B).before 1 t d = iblk c A 1 t :=
  ((dats (Name := Name) (U := U) (Lvl := Lvl) c A O B).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)
theorem before1_2 (t : Fin cfg1.N) (d) : (dats (Name := Name) (U := U) (Lvl := Lvl) c A O B).before 2 t d = iblk c A 2 t :=
  ((dats (Name := Name) (U := U) (Lvl := Lvl) c A O B).before_in_eq_fetched 2 rfl (fun _ => rfl) (fun _ _ _ => rfl)
      (fun t => by rw [after1_2]; unfold Dat.blockOf iblk; rw [A_eq]; try rfl) t d).trans
    (by unfold Dat.fetched Dat.blockOf iblk; rw [A_eq]; try rfl)
theorem before1_3 (t : Fin cfg1.N) (d) : (dats (Name := Name) (U := U) (Lvl := Lvl) c A O B).before 3 t d = iblk c A 3 t :=
  ((dats (Name := Name) (U := U) (Lvl := Lvl) c A O B).before_in_eq_fetched 3 rfl (fun _ => rfl) (fun _ _ _ => rfl)
      (fun t => by rw [after1_3]; unfold Dat.blockOf iblk; rw [A_eq]; try rfl) t d).trans
    (by unfold Dat.fetched Dat.blockOf iblk; rw [A_eq]; try rfl)
theorem before1_4 (t : Fin cfg1.N) (d) : (dats (Name := Name) (U := U) (Lvl := Lvl) c A O B).before 4 t d = iblk c A 4 t :=
  ((dats (Name := Name) (U := U) (Lvl := Lvl) c A O B).before_in_eq_fetched 4 rfl (fun _ => rfl) (fun _ _ _ => rfl)
      (fun t => by rw [after1_4]; unfold Dat.blockOf iblk; rw [A_eq]; try rfl) t d).trans
    (by unfold Dat.fetched Dat.blockOf iblk; rw [A_eq]; try rfl)
theorem before1_5 (t : Fin cfg1.N) (d) : (dats (Name := Name) (U := U) (Lvl := Lvl) c A O B).before 5 t d = iblk c A 5 t :=
  ((dats (Name := Name) (U := U) (Lvl := Lvl) c A O B).before_in_eq_fetched 5 rfl (fun _ => rfl) (fun _ _ _ => rfl)
      (fun t => by rw [after1_5]; unfold Dat.blockOf iblk; rw [A_eq]; try rfl) t d).trans
    (by unfold Dat.fetched Dat.blockOf iblk; rw [A_eq]; try rfl)
theorem before1_6 (t : Fin cfg1.N) (d) : (dats (Name := Name) (U := U) (Lvl := Lvl) c A O B).before 6 t d = iblk c A 6 t :=
  ((dats (Name := Name) (U := U) (Lvl := Lvl) c A O B).before_in_eq_fetched 6 rfl (fun _ => rfl) (fun _ _ _ => rfl)
      (fun t => by rw [after1_6]; unfold Dat.blockOf iblk; rw [A_eq]; try rfl) t d).trans
    (by unfold Dat.fetched Dat.blockOf iblk; rw [A_eq]; try rfl)

/-! ## The body obligation -/

variable (ι : Ix)

/-- What the body is called with at point `t`: the core's `owes` and the eight current staging buffers, -/
def bodyPre (t : Fin cfg1.N) : sProp 𝕄 :=
  iprop((dats (Name := Name) (U := U) (Lvl := Lvl) c A O B).Φ t.castSucc ∗ (dats (Name := Name) (U := U) (Lvl := Lvl) c A O B).owesAt ι t.castSucc
    ∗ (∃ d, owns (c : Thread nD τ) (st1_0 t) fullShare ((dats (Name := Name) (U := U) (Lvl := Lvl) c A O B).before 0 t d))
    ∗ (∃ d, owns (c : Thread nD τ) (st1_1 t) fullShare ((dats (Name := Name) (U := U) (Lvl := Lvl) c A O B).before 1 t d))
    ∗ (∃ d, owns (c : Thread nD τ) (st1_2 t) fullShare ((dats (Name := Name) (U := U) (Lvl := Lvl) c A O B).before 2 t d))
    ∗ (∃ d, owns (c : Thread nD τ) (st1_3 t) fullShare ((dats (Name := Name) (U := U) (Lvl := Lvl) c A O B).before 3 t d))
    ∗ (∃ d, owns (c : Thread nD τ) (st1_4 t) fullShare ((dats (Name := Name) (U := U) (Lvl := Lvl) c A O B).before 4 t d))
    ∗ (∃ d, owns (c : Thread nD τ) (st1_5 t) fullShare ((dats (Name := Name) (U := U) (Lvl := Lvl) c A O B).before 5 t d))
    ∗ (∃ d, owns (c : Thread nD τ) (st1_6 t) fullShare ((dats (Name := Name) (U := U) (Lvl := Lvl) c A O B).before 6 t d))
    ∗ (∃ d, owns (c : Thread nD τ) (st1_7 t) fullShare ((dats (Name := Name) (U := U) (Lvl := Lvl) c A O B).before 7 t d)))

/-- and what it returns. -/
def bodyPost (t : Fin cfg1.N) : sProp 𝕄 :=
  iprop((dats (Name := Name) (U := U) (Lvl := Lvl) c A O B).Φ t.succ ∗ (dats (Name := Name) (U := U) (Lvl := Lvl) c A O B).owesAt ι t.succ
    ∗ owns (c : Thread nD τ) (st1_0 t) fullShare ((dats (Name := Name) (U := U) (Lvl := Lvl) c A O B).after 0 t)
    ∗ owns (c : Thread nD τ) (st1_1 t) fullShare ((dats (Name := Name) (U := U) (Lvl := Lvl) c A O B).after 1 t)
    ∗ owns (c : Thread nD τ) (st1_2 t) fullShare ((dats (Name := Name) (U := U) (Lvl := Lvl) c A O B).after 2 t)
    ∗ owns (c : Thread nD τ) (st1_3 t) fullShare ((dats (Name := Name) (U := U) (Lvl := Lvl) c A O B).after 3 t)
    ∗ owns (c : Thread nD τ) (st1_4 t) fullShare ((dats (Name := Name) (U := U) (Lvl := Lvl) c A O B).after 4 t)
    ∗ owns (c : Thread nD τ) (st1_5 t) fullShare ((dats (Name := Name) (U := U) (Lvl := Lvl) c A O B).after 5 t)
    ∗ owns (c : Thread nD τ) (st1_6 t) fullShare ((dats (Name := Name) (U := U) (Lvl := Lvl) c A O B).after 6 t)
    ∗ owns (c : Thread nD τ) (st1_7 t) fullShare ((dats (Name := Name) (U := U) (Lvl := Lvl) c A O B).after 7 t))

/-- The body at any point: the seven input buffers hold their blocks, so the body's run applies; what the core owes
    passes through unread. -/
theorem sound_body (t : Fin cfg1.N) :
    bodyPre (Name := Name) (U := U) (Lvl := Lvl) c A O B ι t
      ⊢ wp frame (wpE (defs₀ (F := F)) Variants.none c none) Set.univ (bodyAt1 t)
          (fun _ => bodyPost (Name := Name) (U := U) (Lvl := Lvl) c A O B ι t) := by
  unfold bodyPre bodyPost bodyAt1
  simp only [before1_0, before1_1, before1_2, before1_3, before1_4, before1_5, before1_6]
  rw [show (dats (Name := Name) (U := U) (Lvl := Lvl) c A O B).Φ t.succ = (dats (Name := Name) (U := U) (Lvl := Lvl) c A O B).Φ t.castSucc from rfl,
    show (dats (Name := Name) (U := U) (Lvl := Lvl) c A O B).owesAt ι t.succ = (dats (Name := Name) (U := U) (Lvl := Lvl) c A O B).owesAt ι t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_mlp Variants.none c Set.univ (grid1.coords t) _ _ _ _ _ _ _ _ _ _ _ _ _ _ _ _
    (iblk c A 0 t) (iblk c A 1 t) (iblk c A 2 t) (iblk c A 3 t) (iblk c A 4 t) (iblk c A 5 t) (iblk c A 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation : BodyObligation (dats (Name := Name) (U := U) (Lvl := Lvl) c A O B) (defs₀ (F := F)) Variants.none ι Set.univ := fun t => by
  rw [bigSep_W1, bigSep_W1]
  exact sound_body c A O B ι t

/-! ## The arrays after the pipeline -/

/-- An input array is never written. -/
theorem arrAt_in (w : Fin cfg1.W) (hw : w ≠ 7) : (dats (Name := Name) (U := U) (Lvl := Lvl) c A O B).arrAt w cfg1.N = A w :=
  match w, hw with
  | ⟨0, _⟩, _ => ((dats (Name := Name) (U := U) (Lvl := Lvl) c A O B).arrAt_in 0 rfl _).trans (A_eq c A O B 0)
  | ⟨1, _⟩, _ => ((dats (Name := Name) (U := U) (Lvl := Lvl) c A O B).arrAt_in 1 rfl _).trans (A_eq c A O B 1)
  | ⟨2, _⟩, _ => ((dats (Name := Name) (U := U) (Lvl := Lvl) c A O B).arrAt_in 2 rfl _).trans (A_eq c A O B 2)
  | ⟨3, _⟩, _ => ((dats (Name := Name) (U := U) (Lvl := Lvl) c A O B).arrAt_in 3 rfl _).trans (A_eq c A O B 3)
  | ⟨4, _⟩, _ => ((dats (Name := Name) (U := U) (Lvl := Lvl) c A O B).arrAt_in 4 rfl _).trans (A_eq c A O B 4)
  | ⟨5, _⟩, _ => ((dats (Name := Name) (U := U) (Lvl := Lvl) c A O B).arrAt_in 5 rfl _).trans (A_eq c A O B 5)
  | ⟨6, _⟩, _ => ((dats (Name := Name) (U := U) (Lvl := Lvl) c A O B).arrAt_in 6 rfl _).trans (A_eq c A O B 6)
  | ⟨7, _⟩, h => absurd rfl h

end Cert.Kernel.Mlp

end
-- ==== Proof.LaunchRegionK.lean ====
/-
  The launch, sixth part: the TensorCore kernel region, and the program's run with its result named.
  The region is entered with the unscoped buffers at the valuation the nine host operations left. Its eight
  windows' arrays — the pooled array, the three converted weight matrices, the three bias rows, the result —
  go to the pipeline at those contents; every other unscoped buffer bypasses it. The kernel has no semaphore of
  its own and the body keeps no invariant. The TensorCore owes nothing during the region, so the pipeline's
  waits need no level evidence; its waits are recorded at the index of level zero, which keeps the bound on the
  recorded waits that the handshake state asks for. At the end the eight arrays are read off the final memory
  at what the pipeline's account computes, the arguments at what the host operations left: their launch
  contents, no operation and no call writing them.
-/
import proofs.«207436_g25675314495810_cont_9to1_828_42_alg».proof.Proof.LaunchRunK
import proofs.«207436_g25675314495810_cont_9to1_828_42_alg».proof.Proof.MlpDatK

noncomputable section

namespace Cert.Kernel.Run

open Cert.Kernel Cert.Kernel.Gen
open Cert.Kernel.Tile (iLoc eLoc oLoc iV eV oV sI sR sA iRowK oRowK iRowSet oRowSet pooledBuf scaleC cV jV)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The proof data -/

/-- The unscoped buffers when the region is entered, by reference; -/
abbrev Vr (d : Dev nD) : (b : Ref sig .tc) → Buf (Elt F) ((d.tc : Thread nD τ).loc b) := fun b => V3 m d (dr b)
/-- the windows' arrays among them. -/
abbrev Aof (d : Dev nD) : (w : Fin cfg1.W) → Buf (Elt F) ((cfg1.win w).arr.view.loc (d.tc : Thread nD τ)) :=
  fun w => Vr m d (Pipeline.arrRef spec1 w)

/-- The waits the TensorCore may have recorded: those at a level the handshake state allows after the call. -/
def Bof (d : Dev nD) : Set (SemLoc sig × HIx 1) := {p | (K (F := F)).lev (SparseCore.T d, p.1) p.2 ≤ 8 * 1}

/-- The pipeline's proof data: the arrays as entered, nothing owed. -/
abbrev dat (_ : Fin 1) (d : Dev nD) : Pipeline.Dat τ (Elt F) (HIx 1) ℕ UU ℕ cfg1 d :=
  Cert.Kernel.Mlp.dats (Name := ℕ) (U := UU) (Lvl := ℕ) d (Aof m d) (0 : CellTallies nD τ sig (HIx 1)) (Bof (F := F) d)

/-- What is asked of the kernel body: the pipeline's body obligation at these data. -/
def BodySpec : Prop := ∀ d : Dev nD, Pipeline.BodyObligation (dat m 0 d) (defs₀ (F := F)) 𝒱₀ (none : HIx 1) Set.univ

/-- It holds: the body leaves its inputs and writes the perceptron of the block. -/
theorem bodySpec : BodySpec m := fun d =>
  Cert.Kernel.Mlp.body_obligation (Name := ℕ) (U := UU) (Lvl := ℕ) d (Aof m d) (0 : CellTallies nD τ sig (HIx 1)) (Bof (F := F) d) (none : HIx 1)

/-! ## The thread states around the region -/

/-- The TensorCore owing nothing, its recorded waits within the handshake state's bound. -/
abbrev owes0 (d : Dev nD) : sProp 𝕄 :=
  iprop(∃ W, ⌜(K (F := F)).WBelow (SparseCore.T d) W (8 * 1)⌝ ∗ owes (SparseCore.T d) (0 : CellTallies nD τ sig (HIx 1)) W)

omit [FloatOps F] in
theorem owesAfter_eq (d : Dev nD) : (owesAfter (F := F) d : sProp 𝕄) = owes0 (F := F) d := by
  unfold owesAfter owes0
  rw [(K (F := F)).Otc_end d (le_refl 1)]

/-- What the region leaves: the windows' arrays at their final contents, the other unscoped buffers as entered. -/
abbrev Rr (d : Dev nD) : sProp 𝕄 :=
  iprop((dat m 0 d).arrays ((dat m 0 d).arrAt · cfg1.N) ∗ Pipeline.unscopedRest spec1 d (Vr m d))

theorem share_full (d : Dev nD) : ∀ w, (dat m 0 d).share w = fullShare := (dat m 0 d).share_full fun _ => rfl

set_option backward.isDefEq.respectTransparency.types false in
/-- The region. -/
def reg (hbody : BodySpec m) : Pipeline.RegionSeg (pcfgs (F := F)) adm (dat m) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (hbody d).loose
  hwaits := Pipeline.hwaits_of_owed_zero _ _ _ _ (K (F := F)).L (K (F := F)).lev 0 fun _ _ => rfl
  pre d := iprop(StableHlo.held (SparseCore.T d) ucRefs (V3 m d) ∗ owes0 (F := F) d)
  post d := iprop(Rr m d ∗ owes0 (F := F) d)
  X _ := iprop(emp)
  Y _ := iprop(emp)
  Z d := Pipeline.unscopedRest spec1 d (Vr m d)
  hentry d := by
    rw [← unscopedBufs_held d (V3 m d)]
    iintro ⟨⟨Hub, %W, %hW, HO⟩, -, -⟩
    ihave H := (Pipeline.arrays_of_unscopedBufs (pcfgs (F := F)) adm (dat m) launch1.win launch1.arr_whole d (share_full m d) (Vr m d) fun _ => rfl) $$ Hub
    icases H with ⟨Ha, Hz⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p (Finset.mem_coe.mp hp))
      iexact HO
    isplitr; · iempintro
    iexact Hz
  hin d := by
    iintro -
    iempintro
  hout d := by
    rw [Pipeline.ownSems0_none, scopedRest1_eq]
    iintro -
    isplitr; · iempintro
    isplitr <;> iempintro
  hexit d := by
    iintro ⟨Ha, HO, -, Hz⟩
    imodintro
    isplitl [Ha Hz]
    · isplitl [Ha]; · iexact Ha
      iexact Hz
    unfold Pipeline.Dat.owesAt Pipeline.owesWithin
    icases HO with ⟨%W, %hW, HO⟩
    iexists W; isplitr
    · ipureintro
      intro p hp
      rcases hW (Finset.mem_coe.mpr hp) with h | ⟨w, s, rfl⟩
      · exact h
      · exact Nat.zero_le _
    iexact HO

theorem reg_pre (hbody : BodySpec m) (d : Dev nD) :
    (reg m hbody).pre d = iprop(StableHlo.held (SparseCore.T d) ucRefs (V3 m d) ∗ owes0 (F := F) d) := rfl
theorem reg_post (hbody : BodySpec m) (d : Dev nD) : (reg m hbody).post d = iprop(Rr m d ∗ owes0 (F := F) d) := rfl

/-! ## The region as @main meets it -/

/-- The call of the region's entry under the SparseCore launch's labels is the entry's call, lifted. -/
theorem lift_eq :
    (Prog.lift (.customCall (SparseCore.inner (Pipeline.entry 0)) ()) >>= fun _ => pure PUnit.unit :
        Prog (TpuEff nD τ sig (Elt F) (SparseCore.Sig (ΛP (F := F)) 1) .tc) PUnit)
      = SparseCore.liftProg (Q := 1) (Prog.op (.customCall (Pipeline.entry 0) ()) fun _ => .ret PUnit.unit) := rfl

set_option backward.isDefEq.respectTransparency.types false in
theorem region_spec [∀ e, Nonempty (Elt F e)] (hbody : BodySpec m) : RegionSpec m (Rr m) := by
  intro κ d
  rw [owesAfter_eq, lift_eq]
  iintro ⟨#Hctx, Hb, Hh, HO, ⟨Hcg, Hti⟩⟩
  ihave #Hlev := (SparseCore.Cfg.ctx_levAts κ) $$ Hctx
  iapply ((K (F := F)).wp_liftProg (D (F := F)) 𝒱 (SparseCore.T d) Set.univ none _ _)
  iapply (Pipeline.RegionSeg.wp (pcfgs (F := F)) adm (dat m) (none : HIx 1) cellOf_inj (EP (F := F)) defs₀ 𝒱₀ (K (F := F)).L (K (F := F)).lev
    (reg m hbody) d none (fun u hu => nomatch hu) (fun _ => .ret PUnit.unit) _) $$ [Hb Hh HO Hcg Hti]
  rw [reg_pre, reg_post]
  isplitr
  · iintro ⟨-, ⟨HR, HO⟩⟩
    rw [wp_ret]; imodintro
    isplitl [HO]; · iexact HO
    iexact HR
  isplitl [Hb]; · iexact Hb
  isplitl [Hh HO]
  · isplitl [Hh]; · iexact Hh
    iexact HO
  isplitr; · iexact Hlev
  isplitl [Hcg]; · iexact Hcg
  iexact Hti

/-! ## Reading the final memory -/

omit [FloatOps F] in
/-- A whole buffer held beside the state interpretation says what the memory holds there. -/
theorem read_whole (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  iexact HSI

/-- What the final memory holds on device `d`: the windows' arrays at what the pipeline's account computes, the arguments at the region's entry valuation. -/
def fq (d : Dev nD) (s' : Phys nD τ sig (Elt F)) : Prop :=
  (∀ w : Fin cfg1.W, s'.mem.mem ((cfg1.win w).arr.view.loc (d.tc : Thread nD τ)) = (dat m 0 d).arrAt w cfg1.N)
    ∧ s'.mem.mem ((d.tc : Thread nD τ).loc main_arg0) = Vr m d main_arg0 ∧ s'.mem.mem ((d.tc : Thread nD τ).loc main_arg1) = Vr m d main_arg1
    ∧ s'.mem.mem ((d.tc : Thread nD τ).loc main_arg2) = Vr m d main_arg2 ∧ s'.mem.mem ((d.tc : Thread nD τ).loc main_arg3) = Vr m d main_arg3
    ∧ s'.mem.mem ((d.tc : Thread nD τ).loc main_arg4) = Vr m d main_arg4 ∧ s'.mem.mem ((d.tc : Thread nD τ).loc main_arg5) = Vr m d main_arg5
    ∧ s'.mem.mem ((d.tc : Thread nD τ).loc main_arg6) = Vr m d main_arg6 ∧ s'.mem.mem ((d.tc : Thread nD τ).loc main_arg7) = Vr m d main_arg7

set_option backward.isDefEq.respectTransparency.types false in
set_option maxRecDepth 16384 in
theorem hfin (d : Dev nD) (s' : Phys nD τ sig (Elt F)) : iprop(Rr m d ∗ SI s') ⊢ (⌜fq m d s'⌝ : sProp 𝕄) := by
  iintro ⟨⟨Ha, Hz⟩, HSI⟩
  ihave Hr := (Pipeline.arrays_read (pcfgs (F := F)) adm (dat m) launch1.arr_whole d (share_full m d) _ s') $$ [Ha HSI]
  · isplitl [Ha] <;> iassumption
  icases Hr with ⟨%ha, HSI⟩
  ihave Hz' := (Entails.of_eq (unscopedRest1_eq d (Vr m d))) $$ Hz
  icases Hz' with ⟨H0, H1, H2, H3, H4, H5, H6, H7, -⟩
  ihave Hx := (read_whole _ _ s') $$ [HSI H0]; · isplitl [HSI] <;> iassumption
  icases Hx with ⟨%h0, HSI⟩
  ihave Hx := (read_whole _ _ s') $$ [HSI H1]; · isplitl [HSI] <;> iassumption
  icases Hx with ⟨%h1, HSI⟩
  ihave Hx := (read_whole _ _ s') $$ [HSI H2]; · isplitl [HSI] <;> iassumption
  icases Hx with ⟨%h2, HSI⟩
  ihave Hx := (read_whole _ _ s') $$ [HSI H3]; · isplitl [HSI] <;> iassumption
  icases Hx with ⟨%h3, HSI⟩
  ihave Hx := (read_whole _ _ s') $$ [HSI H4]; · isplitl [HSI] <;> iassumption
  icases Hx with ⟨%h4, HSI⟩
  ihave Hx := (read_whole _ _ s') $$ [HSI H5]; · isplitl [HSI] <;> iassumption
  icases Hx with ⟨%h5, HSI⟩
  ihave Hx := (read_whole _ _ s') $$ [HSI H6]; · isplitl [HSI] <;> iassumption
  icases Hx with ⟨%h6, HSI⟩
  ihave Hx := (read_whole _ _ s') $$ [HSI H7]; · isplitl [HSI] <;> iassumption
  icases Hx with ⟨%h7, -⟩
  ipureintro
  exact ⟨ha, h0, h1, h2, h3, h4, h5, h6, h7⟩

/-! ## The arguments are as launched -/

/-- The buffers the nine operations write. -/
def wlist : List (Ref sig .tc) := [main_v2, main_v3, main_v4, main_v5, main_v6, main_v7, main_v8, main_v9, main_v10]

theorem hostOps_writes : ∀ op ∈ hostOps (F := F), ∃ y ∈ wlist, op.writes = {dr y} := by
  intro op h
  simp only [hostOps, List.mem_cons, List.mem_nil_iff, or_false] at h
  rcases h with rfl | rfl | rfl | rfl | rfl | rfl | rfl | rfl | rfl
  · exact ⟨main_v2, by simp [wlist], rfl⟩
  · exact ⟨main_v3, by simp [wlist], rfl⟩
  · exact ⟨main_v4, by simp [wlist], rfl⟩
  · exact ⟨main_v5, by simp [wlist], rfl⟩
  · exact ⟨main_v6, by simp [wlist], rfl⟩
  · exact ⟨main_v7, by simp [wlist], rfl⟩
  · exact ⟨main_v8, by simp [wlist], rfl⟩
  · exact ⟨main_v9, by simp [wlist], rfl⟩
  · exact ⟨main_v10, by simp [wlist], rfl⟩

/-- A buffer that neither the reshape, nor the call, nor the nine operations write is, at the region's entry, as launched. -/
theorem Vr_unwritten (d : Dev nD) (r : Ref sig .tc) (h0 : r ≠ main_v0) (h1 : r ≠ main_v1) (hr : r ∉ wlist) :
    Vr m d r = m ((d.tc : Thread nD τ).loc r) := by
  show V3 m d (dr r) = _
  unfold V3
  rw [StableHlo.after_of_forall_not_mem (b := dr r) (hostOps (F := F)) (V2 m d) (fun op hop => by
    obtain ⟨y, hy, e⟩ := hostOps_writes op hop
    rw [e, Finset.mem_singleton]
    exact StableHlo.devRef_ne_of_ne fun e' => hr (e' ▸ hy))]
  unfold V2
  rw [Function.update_of_ne (StableHlo.devRef_ne_of_ne h1)]
  exact (op0 (F := F)).result_of_not_mem (V₀ m d) (by
    rw [show (op0 (F := F)).writes = {dr main_v0} from rfl, Finset.mem_singleton]; exact StableHlo.devRef_ne_of_ne h0)

/-! ## The run -/

/-- The result array after the run: what the pipeline's two write-backs leave of the entry contents. -/
abbrev resultOf (d : Dev nD) : Buf (Elt F) ((d.tc : Thread nD τ).loc main_v11) := (dat m 0 d).arrAt 7 cfg1.N

/-- The claim's post, the result named. -/
def QC : PUnit × MemSt nD τ sig (Elt F) → Prop := fun r => ∀ c : Dev nD,
  r.2.mem ((c.tc : Thread nD τ).loc main_v11) = resultOf m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

/-- The program's run: from any memory whose tokens name rows of the table, every weakly fair execution of all the
    threads terminates, nothing faulting; the result array ends at `resultOf`, the arguments unchanged. -/
theorem run_main [∀ e, Nonempty (Elt F e)] (hb : TileBodySpec (F := F))
    (hin : ∀ (d : Dev nD) j, (m ((d.tc : Thread nD τ).loc main_arg0) j).toNat < 100000) :
    θ_run (Cert.Kernel.defs (F := F)) (Cert.Kernel.threads (F := F)) ⟨m, fun _ => 0, ρ⟩ (QC m) :=
  run_main_of m ρ hb hin (Rr m) (region_spec m (bodySpec m)) (fq m) (hfin m) (QC m) fun s' h c => by
    obtain ⟨ha, h0, h1, h2, h3, h4, h5, h6, h7⟩ := h c
    refine ⟨ha 7, ?_, ?_, ?_, ?_, ?_, ?_, ?_, ?_⟩
    · rw [h0]; exact Vr_unwritten m c main_arg0 (by decide) (by decide) (by decide)
    · rw [h1]; exact Vr_unwritten m c main_arg1 (by decide) (by decide) (by decide)
    · rw [h2]; exact Vr_unwritten m c main_arg2 (by decide) (by decide) (by decide)
    · rw [h3]; exact Vr_unwritten m c main_arg3 (by decide) (by decide) (by decide)
    · rw [h4]; exact Vr_unwritten m c main_arg4 (by decide) (by decide) (by decide)
    · rw [h5]; exact Vr_unwritten m c main_arg5 (by decide) (by decide) (by decide)
    · rw [h6]; exact Vr_unwritten m c main_arg6 (by decide) (by decide) (by decide)
    · rw [h7]; exact Vr_unwritten m c main_arg7 (by decide) (by decide) (by decide)

end Cert.Kernel.Run

end
-- ==== Proof.AssembleK.lean ====
/-
  The frame of the program as printed, and the whole claim.

  The run of all the threads at the bit patterns ends with the arguments unchanged; with the frames at the ideal values,
  the ledger of the idealization and the comparison, that is everything the certificate claims, given the two bodies of
  a vector subcore's task.
-/
import proofs.«207436_g25675314495810_cont_9to1_828_42_alg».proof.Proof.Assemble
import proofs.«207436_g25675314495810_cont_9to1_828_42_alg».proof.Proof.LaunchRegionK

noncomputable section

namespace Cert.Assemble

open Idealize.ShloMosaic Idealize.SL.Sem

theorem frame_k (hb : Cert.Kernel.Run.TileBodySpec (F := Bits)) : Cert.frame_Kernel := fun m g hpre =>
  (θ_run (Cert.Kernel.defs (F := Bits)) _ _).mono (fun _ h c => (h c).2)
    (Cert.Kernel.Run.run_main (F := Bits) m g hb (Cert.PreText.text_inb_Kernel m hpre))

/-- Everything the certificate claims, from the two bodies of a vector subcore's task. -/
theorem claim_of (hbK : Cert.Kernel.Run.TileBodySpec (F := Bits)) (hbI : Cert.KernelIdeal.Run.TileBodySpec (F := Ideal)) :
    Cert.Claim :=
  ⟨Cert.Kernel.Gen.facts, Cert.KernelIdeal.Gen.facts, Cert.ReferenceIdeal.Gen.facts, Cert.Pre_input_domain.Gen.facts,
    frame_k hbK, frame_ki hbI, Cert.ReferenceIdeal.RefValue.frame_ri, Cert.Glue.preserves, algebraic hbI⟩

end Cert.Assemble

end
-- ==== Proof.TileRes.lean ====
/-
  One tile's working storage and how it is shared out: the row scratch is six disjoint slots of 100 × 128; a share
  of an array splits into six pieces (one per slot) and a remainder; the token scratch, once the tile's block of the
  token array is copied in, holds that block, every word of which names a row of the table.
-/
import proofs.«207436_g25675314495810_cont_9to1_828_42_alg».proof.Proof.TileDefs

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U] [CountersIn U]

local notation "𝕄" => MT nD τ sig (HIx 1) (Elt F) ℕ U ℕ

/-! ## The six slots of the row scratch -/

/-- Slot `k` of the row scratch: a 100 × 128 buffer, as the program addresses it. -/
abbrev slot0 : Memref sig .scVector .vmem S100x128 .f32 := ((sR.slice (Rect.unit (s := S6x100x128) ![0, 0, 0] S1x100x128.size inb_S6x100x128_S1x100x128_0_0_0) (fun _ => rfl)).squeeze S100x128 squeezes_S1x100x128_S100x128)
abbrev slot1 : Memref sig .scVector .vmem S100x128 .f32 := ((sR.slice (Rect.unit (s := S6x100x128) ![1, 0, 0] S1x100x128.size inb_S6x100x128_S1x100x128_1_0_0) (fun _ => rfl)).squeeze S100x128 squeezes_S1x100x128_S100x128)
abbrev slot2 : Memref sig .scVector .vmem S100x128 .f32 := ((sR.slice (Rect.unit (s := S6x100x128) ![2, 0, 0] S1x100x128.size inb_S6x100x128_S1x100x128_2_0_0) (fun _ => rfl)).squeeze S100x128 squeezes_S1x100x128_S100x128)
abbrev slot3 : Memref sig .scVector .vmem S100x128 .f32 := ((sR.slice (Rect.unit (s := S6x100x128) ![3, 0, 0] S1x100x128.size inb_S6x100x128_S1x100x128_3_0_0) (fun _ => rfl)).squeeze S100x128 squeezes_S1x100x128_S100x128)
abbrev slot4 : Memref sig .scVector .vmem S100x128 .f32 := ((sR.slice (Rect.unit (s := S6x100x128) ![4, 0, 0] S1x100x128.size inb_S6x100x128_S1x100x128_4_0_0) (fun _ => rfl)).squeeze S100x128 squeezes_S1x100x128_S100x128)
abbrev slot5 : Memref sig .scVector .vmem S100x128 .f32 := ((sR.slice (Rect.unit (s := S6x100x128) ![5, 0, 0] S1x100x128.size inb_S6x100x128_S1x100x128_5_0_0) (fun _ => rfl)).squeeze S100x128 squeezes_S1x100x128_S100x128)

theorem slot_set (off : Fin 3 → ℕ) (inb : ∀ a, off a + S1x100x128.size a ≤ S6x100x128.size a) :
    ((sR.slice (Rect.unit (s := S6x100x128) off S1x100x128.size inb) (fun _ => rfl)).squeeze S100x128 squeezes_S1x100x128_S100x128).view.set
      = (sR.view.slice (Rect.unit (s := S6x100x128) off S1x100x128.size inb)).set := by
  show (((sR).view.slice (Rect.unit (s := S6x100x128) off S1x100x128.size inb)).reshape S100x128 squeezes_S1x100x128_S100x128.numel_eq).set = _
  rw [View.set_reshape]

theorem slot_disj_1_0 : Disjoint slot1.view.set slot0.view.set := by
  rw [slot_set, slot_set]; exact View.disjoint_slice_of_disj _ _ _ (by decide)
theorem slot_disj_2_0 : Disjoint slot2.view.set slot0.view.set := by
  rw [slot_set, slot_set]; exact View.disjoint_slice_of_disj _ _ _ (by decide)
theorem slot_disj_2_1 : Disjoint slot2.view.set slot1.view.set := by
  rw [slot_set, slot_set]; exact View.disjoint_slice_of_disj _ _ _ (by decide)
theorem slot_disj_3_0 : Disjoint slot3.view.set slot0.view.set := by
  rw [slot_set, slot_set]; exact View.disjoint_slice_of_disj _ _ _ (by decide)
theorem slot_disj_3_1 : Disjoint slot3.view.set slot1.view.set := by
  rw [slot_set, slot_set]; exact View.disjoint_slice_of_disj _ _ _ (by decide)
theorem slot_disj_3_2 : Disjoint slot3.view.set slot2.view.set := by
  rw [slot_set, slot_set]; exact View.disjoint_slice_of_disj _ _ _ (by decide)
theorem slot_disj_4_0 : Disjoint slot4.view.set slot0.view.set := by
  rw [slot_set, slot_set]; exact View.disjoint_slice_of_disj _ _ _ (by decide)
theorem slot_disj_4_1 : Disjoint slot4.view.set slot1.view.set := by
  rw [slot_set, slot_set]; exact View.disjoint_slice_of_disj _ _ _ (by decide)
theorem slot_disj_4_2 : Disjoint slot4.view.set slot2.view.set := by
  rw [slot_set, slot_set]; exact View.disjoint_slice_of_disj _ _ _ (by decide)
theorem slot_disj_4_3 : Disjoint slot4.view.set slot3.view.set := by
  rw [slot_set, slot_set]; exact View.disjoint_slice_of_disj _ _ _ (by decide)
theorem slot_disj_5_0 : Disjoint slot5.view.set slot0.view.set := by
  rw [slot_set, slot_set]; exact View.disjoint_slice_of_disj _ _ _ (by decide)
theorem slot_disj_5_1 : Disjoint slot5.view.set slot1.view.set := by
  rw [slot_set, slot_set]; exact View.disjoint_slice_of_disj _ _ _ (by decide)
theorem slot_disj_5_2 : Disjoint slot5.view.set slot2.view.set := by
  rw [slot_set, slot_set]; exact View.disjoint_slice_of_disj _ _ _ (by decide)
theorem slot_disj_5_3 : Disjoint slot5.view.set slot3.view.set := by
  rw [slot_set, slot_set]; exact View.disjoint_slice_of_disj _ _ _ (by decide)
theorem slot_disj_5_4 : Disjoint slot5.view.set slot4.view.set := by
  rw [slot_set, slot_set]; exact View.disjoint_slice_of_disj _ _ _ (by decide)

/-! ## Splitting the row scratch into its slots -/

abbrev sR1 : Finset S6x100x128.Idx := Finset.univ \ slot0.view.set
abbrev sR2 : Finset S6x100x128.Idx := sR1 \ slot1.view.set
abbrev sR3 : Finset S6x100x128.Idx := sR2 \ slot2.view.set
abbrev sR4 : Finset S6x100x128.Idx := sR3 \ slot3.view.set
abbrev sR5 : Finset S6x100x128.Idx := sR4 \ slot4.view.set
abbrev sR6 : Finset S6x100x128.Idx := sR5 \ slot5.view.set

theorem slot1_sub : slot1.view.set ⊆ sR1 := Finset.subset_sdiff.mpr ⟨Finset.subset_univ _, slot_disj_1_0⟩
theorem slot2_sub1 : slot2.view.set ⊆ sR1 := Finset.subset_sdiff.mpr ⟨Finset.subset_univ _, slot_disj_2_0⟩
theorem slot2_sub : slot2.view.set ⊆ sR2 := Finset.subset_sdiff.mpr ⟨slot2_sub1, slot_disj_2_1⟩
theorem slot3_sub1 : slot3.view.set ⊆ sR1 := Finset.subset_sdiff.mpr ⟨Finset.subset_univ _, slot_disj_3_0⟩
theorem slot3_sub2 : slot3.view.set ⊆ sR2 := Finset.subset_sdiff.mpr ⟨slot3_sub1, slot_disj_3_1⟩
theorem slot3_sub : slot3.view.set ⊆ sR3 := Finset.subset_sdiff.mpr ⟨slot3_sub2, slot_disj_3_2⟩
theorem slot4_sub1 : slot4.view.set ⊆ sR1 := Finset.subset_sdiff.mpr ⟨Finset.subset_univ _, slot_disj_4_0⟩
theorem slot4_sub2 : slot4.view.set ⊆ sR2 := Finset.subset_sdiff.mpr ⟨slot4_sub1, slot_disj_4_1⟩
theorem slot4_sub3 : slot4.view.set ⊆ sR3 := Finset.subset_sdiff.mpr ⟨slot4_sub2, slot_disj_4_2⟩
theorem slot4_sub : slot4.view.set ⊆ sR4 := Finset.subset_sdiff.mpr ⟨slot4_sub3, slot_disj_4_3⟩
theorem slot5_sub1 : slot5.view.set ⊆ sR1 := Finset.subset_sdiff.mpr ⟨Finset.subset_univ _, slot_disj_5_0⟩
theorem slot5_sub2 : slot5.view.set ⊆ sR2 := Finset.subset_sdiff.mpr ⟨slot5_sub1, slot_disj_5_1⟩
theorem slot5_sub3 : slot5.view.set ⊆ sR3 := Finset.subset_sdiff.mpr ⟨slot5_sub2, slot_disj_5_2⟩
theorem slot5_sub4 : slot5.view.set ⊆ sR4 := Finset.subset_sdiff.mpr ⟨slot5_sub3, slot_disj_5_3⟩
theorem slot5_sub : slot5.view.set ⊆ sR5 := Finset.subset_sdiff.mpr ⟨slot5_sub4, slot_disj_5_4⟩

/-- The row scratch held whole is its six slots and the rest (which is empty, and is carried as it is). -/
theorem sR_split (d : Dev nD) (cc : Fin τ.nSC) (ii : Fin τ.nSub) (f : Buf (Elt F) (sR.view.loc (V d cc ii))) :
    (sR.view.loc (V d cc ii) ↦{fullShare} f : sProp 𝕄)
      ⊢ iprop((slot0.view.loc (V d cc ii) ↦[slot0.view.set]{fullShare} f) ∗ (slot1.view.loc (V d cc ii) ↦[slot1.view.set]{fullShare} f)
        ∗ (slot2.view.loc (V d cc ii) ↦[slot2.view.set]{fullShare} f) ∗ (slot3.view.loc (V d cc ii) ↦[slot3.view.set]{fullShare} f)
        ∗ (slot4.view.loc (V d cc ii) ↦[slot4.view.set]{fullShare} f) ∗ (slot5.view.loc (V d cc ii) ↦[slot5.view.set]{fullShare} f)
        ∗ (sR.view.loc (V d cc ii) ↦[sR6]{fullShare} f)) := by
  iintro H
  ihave H := (pointsTo_split_subset (ℓ := sR.view.loc (V d cc ii)) (q := fullShare) (f := f) (Finset.subset_univ slot0.view.set)).1 $$ H
  icases H with ⟨H0, H⟩
  ihave H := (pointsTo_split_subset (ℓ := sR.view.loc (V d cc ii)) (q := fullShare) (f := f) slot1_sub).1 $$ H
  icases H with ⟨H1, H⟩
  ihave H := (pointsTo_split_subset (ℓ := sR.view.loc (V d cc ii)) (q := fullShare) (f := f) slot2_sub).1 $$ H
  icases H with ⟨H2, H⟩
  ihave H := (pointsTo_split_subset (ℓ := sR.view.loc (V d cc ii)) (q := fullShare) (f := f) slot3_sub).1 $$ H
  icases H with ⟨H3, H⟩
  ihave H := (pointsTo_split_subset (ℓ := sR.view.loc (V d cc ii)) (q := fullShare) (f := f) slot4_sub).1 $$ H
  icases H with ⟨H4, H⟩
  ihave H := (pointsTo_split_subset (ℓ := sR.view.loc (V d cc ii)) (q := fullShare) (f := f) slot5_sub).1 $$ H
  icases H with ⟨H5, H⟩
  isplitl [H0]; · iexact H0
  isplitl [H1]; · iexact H1
  isplitl [H2]; · iexact H2
  isplitl [H3]; · iexact H3
  isplitl [H4]; · iexact H4
  isplitl [H5]; · iexact H5
  iexact H

/-- And back, each slot at whatever it holds. -/
theorem sR_join (d : Dev nD) (cc : Fin τ.nSC) (ii : Fin τ.nSub) (f : Buf (Elt F) (sR.view.loc (V d cc ii))) :
    iprop((∃ g, slot0.view.loc (V d cc ii) ↦[slot0.view.set]{fullShare} g) ∗ (∃ g, slot1.view.loc (V d cc ii) ↦[slot1.view.set]{fullShare} g)
        ∗ (∃ g, slot2.view.loc (V d cc ii) ↦[slot2.view.set]{fullShare} g) ∗ (∃ g, slot3.view.loc (V d cc ii) ↦[slot3.view.set]{fullShare} g)
        ∗ (∃ g, slot4.view.loc (V d cc ii) ↦[slot4.view.set]{fullShare} g) ∗ (∃ g, slot5.view.loc (V d cc ii) ↦[slot5.view.set]{fullShare} g)
        ∗ (sR.view.loc (V d cc ii) ↦[sR6]{fullShare} f))
      ⊢ (iprop(∃ g, sR.view.loc (V d cc ii) ↦{fullShare} g) : sProp 𝕄) := by
  iintro ⟨⟨%g0, H0⟩, ⟨%g1, H1⟩, ⟨%g2, H2⟩, ⟨%g3, H3⟩, ⟨%g4, H4⟩, ⟨%g5, H5⟩, H⟩
  ihave H := (pointsTo_join_subset (ℓ := sR.view.loc (V d cc ii)) (q := fullShare) slot5_sub) $$ [H5 H]; · isplitl [H5] <;> iassumption
  ihave H := (pointsTo_join_subset (ℓ := sR.view.loc (V d cc ii)) (q := fullShare) slot4_sub) $$ [H4 H]; · isplitl [H4] <;> iassumption
  ihave H := (pointsTo_join_subset (ℓ := sR.view.loc (V d cc ii)) (q := fullShare) slot3_sub) $$ [H3 H]; · isplitl [H3] <;> iassumption
  ihave H := (pointsTo_join_subset (ℓ := sR.view.loc (V d cc ii)) (q := fullShare) slot2_sub) $$ [H2 H]; · isplitl [H2] <;> iassumption
  ihave H := (pointsTo_join_subset (ℓ := sR.view.loc (V d cc ii)) (q := fullShare) slot1_sub) $$ [H1 H]; · isplitl [H1] <;> iassumption
  ihave H := (pointsTo_join_subset (ℓ := sR.view.loc (V d cc ii)) (q := fullShare) (Finset.subset_univ slot0.view.set)) $$ [H0 H]; · isplitl [H0] <;> iassumption
  iexists _; iexact H

/-! ## Six pieces of a share -/

abbrev sh0 (q : PosShare TreeShare) : PosShare TreeShare := q.left.left.left
abbrev sh1 (q : PosShare TreeShare) : PosShare TreeShare := q.left.left.right
abbrev sh2 (q : PosShare TreeShare) : PosShare TreeShare := q.left.right.left
abbrev sh3 (q : PosShare TreeShare) : PosShare TreeShare := q.left.right.right
abbrev sh4 (q : PosShare TreeShare) : PosShare TreeShare := q.right.left.left
abbrev sh5 (q : PosShare TreeShare) : PosShare TreeShare := q.right.left.right

/-- A points-to at a share is six pieces of the share and what is left of it. -/
theorem share_split {ℓ : Loc nD τ sig} (I : Finset (Idx ℓ)) (q : PosShare TreeShare) (f : Buf (Elt F) ℓ) :
    (ℓ ↦[I]{q} f : sProp 𝕄)
      ⊣⊢ iprop((ℓ ↦[I]{sh0 q} f) ∗ (ℓ ↦[I]{sh1 q} f) ∗ (ℓ ↦[I]{sh2 q} f) ∗ (ℓ ↦[I]{sh3 q} f) ∗ (ℓ ↦[I]{sh4 q} f) ∗ (ℓ ↦[I]{sh5 q} f)
        ∗ (ℓ ↦[I]{q.right.right} f)) := by
  have s (p : PosShare TreeShare) : (ℓ ↦[I]{p} f : sProp 𝕄) ⊣⊢ iprop((ℓ ↦[I]{p.left} f) ∗ ℓ ↦[I]{p.right} f) :=
    pointsTo_share (PosShare.mem_left_op_right p)
  constructor
  · iintro H
    ihave H := (s q).1 $$ H; icases H with ⟨HL, HR⟩
    ihave HL := (s q.left).1 $$ HL; icases HL with ⟨HLL, HLR⟩
    ihave HR := (s q.right).1 $$ HR; icases HR with ⟨HRL, HRR⟩
    ihave HLL := (s q.left.left).1 $$ HLL; icases HLL with ⟨H0, H1⟩
    ihave HLR := (s q.left.right).1 $$ HLR; icases HLR with ⟨H2, H3⟩
    ihave HRL := (s q.right.left).1 $$ HRL; icases HRL with ⟨H4, H5⟩
    isplitl [H0]; · iexact H0
    isplitl [H1]; · iexact H1
    isplitl [H2]; · iexact H2
    isplitl [H3]; · iexact H3
    isplitl [H4]; · iexact H4
    isplitl [H5]; · iexact H5
    iexact HRR
  · iintro ⟨H0, H1, H2, H3, H4, H5, HRR⟩
    ihave HLL := (s q.left.left).2 $$ [H0 H1]; · isplitl [H0] <;> iassumption
    ihave HLR := (s q.left.right).2 $$ [H2 H3]; · isplitl [H2] <;> iassumption
    ihave HRL := (s q.right.left).2 $$ [H4 H5]; · isplitl [H4] <;> iassumption
    ihave HL := (s q.left).2 $$ [HLL HLR]; · isplitl [HLL] <;> iassumption
    ihave HR := (s q.right).2 $$ [HRL HRR]; · isplitl [HRL] <;> iassumption
    iapply (s q).2; isplitl [HL] <;> iassumption

/-! ## The token scratch -/

/-- What the tile's token scratch holds once its block of the token array has been copied in. -/
abbrev idxScr (L : grid0.Coords) (fi : S32x256x100.Idx → BitVec 32) : S256x100.Idx → BitVec 32 := (iRowK L).view.read (Elt F) fi

theorem idxScr_inb (L : grid0.Coords) (fi : S32x256x100.Idx → BitVec 32) (hin : ∀ j, (fi j).toNat < 100000) (j : S256x100.Idx) :
    (idxScr (F := F) L fi j).toNat < 100000 := by
  rw [show idxScr (F := F) L fi j = fi ((iRowK L).view.emb j) from (View.read_apply _ _).trans (cast_eq _ _)]
  exact hin _

/-- One list of the token scratch, as the program addresses it. -/
abbrev rowV (off : Fin 2 → ℕ) (inb : ∀ a, off a + S1x100.size a ≤ S256x100.size a) : Memref sig .scVector .vmem S100 .i32 :=
  (sI.slice (Rect.unit (s := S256x100) off S1x100.size inb) (fun _ => rfl)).squeeze S100 squeezes_S1x100_S100

theorem rowV_inb (off : Fin 2 → ℕ) (inb : ∀ a, off a + S1x100.size a ≤ S256x100.size a) (f : S256x100.Idx → BitVec 32)
    (h : ∀ j, (f j).toNat < 100000) (x : S100.Idx) :
    ((rowV off inb).view.read (Elt F) f x).toNat < S100000x128.size gathers_S100000x128_S100x128.axis := by
  rw [show (rowV off inb).view.read (Elt F) f x = f ((rowV off inb).view.emb x) from (View.read_apply _ _).trans (cast_eq _ _)]
  exact h _

/-- The embedding table whole, as the program addresses it for a gather. -/
abbrev srcV : Memref sig .scVector .hbm S100000x128 .f32 :=
  eV.slice (Rect.unit (s := S100000x128) ![0, 0] S100000x128.size inb_S100000x128_S100000x128_0_0) (fun _ => rfl)

end Cert.KernelIdeal.Tile
end
-- ==== Proof.TileSlot.lean ====
/-
  A slot of the row scratch goes round three states: free (its buffer, a piece of the token scratch, a piece of
  the table, its semaphore at zero); busy (a gather of one list of the token scratch is in flight into it: row l
  of the slot will hold the table row that token l of the list names); loaded (the gather has landed). Issuing
  moves free to busy, the wait busy to loaded; reading the slot leaves it loaded, and a loaded slot is free.
-/
import proofs.«207436_g25675314495810_cont_9to1_828_42_alg».proof.Proof.TileRes

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U] [CountersIn U]

local notation "𝕄" => MT nD τ sig (HIx 1) (Elt F) ℕ U ℕ

/-! ## A slot's three states -/

variable (d : Dev nD) (L : grid0.Coords)

/-- Free: the slot's buffer at some contents, its pieces of the token scratch and of the table, its semaphore at zero. -/
def Free (dst : Memref sig .scVector .vmem S100x128 .f32) (sem : DmaSem sig) (qi qe : PosShare TreeShare)
    (fI : S256x100.Idx → BitVec 32) (fe : Buf (Elt F) (eLoc d)) : sProp 𝕄 :=
  iprop((∃ g, dst.view.loc (V d (cV L) (jV L)) ↦[dst.view.set]{fullShare} g) ∗ (sI.view.loc (V d (cV L) (jV L)) ↦{qi} fI)
    ∗ (eV.view.loc (V d (cV L) (jV L)) ↦{qe} fe) ∗ semVal (V d (cV L) (jV L), SemLoc.dma sem) 0)

/-- The rows a list of the token scratch names, gathered from the table. -/
abbrev gathered (fI : S256x100.Idx → BitVec 32) (hI : ∀ j, (fI j).toNat < 100000) (fe : S100000x128.Idx → F .f32)
    (off : Fin 2 → ℕ) (inb : ∀ a, off a + S1x100.size a ≤ S256x100.size a) : S100x128.Idx → F .f32 :=
  SparseCore.gatherPayload gathers_S100000x128_S100x128 (srcV.view.read (Elt F) fe)
    (SparseCore.rows ((rowV off inb).view.read (Elt F) fI) rfl (rowV_inb (F := F) off inb fI hI))

/-- Busy: a gather of list `off` into the slot is in flight; what is not in it of the slot's pieces is held beside. -/
def Busy (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a) : sProp 𝕄 :=
  iprop((∃ g, Transfers.Flight countersEmb (V d (cV L) (jV L)) (SemLoc.dma sem) (default : HIx 1) dst.view.dmaCredit
      (iprop((dst.view.loc (V d (cV L) (jV L)) ↦[dst.view.set]{fullShare}
                (dst.view.write (Elt F) g (gathered (F := F) fI hI fe off inb) Finset.univ))
          ∗ (srcV.view.loc (V d (cV L) (jV L)) ↦[srcV.view.set]{qe} fe)
          ∗ ((rowV off inb).view.loc (V d (cV L) (jV L)) ↦[(rowV off inb).view.set]{qi} fI))))
    ∗ (sI.view.loc (V d (cV L) (jV L)) ↦[Finset.univ \ (rowV off inb).view.set]{qi} fI)
    ∗ (eV.view.loc (V d (cV L) (jV L)) ↦[Finset.univ \ srcV.view.set]{qe} fe))

/-- Loaded: the gather has landed. -/
def Loaded (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a) : sProp 𝕄 :=
  iprop((∃ g, dst.view.loc (V d (cV L) (jV L)) ↦[dst.view.set]{fullShare}
                (dst.view.write (Elt F) g (gathered (F := F) fI hI fe off inb) Finset.univ))
    ∗ (sI.view.loc (V d (cV L) (jV L)) ↦{qi} fI)
    ∗ (eV.view.loc (V d (cV L) (jV L)) ↦{qe} fe) ∗ semVal (V d (cV L) (jV L), SemLoc.dma sem) 0)

variable [Infinite ℕ]

/-- Issuing the gather of list `off` into a free slot. -/
theorem issue_slot {α : Type} {Q : α → sProp 𝕄} (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a)
    {hp} {hn} {hsrc} {he} {hsp} {hr}
    (k : PUnit → Prog (TpuEff nD τ sig (Elt F) Λ₀ (.scVector (cV L) (jV L))) α) :
    Free (F := F) (U := U) d L dst sem qi qe fI fe
      ⊢ iprop((Busy (F := F) (U := U) d L dst sem qi qe fI hI fe off inb -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp srcV dst gathers_S100000x128_S100x128 (rowV off inb) hn sem hsrc he hsp hr >>= k) Q) := by
  unfold Free Busy
  iintro ⟨⟨%g, Hd⟩, Hi, He, Hs⟩ Hk
  ihave Hi := (pointsTo_split_subset (q := qi) (f := fI) (S := Finset.univ) (Finset.subset_univ (rowV off inb).view.set)).1 $$ Hi
  icases Hi with ⟨Hi, Hir⟩
  ihave He := (pointsTo_split_subset (q := qe) (f := fe) (S := Finset.univ) (Finset.subset_univ srcV.view.set)).1 $$ He
  icases He with ⟨He, Her⟩
  iapply (SparseCore.wp_indirectGatherLocal countersEmb 𝒱₀ (V d (cV L) (jV L)) none (hg := gathers_S100000x128_S100x128) (default : HIx 1)
      dst.view.dmaCredit (SparseCore.sum_rowCredit_eq_dmaCredit dst _ (fun _ => rfl)) (by decide) (rowV_inb (F := F) off inb fI hI)) $$ [He Hd Hi Hs]
  · isplitl [He]; · iexact He
    isplitl [Hd]; · iexact Hd
    isplitl [Hi]; · iexact Hi
    iexact Hs
  iintro Hfl
  iapply Hk
  isplitl [Hfl]; · iexists g; iexact Hfl
  isplitl [Hir]; · iexact Hir
  iexact Her

/-- Waiting for a slot's gather. -/
theorem wait_slot {α : Type} {Q : α → sProp 𝕄} (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a)
    {s' : Shape} {e' : EltTy} {sp' : Space} (srcw : Memref sig .scVector sp' s' e') {hsrc} {hdst}
    (O : CellTallies nD τ sig (HIx 1)) (W : Waits sig (HIx 1))
    (k : PUnit → Prog (TpuEff nD τ sig (Elt F) Λ₀ (.scVector (cV L) (jV L))) α) :
    iprop(Busy (F := F) (U := U) d L dst sem qi qe fI hI fe off inb ∗ owes (V d (cV L) (jV L)) O W
        ∗ Transfers.MayWaits (V d (cV L) (jV L)) (default : HIx 1) O)
      ⊢ iprop(((Loaded (F := F) (U := U) d L dst sem qi qe fI hI fe off inb ∗ owes (V d (cV L) (jV L)) O (insert (SemLoc.dma sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.waitIndirectGather sem srcw dst hsrc hdst >>= k) Q) := by
  unfold Busy Loaded
  iintro ⟨⟨⟨%g, Hfl⟩, Hir, Her⟩, HO, Hmw⟩ Hk
  iapply (Transfers.wp_waitLocalO countersEmb 𝒱₀ (V d (cV L) (jV L)) none (default : HIx 1) (rfl : dst.view.dmaCredit = _)) $$ [Hfl HO Hmw]
  · isplitl [Hfl]; · iexact Hfl
    isplitl [HO]; · iexact HO
    iapply (Transfers.MayWaits.elim (SemLoc.dma sem)); iexact Hmw
  iintro ⟨⟨Hd, He, Hi⟩, Hs, HO⟩
  ihave Hi := (pointsTo_split_subset (ℓ := sI.view.loc (V d (cV L) (jV L))) (q := qi) (f := fI) (S := Finset.univ) (Finset.subset_univ (rowV off inb).view.set)).2 $$ [Hi Hir]; · isplitl [Hi] <;> iassumption
  ihave He := (pointsTo_split_subset (ℓ := eV.view.loc (V d (cV L) (jV L))) (q := qe) (f := fe) (S := Finset.univ) (Finset.subset_univ srcV.view.set)).2 $$ [He Her]; · isplitl [He] <;> iassumption
  iapply Hk
  isplitr [HO]
  · isplitl [Hd]; · iexists g; iexact Hd
    isplitl [Hi]; · iexact Hi
    isplitl [He]; · iexact He
    iexact Hs
  · iexact HO

end Cert.KernelIdeal.Tile
end
-- ==== Proof.TileInv.lean ====
/-
  Before trip p of the group loop the tile has lists 6p, …, 6p+4 of its token scratch in flight into slots 0 … 4
  (none past list 255) and slot 5 free. A trip issues lists 6p+5 … 6p+10 where they exist, one before each wait, so
  the next trip finds the same picture six lists on.
-/
import proofs.«207436_g25675314495810_cont_9to1_828_42_alg».proof.Proof.TileSlot

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U] [CountersIn U]

local notation "𝕄" => MT nD τ sig (HIx 1) (Elt F) ℕ U ℕ

/-! ## Lists by number, and a slot's state before a trip of the group loop -/

variable (d : Dev nD) (L : grid0.Coords)

abbrev rowOff (n : ℕ) : Fin 2 → ℕ := ![n, 0]
theorem rowInb (n : ℕ) (h : n < 256) : ∀ a, rowOff n a + S1x100.size a ≤ S256x100.size a := by
  intro a
  match a with
  | ⟨0, _⟩ => show n + 1 ≤ 256; omega
  | ⟨1, _⟩ => show 0 + 100 ≤ 100; omega

/-- Busy with list `n` if there is such a list, else free. -/
def SlotSt (dst : Memref sig .scVector .vmem S100x128 .f32) (sem : DmaSem sig) (qi qe : PosShare TreeShare)
    (fI : S256x100.Idx → BitVec 32) (hI : ∀ j, (fI j).toNat < 100000) (fe : Buf (Elt F) (eLoc d)) (n : ℕ) : sProp 𝕄 :=
  if h : n < 256 then Busy (F := F) (U := U) d L dst sem qi qe fI hI fe (rowOff n) (rowInb n h)
  else Free (F := F) (U := U) d L dst sem qi qe fI fe

theorem SlotSt_busy (dst : Memref sig .scVector .vmem S100x128 .f32) (sem : DmaSem sig) (qi qe : PosShare TreeShare)
    (fI : S256x100.Idx → BitVec 32) (hI : ∀ j, (fI j).toNat < 100000) (fe : Buf (Elt F) (eLoc d)) (n : ℕ)
    (off : Fin 2 → ℕ) (inb : ∀ a, off a + S1x100.size a ≤ S256x100.size a) (e : off = rowOff n) (h : n < 256) :
    SlotSt (F := F) (U := U) d L dst sem qi qe fI hI fe n = Busy (F := F) (U := U) d L dst sem qi qe fI hI fe off inb := by
  subst e; unfold SlotSt; rw [dif_pos h]
theorem SlotSt_free (dst : Memref sig .scVector .vmem S100x128 .f32) (sem : DmaSem sig) (qi qe : PosShare TreeShare)
    (fI : S256x100.Idx → BitVec 32) (hI : ∀ j, (fI j).toNat < 100000) (fe : Buf (Elt F) (eLoc d)) (n : ℕ) (h : ¬ n < 256) :
    SlotSt (F := F) (U := U) d L dst sem qi qe fI hI fe n = Free (F := F) (U := U) d L dst sem qi qe fI fe := by
  unfold SlotSt; rw [dif_neg h]

/-- A loaded slot is free. -/
theorem Loaded_free (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a) :
    Loaded (F := F) (U := U) d L dst sem qi qe fI hI fe off inb ⊢ Free (F := F) (U := U) d L dst sem qi qe fI fe := by
  unfold Loaded Free
  iintro ⟨⟨%g, Hd⟩, Hi, He, Hs⟩
  isplitl [Hd]; · iexists _; iexact Hd
  isplitl [Hi]; · iexact Hi
  isplitl [He]; · iexact He
  iexact Hs

/-! ## The conditions of the group loop's issues -/

theorem cond1_true : ∀ k : Fin k0_t1_loop.trips, k0_cond1 k = 1#1 := by decide +kernel
theorem cond2_true : ∀ k : Fin k0_t1_loop.trips, k0_cond2 k = 1#1 := by decide +kernel
theorem cond3_true : ∀ k : Fin k0_t1_loop.trips, k0_cond3 k = 1#1 := by decide +kernel
theorem cond4_true : ∀ k : Fin k0_t1_loop.trips, k0_cond4 k = 1#1 := by decide +kernel
theorem cond5_true : ∀ k : Fin k0_t1_loop.trips, k0_cond5 k = 1#1 := by decide +kernel
theorem cond6_iff : ∀ k : Fin k0_t1_loop.trips, k0_cond6 k = 1#1 ↔ k.val < 41 := by decide +kernel
theorem trips_eq : k0_t1_loop.trips = 42 := by decide

/-- Before trip `p` of the group loop: lists 6p … 6p+4 are in flight into slots 0 … 4 (where there are such lists), slot 5
    is free, the pooled scratch holds what it holds, and the tile owes what it owed. -/
def grpInv (qe : PosShare TreeShare) (fI : S256x100.Idx → BitVec 32) (hI : ∀ j, (fI j).toNat < 100000) (fe : Buf (Elt F) (eLoc d))
    (O : CellTallies nD τ sig (HIx 1)) (W : Waits sig (HIx 1)) (p : ℕ) (_ : Unit) : sProp 𝕄 :=
  iprop(Transfers.MayWaits (V d (cV L) (jV L)) (default : HIx 1) O
    ∗ SlotSt (F := F) (U := U) d L slot0 cc0_scratch3.sem (sh0 fullShare) (sh0 qe) fI hI fe (6 * p + 0)
    ∗ SlotSt (F := F) (U := U) d L slot1 cc0_scratch4.sem (sh1 fullShare) (sh1 qe) fI hI fe (6 * p + 1)
    ∗ SlotSt (F := F) (U := U) d L slot2 cc0_scratch5.sem (sh2 fullShare) (sh2 qe) fI hI fe (6 * p + 2)
    ∗ SlotSt (F := F) (U := U) d L slot3 cc0_scratch6.sem (sh3 fullShare) (sh3 qe) fI hI fe (6 * p + 3)
    ∗ SlotSt (F := F) (U := U) d L slot4 cc0_scratch7.sem (sh4 fullShare) (sh4 qe) fI hI fe (6 * p + 4)
    ∗ Free (F := F) (U := U) d L slot5 cc0_scratch8.sem (sh5 fullShare) (sh5 qe) fI fe
    ∗ (∃ f, sA.view.loc (V d (cV L) (jV L)) ↦{fullShare} f)
    ∗ ∃ W', ⌜∀ p ∈ W', p ∈ W ∨ p.2 = none⌝ ∗ owes (V d (cV L) (jV L)) O W')

end Cert.KernelIdeal.Tile
end
-- ==== Proof.AccMath.lean ====
/-
  The accumulation of one batch row, as arithmetic.

  A batch row's sum is taken list by list: from an accumulator a, a list g of 100 table rows adds its entries of
  column e in order.  Two lists taken one after the other from zero — the first holding terms 0 … 99 of a sequence f,
  the second terms 100 … 199 — leave the running sum of f's first 200 terms from zero, in order.
-/
import proofs.«207436_g25675314495810_cont_9to1_828_42_alg».proof.Proof.TileDefs

noncomputable section

namespace Cert.KernelIdeal.Tile

open Cert.KernelIdeal Cert.KernelIdeal.Gen

open Idealize.ShloMosaic
open Idealize.ShloMosaic.ValueIdx

variable {F : FTy → Type} [FloatOps F]

/-- From accumulator `a`, the first `n` rows of list `g` added in order at column `e`. -/
def accList (g : S100x128.Idx → F .f32) (e : Fin 128) : ℕ → F .f32 → F .f32
  | 0, a => a
  | n + 1, a => FloatOps.addf (accList g e n a) (if h : n < 100 then g (ix2 ⟨n, h⟩ e) else FloatOps.ofBits .f32 0x00000000#32)

/-- A list holding the first terms of `f`, from zero: the running sum of `f`. -/
theorem accList_first (g0 : S100x128.Idx → F .f32) (e : Fin 128) (f : ℕ → F .f32)
    (h0 : ∀ l (h : l < 100), g0 (ix2 ⟨l, h⟩ e) = f l) :
    ∀ n, n ≤ 100 → accList g0 e n (FloatOps.ofBits .f32 0x00000000#32) = accF f n
  | 0, _ => rfl
  | n + 1, hn => by
    have hlt : n < 100 := by omega
    show FloatOps.addf (accList g0 e n _) (if h : n < 100 then g0 (ix2 ⟨n, h⟩ e) else _) = FloatOps.addf (accF f n) (f n)
    rw [accList_first g0 e f h0 n (by omega), dif_pos hlt, h0 n hlt]

/-- A list holding the terms of `f` from 100 on, from the running sum of the first 100: the running sum goes on. -/
theorem accList_second (g1 : S100x128.Idx → F .f32) (e : Fin 128) (f : ℕ → F .f32)
    (h1 : ∀ l (h : l < 100), g1 (ix2 ⟨l, h⟩ e) = f (100 + l)) :
    ∀ n, n ≤ 100 → accList g1 e n (accF f 100) = accF f (100 + n)
  | 0, _ => rfl
  | n + 1, hn => by
    have hlt : n < 100 := by omega
    show FloatOps.addf (accList g1 e n _) (if h : n < 100 then g1 (ix2 ⟨n, h⟩ e) else _) = FloatOps.addf (accF f (100 + n)) (f (100 + n))
    rw [accList_second g1 e f h1 n (by omega), dif_pos hlt, h1 n hlt]

/-- Two lists one after the other from zero: the running sum of the 200 terms. -/
theorem accList_two (g0 g1 : S100x128.Idx → F .f32) (e : Fin 128) (f : ℕ → F .f32)
    (h0 : ∀ l (h : l < 100), g0 (ix2 ⟨l, h⟩ e) = f l) (h1 : ∀ l (h : l < 100), g1 (ix2 ⟨l, h⟩ e) = f (100 + l)) :
    accList g1 e 100 (accList g0 e 100 (FloatOps.ofBits .f32 0x00000000#32)) = accF f 200 := by
  rw [accList_first g0 e f h0 100 (le_refl _), accList_second g1 e f h1 100 (le_refl _)]

end Cert.KernelIdeal.Tile

end
-- ==== Proof.GatherValue.lean ====
/-
  What a gather of one list of the token scratch brings into a slot. The tile's token scratch holds block wid of the
  token array (wid the tile's number): its entry (n, l) is the token array's entry (wid, n, l). List n of the scratch
  is its row n; the gather reads the embedding table whole, so row l of the slot is the table's row named by token l
  of list n of the tile's block — and batch row 128 wid + b is lists 2 b and 2 b + 1 of that block.
-/
import proofs.«207436_g25675314495810_cont_9to1_828_42_alg».proof.Proof.TileInv

noncomputable section

namespace Cert.KernelIdeal.Tile

open Cert.KernelIdeal Cert.KernelIdeal.Gen
open Idealize.ShloMosaic Idealize.ShloMosaic.ValueIdx

variable {F : FTy → Type} [FloatOps F] [Named F]

/-- A tile's number is below 32. -/
theorem wid_lt (L : grid0.Coords) : wid L < 32 := by
  have h0 : (L 0).val < 2 := (L 0).isLt
  have h1 : (L 1).val < 16 := (L 1).isLt
  unfold wid; omega

/-! ## The three views at an index -/

/-- The table addressed whole reads the table. -/
theorem srcV_read (fe : S100000x128.Idx → F .f32) (x : S100000x128.Idx) : srcV.view.read (Elt F) fe x = fe x := by
  rw [show srcV.view.read (Elt F) fe x = fe (srcV.view.emb x) from (View.read_apply _ _).trans (cast_eq _ _)]
  refine congrArg fe (funext fun a => Fin.ext ?_)
  match a with
  | ⟨0, _⟩ => show 0 + 1 * (x 0).val = (x 0).val; omega
  | ⟨1, _⟩ => show 0 + 1 * (x 1).val = (x 1).val; omega

/-- Entry l of list n of the token scratch sits at (n, l). -/
theorem rowV_emb (n : ℕ) (hn : n < 256) (x : S100.Idx) :
    (rowV (rowOff n) (rowInb n hn)).view.emb x
      = (ix2 (⟨n, hn⟩ : Fin 256) (⟨(x 0).val, (x 0).isLt⟩ : Fin 100) : S256x100.Idx) := by
  have hy : Shape.reshapeEquiv (s := S1x100) (s' := S100) squeezes_S1x100_S100.numel_eq x
      = (ix2 (0 : Fin 1) (⟨(x 0).val, (x 0).isLt⟩ : Fin 100) : S1x100.Idx) :=
    Shape.reshapeEquiv_eq_of_rowMajor _ (by
      rw [Shape.rowMajor_val_two, Shape.rowMajor_val_one]
      show 0 * 100 + (x 0).val = (x 0).val
      omega)
  show (Rect.unit (s := S256x100) (rowOff n) S1x100.size (rowInb n hn)).emb
    (Shape.reshapeEquiv (s := S1x100) (s' := S100) squeezes_S1x100_S100.numel_eq x) = _
  rw [hy]
  funext a; apply Fin.ext
  match a with
  | ⟨0, _⟩ => show n + 1 * 0 = n; omega
  | ⟨1, _⟩ => show 0 + 1 * (x 0).val = (x 0).val; omega

/-- Entry (n, l) of the tile's block of the token array sits at (wid, n, l). -/
theorem iRowK_emb (L : grid0.Coords) (j : S256x100.Idx) :
    (iRowK L).view.emb j
      = (ix3 (⟨wid L, wid_lt L⟩ : Fin 32) (⟨(j 0).val, idx2_lt0 j⟩ : Fin 256) (⟨(j 1).val, idx2_lt1 j⟩ : Fin 100) : S32x256x100.Idx) := by
  have hy : Shape.reshapeEquiv (s := S1x256x100) (s' := S256x100) squeezes_S1x256x100_S256x100.numel_eq j
      = (ix3 (0 : Fin 1) (⟨(j 0).val, idx2_lt0 j⟩ : Fin 256) (⟨(j 1).val, idx2_lt1 j⟩ : Fin 100) : S1x256x100.Idx) :=
    Shape.reshapeEquiv_eq_of_rowMajor _ (by
      rw [Shape.rowMajor_val_three, Shape.rowMajor_val_two]
      show (0 * 256 + (j 0).val) * 100 + (j 1).val = (j 0).val * 100 + (j 1).val
      omega)
  have h0 : k0_off1 L 0 = 2 * (L 1).val + (L 0).val := congrFun (k0_off1_eq L) 0
  have h1 : k0_off1 L 1 = 0 := congrFun (k0_off1_eq L) 1
  have h2 : k0_off1 L 2 = 0 := congrFun (k0_off1_eq L) 2
  show (Rect.unit (s := S32x256x100) (k0_off1 L) S1x256x100.size (k0_off1_inb L)).emb
    (Shape.reshapeEquiv (s := S1x256x100) (s' := S256x100) squeezes_S1x256x100_S256x100.numel_eq j) = _
  rw [hy]
  funext a; apply Fin.ext
  match a with
  | ⟨0, _⟩ => show k0_off1 L 0 + 1 * 0 = wid L; unfold wid; omega
  | ⟨1, _⟩ => show k0_off1 L 1 + 1 * (j 0).val = (j 0).val; omega
  | ⟨2, _⟩ => show k0_off1 L 2 + 1 * (j 1).val = (j 1).val; omega

/-- Entry x of list n of the token scratch, once the tile's block is copied in, is the token array's (wid, n, x). -/
theorem token_at (L : grid0.Coords) (fi : S32x256x100.Idx → BitVec 32) (n : ℕ) (hn : n < 256) (x : S100.Idx) :
    (rowV (rowOff n) (rowInb n hn)).view.read (Elt F) (idxScr (F := F) L fi) x
      = fi (ix3 (⟨wid L, wid_lt L⟩ : Fin 32) (⟨n, hn⟩ : Fin 256) (⟨(x 0).val, (x 0).isLt⟩ : Fin 100)) := by
  refine ((View.read_apply _ _).trans (cast_eq _ _)).trans ?_
  refine (congrArg (idxScr (F := F) L fi) (rowV_emb n hn x)).trans ?_
  refine ((View.read_apply _ _).trans (cast_eq _ _)).trans ?_
  exact congrArg fi (iRowK_emb L _)

/-- The position a one-axis list's k-th word sits at is k. -/
theorem rowMajor_symm_val (k : Fin S100.numel) : ((S100.rowMajor.symm k) 0).val = k.val := by
  have h := Shape.rowMajor_val_one (S100.rowMajor.symm k)
  rw [Equiv.apply_symm_apply] at h
  exact h.symm

/-! ## The gathered rows -/

/-- Row l of a slot filled from list n: the table's row that token l of list n of the tile's block names. -/
theorem gathered_apply (L : grid0.Coords) (fi : S32x256x100.Idx → BitVec 32) (hin : ∀ j, (fi j).toNat < 100000)
    (fe : S100000x128.Idx → F .f32) (n : ℕ) (hn : n < 256) (l : Fin 100) (e : Fin 128) :
    gathered (F := F) (idxScr (F := F) L fi) (idxScr_inb (F := F) L fi hin) fe (rowOff n) (rowInb n hn) (ix2 l e)
      = embAtF fe (fi (ix3 (⟨wid L, wid_lt L⟩ : Fin 32) (⟨n, hn⟩ : Fin 256) l)).toNat e := by
  have htok : (fi (ix3 (⟨wid L, wid_lt L⟩ : Fin 32) (⟨n, hn⟩ : Fin 256) l)).toNat < 100000 := hin _
  unfold embAtF
  rw [dif_pos htok]
  unfold gathered SparseCore.gatherPayload
  rw [srcV_read]
  refine congrArg fe (funext fun b => Fin.ext ?_)
  match b with
  | ⟨0, _⟩ =>
    refine (congrArg Fin.val (Shape.Gathers.idx_axis gathers_S100000x128_S100x128 _ (ix2 l e))).trans ?_
    unfold SparseCore.rows
    show ((rowV (rowOff n) (rowInb n hn)).view.read (Elt F) (idxScr (F := F) L fi) (S100.rowMajor.symm _)).toNat = _
    rw [token_at]
    refine congrArg (fun t : Fin 100 => (fi (ix3 (⟨wid L, wid_lt L⟩ : Fin 32) (⟨n, hn⟩ : Fin 256) t)).toNat) (Fin.ext ?_)
    exact rowMajor_symm_val _
  | ⟨1, _⟩ =>
    exact Shape.Gathers.idx_of_ne gathers_S100000x128_S100x128 _ (ix2 l e) ⟨1, by decide⟩ (by decide)

/-! ## Batch rows as lists of the tile's block -/

/-- Token 100 h + l of batch row 128 wid + b is token l of list 2 b + h of block wid. -/
theorem tokF_tile (L : grid0.Coords) (fi : S32x256x100.Idx → BitVec 32) (b : Fin 128) (h : Fin 2) (l : Fin 100) :
    tokF fi ⟨128 * wid L + b.val, by have := wid_lt L; have := b.isLt; omega⟩ ⟨100 * h.val + l.val, by have := h.isLt; have := l.isLt; omega⟩
      = (fi (ix3 (⟨wid L, wid_lt L⟩ : Fin 32) (⟨2 * b.val + h.val, by have := b.isLt; have := h.isLt; omega⟩ : Fin 256) l)).toNat := by
  have hw := wid_lt L; have hb := b.isLt; have hh := h.isLt; have hl := l.isLt
  unfold tokF
  refine congrArg (fun j => (fi j).toNat) (funext fun a => Fin.ext ?_)
  match a with
  | ⟨0, _⟩ => show (128 * wid L + b.val) / 128 = wid L; omega
  | ⟨1, _⟩ => show 2 * ((128 * wid L + b.val) % 128) + (100 * h.val + l.val) / 100 = 2 * b.val + h.val; omega
  | ⟨2, _⟩ => show (100 * h.val + l.val) % 100 = l.val; omega

end Cert.KernelIdeal.Tile

end
-- ==== Proof.TileVal.lean ====
/-
  The values behind the tile's loops. Reading a slot row by row adds, to lane x of register j, the slot's rows of
  column 16 j + x in order. A batch row takes two lists from zero and is stored times the scale: that is the pooled
  value of the row. Before trip p of the group loop rows 0 … 3p-1 of the pooled scratch hold their pooled values.
-/
import proofs.«207436_g25675314495810_cont_9to1_828_42_alg».proof.Proof.TileInv
import proofs.«207436_g25675314495810_cont_9to1_828_42_alg».proof.Proof.AccMath
import proofs.«207436_g25675314495810_cont_9to1_828_42_alg».proof.Proof.GatherValue

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U] [CountersIn U]

local notation "𝕄" => MT nD τ sig (HIx 1) (Elt F) ℕ U ℕ
variable (d : Dev nD) (L : grid0.Coords)

/-! ## Registers, and what a slot's rows add to them -/

/-- The kernel's eight registers of sixteen lanes. -/
abbrev T8 (F : FTy → Type) : Type := FVec F S16 .f32 × FVec F S16 .f32 × FVec F S16 .f32 × FVec F S16 .f32 × FVec F S16 .f32 × FVec F S16 .f32 × FVec F S16 .f32 × FVec F S16 .f32

/-- Register `j`. -/
def tget (a : T8 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

theorem col_lt (j : Fin 8) (x : Fin 16) : 16 * j.val + x.val < 128 := by omega

/-- While a slot holding `w` is read row by row: before row `t`, lane `x` of register `j` is its value at the start
    with rows 0 … t-1 of column 16 j + x added in order. -/
def accInv (dst : Memref sig .scVector .vmem S100x128 .f32) (g : dst.view.ty.Contents (Elt F)) (w : S100x128.Idx → F .f32) (a0 : T8 F)
    (t : ℕ) (a : T8 F) : sProp 𝕄 :=
  iprop((dst.view.loc (V d (cV L) (jV L)) ↦[dst.view.set]{fullShare} (dst.view.write (Elt F) g w Finset.univ))
    ∗ ⌜∀ (j : Fin 8) (x : Fin 16), tget a j (ix1 x) = accList w ⟨16 * j.val + x.val, col_lt j x⟩ t (tget a0 j (ix1 x))⌝)

/-- The pooled value of the tile's batch row `b`, column `e`. -/
def PV (fe : S100000x128.Idx → F .f32) (fi : S32x256x100.Idx → BitVec 32) (b e : Fin 128) : F .f32 :=
  pooledBuf scaleC fe fi (ix2 ⟨128 * wid L + b.val, by have := wid_lt L; omega⟩ e)

/-- Before trip `p` of the group loop (with values): as `grpInv`, and rows 0 … 3p-1 of the pooled scratch hold their pooled values. -/
def grpInvV (qe : PosShare TreeShare) (fi : S32x256x100.Idx → BitVec 32) (hin : ∀ j, (fi j).toNat < 100000) (fe : Buf (Elt F) (eLoc d))
    (O : CellTallies nD τ sig (HIx 1)) (W : Waits sig (HIx 1)) (p : ℕ) (_ : Unit) : sProp 𝕄 :=
  iprop(Transfers.MayWaits (V d (cV L) (jV L)) (default : HIx 1) O
    ∗ SlotSt (F := F) (U := U) d L slot0 cc0_scratch3.sem (sh0 fullShare) (sh0 qe) (idxScr (F := F) L fi) (idxScr_inb (F := F) L fi hin) fe (6 * p + 0)
    ∗ SlotSt (F := F) (U := U) d L slot1 cc0_scratch4.sem (sh1 fullShare) (sh1 qe) (idxScr (F := F) L fi) (idxScr_inb (F := F) L fi hin) fe (6 * p + 1)
    ∗ SlotSt (F := F) (U := U) d L slot2 cc0_scratch5.sem (sh2 fullShare) (sh2 qe) (idxScr (F := F) L fi) (idxScr_inb (F := F) L fi hin) fe (6 * p + 2)
    ∗ SlotSt (F := F) (U := U) d L slot3 cc0_scratch6.sem (sh3 fullShare) (sh3 qe) (idxScr (F := F) L fi) (idxScr_inb (F := F) L fi hin) fe (6 * p + 3)
    ∗ SlotSt (F := F) (U := U) d L slot4 cc0_scratch7.sem (sh4 fullShare) (sh4 qe) (idxScr (F := F) L fi) (idxScr_inb (F := F) L fi hin) fe (6 * p + 4)
    ∗ Free (F := F) (U := U) d L slot5 cc0_scratch8.sem (sh5 fullShare) (sh5 qe) (idxScr (F := F) L fi) fe
    ∗ (∃ f, (sA.view.loc (V d (cV L) (jV L)) ↦{fullShare} f)
        ∗ ⌜∀ (b e : Fin 128), b.val < 3 * p → f (ix2 b e) = PV (F := F) L fe fi b e⌝)
    ∗ ∃ W', ⌜∀ p ∈ W', p ∈ W ∨ p.2 = none⌝ ∗ owes (V d (cV L) (jV L)) O W')

end Cert.KernelIdeal.Tile
end
-- ==== Proof.RowOps.lean ====
/-
  Two register operations of the pooling task at an index. Adding to an accumulator the sixteen lanes
  [cc, cc + 16) of row tt of a slot whose contents were just written whole with w adds, at lane x, the entry
  w (tt, cc + x): a load through a 1 × 16 window reads the written contents at the window's places, and the cast of
  the 1 × 16 result to sixteen lanes keeps the lane. Storing the accumulator times a constant as a 1 × 16 row stores,
  at column y, lane y of the accumulator times the constant.
-/
import proofs.«207436_g25675314495810_cont_9to1_828_42_alg».proof.Proof.TileInv
import Idealize.ShloMosaic.Lib.ValueLayout

noncomputable section

namespace Cert.KernelIdeal.Tile

open Cert.KernelIdeal Cert.KernelIdeal.Gen
open Idealize.ShloMosaic Idealize.ShloMosaic.ValueIdx

variable {F : FTy → Type} [FloatOps F] [Named F]

/-- Lane x of an accumulator plus the lanes [cc, cc + 16) of row tt of a slot just written with w. -/
theorem addRow_apply (dst : Memref sig .scVector .vmem S100x128 .f32) (g : dst.view.ty.Contents (Elt F)) (w : S100x128.Idx → F .f32)
    (off : Fin 2 → ℕ) (inb : ∀ a, off a + S1x16.size a ≤ S100x128.size a) (tt cc : ℕ) (hoff : off = ![tt, cc])
    (htt : tt < 100) (hcc : cc + 16 ≤ 128) (acc : FVec F S16 .f32) (x : Fin 16) :
    addf acc (shapeCast S16 (View.readAt (Elt F) dst.view (Rect.unit (s := S100x128) off S1x16.size inb).toLoadRect
        (View.write (Elt F) dst.view g w Finset.univ)) shapeCasts_S1x16_S16) (ix1 x)
      = FloatOps.addf (acc (ix1 x)) (w (ix2 (⟨tt, htt⟩ : Fin 100) (⟨cc + x.val, by have := x.isLt; omega⟩ : Fin 128))) := by
  subst hoff
  show FloatOps.addf (acc (ix1 x)) (shapeCast S16 (View.readAt (Elt F) dst.view (Rect.unit (s := S100x128) ![tt, cc] S1x16.size inb).toLoadRect
        (View.write (Elt F) dst.view g w Finset.univ)) shapeCasts_S1x16_S16 (ix1 x)) = _
  refine congrArg (FloatOps.addf (acc (ix1 x))) ?_
  refine (shapeCast_1a_a_apply _ shapeCasts_S1x16_S16 x).trans ?_
  rw [View.readAt_apply, View.read_write_univ]
  refine congrArg w (funext fun a => Fin.ext ?_)
  match a with
  | ⟨0, _⟩ => show tt + 1 * 0 = tt; omega
  | ⟨1, _⟩ => show cc + 1 * x.val = cc + x.val; omega

/-- Column y of the product of two sixteen-lane vectors stored as a 1 × 16 row. -/
theorem mulRow_apply (acc v : FVec F S16 .f32) (y : S1x16.Idx) :
    shapeCast S1x16 (mulf acc v) shapeCasts_S16_S1x16 y
      = FloatOps.mulf (acc (ix1 (⟨(y 1).val, idx2_lt1 y⟩ : Fin 16))) (v (ix1 (⟨(y 1).val, idx2_lt1 y⟩ : Fin 16))) := by
  have hy : y = ix2 (⟨(y 0).val, idx2_lt0 y⟩ : Fin 1) (⟨(y 1).val, idx2_lt1 y⟩ : Fin 16) := by
    funext a; match a with | ⟨0, _⟩ => rfl | ⟨1, _⟩ => rfl
  refine (congrArg (shapeCast S1x16 (mulf acc v) shapeCasts_S16_S1x16) hy).trans ?_
  exact shapeCast_a_1a_apply (mulf acc v) shapeCasts_S16_S1x16 _ _

/-- Column y of the accumulator times a constant stored as a 1 × 16 row. -/
theorem storeRow_apply (acc : FVec F S16 .f32) (c : F .f32) (y : S1x16.Idx) :
    shapeCast S1x16 (mulf acc (broadcast S16 c)) shapeCasts_S16_S1x16 y
      = FloatOps.mulf (acc (ix1 (⟨(y 1).val, idx2_lt1 y⟩ : Fin 16))) c :=
  mulRow_apply acc (broadcast S16 c) y

/-- The store's payload is that row. -/
theorem k0_pay1_eq (acc v : FVec F S16 .f32) : k0_pay1 acc v = shapeCast S1x16 (mulf acc v) shapeCasts_S16_S1x16 := rfl
/-- The accumulation's payload is that sum. -/
theorem k0_pay2_eq (acc : FVec F S16 .f32) (r : Vec F S1x16 .f32) : k0_pay2 acc r = addf acc (shapeCast S16 r shapeCasts_S1x16_S16) := rfl

end Cert.KernelIdeal.Tile

end
-- ==== Proof.AccStore.lean ====
/-
  Reading the pooled scratch after the stores of one trip of the group loop, and after the stores of the two
  tail rows. A trip stores three batch rows, each as eight pieces of 16 columns: row 3 k + r, columns
  16 j … 16 j + 15. The pieces are pairwise disjoint, so an entry under piece (r, j) reads that piece's payload at
  its column within the piece, and an entry of a row the trip does not touch reads what the scratch held.
  Each reading removes the newer pieces one at a time (they miss the entry on the row axis, or, in the same
  row, on the column axis) and ends at the piece that holds the entry, or at the empty list.
-/
import proofs.«207436_g25675314495810_cont_9to1_828_42_alg».proof.Proof.TileDefs
import Idealize.ShloMosaic.Lib.WritesUnit
import Idealize.ShloMosaic.Lib.ValueIdx

noncomputable section

namespace Cert.KernelIdeal.Tile

open Cert.KernelIdeal Cert.KernelIdeal.Gen
open Idealize.ShloMosaic Idealize.ShloMosaic.ValueIdx

variable {F : FTy → Type} [FloatOps F] [Named F]

theorem trip_row_lt (k : Fin k0_t1_loop.trips) (r : ℕ) (hr : r < 3) : 3 * k.val + r < 128 := by
  have h := k.isLt
  have e : k0_t1_loop.trips = 42 := by decide
  omega
theorem piece_col_lt (j : ℕ) (hj : j < 8) (x : Fin 16) : 16 * j + x.val < 128 := by have := x.isLt; omega

/-- The scratch of pooled rows, as a view. -/
abbrev accV : View sig .scVector .vmem S128x128 .f32 := (Memref.whole cc0_scratch2 : Memref sig .scVector .vmem S128x128 .f32).view

/-- The stores of trip `k`, the newest first: rows `3 k + 2`, `3 k + 1`, `3 k`, each its pieces 7 … 0. -/
def tripPieces (k : Fin k0_t1_loop.trips) (p27 p26 p25 p24 p23 p22 p21 p20 p17 p16 p15 p14 p13 p12 p11 p10 p07 p06 p05 p04 p03 p02 p01 p00 : S1x16.Idx → F .f32) : List (View.Piece (Elt F) S128x128 .f32) :=
  [⟨Rect.unit (s := S128x128) (k0_off28 k 2#32) S1x16.size (k0_off28_inb k 2), p27⟩,
   ⟨Rect.unit (s := S128x128) (k0_off27 k 2#32) S1x16.size (k0_off27_inb k 2), p26⟩,
   ⟨Rect.unit (s := S128x128) (k0_off26 k 2#32) S1x16.size (k0_off26_inb k 2), p25⟩,
   ⟨Rect.unit (s := S128x128) (k0_off25 k 2#32) S1x16.size (k0_off25_inb k 2), p24⟩,
   ⟨Rect.unit (s := S128x128) (k0_off24 k 2#32) S1x16.size (k0_off24_inb k 2), p23⟩,
   ⟨Rect.unit (s := S128x128) (k0_off23 k 2#32) S1x16.size (k0_off23_inb k 2), p22⟩,
   ⟨Rect.unit (s := S128x128) (k0_off22 k 2#32) S1x16.size (k0_off22_inb k 2), p21⟩,
   ⟨Rect.unit (s := S128x128) (k0_off21 k 2#32) S1x16.size (k0_off21_inb k 2), p20⟩,
   ⟨Rect.unit (s := S128x128) (k0_off28 k 1#32) S1x16.size (k0_off28_inb k 1), p17⟩,
   ⟨Rect.unit (s := S128x128) (k0_off27 k 1#32) S1x16.size (k0_off27_inb k 1), p16⟩,
   ⟨Rect.unit (s := S128x128) (k0_off26 k 1#32) S1x16.size (k0_off26_inb k 1), p15⟩,
   ⟨Rect.unit (s := S128x128) (k0_off25 k 1#32) S1x16.size (k0_off25_inb k 1), p14⟩,
   ⟨Rect.unit (s := S128x128) (k0_off24 k 1#32) S1x16.size (k0_off24_inb k 1), p13⟩,
   ⟨Rect.unit (s := S128x128) (k0_off23 k 1#32) S1x16.size (k0_off23_inb k 1), p12⟩,
   ⟨Rect.unit (s := S128x128) (k0_off22 k 1#32) S1x16.size (k0_off22_inb k 1), p11⟩,
   ⟨Rect.unit (s := S128x128) (k0_off21 k 1#32) S1x16.size (k0_off21_inb k 1), p10⟩,
   ⟨Rect.unit (s := S128x128) (k0_off28 k 0#32) S1x16.size (k0_off28_inb k 0), p07⟩,
   ⟨Rect.unit (s := S128x128) (k0_off27 k 0#32) S1x16.size (k0_off27_inb k 0), p06⟩,
   ⟨Rect.unit (s := S128x128) (k0_off26 k 0#32) S1x16.size (k0_off26_inb k 0), p05⟩,
   ⟨Rect.unit (s := S128x128) (k0_off25 k 0#32) S1x16.size (k0_off25_inb k 0), p04⟩,
   ⟨Rect.unit (s := S128x128) (k0_off24 k 0#32) S1x16.size (k0_off24_inb k 0), p03⟩,
   ⟨Rect.unit (s := S128x128) (k0_off23 k 0#32) S1x16.size (k0_off23_inb k 0), p02⟩,
   ⟨Rect.unit (s := S128x128) (k0_off22 k 0#32) S1x16.size (k0_off22_inb k 0), p01⟩,
   ⟨Rect.unit (s := S128x128) (k0_off21 k 0#32) S1x16.size (k0_off21_inb k 0), p00⟩]

/-- Row `3 k + 0`, columns `0 … 15`: piece (0, 0)'s payload. -/
theorem sA_trip_hit_0_0 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 0 + x.val) :
    (accV.writes (Elt F) fA (tripPieces k p27 p26 p25 p24 p23 p22 p21 p20 p17 p16 p15 p14 p13 p12 p11 p10 p07 p06 p05 p04 p03 p02 p01 p00)) y = p00 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  refine (View.read_writes_cons_unit_of_not_mem (Val := Elt F) accV fA _ _ _ y (show k0_off25 k 0#32 = ![3 * k.val + 0, 64] from k0_off25_eq k 0) 1 (Or.inl (by show (y 1).val < 64; omega))).trans ?_
  refine (View.read_writes_cons_unit_of_not_mem (Val := Elt F) accV fA _ _ _ y (show k0_off24 k 0#32 = ![3 * k.val + 0, 48] from k0_off24_eq k 0) 1 (Or.inl (by show (y 1).val < 48; omega))).trans ?_
  refine (View.read_writes_cons_unit_of_not_mem (Val := Elt F) accV fA _ _ _ y (show k0_off23 k 0#32 = ![3 * k.val + 0, 32] from k0_off23_eq k 0) 1 (Or.inl (by show (y 1).val < 32; omega))).trans ?_
  refine (View.read_writes_cons_unit_of_not_mem (Val := Elt F) accV fA _ _ _ y (show k0_off22 k 0#32 = ![3 * k.val + 0, 16] from k0_off22_eq k 0) 1 (Or.inl (by show (y 1).val < 16; omega))).trans ?_
  exact View.read_writes_cons_unit_of_mem (Val := Elt F) accV fA _ _ _ y (ix2 (0 : Fin 1) x) (show k0_off21 k 0#32 = ![3 * k.val + 0, 0] from k0_off21_eq k 0) (Fin.forall_fin_two.mpr ⟨by show (y 0).val = 3 * k.val + 0 + 0; omega, by show (y 1).val = 0 + x.val; omega⟩)

/-- Row `3 k + 0`, columns `16 … 31`: piece (0, 1)'s payload. -/
theorem sA_trip_hit_0_1 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 1 + x.val) :
    (accV.writes (Elt F) fA (tripPieces k p27 p26 p25 p24 p23 p22 p21 p20 p17 p16 p15 p14 p13 p12 p11 p10 p07 p06 p05 p04 p03 p02 p01 p00)) y = p01 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  refine (View.read_writes_cons_unit_of_not_mem (Val := Elt F) accV fA _ _ _ y (show k0_off25 k 0#32 = ![3 * k.val + 0, 64] from k0_off25_eq k 0) 1 (Or.inl (by show (y 1).val < 64; omega))).trans ?_
  refine (View.read_writes_cons_unit_of_not_mem (Val := Elt F) accV fA _ _ _ y (show k0_off24 k 0#32 = ![3 * k.val + 0, 48] from k0_off24_eq k 0) 1 (Or.inl (by show (y 1).val < 48; omega))).trans ?_
  refine (View.read_writes_cons_unit_of_not_mem (Val := Elt F) accV fA _ _ _ y (show k0_off23 k 0#32 = ![3 * k.val + 0, 32] from k0_off23_eq k 0) 1 (Or.inl (by show (y 1).val < 32; omega))).trans ?_
  exact View.read_writes_cons_unit_of_mem (Val := Elt F) accV fA _ _ _ y (ix2 (0 : Fin 1) x) (show k0_off22 k 0#32 = ![3 * k.val + 0, 16] from k0_off22_eq k 0) (Fin.forall_fin_two.mpr ⟨by show (y 0).val = 3 * k.val + 0 + 0; omega, by show (y 1).val = 16 + x.val; omega⟩)

/-- Row `3 k + 0`, columns `32 … 47`: piece (0, 2)'s payload. -/
theorem sA_trip_hit_0_2 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 2 + x.val) :
    (accV.writes (Elt F) fA (tripPieces k p27 p26 p25 p24 p23 p22 p21 p20 p17 p16 p15 p14 p13 p12 p11 p10 p07 p06 p05 p04 p03 p02 p01 p00)) y = p02 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  refine (View.read_writes_cons_unit_of_not_mem (Val := Elt F) accV fA _ _ _ y (show k0_off25 k 0#32 = ![3 * k.val + 0, 64] from k0_off25_eq k 0) 1 (Or.inl (by show (y 1).val < 64; omega))).trans ?_
  refine (View.read_writes_cons_unit_of_not_mem (Val := Elt F) accV fA _ _ _ y (show k0_off24 k 0#32 = ![3 * k.val + 0, 48] from k0_off24_eq k 0) 1 (Or.inl (by show (y 1).val < 48; omega))).trans ?_
  exact View.read_writes_cons_unit_of_mem (Val := Elt F) accV fA _ _ _ y (ix2 (0 : Fin 1) x) (show k0_off23 k 0#32 = ![3 * k.val + 0, 32] from k0_off23_eq k 0) (Fin.forall_fin_two.mpr ⟨by show (y 0).val = 3 * k.val + 0 + 0; omega, by show (y 1).val = 32 + x.val; omega⟩)

/-- Row `3 k + 0`, columns `48 … 63`: piece (0, 3)'s payload. -/
theorem sA_trip_hit_0_3 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 3 + x.val) :
    (accV.writes (Elt F) fA (tripPieces k p27 p26 p25 p24 p23 p22 p21 p20 p17 p16 p15 p14 p13 p12 p11 p10 p07 p06 p05 p04 p03 p02 p01 p00)) y = p03 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  refine (View.read_writes_cons_unit_of_not_mem (Val := Elt F) accV fA _ _ _ y (show k0_off25 k 0#32 = ![3 * k.val + 0, 64] from k0_off25_eq k 0) 1 (Or.inl (by show (y 1).val < 64; omega))).trans ?_
  exact View.read_writes_cons_unit_of_mem (Val := Elt F) accV fA _ _ _ y (ix2 (0 : Fin 1) x) (show k0_off24 k 0#32 = ![3 * k.val + 0, 48] from k0_off24_eq k 0) (Fin.forall_fin_two.mpr ⟨by show (y 0).val = 3 * k.val + 0 + 0; omega, by show (y 1).val = 48 + x.val; omega⟩)

/-- Row `3 k + 0`, columns `64 … 79`: piece (0, 4)'s payload. -/
theorem sA_trip_hit_0_4 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 4 + x.val) :
    (accV.writes (Elt F) fA (tripPieces k p27 p26 p25 p24 p23 p22 p21 p20 p17 p16 p15 p14 p13 p12 p11 p10 p07 p06 p05 p04 p03 p02 p01 p00)) y = p04 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  exact View.read_writes_cons_unit_of_mem (Val := Elt F) accV fA _ _ _ y (ix2 (0 : Fin 1) x) (show k0_off25 k 0#32 = ![3 * k.val + 0, 64] from k0_off25_eq k 0) (Fin.forall_fin_two.mpr ⟨by show (y 0).val = 3 * k.val + 0 + 0; omega, by show (y 1).val = 64 + x.val; omega⟩)

/-- Row `3 k + 0`, columns `80 … 95`: piece (0, 5)'s payload. -/
theorem sA_trip_hit_0_5 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 5 + x.val) :
    (accV.writes (Elt F) fA (tripPieces k p27 p26 p25 p24 p23 p22 p21 p20 p17 p16 p15 p14 p13 p12 p11 p10 p07 p06 p05 p04 p03 p02 p01 p00)) y = p05 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  exact View.read_writes_cons_unit_of_mem (Val := Elt F) accV fA _ _ _ y (ix2 (0 : Fin 1) x) (show k0_off26 k 0#32 = ![3 * k.val + 0, 80] from k0_off26_eq k 0) (Fin.forall_fin_two.mpr ⟨by show (y 0).val = 3 * k.val + 0 + 0; omega, by show (y 1).val = 80 + x.val; omega⟩)

/-- Row `3 k + 0`, columns `96 … 111`: piece (0, 6)'s payload. -/
theorem sA_trip_hit_0_6 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 6 + x.val) :
    (accV.writes (Elt F) fA (tripPieces k p27 p26 p25 p24 p23 p22 p21 p20 p17 p16 p15 p14 p13 p12 p11 p10 p07 p06 p05 p04 p03 p02 p01 p00)) y = p06 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  exact View.read_writes_cons_unit_of_mem (Val := Elt F) accV fA _ _ _ y (ix2 (0 : Fin 1) x) (show k0_off27 k 0#32 = ![3 * k.val + 0, 96] from k0_off27_eq k 0) (Fin.forall_fin_two.mpr ⟨by show (y 0).val = 3 * k.val + 0 + 0; omega, by show (y 1).val = 96 + x.val; omega⟩)

/-- Row `3 k + 0`, columns `112 … 127`: piece (0, 7)'s payload. -/
theorem sA_trip_hit_0_7 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 7 + x.val) :
    (accV.writes (Elt F) fA (tripPieces k p27 p26 p25 p24 p23 p22 p21 p20 p17 p16 p15 p14 p13 p12 p11 p10 p07 p06 p05 p04 p03 p02 p01 p00)) y = p07 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  exact View.read_writes_cons_unit_of_mem (Val := Elt F) accV fA _ _ _ y (ix2 (0 : Fin 1) x) (show k0_off28 k 0#32 = ![3 * k.val + 0, 112] from k0_off28_eq k 0) (Fin.forall_fin_two.mpr ⟨by show (y 0).val = 3 * k.val + 0 + 0; omega, by show (y 1).val = 112 + x.val; omega⟩)

/-- Row `3 k + 1`, columns `0 … 15`: piece (1, 0)'s payload. -/
theorem sA_trip_hit_1_0 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 0 + x.val) :
    (accV.writes (Elt F) fA (tripPieces k p27 p26 p25 p24 p23 p22 p21 p20 p17 p16 p15 p14 p13 p12 p11 p10 p07 p06 p05 p04 p03 p02 p01 p00)) y = p10 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  refine (View.read_writes_cons_unit_of_not_mem (Val := Elt F) accV fA _ _ _ y (show k0_off25 k 1#32 = ![3 * k.val + 1, 64] from k0_off25_eq k 1) 1 (Or.inl (by show (y 1).val < 64; omega))).trans ?_
  refine (View.read_writes_cons_unit_of_not_mem (Val := Elt F) accV fA _ _ _ y (show k0_off24 k 1#32 = ![3 * k.val + 1, 48] from k0_off24_eq k 1) 1 (Or.inl (by show (y 1).val < 48; omega))).trans ?_
  refine (View.read_writes_cons_unit_of_not_mem (Val := Elt F) accV fA _ _ _ y (show k0_off23 k 1#32 = ![3 * k.val + 1, 32] from k0_off23_eq k 1) 1 (Or.inl (by show (y 1).val < 32; omega))).trans ?_
  refine (View.read_writes_cons_unit_of_not_mem (Val := Elt F) accV fA _ _ _ y (show k0_off22 k 1#32 = ![3 * k.val + 1, 16] from k0_off22_eq k 1) 1 (Or.inl (by show (y 1).val < 16; omega))).trans ?_
  exact View.read_writes_cons_unit_of_mem (Val := Elt F) accV fA _ _ _ y (ix2 (0 : Fin 1) x) (show k0_off21 k 1#32 = ![3 * k.val + 1, 0] from k0_off21_eq k 1) (Fin.forall_fin_two.mpr ⟨by show (y 0).val = 3 * k.val + 1 + 0; omega, by show (y 1).val = 0 + x.val; omega⟩)

/-- Row `3 k + 1`, columns `16 … 31`: piece (1, 1)'s payload. -/
theorem sA_trip_hit_1_1 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 1 + x.val) :
    (accV.writes (Elt F) fA (tripPieces k p27 p26 p25 p24 p23 p22 p21 p20 p17 p16 p15 p14 p13 p12 p11 p10 p07 p06 p05 p04 p03 p02 p01 p00)) y = p11 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  refine (View.read_writes_cons_unit_of_not_mem (Val := Elt F) accV fA _ _ _ y (show k0_off25 k 1#32 = ![3 * k.val + 1, 64] from k0_off25_eq k 1) 1 (Or.inl (by show (y 1).val < 64; omega))).trans ?_
  refine (View.read_writes_cons_unit_of_not_mem (Val := Elt F) accV fA _ _ _ y (show k0_off24 k 1#32 = ![3 * k.val + 1, 48] from k0_off24_eq k 1) 1 (Or.inl (by show (y 1).val < 48; omega))).trans ?_
  refine (View.read_writes_cons_unit_of_not_mem (Val := Elt F) accV fA _ _ _ y (show k0_off23 k 1#32 = ![3 * k.val + 1, 32] from k0_off23_eq k 1) 1 (Or.inl (by show (y 1).val < 32; omega))).trans ?_
  exact View.read_writes_cons_unit_of_mem (Val := Elt F) accV fA _ _ _ y (ix2 (0 : Fin 1) x) (show k0_off22 k 1#32 = ![3 * k.val + 1, 16] from k0_off22_eq k 1) (Fin.forall_fin_two.mpr ⟨by show (y 0).val = 3 * k.val + 1 + 0; omega, by show (y 1).val = 16 + x.val; omega⟩)

/-- Row `3 k + 1`, columns `32 … 47`: piece (1, 2)'s payload. -/
theorem sA_trip_hit_1_2 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 2 + x.val) :
    (accV.writes (Elt F) fA (tripPieces k p27 p26 p25 p24 p23 p22 p21 p20 p17 p16 p15 p14 p13 p12 p11 p10 p07 p06 p05 p04 p03 p02 p01 p00)) y = p12 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  refine (View.read_writes_cons_unit_of_not_mem (Val := Elt F) accV fA _ _ _ y (show k0_off25 k 1#32 = ![3 * k.val + 1, 64] from k0_off25_eq k 1) 1 (Or.inl (by show (y 1).val < 64; omega))).trans ?_
  refine (View.read_writes_cons_unit_of_not_mem (Val := Elt F) accV fA _ _ _ y (show k0_off24 k 1#32 = ![3 * k.val + 1, 48] from k0_off24_eq k 1) 1 (Or.inl (by show (y 1).val < 48; omega))).trans ?_
  exact View.read_writes_cons_unit_of_mem (Val := Elt F) accV fA _ _ _ y (ix2 (0 : Fin 1) x) (show k0_off23 k 1#32 = ![3 * k.val + 1, 32] from k0_off23_eq k 1) (Fin.forall_fin_two.mpr ⟨by show (y 0).val = 3 * k.val + 1 + 0; omega, by show (y 1).val = 32 + x.val; omega⟩)

/-- Row `3 k + 1`, columns `48 … 63`: piece (1, 3)'s payload. -/
theorem sA_trip_hit_1_3 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 3 + x.val) :
    (accV.writes (Elt F) fA (tripPieces k p27 p26 p25 p24 p23 p22 p21 p20 p17 p16 p15 p14 p13 p12 p11 p10 p07 p06 p05 p04 p03 p02 p01 p00)) y = p13 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  refine (View.read_writes_cons_unit_of_not_mem (Val := Elt F) accV fA _ _ _ y (show k0_off25 k 1#32 = ![3 * k.val + 1, 64] from k0_off25_eq k 1) 1 (Or.inl (by show (y 1).val < 64; omega))).trans ?_
  exact View.read_writes_cons_unit_of_mem (Val := Elt F) accV fA _ _ _ y (ix2 (0 : Fin 1) x) (show k0_off24 k 1#32 = ![3 * k.val + 1, 48] from k0_off24_eq k 1) (Fin.forall_fin_two.mpr ⟨by show (y 0).val = 3 * k.val + 1 + 0; omega, by show (y 1).val = 48 + x.val; omega⟩)

/-- Row `3 k + 1`, columns `64 … 79`: piece (1, 4)'s payload. -/
theorem sA_trip_hit_1_4 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 4 + x.val) :
    (accV.writes (Elt F) fA (tripPieces k p27 p26 p25 p24 p23 p22 p21 p20 p17 p16 p15 p14 p13 p12 p11 p10 p07 p06 p05 p04 p03 p02 p01 p00)) y = p14 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  exact View.read_writes_cons_unit_of_mem (Val := Elt F) accV fA _ _ _ y (ix2 (0 : Fin 1) x) (show k0_off25 k 1#32 = ![3 * k.val + 1, 64] from k0_off25_eq k 1) (Fin.forall_fin_two.mpr ⟨by show (y 0).val = 3 * k.val + 1 + 0; omega, by show (y 1).val = 64 + x.val; omega⟩)

/-- Row `3 k + 1`, columns `80 … 95`: piece (1, 5)'s payload. -/
theorem sA_trip_hit_1_5 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 5 + x.val) :
    (accV.writes (Elt F) fA (tripPieces k p27 p26 p25 p24 p23 p22 p21 p20 p17 p16 p15 p14 p13 p12 p11 p10 p07 p06 p05 p04 p03 p02 p01 p00)) y = p15 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  exact View.read_writes_cons_unit_of_mem (Val := Elt F) accV fA _ _ _ y (ix2 (0 : Fin 1) x) (show k0_off26 k 1#32 = ![3 * k.val + 1, 80] from k0_off26_eq k 1) (Fin.forall_fin_two.mpr ⟨by show (y 0).val = 3 * k.val + 1 + 0; omega, by show (y 1).val = 80 + x.val; omega⟩)

/-- Row `3 k + 1`, columns `96 … 111`: piece (1, 6)'s payload. -/
theorem sA_trip_hit_1_6 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 6 + x.val) :
    (accV.writes (Elt F) fA (tripPieces k p27 p26 p25 p24 p23 p22 p21 p20 p17 p16 p15 p14 p13 p12 p11 p10 p07 p06 p05 p04 p03 p02 p01 p00)) y = p16 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  exact View.read_writes_cons_unit_of_mem (Val := Elt F) accV fA _ _ _ y (ix2 (0 : Fin 1) x) (show k0_off27 k 1#32 = ![3 * k.val + 1, 96] from k0_off27_eq k 1) (Fin.forall_fin_two.mpr ⟨by show (y 0).val = 3 * k.val + 1 + 0; omega, by show (y 1).val = 96 + x.val; omega⟩)

/-- Row `3 k + 1`, columns `112 … 127`: piece (1, 7)'s payload. -/
theorem sA_trip_hit_1_7 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 7 + x.val) :
    (accV.writes (Elt F) fA (tripPieces k p27 p26 p25 p24 p23 p22 p21 p20 p17 p16 p15 p14 p13 p12 p11 p10 p07 p06 p05 p04 p03 p02 p01 p00)) y = p17 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  exact View.read_writes_cons_unit_of_mem (Val := Elt F) accV fA _ _ _ y (ix2 (0 : Fin 1) x) (show k0_off28 k 1#32 = ![3 * k.val + 1, 112] from k0_off28_eq k 1) (Fin.forall_fin_two.mpr ⟨by show (y 0).val = 3 * k.val + 1 + 0; omega, by show (y 1).val = 112 + x.val; omega⟩)

/-- Row `3 k + 2`, columns `0 … 15`: piece (2, 0)'s payload. -/
theorem sA_trip_hit_2_0 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 0 + x.val) :
    (accV.writes (Elt F) fA (tripPieces k p27 p26 p25 p24 p23 p22 p21 p20 p17 p16 p15 p14 p13 p12 p11 p10 p07 p06 p05 p04 p03 p02 p01 p00)) y = p20 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  refine (View.read_writes_cons_unit_of_not_mem (Val := Elt F) accV fA _ _ _ y (show k0_off25 k 2#32 = ![3 * k.val + 2, 64] from k0_off25_eq k 2) 1 (Or.inl (by show (y 1).val < 64; omega))).trans ?_
  refine (View.read_writes_cons_unit_of_not_mem (Val := Elt F) accV fA _ _ _ y (show k0_off24 k 2#32 = ![3 * k.val + 2, 48] from k0_off24_eq k 2) 1 (Or.inl (by show (y 1).val < 48; omega))).trans ?_
  refine (View.read_writes_cons_unit_of_not_mem (Val := Elt F) accV fA _ _ _ y (show k0_off23 k 2#32 = ![3 * k.val + 2, 32] from k0_off23_eq k 2) 1 (Or.inl (by show (y 1).val < 32; omega))).trans ?_
  refine (View.read_writes_cons_unit_of_not_mem (Val := Elt F) accV fA _ _ _ y (show k0_off22 k 2#32 = ![3 * k.val + 2, 16] from k0_off22_eq k 2) 1 (Or.inl (by show (y 1).val < 16; omega))).trans ?_
  exact View.read_writes_cons_unit_of_mem (Val := Elt F) accV fA _ _ _ y (ix2 (0 : Fin 1) x) (show k0_off21 k 2#32 = ![3 * k.val + 2, 0] from k0_off21_eq k 2) (Fin.forall_fin_two.mpr ⟨by show (y 0).val = 3 * k.val + 2 + 0; omega, by show (y 1).val = 0 + x.val; omega⟩)

/-- Row `3 k + 2`, columns `16 … 31`: piece (2, 1)'s payload. -/
theorem sA_trip_hit_2_1 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 1 + x.val) :
    (accV.writes (Elt F) fA (tripPieces k p27 p26 p25 p24 p23 p22 p21 p20 p17 p16 p15 p14 p13 p12 p11 p10 p07 p06 p05 p04 p03 p02 p01 p00)) y = p21 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  refine (View.read_writes_cons_unit_of_not_mem (Val := Elt F) accV fA _ _ _ y (show k0_off25 k 2#32 = ![3 * k.val + 2, 64] from k0_off25_eq k 2) 1 (Or.inl (by show (y 1).val < 64; omega))).trans ?_
  refine (View.read_writes_cons_unit_of_not_mem (Val := Elt F) accV fA _ _ _ y (show k0_off24 k 2#32 = ![3 * k.val + 2, 48] from k0_off24_eq k 2) 1 (Or.inl (by show (y 1).val < 48; omega))).trans ?_
  refine (View.read_writes_cons_unit_of_not_mem (Val := Elt F) accV fA _ _ _ y (show k0_off23 k 2#32 = ![3 * k.val + 2, 32] from k0_off23_eq k 2) 1 (Or.inl (by show (y 1).val < 32; omega))).trans ?_
  exact View.read_writes_cons_unit_of_mem (Val := Elt F) accV fA _ _ _ y (ix2 (0 : Fin 1) x) (show k0_off22 k 2#32 = ![3 * k.val + 2, 16] from k0_off22_eq k 2) (Fin.forall_fin_two.mpr ⟨by show (y 0).val = 3 * k.val + 2 + 0; omega, by show (y 1).val = 16 + x.val; omega⟩)

/-- Row `3 k + 2`, columns `32 … 47`: piece (2, 2)'s payload. -/
theorem sA_trip_hit_2_2 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 2 + x.val) :
    (accV.writes (Elt F) fA (tripPieces k p27 p26 p25 p24 p23 p22 p21 p20 p17 p16 p15 p14 p13 p12 p11 p10 p07 p06 p05 p04 p03 p02 p01 p00)) y = p22 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  refine (View.read_writes_cons_unit_of_not_mem (Val := Elt F) accV fA _ _ _ y (show k0_off25 k 2#32 = ![3 * k.val + 2, 64] from k0_off25_eq k 2) 1 (Or.inl (by show (y 1).val < 64; omega))).trans ?_
  refine (View.read_writes_cons_unit_of_not_mem (Val := Elt F) accV fA _ _ _ y (show k0_off24 k 2#32 = ![3 * k.val + 2, 48] from k0_off24_eq k 2) 1 (Or.inl (by show (y 1).val < 48; omega))).trans ?_
  exact View.read_writes_cons_unit_of_mem (Val := Elt F) accV fA _ _ _ y (ix2 (0 : Fin 1) x) (show k0_off23 k 2#32 = ![3 * k.val + 2, 32] from k0_off23_eq k 2) (Fin.forall_fin_two.mpr ⟨by show (y 0).val = 3 * k.val + 2 + 0; omega, by show (y 1).val = 32 + x.val; omega⟩)

/-- Row `3 k + 2`, columns `48 … 63`: piece (2, 3)'s payload. -/
theorem sA_trip_hit_2_3 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 3 + x.val) :
    (accV.writes (Elt F) fA (tripPieces k p27 p26 p25 p24 p23 p22 p21 p20 p17 p16 p15 p14 p13 p12 p11 p10 p07 p06 p05 p04 p03 p02 p01 p00)) y = p23 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  refine (View.read_writes_cons_unit_of_not_mem (Val := Elt F) accV fA _ _ _ y (show k0_off25 k 2#32 = ![3 * k.val + 2, 64] from k0_off25_eq k 2) 1 (Or.inl (by show (y 1).val < 64; omega))).trans ?_
  exact View.read_writes_cons_unit_of_mem (Val := Elt F) accV fA _ _ _ y (ix2 (0 : Fin 1) x) (show k0_off24 k 2#32 = ![3 * k.val + 2, 48] from k0_off24_eq k 2) (Fin.forall_fin_two.mpr ⟨by show (y 0).val = 3 * k.val + 2 + 0; omega, by show (y 1).val = 48 + x.val; omega⟩)

/-- Row `3 k + 2`, columns `64 … 79`: piece (2, 4)'s payload. -/
theorem sA_trip_hit_2_4 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 4 + x.val) :
    (accV.writes (Elt F) fA (tripPieces k p27 p26 p25 p24 p23 p22 p21 p20 p17 p16 p15 p14 p13 p12 p11 p10 p07 p06 p05 p04 p03 p02 p01 p00)) y = p24 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  exact View.read_writes_cons_unit_of_mem (Val := Elt F) accV fA _ _ _ y (ix2 (0 : Fin 1) x) (show k0_off25 k 2#32 = ![3 * k.val + 2, 64] from k0_off25_eq k 2) (Fin.forall_fin_two.mpr ⟨by show (y 0).val = 3 * k.val + 2 + 0; omega, by show (y 1).val = 64 + x.val; omega⟩)

/-- Row `3 k + 2`, columns `80 … 95`: piece (2, 5)'s payload. -/
theorem sA_trip_hit_2_5 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 5 + x.val) :
    (accV.writes (Elt F) fA (tripPieces k p27 p26 p25 p24 p23 p22 p21 p20 p17 p16 p15 p14 p13 p12 p11 p10 p07 p06 p05 p04 p03 p02 p01 p00)) y = p25 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  exact View.read_writes_cons_unit_of_mem (Val := Elt F) accV fA _ _ _ y (ix2 (0 : Fin 1) x) (show k0_off26 k 2#32 = ![3 * k.val + 2, 80] from k0_off26_eq k 2) (Fin.forall_fin_two.mpr ⟨by show (y 0).val = 3 * k.val + 2 + 0; omega, by show (y 1).val = 80 + x.val; omega⟩)

/-- Row `3 k + 2`, columns `96 … 111`: piece (2, 6)'s payload. -/
theorem sA_trip_hit_2_6 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 6 + x.val) :
    (accV.writes (Elt F) fA (tripPieces k p27 p26 p25 p24 p23 p22 p21 p20 p17 p16 p15 p14 p13 p12 p11 p10 p07 p06 p05 p04 p03 p02 p01 p00)) y = p26 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  exact View.read_writes_cons_unit_of_mem (Val := Elt F) accV fA _ _ _ y (ix2 (0 : Fin 1) x) (show k0_off27 k 2#32 = ![3 * k.val + 2, 96] from k0_off27_eq k 2) (Fin.forall_fin_two.mpr ⟨by show (y 0).val = 3 * k.val + 2 + 0; omega, by show (y 1).val = 96 + x.val; omega⟩)

/-- Row `3 k + 2`, columns `112 … 127`: piece (2, 7)'s payload. -/
theorem sA_trip_hit_2_7 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 7 + x.val) :
    (accV.writes (Elt F) fA (tripPieces k p27 p26 p25 p24 p23 p22 p21 p20 p17 p16 p15 p14 p13 p12 p11 p10 p07 p06 p05 p04 p03 p02 p01 p00)) y = p27 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  exact View.read_writes_cons_unit_of_mem (Val := Elt F) accV fA _ _ _ y (ix2 (0 : Fin 1) x) (show k0_off28 k 2#32 = ![3 * k.val + 2, 112] from k0_off28_eq k 2) (Fin.forall_fin_two.mpr ⟨by show (y 0).val = 3 * k.val + 2 + 0; omega, by show (y 1).val = 112 + x.val; omega⟩)

/-- A row the trip does not store keeps what the scratch held. -/
theorem sA_trip_miss (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (y : S128x128.Idx) (hb : (y 0).val < 3 * k.val ∨ 3 * k.val + 3 ≤ (y 0).val) :
    (accV.writes (Elt F) fA (tripPieces k p27 p26 p25 p24 p23 p22 p21 p20 p17 p16 p15 p14 p13 p12 p11 p10 p07 p06 p05 p04 p03 p02 p01 p00)) y = fA y := by
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off27 k 2#32 = ![3 * k.val + 2, 96] from k0_off27_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off26 k 2#32 = ![3 * k.val + 2, 80] from k0_off26_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off25 k 2#32 = ![3 * k.val + 2, 64] from k0_off25_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off24 k 2#32 = ![3 * k.val + 2, 48] from k0_off24_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off23 k 2#32 = ![3 * k.val + 2, 32] from k0_off23_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off22 k 2#32 = ![3 * k.val + 2, 16] from k0_off22_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off21 k 2#32 = ![3 * k.val + 2, 0] from k0_off21_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off28 k 1#32 = ![3 * k.val + 1, 112] from k0_off28_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off27 k 1#32 = ![3 * k.val + 1, 96] from k0_off27_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off26 k 1#32 = ![3 * k.val + 1, 80] from k0_off26_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off25 k 1#32 = ![3 * k.val + 1, 64] from k0_off25_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off24 k 1#32 = ![3 * k.val + 1, 48] from k0_off24_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off23 k 1#32 = ![3 * k.val + 1, 32] from k0_off23_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off22 k 1#32 = ![3 * k.val + 1, 16] from k0_off22_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off21 k 1#32 = ![3 * k.val + 1, 0] from k0_off21_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off28 k 0#32 = ![3 * k.val + 0, 112] from k0_off28_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off27 k 0#32 = ![3 * k.val + 0, 96] from k0_off27_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off26 k 0#32 = ![3 * k.val + 0, 80] from k0_off26_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off25 k 0#32 = ![3 * k.val + 0, 64] from k0_off25_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off24 k 0#32 = ![3 * k.val + 0, 48] from k0_off24_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off23 k 0#32 = ![3 * k.val + 0, 32] from k0_off23_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off22 k 0#32 = ![3 * k.val + 0, 16] from k0_off22_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off21 k 0#32 = ![3 * k.val + 0, 0] from k0_off21_eq k 0) 0 (by
    rcases hb with h | h
    · exact Or.inl (by show (y 0).val < 3 * k.val + 0; omega)
    · exact Or.inr (by show 3 * k.val + 0 + 1 ≤ (y 0).val; omega))).trans ?_
  rfl

/-- The stores of row 126, the newest first: its pieces 7 … 0. -/
def tailPieces126 (q7 q6 q5 q4 q3 q2 q1 q0 : S1x16.Idx → F .f32) : List (View.Piece (Elt F) S128x128 .f32) :=
  [⟨Rect.unit (s := S128x128) ![126, 112] S1x16.size inb_S128x128_S1x16_126_112, q7⟩,
   ⟨Rect.unit (s := S128x128) ![126, 96] S1x16.size inb_S128x128_S1x16_126_96, q6⟩,
   ⟨Rect.unit (s := S128x128) ![126, 80] S1x16.size inb_S128x128_S1x16_126_80, q5⟩,
   ⟨Rect.unit (s := S128x128) ![126, 64] S1x16.size inb_S128x128_S1x16_126_64, q4⟩,
   ⟨Rect.unit (s := S128x128) ![126, 48] S1x16.size inb_S128x128_S1x16_126_48, q3⟩,
   ⟨Rect.unit (s := S128x128) ![126, 32] S1x16.size inb_S128x128_S1x16_126_32, q2⟩,
   ⟨Rect.unit (s := S128x128) ![126, 16] S1x16.size inb_S128x128_S1x16_126_16, q1⟩,
   ⟨Rect.unit (s := S128x128) ![126, 0] S1x16.size inb_S128x128_S1x16_126_0, q0⟩]

theorem sA_tail126_hit_0 (fA : S128x128.Idx → F .f32) (q7 q6 q5 q4 q3 q2 q1 q0 : S1x16.Idx → F .f32) (x : Fin 16)
    (y : S128x128.Idx) (h0 : (y 0).val = 126) (h1 : (y 1).val = 16 * 0 + x.val) :
    (accV.writes (Elt F) fA (tailPieces126 q7 q6 q5 q4 q3 q2 q1 q0)) y = q0 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  refine (View.read_writes_cons_unit_of_not_mem (Val := Elt F) accV fA _ _ _ y (rfl : (![126, 64] : Fin 2 → ℕ) = ![126, 64]) 1 (Or.inl (by show (y 1).val < 64; omega))).trans ?_
  refine (View.read_writes_cons_unit_of_not_mem (Val := Elt F) accV fA _ _ _ y (rfl : (![126, 48] : Fin 2 → ℕ) = ![126, 48]) 1 (Or.inl (by show (y 1).val < 48; omega))).trans ?_
  refine (View.read_writes_cons_unit_of_not_mem (Val := Elt F) accV fA _ _ _ y (rfl : (![126, 32] : Fin 2 → ℕ) = ![126, 32]) 1 (Or.inl (by show (y 1).val < 32; omega))).trans ?_
  refine (View.read_writes_cons_unit_of_not_mem (Val := Elt F) accV fA _ _ _ y (rfl : (![126, 16] : Fin 2 → ℕ) = ![126, 16]) 1 (Or.inl (by show (y 1).val < 16; omega))).trans ?_
  exact View.read_writes_cons_unit_of_mem (Val := Elt F) accV fA _ _ _ y (ix2 (0 : Fin 1) x) (rfl : (![126, 0] : Fin 2 → ℕ) = ![126, 0]) (Fin.forall_fin_two.mpr ⟨by show (y 0).val = 126 + 0; omega, by show (y 1).val = 0 + x.val; omega⟩)

theorem sA_tail126_hit_1 (fA : S128x128.Idx → F .f32) (q7 q6 q5 q4 q3 q2 q1 q0 : S1x16.Idx → F .f32) (x : Fin 16)
    (y : S128x128.Idx) (h0 : (y 0).val = 126) (h1 : (y 1).val = 16 * 1 + x.val) :
    (accV.writes (Elt F) fA (tailPieces126 q7 q6 q5 q4 q3 q2 q1 q0)) y = q1 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  refine (View.read_writes_cons_unit_of_not_mem (Val := Elt F) accV fA _ _ _ y (rfl : (![126, 64] : Fin 2 → ℕ) = ![126, 64]) 1 (Or.inl (by show (y 1).val < 64; omega))).trans ?_
  refine (View.read_writes_cons_unit_of_not_mem (Val := Elt F) accV fA _ _ _ y (rfl : (![126, 48] : Fin 2 → ℕ) = ![126, 48]) 1 (Or.inl (by show (y 1).val < 48; omega))).trans ?_
  refine (View.read_writes_cons_unit_of_not_mem (Val := Elt F) accV fA _ _ _ y (rfl : (![126, 32] : Fin 2 → ℕ) = ![126, 32]) 1 (Or.inl (by show (y 1).val < 32; omega))).trans ?_
  exact View.read_writes_cons_unit_of_mem (Val := Elt F) accV fA _ _ _ y (ix2 (0 : Fin 1) x) (rfl : (![126, 16] : Fin 2 → ℕ) = ![126, 16]) (Fin.forall_fin_two.mpr ⟨by show (y 0).val = 126 + 0; omega, by show (y 1).val = 16 + x.val; omega⟩)

theorem sA_tail126_hit_2 (fA : S128x128.Idx → F .f32) (q7 q6 q5 q4 q3 q2 q1 q0 : S1x16.Idx → F .f32) (x : Fin 16)
    (y : S128x128.Idx) (h0 : (y 0).val = 126) (h1 : (y 1).val = 16 * 2 + x.val) :
    (accV.writes (Elt F) fA (tailPieces126 q7 q6 q5 q4 q3 q2 q1 q0)) y = q2 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  refine (View.read_writes_cons_unit_of_not_mem (Val := Elt F) accV fA _ _ _ y (rfl : (![126, 64] : Fin 2 → ℕ) = ![126, 64]) 1 (Or.inl (by show (y 1).val < 64; omega))).trans ?_
  refine (View.read_writes_cons_unit_of_not_mem (Val := Elt F) accV fA _ _ _ y (rfl : (![126, 48] : Fin 2 → ℕ) = ![126, 48]) 1 (Or.inl (by show (y 1).val < 48; omega))).trans ?_
  exact View.read_writes_cons_unit_of_mem (Val := Elt F) accV fA _ _ _ y (ix2 (0 : Fin 1) x) (rfl : (![126, 32] : Fin 2 → ℕ) = ![126, 32]) (Fin.forall_fin_two.mpr ⟨by show (y 0).val = 126 + 0; omega, by show (y 1).val = 32 + x.val; omega⟩)

theorem sA_tail126_hit_3 (fA : S128x128.Idx → F .f32) (q7 q6 q5 q4 q3 q2 q1 q0 : S1x16.Idx → F .f32) (x : Fin 16)
    (y : S128x128.Idx) (h0 : (y 0).val = 126) (h1 : (y 1).val = 16 * 3 + x.val) :
    (accV.writes (Elt F) fA (tailPieces126 q7 q6 q5 q4 q3 q2 q1 q0)) y = q3 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  refine (View.read_writes_cons_unit_of_not_mem (Val := Elt F) accV fA _ _ _ y (rfl : (![126, 64] : Fin 2 → ℕ) = ![126, 64]) 1 (Or.inl (by show (y 1).val < 64; omega))).trans ?_
  exact View.read_writes_cons_unit_of_mem (Val := Elt F) accV fA _ _ _ y (ix2 (0 : Fin 1) x) (rfl : (![126, 48] : Fin 2 → ℕ) = ![126, 48]) (Fin.forall_fin_two.mpr ⟨by show (y 0).val = 126 + 0; omega, by show (y 1).val = 48 + x.val; omega⟩)

theorem sA_tail126_hit_4 (fA : S128x128.Idx → F .f32) (q7 q6 q5 q4 q3 q2 q1 q0 : S1x16.Idx → F .f32) (x : Fin 16)
    (y : S128x128.Idx) (h0 : (y 0).val = 126) (h1 : (y 1).val = 16 * 4 + x.val) :
    (accV.writes (Elt F) fA (tailPieces126 q7 q6 q5 q4 q3 q2 q1 q0)) y = q4 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  exact View.read_writes_cons_unit_of_mem (Val := Elt F) accV fA _ _ _ y (ix2 (0 : Fin 1) x) (rfl : (![126, 64] : Fin 2 → ℕ) = ![126, 64]) (Fin.forall_fin_two.mpr ⟨by show (y 0).val = 126 + 0; omega, by show (y 1).val = 64 + x.val; omega⟩)

theorem sA_tail126_hit_5 (fA : S128x128.Idx → F .f32) (q7 q6 q5 q4 q3 q2 q1 q0 : S1x16.Idx → F .f32) (x : Fin 16)
    (y : S128x128.Idx) (h0 : (y 0).val = 126) (h1 : (y 1).val = 16 * 5 + x.val) :
    (accV.writes (Elt F) fA (tailPieces126 q7 q6 q5 q4 q3 q2 q1 q0)) y = q5 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  exact View.read_writes_cons_unit_of_mem (Val := Elt F) accV fA _ _ _ y (ix2 (0 : Fin 1) x) (rfl : (![126, 80] : Fin 2 → ℕ) = ![126, 80]) (Fin.forall_fin_two.mpr ⟨by show (y 0).val = 126 + 0; omega, by show (y 1).val = 80 + x.val; omega⟩)

theorem sA_tail126_hit_6 (fA : S128x128.Idx → F .f32) (q7 q6 q5 q4 q3 q2 q1 q0 : S1x16.Idx → F .f32) (x : Fin 16)
    (y : S128x128.Idx) (h0 : (y 0).val = 126) (h1 : (y 1).val = 16 * 6 + x.val) :
    (accV.writes (Elt F) fA (tailPieces126 q7 q6 q5 q4 q3 q2 q1 q0)) y = q6 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  exact View.read_writes_cons_unit_of_mem (Val := Elt F) accV fA _ _ _ y (ix2 (0 : Fin 1) x) (rfl : (![126, 96] : Fin 2 → ℕ) = ![126, 96]) (Fin.forall_fin_two.mpr ⟨by show (y 0).val = 126 + 0; omega, by show (y 1).val = 96 + x.val; omega⟩)

theorem sA_tail126_hit_7 (fA : S128x128.Idx → F .f32) (q7 q6 q5 q4 q3 q2 q1 q0 : S1x16.Idx → F .f32) (x : Fin 16)
    (y : S128x128.Idx) (h0 : (y 0).val = 126) (h1 : (y 1).val = 16 * 7 + x.val) :
    (accV.writes (Elt F) fA (tailPieces126 q7 q6 q5 q4 q3 q2 q1 q0)) y = q7 (ix2 (0 : Fin 1) x) := by
  have hx := x.isLt
  show accV.read (Elt F) (accV.writes (Elt F) fA (tailPieces126 q7 q6 q5 q4 q3 q2 q1 q0)) y = _
  unfold tailPieces126
  exact View.read_writes_cons_unit_of_mem (Val := Elt F) accV fA _ _ _ y (ix2 (0 : Fin 1) x) (rfl : (![126, 112] : Fin 2 → ℕ) = ![126, 112]) (Fin.forall_fin_two.mpr ⟨by show (y 0).val = 126 + 0; omega, by show (y 1).val = 112 + x.val; omega⟩)

theorem sA_tail126_miss (fA : S128x128.Idx → F .f32) (q7 q6 q5 q4 q3 q2 q1 q0 : S1x16.Idx → F .f32) (y : S128x128.Idx) (hb : (y 0).val ≠ 126) :
    (accV.writes (Elt F) fA (tailPieces126 q7 q6 q5 q4 q3 q2 q1 q0)) y = fA y := by
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 96] : Fin 2 → ℕ) = ![126, 96]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 80] : Fin 2 → ℕ) = ![126, 80]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 64] : Fin 2 → ℕ) = ![126, 64]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 48] : Fin 2 → ℕ) = ![126, 48]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 32] : Fin 2 → ℕ) = ![126, 32]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 16] : Fin 2 → ℕ) = ![126, 16]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 0] : Fin 2 → ℕ) = ![126, 0]) 0 (by
    rcases Nat.lt_or_gt_of_ne hb with h | h
    · exact Or.inl (by show (y 0).val < 126; omega)
    · exact Or.inr (by show 126 + 1 ≤ (y 0).val; omega))).trans ?_
  rfl

/-- The stores of row 127, the newest first: its pieces 7 … 0. -/
def tailPieces127 (q7 q6 q5 q4 q3 q2 q1 q0 : S1x16.Idx → F .f32) : List (View.Piece (Elt F) S128x128 .f32) :=
  [⟨Rect.unit (s := S128x128) ![127, 112] S1x16.size inb_S128x128_S1x16_127_112, q7⟩,
   ⟨Rect.unit (s := S128x128) ![127, 96] S1x16.size inb_S128x128_S1x16_127_96, q6⟩,
   ⟨Rect.unit (s := S128x128) ![127, 80] S1x16.size inb_S128x128_S1x16_127_80, q5⟩,
   ⟨Rect.unit (s := S128x128) ![127, 64] S1x16.size inb_S128x128_S1x16_127_64, q4⟩,
   ⟨Rect.unit (s := S128x128) ![127, 48] S1x16.size inb_S128x128_S1x16_127_48, q3⟩,
   ⟨Rect.unit (s := S128x128) ![127, 32] S1x16.size inb_S128x128_S1x16_127_32, q2⟩,
   ⟨Rect.unit (s := S128x128) ![127, 16] S1x16.size inb_S128x128_S1x16_127_16, q1⟩,
   ⟨Rect.unit (s := S128x128) ![127, 0] S1x16.size inb_S128x128_S1x16_127_0, q0⟩]

theorem sA_tail127_hit_0 (fA : S128x128.Idx → F .f32) (q7 q6 q5 q4 q3 q2 q1 q0 : S1x16.Idx → F .f32) (x : Fin 16)
    (y : S128x128.Idx) (h0 : (y 0).val = 127) (h1 : (y 1).val = 16 * 0 + x.val) :
    (accV.writes (Elt F) fA (tailPieces127 q7 q6 q5 q4 q3 q2 q1 q0)) y = q0 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  refine (View.read_writes_cons_unit_of_not_mem (Val := Elt F) accV fA _ _ _ y (rfl : (![127, 64] : Fin 2 → ℕ) = ![127, 64]) 1 (Or.inl (by show (y 1).val < 64; omega))).trans ?_
  refine (View.read_writes_cons_unit_of_not_mem (Val := Elt F) accV fA _ _ _ y (rfl : (![127, 48] : Fin 2 → ℕ) = ![127, 48]) 1 (Or.inl (by show (y 1).val < 48; omega))).trans ?_
  refine (View.read_writes_cons_unit_of_not_mem (Val := Elt F) accV fA _ _ _ y (rfl : (![127, 32] : Fin 2 → ℕ) = ![127, 32]) 1 (Or.inl (by show (y 1).val < 32; omega))).trans ?_
  refine (View.read_writes_cons_unit_of_not_mem (Val := Elt F) accV fA _ _ _ y (rfl : (![127, 16] : Fin 2 → ℕ) = ![127, 16]) 1 (Or.inl (by show (y 1).val < 16; omega))).trans ?_
  exact View.read_writes_cons_unit_of_mem (Val := Elt F) accV fA _ _ _ y (ix2 (0 : Fin 1) x) (rfl : (![127, 0] : Fin 2 → ℕ) = ![127, 0]) (Fin.forall_fin_two.mpr ⟨by show (y 0).val = 127 + 0; omega, by show (y 1).val = 0 + x.val; omega⟩)

theorem sA_tail127_hit_1 (fA : S128x128.Idx → F .f32) (q7 q6 q5 q4 q3 q2 q1 q0 : S1x16.Idx → F .f32) (x : Fin 16)
    (y : S128x128.Idx) (h0 : (y 0).val = 127) (h1 : (y 1).val = 16 * 1 + x.val) :
    (accV.writes (Elt F) fA (tailPieces127 q7 q6 q5 q4 q3 q2 q1 q0)) y = q1 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  refine (View.read_writes_cons_unit_of_not_mem (Val := Elt F) accV fA _ _ _ y (rfl : (![127, 64] : Fin 2 → ℕ) = ![127, 64]) 1 (Or.inl (by show (y 1).val < 64; omega))).trans ?_
  refine (View.read_writes_cons_unit_of_not_mem (Val := Elt F) accV fA _ _ _ y (rfl : (![127, 48] : Fin 2 → ℕ) = ![127, 48]) 1 (Or.inl (by show (y 1).val < 48; omega))).trans ?_
  refine (View.read_writes_cons_unit_of_not_mem (Val := Elt F) accV fA _ _ _ y (rfl : (![127, 32] : Fin 2 → ℕ) = ![127, 32]) 1 (Or.inl (by show (y 1).val < 32; omega))).trans ?_
  exact View.read_writes_cons_unit_of_mem (Val := Elt F) accV fA _ _ _ y (ix2 (0 : Fin 1) x) (rfl : (![127, 16] : Fin 2 → ℕ) = ![127, 16]) (Fin.forall_fin_two.mpr ⟨by show (y 0).val = 127 + 0; omega, by show (y 1).val = 16 + x.val; omega⟩)

theorem sA_tail127_hit_2 (fA : S128x128.Idx → F .f32) (q7 q6 q5 q4 q3 q2 q1 q0 : S1x16.Idx → F .f32) (x : Fin 16)
    (y : S128x128.Idx) (h0 : (y 0).val = 127) (h1 : (y 1).val = 16 * 2 + x.val) :
    (accV.writes (Elt F) fA (tailPieces127 q7 q6 q5 q4 q3 q2 q1 q0)) y = q2 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  refine (View.read_writes_cons_unit_of_not_mem (Val := Elt F) accV fA _ _ _ y (rfl : (![127, 64] : Fin 2 → ℕ) = ![127, 64]) 1 (Or.inl (by show (y 1).val < 64; omega))).trans ?_
  refine (View.read_writes_cons_unit_of_not_mem (Val := Elt F) accV fA _ _ _ y (rfl : (![127, 48] : Fin 2 → ℕ) = ![127, 48]) 1 (Or.inl (by show (y 1).val < 48; omega))).trans ?_
  exact View.read_writes_cons_unit_of_mem (Val := Elt F) accV fA _ _ _ y (ix2 (0 : Fin 1) x) (rfl : (![127, 32] : Fin 2 → ℕ) = ![127, 32]) (Fin.forall_fin_two.mpr ⟨by show (y 0).val = 127 + 0; omega, by show (y 1).val = 32 + x.val; omega⟩)

theorem sA_tail127_hit_3 (fA : S128x128.Idx → F .f32) (q7 q6 q5 q4 q3 q2 q1 q0 : S1x16.Idx → F .f32) (x : Fin 16)
    (y : S128x128.Idx) (h0 : (y 0).val = 127) (h1 : (y 1).val = 16 * 3 + x.val) :
    (accV.writes (Elt F) fA (tailPieces127 q7 q6 q5 q4 q3 q2 q1 q0)) y = q3 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  refine (View.read_writes_cons_unit_of_not_mem (Val := Elt F) accV fA _ _ _ y (rfl : (![127, 64] : Fin 2 → ℕ) = ![127, 64]) 1 (Or.inl (by show (y 1).val < 64; omega))).trans ?_
  exact View.read_writes_cons_unit_of_mem (Val := Elt F) accV fA _ _ _ y (ix2 (0 : Fin 1) x) (rfl : (![127, 48] : Fin 2 → ℕ) = ![127, 48]) (Fin.forall_fin_two.mpr ⟨by show (y 0).val = 127 + 0; omega, by show (y 1).val = 48 + x.val; omega⟩)

theorem sA_tail127_hit_4 (fA : S128x128.Idx → F .f32) (q7 q6 q5 q4 q3 q2 q1 q0 : S1x16.Idx → F .f32) (x : Fin 16)
    (y : S128x128.Idx) (h0 : (y 0).val = 127) (h1 : (y 1).val = 16 * 4 + x.val) :
    (accV.writes (Elt F) fA (tailPieces127 q7 q6 q5 q4 q3 q2 q1 q0)) y = q4 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  exact View.read_writes_cons_unit_of_mem (Val := Elt F) accV fA _ _ _ y (ix2 (0 : Fin 1) x) (rfl : (![127, 64] : Fin 2 → ℕ) = ![127, 64]) (Fin.forall_fin_two.mpr ⟨by show (y 0).val = 127 + 0; omega, by show (y 1).val = 64 + x.val; omega⟩)

theorem sA_tail127_hit_5 (fA : S128x128.Idx → F .f32) (q7 q6 q5 q4 q3 q2 q1 q0 : S1x16.Idx → F .f32) (x : Fin 16)
    (y : S128x128.Idx) (h0 : (y 0).val = 127) (h1 : (y 1).val = 16 * 5 + x.val) :
    (accV.writes (Elt F) fA (tailPieces127 q7 q6 q5 q4 q3 q2 q1 q0)) y = q5 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  exact View.read_writes_cons_unit_of_mem (Val := Elt F) accV fA _ _ _ y (ix2 (0 : Fin 1) x) (rfl : (![127, 80] : Fin 2 → ℕ) = ![127, 80]) (Fin.forall_fin_two.mpr ⟨by show (y 0).val = 127 + 0; omega, by show (y 1).val = 80 + x.val; omega⟩)

theorem sA_tail127_hit_6 (fA : S128x128.Idx → F .f32) (q7 q6 q5 q4 q3 q2 q1 q0 : S1x16.Idx → F .f32) (x : Fin 16)
    (y : S128x128.Idx) (h0 : (y 0).val = 127) (h1 : (y 1).val = 16 * 6 + x.val) :
    (accV.writes (Elt F) fA (tailPieces127 q7 q6 q5 q4 q3 q2 q1 q0)) y = q6 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  exact View.read_writes_cons_unit_of_mem (Val := Elt F) accV fA _ _ _ y (ix2 (0 : Fin 1) x) (rfl : (![127, 96] : Fin 2 → ℕ) = ![127, 96]) (Fin.forall_fin_two.mpr ⟨by show (y 0).val = 127 + 0; omega, by show (y 1).val = 96 + x.val; omega⟩)

theorem sA_tail127_hit_7 (fA : S128x128.Idx → F .f32) (q7 q6 q5 q4 q3 q2 q1 q0 : S1x16.Idx → F .f32) (x : Fin 16)
    (y : S128x128.Idx) (h0 : (y 0).val = 127) (h1 : (y 1).val = 16 * 7 + x.val) :
    (accV.writes (Elt F) fA (tailPieces127 q7 q6 q5 q4 q3 q2 q1 q0)) y = q7 (ix2 (0 : Fin 1) x) := by
  have hx := x.isLt
  show accV.read (Elt F) (accV.writes (Elt F) fA (tailPieces127 q7 q6 q5 q4 q3 q2 q1 q0)) y = _
  unfold tailPieces127
  exact View.read_writes_cons_unit_of_mem (Val := Elt F) accV fA _ _ _ y (ix2 (0 : Fin 1) x) (rfl : (![127, 112] : Fin 2 → ℕ) = ![127, 112]) (Fin.forall_fin_two.mpr ⟨by show (y 0).val = 127 + 0; omega, by show (y 1).val = 112 + x.val; omega⟩)

theorem sA_tail127_miss (fA : S128x128.Idx → F .f32) (q7 q6 q5 q4 q3 q2 q1 q0 : S1x16.Idx → F .f32) (y : S128x128.Idx) (hb : (y 0).val ≠ 127) :
    (accV.writes (Elt F) fA (tailPieces127 q7 q6 q5 q4 q3 q2 q1 q0)) y = fA y := by
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 96] : Fin 2 → ℕ) = ![127, 96]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 80] : Fin 2 → ℕ) = ![127, 80]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 64] : Fin 2 → ℕ) = ![127, 64]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 48] : Fin 2 → ℕ) = ![127, 48]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 32] : Fin 2 → ℕ) = ![127, 32]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 16] : Fin 2 → ℕ) = ![127, 16]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 0] : Fin 2 → ℕ) = ![127, 0]) 0 (by
    rcases Nat.lt_or_gt_of_ne hb with h | h
    · exact Or.inl (by show (y 0).val < 127; omega)
    · exact Or.inr (by show 127 + 1 ≤ (y 0).val; omega))).trans ?_
  rfl

end Cert.KernelIdeal.Tile

end
-- ==== Proof.AccTrip.lean ====
/-
  The pooled scratch after one trip of the group loop, in terms of the registers. The trip stores, for each of
  its three batch rows, the eight registers after that row times the scale: register j of row r goes to row
  3 k + r, columns 16 j … 16 j + 15. So the entry at row 3 k + r, column 16 j + x is lane x of register j after
  row r, times the scale; rows below the trip's keep what the scratch held.
-/
import proofs.«207436_g25675314495810_cont_9to1_828_42_alg».proof.Proof.AccStore
import proofs.«207436_g25675314495810_cont_9to1_828_42_alg».proof.Proof.TileVal
import proofs.«207436_g25675314495810_cont_9to1_828_42_alg».proof.Proof.RowOps

noncomputable section

namespace Cert.KernelIdeal.Tile

open Cert.KernelIdeal Cert.KernelIdeal.Gen
open Idealize.ShloMosaic Idealize.ShloMosaic.ValueIdx

variable {F : FTy → Type} [FloatOps F] [Named F]

/-- A register times the scale, as the 1 × 16 row that is stored. -/
abbrev rowPay (c : F .f32) (a : FVec F S16 .f32) : S1x16.Idx → F .f32 :=
  shapeCast S1x16 (mulf a (broadcast S16 c)) shapeCasts_S16_S1x16

/-- The stores of trip `k`, the newest first, from the registers `A0 A1 A2` after its three batch rows. -/
def tripList (k : Fin k0_t1_loop.trips) (c : F .f32) (A0 A1 A2 : T8 F) : List (View.Piece (Elt F) S128x128 .f32) :=
  tripPieces k (rowPay c A2.2.2.2.2.2.2.2) (rowPay c A2.2.2.2.2.2.2.1) (rowPay c A2.2.2.2.2.2.1) (rowPay c A2.2.2.2.2.1) (rowPay c A2.2.2.2.1) (rowPay c A2.2.2.1) (rowPay c A2.2.1) (rowPay c A2.1) (rowPay c A1.2.2.2.2.2.2.2) (rowPay c A1.2.2.2.2.2.2.1) (rowPay c A1.2.2.2.2.2.1) (rowPay c A1.2.2.2.2.1) (rowPay c A1.2.2.2.1) (rowPay c A1.2.2.1) (rowPay c A1.2.1) (rowPay c A1.1) (rowPay c A0.2.2.2.2.2.2.2) (rowPay c A0.2.2.2.2.2.2.1) (rowPay c A0.2.2.2.2.2.1) (rowPay c A0.2.2.2.2.1) (rowPay c A0.2.2.2.1) (rowPay c A0.2.2.1) (rowPay c A0.2.1) (rowPay c A0.1)

/-- The registers after batch row `r` of the trip. -/
abbrev regsOf (A0 A1 A2 : T8 F) (r : Fin 3) : T8 F := match r with | 0 => A0 | 1 => A1 | 2 => A2

set_option maxRecDepth 8192 in
theorem trip_hit (k : Fin k0_t1_loop.trips) (fA : S128x128.Idx → F .f32) (c : F .f32) (A0 A1 A2 : T8 F)
    (r : Fin 3) (j : Fin 8) (x : Fin 16) :
    (sA.view.writes (Elt F) fA (tripList k c A0 A1 A2))
        (ix2 (⟨3 * k.val + r.val, trip_row_lt k r.val r.isLt⟩ : Fin 128) (⟨16 * j.val + x.val, col_lt j x⟩ : Fin 128))
      = FloatOps.mulf (tget (match r with | 0 => A0 | 1 => A1 | 2 => A2) j (ix1 x)) c := by
  fin_cases r <;> fin_cases j
  exacts [(sA_trip_hit_0_0 k fA _ _ _ _ _ _ _ _ _ _ _ _ _ _ _ _ _ _ _ _ _ _ _ _ x _ rfl rfl).trans (storeRow_apply _ c _),
    (sA_trip_hit_0_1 k fA _ _ _ _ _ _ _ _ _ _ _ _ _ _ _ _ _ _ _ _ _ _ _ _ x _ rfl rfl).trans (storeRow_apply _ c _),
    (sA_trip_hit_0_2 k fA _ _ _ _ _ _ _ _ _ _ _ _ _ _ _ _ _ _ _ _ _ _ _ _ x _ rfl rfl).trans (storeRow_apply _ c _),
    (sA_trip_hit_0_3 k fA _ _ _ _ _ _ _ _ _ _ _ _ _ _ _ _ _ _ _ _ _ _ _ _ x _ rfl rfl).trans (storeRow_apply _ c _),
    (sA_trip_hit_0_4 k fA _ _ _ _ _ _ _ _ _ _ _ _ _ _ _ _ _ _ _ _ _ _ _ _ x _ rfl rfl).trans (storeRow_apply _ c _),
    (sA_trip_hit_0_5 k fA _ _ _ _ _ _ _ _ _ _ _ _ _ _ _ _ _ _ _ _ _ _ _ _ x _ rfl rfl).trans (storeRow_apply _ c _),
    (sA_trip_hit_0_6 k fA _ _ _ _ _ _ _ _ _ _ _ _ _ _ _ _ _ _ _ _ _ _ _ _ x _ rfl rfl).trans (storeRow_apply _ c _),
    (sA_trip_hit_0_7 k fA _ _ _ _ _ _ _ _ _ _ _ _ _ _ _ _ _ _ _ _ _ _ _ _ x _ rfl rfl).trans (storeRow_apply _ c _),
    (sA_trip_hit_1_0 k fA _ _ _ _ _ _ _ _ _ _ _ _ _ _ _ _ _ _ _ _ _ _ _ _ x _ rfl rfl).trans (storeRow_apply _ c _),
    (sA_trip_hit_1_1 k fA _ _ _ _ _ _ _ _ _ _ _ _ _ _ _ _ _ _ _ _ _ _ _ _ x _ rfl rfl).trans (storeRow_apply _ c _),
    (sA_trip_hit_1_2 k fA _ _ _ _ _ _ _ _ _ _ _ _ _ _ _ _ _ _ _ _ _ _ _ _ x _ rfl rfl).trans (storeRow_apply _ c _),
    (sA_trip_hit_1_3 k fA _ _ _ _ _ _ _ _ _ _ _ _ _ _ _ _ _ _ _ _ _ _ _ _ x _ rfl rfl).trans (storeRow_apply _ c _),
    (sA_trip_hit_1_4 k fA _ _ _ _ _ _ _ _ _ _ _ _ _ _ _ _ _ _ _ _ _ _ _ _ x _ rfl rfl).trans (storeRow_apply _ c _),
    (sA_trip_hit_1_5 k fA _ _ _ _ _ _ _ _ _ _ _ _ _ _ _ _ _ _ _ _ _ _ _ _ x _ rfl rfl).trans (storeRow_apply _ c _),
    (sA_trip_hit_1_6 k fA _ _ _ _ _ _ _ _ _ _ _ _ _ _ _ _ _ _ _ _ _ _ _ _ x _ rfl rfl).trans (storeRow_apply _ c _),
    (sA_trip_hit_1_7 k fA _ _ _ _ _ _ _ _ _ _ _ _ _ _ _ _ _ _ _ _ _ _ _ _ x _ rfl rfl).trans (storeRow_apply _ c _),
    (sA_trip_hit_2_0 k fA _ _ _ _ _ _ _ _ _ _ _ _ _ _ _ _ _ _ _ _ _ _ _ _ x _ rfl rfl).trans (storeRow_apply _ c _),
    (sA_trip_hit_2_1 k fA _ _ _ _ _ _ _ _ _ _ _ _ _ _ _ _ _ _ _ _ _ _ _ _ x _ rfl rfl).trans (storeRow_apply _ c _),
    (sA_trip_hit_2_2 k fA _ _ _ _ _ _ _ _ _ _ _ _ _ _ _ _ _ _ _ _ _ _ _ _ x _ rfl rfl).trans (storeRow_apply _ c _),
    (sA_trip_hit_2_3 k fA _ _ _ _ _ _ _ _ _ _ _ _ _ _ _ _ _ _ _ _ _ _ _ _ x _ rfl rfl).trans (storeRow_apply _ c _),
    (sA_trip_hit_2_4 k fA _ _ _ _ _ _ _ _ _ _ _ _ _ _ _ _ _ _ _ _ _ _ _ _ x _ rfl rfl).trans (storeRow_apply _ c _),
    (sA_trip_hit_2_5 k fA _ _ _ _ _ _ _ _ _ _ _ _ _ _ _ _ _ _ _ _ _ _ _ _ x _ rfl rfl).trans (storeRow_apply _ c _),
    (sA_trip_hit_2_6 k fA _ _ _ _ _ _ _ _ _ _ _ _ _ _ _ _ _ _ _ _ _ _ _ _ x _ rfl rfl).trans (storeRow_apply _ c _),
    (sA_trip_hit_2_7 k fA _ _ _ _ _ _ _ _ _ _ _ _ _ _ _ _ _ _ _ _ _ _ _ _ x _ rfl rfl).trans (storeRow_apply _ c _)]

theorem trip_miss (k : Fin k0_t1_loop.trips) (fA : S128x128.Idx → F .f32) (c : F .f32) (A0 A1 A2 : T8 F)
    (b e : Fin 128) (hb : b.val < 3 * k.val) :
    (sA.view.writes (Elt F) fA (tripList k c A0 A1 A2)) (ix2 b e) = fA (ix2 b e) :=
  sA_trip_miss k fA _ _ _ _ _ _ _ _ _ _ _ _ _ _ _ _ _ _ _ _ _ _ _ _ (ix2 b e) (Or.inl hb)

end Cert.KernelIdeal.Tile

end
-- ==== Proof.RowValue.lean ====
/-
  A batch row's stored value is its pooled value.

  Lane x of register j, started at zero, takes the 100 rows of list 2 b and then the 100 rows of list 2 b + 1 of the
  tile's block at column 16 j + x: row l of the first list is the table's row of token l of batch row 128 w + b, row l
  of the second that of token 100 + l.  So the register holds the running sum of the 200 terms from zero, and times
  the scale that is the pooled value.
-/
import proofs.«207436_g25675314495810_cont_9to1_828_42_alg».proof.Proof.TileVal

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U] [CountersIn U]

local notation "𝕄" => MT nD τ sig (HIx 1) (Elt F) ℕ U ℕ
variable (d : Dev nD) (L : grid0.Coords)

/-- Token l < 100 of batch row 128 w + b is token l of list 2 b of block w. -/
theorem tokF_first (fi : S32x256x100.Idx → BitVec 32) (b : Fin 128) (l : ℕ) (hl : l < 100) :
    tokF fi ⟨128 * wid L + b.val, by have := wid_lt L; have := b.isLt; omega⟩ ⟨l, by omega⟩
      = (fi (ix3 (⟨wid L, wid_lt L⟩ : Fin 32) (⟨2 * b.val, by have := b.isLt; omega⟩ : Fin 256) (⟨l, hl⟩ : Fin 100))).toNat := by
  have hw := wid_lt L; have hb := b.isLt
  unfold tokF
  refine congrArg (fun j => (fi j).toNat) (funext fun a => Fin.ext ?_)
  match a with
  | ⟨0, _⟩ => show (128 * wid L + b.val) / 128 = wid L; omega
  | ⟨1, _⟩ => show 2 * ((128 * wid L + b.val) % 128) + l / 100 = 2 * b.val; omega
  | ⟨2, _⟩ => show l % 100 = l; omega

/-- Token 100 + l of batch row 128 w + b is token l of list 2 b + 1 of block w. -/
theorem tokF_second (fi : S32x256x100.Idx → BitVec 32) (b : Fin 128) (l : ℕ) (hl : l < 100) :
    tokF fi ⟨128 * wid L + b.val, by have := wid_lt L; have := b.isLt; omega⟩ ⟨100 + l, by omega⟩
      = (fi (ix3 (⟨wid L, wid_lt L⟩ : Fin 32) (⟨2 * b.val + 1, by have := b.isLt; omega⟩ : Fin 256) (⟨l, hl⟩ : Fin 100))).toNat := by
  have hw := wid_lt L; have hb := b.isLt
  unfold tokF
  refine congrArg (fun j => (fi j).toNat) (funext fun a => Fin.ext ?_)
  match a with
  | ⟨0, _⟩ => show (128 * wid L + b.val) / 128 = wid L; omega
  | ⟨1, _⟩ => show 2 * ((128 * wid L + b.val) % 128) + (100 + l) / 100 = 2 * b.val + 1; omega
  | ⟨2, _⟩ => show (100 + l) % 100 = l; omega

/-- The registers after a batch row's two lists, times the scale, are the row's pooled values. -/
theorem row_value (fi : S32x256x100.Idx → BitVec 32) (hin : ∀ j, (fi j).toNat < 100000) (fe : S100000x128.Idx → F .f32) (b : Fin 128)
    (n0 n1 : ℕ) (hn0 : n0 < 256) (hn1 : n1 < 256) (e0 : n0 = 2 * b.val) (e1 : n1 = 2 * b.val + 1)
    (off0 off1 : Fin 2 → ℕ) (inb0 : ∀ a, off0 a + S1x100.size a ≤ S256x100.size a) (inb1 : ∀ a, off1 a + S1x100.size a ≤ S256x100.size a)
    (ho0 : off0 = rowOff n0) (ho1 : off1 = rowOff n1)
    (N0 N1 : ℕ) (hN0 : N0 = 100) (hN1 : N1 = 100) (Z A0 A1 : T8 F)
    (hz : ∀ (j : Fin 8) (x : Fin 16), tget Z j (ix1 x) = FloatOps.ofBits .f32 0x00000000#32)
    (h0 : ∀ (j : Fin 8) (x : Fin 16), tget A0 j (ix1 x) = accList (gathered (F := F) (idxScr (F := F) L fi) (idxScr_inb (F := F) L fi hin) fe off0 inb0) ⟨16 * j.val + x.val, col_lt j x⟩ N0 (tget Z j (ix1 x)))
    (h1 : ∀ (j : Fin 8) (x : Fin 16), tget A1 j (ix1 x) = accList (gathered (F := F) (idxScr (F := F) L fi) (idxScr_inb (F := F) L fi hin) fe off1 inb1) ⟨16 * j.val + x.val, col_lt j x⟩ N1 (tget A0 j (ix1 x)))
    (j : Fin 8) (x : Fin 16) :
    FloatOps.mulf (tget A1 j (ix1 x)) (scaleC (F := F)) = PV (F := F) L fe fi b ⟨16 * j.val + x.val, col_lt j x⟩ := by
  subst ho0 ho1 hN0 hN1 e0 e1
  rw [h1, h0, hz]
  unfold PV pooledBuf
  refine congrArg (fun a => FloatOps.mulf a (scaleC (F := F))) ?_
  refine accList_two _ _ _ _ (fun l hl => ?_) (fun l hl => ?_)
  · beta_reduce
    rw [dif_pos (show l < 200 by omega)]
    refine (gathered_apply L fi hin fe (2 * b.val) hn0 ⟨l, hl⟩ _).trans ?_
    exact congrArg (fun t => embAtF fe t _) (tokF_first L fi b l hl).symm
  · beta_reduce
    rw [dif_pos (show 100 + l < 200 by omega)]
    refine (gathered_apply L fi hin fe (2 * b.val + 1) hn1 ⟨l, hl⟩ _).trans ?_
    exact congrArg (fun t => embAtF fe t _) (tokF_second L fi b l hl).symm

end Cert.KernelIdeal.Tile

end
-- ==== Proof.TileTrip.lean ====
/-
  One trip of the group loop, with values. The trip issues the next six lists one before each wait, waits for the six
  in flight, adds each slot's hundred rows to the registers, and after every second list stores the registers times
  the scale into a row of the pooled scratch. A batch row's two lists are its 200 tokens' table rows in order, so what is
  stored is the row's pooled value; rows stored in earlier trips are not touched.
-/
import proofs.«207436_g25675314495810_cont_9to1_828_42_alg».proof.Proof.TileVal
import proofs.«207436_g25675314495810_cont_9to1_828_42_alg».proof.Proof.RowOps
import proofs.«207436_g25675314495810_cont_9to1_828_42_alg».proof.Proof.AccTrip
import proofs.«207436_g25675314495810_cont_9to1_828_42_alg».proof.Proof.RowValue

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U] [CountersIn U]

local notation "𝕄" => MT nD τ sig (HIx 1) (Elt F) ℕ U ℕ

variable [Infinite ℕ]
theorem Loaded_open (d : Dev nD) (L : grid0.Coords) (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a) :
    Loaded (F := F) (U := U) d L dst sem qi qe fI hI fe off inb ⊢
      iprop((∃ g, dst.view.loc (V d (cV L) (jV L)) ↦[dst.view.set]{fullShare}
                (dst.view.write (Elt F) g (gathered (F := F) fI hI fe off inb) Finset.univ))
        ∗ (sI.view.loc (V d (cV L) (jV L)) ↦{qi} fI)
        ∗ (eV.view.loc (V d (cV L) (jV L)) ↦{qe} fe) ∗ semVal (V d (cV L) (jV L), SemLoc.dma sem) 0) := by
  unfold Loaded; exact Entails.refl _
theorem Free_intro (d : Dev nD) (L : grid0.Coords) (dst : Memref sig .scVector .vmem S100x128 .f32) (sem : DmaSem sig) (qi qe : PosShare TreeShare)
    (fI : S256x100.Idx → BitVec 32) (fe : Buf (Elt F) (eLoc d)) (g : Buf (Elt F) (dst.view.loc (V d (cV L) (jV L)))) :
    iprop((dst.view.loc (V d (cV L) (jV L)) ↦[dst.view.set]{fullShare} g)
        ∗ (sI.view.loc (V d (cV L) (jV L)) ↦{qi} fI)
        ∗ (eV.view.loc (V d (cV L) (jV L)) ↦{qe} fe) ∗ semVal (V d (cV L) (jV L), SemLoc.dma sem) 0)
      ⊢ Free (F := F) (U := U) d L dst sem qi qe fI fe := by
  unfold Free
  iintro ⟨Hd, Hi, He, Hs⟩
  isplitl [Hd]; · iexists _; iexact Hd
  isplitl [Hi]; · iexact Hi
  isplitl [He]; · iexact He
  iexact Hs

theorem Free_open (d : Dev nD) (L : grid0.Coords) (dst : Memref sig .scVector .vmem S100x128 .f32) (sem : DmaSem sig) (qi qe : PosShare TreeShare)
    (fI : S256x100.Idx → BitVec 32) (fe : Buf (Elt F) (eLoc d)) :
    Free (F := F) (U := U) d L dst sem qi qe fI fe ⊢
      iprop((∃ g, dst.view.loc (V d (cV L) (jV L)) ↦[dst.view.set]{fullShare} g)
        ∗ (sI.view.loc (V d (cV L) (jV L)) ↦{qi} fI)
        ∗ (eV.view.loc (V d (cV L) (jV L)) ↦{qe} fe) ∗ semVal (V d (cV L) (jV L), SemLoc.dma sem) 0) := by
  unfold Free; exact Entails.refl _

/-- A register of zeros. -/
abbrev zv : FVec F S16 .f32 := fun _ => FloatOps.ofBits .f32 0x00000000#32

theorem accList_succ (w : S100x128.Idx → F .f32) (e : Fin 128) (t : ℕ) (a : F .f32) (ht : t < 100) :
    accList w e (t + 1) a = FloatOps.addf (accList w e t a) (w (ix2 ⟨t, ht⟩ e)) := by
  show FloatOps.addf (accList w e t a) (if h : t < 100 then w (ix2 ⟨t, h⟩ e) else FloatOps.ofBits .f32 0x00000000#32) = _
  rw [dif_pos ht]

theorem zv8_get (j : Fin 8) (x : Fin 16) :
    tget ((zv (F := F), zv (F := F), zv (F := F), zv (F := F), zv (F := F), zv (F := F), zv (F := F), zv (F := F)) : T8 F) j (ix1 x) = FloatOps.ofBits .f32 0x00000000#32 := by
  match j with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

set_option maxHeartbeats 40000000 in
/-- One trip of the group loop. -/
theorem grp_tripV (d : Dev nD) (L : grid0.Coords) (qe : PosShare TreeShare) (fi : Buf (Elt F) (iLoc d)) (hin : ∀ j, (fi j).toNat < 100000)
    (fe : Buf (Elt F) (eLoc d)) (O : CellTallies nD τ sig (HIx 1)) (W : Waits sig (HIx 1)) (k : Fin k0_t1_loop.trips) (acc : Unit) :
    grpInvV (F := F) (U := U) d L qe fi hin fe O W k.val acc
      ⊢ wp frame (wpE (defs₀ (F := F)) 𝒱₀ (V d (cV L) (jV L)) none) Set.univ
          (k0_t1_body L iV (Memref.isWhole_whole _) eV (Memref.isWhole_whole _) oV (Memref.isWhole_whole _) sI (Memref.isWhole_whole _) sR (Memref.isWhole_whole _) sA (Memref.isWhole_whole _) cc0_scratch3 cc0_scratch4 cc0_scratch5 cc0_scratch6 cc0_scratch7 cc0_scratch8 cc0_scoped0 cc0_scoped1 scaleC k acc)
          (grpInvV (F := F) (U := U) d L qe fi hin fe O W (k.val + 1)) := by
    have hI := idxScr_inb (F := F) L fi hin

    have hk : k.val < 42 := k.isLt
    have hc1 := cond1_true k
    have hc2 := cond2_true k
    have hc3 := cond3_true k
    have hc4 := cond4_true k
    have hc5 := cond5_true k
    unfold grpInvV k0_t1_body
    iintro ⟨#Hmw, H0, H1, H2, H3, H4, HF5, ⟨%fA, HsA, %hfA⟩, %W', %hW', HO⟩
    sl_exec
    -- list 6k+5 into slot 5
    iapply (issue_slot (F := F) (U := U) d L slot5 cc0_scratch8.sem (sh5 fullShare) (sh5 qe) (idxScr (F := F) L fi) hI fe (k0_off2 k) (k0_off2_inb k hc1) _) $$ [HF5]
    · iexact HF5
    iintro HN5
    sl_exec
    -- slot 0's list has landed
    ihave HB0 := (Entails.of_eq (SlotSt_busy (F := F) (U := U) d L slot0 _ _ _ _ hI fe (6 * k.val + 0) (rowOff (6 * k.val + 0)) (rowInb _ (by omega)) rfl (by omega))) $$ H0
    iapply (wait_slot (F := F) (U := U) d L slot0 cc0_scratch3.sem _ _ _ hI fe _ _ _ O _ _) $$ [HB0 HO]
    · isplitl [HB0]; · iexact HB0
      isplitl [HO]; · iexact HO
      iexact Hmw
    iintro ⟨HL0, HO⟩
    ihave HL0 := (Loaded_open (F := F) (U := U) d L slot0 _ _ _ _ hI fe _ _) $$ HL0
    icases HL0 with ⟨⟨%g0, Hd0⟩, Hi0, He0, Hs0⟩
    sl_exec
    -- the slot's hundred rows are added to the registers
    sl_for (accInv (F := F) (U := U) d L slot0 g0 (gathered (F := F) (idxScr (F := F) L fi) hI fe (rowOff (6 * k.val + 0)) (rowInb _ (by omega))) (zv (F := F), zv (F := F), zv (F := F), zv (F := F), zv (F := F), zv (F := F), zv (F := F), zv (F := F))) $$ [Hd0]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot0 g0 _ _ _ t.val 0 (k0_off4_eq t) ht (by omega) _ x).trans ((congrArg₂ FloatOps.addf (ha ⟨0, by omega⟩ x) rfl).trans (accList_succ (F := F) _ _ _ _ ht).symm)
      | ⟨1, _⟩ => exact (addRow_apply (F := F) slot0 g0 _ _ _ t.val 16 (k0_off5_eq t) ht (by omega) _ x).trans ((congrArg₂ FloatOps.addf (ha ⟨1, by omega⟩ x) rfl).trans (accList_succ (F := F) _ _ _ _ ht).symm)
      | ⟨2, _⟩ => exact (addRow_apply (F := F) slot0 g0 _ _ _ t.val 32 (k0_off6_eq t) ht (by omega) _ x).trans ((congrArg₂ FloatOps.addf (ha ⟨2, by omega⟩ x) rfl).trans (accList_succ (F := F) _ _ _ _ ht).symm)
      | ⟨3, _⟩ => exact (addRow_apply (F := F) slot0 g0 _ _ _ t.val 48 (k0_off7_eq t) ht (by omega) _ x).trans ((congrArg₂ FloatOps.addf (ha ⟨3, by omega⟩ x) rfl).trans (accList_succ (F := F) _ _ _ _ ht).symm)
      | ⟨4, _⟩ => exact (addRow_apply (F := F) slot0 g0 _ _ _ t.val 64 (k0_off8_eq t) ht (by omega) _ x).trans ((congrArg₂ FloatOps.addf (ha ⟨4, by omega⟩ x) rfl).trans (accList_succ (F := F) _ _ _ _ ht).symm)
      | ⟨5, _⟩ => exact (addRow_apply (F := F) slot0 g0 _ _ _ t.val 80 (k0_off9_eq t) ht (by omega) _ x).trans ((congrArg₂ FloatOps.addf (ha ⟨5, by omega⟩ x) rfl).trans (accList_succ (F := F) _ _ _ _ ht).symm)
      | ⟨6, _⟩ => exact (addRow_apply (F := F) slot0 g0 _ _ _ t.val 96 (k0_off10_eq t) ht (by omega) _ x).trans ((congrArg₂ FloatOps.addf (ha ⟨6, by omega⟩ x) rfl).trans (accList_succ (F := F) _ _ _ _ ht).symm)
      | ⟨7, _⟩ => exact (addRow_apply (F := F) slot0 g0 _ _ _ t.val 112 (k0_off11_eq t) ht (by omega) _ x).trans ((congrArg₂ FloatOps.addf (ha ⟨7, by omega⟩ x) rfl).trans (accList_succ (F := F) _ _ _ _ ht).symm)
    · unfold accInv
      isplitl [Hd0]; · iexact Hd0
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a0 Hacc0
    unfold accInv
    icases Hacc0 with ⟨Hd0, %ha0⟩
    sl_exec
    -- list 6k+6 into slot 0, which has been read
    iapply (issue_slot (F := F) (U := U) d L slot0 cc0_scratch3.sem (sh0 fullShare) (sh0 qe) (idxScr (F := F) L fi) hI fe (k0_off12 k) (k0_off12_inb k hc2) _) $$ [Hd0 Hi0 He0 Hs0]
    · iapply (Free_intro (F := F) (U := U) d L slot0 cc0_scratch3.sem _ _ _ _ _)
      isplitl [Hd0]; · iexact Hd0
      isplitl [Hi0]; · iexact Hi0
      isplitl [He0]; · iexact He0
      iexact Hs0
    iintro HN0
    sl_exec
    -- slot 1's list has landed
    ihave HB1 := (Entails.of_eq (SlotSt_busy (F := F) (U := U) d L slot1 _ _ _ _ hI fe (6 * k.val + 1) (rowOff (6 * k.val + 1)) (rowInb _ (by omega)) rfl (by omega))) $$ H1
    iapply (wait_slot (F := F) (U := U) d L slot1 cc0_scratch4.sem _ _ _ hI fe _ _ _ O _ _) $$ [HB1 HO]
    · isplitl [HB1]; · iexact HB1
      isplitl [HO]; · iexact HO
      iexact Hmw
    iintro ⟨HL1, HO⟩
    ihave HL1 := (Loaded_open (F := F) (U := U) d L slot1 _ _ _ _ hI fe _ _) $$ HL1
    icases HL1 with ⟨⟨%g1, Hd1⟩, Hi1, He1, Hs1⟩
    sl_exec
    -- the slot's hundred rows are added to the registers
    sl_for (accInv (F := F) (U := U) d L slot1 g1 (gathered (F := F) (idxScr (F := F) L fi) hI fe (rowOff (6 * k.val + 1)) (rowInb _ (by omega))) a0) $$ [Hd1]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot1 g1 _ _ _ t.val 0 (k0_off13_eq t) ht (by omega) _ x).trans ((congrArg₂ FloatOps.addf (ha ⟨0, by omega⟩ x) rfl).trans (accList_succ (F := F) _ _ _ _ ht).symm)
      | ⟨1, _⟩ => exact (addRow_apply (F := F) slot1 g1 _ _ _ t.val 16 (k0_off14_eq t) ht (by omega) _ x).trans ((congrArg₂ FloatOps.addf (ha ⟨1, by omega⟩ x) rfl).trans (accList_succ (F := F) _ _ _ _ ht).symm)
      | ⟨2, _⟩ => exact (addRow_apply (F := F) slot1 g1 _ _ _ t.val 32 (k0_off15_eq t) ht (by omega) _ x).trans ((congrArg₂ FloatOps.addf (ha ⟨2, by omega⟩ x) rfl).trans (accList_succ (F := F) _ _ _ _ ht).symm)
      | ⟨3, _⟩ => exact (addRow_apply (F := F) slot1 g1 _ _ _ t.val 48 (k0_off16_eq t) ht (by omega) _ x).trans ((congrArg₂ FloatOps.addf (ha ⟨3, by omega⟩ x) rfl).trans (accList_succ (F := F) _ _ _ _ ht).symm)
      | ⟨4, _⟩ => exact (addRow_apply (F := F) slot1 g1 _ _ _ t.val 64 (k0_off17_eq t) ht (by omega) _ x).trans ((congrArg₂ FloatOps.addf (ha ⟨4, by omega⟩ x) rfl).trans (accList_succ (F := F) _ _ _ _ ht).symm)
      | ⟨5, _⟩ => exact (addRow_apply (F := F) slot1 g1 _ _ _ t.val 80 (k0_off18_eq t) ht (by omega) _ x).trans ((congrArg₂ FloatOps.addf (ha ⟨5, by omega⟩ x) rfl).trans (accList_succ (F := F) _ _ _ _ ht).symm)
      | ⟨6, _⟩ => exact (addRow_apply (F := F) slot1 g1 _ _ _ t.val 96 (k0_off19_eq t) ht (by omega) _ x).trans ((congrArg₂ FloatOps.addf (ha ⟨6, by omega⟩ x) rfl).trans (accList_succ (F := F) _ _ _ _ ht).symm)
      | ⟨7, _⟩ => exact (addRow_apply (F := F) slot1 g1 _ _ _ t.val 112 (k0_off20_eq t) ht (by omega) _ x).trans ((congrArg₂ FloatOps.addf (ha ⟨7, by omega⟩ x) rfl).trans (accList_succ (F := F) _ _ _ _ ht).symm)
    · unfold accInv
      isplitl [Hd1]; · iexact Hd1
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a1 Hacc1
    unfold accInv
    icases Hacc1 with ⟨Hd1, %ha1⟩
    sl_exec
    -- list 6k+7 into slot 1, which has been read
    iapply (issue_slot (F := F) (U := U) d L slot1 cc0_scratch4.sem (sh1 fullShare) (sh1 qe) (idxScr (F := F) L fi) hI fe (k0_off29 k) (k0_off29_inb k hc3) _) $$ [Hd1 Hi1 He1 Hs1]
    · iapply (Free_intro (F := F) (U := U) d L slot1 cc0_scratch4.sem _ _ _ _ _)
      isplitl [Hd1]; · iexact Hd1
      isplitl [Hi1]; · iexact Hi1
      isplitl [He1]; · iexact He1
      iexact Hs1
    iintro HN1
    sl_exec
    -- slot 2's list has landed
    ihave HB2 := (Entails.of_eq (SlotSt_busy (F := F) (U := U) d L slot2 _ _ _ _ hI fe (6 * k.val + 2) (rowOff (6 * k.val + 2)) (rowInb _ (by omega)) rfl (by omega))) $$ H2
    iapply (wait_slot (F := F) (U := U) d L slot2 cc0_scratch5.sem _ _ _ hI fe _ _ _ O _ _) $$ [HB2 HO]
    · isplitl [HB2]; · iexact HB2
      isplitl [HO]; · iexact HO
      iexact Hmw
    iintro ⟨HL2, HO⟩
    ihave HL2 := (Loaded_open (F := F) (U := U) d L slot2 _ _ _ _ hI fe _ _) $$ HL2
    icases HL2 with ⟨⟨%g2, Hd2⟩, Hi2, He2, Hs2⟩
    sl_exec
    -- the slot's hundred rows are added to the registers
    sl_for (accInv (F := F) (U := U) d L slot2 g2 (gathered (F := F) (idxScr (F := F) L fi) hI fe (rowOff (6 * k.val + 2)) (rowInb _ (by omega))) (zv (F := F), zv (F := F), zv (F := F), zv (F := F), zv (F := F), zv (F := F), zv (F := F), zv (F := F))) $$ [Hd2]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot2 g2 _ _ _ t.val 0 (k0_off30_eq t) ht (by omega) _ x).trans ((congrArg₂ FloatOps.addf (ha ⟨0, by omega⟩ x) rfl).trans (accList_succ (F := F) _ _ _ _ ht).symm)
      | ⟨1, _⟩ => exact (addRow_apply (F := F) slot2 g2 _ _ _ t.val 16 (k0_off31_eq t) ht (by omega) _ x).trans ((congrArg₂ FloatOps.addf (ha ⟨1, by omega⟩ x) rfl).trans (accList_succ (F := F) _ _ _ _ ht).symm)
      | ⟨2, _⟩ => exact (addRow_apply (F := F) slot2 g2 _ _ _ t.val 32 (k0_off32_eq t) ht (by omega) _ x).trans ((congrArg₂ FloatOps.addf (ha ⟨2, by omega⟩ x) rfl).trans (accList_succ (F := F) _ _ _ _ ht).symm)
      | ⟨3, _⟩ => exact (addRow_apply (F := F) slot2 g2 _ _ _ t.val 48 (k0_off33_eq t) ht (by omega) _ x).trans ((congrArg₂ FloatOps.addf (ha ⟨3, by omega⟩ x) rfl).trans (accList_succ (F := F) _ _ _ _ ht).symm)
      | ⟨4, _⟩ => exact (addRow_apply (F := F) slot2 g2 _ _ _ t.val 64 (k0_off34_eq t) ht (by omega) _ x).trans ((congrArg₂ FloatOps.addf (ha ⟨4, by omega⟩ x) rfl).trans (accList_succ (F := F) _ _ _ _ ht).symm)
      | ⟨5, _⟩ => exact (addRow_apply (F := F) slot2 g2 _ _ _ t.val 80 (k0_off35_eq t) ht (by omega) _ x).trans ((congrArg₂ FloatOps.addf (ha ⟨5, by omega⟩ x) rfl).trans (accList_succ (F := F) _ _ _ _ ht).symm)
      | ⟨6, _⟩ => exact (addRow_apply (F := F) slot2 g2 _ _ _ t.val 96 (k0_off36_eq t) ht (by omega) _ x).trans ((congrArg₂ FloatOps.addf (ha ⟨6, by omega⟩ x) rfl).trans (accList_succ (F := F) _ _ _ _ ht).symm)
      | ⟨7, _⟩ => exact (addRow_apply (F := F) slot2 g2 _ _ _ t.val 112 (k0_off37_eq t) ht (by omega) _ x).trans ((congrArg₂ FloatOps.addf (ha ⟨7, by omega⟩ x) rfl).trans (accList_succ (F := F) _ _ _ _ ht).symm)
    · unfold accInv
      isplitl [Hd2]; · iexact Hd2
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a2 Hacc2
    unfold accInv
    icases Hacc2 with ⟨Hd2, %ha2⟩
    sl_exec
    -- list 6k+8 into slot 2, which has been read
    iapply (issue_slot (F := F) (U := U) d L slot2 cc0_scratch5.sem (sh2 fullShare) (sh2 qe) (idxScr (F := F) L fi) hI fe (k0_off38 k) (k0_off38_inb k hc4) _) $$ [Hd2 Hi2 He2 Hs2]
    · iapply (Free_intro (F := F) (U := U) d L slot2 cc0_scratch5.sem _ _ _ _ _)
      isplitl [Hd2]; · iexact Hd2
      isplitl [Hi2]; · iexact Hi2
      isplitl [He2]; · iexact He2
      iexact Hs2
    iintro HN2
    sl_exec
    -- slot 3's list has landed
    ihave HB3 := (Entails.of_eq (SlotSt_busy (F := F) (U := U) d L slot3 _ _ _ _ hI fe (6 * k.val + 3) (rowOff (6 * k.val + 3)) (rowInb _ (by omega)) rfl (by omega))) $$ H3
    iapply (wait_slot (F := F) (U := U) d L slot3 cc0_scratch6.sem _ _ _ hI fe _ _ _ O _ _) $$ [HB3 HO]
    · isplitl [HB3]; · iexact HB3
      isplitl [HO]; · iexact HO
      iexact Hmw
    iintro ⟨HL3, HO⟩
    ihave HL3 := (Loaded_open (F := F) (U := U) d L slot3 _ _ _ _ hI fe _ _) $$ HL3
    icases HL3 with ⟨⟨%g3, Hd3⟩, Hi3, He3, Hs3⟩
    sl_exec
    -- the slot's hundred rows are added to the registers
    sl_for (accInv (F := F) (U := U) d L slot3 g3 (gathered (F := F) (idxScr (F := F) L fi) hI fe (rowOff (6 * k.val + 3)) (rowInb _ (by omega))) a2) $$ [Hd3]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot3 g3 _ _ _ t.val 0 (k0_off39_eq t) ht (by omega) _ x).trans ((congrArg₂ FloatOps.addf (ha ⟨0, by omega⟩ x) rfl).trans (accList_succ (F := F) _ _ _ _ ht).symm)
      | ⟨1, _⟩ => exact (addRow_apply (F := F) slot3 g3 _ _ _ t.val 16 (k0_off40_eq t) ht (by omega) _ x).trans ((congrArg₂ FloatOps.addf (ha ⟨1, by omega⟩ x) rfl).trans (accList_succ (F := F) _ _ _ _ ht).symm)
      | ⟨2, _⟩ => exact (addRow_apply (F := F) slot3 g3 _ _ _ t.val 32 (k0_off41_eq t) ht (by omega) _ x).trans ((congrArg₂ FloatOps.addf (ha ⟨2, by omega⟩ x) rfl).trans (accList_succ (F := F) _ _ _ _ ht).symm)
      | ⟨3, _⟩ => exact (addRow_apply (F := F) slot3 g3 _ _ _ t.val 48 (k0_off42_eq t) ht (by omega) _ x).trans ((congrArg₂ FloatOps.addf (ha ⟨3, by omega⟩ x) rfl).trans (accList_succ (F := F) _ _ _ _ ht).symm)
      | ⟨4, _⟩ => exact (addRow_apply (F := F) slot3 g3 _ _ _ t.val 64 (k0_off43_eq t) ht (by omega) _ x).trans ((congrArg₂ FloatOps.addf (ha ⟨4, by omega⟩ x) rfl).trans (accList_succ (F := F) _ _ _ _ ht).symm)
      | ⟨5, _⟩ => exact (addRow_apply (F := F) slot3 g3 _ _ _ t.val 80 (k0_off44_eq t) ht (by omega) _ x).trans ((congrArg₂ FloatOps.addf (ha ⟨5, by omega⟩ x) rfl).trans (accList_succ (F := F) _ _ _ _ ht).symm)
      | ⟨6, _⟩ => exact (addRow_apply (F := F) slot3 g3 _ _ _ t.val 96 (k0_off45_eq t) ht (by omega) _ x).trans ((congrArg₂ FloatOps.addf (ha ⟨6, by omega⟩ x) rfl).trans (accList_succ (F := F) _ _ _ _ ht).symm)
      | ⟨7, _⟩ => exact (addRow_apply (F := F) slot3 g3 _ _ _ t.val 112 (k0_off46_eq t) ht (by omega) _ x).trans ((congrArg₂ FloatOps.addf (ha ⟨7, by omega⟩ x) rfl).trans (accList_succ (F := F) _ _ _ _ ht).symm)
    · unfold accInv
      isplitl [Hd3]; · iexact Hd3
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a3 Hacc3
    unfold accInv
    icases Hacc3 with ⟨Hd3, %ha3⟩
    sl_exec
    -- list 6k+9 into slot 3, which has been read
    iapply (issue_slot (F := F) (U := U) d L slot3 cc0_scratch6.sem (sh3 fullShare) (sh3 qe) (idxScr (F := F) L fi) hI fe (k0_off47 k) (k0_off47_inb k hc5) _) $$ [Hd3 Hi3 He3 Hs3]
    · iapply (Free_intro (F := F) (U := U) d L slot3 cc0_scratch6.sem _ _ _ _ _)
      isplitl [Hd3]; · iexact Hd3
      isplitl [Hi3]; · iexact Hi3
      isplitl [He3]; · iexact He3
      iexact Hs3
    iintro HN3
    sl_exec
    -- slot 4's list has landed
    ihave HB4 := (Entails.of_eq (SlotSt_busy (F := F) (U := U) d L slot4 _ _ _ _ hI fe (6 * k.val + 4) (rowOff (6 * k.val + 4)) (rowInb _ (by omega)) rfl (by omega))) $$ H4
    iapply (wait_slot (F := F) (U := U) d L slot4 cc0_scratch7.sem _ _ _ hI fe _ _ _ O _ _) $$ [HB4 HO]
    · isplitl [HB4]; · iexact HB4
      isplitl [HO]; · iexact HO
      iexact Hmw
    iintro ⟨HL4, HO⟩
    ihave HL4 := (Loaded_open (F := F) (U := U) d L slot4 _ _ _ _ hI fe _ _) $$ HL4
    icases HL4 with ⟨⟨%g4, Hd4⟩, Hi4, He4, Hs4⟩
    sl_exec
    -- the slot's hundred rows are added to the registers
    sl_for (accInv (F := F) (U := U) d L slot4 g4 (gathered (F := F) (idxScr (F := F) L fi) hI fe (rowOff (6 * k.val + 4)) (rowInb _ (by omega))) (zv (F := F), zv (F := F), zv (F := F), zv (F := F), zv (F := F), zv (F := F), zv (F := F), zv (F := F))) $$ [Hd4]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot4 g4 _ _ _ t.val 0 (k0_off48_eq t) ht (by omega) _ x).trans ((congrArg₂ FloatOps.addf (ha ⟨0, by omega⟩ x) rfl).trans (accList_succ (F := F) _ _ _ _ ht).symm)
      | ⟨1, _⟩ => exact (addRow_apply (F := F) slot4 g4 _ _ _ t.val 16 (k0_off49_eq t) ht (by omega) _ x).trans ((congrArg₂ FloatOps.addf (ha ⟨1, by omega⟩ x) rfl).trans (accList_succ (F := F) _ _ _ _ ht).symm)
      | ⟨2, _⟩ => exact (addRow_apply (F := F) slot4 g4 _ _ _ t.val 32 (k0_off50_eq t) ht (by omega) _ x).trans ((congrArg₂ FloatOps.addf (ha ⟨2, by omega⟩ x) rfl).trans (accList_succ (F := F) _ _ _ _ ht).symm)
      | ⟨3, _⟩ => exact (addRow_apply (F := F) slot4 g4 _ _ _ t.val 48 (k0_off51_eq t) ht (by omega) _ x).trans ((congrArg₂ FloatOps.addf (ha ⟨3, by omega⟩ x) rfl).trans (accList_succ (F := F) _ _ _ _ ht).symm)
      | ⟨4, _⟩ => exact (addRow_apply (F := F) slot4 g4 _ _ _ t.val 64 (k0_off52_eq t) ht (by omega) _ x).trans ((congrArg₂ FloatOps.addf (ha ⟨4, by omega⟩ x) rfl).trans (accList_succ (F := F) _ _ _ _ ht).symm)
      | ⟨5, _⟩ => exact (addRow_apply (F := F) slot4 g4 _ _ _ t.val 80 (k0_off53_eq t) ht (by omega) _ x).trans ((congrArg₂ FloatOps.addf (ha ⟨5, by omega⟩ x) rfl).trans (accList_succ (F := F) _ _ _ _ ht).symm)
      | ⟨6, _⟩ => exact (addRow_apply (F := F) slot4 g4 _ _ _ t.val 96 (k0_off54_eq t) ht (by omega) _ x).trans ((congrArg₂ FloatOps.addf (ha ⟨6, by omega⟩ x) rfl).trans (accList_succ (F := F) _ _ _ _ ht).symm)
      | ⟨7, _⟩ => exact (addRow_apply (F := F) slot4 g4 _ _ _ t.val 112 (k0_off55_eq t) ht (by omega) _ x).trans ((congrArg₂ FloatOps.addf (ha ⟨7, by omega⟩ x) rfl).trans (accList_succ (F := F) _ _ _ _ ht).symm)
    · unfold accInv
      isplitl [Hd4]; · iexact Hd4
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a4 Hacc4
    unfold accInv
    icases Hacc4 with ⟨Hd4, %ha4⟩
    by_cases hc6 : k0_cond6 k = 1#1
    · have hk41 : k.val < 41 := (cond6_iff k).mp hc6
      sl_exec
      -- list 6k+10 into slot 4, which has been read
      iapply (issue_slot (F := F) (U := U) d L slot4 cc0_scratch7.sem (sh4 fullShare) (sh4 qe) (idxScr (F := F) L fi) hI fe (k0_off56 k) (k0_off56_inb k hc6) _) $$ [Hd4 Hi4 He4 Hs4]
      · iapply (Free_intro (F := F) (U := U) d L slot4 cc0_scratch7.sem _ _ _ _ _)
        isplitl [Hd4]; · iexact Hd4
        isplitl [Hi4]; · iexact Hi4
        isplitl [He4]; · iexact He4
        iexact Hs4
      iintro HN4
      sl_exec
      -- slot 5's list (issued in this trip) has landed
      iapply (wait_slot (F := F) (U := U) d L slot5 cc0_scratch8.sem _ _ _ hI fe _ _ _ O _ _) $$ [HN5 HO]
      · isplitl [HN5]; · iexact HN5
        isplitl [HO]; · iexact HO
        iexact Hmw
      iintro ⟨HL5, HO⟩
      ihave HL5 := (Loaded_open (F := F) (U := U) d L slot5 _ _ _ _ hI fe _ _) $$ HL5
      icases HL5 with ⟨⟨%g5, Hd5⟩, Hi5, He5, Hs5⟩
      sl_exec
      -- the slot's hundred rows are added to the registers
      sl_for (accInv (F := F) (U := U) d L slot5 g5 (gathered (F := F) (idxScr (F := F) L fi) hI fe (k0_off2 k) (k0_off2_inb k hc1)) a4) $$ [Hd5]
      case region =>
        intro t a
        unfold accInv
        iintro ⟨Hd, %ha⟩
        sl_exec
        sl_step
        isplitl [Hd]; · iexact Hd
        ipureintro
        intro j x
        have ht : t.val < 100 := t.isLt
        sl_unfold_run_names
        match j with
        | ⟨0, _⟩ => exact (addRow_apply (F := F) slot5 g5 _ _ _ t.val 0 (k0_off57_eq t) ht (by omega) _ x).trans ((congrArg₂ FloatOps.addf (ha ⟨0, by omega⟩ x) rfl).trans (accList_succ (F := F) _ _ _ _ ht).symm)
        | ⟨1, _⟩ => exact (addRow_apply (F := F) slot5 g5 _ _ _ t.val 16 (k0_off58_eq t) ht (by omega) _ x).trans ((congrArg₂ FloatOps.addf (ha ⟨1, by omega⟩ x) rfl).trans (accList_succ (F := F) _ _ _ _ ht).symm)
        | ⟨2, _⟩ => exact (addRow_apply (F := F) slot5 g5 _ _ _ t.val 32 (k0_off59_eq t) ht (by omega) _ x).trans ((congrArg₂ FloatOps.addf (ha ⟨2, by omega⟩ x) rfl).trans (accList_succ (F := F) _ _ _ _ ht).symm)
        | ⟨3, _⟩ => exact (addRow_apply (F := F) slot5 g5 _ _ _ t.val 48 (k0_off60_eq t) ht (by omega) _ x).trans ((congrArg₂ FloatOps.addf (ha ⟨3, by omega⟩ x) rfl).trans (accList_succ (F := F) _ _ _ _ ht).symm)
        | ⟨4, _⟩ => exact (addRow_apply (F := F) slot5 g5 _ _ _ t.val 64 (k0_off61_eq t) ht (by omega) _ x).trans ((congrArg₂ FloatOps.addf (ha ⟨4, by omega⟩ x) rfl).trans (accList_succ (F := F) _ _ _ _ ht).symm)
        | ⟨5, _⟩ => exact (addRow_apply (F := F) slot5 g5 _ _ _ t.val 80 (k0_off62_eq t) ht (by omega) _ x).trans ((congrArg₂ FloatOps.addf (ha ⟨5, by omega⟩ x) rfl).trans (accList_succ (F := F) _ _ _ _ ht).symm)
        | ⟨6, _⟩ => exact (addRow_apply (F := F) slot5 g5 _ _ _ t.val 96 (k0_off63_eq t) ht (by omega) _ x).trans ((congrArg₂ FloatOps.addf (ha ⟨6, by omega⟩ x) rfl).trans (accList_succ (F := F) _ _ _ _ ht).symm)
        | ⟨7, _⟩ => exact (addRow_apply (F := F) slot5 g5 _ _ _ t.val 112 (k0_off64_eq t) ht (by omega) _ x).trans ((congrArg₂ FloatOps.addf (ha ⟨7, by omega⟩ x) rfl).trans (accList_succ (F := F) _ _ _ _ ht).symm)
      · unfold accInv
        isplitl [Hd5]; · iexact Hd5
        ipureintro; intro j x
        sl_unfold_run_names
        match j with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
      iintro %a5 Hacc5
      unfold accInv
      icases Hacc5 with ⟨Hd5, %ha5⟩
      sl_exec
      sl_step
      isplitr; · iexact Hmw
      isplitl [HN0]; · iapply (Entails.of_eq (SlotSt_busy (F := F) (U := U) d L slot0 _ _ _ _ hI fe (6 * (k.val + 1) + 0) (k0_off12 k) (k0_off12_inb k hc2) ((k0_off12_eq k).trans (by show (![6 * k.val + 6, 0] : Fin 2 → ℕ) = ![6 * (k.val + 1) + 0, 0]; rw [show 6 * k.val + 6 = 6 * (k.val + 1) + 0 by omega])) (by omega)).symm); iexact HN0
      isplitl [HN1]; · iapply (Entails.of_eq (SlotSt_busy (F := F) (U := U) d L slot1 _ _ _ _ hI fe (6 * (k.val + 1) + 1) (k0_off29 k) (k0_off29_inb k hc3) ((k0_off29_eq k).trans (by show (![6 * k.val + 7, 0] : Fin 2 → ℕ) = ![6 * (k.val + 1) + 1, 0]; rw [show 6 * k.val + 7 = 6 * (k.val + 1) + 1 by omega])) (by omega)).symm); iexact HN1
      isplitl [HN2]; · iapply (Entails.of_eq (SlotSt_busy (F := F) (U := U) d L slot2 _ _ _ _ hI fe (6 * (k.val + 1) + 2) (k0_off38 k) (k0_off38_inb k hc4) ((k0_off38_eq k).trans (by show (![6 * k.val + 8, 0] : Fin 2 → ℕ) = ![6 * (k.val + 1) + 2, 0]; rw [show 6 * k.val + 8 = 6 * (k.val + 1) + 2 by omega])) (by omega)).symm); iexact HN2
      isplitl [HN3]; · iapply (Entails.of_eq (SlotSt_busy (F := F) (U := U) d L slot3 _ _ _ _ hI fe (6 * (k.val + 1) + 3) (k0_off47 k) (k0_off47_inb k hc5) ((k0_off47_eq k).trans (by show (![6 * k.val + 9, 0] : Fin 2 → ℕ) = ![6 * (k.val + 1) + 3, 0]; rw [show 6 * k.val + 9 = 6 * (k.val + 1) + 3 by omega])) (by omega)).symm); iexact HN3
      isplitl [HN4]; · iapply (Entails.of_eq (SlotSt_busy (F := F) (U := U) d L slot4 _ _ _ _ hI fe (6 * (k.val + 1) + 4) (k0_off56 k) (k0_off56_inb k hc6) ((k0_off56_eq k).trans (by show (![6 * k.val + 10, 0] : Fin 2 → ℕ) = ![6 * (k.val + 1) + 4, 0]; rw [show 6 * k.val + 10 = 6 * (k.val + 1) + 4 by omega])) (by omega)).symm); iexact HN4
      isplitl [Hd5 Hi5 He5 Hs5]
      · iapply (Free_intro (F := F) (U := U) d L slot5 cc0_scratch8.sem _ _ _ _ _)
        isplitl [Hd5]; · iexact Hd5
        isplitl [Hi5]; · iexact Hi5
        isplitl [He5]; · iexact He5
        iexact Hs5
      isplitl [HsA]
      · iexists _; isplitl [HsA]; · iexact HsA
        ipureintro
        intro b e hb
        sl_unfold_run_names
        show (sA.view.writes (Elt F) fA (tripList (F := F) k scaleC a1 a3 a5)) (ix2 b e) = PV (F := F) L fe fi b e
        by_cases hlt : b.val < 3 * k.val
        · exact (trip_miss (F := F) k fA scaleC a1 a3 a5 b e hlt).trans (hfA b e hlt)
        · obtain ⟨r, hr⟩ : ∃ r : Fin 3, b.val = 3 * k.val + r.val := ⟨⟨b.val - 3 * k.val, by omega⟩, by show b.val = 3 * k.val + (b.val - 3 * k.val); omega⟩
          obtain ⟨j, x, hjx⟩ : ∃ (j : Fin 8) (x : Fin 16), e.val = 16 * j.val + x.val :=
            ⟨⟨e.val / 16, by have := e.isLt; omega⟩, ⟨e.val % 16, Nat.mod_lt _ (by decide)⟩, by show e.val = 16 * (e.val / 16) + e.val % 16; omega⟩
          have eb : b = ⟨3 * k.val + r.val, trip_row_lt k r.val r.isLt⟩ := Fin.ext hr
          have ee : e = ⟨16 * j.val + x.val, col_lt j x⟩ := Fin.ext hjx
          subst eb ee
          refine (trip_hit (F := F) k fA scaleC a1 a3 a5 r j x).trans ?_
          match r with
          | ⟨0, _⟩ =>
            exact row_value (F := F) L fi hin fe ⟨3 * k.val + 0, by omega⟩ (6 * k.val + 0) (6 * k.val + 1) (by omega) (by omega)
              (by show 6 * k.val + 0 = 2 * (3 * k.val + 0); omega) (by show 6 * k.val + 1 = 2 * (3 * k.val + 0) + 1; omega)
              (rowOff (6 * k.val + 0)) (rowOff (6 * k.val + 1)) (rowInb _ (by omega)) (rowInb _ (by omega)) rfl rfl _ _ (by decide) (by decide) _ _ _ zv8_get ha0 ha1 j x
          | ⟨1, _⟩ =>
            exact row_value (F := F) L fi hin fe ⟨3 * k.val + 1, by omega⟩ (6 * k.val + 2) (6 * k.val + 3) (by omega) (by omega)
              (by show 6 * k.val + 2 = 2 * (3 * k.val + 1); omega) (by show 6 * k.val + 3 = 2 * (3 * k.val + 1) + 1; omega)
              (rowOff (6 * k.val + 2)) (rowOff (6 * k.val + 3)) (rowInb _ (by omega)) (rowInb _ (by omega)) rfl rfl _ _ (by decide) (by decide) _ _ _ zv8_get ha2 ha3 j x
          | ⟨2, _⟩ =>
            exact row_value (F := F) L fi hin fe ⟨3 * k.val + 2, by omega⟩ (6 * k.val + 4) (6 * k.val + 5) (by omega) (by omega)
              (by show 6 * k.val + 4 = 2 * (3 * k.val + 2); omega) (by show 6 * k.val + 5 = 2 * (3 * k.val + 2) + 1; omega)
              (rowOff (6 * k.val + 4)) (k0_off2 k) (rowInb _ (by omega)) (k0_off2_inb k hc1) rfl (k0_off2_eq k) _ _ (by decide) (by decide) _ _ _ zv8_get ha4 ha5 j x
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    · have hk41 : ¬ k.val < 41 := fun h => hc6 ((cond6_iff k).mpr h)
      sl_exec
      -- slot 5's list (issued in this trip) has landed
      iapply (wait_slot (F := F) (U := U) d L slot5 cc0_scratch8.sem _ _ _ hI fe _ _ _ O _ _) $$ [HN5 HO]
      · isplitl [HN5]; · iexact HN5
        isplitl [HO]; · iexact HO
        iexact Hmw
      iintro ⟨HL5, HO⟩
      ihave HL5 := (Loaded_open (F := F) (U := U) d L slot5 _ _ _ _ hI fe _ _) $$ HL5
      icases HL5 with ⟨⟨%g5, Hd5⟩, Hi5, He5, Hs5⟩
      sl_exec
      -- the slot's hundred rows are added to the registers
      sl_for (accInv (F := F) (U := U) d L slot5 g5 (gathered (F := F) (idxScr (F := F) L fi) hI fe (k0_off2 k) (k0_off2_inb k hc1)) a4) $$ [Hd5]
      case region =>
        intro t a
        unfold accInv
        iintro ⟨Hd, %ha⟩
        sl_exec
        sl_step
        isplitl [Hd]; · iexact Hd
        ipureintro
        intro j x
        have ht : t.val < 100 := t.isLt
        sl_unfold_run_names
        match j with
        | ⟨0, _⟩ => exact (addRow_apply (F := F) slot5 g5 _ _ _ t.val 0 (k0_off57_eq t) ht (by omega) _ x).trans ((congrArg₂ FloatOps.addf (ha ⟨0, by omega⟩ x) rfl).trans (accList_succ (F := F) _ _ _ _ ht).symm)
        | ⟨1, _⟩ => exact (addRow_apply (F := F) slot5 g5 _ _ _ t.val 16 (k0_off58_eq t) ht (by omega) _ x).trans ((congrArg₂ FloatOps.addf (ha ⟨1, by omega⟩ x) rfl).trans (accList_succ (F := F) _ _ _ _ ht).symm)
        | ⟨2, _⟩ => exact (addRow_apply (F := F) slot5 g5 _ _ _ t.val 32 (k0_off59_eq t) ht (by omega) _ x).trans ((congrArg₂ FloatOps.addf (ha ⟨2, by omega⟩ x) rfl).trans (accList_succ (F := F) _ _ _ _ ht).symm)
        | ⟨3, _⟩ => exact (addRow_apply (F := F) slot5 g5 _ _ _ t.val 48 (k0_off60_eq t) ht (by omega) _ x).trans ((congrArg₂ FloatOps.addf (ha ⟨3, by omega⟩ x) rfl).trans (accList_succ (F := F) _ _ _ _ ht).symm)
        | ⟨4, _⟩ => exact (addRow_apply (F := F) slot5 g5 _ _ _ t.val 64 (k0_off61_eq t) ht (by omega) _ x).trans ((congrArg₂ FloatOps.addf (ha ⟨4, by omega⟩ x) rfl).trans (accList_succ (F := F) _ _ _ _ ht).symm)
        | ⟨5, _⟩ => exact (addRow_apply (F := F) slot5 g5 _ _ _ t.val 80 (k0_off62_eq t) ht (by omega) _ x).trans ((congrArg₂ FloatOps.addf (ha ⟨5, by omega⟩ x) rfl).trans (accList_succ (F := F) _ _ _ _ ht).symm)
        | ⟨6, _⟩ => exact (addRow_apply (F := F) slot5 g5 _ _ _ t.val 96 (k0_off63_eq t) ht (by omega) _ x).trans ((congrArg₂ FloatOps.addf (ha ⟨6, by omega⟩ x) rfl).trans (accList_succ (F := F) _ _ _ _ ht).symm)
        | ⟨7, _⟩ => exact (addRow_apply (F := F) slot5 g5 _ _ _ t.val 112 (k0_off64_eq t) ht (by omega) _ x).trans ((congrArg₂ FloatOps.addf (ha ⟨7, by omega⟩ x) rfl).trans (accList_succ (F := F) _ _ _ _ ht).symm)
      · unfold accInv
        isplitl [Hd5]; · iexact Hd5
        ipureintro; intro j x
        sl_unfold_run_names
        match j with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
      iintro %a5 Hacc5
      unfold accInv
      icases Hacc5 with ⟨Hd5, %ha5⟩
      sl_exec
      sl_step
      isplitr; · iexact Hmw
      isplitl [HN0]; · iapply (Entails.of_eq (SlotSt_busy (F := F) (U := U) d L slot0 _ _ _ _ hI fe (6 * (k.val + 1) + 0) (k0_off12 k) (k0_off12_inb k hc2) ((k0_off12_eq k).trans (by show (![6 * k.val + 6, 0] : Fin 2 → ℕ) = ![6 * (k.val + 1) + 0, 0]; rw [show 6 * k.val + 6 = 6 * (k.val + 1) + 0 by omega])) (by omega)).symm); iexact HN0
      isplitl [HN1]; · iapply (Entails.of_eq (SlotSt_busy (F := F) (U := U) d L slot1 _ _ _ _ hI fe (6 * (k.val + 1) + 1) (k0_off29 k) (k0_off29_inb k hc3) ((k0_off29_eq k).trans (by show (![6 * k.val + 7, 0] : Fin 2 → ℕ) = ![6 * (k.val + 1) + 1, 0]; rw [show 6 * k.val + 7 = 6 * (k.val + 1) + 1 by omega])) (by omega)).symm); iexact HN1
      isplitl [HN2]; · iapply (Entails.of_eq (SlotSt_busy (F := F) (U := U) d L slot2 _ _ _ _ hI fe (6 * (k.val + 1) + 2) (k0_off38 k) (k0_off38_inb k hc4) ((k0_off38_eq k).trans (by show (![6 * k.val + 8, 0] : Fin 2 → ℕ) = ![6 * (k.val + 1) + 2, 0]; rw [show 6 * k.val + 8 = 6 * (k.val + 1) + 2 by omega])) (by omega)).symm); iexact HN2
      isplitl [HN3]; · iapply (Entails.of_eq (SlotSt_busy (F := F) (U := U) d L slot3 _ _ _ _ hI fe (6 * (k.val + 1) + 3) (k0_off47 k) (k0_off47_inb k hc5) ((k0_off47_eq k).trans (by show (![6 * k.val + 9, 0] : Fin 2 → ℕ) = ![6 * (k.val + 1) + 3, 0]; rw [show 6 * k.val + 9 = 6 * (k.val + 1) + 3 by omega])) (by omega)).symm); iexact HN3
      isplitl [Hd4 Hi4 He4 Hs4]
      · iapply (Entails.of_eq (SlotSt_free (F := F) (U := U) d L slot4 _ _ _ _ hI fe (6 * (k.val + 1) + 4) (by omega)).symm)
        iapply (Free_intro (F := F) (U := U) d L slot4 cc0_scratch7.sem _ _ _ _ _)
        isplitl [Hd4]; · iexact Hd4
        isplitl [Hi4]; · iexact Hi4
        isplitl [He4]; · iexact He4
        iexact Hs4
      isplitl [Hd5 Hi5 He5 Hs5]
      · iapply (Free_intro (F := F) (U := U) d L slot5 cc0_scratch8.sem _ _ _ _ _)
        isplitl [Hd5]; · iexact Hd5
        isplitl [Hi5]; · iexact Hi5
        isplitl [He5]; · iexact He5
        iexact Hs5
      isplitl [HsA]
      · iexists _; isplitl [HsA]; · iexact HsA
        ipureintro
        intro b e hb
        sl_unfold_run_names
        show (sA.view.writes (Elt F) fA (tripList (F := F) k scaleC a1 a3 a5)) (ix2 b e) = PV (F := F) L fe fi b e
        by_cases hlt : b.val < 3 * k.val
        · exact (trip_miss (F := F) k fA scaleC a1 a3 a5 b e hlt).trans (hfA b e hlt)
        · obtain ⟨r, hr⟩ : ∃ r : Fin 3, b.val = 3 * k.val + r.val := ⟨⟨b.val - 3 * k.val, by omega⟩, by show b.val = 3 * k.val + (b.val - 3 * k.val); omega⟩
          obtain ⟨j, x, hjx⟩ : ∃ (j : Fin 8) (x : Fin 16), e.val = 16 * j.val + x.val :=
            ⟨⟨e.val / 16, by have := e.isLt; omega⟩, ⟨e.val % 16, Nat.mod_lt _ (by decide)⟩, by show e.val = 16 * (e.val / 16) + e.val % 16; omega⟩
          have eb : b = ⟨3 * k.val + r.val, trip_row_lt k r.val r.isLt⟩ := Fin.ext hr
          have ee : e = ⟨16 * j.val + x.val, col_lt j x⟩ := Fin.ext hjx
          subst eb ee
          refine (trip_hit (F := F) k fA scaleC a1 a3 a5 r j x).trans ?_
          match r with
          | ⟨0, _⟩ =>
            exact row_value (F := F) L fi hin fe ⟨3 * k.val + 0, by omega⟩ (6 * k.val + 0) (6 * k.val + 1) (by omega) (by omega)
              (by show 6 * k.val + 0 = 2 * (3 * k.val + 0); omega) (by show 6 * k.val + 1 = 2 * (3 * k.val + 0) + 1; omega)
              (rowOff (6 * k.val + 0)) (rowOff (6 * k.val + 1)) (rowInb _ (by omega)) (rowInb _ (by omega)) rfl rfl _ _ (by decide) (by decide) _ _ _ zv8_get ha0 ha1 j x
          | ⟨1, _⟩ =>
            exact row_value (F := F) L fi hin fe ⟨3 * k.val + 1, by omega⟩ (6 * k.val + 2) (6 * k.val + 3) (by omega) (by omega)
              (by show 6 * k.val + 2 = 2 * (3 * k.val + 1); omega) (by show 6 * k.val + 3 = 2 * (3 * k.val + 1) + 1; omega)
              (rowOff (6 * k.val + 2)) (rowOff (6 * k.val + 3)) (rowInb _ (by omega)) (rowInb _ (by omega)) rfl rfl _ _ (by decide) (by decide) _ _ _ zv8_get ha2 ha3 j x
          | ⟨2, _⟩ =>
            exact row_value (F := F) L fi hin fe ⟨3 * k.val + 2, by omega⟩ (6 * k.val + 4) (6 * k.val + 5) (by omega) (by omega)
              (by show 6 * k.val + 4 = 2 * (3 * k.val + 2); omega) (by show 6 * k.val + 5 = 2 * (3 * k.val + 2) + 1; omega)
              (rowOff (6 * k.val + 4)) (k0_off2 k) (rowInb _ (by omega)) (k0_off2_inb k hc1) rfl (k0_off2_eq k) _ _ (by decide) (by decide) _ _ _ zv8_get ha4 ha5 j x
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp

end Cert.KernelIdeal.Tile
end
-- ==== Proof.AccTail.lean ====
/-
  The pooled scratch after the stores of the last two batch rows, 126 and 127, in terms of the registers. The
  sixteen pieces are row 127's eight over row 126's eight; writing a list that is two lists one after the other
  is writing the older one first. So an entry of row 127 reads among the newer eight; an entry of row 126 is
  missed by all of those and reads among the older eight; an entry of a lower row is missed by all sixteen.
-/
import proofs.«207436_g25675314495810_cont_9to1_828_42_alg».proof.Proof.AccTrip

noncomputable section

namespace Cert.KernelIdeal.Tile

open Cert.KernelIdeal Cert.KernelIdeal.Gen
open Idealize.ShloMosaic Idealize.ShloMosaic.ValueIdx

variable {F : FTy → Type} [FloatOps F] [Named F]

/-- The stores of batch rows 127 (registers `B`) and 126 (registers `A`), the newest first. -/
def tailList (c : F .f32) (A B : T8 F) : List (View.Piece (Elt F) S128x128 .f32) :=
  [⟨Rect.unit (s := S128x128) ![127, 112] S1x16.size inb_S128x128_S1x16_127_112, rowPay c B.2.2.2.2.2.2.2⟩,
   ⟨Rect.unit (s := S128x128) ![127, 96] S1x16.size inb_S128x128_S1x16_127_96, rowPay c B.2.2.2.2.2.2.1⟩,
   ⟨Rect.unit (s := S128x128) ![127, 80] S1x16.size inb_S128x128_S1x16_127_80, rowPay c B.2.2.2.2.2.1⟩,
   ⟨Rect.unit (s := S128x128) ![127, 64] S1x16.size inb_S128x128_S1x16_127_64, rowPay c B.2.2.2.2.1⟩,
   ⟨Rect.unit (s := S128x128) ![127, 48] S1x16.size inb_S128x128_S1x16_127_48, rowPay c B.2.2.2.1⟩,
   ⟨Rect.unit (s := S128x128) ![127, 32] S1x16.size inb_S128x128_S1x16_127_32, rowPay c B.2.2.1⟩,
   ⟨Rect.unit (s := S128x128) ![127, 16] S1x16.size inb_S128x128_S1x16_127_16, rowPay c B.2.1⟩,
   ⟨Rect.unit (s := S128x128) ![127, 0] S1x16.size inb_S128x128_S1x16_127_0, rowPay c B.1⟩,
   ⟨Rect.unit (s := S128x128) ![126, 112] S1x16.size inb_S128x128_S1x16_126_112, rowPay c A.2.2.2.2.2.2.2⟩,
   ⟨Rect.unit (s := S128x128) ![126, 96] S1x16.size inb_S128x128_S1x16_126_96, rowPay c A.2.2.2.2.2.2.1⟩,
   ⟨Rect.unit (s := S128x128) ![126, 80] S1x16.size inb_S128x128_S1x16_126_80, rowPay c A.2.2.2.2.2.1⟩,
   ⟨Rect.unit (s := S128x128) ![126, 64] S1x16.size inb_S128x128_S1x16_126_64, rowPay c A.2.2.2.2.1⟩,
   ⟨Rect.unit (s := S128x128) ![126, 48] S1x16.size inb_S128x128_S1x16_126_48, rowPay c A.2.2.2.1⟩,
   ⟨Rect.unit (s := S128x128) ![126, 32] S1x16.size inb_S128x128_S1x16_126_32, rowPay c A.2.2.1⟩,
   ⟨Rect.unit (s := S128x128) ![126, 16] S1x16.size inb_S128x128_S1x16_126_16, rowPay c A.2.1⟩,
   ⟨Rect.unit (s := S128x128) ![126, 0] S1x16.size inb_S128x128_S1x16_126_0, rowPay c A.1⟩]

/-- Row 126's eight stores, -/
abbrev list126 (c : F .f32) (A : T8 F) : List (View.Piece (Elt F) S128x128 .f32) :=
  tailPieces126 (rowPay c A.2.2.2.2.2.2.2) (rowPay c A.2.2.2.2.2.2.1) (rowPay c A.2.2.2.2.2.1) (rowPay c A.2.2.2.2.1)
    (rowPay c A.2.2.2.1) (rowPay c A.2.2.1) (rowPay c A.2.1) (rowPay c A.1)
/-- and row 127's. -/
abbrev list127 (c : F .f32) (B : T8 F) : List (View.Piece (Elt F) S128x128 .f32) :=
  tailPieces127 (rowPay c B.2.2.2.2.2.2.2) (rowPay c B.2.2.2.2.2.2.1) (rowPay c B.2.2.2.2.2.1) (rowPay c B.2.2.2.2.1)
    (rowPay c B.2.2.2.1) (rowPay c B.2.2.1) (rowPay c B.2.1) (rowPay c B.1)

theorem tailList_eq (c : F .f32) (A B : T8 F) : tailList c A B = list127 c B ++ list126 c A := by
  unfold tailList list127 list126 tailPieces127 tailPieces126
  simp only [List.cons_append, List.nil_append]

set_option maxHeartbeats 1600000 in
/-- Writing the sixteen is writing row 126's eight, then row 127's over them. -/
theorem tail_writes (fA : S128x128.Idx → F .f32) (c : F .f32) (A B : T8 F) :
    sA.view.writes (Elt F) fA (tailList c A B) = accV.writes (Elt F) (accV.writes (Elt F) fA (list126 c A)) (list127 c B) := by
  rw [tailList_eq]
  exact View.writes_append (Val := Elt F) accV fA (list127 c B) (list126 c A)

set_option maxRecDepth 8192 in
theorem tail_hit127 (fA : S128x128.Idx → F .f32) (c : F .f32) (A B : T8 F) (j : Fin 8) (x : Fin 16) :
    (sA.view.writes (Elt F) fA (tailList c A B)) (ix2 (⟨127, by decide⟩ : Fin 128) (⟨16 * j.val + x.val, col_lt j x⟩ : Fin 128))
      = FloatOps.mulf (tget B j (ix1 x)) c := by
  rw [tail_writes]
  fin_cases j
  exacts [(sA_tail127_hit_0 _ _ _ _ _ _ _ _ _ x _ rfl rfl).trans (storeRow_apply _ c _),
    (sA_tail127_hit_1 _ _ _ _ _ _ _ _ _ x _ rfl rfl).trans (storeRow_apply _ c _),
    (sA_tail127_hit_2 _ _ _ _ _ _ _ _ _ x _ rfl rfl).trans (storeRow_apply _ c _),
    (sA_tail127_hit_3 _ _ _ _ _ _ _ _ _ x _ rfl rfl).trans (storeRow_apply _ c _),
    (sA_tail127_hit_4 _ _ _ _ _ _ _ _ _ x _ rfl rfl).trans (storeRow_apply _ c _),
    (sA_tail127_hit_5 _ _ _ _ _ _ _ _ _ x _ rfl rfl).trans (storeRow_apply _ c _),
    (sA_tail127_hit_6 _ _ _ _ _ _ _ _ _ x _ rfl rfl).trans (storeRow_apply _ c _),
    (sA_tail127_hit_7 _ _ _ _ _ _ _ _ _ x _ rfl rfl).trans (storeRow_apply _ c _)]

set_option maxRecDepth 8192 in
theorem tail_hit126 (fA : S128x128.Idx → F .f32) (c : F .f32) (A B : T8 F) (j : Fin 8) (x : Fin 16) :
    (sA.view.writes (Elt F) fA (tailList c A B)) (ix2 (⟨126, by decide⟩ : Fin 128) (⟨16 * j.val + x.val, col_lt j x⟩ : Fin 128))
      = FloatOps.mulf (tget A j (ix1 x)) c := by
  rw [tail_writes]
  refine (sA_tail127_miss _ _ _ _ _ _ _ _ _ _ (by show (126 : ℕ) ≠ 127; decide)).trans ?_
  fin_cases j
  exacts [(sA_tail126_hit_0 _ _ _ _ _ _ _ _ _ x _ rfl rfl).trans (storeRow_apply _ c _),
    (sA_tail126_hit_1 _ _ _ _ _ _ _ _ _ x _ rfl rfl).trans (storeRow_apply _ c _),
    (sA_tail126_hit_2 _ _ _ _ _ _ _ _ _ x _ rfl rfl).trans (storeRow_apply _ c _),
    (sA_tail126_hit_3 _ _ _ _ _ _ _ _ _ x _ rfl rfl).trans (storeRow_apply _ c _),
    (sA_tail126_hit_4 _ _ _ _ _ _ _ _ _ x _ rfl rfl).trans (storeRow_apply _ c _),
    (sA_tail126_hit_5 _ _ _ _ _ _ _ _ _ x _ rfl rfl).trans (storeRow_apply _ c _),
    (sA_tail126_hit_6 _ _ _ _ _ _ _ _ _ x _ rfl rfl).trans (storeRow_apply _ c _),
    (sA_tail126_hit_7 _ _ _ _ _ _ _ _ _ x _ rfl rfl).trans (storeRow_apply _ c _)]

theorem tail_miss (fA : S128x128.Idx → F .f32) (c : F .f32) (A B : T8 F) (b e : Fin 128) (hb : b.val < 126) :
    (sA.view.writes (Elt F) fA (tailList c A B)) (ix2 b e) = fA (ix2 b e) := by
  rw [tail_writes]
  exact (sA_tail127_miss _ _ _ _ _ _ _ _ _ (ix2 b e) (by show b.val ≠ 127; omega)).trans
    (sA_tail126_miss _ _ _ _ _ _ _ _ _ (ix2 b e) (by show b.val ≠ 126; omega))

end Cert.KernelIdeal.Tile

end
-- ==== Proof.OutRows.lean ====
/-
  The tile's rows of the pooled array after its final copy. The task copies its pooled scratch, 128 × 128, whole onto
  rows [128 wid, 128 wid + 128) of the pooled array (wid the tile's number): entry (128 wid + b, e) of the array then
  holds entry (b, e) of the scratch. So if the scratch holds, at every (b, e), what a whole-array function G has at
  (128 wid + b, e), the tile's rows hold G.
-/
import proofs.«207436_g25675314495810_cont_9to1_828_42_alg».proof.Proof.TileVal
import Idealize.ShloMosaic.Lib.Pipeline.Value

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig (HIx 1) (Elt F) ℕ U ℕ

/-- Entry (b, e) of the tile's rows of the pooled array sits at (128 wid + b, e). -/
theorem oRowK_emb (L : grid0.Coords) (b e : Fin 128) :
    (oRowK L).view.emb (ix2 b e)
      = (ix2 (⟨128 * wid L + b.val, by have := wid_lt L; have := b.isLt; omega⟩ : Fin 4096) e : S4096x128.Idx) := by
  have h0 : k0_off97 L 0 = 256 * (L 1).val + 128 * (L 0).val := congrFun (k0_off97_eq L) 0
  have h1 : k0_off97 L 1 = 0 := congrFun (k0_off97_eq L) 1
  funext a; apply Fin.ext
  match a with
  | ⟨0, _⟩ => show k0_off97 L 0 + 1 * b.val = 128 * wid L + b.val; unfold wid; omega
  | ⟨1, _⟩ => show k0_off97 L 1 + 1 * e.val = e.val; omega

/-- After the copy of the pooled scratch (holding `Tt`) onto the tile's rows, those rows hold `G` when the scratch
    held `G`'s entries for them. -/
theorem out_rows (d : Dev nD) (L : grid0.Coords) (fo : Buf (Elt F) (oLoc d)) (Tt : S128x128.Idx → F .f32) (G : S4096x128.Idx → F .f32)
    (h : ∀ b e : Fin 128, Tt (ix2 b e) = G (ix2 (⟨128 * wid L + b.val, by have := wid_lt L; have := b.isLt; omega⟩ : Fin 4096) e)) :
    ((oRowK L).view.loc (V d (cV L) (jV L)) ↦[(oRowK L).view.set]{fullShare}
        ((oRowK L).view.writes (Elt F) fo
          [⟨Rect.whole S128x128, (ReadAs.same : ReadAs (Elt F) S128x128 .f32 S128x128 .f32).apply (View.read (Elt F) sA.view Tt)⟩]) : sProp 𝕄)
      = ((oRowK L).view.loc (V d (cV L) (jV L)) ↦[(oRowK L).view.set]{fullShare} G) := by
  refine pointsTo_congr fun i hi => ?_
  obtain ⟨x, rfl⟩ := View.exists_emb_of_mem_set (oRowK L).view hi
  obtain ⟨b, e, rfl⟩ : ∃ (b e : Fin 128), x = ix2 b e := ⟨x 0, x 1, eq_ix2 x⟩
  -- the written contents under an element of the view are what the view reads there
  refine ((View.read_apply (v := (oRowK L).view) (Val := Elt F) _ (ix2 b e)).trans (cast_eq _ _)).symm.trans ?_
  -- the view reads the one piece's payload: the scratch's contents
  have hw : (Rect.whole S128x128).emb (ix2 b e) = (ix2 b e : S128x128.Idx) := Rect.emb_whole_apply S128x128 (ix2 b e)
  refine (congrArg ((oRowK L).view.read (Elt F) _) hw.symm).trans ?_
  refine (View.read_writes_cons_emb (oRowK L).view fo (Rect.whole S128x128) _ [] (ix2 b e)).trans ?_
  show sA.view.read (Elt F) Tt (ix2 b e) = _
  refine ((View.read_apply (v := sA.view) (Val := Elt F) Tt (ix2 b e)).trans (cast_eq _ _)).trans ?_
  refine (h b e).trans ?_
  exact congrArg G (oRowK_emb L b e).symm

end Cert.KernelIdeal.Tile

end
-- ==== Proof.TileBody.lean ====
/-
  A vector subcore's whole task. It copies its block of the token array into its scratch (every word then names a
  row of the table), splits its row scratch into six slots and its shares of the table and of the token scratch into
  a piece per slot, issues lists 0 … 4, runs the 42 trips of the group loop, then the last four lists (batch rows 126
  and 127), and copies its pooled scratch onto its 128 rows of the pooled array: each row then holds the sum, in order
  from zero, of the 200 table rows its tokens name, times the scale. Everything borrowed is handed back.
-/
import proofs.«207436_g25675314495810_cont_9to1_828_42_alg».proof.Proof.TileTrip
import proofs.«207436_g25675314495810_cont_9to1_828_42_alg».proof.Proof.AccTail
import proofs.«207436_g25675314495810_cont_9to1_828_42_alg».proof.Proof.OutRows

noncomputable section

namespace Cert.KernelIdeal.Tile

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U] [CountersIn U]

local notation "𝕄" => MT nD τ sig (HIx 1) (Elt F) ℕ U ℕ
variable [Infinite ℕ]

variable (d : Dev nD) (L : grid0.Coords)
abbrev cell0 (d : Dev nD) (c : Fin τ.nSC) (i : Fin τ.nSub) : GSem nD τ sig := (V d c i, .dma cc0_scratch3.sem)
abbrev cell1 (d : Dev nD) (c : Fin τ.nSC) (i : Fin τ.nSub) : GSem nD τ sig := (V d c i, .dma cc0_scratch4.sem)
abbrev cell2 (d : Dev nD) (c : Fin τ.nSC) (i : Fin τ.nSub) : GSem nD τ sig := (V d c i, .dma cc0_scratch5.sem)
abbrev cell3 (d : Dev nD) (c : Fin τ.nSC) (i : Fin τ.nSub) : GSem nD τ sig := (V d c i, .dma cc0_scratch6.sem)
abbrev cell4 (d : Dev nD) (c : Fin τ.nSC) (i : Fin τ.nSub) : GSem nD τ sig := (V d c i, .dma cc0_scratch7.sem)
abbrev cell5 (d : Dev nD) (c : Fin τ.nSC) (i : Fin τ.nSub) : GSem nD τ sig := (V d c i, .dma cc0_scratch8.sem)
abbrev cell6 (d : Dev nD) (c : Fin τ.nSC) (i : Fin τ.nSub) : GSem nD τ sig := (V d c i, .dma cc0_scoped0.sem)
abbrev cell7 (d : Dev nD) (c : Fin τ.nSC) (i : Fin τ.nSub) : GSem nD τ sig := (V d c i, .dma cc0_scoped1.sem)

omit [FloatOps F] [Named F] [CountersIn U] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0
          ∗ bigSep (((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))) fun g => semVal g 0) := by
  unfold SparseCore.Cfg.ownSems0
  rw [SparseCore.bigSep_erase' ((mem_ownCells (g := (cell0 d (cV L) (jV L)))).mpr ⟨rfl, by show (SemLoc.dma cc0_scratch3.sem : SemLoc sig).isScoped .scVector = true; decide⟩),
    SparseCore.bigSep_erase' (Finset.mem_erase.mpr ⟨by simp [cell1, cell0]; decide, (mem_ownCells (g := (cell1 d (cV L) (jV L)))).mpr ⟨rfl, by show (SemLoc.dma cc0_scratch4.sem : SemLoc sig).isScoped .scVector = true; decide⟩⟩),
    SparseCore.bigSep_erase' (Finset.mem_erase.mpr ⟨by simp [cell2, cell1]; decide, Finset.mem_erase.mpr ⟨by simp [cell2, cell0]; decide, (mem_ownCells (g := (cell2 d (cV L) (jV L)))).mpr ⟨rfl, by show (SemLoc.dma cc0_scratch5.sem : SemLoc sig).isScoped .scVector = true; decide⟩⟩⟩),
    SparseCore.bigSep_erase' (Finset.mem_erase.mpr ⟨by simp [cell3, cell2]; decide, Finset.mem_erase.mpr ⟨by simp [cell3, cell1]; decide, Finset.mem_erase.mpr ⟨by simp [cell3, cell0]; decide, (mem_ownCells (g := (cell3 d (cV L) (jV L)))).mpr ⟨rfl, by show (SemLoc.dma cc0_scratch6.sem : SemLoc sig).isScoped .scVector = true; decide⟩⟩⟩⟩),
    SparseCore.bigSep_erase' (Finset.mem_erase.mpr ⟨by simp [cell4, cell3]; decide, Finset.mem_erase.mpr ⟨by simp [cell4, cell2]; decide, Finset.mem_erase.mpr ⟨by simp [cell4, cell1]; decide, Finset.mem_erase.mpr ⟨by simp [cell4, cell0]; decide, (mem_ownCells (g := (cell4 d (cV L) (jV L)))).mpr ⟨rfl, by show (SemLoc.dma cc0_scratch7.sem : SemLoc sig).isScoped .scVector = true; decide⟩⟩⟩⟩⟩),
    SparseCore.bigSep_erase' (Finset.mem_erase.mpr ⟨by simp [cell5, cell4]; decide, Finset.mem_erase.mpr ⟨by simp [cell5, cell3]; decide, Finset.mem_erase.mpr ⟨by simp [cell5, cell2]; decide, Finset.mem_erase.mpr ⟨by simp [cell5, cell1]; decide, Finset.mem_erase.mpr ⟨by simp [cell5, cell0]; decide, (mem_ownCells (g := (cell5 d (cV L) (jV L)))).mpr ⟨rfl, by show (SemLoc.dma cc0_scratch8.sem : SemLoc sig).isScoped .scVector = true; decide⟩⟩⟩⟩⟩⟩),
    SparseCore.bigSep_erase' (Finset.mem_erase.mpr ⟨by simp [cell6, cell5]; decide, Finset.mem_erase.mpr ⟨by simp [cell6, cell4]; decide, Finset.mem_erase.mpr ⟨by simp [cell6, cell3]; decide, Finset.mem_erase.mpr ⟨by simp [cell6, cell2]; decide, Finset.mem_erase.mpr ⟨by simp [cell6, cell1]; decide, Finset.mem_erase.mpr ⟨by simp [cell6, cell0]; decide, (mem_ownCells (g := (cell6 d (cV L) (jV L)))).mpr ⟨rfl, by show (SemLoc.dma cc0_scoped0.sem : SemLoc sig).isScoped .scVector = true; decide⟩⟩⟩⟩⟩⟩⟩),
    SparseCore.bigSep_erase' (Finset.mem_erase.mpr ⟨by simp [cell7, cell6]; decide, Finset.mem_erase.mpr ⟨by simp [cell7, cell5]; decide, Finset.mem_erase.mpr ⟨by simp [cell7, cell4]; decide, Finset.mem_erase.mpr ⟨by simp [cell7, cell3]; decide, Finset.mem_erase.mpr ⟨by simp [cell7, cell2]; decide, Finset.mem_erase.mpr ⟨by simp [cell7, cell1]; decide, Finset.mem_erase.mpr ⟨by simp [cell7, cell0]; decide, (mem_ownCells (g := (cell7 d (cV L) (jV L)))).mpr ⟨rfl, by show (SemLoc.dma cc0_scoped1.sem : SemLoc sig).isScoped .scVector = true; decide⟩⟩⟩⟩⟩⟩⟩⟩)]

omit [FloatOps F] [Named F] [CountersIn U] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := (Proc.scVector (cV L) (jV L))) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩)]

omit [FloatOps F] [Named F] [CountersIn U] in
theorem pts_iRowK (f : Buf (Elt F) (iLoc d)) :
    ((iRowK L).view.loc (V d (cV L) (jV L)) ↦[(iRowK L).view.set]{fullShare} f : sProp 𝕄) = iLoc d ↦[iRowSet L]{fullShare} f := rfl
omit [FloatOps F] [Named F] [CountersIn U] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] [Named F] [CountersIn U] in
theorem pts_eV (q : PosShare TreeShare) (f : Buf (Elt F) (eLoc d)) :
    ((eV).view.loc (V d (cV L) (jV L)) ↦{q} f : sProp 𝕄) = eLoc d ↦{q} f := rfl
omit [FloatOps F] [Named F] [CountersIn U] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] [Named F] [CountersIn U] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl
omit [FloatOps F] [Named F] [CountersIn U] in
theorem pts_sA (f : Buf (Elt F) ((V d (cV L) (jV L)).loc cc0_scratch2)) :
    ((sA).view.loc (V d (cV L) (jV L)) ↦{fullShare} f : sProp 𝕄) = (V d (cV L) (jV L)).loc cc0_scratch2 ↦{fullShare} f := rfl

/-- Naming what the pooled scratch held when it was copied out. -/
theorem name_out (d : Dev nD) (L : grid0.Coords) (fo : Buf (Elt F) (oLoc d)) (Tt : S128x128.Idx → F .f32) :
    ((oRowK L).view.loc (V d (cV L) (jV L)) ↦[(oRowK L).view.set]{fullShare}
        ((oRowK L).view.writes (Elt F) fo [⟨Rect.whole S128x128, (ReadAs.same : ReadAs (Elt F) S128x128 .f32 S128x128 .f32).apply (View.read (Elt F) sA.view Tt)⟩]) : sProp 𝕄)
      ⊢ iprop(∃ T' : S128x128.Idx → F .f32, ⌜T' = Tt⌝ ∗
          ((oRowK L).view.loc (V d (cV L) (jV L)) ↦[(oRowK L).view.set]{fullShare}
            ((oRowK L).view.writes (Elt F) fo [⟨Rect.whole S128x128, (ReadAs.same : ReadAs (Elt F) S128x128 .f32 S128x128 .f32).apply (View.read (Elt F) sA.view T')⟩]))) := by
  iintro H
  iexists Tt
  isplitr
  · ipureintro; rfl
  · iexact H

set_option maxHeartbeats 40000000 in
theorem tile_body (d : Dev nD) (L : grid0.Coords) (qe : PosShare TreeShare)
    (fi : Buf (Elt F) (iLoc d)) (fe : Buf (Elt F) (eLoc d)) (fo : Buf (Elt F) (oLoc d))
    (hin : ∀ j, (fi j).toNat < 100000) (hF : (K (F := F)).Facts)
    (O : CellTallies nD τ sig (HIx 1)) (W : Waits sig (HIx 1)) (hO : ∀ g, O g none = 0) :
    iprop(levAts (K (F := F)).L (K (F := F)).lev ∗ emp
        ∗ ((iLoc d ↦[iRowSet L]{fullShare} fi) ∗ (eLoc d ↦{qe} fe) ∗ (oLoc d ↦[oRowSet L]{fullShare} fo))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__pool L iV (Memref.isWhole_whole _) eV (Memref.isWhole_whole _) oV (Memref.isWhole_whole _)
            sI (Memref.isWhole_whole _) sR (Memref.isWhole_whole _) sA (Memref.isWhole_whole _)
            cc0_scratch3 cc0_scratch4 cc0_scratch5 cc0_scratch6 cc0_scratch7 cc0_scratch8 cc0_scoped0 cc0_scoped1)
          fun _ => iprop(((iLoc d ↦[iRowSet L]{fullShare} fi) ∗ (eLoc d ↦{qe} fe) ∗ (oLoc d ↦[oRowSet L]{fullShare} pooledBuf scaleC fe fi))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__pool_eq_skeleton]; unfold cc0__pool_skel
  rw [(K (F := F)).scopedBufs_V hF d (cV L) (jV L), SparseCore.Cfg.scopedSems0_V (Val := Elt F) d (cV L) (jV L), ownSems0_V, ownBufs_V]
  iintro ⟨#Hlv, -, ⟨Hi, He, Ho⟩, ⟨⟨%fsI, HsI⟩, ⟨%fsR, HsR⟩, ⟨%fsA, HsA⟩, Hbufs⟩, ⟨Hc0, Hc1, Hc2, Hc3, Hc4, Hc5, Hc6, Hc7, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) (U := U) d L _).symm) $$ Hi
  ihave Ho' := (Entails.of_eq (pts_oRowK (F := F) (U := U) d L _).symm) $$ Ho
  ihave He' := (Entails.of_eq (pts_eV (F := F) (U := U) d L _ _).symm) $$ He
  ihave HsI' := (Entails.of_eq (pts_sI (F := F) (U := U) d L _).symm) $$ HsI
  ihave HsR' := (Entails.of_eq (pts_sR (F := F) (U := U) d L _).symm) $$ HsR
  ihave HsA' := (Entails.of_eq (pts_sA (F := F) (U := U) d L _).symm) $$ HsA
  sl_exec

  -- the token scratch now holds the tile's block of the token array, whose words all name rows of the table
  have hI := idxScr_inb (F := F) L fi hin
  have eI : View.write (Elt F) sI.view fsI (tile_body.sl.dma0 d L fi) Finset.univ = idxScr (F := F) L fi := View.write_whole_univ _ _ _
  rw [eI]
  -- the row scratch into its slots; the table's share and the token scratch into a piece per slot
  ihave Hs := (sR_split (F := F) (U := U) d (cV L) (jV L) fsR) $$ HsR'
  icases Hs with ⟨HS0, HS1, HS2, HS3, HS4, HS5, HSr⟩
  ihave Hes := (share_split (F := F) (U := U) (ℓ := eV.view.loc (V d (cV L) (jV L))) Finset.univ qe fe).1 $$ He'
  icases Hes with ⟨HE0, HE1, HE2, HE3, HE4, HE5, HEr⟩
  ihave His := (share_split (F := F) (U := U) (ℓ := sI.view.loc (V d (cV L) (jV L))) Finset.univ fullShare (idxScr (F := F) L fi)).1 $$ HsI'
  icases His with ⟨HI0, HI1, HI2, HI3, HI4, HI5, HIr⟩
  -- list 0 into slot 0
  iapply (issue_slot (F := F) (U := U) d L slot0 cc0_scratch3.sem (sh0 fullShare) (sh0 qe) (idxScr (F := F) L fi) hI fe ![0, 0] inb_S256x100_S1x100_0_0 _) $$ [HS0 HI0 HE0 Hc0]
  · unfold Free
    isplitl [HS0]; · iexists _; iexact HS0
    isplitl [HI0]; · iexact HI0
    isplitl [HE0]; · iexact HE0
    iexact Hc0
  iintro HB0
  sl_exec
  -- list 1 into slot 1
  iapply (issue_slot (F := F) (U := U) d L slot1 cc0_scratch4.sem (sh1 fullShare) (sh1 qe) (idxScr (F := F) L fi) hI fe ![1, 0] inb_S256x100_S1x100_1_0 _) $$ [HS1 HI1 HE1 Hc1]
  · unfold Free
    isplitl [HS1]; · iexists _; iexact HS1
    isplitl [HI1]; · iexact HI1
    isplitl [HE1]; · iexact HE1
    iexact Hc1
  iintro HB1
  sl_exec
  -- list 2 into slot 2
  iapply (issue_slot (F := F) (U := U) d L slot2 cc0_scratch5.sem (sh2 fullShare) (sh2 qe) (idxScr (F := F) L fi) hI fe ![2, 0] inb_S256x100_S1x100_2_0 _) $$ [HS2 HI2 HE2 Hc2]
  · unfold Free
    isplitl [HS2]; · iexists _; iexact HS2
    isplitl [HI2]; · iexact HI2
    isplitl [HE2]; · iexact HE2
    iexact Hc2
  iintro HB2
  sl_exec
  -- list 3 into slot 3
  iapply (issue_slot (F := F) (U := U) d L slot3 cc0_scratch6.sem (sh3 fullShare) (sh3 qe) (idxScr (F := F) L fi) hI fe ![3, 0] inb_S256x100_S1x100_3_0 _) $$ [HS3 HI3 HE3 Hc3]
  · unfold Free
    isplitl [HS3]; · iexists _; iexact HS3
    isplitl [HI3]; · iexact HI3
    isplitl [HE3]; · iexact HE3
    iexact Hc3
  iintro HB3
  sl_exec
  -- list 4 into slot 4
  iapply (issue_slot (F := F) (U := U) d L slot4 cc0_scratch7.sem (sh4 fullShare) (sh4 qe) (idxScr (F := F) L fi) hI fe ![4, 0] inb_S256x100_S1x100_4_0 _) $$ [HS4 HI4 HE4 Hc4]
  · unfold Free
    isplitl [HS4]; · iexists _; iexact HS4
    isplitl [HI4]; · iexact HI4
    isplitl [HE4]; · iexact HE4
    iexact Hc4
  iintro HB4
  sl_exec
  -- the group loop
  sl_for (grpInvV (F := F) (U := U) d L qe fi hin fe O (insert (SemLoc.dma cc0_scoped0.sem, (default : HIx 1)) W)) $$ [Hmw HB0 HB1 HB2 HB3 HB4 HS5 HI5 HE5 Hc5 HsA' HO]

  case region =>
    intro k acc
    exact grp_tripV (F := F) (U := U) d L qe fi hin fe O _ k acc

  · unfold grpInvV
    isplitr; · iexact Hmw
    isplitl [HB0]; · iapply (Entails.of_eq (SlotSt_busy (F := F) (U := U) d L slot0 _ _ _ _ hI fe (6 * 0 + 0) ![0, 0] inb_S256x100_S1x100_0_0 rfl (by decide)).symm); iexact HB0
    isplitl [HB1]; · iapply (Entails.of_eq (SlotSt_busy (F := F) (U := U) d L slot1 _ _ _ _ hI fe (6 * 0 + 1) ![1, 0] inb_S256x100_S1x100_1_0 rfl (by decide)).symm); iexact HB1
    isplitl [HB2]; · iapply (Entails.of_eq (SlotSt_busy (F := F) (U := U) d L slot2 _ _ _ _ hI fe (6 * 0 + 2) ![2, 0] inb_S256x100_S1x100_2_0 rfl (by decide)).symm); iexact HB2
    isplitl [HB3]; · iapply (Entails.of_eq (SlotSt_busy (F := F) (U := U) d L slot3 _ _ _ _ hI fe (6 * 0 + 3) ![3, 0] inb_S256x100_S1x100_3_0 rfl (by decide)).symm); iexact HB3
    isplitl [HB4]; · iapply (Entails.of_eq (SlotSt_busy (F := F) (U := U) d L slot4 _ _ _ _ hI fe (6 * 0 + 4) ![4, 0] inb_S256x100_S1x100_4_0 rfl (by decide)).symm); iexact HB4
    isplitl [HS5 HI5 HE5 Hc5]
    · iapply (Free_intro (F := F) (U := U) d L slot5 cc0_scratch8.sem _ _ _ _ _)
      isplitl [HS5]; · iexact HS5
      isplitl [HI5]; · iexact HI5
      isplitl [HE5]; · iexact HE5
      iexact Hc5
    isplitl [HsA']
    · iexists _; isplitl [HsA']; · iexact HsA'
      ipureintro; intro b e hb; exact absurd hb (by omega)
    iexists _; isplitr
    · ipureintro; exact fun p hp => .inl hp
    · iexact HO

  iintro %accEnd HI
  have htr : Scf.trips k0_t1_loop.lb k0_t1_loop.ub k0_t1_loop.st = 42 := by decide
  rw [htr]
  unfold grpInvV
  icases HI with ⟨-, H0, H1, H2, H3, H4, HF5, ⟨%fA, HsA, %hfA⟩, %W', %hW', HO⟩
  sl_exec
  -- slot 0's list has landed
  ihave HB0 := (Entails.of_eq (SlotSt_busy (F := F) (U := U) d L slot0 _ _ _ _ hI fe (6 * 42 + 0) (rowOff (6 * 42 + 0)) (rowInb _ (by decide)) rfl (by decide))) $$ H0
  iapply (wait_slot (F := F) (U := U) d L slot0 cc0_scratch3.sem _ _ _ hI fe _ _ _ O _ _) $$ [HB0 HO]
  · isplitl [HB0]; · iexact HB0
    isplitl [HO]; · iexact HO
    iexact Hmw
  iintro ⟨HL0, HO⟩
  ihave HL0 := (Loaded_open (F := F) (U := U) d L slot0 _ _ _ _ hI fe _ _) $$ HL0
  icases HL0 with ⟨⟨%g0, Hd0⟩, Hi0, He0, Hs0⟩
  sl_exec
  -- the slot's hundred rows are added to the registers
  sl_for (accInv (F := F) (U := U) d L slot0 g0 (gathered (F := F) (idxScr (F := F) L fi) hI fe (rowOff (6 * 42 + 0)) (rowInb _ (by decide))) (zv (F := F), zv (F := F), zv (F := F), zv (F := F), zv (F := F), zv (F := F), zv (F := F), zv (F := F))) $$ [Hd0]
  case region =>
    intro t a
    unfold accInv
    iintro ⟨Hd, %ha⟩
    sl_exec
    sl_step
    isplitl [Hd]; · iexact Hd
    ipureintro
    intro j x
    have ht : t.val < 100 := t.isLt
    sl_unfold_run_names
    match j with
    | ⟨0, _⟩ => exact (addRow_apply (F := F) slot0 g0 _ _ _ t.val 0 (k0_off65_eq t) ht (by omega) _ x).trans ((congrArg₂ FloatOps.addf (ha ⟨0, by omega⟩ x) rfl).trans (accList_succ (F := F) _ _ _ _ ht).symm)
    | ⟨1, _⟩ => exact (addRow_apply (F := F) slot0 g0 _ _ _ t.val 16 (k0_off66_eq t) ht (by omega) _ x).trans ((congrArg₂ FloatOps.addf (ha ⟨1, by omega⟩ x) rfl).trans (accList_succ (F := F) _ _ _ _ ht).symm)
    | ⟨2, _⟩ => exact (addRow_apply (F := F) slot0 g0 _ _ _ t.val 32 (k0_off67_eq t) ht (by omega) _ x).trans ((congrArg₂ FloatOps.addf (ha ⟨2, by omega⟩ x) rfl).trans (accList_succ (F := F) _ _ _ _ ht).symm)
    | ⟨3, _⟩ => exact (addRow_apply (F := F) slot0 g0 _ _ _ t.val 48 (k0_off68_eq t) ht (by omega) _ x).trans ((congrArg₂ FloatOps.addf (ha ⟨3, by omega⟩ x) rfl).trans (accList_succ (F := F) _ _ _ _ ht).symm)
    | ⟨4, _⟩ => exact (addRow_apply (F := F) slot0 g0 _ _ _ t.val 64 (k0_off69_eq t) ht (by omega) _ x).trans ((congrArg₂ FloatOps.addf (ha ⟨4, by omega⟩ x) rfl).trans (accList_succ (F := F) _ _ _ _ ht).symm)
    | ⟨5, _⟩ => exact (addRow_apply (F := F) slot0 g0 _ _ _ t.val 80 (k0_off70_eq t) ht (by omega) _ x).trans ((congrArg₂ FloatOps.addf (ha ⟨5, by omega⟩ x) rfl).trans (accList_succ (F := F) _ _ _ _ ht).symm)
    | ⟨6, _⟩ => exact (addRow_apply (F := F) slot0 g0 _ _ _ t.val 96 (k0_off71_eq t) ht (by omega) _ x).trans ((congrArg₂ FloatOps.addf (ha ⟨6, by omega⟩ x) rfl).trans (accList_succ (F := F) _ _ _ _ ht).symm)
    | ⟨7, _⟩ => exact (addRow_apply (F := F) slot0 g0 _ _ _ t.val 112 (k0_off72_eq t) ht (by omega) _ x).trans ((congrArg₂ FloatOps.addf (ha ⟨7, by omega⟩ x) rfl).trans (accList_succ (F := F) _ _ _ _ ht).symm)
  · unfold accInv
    isplitl [Hd0]; · iexact Hd0
    ipureintro; intro j x
    sl_unfold_run_names
    match j with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  iintro %a0 Hacc0
  unfold accInv
  icases Hacc0 with ⟨Hd0, %ha0⟩
  sl_exec
  -- slot 1's list has landed
  ihave HB1 := (Entails.of_eq (SlotSt_busy (F := F) (U := U) d L slot1 _ _ _ _ hI fe (6 * 42 + 1) (rowOff (6 * 42 + 1)) (rowInb _ (by decide)) rfl (by decide))) $$ H1
  iapply (wait_slot (F := F) (U := U) d L slot1 cc0_scratch4.sem _ _ _ hI fe _ _ _ O _ _) $$ [HB1 HO]
  · isplitl [HB1]; · iexact HB1
    isplitl [HO]; · iexact HO
    iexact Hmw
  iintro ⟨HL1, HO⟩
  ihave HL1 := (Loaded_open (F := F) (U := U) d L slot1 _ _ _ _ hI fe _ _) $$ HL1
  icases HL1 with ⟨⟨%g1, Hd1⟩, Hi1, He1, Hs1⟩
  sl_exec
  -- the slot's hundred rows are added to the registers
  sl_for (accInv (F := F) (U := U) d L slot1 g1 (gathered (F := F) (idxScr (F := F) L fi) hI fe (rowOff (6 * 42 + 1)) (rowInb _ (by decide))) a0) $$ [Hd1]
  case region =>
    intro t a
    unfold accInv
    iintro ⟨Hd, %ha⟩
    sl_exec
    sl_step
    isplitl [Hd]; · iexact Hd
    ipureintro
    intro j x
    have ht : t.val < 100 := t.isLt
    sl_unfold_run_names
    match j with
    | ⟨0, _⟩ => exact (addRow_apply (F := F) slot1 g1 _ _ _ t.val 0 (k0_off73_eq t) ht (by omega) _ x).trans ((congrArg₂ FloatOps.addf (ha ⟨0, by omega⟩ x) rfl).trans (accList_succ (F := F) _ _ _ _ ht).symm)
    | ⟨1, _⟩ => exact (addRow_apply (F := F) slot1 g1 _ _ _ t.val 16 (k0_off74_eq t) ht (by omega) _ x).trans ((congrArg₂ FloatOps.addf (ha ⟨1, by omega⟩ x) rfl).trans (accList_succ (F := F) _ _ _ _ ht).symm)
    | ⟨2, _⟩ => exact (addRow_apply (F := F) slot1 g1 _ _ _ t.val 32 (k0_off75_eq t) ht (by omega) _ x).trans ((congrArg₂ FloatOps.addf (ha ⟨2, by omega⟩ x) rfl).trans (accList_succ (F := F) _ _ _ _ ht).symm)
    | ⟨3, _⟩ => exact (addRow_apply (F := F) slot1 g1 _ _ _ t.val 48 (k0_off76_eq t) ht (by omega) _ x).trans ((congrArg₂ FloatOps.addf (ha ⟨3, by omega⟩ x) rfl).trans (accList_succ (F := F) _ _ _ _ ht).symm)
    | ⟨4, _⟩ => exact (addRow_apply (F := F) slot1 g1 _ _ _ t.val 64 (k0_off77_eq t) ht (by omega) _ x).trans ((congrArg₂ FloatOps.addf (ha ⟨4, by omega⟩ x) rfl).trans (accList_succ (F := F) _ _ _ _ ht).symm)
    | ⟨5, _⟩ => exact (addRow_apply (F := F) slot1 g1 _ _ _ t.val 80 (k0_off78_eq t) ht (by omega) _ x).trans ((congrArg₂ FloatOps.addf (ha ⟨5, by omega⟩ x) rfl).trans (accList_succ (F := F) _ _ _ _ ht).symm)
    | ⟨6, _⟩ => exact (addRow_apply (F := F) slot1 g1 _ _ _ t.val 96 (k0_off79_eq t) ht (by omega) _ x).trans ((congrArg₂ FloatOps.addf (ha ⟨6, by omega⟩ x) rfl).trans (accList_succ (F := F) _ _ _ _ ht).symm)
    | ⟨7, _⟩ => exact (addRow_apply (F := F) slot1 g1 _ _ _ t.val 112 (k0_off80_eq t) ht (by omega) _ x).trans ((congrArg₂ FloatOps.addf (ha ⟨7, by omega⟩ x) rfl).trans (accList_succ (F := F) _ _ _ _ ht).symm)
  · unfold accInv
    isplitl [Hd1]; · iexact Hd1
    ipureintro; intro j x
    sl_unfold_run_names
    match j with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  iintro %a1 Hacc1
  unfold accInv
  icases Hacc1 with ⟨Hd1, %ha1⟩
  sl_exec
  -- slot 2's list has landed
  ihave HB2 := (Entails.of_eq (SlotSt_busy (F := F) (U := U) d L slot2 _ _ _ _ hI fe (6 * 42 + 2) (rowOff (6 * 42 + 2)) (rowInb _ (by decide)) rfl (by decide))) $$ H2
  iapply (wait_slot (F := F) (U := U) d L slot2 cc0_scratch5.sem _ _ _ hI fe _ _ _ O _ _) $$ [HB2 HO]
  · isplitl [HB2]; · iexact HB2
    isplitl [HO]; · iexact HO
    iexact Hmw
  iintro ⟨HL2, HO⟩
  ihave HL2 := (Loaded_open (F := F) (U := U) d L slot2 _ _ _ _ hI fe _ _) $$ HL2
  icases HL2 with ⟨⟨%g2, Hd2⟩, Hi2, He2, Hs2⟩
  sl_exec
  -- the slot's hundred rows are added to the registers
  sl_for (accInv (F := F) (U := U) d L slot2 g2 (gathered (F := F) (idxScr (F := F) L fi) hI fe (rowOff (6 * 42 + 2)) (rowInb _ (by decide))) (zv (F := F), zv (F := F), zv (F := F), zv (F := F), zv (F := F), zv (F := F), zv (F := F), zv (F := F))) $$ [Hd2]
  case region =>
    intro t a
    unfold accInv
    iintro ⟨Hd, %ha⟩
    sl_exec
    sl_step
    isplitl [Hd]; · iexact Hd
    ipureintro
    intro j x
    have ht : t.val < 100 := t.isLt
    sl_unfold_run_names
    match j with
    | ⟨0, _⟩ => exact (addRow_apply (F := F) slot2 g2 _ _ _ t.val 0 (k0_off81_eq t) ht (by omega) _ x).trans ((congrArg₂ FloatOps.addf (ha ⟨0, by omega⟩ x) rfl).trans (accList_succ (F := F) _ _ _ _ ht).symm)
    | ⟨1, _⟩ => exact (addRow_apply (F := F) slot2 g2 _ _ _ t.val 16 (k0_off82_eq t) ht (by omega) _ x).trans ((congrArg₂ FloatOps.addf (ha ⟨1, by omega⟩ x) rfl).trans (accList_succ (F := F) _ _ _ _ ht).symm)
    | ⟨2, _⟩ => exact (addRow_apply (F := F) slot2 g2 _ _ _ t.val 32 (k0_off83_eq t) ht (by omega) _ x).trans ((congrArg₂ FloatOps.addf (ha ⟨2, by omega⟩ x) rfl).trans (accList_succ (F := F) _ _ _ _ ht).symm)
    | ⟨3, _⟩ => exact (addRow_apply (F := F) slot2 g2 _ _ _ t.val 48 (k0_off84_eq t) ht (by omega) _ x).trans ((congrArg₂ FloatOps.addf (ha ⟨3, by omega⟩ x) rfl).trans (accList_succ (F := F) _ _ _ _ ht).symm)
    | ⟨4, _⟩ => exact (addRow_apply (F := F) slot2 g2 _ _ _ t.val 64 (k0_off85_eq t) ht (by omega) _ x).trans ((congrArg₂ FloatOps.addf (ha ⟨4, by omega⟩ x) rfl).trans (accList_succ (F := F) _ _ _ _ ht).symm)
    | ⟨5, _⟩ => exact (addRow_apply (F := F) slot2 g2 _ _ _ t.val 80 (k0_off86_eq t) ht (by omega) _ x).trans ((congrArg₂ FloatOps.addf (ha ⟨5, by omega⟩ x) rfl).trans (accList_succ (F := F) _ _ _ _ ht).symm)
    | ⟨6, _⟩ => exact (addRow_apply (F := F) slot2 g2 _ _ _ t.val 96 (k0_off87_eq t) ht (by omega) _ x).trans ((congrArg₂ FloatOps.addf (ha ⟨6, by omega⟩ x) rfl).trans (accList_succ (F := F) _ _ _ _ ht).symm)
    | ⟨7, _⟩ => exact (addRow_apply (F := F) slot2 g2 _ _ _ t.val 112 (k0_off88_eq t) ht (by omega) _ x).trans ((congrArg₂ FloatOps.addf (ha ⟨7, by omega⟩ x) rfl).trans (accList_succ (F := F) _ _ _ _ ht).symm)
  · unfold accInv
    isplitl [Hd2]; · iexact Hd2
    ipureintro; intro j x
    sl_unfold_run_names
    match j with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  iintro %a2 Hacc2
  unfold accInv
  icases Hacc2 with ⟨Hd2, %ha2⟩
  sl_exec
  -- slot 3's list has landed
  ihave HB3 := (Entails.of_eq (SlotSt_busy (F := F) (U := U) d L slot3 _ _ _ _ hI fe (6 * 42 + 3) (rowOff (6 * 42 + 3)) (rowInb _ (by decide)) rfl (by decide))) $$ H3
  iapply (wait_slot (F := F) (U := U) d L slot3 cc0_scratch6.sem _ _ _ hI fe _ _ _ O _ _) $$ [HB3 HO]
  · isplitl [HB3]; · iexact HB3
    isplitl [HO]; · iexact HO
    iexact Hmw
  iintro ⟨HL3, HO⟩
  ihave HL3 := (Loaded_open (F := F) (U := U) d L slot3 _ _ _ _ hI fe _ _) $$ HL3
  icases HL3 with ⟨⟨%g3, Hd3⟩, Hi3, He3, Hs3⟩
  sl_exec
  -- the slot's hundred rows are added to the registers
  sl_for (accInv (F := F) (U := U) d L slot3 g3 (gathered (F := F) (idxScr (F := F) L fi) hI fe (rowOff (6 * 42 + 3)) (rowInb _ (by decide))) a2) $$ [Hd3]
  case region =>
    intro t a
    unfold accInv
    iintro ⟨Hd, %ha⟩
    sl_exec
    sl_step
    isplitl [Hd]; · iexact Hd
    ipureintro
    intro j x
    have ht : t.val < 100 := t.isLt
    sl_unfold_run_names
    match j with
    | ⟨0, _⟩ => exact (addRow_apply (F := F) slot3 g3 _ _ _ t.val 0 (k0_off89_eq t) ht (by omega) _ x).trans ((congrArg₂ FloatOps.addf (ha ⟨0, by omega⟩ x) rfl).trans (accList_succ (F := F) _ _ _ _ ht).symm)
    | ⟨1, _⟩ => exact (addRow_apply (F := F) slot3 g3 _ _ _ t.val 16 (k0_off90_eq t) ht (by omega) _ x).trans ((congrArg₂ FloatOps.addf (ha ⟨1, by omega⟩ x) rfl).trans (accList_succ (F := F) _ _ _ _ ht).symm)
    | ⟨2, _⟩ => exact (addRow_apply (F := F) slot3 g3 _ _ _ t.val 32 (k0_off91_eq t) ht (by omega) _ x).trans ((congrArg₂ FloatOps.addf (ha ⟨2, by omega⟩ x) rfl).trans (accList_succ (F := F) _ _ _ _ ht).symm)
    | ⟨3, _⟩ => exact (addRow_apply (F := F) slot3 g3 _ _ _ t.val 48 (k0_off92_eq t) ht (by omega) _ x).trans ((congrArg₂ FloatOps.addf (ha ⟨3, by omega⟩ x) rfl).trans (accList_succ (F := F) _ _ _ _ ht).symm)
    | ⟨4, _⟩ => exact (addRow_apply (F := F) slot3 g3 _ _ _ t.val 64 (k0_off93_eq t) ht (by omega) _ x).trans ((congrArg₂ FloatOps.addf (ha ⟨4, by omega⟩ x) rfl).trans (accList_succ (F := F) _ _ _ _ ht).symm)
    | ⟨5, _⟩ => exact (addRow_apply (F := F) slot3 g3 _ _ _ t.val 80 (k0_off94_eq t) ht (by omega) _ x).trans ((congrArg₂ FloatOps.addf (ha ⟨5, by omega⟩ x) rfl).trans (accList_succ (F := F) _ _ _ _ ht).symm)
    | ⟨6, _⟩ => exact (addRow_apply (F := F) slot3 g3 _ _ _ t.val 96 (k0_off95_eq t) ht (by omega) _ x).trans ((congrArg₂ FloatOps.addf (ha ⟨6, by omega⟩ x) rfl).trans (accList_succ (F := F) _ _ _ _ ht).symm)
    | ⟨7, _⟩ => exact (addRow_apply (F := F) slot3 g3 _ _ _ t.val 112 (k0_off96_eq t) ht (by omega) _ x).trans ((congrArg₂ FloatOps.addf (ha ⟨7, by omega⟩ x) rfl).trans (accList_succ (F := F) _ _ _ _ ht).symm)
  · unfold accInv
    isplitl [Hd3]; · iexact Hd3
    ipureintro; intro j x
    sl_unfold_run_names
    match j with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  iintro %a3 Hacc3
  unfold accInv
  icases Hacc3 with ⟨Hd3, %ha3⟩
  sl_exec
  sl_unfold_run_names
  -- the pooled scratch now holds every row's pooled value
  have hT : ∀ b e : Fin 128, (sA.view.writes (Elt F) fA (tailList (F := F) scaleC a1 a3)) (ix2 b e)
      = pooledBuf (scaleC (F := F)) fe fi (ix2 ⟨128 * wid L + b.val, by have := wid_lt L; have := b.isLt; omega⟩ e) := by
    intro b e
    obtain ⟨j, x, hjx⟩ : ∃ (j : Fin 8) (x : Fin 16), e.val = 16 * j.val + x.val :=
      ⟨⟨e.val / 16, by have := e.isLt; omega⟩, ⟨e.val % 16, Nat.mod_lt _ (by decide)⟩, by show e.val = 16 * (e.val / 16) + e.val % 16; omega⟩
    have ee : e = ⟨16 * j.val + x.val, col_lt j x⟩ := Fin.ext hjx
    subst ee
    by_cases hlt : b.val < 126
    · exact (tail_miss (F := F) fA scaleC a1 a3 b _ hlt).trans (hfA b _ (by omega))
    · by_cases h126 : b.val = 126
      · have eb : b = ⟨126, by decide⟩ := Fin.ext h126
        subst eb
        exact (tail_hit126 (F := F) fA scaleC a1 a3 j x).trans
          (row_value (F := F) L fi hin fe ⟨126, by decide⟩ (6 * 42 + 0) (6 * 42 + 1) (by decide) (by decide) (by decide) (by decide)
            (rowOff (6 * 42 + 0)) (rowOff (6 * 42 + 1)) (rowInb _ (by decide)) (rowInb _ (by decide)) rfl rfl _ _ (by decide) (by decide) _ _ _ zv8_get ha0 ha1 j x)
      · have eb : b = ⟨127, by decide⟩ := Fin.ext (show b.val = 127 by have := b.isLt; omega)
        subst eb
        exact (tail_hit127 (F := F) fA scaleC a1 a3 j x).trans
          (row_value (F := F) L fi hin fe ⟨127, by decide⟩ (6 * 42 + 2) (6 * 42 + 3) (by decide) (by decide) (by decide) (by decide)
            (rowOff (6 * 42 + 2)) (rowOff (6 * 42 + 3)) (rowInb _ (by decide)) (rowInb _ (by decide)) rfl rfl _ _ (by decide) (by decide) _ _ _ zv8_get ha2 ha3 j x)
  ihave Hn := (name_out (F := F) (U := U) d L fo _) $$ Ho'
  icases Hn with ⟨%T', %hT', Ho'⟩
  have hT2 : ∀ b e : Fin 128, T' (ix2 b e)
      = pooledBuf (scaleC (F := F)) fe fi (ix2 ⟨128 * wid L + b.val, by have := wid_lt L; have := b.isLt; omega⟩ e) := by
    intro b e; rw [hT']; exact hT b e
  ihave Ho2 := (Entails.of_eq (out_rows (F := F) (U := U) d L fo T' (pooledBuf (scaleC (F := F)) fe fi) hT2)) $$ Ho'

  -- what is left in flight is nothing; everything goes back
  sl_step
  ihave HF4 := (Entails.of_eq (SlotSt_free (F := F) (U := U) d L slot4 _ _ _ _ hI fe (6 * 42 + 4) (by decide))) $$ H4
  ihave HF4 := (Free_open (F := F) (U := U) d L slot4 _ _ _ _ _) $$ HF4
  icases HF4 with ⟨Hd4, Hi4, He4, Hs4⟩
  ihave HF5 := (Free_open (F := F) (U := U) d L slot5 _ _ _ _ _) $$ HF5
  icases HF5 with ⟨Hd5, Hi5, He5, Hs5⟩
  ihave HeAll := (share_split (F := F) (U := U) (ℓ := eV.view.loc (V d (cV L) (jV L))) Finset.univ qe fe).2 $$ [He0 He1 He2 He3 He4 He5 HEr]
  · isplitl [He0]; · iexact He0
    isplitl [He1]; · iexact He1
    isplitl [He2]; · iexact He2
    isplitl [He3]; · iexact He3
    isplitl [He4]; · iexact He4
    isplitl [He5]; · iexact He5
    iexact HEr
  ihave HiAll := (share_split (F := F) (U := U) (ℓ := sI.view.loc (V d (cV L) (jV L))) Finset.univ fullShare (idxScr (F := F) L fi)).2 $$ [Hi0 Hi1 Hi2 Hi3 Hi4 Hi5 HIr]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    iexact HIr
  ihave HrAll := (sR_join (F := F) (U := U) d (cV L) (jV L) fsR) $$ [Hd0 Hd1 Hd2 Hd3 Hd4 Hd5 HSr]
  · isplitl [Hd0]; · iexists _; iexact Hd0
    isplitl [Hd1]; · iexists _; iexact Hd1
    isplitl [Hd2]; · iexists _; iexact Hd2
    isplitl [Hd3]; · iexists _; iexact Hd3
    isplitl [Hd4]; · iexact Hd4
    isplitl [Hd5]; · iexact Hd5
    iexact HSr
  isplitl [Hi' HeAll Ho2]
  · isplitl [Hi']; · iapply (Entails.of_eq (pts_iRowK (F := F) (U := U) d L _)); iexact Hi'
    isplitl [HeAll]; · iexact HeAll
    iapply (Entails.of_eq (pts_oRowK (F := F) (U := U) d L _)); iexact Ho2
  isplitl [HiAll HrAll HsA Hbufs]
  · isplitl [HiAll]; · iexists _; iexact HiAll
    isplitl [HrAll]; · iexact HrAll
    isplitl [HsA]; · iexists _; iexact HsA
    iexact Hbufs
  isplitl [Hs0 Hs1 Hs2 Hs3 Hs4 Hs5 Hc6 Hc7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hc6]; · iexact Hc6
    isplitl [Hc7]; · iexact Hc7
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases hW' p hp with hp | hp
  · rcases Finset.mem_insert.mp hp with hp | hp
    · exact .inr (hp ▸ rfl)
    · exact .inl hp
  · exact .inr hp

end Cert.KernelIdeal.Tile
end
-- ==== Proof.TileResK.lean ====
/-
  One tile's working storage and how it is shared out: the row scratch is six disjoint slots of 100 × 128; a share
  of an array splits into six pieces (one per slot) and a remainder; the token scratch, once the tile's block of the
  token array is copied in, holds that block, every word of which names a row of the table.
-/
import proofs.«207436_g25675314495810_cont_9to1_828_42_alg».proof.Proof.TileDefsK

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

/-! ## The six slots of the row scratch -/

/-- Slot `k` of the row scratch: a 100 × 128 buffer, as the program addresses it. -/
abbrev slot0 : Memref sig .scVector .vmem S100x128 .f32 := ((sR.slice (Rect.unit (s := S6x100x128) ![0, 0, 0] S1x100x128.size inb_S6x100x128_S1x100x128_0_0_0) (fun _ => rfl)).squeeze S100x128 squeezes_S1x100x128_S100x128)
abbrev slot1 : Memref sig .scVector .vmem S100x128 .f32 := ((sR.slice (Rect.unit (s := S6x100x128) ![1, 0, 0] S1x100x128.size inb_S6x100x128_S1x100x128_1_0_0) (fun _ => rfl)).squeeze S100x128 squeezes_S1x100x128_S100x128)
abbrev slot2 : Memref sig .scVector .vmem S100x128 .f32 := ((sR.slice (Rect.unit (s := S6x100x128) ![2, 0, 0] S1x100x128.size inb_S6x100x128_S1x100x128_2_0_0) (fun _ => rfl)).squeeze S100x128 squeezes_S1x100x128_S100x128)
abbrev slot3 : Memref sig .scVector .vmem S100x128 .f32 := ((sR.slice (Rect.unit (s := S6x100x128) ![3, 0, 0] S1x100x128.size inb_S6x100x128_S1x100x128_3_0_0) (fun _ => rfl)).squeeze S100x128 squeezes_S1x100x128_S100x128)
abbrev slot4 : Memref sig .scVector .vmem S100x128 .f32 := ((sR.slice (Rect.unit (s := S6x100x128) ![4, 0, 0] S1x100x128.size inb_S6x100x128_S1x100x128_4_0_0) (fun _ => rfl)).squeeze S100x128 squeezes_S1x100x128_S100x128)
abbrev slot5 : Memref sig .scVector .vmem S100x128 .f32 := ((sR.slice (Rect.unit (s := S6x100x128) ![5, 0, 0] S1x100x128.size inb_S6x100x128_S1x100x128_5_0_0) (fun _ => rfl)).squeeze S100x128 squeezes_S1x100x128_S100x128)

theorem slot_set (off : Fin 3 → ℕ) (inb : ∀ a, off a + S1x100x128.size a ≤ S6x100x128.size a) :
    ((sR.slice (Rect.unit (s := S6x100x128) off S1x100x128.size inb) (fun _ => rfl)).squeeze S100x128 squeezes_S1x100x128_S100x128).view.set
      = (sR.view.slice (Rect.unit (s := S6x100x128) off S1x100x128.size inb)).set := by
  show (((sR).view.slice (Rect.unit (s := S6x100x128) off S1x100x128.size inb)).reshape S100x128 squeezes_S1x100x128_S100x128.numel_eq).set = _
  rw [View.set_reshape]

theorem slot_disj_1_0 : Disjoint slot1.view.set slot0.view.set := by
  rw [slot_set, slot_set]; exact View.disjoint_slice_of_disj _ _ _ (by decide)
theorem slot_disj_2_0 : Disjoint slot2.view.set slot0.view.set := by
  rw [slot_set, slot_set]; exact View.disjoint_slice_of_disj _ _ _ (by decide)
theorem slot_disj_2_1 : Disjoint slot2.view.set slot1.view.set := by
  rw [slot_set, slot_set]; exact View.disjoint_slice_of_disj _ _ _ (by decide)
theorem slot_disj_3_0 : Disjoint slot3.view.set slot0.view.set := by
  rw [slot_set, slot_set]; exact View.disjoint_slice_of_disj _ _ _ (by decide)
theorem slot_disj_3_1 : Disjoint slot3.view.set slot1.view.set := by
  rw [slot_set, slot_set]; exact View.disjoint_slice_of_disj _ _ _ (by decide)
theorem slot_disj_3_2 : Disjoint slot3.view.set slot2.view.set := by
  rw [slot_set, slot_set]; exact View.disjoint_slice_of_disj _ _ _ (by decide)
theorem slot_disj_4_0 : Disjoint slot4.view.set slot0.view.set := by
  rw [slot_set, slot_set]; exact View.disjoint_slice_of_disj _ _ _ (by decide)
theorem slot_disj_4_1 : Disjoint slot4.view.set slot1.view.set := by
  rw [slot_set, slot_set]; exact View.disjoint_slice_of_disj _ _ _ (by decide)
theorem slot_disj_4_2 : Disjoint slot4.view.set slot2.view.set := by
  rw [slot_set, slot_set]; exact View.disjoint_slice_of_disj _ _ _ (by decide)
theorem slot_disj_4_3 : Disjoint slot4.view.set slot3.view.set := by
  rw [slot_set, slot_set]; exact View.disjoint_slice_of_disj _ _ _ (by decide)
theorem slot_disj_5_0 : Disjoint slot5.view.set slot0.view.set := by
  rw [slot_set, slot_set]; exact View.disjoint_slice_of_disj _ _ _ (by decide)
theorem slot_disj_5_1 : Disjoint slot5.view.set slot1.view.set := by
  rw [slot_set, slot_set]; exact View.disjoint_slice_of_disj _ _ _ (by decide)
theorem slot_disj_5_2 : Disjoint slot5.view.set slot2.view.set := by
  rw [slot_set, slot_set]; exact View.disjoint_slice_of_disj _ _ _ (by decide)
theorem slot_disj_5_3 : Disjoint slot5.view.set slot3.view.set := by
  rw [slot_set, slot_set]; exact View.disjoint_slice_of_disj _ _ _ (by decide)
theorem slot_disj_5_4 : Disjoint slot5.view.set slot4.view.set := by
  rw [slot_set, slot_set]; exact View.disjoint_slice_of_disj _ _ _ (by decide)

/-! ## Splitting the row scratch into its slots -/

abbrev sR1 : Finset S6x100x128.Idx := Finset.univ \ slot0.view.set
abbrev sR2 : Finset S6x100x128.Idx := sR1 \ slot1.view.set
abbrev sR3 : Finset S6x100x128.Idx := sR2 \ slot2.view.set
abbrev sR4 : Finset S6x100x128.Idx := sR3 \ slot3.view.set
abbrev sR5 : Finset S6x100x128.Idx := sR4 \ slot4.view.set
abbrev sR6 : Finset S6x100x128.Idx := sR5 \ slot5.view.set

theorem slot1_sub : slot1.view.set ⊆ sR1 := Finset.subset_sdiff.mpr ⟨Finset.subset_univ _, slot_disj_1_0⟩
theorem slot2_sub1 : slot2.view.set ⊆ sR1 := Finset.subset_sdiff.mpr ⟨Finset.subset_univ _, slot_disj_2_0⟩
theorem slot2_sub : slot2.view.set ⊆ sR2 := Finset.subset_sdiff.mpr ⟨slot2_sub1, slot_disj_2_1⟩
theorem slot3_sub1 : slot3.view.set ⊆ sR1 := Finset.subset_sdiff.mpr ⟨Finset.subset_univ _, slot_disj_3_0⟩
theorem slot3_sub2 : slot3.view.set ⊆ sR2 := Finset.subset_sdiff.mpr ⟨slot3_sub1, slot_disj_3_1⟩
theorem slot3_sub : slot3.view.set ⊆ sR3 := Finset.subset_sdiff.mpr ⟨slot3_sub2, slot_disj_3_2⟩
theorem slot4_sub1 : slot4.view.set ⊆ sR1 := Finset.subset_sdiff.mpr ⟨Finset.subset_univ _, slot_disj_4_0⟩
theorem slot4_sub2 : slot4.view.set ⊆ sR2 := Finset.subset_sdiff.mpr ⟨slot4_sub1, slot_disj_4_1⟩
theorem slot4_sub3 : slot4.view.set ⊆ sR3 := Finset.subset_sdiff.mpr ⟨slot4_sub2, slot_disj_4_2⟩
theorem slot4_sub : slot4.view.set ⊆ sR4 := Finset.subset_sdiff.mpr ⟨slot4_sub3, slot_disj_4_3⟩
theorem slot5_sub1 : slot5.view.set ⊆ sR1 := Finset.subset_sdiff.mpr ⟨Finset.subset_univ _, slot_disj_5_0⟩
theorem slot5_sub2 : slot5.view.set ⊆ sR2 := Finset.subset_sdiff.mpr ⟨slot5_sub1, slot_disj_5_1⟩
theorem slot5_sub3 : slot5.view.set ⊆ sR3 := Finset.subset_sdiff.mpr ⟨slot5_sub2, slot_disj_5_2⟩
theorem slot5_sub4 : slot5.view.set ⊆ sR4 := Finset.subset_sdiff.mpr ⟨slot5_sub3, slot_disj_5_3⟩
theorem slot5_sub : slot5.view.set ⊆ sR5 := Finset.subset_sdiff.mpr ⟨slot5_sub4, slot_disj_5_4⟩

/-- The row scratch held whole is its six slots and the rest (which is empty, and is carried as it is). -/
theorem sR_split (d : Dev nD) (cc : Fin τ.nSC) (ii : Fin τ.nSub) (f : Buf (Elt F) (sR.view.loc (V d cc ii))) :
    (sR.view.loc (V d cc ii) ↦{fullShare} f : sProp 𝕄)
      ⊢ iprop((slot0.view.loc (V d cc ii) ↦[slot0.view.set]{fullShare} f) ∗ (slot1.view.loc (V d cc ii) ↦[slot1.view.set]{fullShare} f)
        ∗ (slot2.view.loc (V d cc ii) ↦[slot2.view.set]{fullShare} f) ∗ (slot3.view.loc (V d cc ii) ↦[slot3.view.set]{fullShare} f)
        ∗ (slot4.view.loc (V d cc ii) ↦[slot4.view.set]{fullShare} f) ∗ (slot5.view.loc (V d cc ii) ↦[slot5.view.set]{fullShare} f)
        ∗ (sR.view.loc (V d cc ii) ↦[sR6]{fullShare} f)) := by
  iintro H
  ihave H := (pointsTo_split_subset (ℓ := sR.view.loc (V d cc ii)) (q := fullShare) (f := f) (Finset.subset_univ slot0.view.set)).1 $$ H
  icases H with ⟨H0, H⟩
  ihave H := (pointsTo_split_subset (ℓ := sR.view.loc (V d cc ii)) (q := fullShare) (f := f) slot1_sub).1 $$ H
  icases H with ⟨H1, H⟩
  ihave H := (pointsTo_split_subset (ℓ := sR.view.loc (V d cc ii)) (q := fullShare) (f := f) slot2_sub).1 $$ H
  icases H with ⟨H2, H⟩
  ihave H := (pointsTo_split_subset (ℓ := sR.view.loc (V d cc ii)) (q := fullShare) (f := f) slot3_sub).1 $$ H
  icases H with ⟨H3, H⟩
  ihave H := (pointsTo_split_subset (ℓ := sR.view.loc (V d cc ii)) (q := fullShare) (f := f) slot4_sub).1 $$ H
  icases H with ⟨H4, H⟩
  ihave H := (pointsTo_split_subset (ℓ := sR.view.loc (V d cc ii)) (q := fullShare) (f := f) slot5_sub).1 $$ H
  icases H with ⟨H5, H⟩
  isplitl [H0]; · iexact H0
  isplitl [H1]; · iexact H1
  isplitl [H2]; · iexact H2
  isplitl [H3]; · iexact H3
  isplitl [H4]; · iexact H4
  isplitl [H5]; · iexact H5
  iexact H

/-- And back, each slot at whatever it holds. -/
theorem sR_join (d : Dev nD) (cc : Fin τ.nSC) (ii : Fin τ.nSub) (f : Buf (Elt F) (sR.view.loc (V d cc ii))) :
    iprop((∃ g, slot0.view.loc (V d cc ii) ↦[slot0.view.set]{fullShare} g) ∗ (∃ g, slot1.view.loc (V d cc ii) ↦[slot1.view.set]{fullShare} g)
        ∗ (∃ g, slot2.view.loc (V d cc ii) ↦[slot2.view.set]{fullShare} g) ∗ (∃ g, slot3.view.loc (V d cc ii) ↦[slot3.view.set]{fullShare} g)
        ∗ (∃ g, slot4.view.loc (V d cc ii) ↦[slot4.view.set]{fullShare} g) ∗ (∃ g, slot5.view.loc (V d cc ii) ↦[slot5.view.set]{fullShare} g)
        ∗ (sR.view.loc (V d cc ii) ↦[sR6]{fullShare} f))
      ⊢ (iprop(∃ g, sR.view.loc (V d cc ii) ↦{fullShare} g) : sProp 𝕄) := by
  iintro ⟨⟨%g0, H0⟩, ⟨%g1, H1⟩, ⟨%g2, H2⟩, ⟨%g3, H3⟩, ⟨%g4, H4⟩, ⟨%g5, H5⟩, H⟩
  ihave H := (pointsTo_join_subset (ℓ := sR.view.loc (V d cc ii)) (q := fullShare) slot5_sub) $$ [H5 H]; · isplitl [H5] <;> iassumption
  ihave H := (pointsTo_join_subset (ℓ := sR.view.loc (V d cc ii)) (q := fullShare) slot4_sub) $$ [H4 H]; · isplitl [H4] <;> iassumption
  ihave H := (pointsTo_join_subset (ℓ := sR.view.loc (V d cc ii)) (q := fullShare) slot3_sub) $$ [H3 H]; · isplitl [H3] <;> iassumption
  ihave H := (pointsTo_join_subset (ℓ := sR.view.loc (V d cc ii)) (q := fullShare) slot2_sub) $$ [H2 H]; · isplitl [H2] <;> iassumption
  ihave H := (pointsTo_join_subset (ℓ := sR.view.loc (V d cc ii)) (q := fullShare) slot1_sub) $$ [H1 H]; · isplitl [H1] <;> iassumption
  ihave H := (pointsTo_join_subset (ℓ := sR.view.loc (V d cc ii)) (q := fullShare) (Finset.subset_univ slot0.view.set)) $$ [H0 H]; · isplitl [H0] <;> iassumption
  iexists _; iexact H

/-! ## Six pieces of a share -/

abbrev sh0 (q : PosShare TreeShare) : PosShare TreeShare := q.left.left.left
abbrev sh1 (q : PosShare TreeShare) : PosShare TreeShare := q.left.left.right
abbrev sh2 (q : PosShare TreeShare) : PosShare TreeShare := q.left.right.left
abbrev sh3 (q : PosShare TreeShare) : PosShare TreeShare := q.left.right.right
abbrev sh4 (q : PosShare TreeShare) : PosShare TreeShare := q.right.left.left
abbrev sh5 (q : PosShare TreeShare) : PosShare TreeShare := q.right.left.right

/-- A points-to at a share is six pieces of the share and what is left of it. -/
theorem share_split {ℓ : Loc nD τ sig} (I : Finset (Idx ℓ)) (q : PosShare TreeShare) (f : Buf (Elt F) ℓ) :
    (ℓ ↦[I]{q} f : sProp 𝕄)
      ⊣⊢ iprop((ℓ ↦[I]{sh0 q} f) ∗ (ℓ ↦[I]{sh1 q} f) ∗ (ℓ ↦[I]{sh2 q} f) ∗ (ℓ ↦[I]{sh3 q} f) ∗ (ℓ ↦[I]{sh4 q} f) ∗ (ℓ ↦[I]{sh5 q} f)
        ∗ (ℓ ↦[I]{q.right.right} f)) := by
  have s (p : PosShare TreeShare) : (ℓ ↦[I]{p} f : sProp 𝕄) ⊣⊢ iprop((ℓ ↦[I]{p.left} f) ∗ ℓ ↦[I]{p.right} f) :=
    pointsTo_share (PosShare.mem_left_op_right p)
  constructor
  · iintro H
    ihave H := (s q).1 $$ H; icases H with ⟨HL, HR⟩
    ihave HL := (s q.left).1 $$ HL; icases HL with ⟨HLL, HLR⟩
    ihave HR := (s q.right).1 $$ HR; icases HR with ⟨HRL, HRR⟩
    ihave HLL := (s q.left.left).1 $$ HLL; icases HLL with ⟨H0, H1⟩
    ihave HLR := (s q.left.right).1 $$ HLR; icases HLR with ⟨H2, H3⟩
    ihave HRL := (s q.right.left).1 $$ HRL; icases HRL with ⟨H4, H5⟩
    isplitl [H0]; · iexact H0
    isplitl [H1]; · iexact H1
    isplitl [H2]; · iexact H2
    isplitl [H3]; · iexact H3
    isplitl [H4]; · iexact H4
    isplitl [H5]; · iexact H5
    iexact HRR
  · iintro ⟨H0, H1, H2, H3, H4, H5, HRR⟩
    ihave HLL := (s q.left.left).2 $$ [H0 H1]; · isplitl [H0] <;> iassumption
    ihave HLR := (s q.left.right).2 $$ [H2 H3]; · isplitl [H2] <;> iassumption
    ihave HRL := (s q.right.left).2 $$ [H4 H5]; · isplitl [H4] <;> iassumption
    ihave HL := (s q.left).2 $$ [HLL HLR]; · isplitl [HLL] <;> iassumption
    ihave HR := (s q.right).2 $$ [HRL HRR]; · isplitl [HRL] <;> iassumption
    iapply (s q).2; isplitl [HL] <;> iassumption

/-! ## The token scratch -/

/-- What the tile's token scratch holds once its block of the token array has been copied in. -/
abbrev idxScr (L : grid0.Coords) (fi : S32x256x100.Idx → BitVec 32) : S256x100.Idx → BitVec 32 := (iRowK L).view.read (Elt F) fi

theorem idxScr_inb (L : grid0.Coords) (fi : S32x256x100.Idx → BitVec 32) (hin : ∀ j, (fi j).toNat < 100000) (j : S256x100.Idx) :
    (idxScr (F := F) L fi j).toNat < 100000 := by
  rw [show idxScr (F := F) L fi j = fi ((iRowK L).view.emb j) from (View.read_apply _ _).trans (cast_eq _ _)]
  exact hin _

/-- One list of the token scratch, as the program addresses it. -/
abbrev rowV (off : Fin 2 → ℕ) (inb : ∀ a, off a + S1x100.size a ≤ S256x100.size a) : Memref sig .scVector .vmem S100 .i32 :=
  (sI.slice (Rect.unit (s := S256x100) off S1x100.size inb) (fun _ => rfl)).squeeze S100 squeezes_S1x100_S100

theorem rowV_inb (off : Fin 2 → ℕ) (inb : ∀ a, off a + S1x100.size a ≤ S256x100.size a) (f : S256x100.Idx → BitVec 32)
    (h : ∀ j, (f j).toNat < 100000) (x : S100.Idx) :
    ((rowV off inb).view.read (Elt F) f x).toNat < S100000x128.size gathers_S100000x128_S100x128.axis := by
  rw [show (rowV off inb).view.read (Elt F) f x = f ((rowV off inb).view.emb x) from (View.read_apply _ _).trans (cast_eq _ _)]
  exact h _

/-- The embedding table whole, as the program addresses it for a gather. -/
abbrev srcV : Memref sig .scVector .hbm S100000x128 .f32 :=
  eV.slice (Rect.unit (s := S100000x128) ![0, 0] S100000x128.size inb_S100000x128_S100000x128_0_0) (fun _ => rfl)

end Cert.Kernel.Tile
end
-- ==== Proof.TileSlotK.lean ====
/-
  A slot of the row scratch goes round three states: free (its buffer, a piece of the token scratch, a piece of
  the table, its semaphore at zero); busy (a gather of one list of the token scratch is in flight into it: row l
  of the slot will hold the table row that token l of the list names); loaded (the gather has landed). Issuing
  moves free to busy, the wait busy to loaded; reading the slot leaves it loaded, and a loaded slot is free.
-/
import proofs.«207436_g25675314495810_cont_9to1_828_42_alg».proof.Proof.TileResK

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

/-! ## A slot's three states -/

variable (d : Dev nD) (L : grid0.Coords)

/-- Free: the slot's buffer at some contents, its pieces of the token scratch and of the table, its semaphore at zero. -/
def Free (dst : Memref sig .scVector .vmem S100x128 .f32) (sem : DmaSem sig) (qi qe : PosShare TreeShare)
    (fI : S256x100.Idx → BitVec 32) (fe : Buf (Elt F) (eLoc d)) : sProp 𝕄 :=
  iprop((∃ g, dst.view.loc (V d (cV L) (jV L)) ↦[dst.view.set]{fullShare} g) ∗ (sI.view.loc (V d (cV L) (jV L)) ↦{qi} fI)
    ∗ (eV.view.loc (V d (cV L) (jV L)) ↦{qe} fe) ∗ semVal (V d (cV L) (jV L), SemLoc.dma sem) 0)

/-- The rows a list of the token scratch names, gathered from the table. -/
abbrev gathered (fI : S256x100.Idx → BitVec 32) (hI : ∀ j, (fI j).toNat < 100000) (fe : S100000x128.Idx → F .f32)
    (off : Fin 2 → ℕ) (inb : ∀ a, off a + S1x100.size a ≤ S256x100.size a) : S100x128.Idx → F .f32 :=
  SparseCore.gatherPayload gathers_S100000x128_S100x128 (srcV.view.read (Elt F) fe)
    (SparseCore.rows ((rowV off inb).view.read (Elt F) fI) rfl (rowV_inb (F := F) off inb fI hI))

/-- Busy: a gather of list `off` into the slot is in flight; what is not in it of the slot's pieces is held beside. -/
def Busy (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a) : sProp 𝕄 :=
  iprop((∃ g, Transfers.Flight countersEmb (V d (cV L) (jV L)) (SemLoc.dma sem) (default : HIx 1) dst.view.dmaCredit
      (iprop((dst.view.loc (V d (cV L) (jV L)) ↦[dst.view.set]{fullShare}
                (dst.view.write (Elt F) g (gathered (F := F) fI hI fe off inb) Finset.univ))
          ∗ (srcV.view.loc (V d (cV L) (jV L)) ↦[srcV.view.set]{qe} fe)
          ∗ ((rowV off inb).view.loc (V d (cV L) (jV L)) ↦[(rowV off inb).view.set]{qi} fI))))
    ∗ (sI.view.loc (V d (cV L) (jV L)) ↦[Finset.univ \ (rowV off inb).view.set]{qi} fI)
    ∗ (eV.view.loc (V d (cV L) (jV L)) ↦[Finset.univ \ srcV.view.set]{qe} fe))

/-- Loaded: the gather has landed. -/
def Loaded (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a) : sProp 𝕄 :=
  iprop((∃ g, dst.view.loc (V d (cV L) (jV L)) ↦[dst.view.set]{fullShare}
                (dst.view.write (Elt F) g (gathered (F := F) fI hI fe off inb) Finset.univ))
    ∗ (sI.view.loc (V d (cV L) (jV L)) ↦{qi} fI)
    ∗ (eV.view.loc (V d (cV L) (jV L)) ↦{qe} fe) ∗ semVal (V d (cV L) (jV L), SemLoc.dma sem) 0)

variable [Infinite ℕ]

/-- Issuing the gather of list `off` into a free slot. -/
theorem issue_slot {α : Type} {Q : α → sProp 𝕄} (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a)
    {hp} {hn} {hsrc} {he} {hsp} {hr}
    (k : PUnit → Prog (TpuEff nD τ sig (Elt F) Λ₀ (.scVector (cV L) (jV L))) α) :
    Free (F := F) (U := U) d L dst sem qi qe fI fe
      ⊢ iprop((Busy (F := F) (U := U) d L dst sem qi qe fI hI fe off inb -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp srcV dst gathers_S100000x128_S100x128 (rowV off inb) hn sem hsrc he hsp hr >>= k) Q) := by
  unfold Free Busy
  iintro ⟨⟨%g, Hd⟩, Hi, He, Hs⟩ Hk
  ihave Hi := (pointsTo_split_subset (q := qi) (f := fI) (S := Finset.univ) (Finset.subset_univ (rowV off inb).view.set)).1 $$ Hi
  icases Hi with ⟨Hi, Hir⟩
  ihave He := (pointsTo_split_subset (q := qe) (f := fe) (S := Finset.univ) (Finset.subset_univ srcV.view.set)).1 $$ He
  icases He with ⟨He, Her⟩
  iapply (SparseCore.wp_indirectGatherLocal countersEmb 𝒱₀ (V d (cV L) (jV L)) none (hg := gathers_S100000x128_S100x128) (default : HIx 1)
      dst.view.dmaCredit (SparseCore.sum_rowCredit_eq_dmaCredit dst _ (fun _ => rfl)) (by decide) (rowV_inb (F := F) off inb fI hI)) $$ [He Hd Hi Hs]
  · isplitl [He]; · iexact He
    isplitl [Hd]; · iexact Hd
    isplitl [Hi]; · iexact Hi
    iexact Hs
  iintro Hfl
  iapply Hk
  isplitl [Hfl]; · iexists g; iexact Hfl
  isplitl [Hir]; · iexact Hir
  iexact Her

/-- Waiting for a slot's gather. -/
theorem wait_slot {α : Type} {Q : α → sProp 𝕄} (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a)
    {s' : Shape} {e' : EltTy} {sp' : Space} (srcw : Memref sig .scVector sp' s' e') {hsrc} {hdst}
    (O : CellTallies nD τ sig (HIx 1)) (W : Waits sig (HIx 1))
    (k : PUnit → Prog (TpuEff nD τ sig (Elt F) Λ₀ (.scVector (cV L) (jV L))) α) :
    iprop(Busy (F := F) (U := U) d L dst sem qi qe fI hI fe off inb ∗ owes (V d (cV L) (jV L)) O W
        ∗ Transfers.MayWaits (V d (cV L) (jV L)) (default : HIx 1) O)
      ⊢ iprop(((Loaded (F := F) (U := U) d L dst sem qi qe fI hI fe off inb ∗ owes (V d (cV L) (jV L)) O (insert (SemLoc.dma sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.waitIndirectGather sem srcw dst hsrc hdst >>= k) Q) := by
  unfold Busy Loaded
  iintro ⟨⟨⟨%g, Hfl⟩, Hir, Her⟩, HO, Hmw⟩ Hk
  iapply (Transfers.wp_waitLocalO countersEmb 𝒱₀ (V d (cV L) (jV L)) none (default : HIx 1) (rfl : dst.view.dmaCredit = _)) $$ [Hfl HO Hmw]
  · isplitl [Hfl]; · iexact Hfl
    isplitl [HO]; · iexact HO
    iapply (Transfers.MayWaits.elim (SemLoc.dma sem)); iexact Hmw
  iintro ⟨⟨Hd, He, Hi⟩, Hs, HO⟩
  ihave Hi := (pointsTo_split_subset (ℓ := sI.view.loc (V d (cV L) (jV L))) (q := qi) (f := fI) (S := Finset.univ) (Finset.subset_univ (rowV off inb).view.set)).2 $$ [Hi Hir]; · isplitl [Hi] <;> iassumption
  ihave He := (pointsTo_split_subset (ℓ := eV.view.loc (V d (cV L) (jV L))) (q := qe) (f := fe) (S := Finset.univ) (Finset.subset_univ srcV.view.set)).2 $$ [He Her]; · isplitl [He] <;> iassumption
  iapply Hk
  isplitr [HO]
  · isplitl [Hd]; · iexists g; iexact Hd
    isplitl [Hi]; · iexact Hi
    isplitl [He]; · iexact He
    iexact Hs
  · iexact HO

end Cert.Kernel.Tile
end
-- ==== Proof.TileInvK.lean ====
/-
  Before trip p of the group loop the tile has lists 6p, …, 6p+4 of its token scratch in flight into slots 0 … 4
  (none past list 255) and slot 5 free. A trip issues lists 6p+5 … 6p+10 where they exist, one before each wait, so
  the next trip finds the same picture six lists on.
-/
import proofs.«207436_g25675314495810_cont_9to1_828_42_alg».proof.Proof.TileSlotK

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

/-! ## Lists by number, and a slot's state before a trip of the group loop -/

variable (d : Dev nD) (L : grid0.Coords)

abbrev rowOff (n : ℕ) : Fin 2 → ℕ := ![n, 0]
theorem rowInb (n : ℕ) (h : n < 256) : ∀ a, rowOff n a + S1x100.size a ≤ S256x100.size a := by
  intro a
  match a with
  | ⟨0, _⟩ => show n + 1 ≤ 256; omega
  | ⟨1, _⟩ => show 0 + 100 ≤ 100; omega

/-- Busy with list `n` if there is such a list, else free. -/
def SlotSt (dst : Memref sig .scVector .vmem S100x128 .f32) (sem : DmaSem sig) (qi qe : PosShare TreeShare)
    (fI : S256x100.Idx → BitVec 32) (hI : ∀ j, (fI j).toNat < 100000) (fe : Buf (Elt F) (eLoc d)) (n : ℕ) : sProp 𝕄 :=
  if h : n < 256 then Busy (F := F) (U := U) d L dst sem qi qe fI hI fe (rowOff n) (rowInb n h)
  else Free (F := F) (U := U) d L dst sem qi qe fI fe

theorem SlotSt_busy (dst : Memref sig .scVector .vmem S100x128 .f32) (sem : DmaSem sig) (qi qe : PosShare TreeShare)
    (fI : S256x100.Idx → BitVec 32) (hI : ∀ j, (fI j).toNat < 100000) (fe : Buf (Elt F) (eLoc d)) (n : ℕ)
    (off : Fin 2 → ℕ) (inb : ∀ a, off a + S1x100.size a ≤ S256x100.size a) (e : off = rowOff n) (h : n < 256) :
    SlotSt (F := F) (U := U) d L dst sem qi qe fI hI fe n = Busy (F := F) (U := U) d L dst sem qi qe fI hI fe off inb := by
  subst e; unfold SlotSt; rw [dif_pos h]
theorem SlotSt_free (dst : Memref sig .scVector .vmem S100x128 .f32) (sem : DmaSem sig) (qi qe : PosShare TreeShare)
    (fI : S256x100.Idx → BitVec 32) (hI : ∀ j, (fI j).toNat < 100000) (fe : Buf (Elt F) (eLoc d)) (n : ℕ) (h : ¬ n < 256) :
    SlotSt (F := F) (U := U) d L dst sem qi qe fI hI fe n = Free (F := F) (U := U) d L dst sem qi qe fI fe := by
  unfold SlotSt; rw [dif_neg h]

/-- A loaded slot is free. -/
theorem Loaded_free (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a) :
    Loaded (F := F) (U := U) d L dst sem qi qe fI hI fe off inb ⊢ Free (F := F) (U := U) d L dst sem qi qe fI fe := by
  unfold Loaded Free
  iintro ⟨⟨%g, Hd⟩, Hi, He, Hs⟩
  isplitl [Hd]; · iexists _; iexact Hd
  isplitl [Hi]; · iexact Hi
  isplitl [He]; · iexact He
  iexact Hs

/-! ## The conditions of the group loop's issues -/

theorem cond1_true : ∀ k : Fin k0_t1_loop.trips, k0_cond1 k = 1#1 := by decide +kernel
theorem cond2_true : ∀ k : Fin k0_t1_loop.trips, k0_cond2 k = 1#1 := by decide +kernel
theorem cond3_true : ∀ k : Fin k0_t1_loop.trips, k0_cond3 k = 1#1 := by decide +kernel
theorem cond4_true : ∀ k : Fin k0_t1_loop.trips, k0_cond4 k = 1#1 := by decide +kernel
theorem cond5_true : ∀ k : Fin k0_t1_loop.trips, k0_cond5 k = 1#1 := by decide +kernel
theorem cond6_iff : ∀ k : Fin k0_t1_loop.trips, k0_cond6 k = 1#1 ↔ k.val < 41 := by decide +kernel
theorem trips_eq : k0_t1_loop.trips = 42 := by decide

/-- Before trip `p` of the group loop: lists 6p … 6p+4 are in flight into slots 0 … 4 (where there are such lists), slot 5
    is free, the pooled scratch holds what it holds, and the tile owes what it owed. -/
def grpInv (qe : PosShare TreeShare) (fI : S256x100.Idx → BitVec 32) (hI : ∀ j, (fI j).toNat < 100000) (fe : Buf (Elt F) (eLoc d))
    (O : CellTallies nD τ sig (HIx 1)) (W : Waits sig (HIx 1)) (p : ℕ) (_ : Unit) : sProp 𝕄 :=
  iprop(Transfers.MayWaits (V d (cV L) (jV L)) (default : HIx 1) O
    ∗ SlotSt (F := F) (U := U) d L slot0 cc0_scratch3.sem (sh0 fullShare) (sh0 qe) fI hI fe (6 * p + 0)
    ∗ SlotSt (F := F) (U := U) d L slot1 cc0_scratch4.sem (sh1 fullShare) (sh1 qe) fI hI fe (6 * p + 1)
    ∗ SlotSt (F := F) (U := U) d L slot2 cc0_scratch5.sem (sh2 fullShare) (sh2 qe) fI hI fe (6 * p + 2)
    ∗ SlotSt (F := F) (U := U) d L slot3 cc0_scratch6.sem (sh3 fullShare) (sh3 qe) fI hI fe (6 * p + 3)
    ∗ SlotSt (F := F) (U := U) d L slot4 cc0_scratch7.sem (sh4 fullShare) (sh4 qe) fI hI fe (6 * p + 4)
    ∗ Free (F := F) (U := U) d L slot5 cc0_scratch8.sem (sh5 fullShare) (sh5 qe) fI fe
    ∗ (∃ f, sA.view.loc (V d (cV L) (jV L)) ↦{fullShare} f)
    ∗ ∃ W', ⌜∀ p ∈ W', p ∈ W ∨ p.2 = none⌝ ∗ owes (V d (cV L) (jV L)) O W')

end Cert.Kernel.Tile
end
-- ==== Proof.AccMathK.lean ====
/-
  The accumulation of one batch row, as arithmetic.

  A batch row's sum is taken list by list: from an accumulator a, a list g of 100 table rows adds its entries of
  column e in order.  Two lists taken one after the other from zero — the first holding terms 0 … 99 of a sequence f,
  the second terms 100 … 199 — leave the running sum of f's first 200 terms from zero, in order.
-/
import proofs.«207436_g25675314495810_cont_9to1_828_42_alg».proof.Proof.TileDefsK

noncomputable section

namespace Cert.Kernel.Tile

open Cert.Kernel Cert.Kernel.Gen

open Idealize.ShloMosaic
open Idealize.ShloMosaic.ValueIdx

variable {F : FTy → Type} [FloatOps F]

/-- From accumulator `a`, the first `n` rows of list `g` added in order at column `e`. -/
def accList (g : S100x128.Idx → F .f32) (e : Fin 128) : ℕ → F .f32 → F .f32
  | 0, a => a
  | n + 1, a => FloatOps.addf (accList g e n a) (if h : n < 100 then g (ix2 ⟨n, h⟩ e) else FloatOps.ofBits .f32 0x00000000#32)

/-- A list holding the first terms of `f`, from zero: the running sum of `f`. -/
theorem accList_first (g0 : S100x128.Idx → F .f32) (e : Fin 128) (f : ℕ → F .f32)
    (h0 : ∀ l (h : l < 100), g0 (ix2 ⟨l, h⟩ e) = f l) :
    ∀ n, n ≤ 100 → accList g0 e n (FloatOps.ofBits .f32 0x00000000#32) = accF f n
  | 0, _ => rfl
  | n + 1, hn => by
    have hlt : n < 100 := by omega
    show FloatOps.addf (accList g0 e n _) (if h : n < 100 then g0 (ix2 ⟨n, h⟩ e) else _) = FloatOps.addf (accF f n) (f n)
    rw [accList_first g0 e f h0 n (by omega), dif_pos hlt, h0 n hlt]

/-- A list holding the terms of `f` from 100 on, from the running sum of the first 100: the running sum goes on. -/
theorem accList_second (g1 : S100x128.Idx → F .f32) (e : Fin 128) (f : ℕ → F .f32)
    (h1 : ∀ l (h : l < 100), g1 (ix2 ⟨l, h⟩ e) = f (100 + l)) :
    ∀ n, n ≤ 100 → accList g1 e n (accF f 100) = accF f (100 + n)
  | 0, _ => rfl
  | n + 1, hn => by
    have hlt : n < 100 := by omega
    show FloatOps.addf (accList g1 e n _) (if h : n < 100 then g1 (ix2 ⟨n, h⟩ e) else _) = FloatOps.addf (accF f (100 + n)) (f (100 + n))
    rw [accList_second g1 e f h1 n (by omega), dif_pos hlt, h1 n hlt]

/-- Two lists one after the other from zero: the running sum of the 200 terms. -/
theorem accList_two (g0 g1 : S100x128.Idx → F .f32) (e : Fin 128) (f : ℕ → F .f32)
    (h0 : ∀ l (h : l < 100), g0 (ix2 ⟨l, h⟩ e) = f l) (h1 : ∀ l (h : l < 100), g1 (ix2 ⟨l, h⟩ e) = f (100 + l)) :
    accList g1 e 100 (accList g0 e 100 (FloatOps.ofBits .f32 0x00000000#32)) = accF f 200 := by
  rw [accList_first g0 e f h0 100 (le_refl _), accList_second g1 e f h1 100 (le_refl _)]

end Cert.Kernel.Tile

end
-- ==== Proof.GatherValueK.lean ====
/-
  What a gather of one list of the token scratch brings into a slot. The tile's token scratch holds block wid of the
  token array (wid the tile's number): its entry (n, l) is the token array's entry (wid, n, l). List n of the scratch
  is its row n; the gather reads the embedding table whole, so row l of the slot is the table's row named by token l
  of list n of the tile's block — and batch row 128 wid + b is lists 2 b and 2 b + 1 of that block.
-/
import proofs.«207436_g25675314495810_cont_9to1_828_42_alg».proof.Proof.TileInvK

noncomputable section

namespace Cert.Kernel.Tile

open Cert.Kernel Cert.Kernel.Gen
open Idealize.ShloMosaic Idealize.ShloMosaic.ValueIdx

variable {F : FTy → Type} [FloatOps F]

/-- A tile's number is below 32. -/
theorem wid_lt (L : grid0.Coords) : wid L < 32 := by
  have h0 : (L 0).val < 2 := (L 0).isLt
  have h1 : (L 1).val < 16 := (L 1).isLt
  unfold wid; omega

/-! ## The three views at an index -/

/-- The table addressed whole reads the table. -/
theorem srcV_read (fe : S100000x128.Idx → F .f32) (x : S100000x128.Idx) : srcV.view.read (Elt F) fe x = fe x := by
  rw [show srcV.view.read (Elt F) fe x = fe (srcV.view.emb x) from (View.read_apply _ _).trans (cast_eq _ _)]
  refine congrArg fe (funext fun a => Fin.ext ?_)
  match a with
  | ⟨0, _⟩ => show 0 + 1 * (x 0).val = (x 0).val; omega
  | ⟨1, _⟩ => show 0 + 1 * (x 1).val = (x 1).val; omega

/-- Entry l of list n of the token scratch sits at (n, l). -/
theorem rowV_emb (n : ℕ) (hn : n < 256) (x : S100.Idx) :
    (rowV (rowOff n) (rowInb n hn)).view.emb x
      = (ix2 (⟨n, hn⟩ : Fin 256) (⟨(x 0).val, (x 0).isLt⟩ : Fin 100) : S256x100.Idx) := by
  have hy : Shape.reshapeEquiv (s := S1x100) (s' := S100) squeezes_S1x100_S100.numel_eq x
      = (ix2 (0 : Fin 1) (⟨(x 0).val, (x 0).isLt⟩ : Fin 100) : S1x100.Idx) :=
    Shape.reshapeEquiv_eq_of_rowMajor _ (by
      rw [Shape.rowMajor_val_two, Shape.rowMajor_val_one]
      show 0 * 100 + (x 0).val = (x 0).val
      omega)
  show (Rect.unit (s := S256x100) (rowOff n) S1x100.size (rowInb n hn)).emb
    (Shape.reshapeEquiv (s := S1x100) (s' := S100) squeezes_S1x100_S100.numel_eq x) = _
  rw [hy]
  funext a; apply Fin.ext
  match a with
  | ⟨0, _⟩ => show n + 1 * 0 = n; omega
  | ⟨1, _⟩ => show 0 + 1 * (x 0).val = (x 0).val; omega

/-- Entry (n, l) of the tile's block of the token array sits at (wid, n, l). -/
theorem iRowK_emb (L : grid0.Coords) (j : S256x100.Idx) :
    (iRowK L).view.emb j
      = (ix3 (⟨wid L, wid_lt L⟩ : Fin 32) (⟨(j 0).val, idx2_lt0 j⟩ : Fin 256) (⟨(j 1).val, idx2_lt1 j⟩ : Fin 100) : S32x256x100.Idx) := by
  have hy : Shape.reshapeEquiv (s := S1x256x100) (s' := S256x100) squeezes_S1x256x100_S256x100.numel_eq j
      = (ix3 (0 : Fin 1) (⟨(j 0).val, idx2_lt0 j⟩ : Fin 256) (⟨(j 1).val, idx2_lt1 j⟩ : Fin 100) : S1x256x100.Idx) :=
    Shape.reshapeEquiv_eq_of_rowMajor _ (by
      rw [Shape.rowMajor_val_three, Shape.rowMajor_val_two]
      show (0 * 256 + (j 0).val) * 100 + (j 1).val = (j 0).val * 100 + (j 1).val
      omega)
  have h0 : k0_off1 L 0 = 2 * (L 1).val + (L 0).val := congrFun (k0_off1_eq L) 0
  have h1 : k0_off1 L 1 = 0 := congrFun (k0_off1_eq L) 1
  have h2 : k0_off1 L 2 = 0 := congrFun (k0_off1_eq L) 2
  show (Rect.unit (s := S32x256x100) (k0_off1 L) S1x256x100.size (k0_off1_inb L)).emb
    (Shape.reshapeEquiv (s := S1x256x100) (s' := S256x100) squeezes_S1x256x100_S256x100.numel_eq j) = _
  rw [hy]
  funext a; apply Fin.ext
  match a with
  | ⟨0, _⟩ => show k0_off1 L 0 + 1 * 0 = wid L; unfold wid; omega
  | ⟨1, _⟩ => show k0_off1 L 1 + 1 * (j 0).val = (j 0).val; omega
  | ⟨2, _⟩ => show k0_off1 L 2 + 1 * (j 1).val = (j 1).val; omega

/-- Entry x of list n of the token scratch, once the tile's block is copied in, is the token array's (wid, n, x). -/
theorem token_at (L : grid0.Coords) (fi : S32x256x100.Idx → BitVec 32) (n : ℕ) (hn : n < 256) (x : S100.Idx) :
    (rowV (rowOff n) (rowInb n hn)).view.read (Elt F) (idxScr (F := F) L fi) x
      = fi (ix3 (⟨wid L, wid_lt L⟩ : Fin 32) (⟨n, hn⟩ : Fin 256) (⟨(x 0).val, (x 0).isLt⟩ : Fin 100)) := by
  refine ((View.read_apply _ _).trans (cast_eq _ _)).trans ?_
  refine (congrArg (idxScr (F := F) L fi) (rowV_emb n hn x)).trans ?_
  refine ((View.read_apply _ _).trans (cast_eq _ _)).trans ?_
  exact congrArg fi (iRowK_emb L _)

/-- The position a one-axis list's k-th word sits at is k. -/
theorem rowMajor_symm_val (k : Fin S100.numel) : ((S100.rowMajor.symm k) 0).val = k.val := by
  have h := Shape.rowMajor_val_one (S100.rowMajor.symm k)
  rw [Equiv.apply_symm_apply] at h
  exact h.symm

/-! ## The gathered rows -/

/-- Row l of a slot filled from list n: the table's row that token l of list n of the tile's block names. -/
theorem gathered_apply (L : grid0.Coords) (fi : S32x256x100.Idx → BitVec 32) (hin : ∀ j, (fi j).toNat < 100000)
    (fe : S100000x128.Idx → F .f32) (n : ℕ) (hn : n < 256) (l : Fin 100) (e : Fin 128) :
    gathered (F := F) (idxScr (F := F) L fi) (idxScr_inb (F := F) L fi hin) fe (rowOff n) (rowInb n hn) (ix2 l e)
      = embAtF fe (fi (ix3 (⟨wid L, wid_lt L⟩ : Fin 32) (⟨n, hn⟩ : Fin 256) l)).toNat e := by
  have htok : (fi (ix3 (⟨wid L, wid_lt L⟩ : Fin 32) (⟨n, hn⟩ : Fin 256) l)).toNat < 100000 := hin _
  unfold embAtF
  rw [dif_pos htok]
  unfold gathered SparseCore.gatherPayload
  rw [srcV_read]
  refine congrArg fe (funext fun b => Fin.ext ?_)
  match b with
  | ⟨0, _⟩ =>
    refine (congrArg Fin.val (Shape.Gathers.idx_axis gathers_S100000x128_S100x128 _ (ix2 l e))).trans ?_
    unfold SparseCore.rows
    show ((rowV (rowOff n) (rowInb n hn)).view.read (Elt F) (idxScr (F := F) L fi) (S100.rowMajor.symm _)).toNat = _
    rw [token_at]
    refine congrArg (fun t : Fin 100 => (fi (ix3 (⟨wid L, wid_lt L⟩ : Fin 32) (⟨n, hn⟩ : Fin 256) t)).toNat) (Fin.ext ?_)
    exact rowMajor_symm_val _
  | ⟨1, _⟩ =>
    exact Shape.Gathers.idx_of_ne gathers_S100000x128_S100x128 _ (ix2 l e) ⟨1, by decide⟩ (by decide)

/-! ## Batch rows as lists of the tile's block -/

/-- Token 100 h + l of batch row 128 wid + b is token l of list 2 b + h of block wid. -/
theorem tokF_tile (L : grid0.Coords) (fi : S32x256x100.Idx → BitVec 32) (b : Fin 128) (h : Fin 2) (l : Fin 100) :
    tokF fi ⟨128 * wid L + b.val, by have := wid_lt L; have := b.isLt; omega⟩ ⟨100 * h.val + l.val, by have := h.isLt; have := l.isLt; omega⟩
      = (fi (ix3 (⟨wid L, wid_lt L⟩ : Fin 32) (⟨2 * b.val + h.val, by have := b.isLt; have := h.isLt; omega⟩ : Fin 256) l)).toNat := by
  have hw := wid_lt L; have hb := b.isLt; have hh := h.isLt; have hl := l.isLt
  unfold tokF
  refine congrArg (fun j => (fi j).toNat) (funext fun a => Fin.ext ?_)
  match a with
  | ⟨0, _⟩ => show (128 * wid L + b.val) / 128 = wid L; omega
  | ⟨1, _⟩ => show 2 * ((128 * wid L + b.val) % 128) + (100 * h.val + l.val) / 100 = 2 * b.val + h.val; omega
  | ⟨2, _⟩ => show (100 * h.val + l.val) % 100 = l.val; omega

end Cert.Kernel.Tile

end
-- ==== Proof.TileValK.lean ====
/-
  The values behind the tile's loops. Reading a slot row by row adds, to lane x of register j, the slot's rows of
  column 16 j + x in order. A batch row takes two lists from zero and is stored times the scale: that is the pooled
  value of the row. Before trip p of the group loop rows 0 … 3p-1 of the pooled scratch hold their pooled values.
-/
import proofs.«207436_g25675314495810_cont_9to1_828_42_alg».proof.Proof.TileInvK
import proofs.«207436_g25675314495810_cont_9to1_828_42_alg».proof.Proof.AccMathK
import proofs.«207436_g25675314495810_cont_9to1_828_42_alg».proof.Proof.GatherValueK

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ
variable (d : Dev nD) (L : grid0.Coords)

/-! ## Registers, and what a slot's rows add to them -/

/-- The kernel's eight registers of sixteen lanes. -/
abbrev T8 (F : FTy → Type) : Type := FVec F S16 .f32 × FVec F S16 .f32 × FVec F S16 .f32 × FVec F S16 .f32 × FVec F S16 .f32 × FVec F S16 .f32 × FVec F S16 .f32 × FVec F S16 .f32

/-- Register `j`. -/
def tget (a : T8 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

theorem col_lt (j : Fin 8) (x : Fin 16) : 16 * j.val + x.val < 128 := by omega

/-- While a slot holding `w` is read row by row: before row `t`, lane `x` of register `j` is its value at the start
    with rows 0 … t-1 of column 16 j + x added in order. -/
def accInv (dst : Memref sig .scVector .vmem S100x128 .f32) (g : dst.view.ty.Contents (Elt F)) (w : S100x128.Idx → F .f32) (a0 : T8 F)
    (t : ℕ) (a : T8 F) : sProp 𝕄 :=
  iprop((dst.view.loc (V d (cV L) (jV L)) ↦[dst.view.set]{fullShare} (dst.view.write (Elt F) g w Finset.univ))
    ∗ ⌜∀ (j : Fin 8) (x : Fin 16), tget a j (ix1 x) = accList w ⟨16 * j.val + x.val, col_lt j x⟩ t (tget a0 j (ix1 x))⌝)

/-- The pooled value of the tile's batch row `b`, column `e`. -/
def PV (fe : S100000x128.Idx → F .f32) (fi : S32x256x100.Idx → BitVec 32) (b e : Fin 128) : F .f32 :=
  pooledBuf scaleC fe fi (ix2 ⟨128 * wid L + b.val, by have := wid_lt L; omega⟩ e)

/-- Before trip `p` of the group loop (with values): as `grpInv`, and rows 0 … 3p-1 of the pooled scratch hold their pooled values. -/
def grpInvV (qe : PosShare TreeShare) (fi : S32x256x100.Idx → BitVec 32) (hin : ∀ j, (fi j).toNat < 100000) (fe : Buf (Elt F) (eLoc d))
    (O : CellTallies nD τ sig (HIx 1)) (W : Waits sig (HIx 1)) (p : ℕ) (_ : Unit) : sProp 𝕄 :=
  iprop(Transfers.MayWaits (V d (cV L) (jV L)) (default : HIx 1) O
    ∗ SlotSt (F := F) (U := U) d L slot0 cc0_scratch3.sem (sh0 fullShare) (sh0 qe) (idxScr (F := F) L fi) (idxScr_inb (F := F) L fi hin) fe (6 * p + 0)
    ∗ SlotSt (F := F) (U := U) d L slot1 cc0_scratch4.sem (sh1 fullShare) (sh1 qe) (idxScr (F := F) L fi) (idxScr_inb (F := F) L fi hin) fe (6 * p + 1)
    ∗ SlotSt (F := F) (U := U) d L slot2 cc0_scratch5.sem (sh2 fullShare) (sh2 qe) (idxScr (F := F) L fi) (idxScr_inb (F := F) L fi hin) fe (6 * p + 2)
    ∗ SlotSt (F := F) (U := U) d L slot3 cc0_scratch6.sem (sh3 fullShare) (sh3 qe) (idxScr (F := F) L fi) (idxScr_inb (F := F) L fi hin) fe (6 * p + 3)
    ∗ SlotSt (F := F) (U := U) d L slot4 cc0_scratch7.sem (sh4 fullShare) (sh4 qe) (idxScr (F := F) L fi) (idxScr_inb (F := F) L fi hin) fe (6 * p + 4)
    ∗ Free (F := F) (U := U) d L slot5 cc0_scratch8.sem (sh5 fullShare) (sh5 qe) (idxScr (F := F) L fi) fe
    ∗ (∃ f, (sA.view.loc (V d (cV L) (jV L)) ↦{fullShare} f)
        ∗ ⌜∀ (b e : Fin 128), b.val < 3 * p → f (ix2 b e) = PV (F := F) L fe fi b e⌝)
    ∗ ∃ W', ⌜∀ p ∈ W', p ∈ W ∨ p.2 = none⌝ ∗ owes (V d (cV L) (jV L)) O W')

end Cert.Kernel.Tile
end
-- ==== Proof.RowOpsK.lean ====
/-
  Two register operations of the pooling task at an index. Adding to an accumulator the sixteen lanes
  [cc, cc + 16) of row tt of a slot whose contents were just written whole with w adds, at lane x, the entry
  w (tt, cc + x): a load through a 1 × 16 window reads the written contents at the window's places, and the cast of
  the 1 × 16 result to sixteen lanes keeps the lane. Storing the accumulator times a constant as a 1 × 16 row stores,
  at column y, lane y of the accumulator times the constant.
-/
import proofs.«207436_g25675314495810_cont_9to1_828_42_alg».proof.Proof.TileInvK
import Idealize.ShloMosaic.Lib.ValueLayout

noncomputable section

namespace Cert.Kernel.Tile

open Cert.Kernel Cert.Kernel.Gen
open Idealize.ShloMosaic Idealize.ShloMosaic.ValueIdx

variable {F : FTy → Type} [FloatOps F]

/-- Lane x of an accumulator plus the lanes [cc, cc + 16) of row tt of a slot just written with w. -/
theorem addRow_apply (dst : Memref sig .scVector .vmem S100x128 .f32) (g : dst.view.ty.Contents (Elt F)) (w : S100x128.Idx → F .f32)
    (off : Fin 2 → ℕ) (inb : ∀ a, off a + S1x16.size a ≤ S100x128.size a) (tt cc : ℕ) (hoff : off = ![tt, cc])
    (htt : tt < 100) (hcc : cc + 16 ≤ 128) (acc : FVec F S16 .f32) (x : Fin 16) :
    addf acc (shapeCast S16 (View.readAt (Elt F) dst.view (Rect.unit (s := S100x128) off S1x16.size inb).toLoadRect
        (View.write (Elt F) dst.view g w Finset.univ)) shapeCasts_S1x16_S16) (ix1 x)
      = FloatOps.addf (acc (ix1 x)) (w (ix2 (⟨tt, htt⟩ : Fin 100) (⟨cc + x.val, by have := x.isLt; omega⟩ : Fin 128))) := by
  subst hoff
  show FloatOps.addf (acc (ix1 x)) (shapeCast S16 (View.readAt (Elt F) dst.view (Rect.unit (s := S100x128) ![tt, cc] S1x16.size inb).toLoadRect
        (View.write (Elt F) dst.view g w Finset.univ)) shapeCasts_S1x16_S16 (ix1 x)) = _
  refine congrArg (FloatOps.addf (acc (ix1 x))) ?_
  refine (shapeCast_1a_a_apply _ shapeCasts_S1x16_S16 x).trans ?_
  rw [View.readAt_apply, View.read_write_univ]
  refine congrArg w (funext fun a => Fin.ext ?_)
  match a with
  | ⟨0, _⟩ => show tt + 1 * 0 = tt; omega
  | ⟨1, _⟩ => show cc + 1 * x.val = cc + x.val; omega

/-- Column y of the product of two sixteen-lane vectors stored as a 1 × 16 row. -/
theorem mulRow_apply (acc v : FVec F S16 .f32) (y : S1x16.Idx) :
    shapeCast S1x16 (mulf acc v) shapeCasts_S16_S1x16 y
      = FloatOps.mulf (acc (ix1 (⟨(y 1).val, idx2_lt1 y⟩ : Fin 16))) (v (ix1 (⟨(y 1).val, idx2_lt1 y⟩ : Fin 16))) := by
  have hy : y = ix2 (⟨(y 0).val, idx2_lt0 y⟩ : Fin 1) (⟨(y 1).val, idx2_lt1 y⟩ : Fin 16) := by
    funext a; match a with | ⟨0, _⟩ => rfl | ⟨1, _⟩ => rfl
  refine (congrArg (shapeCast S1x16 (mulf acc v) shapeCasts_S16_S1x16) hy).trans ?_
  exact shapeCast_a_1a_apply (mulf acc v) shapeCasts_S16_S1x16 _ _

/-- Column y of the accumulator times a constant stored as a 1 × 16 row. -/
theorem storeRow_apply (acc : FVec F S16 .f32) (c : F .f32) (y : S1x16.Idx) :
    shapeCast S1x16 (mulf acc (broadcast S16 c)) shapeCasts_S16_S1x16 y
      = FloatOps.mulf (acc (ix1 (⟨(y 1).val, idx2_lt1 y⟩ : Fin 16))) c :=
  mulRow_apply acc (broadcast S16 c) y

/-- The store's payload is that row. -/
theorem k0_pay1_eq (acc v : FVec F S16 .f32) : k0_pay1 acc v = shapeCast S1x16 (mulf acc v) shapeCasts_S16_S1x16 := rfl
/-- The accumulation's payload is that sum. -/
theorem k0_pay2_eq (acc : FVec F S16 .f32) (r : Vec F S1x16 .f32) : k0_pay2 acc r = addf acc (shapeCast S16 r shapeCasts_S1x16_S16) := rfl

end Cert.Kernel.Tile

end
-- ==== Proof.AccStoreK.lean ====
/-
  Reading the pooled scratch after the stores of one trip of the group loop, and after the stores of the two
  tail rows. A trip stores three batch rows, each as eight pieces of 16 columns: row 3 k + r, columns
  16 j … 16 j + 15. The pieces are pairwise disjoint, so an entry under piece (r, j) reads that piece's payload at
  its column within the piece, and an entry of a row the trip does not touch reads what the scratch held.
  Each reading removes the newer pieces one at a time (they miss the entry on the row axis, or, in the same
  row, on the column axis) and ends at the piece that holds the entry, or at the empty list.
-/
import proofs.«207436_g25675314495810_cont_9to1_828_42_alg».proof.Proof.TileDefsK
import Idealize.ShloMosaic.Lib.WritesUnit
import Idealize.ShloMosaic.Lib.ValueIdx

noncomputable section

namespace Cert.Kernel.Tile

open Cert.Kernel Cert.Kernel.Gen
open Idealize.ShloMosaic Idealize.ShloMosaic.ValueIdx

variable {F : FTy → Type} [FloatOps F]

theorem trip_row_lt (k : Fin k0_t1_loop.trips) (r : ℕ) (hr : r < 3) : 3 * k.val + r < 128 := by
  have h := k.isLt
  have e : k0_t1_loop.trips = 42 := by decide
  omega
theorem piece_col_lt (j : ℕ) (hj : j < 8) (x : Fin 16) : 16 * j + x.val < 128 := by have := x.isLt; omega

/-- The scratch of pooled rows, as a view. -/
abbrev accV : View sig .scVector .vmem S128x128 .f32 := (Memref.whole cc0_scratch2 : Memref sig .scVector .vmem S128x128 .f32).view

/-- The stores of trip `k`, the newest first: rows `3 k + 2`, `3 k + 1`, `3 k`, each its pieces 7 … 0. -/
def tripPieces (k : Fin k0_t1_loop.trips) (p27 p26 p25 p24 p23 p22 p21 p20 p17 p16 p15 p14 p13 p12 p11 p10 p07 p06 p05 p04 p03 p02 p01 p00 : S1x16.Idx → F .f32) : List (View.Piece (Elt F) S128x128 .f32) :=
  [⟨Rect.unit (s := S128x128) (k0_off28 k 2#32) S1x16.size (k0_off28_inb k 2), p27⟩,
   ⟨Rect.unit (s := S128x128) (k0_off27 k 2#32) S1x16.size (k0_off27_inb k 2), p26⟩,
   ⟨Rect.unit (s := S128x128) (k0_off26 k 2#32) S1x16.size (k0_off26_inb k 2), p25⟩,
   ⟨Rect.unit (s := S128x128) (k0_off25 k 2#32) S1x16.size (k0_off25_inb k 2), p24⟩,
   ⟨Rect.unit (s := S128x128) (k0_off24 k 2#32) S1x16.size (k0_off24_inb k 2), p23⟩,
   ⟨Rect.unit (s := S128x128) (k0_off23 k 2#32) S1x16.size (k0_off23_inb k 2), p22⟩,
   ⟨Rect.unit (s := S128x128) (k0_off22 k 2#32) S1x16.size (k0_off22_inb k 2), p21⟩,
   ⟨Rect.unit (s := S128x128) (k0_off21 k 2#32) S1x16.size (k0_off21_inb k 2), p20⟩,
   ⟨Rect.unit (s := S128x128) (k0_off28 k 1#32) S1x16.size (k0_off28_inb k 1), p17⟩,
   ⟨Rect.unit (s := S128x128) (k0_off27 k 1#32) S1x16.size (k0_off27_inb k 1), p16⟩,
   ⟨Rect.unit (s := S128x128) (k0_off26 k 1#32) S1x16.size (k0_off26_inb k 1), p15⟩,
   ⟨Rect.unit (s := S128x128) (k0_off25 k 1#32) S1x16.size (k0_off25_inb k 1), p14⟩,
   ⟨Rect.unit (s := S128x128) (k0_off24 k 1#32) S1x16.size (k0_off24_inb k 1), p13⟩,
   ⟨Rect.unit (s := S128x128) (k0_off23 k 1#32) S1x16.size (k0_off23_inb k 1), p12⟩,
   ⟨Rect.unit (s := S128x128) (k0_off22 k 1#32) S1x16.size (k0_off22_inb k 1), p11⟩,
   ⟨Rect.unit (s := S128x128) (k0_off21 k 1#32) S1x16.size (k0_off21_inb k 1), p10⟩,
   ⟨Rect.unit (s := S128x128) (k0_off28 k 0#32) S1x16.size (k0_off28_inb k 0), p07⟩,
   ⟨Rect.unit (s := S128x128) (k0_off27 k 0#32) S1x16.size (k0_off27_inb k 0), p06⟩,
   ⟨Rect.unit (s := S128x128) (k0_off26 k 0#32) S1x16.size (k0_off26_inb k 0), p05⟩,
   ⟨Rect.unit (s := S128x128) (k0_off25 k 0#32) S1x16.size (k0_off25_inb k 0), p04⟩,
   ⟨Rect.unit (s := S128x128) (k0_off24 k 0#32) S1x16.size (k0_off24_inb k 0), p03⟩,
   ⟨Rect.unit (s := S128x128) (k0_off23 k 0#32) S1x16.size (k0_off23_inb k 0), p02⟩,
   ⟨Rect.unit (s := S128x128) (k0_off22 k 0#32) S1x16.size (k0_off22_inb k 0), p01⟩,
   ⟨Rect.unit (s := S128x128) (k0_off21 k 0#32) S1x16.size (k0_off21_inb k 0), p00⟩]

/-- Row `3 k + 0`, columns `0 … 15`: piece (0, 0)'s payload. -/
theorem sA_trip_hit_0_0 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 0 + x.val) :
    (accV.writes (Elt F) fA (tripPieces k p27 p26 p25 p24 p23 p22 p21 p20 p17 p16 p15 p14 p13 p12 p11 p10 p07 p06 p05 p04 p03 p02 p01 p00)) y = p00 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  refine (View.read_writes_cons_unit_of_not_mem (Val := Elt F) accV fA _ _ _ y (show k0_off25 k 0#32 = ![3 * k.val + 0, 64] from k0_off25_eq k 0) 1 (Or.inl (by show (y 1).val < 64; omega))).trans ?_
  refine (View.read_writes_cons_unit_of_not_mem (Val := Elt F) accV fA _ _ _ y (show k0_off24 k 0#32 = ![3 * k.val + 0, 48] from k0_off24_eq k 0) 1 (Or.inl (by show (y 1).val < 48; omega))).trans ?_
  refine (View.read_writes_cons_unit_of_not_mem (Val := Elt F) accV fA _ _ _ y (show k0_off23 k 0#32 = ![3 * k.val + 0, 32] from k0_off23_eq k 0) 1 (Or.inl (by show (y 1).val < 32; omega))).trans ?_
  refine (View.read_writes_cons_unit_of_not_mem (Val := Elt F) accV fA _ _ _ y (show k0_off22 k 0#32 = ![3 * k.val + 0, 16] from k0_off22_eq k 0) 1 (Or.inl (by show (y 1).val < 16; omega))).trans ?_
  exact View.read_writes_cons_unit_of_mem (Val := Elt F) accV fA _ _ _ y (ix2 (0 : Fin 1) x) (show k0_off21 k 0#32 = ![3 * k.val + 0, 0] from k0_off21_eq k 0) (Fin.forall_fin_two.mpr ⟨by show (y 0).val = 3 * k.val + 0 + 0; omega, by show (y 1).val = 0 + x.val; omega⟩)

/-- Row `3 k + 0`, columns `16 … 31`: piece (0, 1)'s payload. -/
theorem sA_trip_hit_0_1 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 1 + x.val) :
    (accV.writes (Elt F) fA (tripPieces k p27 p26 p25 p24 p23 p22 p21 p20 p17 p16 p15 p14 p13 p12 p11 p10 p07 p06 p05 p04 p03 p02 p01 p00)) y = p01 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  refine (View.read_writes_cons_unit_of_not_mem (Val := Elt F) accV fA _ _ _ y (show k0_off25 k 0#32 = ![3 * k.val + 0, 64] from k0_off25_eq k 0) 1 (Or.inl (by show (y 1).val < 64; omega))).trans ?_
  refine (View.read_writes_cons_unit_of_not_mem (Val := Elt F) accV fA _ _ _ y (show k0_off24 k 0#32 = ![3 * k.val + 0, 48] from k0_off24_eq k 0) 1 (Or.inl (by show (y 1).val < 48; omega))).trans ?_
  refine (View.read_writes_cons_unit_of_not_mem (Val := Elt F) accV fA _ _ _ y (show k0_off23 k 0#32 = ![3 * k.val + 0, 32] from k0_off23_eq k 0) 1 (Or.inl (by show (y 1).val < 32; omega))).trans ?_
  exact View.read_writes_cons_unit_of_mem (Val := Elt F) accV fA _ _ _ y (ix2 (0 : Fin 1) x) (show k0_off22 k 0#32 = ![3 * k.val + 0, 16] from k0_off22_eq k 0) (Fin.forall_fin_two.mpr ⟨by show (y 0).val = 3 * k.val + 0 + 0; omega, by show (y 1).val = 16 + x.val; omega⟩)

/-- Row `3 k + 0`, columns `32 … 47`: piece (0, 2)'s payload. -/
theorem sA_trip_hit_0_2 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 2 + x.val) :
    (accV.writes (Elt F) fA (tripPieces k p27 p26 p25 p24 p23 p22 p21 p20 p17 p16 p15 p14 p13 p12 p11 p10 p07 p06 p05 p04 p03 p02 p01 p00)) y = p02 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  refine (View.read_writes_cons_unit_of_not_mem (Val := Elt F) accV fA _ _ _ y (show k0_off25 k 0#32 = ![3 * k.val + 0, 64] from k0_off25_eq k 0) 1 (Or.inl (by show (y 1).val < 64; omega))).trans ?_
  refine (View.read_writes_cons_unit_of_not_mem (Val := Elt F) accV fA _ _ _ y (show k0_off24 k 0#32 = ![3 * k.val + 0, 48] from k0_off24_eq k 0) 1 (Or.inl (by show (y 1).val < 48; omega))).trans ?_
  exact View.read_writes_cons_unit_of_mem (Val := Elt F) accV fA _ _ _ y (ix2 (0 : Fin 1) x) (show k0_off23 k 0#32 = ![3 * k.val + 0, 32] from k0_off23_eq k 0) (Fin.forall_fin_two.mpr ⟨by show (y 0).val = 3 * k.val + 0 + 0; omega, by show (y 1).val = 32 + x.val; omega⟩)

/-- Row `3 k + 0`, columns `48 … 63`: piece (0, 3)'s payload. -/
theorem sA_trip_hit_0_3 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 3 + x.val) :
    (accV.writes (Elt F) fA (tripPieces k p27 p26 p25 p24 p23 p22 p21 p20 p17 p16 p15 p14 p13 p12 p11 p10 p07 p06 p05 p04 p03 p02 p01 p00)) y = p03 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  refine (View.read_writes_cons_unit_of_not_mem (Val := Elt F) accV fA _ _ _ y (show k0_off25 k 0#32 = ![3 * k.val + 0, 64] from k0_off25_eq k 0) 1 (Or.inl (by show (y 1).val < 64; omega))).trans ?_
  exact View.read_writes_cons_unit_of_mem (Val := Elt F) accV fA _ _ _ y (ix2 (0 : Fin 1) x) (show k0_off24 k 0#32 = ![3 * k.val + 0, 48] from k0_off24_eq k 0) (Fin.forall_fin_two.mpr ⟨by show (y 0).val = 3 * k.val + 0 + 0; omega, by show (y 1).val = 48 + x.val; omega⟩)

/-- Row `3 k + 0`, columns `64 … 79`: piece (0, 4)'s payload. -/
theorem sA_trip_hit_0_4 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 4 + x.val) :
    (accV.writes (Elt F) fA (tripPieces k p27 p26 p25 p24 p23 p22 p21 p20 p17 p16 p15 p14 p13 p12 p11 p10 p07 p06 p05 p04 p03 p02 p01 p00)) y = p04 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  refine (View.read_writes_cons_unit_of_not_mem (Val := Elt F) accV fA _ _ _ y (show k0_off26 k 0#32 = ![3 * k.val + 0, 80] from k0_off26_eq k 0) 1 (Or.inl (by show (y 1).val < 80; omega))).trans ?_
  exact View.read_writes_cons_unit_of_mem (Val := Elt F) accV fA _ _ _ y (ix2 (0 : Fin 1) x) (show k0_off25 k 0#32 = ![3 * k.val + 0, 64] from k0_off25_eq k 0) (Fin.forall_fin_two.mpr ⟨by show (y 0).val = 3 * k.val + 0 + 0; omega, by show (y 1).val = 64 + x.val; omega⟩)

/-- Row `3 k + 0`, columns `80 … 95`: piece (0, 5)'s payload. -/
theorem sA_trip_hit_0_5 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 5 + x.val) :
    (accV.writes (Elt F) fA (tripPieces k p27 p26 p25 p24 p23 p22 p21 p20 p17 p16 p15 p14 p13 p12 p11 p10 p07 p06 p05 p04 p03 p02 p01 p00)) y = p05 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  refine (View.read_writes_cons_unit_of_not_mem (Val := Elt F) accV fA _ _ _ y (show k0_off27 k 0#32 = ![3 * k.val + 0, 96] from k0_off27_eq k 0) 1 (Or.inl (by show (y 1).val < 96; omega))).trans ?_
  exact View.read_writes_cons_unit_of_mem (Val := Elt F) accV fA _ _ _ y (ix2 (0 : Fin 1) x) (show k0_off26 k 0#32 = ![3 * k.val + 0, 80] from k0_off26_eq k 0) (Fin.forall_fin_two.mpr ⟨by show (y 0).val = 3 * k.val + 0 + 0; omega, by show (y 1).val = 80 + x.val; omega⟩)

/-- Row `3 k + 0`, columns `96 … 111`: piece (0, 6)'s payload. -/
theorem sA_trip_hit_0_6 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 6 + x.val) :
    (accV.writes (Elt F) fA (tripPieces k p27 p26 p25 p24 p23 p22 p21 p20 p17 p16 p15 p14 p13 p12 p11 p10 p07 p06 p05 p04 p03 p02 p01 p00)) y = p06 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  refine (View.read_writes_cons_unit_of_not_mem (Val := Elt F) accV fA _ _ _ y (show k0_off28 k 0#32 = ![3 * k.val + 0, 112] from k0_off28_eq k 0) 1 (Or.inl (by show (y 1).val < 112; omega))).trans ?_
  exact View.read_writes_cons_unit_of_mem (Val := Elt F) accV fA _ _ _ y (ix2 (0 : Fin 1) x) (show k0_off27 k 0#32 = ![3 * k.val + 0, 96] from k0_off27_eq k 0) (Fin.forall_fin_two.mpr ⟨by show (y 0).val = 3 * k.val + 0 + 0; omega, by show (y 1).val = 96 + x.val; omega⟩)

/-- Row `3 k + 0`, columns `112 … 127`: piece (0, 7)'s payload. -/
theorem sA_trip_hit_0_7 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 0) (h1 : (y 1).val = 16 * 7 + x.val) :
    (accV.writes (Elt F) fA (tripPieces k p27 p26 p25 p24 p23 p22 p21 p20 p17 p16 p15 p14 p13 p12 p11 p10 p07 p06 p05 p04 p03 p02 p01 p00)) y = p07 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 0 (Or.inl (by show (y 0).val < 3 * k.val + 1; omega))).trans ?_
  refine (View.read_writes_cons_unit_of_not_mem (Val := Elt F) accV fA _ _ _ y (show k0_off27 k 1#32 = ![3 * k.val + 1, 96] from k0_off27_eq k 1) 0 (Or.inl (by show (y 0).val < 3 * k.val + 1; omega))).trans ?_
  refine (View.read_writes_cons_unit_of_not_mem (Val := Elt F) accV fA _ _ _ y (show k0_off26 k 1#32 = ![3 * k.val + 1, 80] from k0_off26_eq k 1) 0 (Or.inl (by show (y 0).val < 3 * k.val + 1; omega))).trans ?_
  refine (View.read_writes_cons_unit_of_not_mem (Val := Elt F) accV fA _ _ _ y (show k0_off25 k 1#32 = ![3 * k.val + 1, 64] from k0_off25_eq k 1) 0 (Or.inl (by show (y 0).val < 3 * k.val + 1; omega))).trans ?_
  refine (View.read_writes_cons_unit_of_not_mem (Val := Elt F) accV fA _ _ _ y (show k0_off24 k 1#32 = ![3 * k.val + 1, 48] from k0_off24_eq k 1) 0 (Or.inl (by show (y 0).val < 3 * k.val + 1; omega))).trans ?_
  refine (View.read_writes_cons_unit_of_not_mem (Val := Elt F) accV fA _ _ _ y (show k0_off23 k 1#32 = ![3 * k.val + 1, 32] from k0_off23_eq k 1) 0 (Or.inl (by show (y 0).val < 3 * k.val + 1; omega))).trans ?_
  refine (View.read_writes_cons_unit_of_not_mem (Val := Elt F) accV fA _ _ _ y (show k0_off22 k 1#32 = ![3 * k.val + 1, 16] from k0_off22_eq k 1) 0 (Or.inl (by show (y 0).val < 3 * k.val + 1; omega))).trans ?_
  refine (View.read_writes_cons_unit_of_not_mem (Val := Elt F) accV fA _ _ _ y (show k0_off21 k 1#32 = ![3 * k.val + 1, 0] from k0_off21_eq k 1) 0 (Or.inl (by show (y 0).val < 3 * k.val + 1; omega))).trans ?_
  exact View.read_writes_cons_unit_of_mem (Val := Elt F) accV fA _ _ _ y (ix2 (0 : Fin 1) x) (show k0_off28 k 0#32 = ![3 * k.val + 0, 112] from k0_off28_eq k 0) (Fin.forall_fin_two.mpr ⟨by show (y 0).val = 3 * k.val + 0 + 0; omega, by show (y 1).val = 112 + x.val; omega⟩)

/-- Row `3 k + 1`, columns `0 … 15`: piece (1, 0)'s payload. -/
theorem sA_trip_hit_1_0 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 0 + x.val) :
    (accV.writes (Elt F) fA (tripPieces k p27 p26 p25 p24 p23 p22 p21 p20 p17 p16 p15 p14 p13 p12 p11 p10 p07 p06 p05 p04 p03 p02 p01 p00)) y = p10 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  refine (View.read_writes_cons_unit_of_not_mem (Val := Elt F) accV fA _ _ _ y (show k0_off25 k 1#32 = ![3 * k.val + 1, 64] from k0_off25_eq k 1) 1 (Or.inl (by show (y 1).val < 64; omega))).trans ?_
  refine (View.read_writes_cons_unit_of_not_mem (Val := Elt F) accV fA _ _ _ y (show k0_off24 k 1#32 = ![3 * k.val + 1, 48] from k0_off24_eq k 1) 1 (Or.inl (by show (y 1).val < 48; omega))).trans ?_
  refine (View.read_writes_cons_unit_of_not_mem (Val := Elt F) accV fA _ _ _ y (show k0_off23 k 1#32 = ![3 * k.val + 1, 32] from k0_off23_eq k 1) 1 (Or.inl (by show (y 1).val < 32; omega))).trans ?_
  refine (View.read_writes_cons_unit_of_not_mem (Val := Elt F) accV fA _ _ _ y (show k0_off22 k 1#32 = ![3 * k.val + 1, 16] from k0_off22_eq k 1) 1 (Or.inl (by show (y 1).val < 16; omega))).trans ?_
  exact View.read_writes_cons_unit_of_mem (Val := Elt F) accV fA _ _ _ y (ix2 (0 : Fin 1) x) (show k0_off21 k 1#32 = ![3 * k.val + 1, 0] from k0_off21_eq k 1) (Fin.forall_fin_two.mpr ⟨by show (y 0).val = 3 * k.val + 1 + 0; omega, by show (y 1).val = 0 + x.val; omega⟩)

/-- Row `3 k + 1`, columns `16 … 31`: piece (1, 1)'s payload. -/
theorem sA_trip_hit_1_1 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 1 + x.val) :
    (accV.writes (Elt F) fA (tripPieces k p27 p26 p25 p24 p23 p22 p21 p20 p17 p16 p15 p14 p13 p12 p11 p10 p07 p06 p05 p04 p03 p02 p01 p00)) y = p11 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  refine (View.read_writes_cons_unit_of_not_mem (Val := Elt F) accV fA _ _ _ y (show k0_off25 k 1#32 = ![3 * k.val + 1, 64] from k0_off25_eq k 1) 1 (Or.inl (by show (y 1).val < 64; omega))).trans ?_
  refine (View.read_writes_cons_unit_of_not_mem (Val := Elt F) accV fA _ _ _ y (show k0_off24 k 1#32 = ![3 * k.val + 1, 48] from k0_off24_eq k 1) 1 (Or.inl (by show (y 1).val < 48; omega))).trans ?_
  refine (View.read_writes_cons_unit_of_not_mem (Val := Elt F) accV fA _ _ _ y (show k0_off23 k 1#32 = ![3 * k.val + 1, 32] from k0_off23_eq k 1) 1 (Or.inl (by show (y 1).val < 32; omega))).trans ?_
  exact View.read_writes_cons_unit_of_mem (Val := Elt F) accV fA _ _ _ y (ix2 (0 : Fin 1) x) (show k0_off22 k 1#32 = ![3 * k.val + 1, 16] from k0_off22_eq k 1) (Fin.forall_fin_two.mpr ⟨by show (y 0).val = 3 * k.val + 1 + 0; omega, by show (y 1).val = 16 + x.val; omega⟩)

/-- Row `3 k + 1`, columns `32 … 47`: piece (1, 2)'s payload. -/
theorem sA_trip_hit_1_2 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 2 + x.val) :
    (accV.writes (Elt F) fA (tripPieces k p27 p26 p25 p24 p23 p22 p21 p20 p17 p16 p15 p14 p13 p12 p11 p10 p07 p06 p05 p04 p03 p02 p01 p00)) y = p12 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  refine (View.read_writes_cons_unit_of_not_mem (Val := Elt F) accV fA _ _ _ y (show k0_off25 k 1#32 = ![3 * k.val + 1, 64] from k0_off25_eq k 1) 1 (Or.inl (by show (y 1).val < 64; omega))).trans ?_
  refine (View.read_writes_cons_unit_of_not_mem (Val := Elt F) accV fA _ _ _ y (show k0_off24 k 1#32 = ![3 * k.val + 1, 48] from k0_off24_eq k 1) 1 (Or.inl (by show (y 1).val < 48; omega))).trans ?_
  exact View.read_writes_cons_unit_of_mem (Val := Elt F) accV fA _ _ _ y (ix2 (0 : Fin 1) x) (show k0_off23 k 1#32 = ![3 * k.val + 1, 32] from k0_off23_eq k 1) (Fin.forall_fin_two.mpr ⟨by show (y 0).val = 3 * k.val + 1 + 0; omega, by show (y 1).val = 32 + x.val; omega⟩)

/-- Row `3 k + 1`, columns `48 … 63`: piece (1, 3)'s payload. -/
theorem sA_trip_hit_1_3 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 3 + x.val) :
    (accV.writes (Elt F) fA (tripPieces k p27 p26 p25 p24 p23 p22 p21 p20 p17 p16 p15 p14 p13 p12 p11 p10 p07 p06 p05 p04 p03 p02 p01 p00)) y = p13 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  refine (View.read_writes_cons_unit_of_not_mem (Val := Elt F) accV fA _ _ _ y (show k0_off25 k 1#32 = ![3 * k.val + 1, 64] from k0_off25_eq k 1) 1 (Or.inl (by show (y 1).val < 64; omega))).trans ?_
  exact View.read_writes_cons_unit_of_mem (Val := Elt F) accV fA _ _ _ y (ix2 (0 : Fin 1) x) (show k0_off24 k 1#32 = ![3 * k.val + 1, 48] from k0_off24_eq k 1) (Fin.forall_fin_two.mpr ⟨by show (y 0).val = 3 * k.val + 1 + 0; omega, by show (y 1).val = 48 + x.val; omega⟩)

/-- Row `3 k + 1`, columns `64 … 79`: piece (1, 4)'s payload. -/
theorem sA_trip_hit_1_4 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 4 + x.val) :
    (accV.writes (Elt F) fA (tripPieces k p27 p26 p25 p24 p23 p22 p21 p20 p17 p16 p15 p14 p13 p12 p11 p10 p07 p06 p05 p04 p03 p02 p01 p00)) y = p14 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  refine (View.read_writes_cons_unit_of_not_mem (Val := Elt F) accV fA _ _ _ y (show k0_off26 k 1#32 = ![3 * k.val + 1, 80] from k0_off26_eq k 1) 1 (Or.inl (by show (y 1).val < 80; omega))).trans ?_
  exact View.read_writes_cons_unit_of_mem (Val := Elt F) accV fA _ _ _ y (ix2 (0 : Fin 1) x) (show k0_off25 k 1#32 = ![3 * k.val + 1, 64] from k0_off25_eq k 1) (Fin.forall_fin_two.mpr ⟨by show (y 0).val = 3 * k.val + 1 + 0; omega, by show (y 1).val = 64 + x.val; omega⟩)

/-- Row `3 k + 1`, columns `80 … 95`: piece (1, 5)'s payload. -/
theorem sA_trip_hit_1_5 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 5 + x.val) :
    (accV.writes (Elt F) fA (tripPieces k p27 p26 p25 p24 p23 p22 p21 p20 p17 p16 p15 p14 p13 p12 p11 p10 p07 p06 p05 p04 p03 p02 p01 p00)) y = p15 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  refine (View.read_writes_cons_unit_of_not_mem (Val := Elt F) accV fA _ _ _ y (show k0_off27 k 1#32 = ![3 * k.val + 1, 96] from k0_off27_eq k 1) 1 (Or.inl (by show (y 1).val < 96; omega))).trans ?_
  exact View.read_writes_cons_unit_of_mem (Val := Elt F) accV fA _ _ _ y (ix2 (0 : Fin 1) x) (show k0_off26 k 1#32 = ![3 * k.val + 1, 80] from k0_off26_eq k 1) (Fin.forall_fin_two.mpr ⟨by show (y 0).val = 3 * k.val + 1 + 0; omega, by show (y 1).val = 80 + x.val; omega⟩)

/-- Row `3 k + 1`, columns `96 … 111`: piece (1, 6)'s payload. -/
theorem sA_trip_hit_1_6 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 6 + x.val) :
    (accV.writes (Elt F) fA (tripPieces k p27 p26 p25 p24 p23 p22 p21 p20 p17 p16 p15 p14 p13 p12 p11 p10 p07 p06 p05 p04 p03 p02 p01 p00)) y = p16 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  refine (View.read_writes_cons_unit_of_not_mem (Val := Elt F) accV fA _ _ _ y (show k0_off28 k 1#32 = ![3 * k.val + 1, 112] from k0_off28_eq k 1) 1 (Or.inl (by show (y 1).val < 112; omega))).trans ?_
  exact View.read_writes_cons_unit_of_mem (Val := Elt F) accV fA _ _ _ y (ix2 (0 : Fin 1) x) (show k0_off27 k 1#32 = ![3 * k.val + 1, 96] from k0_off27_eq k 1) (Fin.forall_fin_two.mpr ⟨by show (y 0).val = 3 * k.val + 1 + 0; omega, by show (y 1).val = 96 + x.val; omega⟩)

/-- Row `3 k + 1`, columns `112 … 127`: piece (1, 7)'s payload. -/
theorem sA_trip_hit_1_7 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 1) (h1 : (y 1).val = 16 * 7 + x.val) :
    (accV.writes (Elt F) fA (tripPieces k p27 p26 p25 p24 p23 p22 p21 p20 p17 p16 p15 p14 p13 p12 p11 p10 p07 p06 p05 p04 p03 p02 p01 p00)) y = p17 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (Or.inl (by show (y 0).val < 3 * k.val + 2; omega))).trans ?_
  refine (View.read_writes_cons_unit_of_not_mem (Val := Elt F) accV fA _ _ _ y (show k0_off27 k 2#32 = ![3 * k.val + 2, 96] from k0_off27_eq k 2) 0 (Or.inl (by show (y 0).val < 3 * k.val + 2; omega))).trans ?_
  refine (View.read_writes_cons_unit_of_not_mem (Val := Elt F) accV fA _ _ _ y (show k0_off26 k 2#32 = ![3 * k.val + 2, 80] from k0_off26_eq k 2) 0 (Or.inl (by show (y 0).val < 3 * k.val + 2; omega))).trans ?_
  refine (View.read_writes_cons_unit_of_not_mem (Val := Elt F) accV fA _ _ _ y (show k0_off25 k 2#32 = ![3 * k.val + 2, 64] from k0_off25_eq k 2) 0 (Or.inl (by show (y 0).val < 3 * k.val + 2; omega))).trans ?_
  refine (View.read_writes_cons_unit_of_not_mem (Val := Elt F) accV fA _ _ _ y (show k0_off24 k 2#32 = ![3 * k.val + 2, 48] from k0_off24_eq k 2) 0 (Or.inl (by show (y 0).val < 3 * k.val + 2; omega))).trans ?_
  refine (View.read_writes_cons_unit_of_not_mem (Val := Elt F) accV fA _ _ _ y (show k0_off23 k 2#32 = ![3 * k.val + 2, 32] from k0_off23_eq k 2) 0 (Or.inl (by show (y 0).val < 3 * k.val + 2; omega))).trans ?_
  refine (View.read_writes_cons_unit_of_not_mem (Val := Elt F) accV fA _ _ _ y (show k0_off22 k 2#32 = ![3 * k.val + 2, 16] from k0_off22_eq k 2) 0 (Or.inl (by show (y 0).val < 3 * k.val + 2; omega))).trans ?_
  refine (View.read_writes_cons_unit_of_not_mem (Val := Elt F) accV fA _ _ _ y (show k0_off21 k 2#32 = ![3 * k.val + 2, 0] from k0_off21_eq k 2) 0 (Or.inl (by show (y 0).val < 3 * k.val + 2; omega))).trans ?_
  exact View.read_writes_cons_unit_of_mem (Val := Elt F) accV fA _ _ _ y (ix2 (0 : Fin 1) x) (show k0_off28 k 1#32 = ![3 * k.val + 1, 112] from k0_off28_eq k 1) (Fin.forall_fin_two.mpr ⟨by show (y 0).val = 3 * k.val + 1 + 0; omega, by show (y 1).val = 112 + x.val; omega⟩)

/-- Row `3 k + 2`, columns `0 … 15`: piece (2, 0)'s payload. -/
theorem sA_trip_hit_2_0 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 0 + x.val) :
    (accV.writes (Elt F) fA (tripPieces k p27 p26 p25 p24 p23 p22 p21 p20 p17 p16 p15 p14 p13 p12 p11 p10 p07 p06 p05 p04 p03 p02 p01 p00)) y = p20 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  refine (View.read_writes_cons_unit_of_not_mem (Val := Elt F) accV fA _ _ _ y (show k0_off25 k 2#32 = ![3 * k.val + 2, 64] from k0_off25_eq k 2) 1 (Or.inl (by show (y 1).val < 64; omega))).trans ?_
  refine (View.read_writes_cons_unit_of_not_mem (Val := Elt F) accV fA _ _ _ y (show k0_off24 k 2#32 = ![3 * k.val + 2, 48] from k0_off24_eq k 2) 1 (Or.inl (by show (y 1).val < 48; omega))).trans ?_
  refine (View.read_writes_cons_unit_of_not_mem (Val := Elt F) accV fA _ _ _ y (show k0_off23 k 2#32 = ![3 * k.val + 2, 32] from k0_off23_eq k 2) 1 (Or.inl (by show (y 1).val < 32; omega))).trans ?_
  refine (View.read_writes_cons_unit_of_not_mem (Val := Elt F) accV fA _ _ _ y (show k0_off22 k 2#32 = ![3 * k.val + 2, 16] from k0_off22_eq k 2) 1 (Or.inl (by show (y 1).val < 16; omega))).trans ?_
  exact View.read_writes_cons_unit_of_mem (Val := Elt F) accV fA _ _ _ y (ix2 (0 : Fin 1) x) (show k0_off21 k 2#32 = ![3 * k.val + 2, 0] from k0_off21_eq k 2) (Fin.forall_fin_two.mpr ⟨by show (y 0).val = 3 * k.val + 2 + 0; omega, by show (y 1).val = 0 + x.val; omega⟩)

/-- Row `3 k + 2`, columns `16 … 31`: piece (2, 1)'s payload. -/
theorem sA_trip_hit_2_1 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 1 + x.val) :
    (accV.writes (Elt F) fA (tripPieces k p27 p26 p25 p24 p23 p22 p21 p20 p17 p16 p15 p14 p13 p12 p11 p10 p07 p06 p05 p04 p03 p02 p01 p00)) y = p21 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  refine (View.read_writes_cons_unit_of_not_mem (Val := Elt F) accV fA _ _ _ y (show k0_off25 k 2#32 = ![3 * k.val + 2, 64] from k0_off25_eq k 2) 1 (Or.inl (by show (y 1).val < 64; omega))).trans ?_
  refine (View.read_writes_cons_unit_of_not_mem (Val := Elt F) accV fA _ _ _ y (show k0_off24 k 2#32 = ![3 * k.val + 2, 48] from k0_off24_eq k 2) 1 (Or.inl (by show (y 1).val < 48; omega))).trans ?_
  refine (View.read_writes_cons_unit_of_not_mem (Val := Elt F) accV fA _ _ _ y (show k0_off23 k 2#32 = ![3 * k.val + 2, 32] from k0_off23_eq k 2) 1 (Or.inl (by show (y 1).val < 32; omega))).trans ?_
  exact View.read_writes_cons_unit_of_mem (Val := Elt F) accV fA _ _ _ y (ix2 (0 : Fin 1) x) (show k0_off22 k 2#32 = ![3 * k.val + 2, 16] from k0_off22_eq k 2) (Fin.forall_fin_two.mpr ⟨by show (y 0).val = 3 * k.val + 2 + 0; omega, by show (y 1).val = 16 + x.val; omega⟩)

/-- Row `3 k + 2`, columns `32 … 47`: piece (2, 2)'s payload. -/
theorem sA_trip_hit_2_2 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 2 + x.val) :
    (accV.writes (Elt F) fA (tripPieces k p27 p26 p25 p24 p23 p22 p21 p20 p17 p16 p15 p14 p13 p12 p11 p10 p07 p06 p05 p04 p03 p02 p01 p00)) y = p22 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  refine (View.read_writes_cons_unit_of_not_mem (Val := Elt F) accV fA _ _ _ y (show k0_off25 k 2#32 = ![3 * k.val + 2, 64] from k0_off25_eq k 2) 1 (Or.inl (by show (y 1).val < 64; omega))).trans ?_
  refine (View.read_writes_cons_unit_of_not_mem (Val := Elt F) accV fA _ _ _ y (show k0_off24 k 2#32 = ![3 * k.val + 2, 48] from k0_off24_eq k 2) 1 (Or.inl (by show (y 1).val < 48; omega))).trans ?_
  exact View.read_writes_cons_unit_of_mem (Val := Elt F) accV fA _ _ _ y (ix2 (0 : Fin 1) x) (show k0_off23 k 2#32 = ![3 * k.val + 2, 32] from k0_off23_eq k 2) (Fin.forall_fin_two.mpr ⟨by show (y 0).val = 3 * k.val + 2 + 0; omega, by show (y 1).val = 32 + x.val; omega⟩)

/-- Row `3 k + 2`, columns `48 … 63`: piece (2, 3)'s payload. -/
theorem sA_trip_hit_2_3 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 3 + x.val) :
    (accV.writes (Elt F) fA (tripPieces k p27 p26 p25 p24 p23 p22 p21 p20 p17 p16 p15 p14 p13 p12 p11 p10 p07 p06 p05 p04 p03 p02 p01 p00)) y = p23 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  refine (View.read_writes_cons_unit_of_not_mem (Val := Elt F) accV fA _ _ _ y (show k0_off25 k 2#32 = ![3 * k.val + 2, 64] from k0_off25_eq k 2) 1 (Or.inl (by show (y 1).val < 64; omega))).trans ?_
  exact View.read_writes_cons_unit_of_mem (Val := Elt F) accV fA _ _ _ y (ix2 (0 : Fin 1) x) (show k0_off24 k 2#32 = ![3 * k.val + 2, 48] from k0_off24_eq k 2) (Fin.forall_fin_two.mpr ⟨by show (y 0).val = 3 * k.val + 2 + 0; omega, by show (y 1).val = 48 + x.val; omega⟩)

/-- Row `3 k + 2`, columns `64 … 79`: piece (2, 4)'s payload. -/
theorem sA_trip_hit_2_4 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 4 + x.val) :
    (accV.writes (Elt F) fA (tripPieces k p27 p26 p25 p24 p23 p22 p21 p20 p17 p16 p15 p14 p13 p12 p11 p10 p07 p06 p05 p04 p03 p02 p01 p00)) y = p24 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  refine (View.read_writes_cons_unit_of_not_mem (Val := Elt F) accV fA _ _ _ y (show k0_off26 k 2#32 = ![3 * k.val + 2, 80] from k0_off26_eq k 2) 1 (Or.inl (by show (y 1).val < 80; omega))).trans ?_
  exact View.read_writes_cons_unit_of_mem (Val := Elt F) accV fA _ _ _ y (ix2 (0 : Fin 1) x) (show k0_off25 k 2#32 = ![3 * k.val + 2, 64] from k0_off25_eq k 2) (Fin.forall_fin_two.mpr ⟨by show (y 0).val = 3 * k.val + 2 + 0; omega, by show (y 1).val = 64 + x.val; omega⟩)

/-- Row `3 k + 2`, columns `80 … 95`: piece (2, 5)'s payload. -/
theorem sA_trip_hit_2_5 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 5 + x.val) :
    (accV.writes (Elt F) fA (tripPieces k p27 p26 p25 p24 p23 p22 p21 p20 p17 p16 p15 p14 p13 p12 p11 p10 p07 p06 p05 p04 p03 p02 p01 p00)) y = p25 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  refine (View.read_writes_cons_unit_of_not_mem (Val := Elt F) accV fA _ _ _ y (show k0_off27 k 2#32 = ![3 * k.val + 2, 96] from k0_off27_eq k 2) 1 (Or.inl (by show (y 1).val < 96; omega))).trans ?_
  exact View.read_writes_cons_unit_of_mem (Val := Elt F) accV fA _ _ _ y (ix2 (0 : Fin 1) x) (show k0_off26 k 2#32 = ![3 * k.val + 2, 80] from k0_off26_eq k 2) (Fin.forall_fin_two.mpr ⟨by show (y 0).val = 3 * k.val + 2 + 0; omega, by show (y 1).val = 80 + x.val; omega⟩)

/-- Row `3 k + 2`, columns `96 … 111`: piece (2, 6)'s payload. -/
theorem sA_trip_hit_2_6 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 6 + x.val) :
    (accV.writes (Elt F) fA (tripPieces k p27 p26 p25 p24 p23 p22 p21 p20 p17 p16 p15 p14 p13 p12 p11 p10 p07 p06 p05 p04 p03 p02 p01 p00)) y = p26 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 1 (Or.inl (by show (y 1).val < 112; omega))).trans ?_
  exact View.read_writes_cons_unit_of_mem (Val := Elt F) accV fA _ _ _ y (ix2 (0 : Fin 1) x) (show k0_off27 k 2#32 = ![3 * k.val + 2, 96] from k0_off27_eq k 2) (Fin.forall_fin_two.mpr ⟨by show (y 0).val = 3 * k.val + 2 + 0; omega, by show (y 1).val = 96 + x.val; omega⟩)

/-- Row `3 k + 2`, columns `112 … 127`: piece (2, 7)'s payload. -/
theorem sA_trip_hit_2_7 (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (x : Fin 16)
    (y : S128x128.Idx) (h0 : (y 0).val = 3 * k.val + 2) (h1 : (y 1).val = 16 * 7 + x.val) :
    (accV.writes (Elt F) fA (tripPieces k p27 p26 p25 p24 p23 p22 p21 p20 p17 p16 p15 p14 p13 p12 p11 p10 p07 p06 p05 p04 p03 p02 p01 p00)) y = p27 (ix2 (0 : Fin 1) x) := by
  have hx := x.isLt
  show accV.read (Elt F) (accV.writes (Elt F) fA (tripPieces k p27 p26 p25 p24 p23 p22 p21 p20 p17 p16 p15 p14 p13 p12 p11 p10 p07 p06 p05 p04 p03 p02 p01 p00)) y = _
  unfold tripPieces
  exact View.read_writes_cons_unit_of_mem (Val := Elt F) accV fA _ _ _ y (ix2 (0 : Fin 1) x) (show k0_off28 k 2#32 = ![3 * k.val + 2, 112] from k0_off28_eq k 2) (Fin.forall_fin_two.mpr ⟨by show (y 0).val = 3 * k.val + 2 + 0; omega, by show (y 1).val = 112 + x.val; omega⟩)

/-- A row the trip does not store keeps what the scratch held. -/
theorem sA_trip_miss (k : Fin k0_t1_loop.trips) (fA : S128x128.Idx → F .f32) (p27 p26 p25 p24 p23 p22 p21 p20 p17 p16 p15 p14 p13 p12 p11 p10 p07 p06 p05 p04 p03 p02 p01 p00 : S1x16.Idx → F .f32) (y : S128x128.Idx) (hb : (y 0).val < 3 * k.val ∨ 3 * k.val + 3 ≤ (y 0).val) :
    (accV.writes (Elt F) fA (tripPieces k p27 p26 p25 p24 p23 p22 p21 p20 p17 p16 p15 p14 p13 p12 p11 p10 p07 p06 p05 p04 p03 p02 p01 p00)) y = fA y := by
  show accV.read (Elt F) (accV.writes (Elt F) fA (tripPieces k p27 p26 p25 p24 p23 p22 p21 p20 p17 p16 p15 p14 p13 p12 p11 p10 p07 p06 p05 p04 p03 p02 p01 p00)) y = _
  unfold tripPieces
  refine (View.read_writes_cons_unit_of_not_mem (Val := Elt F) accV fA _ _ _ y (show k0_off28 k 2#32 = ![3 * k.val + 2, 112] from k0_off28_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off27 k 2#32 = ![3 * k.val + 2, 96] from k0_off27_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off26 k 2#32 = ![3 * k.val + 2, 80] from k0_off26_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off25 k 2#32 = ![3 * k.val + 2, 64] from k0_off25_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off24 k 2#32 = ![3 * k.val + 2, 48] from k0_off24_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off23 k 2#32 = ![3 * k.val + 2, 32] from k0_off23_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off22 k 2#32 = ![3 * k.val + 2, 16] from k0_off22_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off21 k 2#32 = ![3 * k.val + 2, 0] from k0_off21_eq k 2) 0 (by
    rcases hb with h | h
    · exact Or.inl (by show (y 0).val < 3 * k.val + 2; omega)
    · exact Or.inr (by show 3 * k.val + 2 + 1 ≤ (y 0).val; omega))).trans ?_
  refine (View.read_writes_cons_unit_of_not_mem (Val := Elt F) accV fA _ _ _ y (show k0_off28 k 1#32 = ![3 * k.val + 1, 112] from k0_off28_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off27 k 1#32 = ![3 * k.val + 1, 96] from k0_off27_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off26 k 1#32 = ![3 * k.val + 1, 80] from k0_off26_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off25 k 1#32 = ![3 * k.val + 1, 64] from k0_off25_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off24 k 1#32 = ![3 * k.val + 1, 48] from k0_off24_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off23 k 1#32 = ![3 * k.val + 1, 32] from k0_off23_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off22 k 1#32 = ![3 * k.val + 1, 16] from k0_off22_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off21 k 1#32 = ![3 * k.val + 1, 0] from k0_off21_eq k 1) 0 (by
    rcases hb with h | h
    · exact Or.inl (by show (y 0).val < 3 * k.val + 1; omega)
    · exact Or.inr (by show 3 * k.val + 1 + 1 ≤ (y 0).val; omega))).trans ?_
  refine (View.read_writes_cons_unit_of_not_mem (Val := Elt F) accV fA _ _ _ y (show k0_off28 k 0#32 = ![3 * k.val + 0, 112] from k0_off28_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off27 k 0#32 = ![3 * k.val + 0, 96] from k0_off27_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off26 k 0#32 = ![3 * k.val + 0, 80] from k0_off26_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off25 k 0#32 = ![3 * k.val + 0, 64] from k0_off25_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off24 k 0#32 = ![3 * k.val + 0, 48] from k0_off24_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off23 k 0#32 = ![3 * k.val + 0, 32] from k0_off23_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off22 k 0#32 = ![3 * k.val + 0, 16] from k0_off22_eq k 0) 0 (by
    rcases hb with h | h
    · exact Or.inl (by show (y 0).val < 3 * k.val + 0; omega)
    · exact Or.inr (by show 3 * k.val + 0 + 1 ≤ (y 0).val; omega))).trans ?_
  refine (View.read_writes_cons_unit_of_not_mem (Val := Elt F) accV fA _ _ _ y (show k0_off21 k 0#32 = ![3 * k.val + 0, 0] from k0_off21_eq k 0) 0 (by
    rcases hb with h | h
    · exact Or.inl (by show (y 0).val < 3 * k.val + 0; omega)
    · exact Or.inr (by show 3 * k.val + 0 + 1 ≤ (y 0).val; omega))).trans ?_
  rfl

/-- The stores of row 126, the newest first: its pieces 7 … 0. -/
def tailPieces126 (q7 q6 q5 q4 q3 q2 q1 q0 : S1x16.Idx → F .f32) : List (View.Piece (Elt F) S128x128 .f32) :=
  [⟨Rect.unit (s := S128x128) ![126, 112] S1x16.size inb_S128x128_S1x16_126_112, q7⟩,
   ⟨Rect.unit (s := S128x128) ![126, 96] S1x16.size inb_S128x128_S1x16_126_96, q6⟩,
   ⟨Rect.unit (s := S128x128) ![126, 80] S1x16.size inb_S128x128_S1x16_126_80, q5⟩,
   ⟨Rect.unit (s := S128x128) ![126, 64] S1x16.size inb_S128x128_S1x16_126_64, q4⟩,
   ⟨Rect.unit (s := S128x128) ![126, 48] S1x16.size inb_S128x128_S1x16_126_48, q3⟩,
   ⟨Rect.unit (s := S128x128) ![126, 32] S1x16.size inb_S128x128_S1x16_126_32, q2⟩,
   ⟨Rect.unit (s := S128x128) ![126, 16] S1x16.size inb_S128x128_S1x16_126_16, q1⟩,
   ⟨Rect.unit (s := S128x128) ![126, 0] S1x16.size inb_S128x128_S1x16_126_0, q0⟩]

theorem sA_tail126_hit_0 (fA : S128x128.Idx → F .f32) (q7 q6 q5 q4 q3 q2 q1 q0 : S1x16.Idx → F .f32) (x : Fin 16)
    (y : S128x128.Idx) (h0 : (y 0).val = 126) (h1 : (y 1).val = 16 * 0 + x.val) :
    (accV.writes (Elt F) fA (tailPieces126 q7 q6 q5 q4 q3 q2 q1 q0)) y = q0 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  refine (View.read_writes_cons_unit_of_not_mem (Val := Elt F) accV fA _ _ _ y (rfl : (![126, 64] : Fin 2 → ℕ) = ![126, 64]) 1 (Or.inl (by show (y 1).val < 64; omega))).trans ?_
  refine (View.read_writes_cons_unit_of_not_mem (Val := Elt F) accV fA _ _ _ y (rfl : (![126, 48] : Fin 2 → ℕ) = ![126, 48]) 1 (Or.inl (by show (y 1).val < 48; omega))).trans ?_
  refine (View.read_writes_cons_unit_of_not_mem (Val := Elt F) accV fA _ _ _ y (rfl : (![126, 32] : Fin 2 → ℕ) = ![126, 32]) 1 (Or.inl (by show (y 1).val < 32; omega))).trans ?_
  refine (View.read_writes_cons_unit_of_not_mem (Val := Elt F) accV fA _ _ _ y (rfl : (![126, 16] : Fin 2 → ℕ) = ![126, 16]) 1 (Or.inl (by show (y 1).val < 16; omega))).trans ?_
  exact View.read_writes_cons_unit_of_mem (Val := Elt F) accV fA _ _ _ y (ix2 (0 : Fin 1) x) (rfl : (![126, 0] : Fin 2 → ℕ) = ![126, 0]) (Fin.forall_fin_two.mpr ⟨by show (y 0).val = 126 + 0; omega, by show (y 1).val = 0 + x.val; omega⟩)

theorem sA_tail126_hit_1 (fA : S128x128.Idx → F .f32) (q7 q6 q5 q4 q3 q2 q1 q0 : S1x16.Idx → F .f32) (x : Fin 16)
    (y : S128x128.Idx) (h0 : (y 0).val = 126) (h1 : (y 1).val = 16 * 1 + x.val) :
    (accV.writes (Elt F) fA (tailPieces126 q7 q6 q5 q4 q3 q2 q1 q0)) y = q1 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  refine (View.read_writes_cons_unit_of_not_mem (Val := Elt F) accV fA _ _ _ y (rfl : (![126, 64] : Fin 2 → ℕ) = ![126, 64]) 1 (Or.inl (by show (y 1).val < 64; omega))).trans ?_
  refine (View.read_writes_cons_unit_of_not_mem (Val := Elt F) accV fA _ _ _ y (rfl : (![126, 48] : Fin 2 → ℕ) = ![126, 48]) 1 (Or.inl (by show (y 1).val < 48; omega))).trans ?_
  refine (View.read_writes_cons_unit_of_not_mem (Val := Elt F) accV fA _ _ _ y (rfl : (![126, 32] : Fin 2 → ℕ) = ![126, 32]) 1 (Or.inl (by show (y 1).val < 32; omega))).trans ?_
  exact View.read_writes_cons_unit_of_mem (Val := Elt F) accV fA _ _ _ y (ix2 (0 : Fin 1) x) (rfl : (![126, 16] : Fin 2 → ℕ) = ![126, 16]) (Fin.forall_fin_two.mpr ⟨by show (y 0).val = 126 + 0; omega, by show (y 1).val = 16 + x.val; omega⟩)

theorem sA_tail126_hit_2 (fA : S128x128.Idx → F .f32) (q7 q6 q5 q4 q3 q2 q1 q0 : S1x16.Idx → F .f32) (x : Fin 16)
    (y : S128x128.Idx) (h0 : (y 0).val = 126) (h1 : (y 1).val = 16 * 2 + x.val) :
    (accV.writes (Elt F) fA (tailPieces126 q7 q6 q5 q4 q3 q2 q1 q0)) y = q2 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  refine (View.read_writes_cons_unit_of_not_mem (Val := Elt F) accV fA _ _ _ y (rfl : (![126, 64] : Fin 2 → ℕ) = ![126, 64]) 1 (Or.inl (by show (y 1).val < 64; omega))).trans ?_
  refine (View.read_writes_cons_unit_of_not_mem (Val := Elt F) accV fA _ _ _ y (rfl : (![126, 48] : Fin 2 → ℕ) = ![126, 48]) 1 (Or.inl (by show (y 1).val < 48; omega))).trans ?_
  exact View.read_writes_cons_unit_of_mem (Val := Elt F) accV fA _ _ _ y (ix2 (0 : Fin 1) x) (rfl : (![126, 32] : Fin 2 → ℕ) = ![126, 32]) (Fin.forall_fin_two.mpr ⟨by show (y 0).val = 126 + 0; omega, by show (y 1).val = 32 + x.val; omega⟩)

theorem sA_tail126_hit_3 (fA : S128x128.Idx → F .f32) (q7 q6 q5 q4 q3 q2 q1 q0 : S1x16.Idx → F .f32) (x : Fin 16)
    (y : S128x128.Idx) (h0 : (y 0).val = 126) (h1 : (y 1).val = 16 * 3 + x.val) :
    (accV.writes (Elt F) fA (tailPieces126 q7 q6 q5 q4 q3 q2 q1 q0)) y = q3 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  refine (View.read_writes_cons_unit_of_not_mem (Val := Elt F) accV fA _ _ _ y (rfl : (![126, 64] : Fin 2 → ℕ) = ![126, 64]) 1 (Or.inl (by show (y 1).val < 64; omega))).trans ?_
  exact View.read_writes_cons_unit_of_mem (Val := Elt F) accV fA _ _ _ y (ix2 (0 : Fin 1) x) (rfl : (![126, 48] : Fin 2 → ℕ) = ![126, 48]) (Fin.forall_fin_two.mpr ⟨by show (y 0).val = 126 + 0; omega, by show (y 1).val = 48 + x.val; omega⟩)

theorem sA_tail126_hit_4 (fA : S128x128.Idx → F .f32) (q7 q6 q5 q4 q3 q2 q1 q0 : S1x16.Idx → F .f32) (x : Fin 16)
    (y : S128x128.Idx) (h0 : (y 0).val = 126) (h1 : (y 1).val = 16 * 4 + x.val) :
    (accV.writes (Elt F) fA (tailPieces126 q7 q6 q5 q4 q3 q2 q1 q0)) y = q4 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  refine (View.read_writes_cons_unit_of_not_mem (Val := Elt F) accV fA _ _ _ y (rfl : (![126, 80] : Fin 2 → ℕ) = ![126, 80]) 1 (Or.inl (by show (y 1).val < 80; omega))).trans ?_
  exact View.read_writes_cons_unit_of_mem (Val := Elt F) accV fA _ _ _ y (ix2 (0 : Fin 1) x) (rfl : (![126, 64] : Fin 2 → ℕ) = ![126, 64]) (Fin.forall_fin_two.mpr ⟨by show (y 0).val = 126 + 0; omega, by show (y 1).val = 64 + x.val; omega⟩)

theorem sA_tail126_hit_5 (fA : S128x128.Idx → F .f32) (q7 q6 q5 q4 q3 q2 q1 q0 : S1x16.Idx → F .f32) (x : Fin 16)
    (y : S128x128.Idx) (h0 : (y 0).val = 126) (h1 : (y 1).val = 16 * 5 + x.val) :
    (accV.writes (Elt F) fA (tailPieces126 q7 q6 q5 q4 q3 q2 q1 q0)) y = q5 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  refine (View.read_writes_cons_unit_of_not_mem (Val := Elt F) accV fA _ _ _ y (rfl : (![126, 96] : Fin 2 → ℕ) = ![126, 96]) 1 (Or.inl (by show (y 1).val < 96; omega))).trans ?_
  exact View.read_writes_cons_unit_of_mem (Val := Elt F) accV fA _ _ _ y (ix2 (0 : Fin 1) x) (rfl : (![126, 80] : Fin 2 → ℕ) = ![126, 80]) (Fin.forall_fin_two.mpr ⟨by show (y 0).val = 126 + 0; omega, by show (y 1).val = 80 + x.val; omega⟩)

theorem sA_tail126_hit_6 (fA : S128x128.Idx → F .f32) (q7 q6 q5 q4 q3 q2 q1 q0 : S1x16.Idx → F .f32) (x : Fin 16)
    (y : S128x128.Idx) (h0 : (y 0).val = 126) (h1 : (y 1).val = 16 * 6 + x.val) :
    (accV.writes (Elt F) fA (tailPieces126 q7 q6 q5 q4 q3 q2 q1 q0)) y = q6 (ix2 (0 : Fin 1) x) := by
  have hx := x.isLt
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 1 (Or.inl (by show (y 1).val < 112; omega))).trans ?_
  exact View.read_writes_cons_unit_of_mem (Val := Elt F) accV fA _ _ _ y (ix2 (0 : Fin 1) x) (rfl : (![126, 96] : Fin 2 → ℕ) = ![126, 96]) (Fin.forall_fin_two.mpr ⟨by show (y 0).val = 126 + 0; omega, by show (y 1).val = 96 + x.val; omega⟩)

theorem sA_tail126_hit_7 (fA : S128x128.Idx → F .f32) (q7 q6 q5 q4 q3 q2 q1 q0 : S1x16.Idx → F .f32) (x : Fin 16)
    (y : S128x128.Idx) (h0 : (y 0).val = 126) (h1 : (y 1).val = 16 * 7 + x.val) :
    (accV.writes (Elt F) fA (tailPieces126 q7 q6 q5 q4 q3 q2 q1 q0)) y = q7 (ix2 (0 : Fin 1) x) := by
  have hx := x.isLt
  show accV.read (Elt F) (accV.writes (Elt F) fA (tailPieces126 q7 q6 q5 q4 q3 q2 q1 q0)) y = _
  unfold tailPieces126
  exact View.read_writes_cons_unit_of_mem (Val := Elt F) accV fA _ _ _ y (ix2 (0 : Fin 1) x) (rfl : (![126, 112] : Fin 2 → ℕ) = ![126, 112]) (Fin.forall_fin_two.mpr ⟨by show (y 0).val = 126 + 0; omega, by show (y 1).val = 112 + x.val; omega⟩)

theorem sA_tail126_miss (fA : S128x128.Idx → F .f32) (q7 q6 q5 q4 q3 q2 q1 q0 : S1x16.Idx → F .f32) (y : S128x128.Idx) (hb : (y 0).val ≠ 126) :
    (accV.writes (Elt F) fA (tailPieces126 q7 q6 q5 q4 q3 q2 q1 q0)) y = fA y := by
  show accV.read (Elt F) (accV.writes (Elt F) fA (tailPieces126 q7 q6 q5 q4 q3 q2 q1 q0)) y = _
  unfold tailPieces126
  refine (View.read_writes_cons_unit_of_not_mem (Val := Elt F) accV fA _ _ _ y (rfl : (![126, 112] : Fin 2 → ℕ) = ![126, 112]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 96] : Fin 2 → ℕ) = ![126, 96]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 80] : Fin 2 → ℕ) = ![126, 80]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 64] : Fin 2 → ℕ) = ![126, 64]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 48] : Fin 2 → ℕ) = ![126, 48]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 32] : Fin 2 → ℕ) = ![126, 32]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 16] : Fin 2 → ℕ) = ![126, 16]) 0 (by
    rcases Nat.lt_or_gt_of_ne hb with h | h
    · exact Or.inl (by show (y 0).val < 126; omega)
    · exact Or.inr (by show 126 + 1 ≤ (y 0).val; omega))).trans ?_
  refine (View.read_writes_cons_unit_of_not_mem (Val := Elt F) accV fA _ _ _ y (rfl : (![126, 0] : Fin 2 → ℕ) = ![126, 0]) 0 (by
    rcases Nat.lt_or_gt_of_ne hb with h | h
    · exact Or.inl (by show (y 0).val < 126; omega)
    · exact Or.inr (by show 126 + 1 ≤ (y 0).val; omega))).trans ?_
  rfl

/-- The stores of row 127, the newest first: its pieces 7 … 0. -/
def tailPieces127 (q7 q6 q5 q4 q3 q2 q1 q0 : S1x16.Idx → F .f32) : List (View.Piece (Elt F) S128x128 .f32) :=
  [⟨Rect.unit (s := S128x128) ![127, 112] S1x16.size inb_S128x128_S1x16_127_112, q7⟩,
   ⟨Rect.unit (s := S128x128) ![127, 96] S1x16.size inb_S128x128_S1x16_127_96, q6⟩,
   ⟨Rect.unit (s := S128x128) ![127, 80] S1x16.size inb_S128x128_S1x16_127_80, q5⟩,
   ⟨Rect.unit (s := S128x128) ![127, 64] S1x16.size inb_S128x128_S1x16_127_64, q4⟩,
   ⟨Rect.unit (s := S128x128) ![127, 48] S1x16.size inb_S128x128_S1x16_127_48, q3⟩,
   ⟨Rect.unit (s := S128x128) ![127, 32] S1x16.size inb_S128x128_S1x16_127_32, q2⟩,
   ⟨Rect.unit (s := S128x128) ![127, 16] S1x16.size inb_S128x128_S1x16_127_16, q1⟩,
   ⟨Rect.unit (s := S128x128) ![127, 0] S1x16.size inb_S128x128_S1x16_127_0, q0⟩]

theorem sA_tail127_hit_0 (fA : S128x128.Idx → F .f32) (q7 q6 q5 q4 q3 q2 q1 q0 : S1x16.Idx → F .f32) (x : Fin 16)
    (y : S128x128.Idx) (h0 : (y 0).val = 127) (h1 : (y 1).val = 16 * 0 + x.val) :
    (accV.writes (Elt F) fA (tailPieces127 q7 q6 q5 q4 q3 q2 q1 q0)) y = q0 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  refine (View.read_writes_cons_unit_of_not_mem (Val := Elt F) accV fA _ _ _ y (rfl : (![127, 64] : Fin 2 → ℕ) = ![127, 64]) 1 (Or.inl (by show (y 1).val < 64; omega))).trans ?_
  refine (View.read_writes_cons_unit_of_not_mem (Val := Elt F) accV fA _ _ _ y (rfl : (![127, 48] : Fin 2 → ℕ) = ![127, 48]) 1 (Or.inl (by show (y 1).val < 48; omega))).trans ?_
  refine (View.read_writes_cons_unit_of_not_mem (Val := Elt F) accV fA _ _ _ y (rfl : (![127, 32] : Fin 2 → ℕ) = ![127, 32]) 1 (Or.inl (by show (y 1).val < 32; omega))).trans ?_
  refine (View.read_writes_cons_unit_of_not_mem (Val := Elt F) accV fA _ _ _ y (rfl : (![127, 16] : Fin 2 → ℕ) = ![127, 16]) 1 (Or.inl (by show (y 1).val < 16; omega))).trans ?_
  exact View.read_writes_cons_unit_of_mem (Val := Elt F) accV fA _ _ _ y (ix2 (0 : Fin 1) x) (rfl : (![127, 0] : Fin 2 → ℕ) = ![127, 0]) (Fin.forall_fin_two.mpr ⟨by show (y 0).val = 127 + 0; omega, by show (y 1).val = 0 + x.val; omega⟩)

theorem sA_tail127_hit_1 (fA : S128x128.Idx → F .f32) (q7 q6 q5 q4 q3 q2 q1 q0 : S1x16.Idx → F .f32) (x : Fin 16)
    (y : S128x128.Idx) (h0 : (y 0).val = 127) (h1 : (y 1).val = 16 * 1 + x.val) :
    (accV.writes (Elt F) fA (tailPieces127 q7 q6 q5 q4 q3 q2 q1 q0)) y = q1 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  refine (View.read_writes_cons_unit_of_not_mem (Val := Elt F) accV fA _ _ _ y (rfl : (![127, 64] : Fin 2 → ℕ) = ![127, 64]) 1 (Or.inl (by show (y 1).val < 64; omega))).trans ?_
  refine (View.read_writes_cons_unit_of_not_mem (Val := Elt F) accV fA _ _ _ y (rfl : (![127, 48] : Fin 2 → ℕ) = ![127, 48]) 1 (Or.inl (by show (y 1).val < 48; omega))).trans ?_
  refine (View.read_writes_cons_unit_of_not_mem (Val := Elt F) accV fA _ _ _ y (rfl : (![127, 32] : Fin 2 → ℕ) = ![127, 32]) 1 (Or.inl (by show (y 1).val < 32; omega))).trans ?_
  exact View.read_writes_cons_unit_of_mem (Val := Elt F) accV fA _ _ _ y (ix2 (0 : Fin 1) x) (rfl : (![127, 16] : Fin 2 → ℕ) = ![127, 16]) (Fin.forall_fin_two.mpr ⟨by show (y 0).val = 127 + 0; omega, by show (y 1).val = 16 + x.val; omega⟩)

theorem sA_tail127_hit_2 (fA : S128x128.Idx → F .f32) (q7 q6 q5 q4 q3 q2 q1 q0 : S1x16.Idx → F .f32) (x : Fin 16)
    (y : S128x128.Idx) (h0 : (y 0).val = 127) (h1 : (y 1).val = 16 * 2 + x.val) :
    (accV.writes (Elt F) fA (tailPieces127 q7 q6 q5 q4 q3 q2 q1 q0)) y = q2 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  refine (View.read_writes_cons_unit_of_not_mem (Val := Elt F) accV fA _ _ _ y (rfl : (![127, 64] : Fin 2 → ℕ) = ![127, 64]) 1 (Or.inl (by show (y 1).val < 64; omega))).trans ?_
  refine (View.read_writes_cons_unit_of_not_mem (Val := Elt F) accV fA _ _ _ y (rfl : (![127, 48] : Fin 2 → ℕ) = ![127, 48]) 1 (Or.inl (by show (y 1).val < 48; omega))).trans ?_
  exact View.read_writes_cons_unit_of_mem (Val := Elt F) accV fA _ _ _ y (ix2 (0 : Fin 1) x) (rfl : (![127, 32] : Fin 2 → ℕ) = ![127, 32]) (Fin.forall_fin_two.mpr ⟨by show (y 0).val = 127 + 0; omega, by show (y 1).val = 32 + x.val; omega⟩)

theorem sA_tail127_hit_3 (fA : S128x128.Idx → F .f32) (q7 q6 q5 q4 q3 q2 q1 q0 : S1x16.Idx → F .f32) (x : Fin 16)
    (y : S128x128.Idx) (h0 : (y 0).val = 127) (h1 : (y 1).val = 16 * 3 + x.val) :
    (accV.writes (Elt F) fA (tailPieces127 q7 q6 q5 q4 q3 q2 q1 q0)) y = q3 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  refine (View.read_writes_cons_unit_of_not_mem (Val := Elt F) accV fA _ _ _ y (rfl : (![127, 64] : Fin 2 → ℕ) = ![127, 64]) 1 (Or.inl (by show (y 1).val < 64; omega))).trans ?_
  exact View.read_writes_cons_unit_of_mem (Val := Elt F) accV fA _ _ _ y (ix2 (0 : Fin 1) x) (rfl : (![127, 48] : Fin 2 → ℕ) = ![127, 48]) (Fin.forall_fin_two.mpr ⟨by show (y 0).val = 127 + 0; omega, by show (y 1).val = 48 + x.val; omega⟩)

theorem sA_tail127_hit_4 (fA : S128x128.Idx → F .f32) (q7 q6 q5 q4 q3 q2 q1 q0 : S1x16.Idx → F .f32) (x : Fin 16)
    (y : S128x128.Idx) (h0 : (y 0).val = 127) (h1 : (y 1).val = 16 * 4 + x.val) :
    (accV.writes (Elt F) fA (tailPieces127 q7 q6 q5 q4 q3 q2 q1 q0)) y = q4 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  refine (View.read_writes_cons_unit_of_not_mem (Val := Elt F) accV fA _ _ _ y (rfl : (![127, 80] : Fin 2 → ℕ) = ![127, 80]) 1 (Or.inl (by show (y 1).val < 80; omega))).trans ?_
  exact View.read_writes_cons_unit_of_mem (Val := Elt F) accV fA _ _ _ y (ix2 (0 : Fin 1) x) (rfl : (![127, 64] : Fin 2 → ℕ) = ![127, 64]) (Fin.forall_fin_two.mpr ⟨by show (y 0).val = 127 + 0; omega, by show (y 1).val = 64 + x.val; omega⟩)

theorem sA_tail127_hit_5 (fA : S128x128.Idx → F .f32) (q7 q6 q5 q4 q3 q2 q1 q0 : S1x16.Idx → F .f32) (x : Fin 16)
    (y : S128x128.Idx) (h0 : (y 0).val = 127) (h1 : (y 1).val = 16 * 5 + x.val) :
    (accV.writes (Elt F) fA (tailPieces127 q7 q6 q5 q4 q3 q2 q1 q0)) y = q5 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  refine (View.read_writes_cons_unit_of_not_mem (Val := Elt F) accV fA _ _ _ y (rfl : (![127, 96] : Fin 2 → ℕ) = ![127, 96]) 1 (Or.inl (by show (y 1).val < 96; omega))).trans ?_
  exact View.read_writes_cons_unit_of_mem (Val := Elt F) accV fA _ _ _ y (ix2 (0 : Fin 1) x) (rfl : (![127, 80] : Fin 2 → ℕ) = ![127, 80]) (Fin.forall_fin_two.mpr ⟨by show (y 0).val = 127 + 0; omega, by show (y 1).val = 80 + x.val; omega⟩)

theorem sA_tail127_hit_6 (fA : S128x128.Idx → F .f32) (q7 q6 q5 q4 q3 q2 q1 q0 : S1x16.Idx → F .f32) (x : Fin 16)
    (y : S128x128.Idx) (h0 : (y 0).val = 127) (h1 : (y 1).val = 16 * 6 + x.val) :
    (accV.writes (Elt F) fA (tailPieces127 q7 q6 q5 q4 q3 q2 q1 q0)) y = q6 (ix2 (0 : Fin 1) x) := by
  have hx := x.isLt
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 1 (Or.inl (by show (y 1).val < 112; omega))).trans ?_
  exact View.read_writes_cons_unit_of_mem (Val := Elt F) accV fA _ _ _ y (ix2 (0 : Fin 1) x) (rfl : (![127, 96] : Fin 2 → ℕ) = ![127, 96]) (Fin.forall_fin_two.mpr ⟨by show (y 0).val = 127 + 0; omega, by show (y 1).val = 96 + x.val; omega⟩)

theorem sA_tail127_hit_7 (fA : S128x128.Idx → F .f32) (q7 q6 q5 q4 q3 q2 q1 q0 : S1x16.Idx → F .f32) (x : Fin 16)
    (y : S128x128.Idx) (h0 : (y 0).val = 127) (h1 : (y 1).val = 16 * 7 + x.val) :
    (accV.writes (Elt F) fA (tailPieces127 q7 q6 q5 q4 q3 q2 q1 q0)) y = q7 (ix2 (0 : Fin 1) x) := by
  have hx := x.isLt
  show accV.read (Elt F) (accV.writes (Elt F) fA (tailPieces127 q7 q6 q5 q4 q3 q2 q1 q0)) y = _
  unfold tailPieces127
  exact View.read_writes_cons_unit_of_mem (Val := Elt F) accV fA _ _ _ y (ix2 (0 : Fin 1) x) (rfl : (![127, 112] : Fin 2 → ℕ) = ![127, 112]) (Fin.forall_fin_two.mpr ⟨by show (y 0).val = 127 + 0; omega, by show (y 1).val = 112 + x.val; omega⟩)

theorem sA_tail127_miss (fA : S128x128.Idx → F .f32) (q7 q6 q5 q4 q3 q2 q1 q0 : S1x16.Idx → F .f32) (y : S128x128.Idx) (hb : (y 0).val ≠ 127) :
    (accV.writes (Elt F) fA (tailPieces127 q7 q6 q5 q4 q3 q2 q1 q0)) y = fA y := by
  show accV.read (Elt F) (accV.writes (Elt F) fA (tailPieces127 q7 q6 q5 q4 q3 q2 q1 q0)) y = _
  unfold tailPieces127
  refine (View.read_writes_cons_unit_of_not_mem (Val := Elt F) accV fA _ _ _ y (rfl : (![127, 112] : Fin 2 → ℕ) = ![127, 112]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 96] : Fin 2 → ℕ) = ![127, 96]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 80] : Fin 2 → ℕ) = ![127, 80]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 64] : Fin 2 → ℕ) = ![127, 64]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 48] : Fin 2 → ℕ) = ![127, 48]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 32] : Fin 2 → ℕ) = ![127, 32]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 16] : Fin 2 → ℕ) = ![127, 16]) 0 (by
    rcases Nat.lt_or_gt_of_ne hb with h | h
    · exact Or.inl (by show (y 0).val < 127; omega)
    · exact Or.inr (by show 127 + 1 ≤ (y 0).val; omega))).trans ?_
  refine (View.read_writes_cons_unit_of_not_mem (Val := Elt F) accV fA _ _ _ y (rfl : (![127, 0] : Fin 2 → ℕ) = ![127, 0]) 0 (by
    rcases Nat.lt_or_gt_of_ne hb with h | h
    · exact Or.inl (by show (y 0).val < 127; omega)
    · exact Or.inr (by show 127 + 1 ≤ (y 0).val; omega))).trans ?_
  rfl

end Cert.Kernel.Tile

end
-- ==== Proof.AccTripK.lean ====
/-
  The pooled scratch after one trip of the group loop, in terms of the registers. The trip stores, for each of
  its three batch rows, the eight registers after that row times the scale: register j of row r goes to row
  3 k + r, columns 16 j … 16 j + 15. So the entry at row 3 k + r, column 16 j + x is lane x of register j after
  row r, times the scale; rows below the trip's keep what the scratch held.
-/
import proofs.«207436_g25675314495810_cont_9to1_828_42_alg».proof.Proof.AccStoreK
import proofs.«207436_g25675314495810_cont_9to1_828_42_alg».proof.Proof.TileValK
import proofs.«207436_g25675314495810_cont_9to1_828_42_alg».proof.Proof.RowOpsK

noncomputable section

namespace Cert.Kernel.Tile

open Cert.Kernel Cert.Kernel.Gen
open Idealize.ShloMosaic Idealize.ShloMosaic.ValueIdx

variable {F : FTy → Type} [FloatOps F]

/-- A register times the scale, as the 1 × 16 row that is stored. -/
abbrev rowPay (c : F .f32) (a : FVec F S16 .f32) : S1x16.Idx → F .f32 :=
  shapeCast S1x16 (mulf a (broadcast S16 c)) shapeCasts_S16_S1x16

/-- The stores of trip `k`, the newest first, from the registers `A0 A1 A2` after its three batch rows. -/
def tripList (k : Fin k0_t1_loop.trips) (c : F .f32) (A0 A1 A2 : T8 F) : List (View.Piece (Elt F) S128x128 .f32) :=
  tripPieces k (rowPay c A2.2.2.2.2.2.2.2) (rowPay c A2.2.2.2.2.2.2.1) (rowPay c A2.2.2.2.2.2.1) (rowPay c A2.2.2.2.2.1) (rowPay c A2.2.2.2.1) (rowPay c A2.2.2.1) (rowPay c A2.2.1) (rowPay c A2.1) (rowPay c A1.2.2.2.2.2.2.2) (rowPay c A1.2.2.2.2.2.2.1) (rowPay c A1.2.2.2.2.2.1) (rowPay c A1.2.2.2.2.1) (rowPay c A1.2.2.2.1) (rowPay c A1.2.2.1) (rowPay c A1.2.1) (rowPay c A1.1) (rowPay c A0.2.2.2.2.2.2.2) (rowPay c A0.2.2.2.2.2.2.1) (rowPay c A0.2.2.2.2.2.1) (rowPay c A0.2.2.2.2.1) (rowPay c A0.2.2.2.1) (rowPay c A0.2.2.1) (rowPay c A0.2.1) (rowPay c A0.1)

/-- The registers after batch row `r` of the trip. -/
abbrev regsOf (A0 A1 A2 : T8 F) (r : Fin 3) : T8 F := match r with | 0 => A0 | 1 => A1 | 2 => A2

set_option maxRecDepth 8192 in
theorem trip_hit (k : Fin k0_t1_loop.trips) (fA : S128x128.Idx → F .f32) (c : F .f32) (A0 A1 A2 : T8 F)
    (r : Fin 3) (j : Fin 8) (x : Fin 16) :
    (sA.view.writes (Elt F) fA (tripList k c A0 A1 A2))
        (ix2 (⟨3 * k.val + r.val, trip_row_lt k r.val r.isLt⟩ : Fin 128) (⟨16 * j.val + x.val, col_lt j x⟩ : Fin 128))
      = FloatOps.mulf (tget (match r with | 0 => A0 | 1 => A1 | 2 => A2) j (ix1 x)) c := by
  fin_cases r <;> fin_cases j
  exacts [(sA_trip_hit_0_0 k fA _ _ _ _ _ _ _ _ _ _ _ _ _ _ _ _ _ _ _ _ _ _ _ _ x _ rfl rfl).trans (storeRow_apply _ c _),
    (sA_trip_hit_0_1 k fA _ _ _ _ _ _ _ _ _ _ _ _ _ _ _ _ _ _ _ _ _ _ _ _ x _ rfl rfl).trans (storeRow_apply _ c _),
    (sA_trip_hit_0_2 k fA _ _ _ _ _ _ _ _ _ _ _ _ _ _ _ _ _ _ _ _ _ _ _ _ x _ rfl rfl).trans (storeRow_apply _ c _),
    (sA_trip_hit_0_3 k fA _ _ _ _ _ _ _ _ _ _ _ _ _ _ _ _ _ _ _ _ _ _ _ _ x _ rfl rfl).trans (storeRow_apply _ c _),
    (sA_trip_hit_0_4 k fA _ _ _ _ _ _ _ _ _ _ _ _ _ _ _ _ _ _ _ _ _ _ _ _ x _ rfl rfl).trans (storeRow_apply _ c _),
    (sA_trip_hit_0_5 k fA _ _ _ _ _ _ _ _ _ _ _ _ _ _ _ _ _ _ _ _ _ _ _ _ x _ rfl rfl).trans (storeRow_apply _ c _),
    (sA_trip_hit_0_6 k fA _ _ _ _ _ _ _ _ _ _ _ _ _ _ _ _ _ _ _ _ _ _ _ _ x _ rfl rfl).trans (storeRow_apply _ c _),
    (sA_trip_hit_0_7 k fA _ _ _ _ _ _ _ _ _ _ _ _ _ _ _ _ _ _ _ _ _ _ _ _ x _ rfl rfl).trans (storeRow_apply _ c _),
    (sA_trip_hit_1_0 k fA _ _ _ _ _ _ _ _ _ _ _ _ _ _ _ _ _ _ _ _ _ _ _ _ x _ rfl rfl).trans (storeRow_apply _ c _),
    (sA_trip_hit_1_1 k fA _ _ _ _ _ _ _ _ _ _ _ _ _ _ _ _ _ _ _ _ _ _ _ _ x _ rfl rfl).trans (storeRow_apply _ c _),
    (sA_trip_hit_1_2 k fA _ _ _ _ _ _ _ _ _ _ _ _ _ _ _ _ _ _ _ _ _ _ _ _ x _ rfl rfl).trans (storeRow_apply _ c _),
    (sA_trip_hit_1_3 k fA _ _ _ _ _ _ _ _ _ _ _ _ _ _ _ _ _ _ _ _ _ _ _ _ x _ rfl rfl).trans (storeRow_apply _ c _),
    (sA_trip_hit_1_4 k fA _ _ _ _ _ _ _ _ _ _ _ _ _ _ _ _ _ _ _ _ _ _ _ _ x _ rfl rfl).trans (storeRow_apply _ c _),
    (sA_trip_hit_1_5 k fA _ _ _ _ _ _ _ _ _ _ _ _ _ _ _ _ _ _ _ _ _ _ _ _ x _ rfl rfl).trans (storeRow_apply _ c _),
    (sA_trip_hit_1_6 k fA _ _ _ _ _ _ _ _ _ _ _ _ _ _ _ _ _ _ _ _ _ _ _ _ x _ rfl rfl).trans (storeRow_apply _ c _),
    (sA_trip_hit_1_7 k fA _ _ _ _ _ _ _ _ _ _ _ _ _ _ _ _ _ _ _ _ _ _ _ _ x _ rfl rfl).trans (storeRow_apply _ c _),
    (sA_trip_hit_2_0 k fA _ _ _ _ _ _ _ _ _ _ _ _ _ _ _ _ _ _ _ _ _ _ _ _ x _ rfl rfl).trans (storeRow_apply _ c _),
    (sA_trip_hit_2_1 k fA _ _ _ _ _ _ _ _ _ _ _ _ _ _ _ _ _ _ _ _ _ _ _ _ x _ rfl rfl).trans (storeRow_apply _ c _),
    (sA_trip_hit_2_2 k fA _ _ _ _ _ _ _ _ _ _ _ _ _ _ _ _ _ _ _ _ _ _ _ _ x _ rfl rfl).trans (storeRow_apply _ c _),
    (sA_trip_hit_2_3 k fA _ _ _ _ _ _ _ _ _ _ _ _ _ _ _ _ _ _ _ _ _ _ _ _ x _ rfl rfl).trans (storeRow_apply _ c _),
    (sA_trip_hit_2_4 k fA _ _ _ _ _ _ _ _ _ _ _ _ _ _ _ _ _ _ _ _ _ _ _ _ x _ rfl rfl).trans (storeRow_apply _ c _),
    (sA_trip_hit_2_5 k fA _ _ _ _ _ _ _ _ _ _ _ _ _ _ _ _ _ _ _ _ _ _ _ _ x _ rfl rfl).trans (storeRow_apply _ c _),
    (sA_trip_hit_2_6 k fA _ _ _ _ _ _ _ _ _ _ _ _ _ _ _ _ _ _ _ _ _ _ _ _ x _ rfl rfl).trans (storeRow_apply _ c _),
    (sA_trip_hit_2_7 k fA _ _ _ _ _ _ _ _ _ _ _ _ _ _ _ _ _ _ _ _ _ _ _ _ x _ rfl rfl).trans (storeRow_apply _ c _)]

theorem trip_miss (k : Fin k0_t1_loop.trips) (fA : S128x128.Idx → F .f32) (c : F .f32) (A0 A1 A2 : T8 F)
    (b e : Fin 128) (hb : b.val < 3 * k.val) :
    (sA.view.writes (Elt F) fA (tripList k c A0 A1 A2)) (ix2 b e) = fA (ix2 b e) :=
  sA_trip_miss k fA _ _ _ _ _ _ _ _ _ _ _ _ _ _ _ _ _ _ _ _ _ _ _ _ (ix2 b e) (Or.inl hb)

end Cert.Kernel.Tile

end
-- ==== Proof.RowValueK.lean ====
/-
  A batch row's stored value is its pooled value.

  Lane x of register j, started at zero, takes the 100 rows of list 2 b and then the 100 rows of list 2 b + 1 of the
  tile's block at column 16 j + x: row l of the first list is the table's row of token l of batch row 128 w + b, row l
  of the second that of token 100 + l.  So the register holds the running sum of the 200 terms from zero, and times
  the scale that is the pooled value.
-/
import proofs.«207436_g25675314495810_cont_9to1_828_42_alg».proof.Proof.TileValK

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ
variable (d : Dev nD) (L : grid0.Coords)

/-- Token l < 100 of batch row 128 w + b is token l of list 2 b of block w. -/
theorem tokF_first (fi : S32x256x100.Idx → BitVec 32) (b : Fin 128) (l : ℕ) (hl : l < 100) :
    tokF fi ⟨128 * wid L + b.val, by have := wid_lt L; have := b.isLt; omega⟩ ⟨l, by omega⟩
      = (fi (ix3 (⟨wid L, wid_lt L⟩ : Fin 32) (⟨2 * b.val, by have := b.isLt; omega⟩ : Fin 256) (⟨l, hl⟩ : Fin 100))).toNat := by
  have hw := wid_lt L; have hb := b.isLt
  unfold tokF
  refine congrArg (fun j => (fi j).toNat) (funext fun a => Fin.ext ?_)
  match a with
  | ⟨0, _⟩ => show (128 * wid L + b.val) / 128 = wid L; omega
  | ⟨1, _⟩ => show 2 * ((128 * wid L + b.val) % 128) + l / 100 = 2 * b.val; omega
  | ⟨2, _⟩ => show l % 100 = l; omega

/-- Token 100 + l of batch row 128 w + b is token l of list 2 b + 1 of block w. -/
theorem tokF_second (fi : S32x256x100.Idx → BitVec 32) (b : Fin 128) (l : ℕ) (hl : l < 100) :
    tokF fi ⟨128 * wid L + b.val, by have := wid_lt L; have := b.isLt; omega⟩ ⟨100 + l, by omega⟩
      = (fi (ix3 (⟨wid L, wid_lt L⟩ : Fin 32) (⟨2 * b.val + 1, by have := b.isLt; omega⟩ : Fin 256) (⟨l, hl⟩ : Fin 100))).toNat := by
  have hw := wid_lt L; have hb := b.isLt
  unfold tokF
  refine congrArg (fun j => (fi j).toNat) (funext fun a => Fin.ext ?_)
  match a with
  | ⟨0, _⟩ => show (128 * wid L + b.val) / 128 = wid L; omega
  | ⟨1, _⟩ => show 2 * ((128 * wid L + b.val) % 128) + (100 + l) / 100 = 2 * b.val + 1; omega
  | ⟨2, _⟩ => show (100 + l) % 100 = l; omega

/-- The registers after a batch row's two lists, times the scale, are the row's pooled values. -/
theorem row_value (fi : S32x256x100.Idx → BitVec 32) (hin : ∀ j, (fi j).toNat < 100000) (fe : S100000x128.Idx → F .f32) (b : Fin 128)
    (n0 n1 : ℕ) (hn0 : n0 < 256) (hn1 : n1 < 256) (e0 : n0 = 2 * b.val) (e1 : n1 = 2 * b.val + 1)
    (off0 off1 : Fin 2 → ℕ) (inb0 : ∀ a, off0 a + S1x100.size a ≤ S256x100.size a) (inb1 : ∀ a, off1 a + S1x100.size a ≤ S256x100.size a)
    (ho0 : off0 = rowOff n0) (ho1 : off1 = rowOff n1)
    (N0 N1 : ℕ) (hN0 : N0 = 100) (hN1 : N1 = 100) (Z A0 A1 : T8 F)
    (hz : ∀ (j : Fin 8) (x : Fin 16), tget Z j (ix1 x) = FloatOps.ofBits .f32 0x00000000#32)
    (h0 : ∀ (j : Fin 8) (x : Fin 16), tget A0 j (ix1 x) = accList (gathered (F := F) (idxScr (F := F) L fi) (idxScr_inb (F := F) L fi hin) fe off0 inb0) ⟨16 * j.val + x.val, col_lt j x⟩ N0 (tget Z j (ix1 x)))
    (h1 : ∀ (j : Fin 8) (x : Fin 16), tget A1 j (ix1 x) = accList (gathered (F := F) (idxScr (F := F) L fi) (idxScr_inb (F := F) L fi hin) fe off1 inb1) ⟨16 * j.val + x.val, col_lt j x⟩ N1 (tget A0 j (ix1 x)))
    (j : Fin 8) (x : Fin 16) :
    FloatOps.mulf (tget A1 j (ix1 x)) (scaleC (F := F)) = PV (F := F) L fe fi b ⟨16 * j.val + x.val, col_lt j x⟩ := by
  subst ho0 ho1 hN0 hN1 e0 e1
  rw [h1, h0, hz]
  unfold PV pooledBuf
  refine congrArg (fun a => FloatOps.mulf a (scaleC (F := F))) ?_
  refine accList_two _ _ _ _ (fun l hl => ?_) (fun l hl => ?_)
  · beta_reduce
    rw [dif_pos (show l < 200 by omega)]
    refine (gathered_apply L fi hin fe (2 * b.val) hn0 ⟨l, hl⟩ _).trans ?_
    exact congrArg (fun t => embAtF fe t _) (tokF_first L fi b l hl).symm
  · beta_reduce
    rw [dif_pos (show 100 + l < 200 by omega)]
    refine (gathered_apply L fi hin fe (2 * b.val + 1) hn1 ⟨l, hl⟩ _).trans ?_
    exact congrArg (fun t => embAtF fe t _) (tokF_second L fi b l hl).symm

end Cert.Kernel.Tile

end
-- ==== Proof.TileTripK.lean ====
/-
  One trip of the group loop, with values. The trip issues the next six lists one before each wait, waits for the six
  in flight, adds each slot's hundred rows to the registers, and after every second list stores the registers times
  the scale into a row of the pooled scratch. A batch row's two lists are its 200 tokens' table rows in order, so what is
  stored is the row's pooled value; rows stored in earlier trips are not touched.
-/
import proofs.«207436_g25675314495810_cont_9to1_828_42_alg».proof.Proof.TileValK
import proofs.«207436_g25675314495810_cont_9to1_828_42_alg».proof.Proof.RowOpsK
import proofs.«207436_g25675314495810_cont_9to1_828_42_alg».proof.Proof.AccTripK
import proofs.«207436_g25675314495810_cont_9to1_828_42_alg».proof.Proof.RowValueK

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ

variable [Infinite ℕ]
theorem Loaded_open (d : Dev nD) (L : grid0.Coords) (dst : Memref sig .scVector .vmem S100x128 .f32) (sem : DmaSem sig) (qi qe : PosShare TreeShare)
    (fI : S256x100.Idx → BitVec 32) (hI : ∀ j, (fI j).toNat < 100000) (fe : Buf (Elt F) (eLoc d))
    (off : Fin 2 → ℕ) (inb : ∀ a, off a + S1x100.size a ≤ S256x100.size a) :
    Loaded (F := F) (U := U) d L dst sem qi qe fI hI fe off inb ⊢
      iprop((∃ g, dst.view.loc (V d (cV L) (jV L)) ↦[dst.view.set]{fullShare}
                (dst.view.write (Elt F) g (gathered (F := F) fI hI fe off inb) Finset.univ))
        ∗ (sI.view.loc (V d (cV L) (jV L)) ↦{qi} fI)
        ∗ (eV.view.loc (V d (cV L) (jV L)) ↦{qe} fe) ∗ semVal (V d (cV L) (jV L), SemLoc.dma sem) 0) := by
  unfold Loaded; exact Entails.refl _
theorem Free_intro (d : Dev nD) (L : grid0.Coords) (dst : Memref sig .scVector .vmem S100x128 .f32) (sem : DmaSem sig) (qi qe : PosShare TreeShare)
    (fI : S256x100.Idx → BitVec 32) (fe : Buf (Elt F) (eLoc d)) (g : Buf (Elt F) (dst.view.loc (V d (cV L) (jV L)))) :
    iprop((dst.view.loc (V d (cV L) (jV L)) ↦[dst.view.set]{fullShare} g)
        ∗ (sI.view.loc (V d (cV L) (jV L)) ↦{qi} fI)
        ∗ (eV.view.loc (V d (cV L) (jV L)) ↦{qe} fe) ∗ semVal (V d (cV L) (jV L), SemLoc.dma sem) 0)
      ⊢ Free (F := F) (U := U) d L dst sem qi qe fI fe := by
  unfold Free
  iintro ⟨Hd, Hi, He, Hs⟩
  isplitl [Hd]; · iexists _; iexact Hd
  isplitl [Hi]; · iexact Hi
  isplitl [He]; · iexact He
  iexact Hs

theorem Free_open (d : Dev nD) (L : grid0.Coords) (dst : Memref sig .scVector .vmem S100x128 .f32) (sem : DmaSem sig) (qi qe : PosShare TreeShare)
    (fI : S256x100.Idx → BitVec 32) (fe : Buf (Elt F) (eLoc d)) :
    Free (F := F) (U := U) d L dst sem qi qe fI fe ⊢
      iprop((∃ g, dst.view.loc (V d (cV L) (jV L)) ↦[dst.view.set]{fullShare} g)
        ∗ (sI.view.loc (V d (cV L) (jV L)) ↦{qi} fI)
        ∗ (eV.view.loc (V d (cV L) (jV L)) ↦{qe} fe) ∗ semVal (V d (cV L) (jV L), SemLoc.dma sem) 0) := by
  unfold Free; exact Entails.refl _

/-- A register of zeros. -/
abbrev zv : FVec F S16 .f32 := fun _ => FloatOps.ofBits .f32 0x00000000#32

theorem accList_succ (w : S100x128.Idx → F .f32) (e : Fin 128) (t : ℕ) (a : F .f32) (ht : t < 100) :
    accList w e (t + 1) a = FloatOps.addf (accList w e t a) (w (ix2 ⟨t, ht⟩ e)) := by
  show FloatOps.addf (accList w e t a) (if h : t < 100 then w (ix2 ⟨t, h⟩ e) else FloatOps.ofBits .f32 0x00000000#32) = _
  rw [dif_pos ht]

theorem zv8_get (j : Fin 8) (x : Fin 16) :
    tget ((zv (F := F), zv (F := F), zv (F := F), zv (F := F), zv (F := F), zv (F := F), zv (F := F), zv (F := F)) : T8 F) j (ix1 x) = FloatOps.ofBits .f32 0x00000000#32 := by
  match j with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

set_option maxHeartbeats 40000000 in
/-- One trip of the group loop. -/
theorem grp_tripV (d : Dev nD) (L : grid0.Coords) (qe : PosShare TreeShare) (fi : Buf (Elt F) (iLoc d)) (hin : ∀ j, (fi j).toNat < 100000)
    (fe : Buf (Elt F) (eLoc d)) (O : CellTallies nD τ sig (HIx 1)) (W : Waits sig (HIx 1)) (k : Fin k0_t1_loop.trips) (acc : Unit) :
    grpInvV (F := F) (U := U) d L qe fi hin fe O W k.val acc
      ⊢ wp frame (wpE (defs₀ (F := F)) 𝒱₀ (V d (cV L) (jV L)) none) Set.univ
          (k0_t1_body L iV (Memref.isWhole_whole _) eV (Memref.isWhole_whole _) oV (Memref.isWhole_whole _) sI (Memref.isWhole_whole _) sR (Memref.isWhole_whole _) sA (Memref.isWhole_whole _) cc0_scratch3 cc0_scratch4 cc0_scratch5 cc0_scratch6 cc0_scratch7 cc0_scratch8 cc0_scoped0 cc0_scoped1 scaleC k acc)
          (grpInvV (F := F) (U := U) d L qe fi hin fe O W (k.val + 1)) := by
    have hI := idxScr_inb (F := F) L fi hin

    have hk : k.val < 42 := k.isLt
    have hc1 := cond1_true k
    have hc2 := cond2_true k
    have hc3 := cond3_true k
    have hc4 := cond4_true k
    have hc5 := cond5_true k
    unfold grpInvV k0_t1_body
    iintro ⟨#Hmw, H0, H1, H2, H3, H4, HF5, ⟨%fA, HsA, %hfA⟩, %W', %hW', HO⟩
    sl_exec
    -- list 6k+5 into slot 5
    iapply (issue_slot (F := F) (U := U) d L slot5 cc0_scratch8.sem (sh5 fullShare) (sh5 qe) (idxScr (F := F) L fi) hI fe (k0_off2 k) (k0_off2_inb k hc1) _) $$ [HF5]
    · iexact HF5
    iintro HN5
    sl_exec
    -- slot 0's list has landed
    ihave HB0 := (Entails.of_eq (SlotSt_busy (F := F) (U := U) d L slot0 _ _ _ _ hI fe (6 * k.val + 0) (rowOff (6 * k.val + 0)) (rowInb _ (by omega)) rfl (by omega))) $$ H0
    iapply (wait_slot (F := F) (U := U) d L slot0 cc0_scratch3.sem _ _ _ hI fe _ _ _ O _ _) $$ [HB0 HO]
    · isplitl [HB0]; · iexact HB0
      isplitl [HO]; · iexact HO
      iexact Hmw
    iintro ⟨HL0, HO⟩
    ihave HL0 := (Loaded_open (F := F) (U := U) d L slot0 _ _ _ _ hI fe _ _) $$ HL0
    icases HL0 with ⟨⟨%g0, Hd0⟩, Hi0, He0, Hs0⟩
    sl_exec
    -- the slot's hundred rows are added to the registers
    sl_for (accInv (F := F) (U := U) d L slot0 g0 (gathered (F := F) (idxScr (F := F) L fi) hI fe (rowOff (6 * k.val + 0)) (rowInb _ (by omega))) (zv (F := F), zv (F := F), zv (F := F), zv (F := F), zv (F := F), zv (F := F), zv (F := F), zv (F := F))) $$ [Hd0]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot0 g0 _ _ _ t.val 0 (k0_off4_eq t) ht (by omega) _ x).trans ((congrArg₂ FloatOps.addf (ha ⟨0, by omega⟩ x) rfl).trans (accList_succ (F := F) _ _ _ _ ht).symm)
      | ⟨1, _⟩ => exact (addRow_apply (F := F) slot0 g0 _ _ _ t.val 16 (k0_off5_eq t) ht (by omega) _ x).trans ((congrArg₂ FloatOps.addf (ha ⟨1, by omega⟩ x) rfl).trans (accList_succ (F := F) _ _ _ _ ht).symm)
      | ⟨2, _⟩ => exact (addRow_apply (F := F) slot0 g0 _ _ _ t.val 32 (k0_off6_eq t) ht (by omega) _ x).trans ((congrArg₂ FloatOps.addf (ha ⟨2, by omega⟩ x) rfl).trans (accList_succ (F := F) _ _ _ _ ht).symm)
      | ⟨3, _⟩ => exact (addRow_apply (F := F) slot0 g0 _ _ _ t.val 48 (k0_off7_eq t) ht (by omega) _ x).trans ((congrArg₂ FloatOps.addf (ha ⟨3, by omega⟩ x) rfl).trans (accList_succ (F := F) _ _ _ _ ht).symm)
      | ⟨4, _⟩ => exact (addRow_apply (F := F) slot0 g0 _ _ _ t.val 64 (k0_off8_eq t) ht (by omega) _ x).trans ((congrArg₂ FloatOps.addf (ha ⟨4, by omega⟩ x) rfl).trans (accList_succ (F := F) _ _ _ _ ht).symm)
      | ⟨5, _⟩ => exact (addRow_apply (F := F) slot0 g0 _ _ _ t.val 80 (k0_off9_eq t) ht (by omega) _ x).trans ((congrArg₂ FloatOps.addf (ha ⟨5, by omega⟩ x) rfl).trans (accList_succ (F := F) _ _ _ _ ht).symm)
      | ⟨6, _⟩ => exact (addRow_apply (F := F) slot0 g0 _ _ _ t.val 96 (k0_off10_eq t) ht (by omega) _ x).trans ((congrArg₂ FloatOps.addf (ha ⟨6, by omega⟩ x) rfl).trans (accList_succ (F := F) _ _ _ _ ht).symm)
      | ⟨7, _⟩ => exact (addRow_apply (F := F) slot0 g0 _ _ _ t.val 112 (k0_off11_eq t) ht (by omega) _ x).trans ((congrArg₂ FloatOps.addf (ha ⟨7, by omega⟩ x) rfl).trans (accList_succ (F := F) _ _ _ _ ht).symm)
    · unfold accInv
      isplitl [Hd0]; · iexact Hd0
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a0 Hacc0
    unfold accInv
    icases Hacc0 with ⟨Hd0, %ha0⟩
    sl_exec
    -- list 6k+6 into slot 0, which has been read
    iapply (issue_slot (F := F) (U := U) d L slot0 cc0_scratch3.sem (sh0 fullShare) (sh0 qe) (idxScr (F := F) L fi) hI fe (k0_off12 k) (k0_off12_inb k hc2) _) $$ [Hd0 Hi0 He0 Hs0]
    · iapply (Free_intro (F := F) (U := U) d L slot0 cc0_scratch3.sem _ _ _ _ _)
      isplitl [Hd0]; · iexact Hd0
      isplitl [Hi0]; · iexact Hi0
      isplitl [He0]; · iexact He0
      iexact Hs0
    iintro HN0
    sl_exec
    -- slot 1's list has landed
    ihave HB1 := (Entails.of_eq (SlotSt_busy (F := F) (U := U) d L slot1 _ _ _ _ hI fe (6 * k.val + 1) (rowOff (6 * k.val + 1)) (rowInb _ (by omega)) rfl (by omega))) $$ H1
    iapply (wait_slot (F := F) (U := U) d L slot1 cc0_scratch4.sem _ _ _ hI fe _ _ _ O _ _) $$ [HB1 HO]
    · isplitl [HB1]; · iexact HB1
      isplitl [HO]; · iexact HO
      iexact Hmw
    iintro ⟨HL1, HO⟩
    ihave HL1 := (Loaded_open (F := F) (U := U) d L slot1 _ _ _ _ hI fe _ _) $$ HL1
    icases HL1 with ⟨⟨%g1, Hd1⟩, Hi1, He1, Hs1⟩
    sl_exec
    -- the slot's hundred rows are added to the registers
    sl_for (accInv (F := F) (U := U) d L slot1 g1 (gathered (F := F) (idxScr (F := F) L fi) hI fe (rowOff (6 * k.val + 1)) (rowInb _ (by omega))) a0) $$ [Hd1]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot1 g1 _ _ _ t.val 0 (k0_off13_eq t) ht (by omega) _ x).trans ((congrArg₂ FloatOps.addf (ha ⟨0, by omega⟩ x) rfl).trans (accList_succ (F := F) _ _ _ _ ht).symm)
      | ⟨1, _⟩ => exact (addRow_apply (F := F) slot1 g1 _ _ _ t.val 16 (k0_off14_eq t) ht (by omega) _ x).trans ((congrArg₂ FloatOps.addf (ha ⟨1, by omega⟩ x) rfl).trans (accList_succ (F := F) _ _ _ _ ht).symm)
      | ⟨2, _⟩ => exact (addRow_apply (F := F) slot1 g1 _ _ _ t.val 32 (k0_off15_eq t) ht (by omega) _ x).trans ((congrArg₂ FloatOps.addf (ha ⟨2, by omega⟩ x) rfl).trans (accList_succ (F := F) _ _ _ _ ht).symm)
      | ⟨3, _⟩ => exact (addRow_apply (F := F) slot1 g1 _ _ _ t.val 48 (k0_off16_eq t) ht (by omega) _ x).trans ((congrArg₂ FloatOps.addf (ha ⟨3, by omega⟩ x) rfl).trans (accList_succ (F := F) _ _ _ _ ht).symm)
      | ⟨4, _⟩ => exact (addRow_apply (F := F) slot1 g1 _ _ _ t.val 64 (k0_off17_eq t) ht (by omega) _ x).trans ((congrArg₂ FloatOps.addf (ha ⟨4, by omega⟩ x) rfl).trans (accList_succ (F := F) _ _ _ _ ht).symm)
      | ⟨5, _⟩ => exact (addRow_apply (F := F) slot1 g1 _ _ _ t.val 80 (k0_off18_eq t) ht (by omega) _ x).trans ((congrArg₂ FloatOps.addf (ha ⟨5, by omega⟩ x) rfl).trans (accList_succ (F := F) _ _ _ _ ht).symm)
      | ⟨6, _⟩ => exact (addRow_apply (F := F) slot1 g1 _ _ _ t.val 96 (k0_off19_eq t) ht (by omega) _ x).trans ((congrArg₂ FloatOps.addf (ha ⟨6, by omega⟩ x) rfl).trans (accList_succ (F := F) _ _ _ _ ht).symm)
      | ⟨7, _⟩ => exact (addRow_apply (F := F) slot1 g1 _ _ _ t.val 112 (k0_off20_eq t) ht (by omega) _ x).trans ((congrArg₂ FloatOps.addf (ha ⟨7, by omega⟩ x) rfl).trans (accList_succ (F := F) _ _ _ _ ht).symm)
    · unfold accInv
      isplitl [Hd1]; · iexact Hd1
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a1 Hacc1
    unfold accInv
    icases Hacc1 with ⟨Hd1, %ha1⟩
    sl_exec
    -- list 6k+7 into slot 1, which has been read
    iapply (issue_slot (F := F) (U := U) d L slot1 cc0_scratch4.sem (sh1 fullShare) (sh1 qe) (idxScr (F := F) L fi) hI fe (k0_off29 k) (k0_off29_inb k hc3) _) $$ [Hd1 Hi1 He1 Hs1]
    · iapply (Free_intro (F := F) (U := U) d L slot1 cc0_scratch4.sem _ _ _ _ _)
      isplitl [Hd1]; · iexact Hd1
      isplitl [Hi1]; · iexact Hi1
      isplitl [He1]; · iexact He1
      iexact Hs1
    iintro HN1
    sl_exec
    -- slot 2's list has landed
    ihave HB2 := (Entails.of_eq (SlotSt_busy (F := F) (U := U) d L slot2 _ _ _ _ hI fe (6 * k.val + 2) (rowOff (6 * k.val + 2)) (rowInb _ (by omega)) rfl (by omega))) $$ H2
    iapply (wait_slot (F := F) (U := U) d L slot2 cc0_scratch5.sem _ _ _ hI fe _ _ _ O _ _) $$ [HB2 HO]
    · isplitl [HB2]; · iexact HB2
      isplitl [HO]; · iexact HO
      iexact Hmw
    iintro ⟨HL2, HO⟩
    ihave HL2 := (Loaded_open (F := F) (U := U) d L slot2 _ _ _ _ hI fe _ _) $$ HL2
    icases HL2 with ⟨⟨%g2, Hd2⟩, Hi2, He2, Hs2⟩
    sl_exec
    -- the slot's hundred rows are added to the registers
    sl_for (accInv (F := F) (U := U) d L slot2 g2 (gathered (F := F) (idxScr (F := F) L fi) hI fe (rowOff (6 * k.val + 2)) (rowInb _ (by omega))) (zv (F := F), zv (F := F), zv (F := F), zv (F := F), zv (F := F), zv (F := F), zv (F := F), zv (F := F))) $$ [Hd2]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot2 g2 _ _ _ t.val 0 (k0_off30_eq t) ht (by omega) _ x).trans ((congrArg₂ FloatOps.addf (ha ⟨0, by omega⟩ x) rfl).trans (accList_succ (F := F) _ _ _ _ ht).symm)
      | ⟨1, _⟩ => exact (addRow_apply (F := F) slot2 g2 _ _ _ t.val 16 (k0_off31_eq t) ht (by omega) _ x).trans ((congrArg₂ FloatOps.addf (ha ⟨1, by omega⟩ x) rfl).trans (accList_succ (F := F) _ _ _ _ ht).symm)
      | ⟨2, _⟩ => exact (addRow_apply (F := F) slot2 g2 _ _ _ t.val 32 (k0_off32_eq t) ht (by omega) _ x).trans ((congrArg₂ FloatOps.addf (ha ⟨2, by omega⟩ x) rfl).trans (accList_succ (F := F) _ _ _ _ ht).symm)
      | ⟨3, _⟩ => exact (addRow_apply (F := F) slot2 g2 _ _ _ t.val 48 (k0_off33_eq t) ht (by omega) _ x).trans ((congrArg₂ FloatOps.addf (ha ⟨3, by omega⟩ x) rfl).trans (accList_succ (F := F) _ _ _ _ ht).symm)
      | ⟨4, _⟩ => exact (addRow_apply (F := F) slot2 g2 _ _ _ t.val 64 (k0_off34_eq t) ht (by omega) _ x).trans ((congrArg₂ FloatOps.addf (ha ⟨4, by omega⟩ x) rfl).trans (accList_succ (F := F) _ _ _ _ ht).symm)
      | ⟨5, _⟩ => exact (addRow_apply (F := F) slot2 g2 _ _ _ t.val 80 (k0_off35_eq t) ht (by omega) _ x).trans ((congrArg₂ FloatOps.addf (ha ⟨5, by omega⟩ x) rfl).trans (accList_succ (F := F) _ _ _ _ ht).symm)
      | ⟨6, _⟩ => exact (addRow_apply (F := F) slot2 g2 _ _ _ t.val 96 (k0_off36_eq t) ht (by omega) _ x).trans ((congrArg₂ FloatOps.addf (ha ⟨6, by omega⟩ x) rfl).trans (accList_succ (F := F) _ _ _ _ ht).symm)
      | ⟨7, _⟩ => exact (addRow_apply (F := F) slot2 g2 _ _ _ t.val 112 (k0_off37_eq t) ht (by omega) _ x).trans ((congrArg₂ FloatOps.addf (ha ⟨7, by omega⟩ x) rfl).trans (accList_succ (F := F) _ _ _ _ ht).symm)
    · unfold accInv
      isplitl [Hd2]; · iexact Hd2
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a2 Hacc2
    unfold accInv
    icases Hacc2 with ⟨Hd2, %ha2⟩
    sl_exec
    -- list 6k+8 into slot 2, which has been read
    iapply (issue_slot (F := F) (U := U) d L slot2 cc0_scratch5.sem (sh2 fullShare) (sh2 qe) (idxScr (F := F) L fi) hI fe (k0_off38 k) (k0_off38_inb k hc4) _) $$ [Hd2 Hi2 He2 Hs2]
    · iapply (Free_intro (F := F) (U := U) d L slot2 cc0_scratch5.sem _ _ _ _ _)
      isplitl [Hd2]; · iexact Hd2
      isplitl [Hi2]; · iexact Hi2
      isplitl [He2]; · iexact He2
      iexact Hs2
    iintro HN2
    sl_exec
    -- slot 3's list has landed
    ihave HB3 := (Entails.of_eq (SlotSt_busy (F := F) (U := U) d L slot3 _ _ _ _ hI fe (6 * k.val + 3) (rowOff (6 * k.val + 3)) (rowInb _ (by omega)) rfl (by omega))) $$ H3
    iapply (wait_slot (F := F) (U := U) d L slot3 cc0_scratch6.sem _ _ _ hI fe _ _ _ O _ _) $$ [HB3 HO]
    · isplitl [HB3]; · iexact HB3
      isplitl [HO]; · iexact HO
      iexact Hmw
    iintro ⟨HL3, HO⟩
    ihave HL3 := (Loaded_open (F := F) (U := U) d L slot3 _ _ _ _ hI fe _ _) $$ HL3
    icases HL3 with ⟨⟨%g3, Hd3⟩, Hi3, He3, Hs3⟩
    sl_exec
    -- the slot's hundred rows are added to the registers
    sl_for (accInv (F := F) (U := U) d L slot3 g3 (gathered (F := F) (idxScr (F := F) L fi) hI fe (rowOff (6 * k.val + 3)) (rowInb _ (by omega))) a2) $$ [Hd3]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot3 g3 _ _ _ t.val 0 (k0_off39_eq t) ht (by omega) _ x).trans ((congrArg₂ FloatOps.addf (ha ⟨0, by omega⟩ x) rfl).trans (accList_succ (F := F) _ _ _ _ ht).symm)
      | ⟨1, _⟩ => exact (addRow_apply (F := F) slot3 g3 _ _ _ t.val 16 (k0_off40_eq t) ht (by omega) _ x).trans ((congrArg₂ FloatOps.addf (ha ⟨1, by omega⟩ x) rfl).trans (accList_succ (F := F) _ _ _ _ ht).symm)
      | ⟨2, _⟩ => exact (addRow_apply (F := F) slot3 g3 _ _ _ t.val 32 (k0_off41_eq t) ht (by omega) _ x).trans ((congrArg₂ FloatOps.addf (ha ⟨2, by omega⟩ x) rfl).trans (accList_succ (F := F) _ _ _ _ ht).symm)
      | ⟨3, _⟩ => exact (addRow_apply (F := F) slot3 g3 _ _ _ t.val 48 (k0_off42_eq t) ht (by omega) _ x).trans ((congrArg₂ FloatOps.addf (ha ⟨3, by omega⟩ x) rfl).trans (accList_succ (F := F) _ _ _ _ ht).symm)
      | ⟨4, _⟩ => exact (addRow_apply (F := F) slot3 g3 _ _ _ t.val 64 (k0_off43_eq t) ht (by omega) _ x).trans ((congrArg₂ FloatOps.addf (ha ⟨4, by omega⟩ x) rfl).trans (accList_succ (F := F) _ _ _ _ ht).symm)
      | ⟨5, _⟩ => exact (addRow_apply (F := F) slot3 g3 _ _ _ t.val 80 (k0_off44_eq t) ht (by omega) _ x).trans ((congrArg₂ FloatOps.addf (ha ⟨5, by omega⟩ x) rfl).trans (accList_succ (F := F) _ _ _ _ ht).symm)
      | ⟨6, _⟩ => exact (addRow_apply (F := F) slot3 g3 _ _ _ t.val 96 (k0_off45_eq t) ht (by omega) _ x).trans ((congrArg₂ FloatOps.addf (ha ⟨6, by omega⟩ x) rfl).trans (accList_succ (F := F) _ _ _ _ ht).symm)
      | ⟨7, _⟩ => exact (addRow_apply (F := F) slot3 g3 _ _ _ t.val 112 (k0_off46_eq t) ht (by omega) _ x).trans ((congrArg₂ FloatOps.addf (ha ⟨7, by omega⟩ x) rfl).trans (accList_succ (F := F) _ _ _ _ ht).symm)
    · unfold accInv
      isplitl [Hd3]; · iexact Hd3
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a3 Hacc3
    unfold accInv
    icases Hacc3 with ⟨Hd3, %ha3⟩
    sl_exec
    -- list 6k+9 into slot 3, which has been read
    iapply (issue_slot (F := F) (U := U) d L slot3 cc0_scratch6.sem (sh3 fullShare) (sh3 qe) (idxScr (F := F) L fi) hI fe (k0_off47 k) (k0_off47_inb k hc5) _) $$ [Hd3 Hi3 He3 Hs3]
    · iapply (Free_intro (F := F) (U := U) d L slot3 cc0_scratch6.sem _ _ _ _ _)
      isplitl [Hd3]; · iexact Hd3
      isplitl [Hi3]; · iexact Hi3
      isplitl [He3]; · iexact He3
      iexact Hs3
    iintro HN3
    sl_exec
    -- slot 4's list has landed
    ihave HB4 := (Entails.of_eq (SlotSt_busy (F := F) (U := U) d L slot4 _ _ _ _ hI fe (6 * k.val + 4) (rowOff (6 * k.val + 4)) (rowInb _ (by omega)) rfl (by omega))) $$ H4
    iapply (wait_slot (F := F) (U := U) d L slot4 cc0_scratch7.sem _ _ _ hI fe _ _ _ O _ _) $$ [HB4 HO]
    · isplitl [HB4]; · iexact HB4
      isplitl [HO]; · iexact HO
      iexact Hmw
    iintro ⟨HL4, HO⟩
    ihave HL4 := (Loaded_open (F := F) (U := U) d L slot4 _ _ _ _ hI fe _ _) $$ HL4
    icases HL4 with ⟨⟨%g4, Hd4⟩, Hi4, He4, Hs4⟩
    sl_exec
    -- the slot's hundred rows are added to the registers
    sl_for (accInv (F := F) (U := U) d L slot4 g4 (gathered (F := F) (idxScr (F := F) L fi) hI fe (rowOff (6 * k.val + 4)) (rowInb _ (by omega))) (zv (F := F), zv (F := F), zv (F := F), zv (F := F), zv (F := F), zv (F := F), zv (F := F), zv (F := F))) $$ [Hd4]
    case region =>
      intro t a
      unfold accInv
      iintro ⟨Hd, %ha⟩
      sl_exec
      sl_step
      isplitl [Hd]; · iexact Hd
      ipureintro
      intro j x
      have ht : t.val < 100 := t.isLt
      sl_unfold_run_names
      match j with
      | ⟨0, _⟩ => exact (addRow_apply (F := F) slot4 g4 _ _ _ t.val 0 (k0_off48_eq t) ht (by omega) _ x).trans ((congrArg₂ FloatOps.addf (ha ⟨0, by omega⟩ x) rfl).trans (accList_succ (F := F) _ _ _ _ ht).symm)
      | ⟨1, _⟩ => exact (addRow_apply (F := F) slot4 g4 _ _ _ t.val 16 (k0_off49_eq t) ht (by omega) _ x).trans ((congrArg₂ FloatOps.addf (ha ⟨1, by omega⟩ x) rfl).trans (accList_succ (F := F) _ _ _ _ ht).symm)
      | ⟨2, _⟩ => exact (addRow_apply (F := F) slot4 g4 _ _ _ t.val 32 (k0_off50_eq t) ht (by omega) _ x).trans ((congrArg₂ FloatOps.addf (ha ⟨2, by omega⟩ x) rfl).trans (accList_succ (F := F) _ _ _ _ ht).symm)
      | ⟨3, _⟩ => exact (addRow_apply (F := F) slot4 g4 _ _ _ t.val 48 (k0_off51_eq t) ht (by omega) _ x).trans ((congrArg₂ FloatOps.addf (ha ⟨3, by omega⟩ x) rfl).trans (accList_succ (F := F) _ _ _ _ ht).symm)
      | ⟨4, _⟩ => exact (addRow_apply (F := F) slot4 g4 _ _ _ t.val 64 (k0_off52_eq t) ht (by omega) _ x).trans ((congrArg₂ FloatOps.addf (ha ⟨4, by omega⟩ x) rfl).trans (accList_succ (F := F) _ _ _ _ ht).symm)
      | ⟨5, _⟩ => exact (addRow_apply (F := F) slot4 g4 _ _ _ t.val 80 (k0_off53_eq t) ht (by omega) _ x).trans ((congrArg₂ FloatOps.addf (ha ⟨5, by omega⟩ x) rfl).trans (accList_succ (F := F) _ _ _ _ ht).symm)
      | ⟨6, _⟩ => exact (addRow_apply (F := F) slot4 g4 _ _ _ t.val 96 (k0_off54_eq t) ht (by omega) _ x).trans ((congrArg₂ FloatOps.addf (ha ⟨6, by omega⟩ x) rfl).trans (accList_succ (F := F) _ _ _ _ ht).symm)
      | ⟨7, _⟩ => exact (addRow_apply (F := F) slot4 g4 _ _ _ t.val 112 (k0_off55_eq t) ht (by omega) _ x).trans ((congrArg₂ FloatOps.addf (ha ⟨7, by omega⟩ x) rfl).trans (accList_succ (F := F) _ _ _ _ ht).symm)
    · unfold accInv
      isplitl [Hd4]; · iexact Hd4
      ipureintro; intro j x
      sl_unfold_run_names
      match j with
      | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
    iintro %a4 Hacc4
    unfold accInv
    icases Hacc4 with ⟨Hd4, %ha4⟩
    by_cases hc6 : k0_cond6 k = 1#1
    · have hk41 : k.val < 41 := (cond6_iff k).mp hc6
      sl_exec
      -- list 6k+10 into slot 4, which has been read
      iapply (issue_slot (F := F) (U := U) d L slot4 cc0_scratch7.sem (sh4 fullShare) (sh4 qe) (idxScr (F := F) L fi) hI fe (k0_off56 k) (k0_off56_inb k hc6) _) $$ [Hd4 Hi4 He4 Hs4]
      · iapply (Free_intro (F := F) (U := U) d L slot4 cc0_scratch7.sem _ _ _ _ _)
        isplitl [Hd4]; · iexact Hd4
        isplitl [Hi4]; · iexact Hi4
        isplitl [He4]; · iexact He4
        iexact Hs4
      iintro HN4
      sl_exec
      -- slot 5's list (issued in this trip) has landed
      iapply (wait_slot (F := F) (U := U) d L slot5 cc0_scratch8.sem _ _ _ hI fe _ _ _ O _ _) $$ [HN5 HO]
      · isplitl [HN5]; · iexact HN5
        isplitl [HO]; · iexact HO
        iexact Hmw
      iintro ⟨HL5, HO⟩
      ihave HL5 := (Loaded_open (F := F) (U := U) d L slot5 _ _ _ _ hI fe _ _) $$ HL5
      icases HL5 with ⟨⟨%g5, Hd5⟩, Hi5, He5, Hs5⟩
      sl_exec
      -- the slot's hundred rows are added to the registers
      sl_for (accInv (F := F) (U := U) d L slot5 g5 (gathered (F := F) (idxScr (F := F) L fi) hI fe (k0_off2 k) (k0_off2_inb k hc1)) a4) $$ [Hd5]
      case region =>
        intro t a
        unfold accInv
        iintro ⟨Hd, %ha⟩
        sl_exec
        sl_step
        isplitl [Hd]; · iexact Hd
        ipureintro
        intro j x
        have ht : t.val < 100 := t.isLt
        sl_unfold_run_names
        match j with
        | ⟨0, _⟩ => exact (addRow_apply (F := F) slot5 g5 _ _ _ t.val 0 (k0_off57_eq t) ht (by omega) _ x).trans ((congrArg₂ FloatOps.addf (ha ⟨0, by omega⟩ x) rfl).trans (accList_succ (F := F) _ _ _ _ ht).symm)
        | ⟨1, _⟩ => exact (addRow_apply (F := F) slot5 g5 _ _ _ t.val 16 (k0_off58_eq t) ht (by omega) _ x).trans ((congrArg₂ FloatOps.addf (ha ⟨1, by omega⟩ x) rfl).trans (accList_succ (F := F) _ _ _ _ ht).symm)
        | ⟨2, _⟩ => exact (addRow_apply (F := F) slot5 g5 _ _ _ t.val 32 (k0_off59_eq t) ht (by omega) _ x).trans ((congrArg₂ FloatOps.addf (ha ⟨2, by omega⟩ x) rfl).trans (accList_succ (F := F) _ _ _ _ ht).symm)
        | ⟨3, _⟩ => exact (addRow_apply (F := F) slot5 g5 _ _ _ t.val 48 (k0_off60_eq t) ht (by omega) _ x).trans ((congrArg₂ FloatOps.addf (ha ⟨3, by omega⟩ x) rfl).trans (accList_succ (F := F) _ _ _ _ ht).symm)
        | ⟨4, _⟩ => exact (addRow_apply (F := F) slot5 g5 _ _ _ t.val 64 (k0_off61_eq t) ht (by omega) _ x).trans ((congrArg₂ FloatOps.addf (ha ⟨4, by omega⟩ x) rfl).trans (accList_succ (F := F) _ _ _ _ ht).symm)
        | ⟨5, _⟩ => exact (addRow_apply (F := F) slot5 g5 _ _ _ t.val 80 (k0_off62_eq t) ht (by omega) _ x).trans ((congrArg₂ FloatOps.addf (ha ⟨5, by omega⟩ x) rfl).trans (accList_succ (F := F) _ _ _ _ ht).symm)
        | ⟨6, _⟩ => exact (addRow_apply (F := F) slot5 g5 _ _ _ t.val 96 (k0_off63_eq t) ht (by omega) _ x).trans ((congrArg₂ FloatOps.addf (ha ⟨6, by omega⟩ x) rfl).trans (accList_succ (F := F) _ _ _ _ ht).symm)
        | ⟨7, _⟩ => exact (addRow_apply (F := F) slot5 g5 _ _ _ t.val 112 (k0_off64_eq t) ht (by omega) _ x).trans ((congrArg₂ FloatOps.addf (ha ⟨7, by omega⟩ x) rfl).trans (accList_succ (F := F) _ _ _ _ ht).symm)
      · unfold accInv
        isplitl [Hd5]; · iexact Hd5
        ipureintro; intro j x
        sl_unfold_run_names
        match j with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
      iintro %a5 Hacc5
      unfold accInv
      icases Hacc5 with ⟨Hd5, %ha5⟩
      sl_exec
      sl_step
      isplitr; · iexact Hmw
      isplitl [HN0]; · iapply (Entails.of_eq (SlotSt_busy (F := F) (U := U) d L slot0 _ _ _ _ hI fe (6 * (k.val + 1) + 0) (k0_off12 k) (k0_off12_inb k hc2) ((k0_off12_eq k).trans (by show (![6 * k.val + 6, 0] : Fin 2 → ℕ) = ![6 * (k.val + 1) + 0, 0]; rw [show 6 * k.val + 6 = 6 * (k.val + 1) + 0 by omega])) (by omega)).symm); iexact HN0
      isplitl [HN1]; · iapply (Entails.of_eq (SlotSt_busy (F := F) (U := U) d L slot1 _ _ _ _ hI fe (6 * (k.val + 1) + 1) (k0_off29 k) (k0_off29_inb k hc3) ((k0_off29_eq k).trans (by show (![6 * k.val + 7, 0] : Fin 2 → ℕ) = ![6 * (k.val + 1) + 1, 0]; rw [show 6 * k.val + 7 = 6 * (k.val + 1) + 1 by omega])) (by omega)).symm); iexact HN1
      isplitl [HN2]; · iapply (Entails.of_eq (SlotSt_busy (F := F) (U := U) d L slot2 _ _ _ _ hI fe (6 * (k.val + 1) + 2) (k0_off38 k) (k0_off38_inb k hc4) ((k0_off38_eq k).trans (by show (![6 * k.val + 8, 0] : Fin 2 → ℕ) = ![6 * (k.val + 1) + 2, 0]; rw [show 6 * k.val + 8 = 6 * (k.val + 1) + 2 by omega])) (by omega)).symm); iexact HN2
      isplitl [HN3]; · iapply (Entails.of_eq (SlotSt_busy (F := F) (U := U) d L slot3 _ _ _ _ hI fe (6 * (k.val + 1) + 3) (k0_off47 k) (k0_off47_inb k hc5) ((k0_off47_eq k).trans (by show (![6 * k.val + 9, 0] : Fin 2 → ℕ) = ![6 * (k.val + 1) + 3, 0]; rw [show 6 * k.val + 9 = 6 * (k.val + 1) + 3 by omega])) (by omega)).symm); iexact HN3
      isplitl [HN4]; · iapply (Entails.of_eq (SlotSt_busy (F := F) (U := U) d L slot4 _ _ _ _ hI fe (6 * (k.val + 1) + 4) (k0_off56 k) (k0_off56_inb k hc6) ((k0_off56_eq k).trans (by show (![6 * k.val + 10, 0] : Fin 2 → ℕ) = ![6 * (k.val + 1) + 4, 0]; rw [show 6 * k.val + 10 = 6 * (k.val + 1) + 4 by omega])) (by omega)).symm); iexact HN4
      isplitl [Hd5 Hi5 He5 Hs5]
      · iapply (Free_intro (F := F) (U := U) d L slot5 cc0_scratch8.sem _ _ _ _ _)
        isplitl [Hd5]; · iexact Hd5
        isplitl [Hi5]; · iexact Hi5
        isplitl [He5]; · iexact He5
        iexact Hs5
      isplitl [HsA]
      · iexists _; isplitl [HsA]; · iexact HsA
        ipureintro
        intro b e hb
        sl_unfold_run_names
        show (sA.view.writes (Elt F) fA (tripList (F := F) k scaleC a1 a3 a5)) (ix2 b e) = PV (F := F) L fe fi b e
        by_cases hlt : b.val < 3 * k.val
        · exact (trip_miss (F := F) k fA scaleC a1 a3 a5 b e hlt).trans (hfA b e hlt)
        · obtain ⟨r, hr⟩ : ∃ r : Fin 3, b.val = 3 * k.val + r.val := ⟨⟨b.val - 3 * k.val, by omega⟩, by show b.val = 3 * k.val + (b.val - 3 * k.val); omega⟩
          obtain ⟨j, x, hjx⟩ : ∃ (j : Fin 8) (x : Fin 16), e.val = 16 * j.val + x.val :=
            ⟨⟨e.val / 16, by have := e.isLt; omega⟩, ⟨e.val % 16, Nat.mod_lt _ (by decide)⟩, by show e.val = 16 * (e.val / 16) + e.val % 16; omega⟩
          have eb : b = ⟨3 * k.val + r.val, trip_row_lt k r.val r.isLt⟩ := Fin.ext hr
          have ee : e = ⟨16 * j.val + x.val, col_lt j x⟩ := Fin.ext hjx
          subst eb ee
          refine (trip_hit (F := F) k fA scaleC a1 a3 a5 r j x).trans ?_
          match r with
          | ⟨0, _⟩ =>
            exact row_value (F := F) L fi hin fe ⟨3 * k.val + 0, by omega⟩ (6 * k.val + 0) (6 * k.val + 1) (by omega) (by omega)
              (by show 6 * k.val + 0 = 2 * (3 * k.val + 0); omega) (by show 6 * k.val + 1 = 2 * (3 * k.val + 0) + 1; omega)
              (rowOff (6 * k.val + 0)) (rowOff (6 * k.val + 1)) (rowInb _ (by omega)) (rowInb _ (by omega)) rfl rfl _ _ (by decide) (by decide) _ _ _ zv8_get ha0 ha1 j x
          | ⟨1, _⟩ =>
            exact row_value (F := F) L fi hin fe ⟨3 * k.val + 1, by omega⟩ (6 * k.val + 2) (6 * k.val + 3) (by omega) (by omega)
              (by show 6 * k.val + 2 = 2 * (3 * k.val + 1); omega) (by show 6 * k.val + 3 = 2 * (3 * k.val + 1) + 1; omega)
              (rowOff (6 * k.val + 2)) (rowOff (6 * k.val + 3)) (rowInb _ (by omega)) (rowInb _ (by omega)) rfl rfl _ _ (by decide) (by decide) _ _ _ zv8_get ha2 ha3 j x
          | ⟨2, _⟩ =>
            exact row_value (F := F) L fi hin fe ⟨3 * k.val + 2, by omega⟩ (6 * k.val + 4) (6 * k.val + 5) (by omega) (by omega)
              (by show 6 * k.val + 4 = 2 * (3 * k.val + 2); omega) (by show 6 * k.val + 5 = 2 * (3 * k.val + 2) + 1; omega)
              (rowOff (6 * k.val + 4)) (k0_off2 k) (rowInb _ (by omega)) (k0_off2_inb k hc1) rfl (k0_off2_eq k) _ _ (by decide) (by decide) _ _ _ zv8_get ha4 ha5 j x
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    · have hk41 : ¬ k.val < 41 := fun h => hc6 ((cond6_iff k).mpr h)
      sl_exec
      -- slot 5's list (issued in this trip) has landed
      iapply (wait_slot (F := F) (U := U) d L slot5 cc0_scratch8.sem _ _ _ hI fe _ _ _ O _ _) $$ [HN5 HO]
      · isplitl [HN5]; · iexact HN5
        isplitl [HO]; · iexact HO
        iexact Hmw
      iintro ⟨HL5, HO⟩
      ihave HL5 := (Loaded_open (F := F) (U := U) d L slot5 _ _ _ _ hI fe _ _) $$ HL5
      icases HL5 with ⟨⟨%g5, Hd5⟩, Hi5, He5, Hs5⟩
      sl_exec
      -- the slot's hundred rows are added to the registers
      sl_for (accInv (F := F) (U := U) d L slot5 g5 (gathered (F := F) (idxScr (F := F) L fi) hI fe (k0_off2 k) (k0_off2_inb k hc1)) a4) $$ [Hd5]
      case region =>
        intro t a
        unfold accInv
        iintro ⟨Hd, %ha⟩
        sl_exec
        sl_step
        isplitl [Hd]; · iexact Hd
        ipureintro
        intro j x
        have ht : t.val < 100 := t.isLt
        sl_unfold_run_names
        match j with
        | ⟨0, _⟩ => exact (addRow_apply (F := F) slot5 g5 _ _ _ t.val 0 (k0_off57_eq t) ht (by omega) _ x).trans ((congrArg₂ FloatOps.addf (ha ⟨0, by omega⟩ x) rfl).trans (accList_succ (F := F) _ _ _ _ ht).symm)
        | ⟨1, _⟩ => exact (addRow_apply (F := F) slot5 g5 _ _ _ t.val 16 (k0_off58_eq t) ht (by omega) _ x).trans ((congrArg₂ FloatOps.addf (ha ⟨1, by omega⟩ x) rfl).trans (accList_succ (F := F) _ _ _ _ ht).symm)
        | ⟨2, _⟩ => exact (addRow_apply (F := F) slot5 g5 _ _ _ t.val 32 (k0_off59_eq t) ht (by omega) _ x).trans ((congrArg₂ FloatOps.addf (ha ⟨2, by omega⟩ x) rfl).trans (accList_succ (F := F) _ _ _ _ ht).symm)
        | ⟨3, _⟩ => exact (addRow_apply (F := F) slot5 g5 _ _ _ t.val 48 (k0_off60_eq t) ht (by omega) _ x).trans ((congrArg₂ FloatOps.addf (ha ⟨3, by omega⟩ x) rfl).trans (accList_succ (F := F) _ _ _ _ ht).symm)
        | ⟨4, _⟩ => exact (addRow_apply (F := F) slot5 g5 _ _ _ t.val 64 (k0_off61_eq t) ht (by omega) _ x).trans ((congrArg₂ FloatOps.addf (ha ⟨4, by omega⟩ x) rfl).trans (accList_succ (F := F) _ _ _ _ ht).symm)
        | ⟨5, _⟩ => exact (addRow_apply (F := F) slot5 g5 _ _ _ t.val 80 (k0_off62_eq t) ht (by omega) _ x).trans ((congrArg₂ FloatOps.addf (ha ⟨5, by omega⟩ x) rfl).trans (accList_succ (F := F) _ _ _ _ ht).symm)
        | ⟨6, _⟩ => exact (addRow_apply (F := F) slot5 g5 _ _ _ t.val 96 (k0_off63_eq t) ht (by omega) _ x).trans ((congrArg₂ FloatOps.addf (ha ⟨6, by omega⟩ x) rfl).trans (accList_succ (F := F) _ _ _ _ ht).symm)
        | ⟨7, _⟩ => exact (addRow_apply (F := F) slot5 g5 _ _ _ t.val 112 (k0_off64_eq t) ht (by omega) _ x).trans ((congrArg₂ FloatOps.addf (ha ⟨7, by omega⟩ x) rfl).trans (accList_succ (F := F) _ _ _ _ ht).symm)
      · unfold accInv
        isplitl [Hd5]; · iexact Hd5
        ipureintro; intro j x
        sl_unfold_run_names
        match j with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
      iintro %a5 Hacc5
      unfold accInv
      icases Hacc5 with ⟨Hd5, %ha5⟩
      sl_exec
      sl_step
      isplitr; · iexact Hmw
      isplitl [HN0]; · iapply (Entails.of_eq (SlotSt_busy (F := F) (U := U) d L slot0 _ _ _ _ hI fe (6 * (k.val + 1) + 0) (k0_off12 k) (k0_off12_inb k hc2) ((k0_off12_eq k).trans (by show (![6 * k.val + 6, 0] : Fin 2 → ℕ) = ![6 * (k.val + 1) + 0, 0]; rw [show 6 * k.val + 6 = 6 * (k.val + 1) + 0 by omega])) (by omega)).symm); iexact HN0
      isplitl [HN1]; · iapply (Entails.of_eq (SlotSt_busy (F := F) (U := U) d L slot1 _ _ _ _ hI fe (6 * (k.val + 1) + 1) (k0_off29 k) (k0_off29_inb k hc3) ((k0_off29_eq k).trans (by show (![6 * k.val + 7, 0] : Fin 2 → ℕ) = ![6 * (k.val + 1) + 1, 0]; rw [show 6 * k.val + 7 = 6 * (k.val + 1) + 1 by omega])) (by omega)).symm); iexact HN1
      isplitl [HN2]; · iapply (Entails.of_eq (SlotSt_busy (F := F) (U := U) d L slot2 _ _ _ _ hI fe (6 * (k.val + 1) + 2) (k0_off38 k) (k0_off38_inb k hc4) ((k0_off38_eq k).trans (by show (![6 * k.val + 8, 0] : Fin 2 → ℕ) = ![6 * (k.val + 1) + 2, 0]; rw [show 6 * k.val + 8 = 6 * (k.val + 1) + 2 by omega])) (by omega)).symm); iexact HN2
      isplitl [HN3]; · iapply (Entails.of_eq (SlotSt_busy (F := F) (U := U) d L slot3 _ _ _ _ hI fe (6 * (k.val + 1) + 3) (k0_off47 k) (k0_off47_inb k hc5) ((k0_off47_eq k).trans (by show (![6 * k.val + 9, 0] : Fin 2 → ℕ) = ![6 * (k.val + 1) + 3, 0]; rw [show 6 * k.val + 9 = 6 * (k.val + 1) + 3 by omega])) (by omega)).symm); iexact HN3
      isplitl [Hd4 Hi4 He4 Hs4]
      · iapply (Entails.of_eq (SlotSt_free (F := F) (U := U) d L slot4 _ _ _ _ hI fe (6 * (k.val + 1) + 4) (by omega)).symm)
        iapply (Free_intro (F := F) (U := U) d L slot4 cc0_scratch7.sem _ _ _ _ _)
        isplitl [Hd4]; · iexact Hd4
        isplitl [Hi4]; · iexact Hi4
        isplitl [He4]; · iexact He4
        iexact Hs4
      isplitl [Hd5 Hi5 He5 Hs5]
      · iapply (Free_intro (F := F) (U := U) d L slot5 cc0_scratch8.sem _ _ _ _ _)
        isplitl [Hd5]; · iexact Hd5
        isplitl [Hi5]; · iexact Hi5
        isplitl [He5]; · iexact He5
        iexact Hs5
      isplitl [HsA]
      · iexists _; isplitl [HsA]; · iexact HsA
        ipureintro
        intro b e hb
        sl_unfold_run_names
        show (sA.view.writes (Elt F) fA (tripList (F := F) k scaleC a1 a3 a5)) (ix2 b e) = PV (F := F) L fe fi b e
        by_cases hlt : b.val < 3 * k.val
        · exact (trip_miss (F := F) k fA scaleC a1 a3 a5 b e hlt).trans (hfA b e hlt)
        · obtain ⟨r, hr⟩ : ∃ r : Fin 3, b.val = 3 * k.val + r.val := ⟨⟨b.val - 3 * k.val, by omega⟩, by show b.val = 3 * k.val + (b.val - 3 * k.val); omega⟩
          obtain ⟨j, x, hjx⟩ : ∃ (j : Fin 8) (x : Fin 16), e.val = 16 * j.val + x.val :=
            ⟨⟨e.val / 16, by have := e.isLt; omega⟩, ⟨e.val % 16, Nat.mod_lt _ (by decide)⟩, by show e.val = 16 * (e.val / 16) + e.val % 16; omega⟩
          have eb : b = ⟨3 * k.val + r.val, trip_row_lt k r.val r.isLt⟩ := Fin.ext hr
          have ee : e = ⟨16 * j.val + x.val, col_lt j x⟩ := Fin.ext hjx
          subst eb ee
          refine (trip_hit (F := F) k fA scaleC a1 a3 a5 r j x).trans ?_
          match r with
          | ⟨0, _⟩ =>
            exact row_value (F := F) L fi hin fe ⟨3 * k.val + 0, by omega⟩ (6 * k.val + 0) (6 * k.val + 1) (by omega) (by omega)
              (by show 6 * k.val + 0 = 2 * (3 * k.val + 0); omega) (by show 6 * k.val + 1 = 2 * (3 * k.val + 0) + 1; omega)
              (rowOff (6 * k.val + 0)) (rowOff (6 * k.val + 1)) (rowInb _ (by omega)) (rowInb _ (by omega)) rfl rfl _ _ (by decide) (by decide) _ _ _ zv8_get ha0 ha1 j x
          | ⟨1, _⟩ =>
            exact row_value (F := F) L fi hin fe ⟨3 * k.val + 1, by omega⟩ (6 * k.val + 2) (6 * k.val + 3) (by omega) (by omega)
              (by show 6 * k.val + 2 = 2 * (3 * k.val + 1); omega) (by show 6 * k.val + 3 = 2 * (3 * k.val + 1) + 1; omega)
              (rowOff (6 * k.val + 2)) (rowOff (6 * k.val + 3)) (rowInb _ (by omega)) (rowInb _ (by omega)) rfl rfl _ _ (by decide) (by decide) _ _ _ zv8_get ha2 ha3 j x
          | ⟨2, _⟩ =>
            exact row_value (F := F) L fi hin fe ⟨3 * k.val + 2, by omega⟩ (6 * k.val + 4) (6 * k.val + 5) (by omega) (by omega)
              (by show 6 * k.val + 4 = 2 * (3 * k.val + 2); omega) (by show 6 * k.val + 5 = 2 * (3 * k.val + 2) + 1; omega)
              (rowOff (6 * k.val + 4)) (k0_off2 k) (rowInb _ (by omega)) (k0_off2_inb k hc1) rfl (k0_off2_eq k) _ _ (by decide) (by decide) _ _ _ zv8_get ha4 ha5 j x
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp

end Cert.Kernel.Tile
end
-- ==== Proof.AccTailK.lean ====
/-
  The pooled scratch after the stores of the last two batch rows, 126 and 127, in terms of the registers. The
  sixteen pieces are row 127's eight over row 126's eight; writing a list that is two lists one after the other
  is writing the older one first. So an entry of row 127 reads among the newer eight; an entry of row 126 is
  missed by all of those and reads among the older eight; an entry of a lower row is missed by all sixteen.
-/
import proofs.«207436_g25675314495810_cont_9to1_828_42_alg».proof.Proof.AccTripK

noncomputable section

namespace Cert.Kernel.Tile

open Cert.Kernel Cert.Kernel.Gen
open Idealize.ShloMosaic Idealize.ShloMosaic.ValueIdx

variable {F : FTy → Type} [FloatOps F]

/-- The stores of batch rows 127 (registers `B`) and 126 (registers `A`), the newest first. -/
def tailList (c : F .f32) (A B : T8 F) : List (View.Piece (Elt F) S128x128 .f32) :=
  [⟨Rect.unit (s := S128x128) ![127, 112] S1x16.size inb_S128x128_S1x16_127_112, rowPay c B.2.2.2.2.2.2.2⟩,
   ⟨Rect.unit (s := S128x128) ![127, 96] S1x16.size inb_S128x128_S1x16_127_96, rowPay c B.2.2.2.2.2.2.1⟩,
   ⟨Rect.unit (s := S128x128) ![127, 80] S1x16.size inb_S128x128_S1x16_127_80, rowPay c B.2.2.2.2.2.1⟩,
   ⟨Rect.unit (s := S128x128) ![127, 64] S1x16.size inb_S128x128_S1x16_127_64, rowPay c B.2.2.2.2.1⟩,
   ⟨Rect.unit (s := S128x128) ![127, 48] S1x16.size inb_S128x128_S1x16_127_48, rowPay c B.2.2.2.1⟩,
   ⟨Rect.unit (s := S128x128) ![127, 32] S1x16.size inb_S128x128_S1x16_127_32, rowPay c B.2.2.1⟩,
   ⟨Rect.unit (s := S128x128) ![127, 16] S1x16.size inb_S128x128_S1x16_127_16, rowPay c B.2.1⟩,
   ⟨Rect.unit (s := S128x128) ![127, 0] S1x16.size inb_S128x128_S1x16_127_0, rowPay c B.1⟩,
   ⟨Rect.unit (s := S128x128) ![126, 112] S1x16.size inb_S128x128_S1x16_126_112, rowPay c A.2.2.2.2.2.2.2⟩,
   ⟨Rect.unit (s := S128x128) ![126, 96] S1x16.size inb_S128x128_S1x16_126_96, rowPay c A.2.2.2.2.2.2.1⟩,
   ⟨Rect.unit (s := S128x128) ![126, 80] S1x16.size inb_S128x128_S1x16_126_80, rowPay c A.2.2.2.2.2.1⟩,
   ⟨Rect.unit (s := S128x128) ![126, 64] S1x16.size inb_S128x128_S1x16_126_64, rowPay c A.2.2.2.2.1⟩,
   ⟨Rect.unit (s := S128x128) ![126, 48] S1x16.size inb_S128x128_S1x16_126_48, rowPay c A.2.2.2.1⟩,
   ⟨Rect.unit (s := S128x128) ![126, 32] S1x16.size inb_S128x128_S1x16_126_32, rowPay c A.2.2.1⟩,
   ⟨Rect.unit (s := S128x128) ![126, 16] S1x16.size inb_S128x128_S1x16_126_16, rowPay c A.2.1⟩,
   ⟨Rect.unit (s := S128x128) ![126, 0] S1x16.size inb_S128x128_S1x16_126_0, rowPay c A.1⟩]

/-- Row 126's eight stores, -/
abbrev list126 (c : F .f32) (A : T8 F) : List (View.Piece (Elt F) S128x128 .f32) :=
  tailPieces126 (rowPay c A.2.2.2.2.2.2.2) (rowPay c A.2.2.2.2.2.2.1) (rowPay c A.2.2.2.2.2.1) (rowPay c A.2.2.2.2.1)
    (rowPay c A.2.2.2.1) (rowPay c A.2.2.1) (rowPay c A.2.1) (rowPay c A.1)
/-- and row 127's. -/
abbrev list127 (c : F .f32) (B : T8 F) : List (View.Piece (Elt F) S128x128 .f32) :=
  tailPieces127 (rowPay c B.2.2.2.2.2.2.2) (rowPay c B.2.2.2.2.2.2.1) (rowPay c B.2.2.2.2.2.1) (rowPay c B.2.2.2.2.1)
    (rowPay c B.2.2.2.1) (rowPay c B.2.2.1) (rowPay c B.2.1) (rowPay c B.1)

theorem tailList_eq (c : F .f32) (A B : T8 F) : tailList c A B = list127 c B ++ list126 c A := by
  unfold tailList list127 list126 tailPieces127 tailPieces126
  simp only [List.cons_append, List.nil_append]

set_option maxHeartbeats 1600000 in
/-- Writing the sixteen is writing row 126's eight, then row 127's over them. -/
theorem tail_writes (fA : S128x128.Idx → F .f32) (c : F .f32) (A B : T8 F) :
    sA.view.writes (Elt F) fA (tailList c A B) = accV.writes (Elt F) (accV.writes (Elt F) fA (list126 c A)) (list127 c B) := by
  rw [tailList_eq]
  exact View.writes_append (Val := Elt F) accV fA (list127 c B) (list126 c A)

set_option maxRecDepth 8192 in
theorem tail_hit127 (fA : S128x128.Idx → F .f32) (c : F .f32) (A B : T8 F) (j : Fin 8) (x : Fin 16) :
    (sA.view.writes (Elt F) fA (tailList c A B)) (ix2 (⟨127, by decide⟩ : Fin 128) (⟨16 * j.val + x.val, col_lt j x⟩ : Fin 128))
      = FloatOps.mulf (tget B j (ix1 x)) c := by
  rw [tail_writes]
  fin_cases j
  exacts [(sA_tail127_hit_0 _ _ _ _ _ _ _ _ _ x _ rfl rfl).trans (storeRow_apply _ c _),
    (sA_tail127_hit_1 _ _ _ _ _ _ _ _ _ x _ rfl rfl).trans (storeRow_apply _ c _),
    (sA_tail127_hit_2 _ _ _ _ _ _ _ _ _ x _ rfl rfl).trans (storeRow_apply _ c _),
    (sA_tail127_hit_3 _ _ _ _ _ _ _ _ _ x _ rfl rfl).trans (storeRow_apply _ c _),
    (sA_tail127_hit_4 _ _ _ _ _ _ _ _ _ x _ rfl rfl).trans (storeRow_apply _ c _),
    (sA_tail127_hit_5 _ _ _ _ _ _ _ _ _ x _ rfl rfl).trans (storeRow_apply _ c _),
    (sA_tail127_hit_6 _ _ _ _ _ _ _ _ _ x _ rfl rfl).trans (storeRow_apply _ c _),
    (sA_tail127_hit_7 _ _ _ _ _ _ _ _ _ x _ rfl rfl).trans (storeRow_apply _ c _)]

set_option maxRecDepth 8192 in
theorem tail_hit126 (fA : S128x128.Idx → F .f32) (c : F .f32) (A B : T8 F) (j : Fin 8) (x : Fin 16) :
    (sA.view.writes (Elt F) fA (tailList c A B)) (ix2 (⟨126, by decide⟩ : Fin 128) (⟨16 * j.val + x.val, col_lt j x⟩ : Fin 128))
      = FloatOps.mulf (tget A j (ix1 x)) c := by
  rw [tail_writes]
  refine (sA_tail127_miss _ _ _ _ _ _ _ _ _ _ (by show (126 : ℕ) ≠ 127; decide)).trans ?_
  fin_cases j
  exacts [(sA_tail126_hit_0 _ _ _ _ _ _ _ _ _ x _ rfl rfl).trans (storeRow_apply _ c _),
    (sA_tail126_hit_1 _ _ _ _ _ _ _ _ _ x _ rfl rfl).trans (storeRow_apply _ c _),
    (sA_tail126_hit_2 _ _ _ _ _ _ _ _ _ x _ rfl rfl).trans (storeRow_apply _ c _),
    (sA_tail126_hit_3 _ _ _ _ _ _ _ _ _ x _ rfl rfl).trans (storeRow_apply _ c _),
    (sA_tail126_hit_4 _ _ _ _ _ _ _ _ _ x _ rfl rfl).trans (storeRow_apply _ c _),
    (sA_tail126_hit_5 _ _ _ _ _ _ _ _ _ x _ rfl rfl).trans (storeRow_apply _ c _),
    (sA_tail126_hit_6 _ _ _ _ _ _ _ _ _ x _ rfl rfl).trans (storeRow_apply _ c _),
    (sA_tail126_hit_7 _ _ _ _ _ _ _ _ _ x _ rfl rfl).trans (storeRow_apply _ c _)]

theorem tail_miss (fA : S128x128.Idx → F .f32) (c : F .f32) (A B : T8 F) (b e : Fin 128) (hb : b.val < 126) :
    (sA.view.writes (Elt F) fA (tailList c A B)) (ix2 b e) = fA (ix2 b e) := by
  rw [tail_writes]
  exact (sA_tail127_miss _ _ _ _ _ _ _ _ _ (ix2 b e) (by show b.val ≠ 127; omega)).trans
    (sA_tail126_miss _ _ _ _ _ _ _ _ _ (ix2 b e) (by show b.val ≠ 126; omega))

end Cert.Kernel.Tile

end
-- ==== Proof.OutRowsK.lean ====
/-
  The tile's rows of the pooled array after its final copy. The task copies its pooled scratch, 128 × 128, whole onto
  rows [128 wid, 128 wid + 128) of the pooled array (wid the tile's number): entry (128 wid + b, e) of the array then
  holds entry (b, e) of the scratch. So if the scratch holds, at every (b, e), what a whole-array function G has at
  (128 wid + b, e), the tile's rows hold G.
-/
import proofs.«207436_g25675314495810_cont_9to1_828_42_alg».proof.Proof.TileValK
import Idealize.ShloMosaic.Lib.Pipeline.Value

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig (HIx 1) (Elt F) ℕ U ℕ

/-- Entry (b, e) of the tile's rows of the pooled array sits at (128 wid + b, e). -/
theorem oRowK_emb (L : grid0.Coords) (b e : Fin 128) :
    (oRowK L).view.emb (ix2 b e)
      = (ix2 (⟨128 * wid L + b.val, by have := wid_lt L; have := b.isLt; omega⟩ : Fin 4096) e : S4096x128.Idx) := by
  have h0 : k0_off97 L 0 = 256 * (L 1).val + 128 * (L 0).val := congrFun (k0_off97_eq L) 0
  have h1 : k0_off97 L 1 = 0 := congrFun (k0_off97_eq L) 1
  funext a; apply Fin.ext
  match a with
  | ⟨0, _⟩ => show k0_off97 L 0 + 1 * b.val = 128 * wid L + b.val; unfold wid; omega
  | ⟨1, _⟩ => show k0_off97 L 1 + 1 * e.val = e.val; omega

/-- After the copy of the pooled scratch (holding `Tt`) onto the tile's rows, those rows hold `G` when the scratch
    held `G`'s entries for them. -/
theorem out_rows (d : Dev nD) (L : grid0.Coords) (fo : Buf (Elt F) (oLoc d)) (Tt : S128x128.Idx → F .f32) (G : S4096x128.Idx → F .f32)
    (h : ∀ b e : Fin 128, Tt (ix2 b e) = G (ix2 (⟨128 * wid L + b.val, by have := wid_lt L; have := b.isLt; omega⟩ : Fin 4096) e)) :
    ((oRowK L).view.loc (V d (cV L) (jV L)) ↦[(oRowK L).view.set]{fullShare}
        ((oRowK L).view.writes (Elt F) fo
          [⟨Rect.whole S128x128, (ReadAs.same : ReadAs (Elt F) S128x128 .f32 S128x128 .f32).apply (View.read (Elt F) sA.view Tt)⟩]) : sProp 𝕄)
      = ((oRowK L).view.loc (V d (cV L) (jV L)) ↦[(oRowK L).view.set]{fullShare} G) := by
  refine pointsTo_congr fun i hi => ?_
  obtain ⟨x, rfl⟩ := View.exists_emb_of_mem_set (oRowK L).view hi
  obtain ⟨b, e, rfl⟩ : ∃ (b e : Fin 128), x = ix2 b e := ⟨x 0, x 1, eq_ix2 x⟩
  -- the written contents under an element of the view are what the view reads there
  refine ((View.read_apply (v := (oRowK L).view) (Val := Elt F) _ (ix2 b e)).trans (cast_eq _ _)).symm.trans ?_
  -- the view reads the one piece's payload: the scratch's contents
  have hw : (Rect.whole S128x128).emb (ix2 b e) = (ix2 b e : S128x128.Idx) := Rect.emb_whole_apply S128x128 (ix2 b e)
  refine (congrArg ((oRowK L).view.read (Elt F) _) hw.symm).trans ?_
  refine (View.read_writes_cons_emb (oRowK L).view fo (Rect.whole S128x128) _ [] (ix2 b e)).trans ?_
  show sA.view.read (Elt F) Tt (ix2 b e) = _
  refine ((View.read_apply (v := sA.view) (Val := Elt F) Tt (ix2 b e)).trans (cast_eq _ _)).trans ?_
  refine (h b e).trans ?_
  exact congrArg G (oRowK_emb L b e).symm

end Cert.Kernel.Tile

end
-- ==== Proof.TileBodyK.lean ====
/-
  A vector subcore's whole task. It copies its block of the token array into its scratch (every word then names a
  row of the table), splits its row scratch into six slots and its shares of the table and of the token scratch into
  a piece per slot, issues lists 0 … 4, runs the 42 trips of the group loop, then the last four lists (batch rows 126
  and 127), and copies its pooled scratch onto its 128 rows of the pooled array: each row then holds the sum, in order
  from zero, of the 200 table rows its tokens name, times the scale. Everything borrowed is handed back.
-/
import proofs.«207436_g25675314495810_cont_9to1_828_42_alg».proof.Proof.TileTripK
import proofs.«207436_g25675314495810_cont_9to1_828_42_alg».proof.Proof.AccTailK
import proofs.«207436_g25675314495810_cont_9to1_828_42_alg».proof.Proof.OutRowsK

noncomputable section

namespace Cert.Kernel.Tile

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U] [CountersIn U]

local notation "𝕄" => MT nD τ sig (HIx 1) (Elt F) ℕ U ℕ
variable [Infinite ℕ]

variable (d : Dev nD) (L : grid0.Coords)
abbrev cell0 (d : Dev nD) (c : Fin τ.nSC) (i : Fin τ.nSub) : GSem nD τ sig := (V d c i, .dma cc0_scratch3.sem)
abbrev cell1 (d : Dev nD) (c : Fin τ.nSC) (i : Fin τ.nSub) : GSem nD τ sig := (V d c i, .dma cc0_scratch4.sem)
abbrev cell2 (d : Dev nD) (c : Fin τ.nSC) (i : Fin τ.nSub) : GSem nD τ sig := (V d c i, .dma cc0_scratch5.sem)
abbrev cell3 (d : Dev nD) (c : Fin τ.nSC) (i : Fin τ.nSub) : GSem nD τ sig := (V d c i, .dma cc0_scratch6.sem)
abbrev cell4 (d : Dev nD) (c : Fin τ.nSC) (i : Fin τ.nSub) : GSem nD τ sig := (V d c i, .dma cc0_scratch7.sem)
abbrev cell5 (d : Dev nD) (c : Fin τ.nSC) (i : Fin τ.nSub) : GSem nD τ sig := (V d c i, .dma cc0_scratch8.sem)
abbrev cell6 (d : Dev nD) (c : Fin τ.nSC) (i : Fin τ.nSub) : GSem nD τ sig := (V d c i, .dma cc0_scoped0.sem)
abbrev cell7 (d : Dev nD) (c : Fin τ.nSC) (i : Fin τ.nSub) : GSem nD τ sig := (V d c i, .dma cc0_scoped1.sem)

omit [FloatOps F] [CountersIn U] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0 ∗ semVal (cell5 d (cV L) (jV L)) 0 ∗ semVal (cell6 d (cV L) (jV L)) 0 ∗ semVal (cell7 d (cV L) (jV L)) 0
          ∗ bigSep (((((((((ownCells (V d (cV L) (jV L))).erase (cell0 d (cV L) (jV L))).erase (cell1 d (cV L) (jV L))).erase (cell2 d (cV L) (jV L))).erase (cell3 d (cV L) (jV L))).erase (cell4 d (cV L) (jV L))).erase (cell5 d (cV L) (jV L))).erase (cell6 d (cV L) (jV L))).erase (cell7 d (cV L) (jV L))) fun g => semVal g 0) := by
  unfold SparseCore.Cfg.ownSems0
  rw [SparseCore.bigSep_erase' ((mem_ownCells (g := (cell0 d (cV L) (jV L)))).mpr ⟨rfl, by show (SemLoc.dma cc0_scratch3.sem : SemLoc sig).isScoped .scVector = true; decide⟩),
    SparseCore.bigSep_erase' (Finset.mem_erase.mpr ⟨by simp [cell1, cell0]; decide, (mem_ownCells (g := (cell1 d (cV L) (jV L)))).mpr ⟨rfl, by show (SemLoc.dma cc0_scratch4.sem : SemLoc sig).isScoped .scVector = true; decide⟩⟩),
    SparseCore.bigSep_erase' (Finset.mem_erase.mpr ⟨by simp [cell2, cell1]; decide, Finset.mem_erase.mpr ⟨by simp [cell2, cell0]; decide, (mem_ownCells (g := (cell2 d (cV L) (jV L)))).mpr ⟨rfl, by show (SemLoc.dma cc0_scratch5.sem : SemLoc sig).isScoped .scVector = true; decide⟩⟩⟩),
    SparseCore.bigSep_erase' (Finset.mem_erase.mpr ⟨by simp [cell3, cell2]; decide, Finset.mem_erase.mpr ⟨by simp [cell3, cell1]; decide, Finset.mem_erase.mpr ⟨by simp [cell3, cell0]; decide, (mem_ownCells (g := (cell3 d (cV L) (jV L)))).mpr ⟨rfl, by show (SemLoc.dma cc0_scratch6.sem : SemLoc sig).isScoped .scVector = true; decide⟩⟩⟩⟩),
    SparseCore.bigSep_erase' (Finset.mem_erase.mpr ⟨by simp [cell4, cell3]; decide, Finset.mem_erase.mpr ⟨by simp [cell4, cell2]; decide, Finset.mem_erase.mpr ⟨by simp [cell4, cell1]; decide, Finset.mem_erase.mpr ⟨by simp [cell4, cell0]; decide, (mem_ownCells (g := (cell4 d (cV L) (jV L)))).mpr ⟨rfl, by show (SemLoc.dma cc0_scratch7.sem : SemLoc sig).isScoped .scVector = true; decide⟩⟩⟩⟩⟩),
    SparseCore.bigSep_erase' (Finset.mem_erase.mpr ⟨by simp [cell5, cell4]; decide, Finset.mem_erase.mpr ⟨by simp [cell5, cell3]; decide, Finset.mem_erase.mpr ⟨by simp [cell5, cell2]; decide, Finset.mem_erase.mpr ⟨by simp [cell5, cell1]; decide, Finset.mem_erase.mpr ⟨by simp [cell5, cell0]; decide, (mem_ownCells (g := (cell5 d (cV L) (jV L)))).mpr ⟨rfl, by show (SemLoc.dma cc0_scratch8.sem : SemLoc sig).isScoped .scVector = true; decide⟩⟩⟩⟩⟩⟩),
    SparseCore.bigSep_erase' (Finset.mem_erase.mpr ⟨by simp [cell6, cell5]; decide, Finset.mem_erase.mpr ⟨by simp [cell6, cell4]; decide, Finset.mem_erase.mpr ⟨by simp [cell6, cell3]; decide, Finset.mem_erase.mpr ⟨by simp [cell6, cell2]; decide, Finset.mem_erase.mpr ⟨by simp [cell6, cell1]; decide, Finset.mem_erase.mpr ⟨by simp [cell6, cell0]; decide, (mem_ownCells (g := (cell6 d (cV L) (jV L)))).mpr ⟨rfl, by show (SemLoc.dma cc0_scoped0.sem : SemLoc sig).isScoped .scVector = true; decide⟩⟩⟩⟩⟩⟩⟩),
    SparseCore.bigSep_erase' (Finset.mem_erase.mpr ⟨by simp [cell7, cell6]; decide, Finset.mem_erase.mpr ⟨by simp [cell7, cell5]; decide, Finset.mem_erase.mpr ⟨by simp [cell7, cell4]; decide, Finset.mem_erase.mpr ⟨by simp [cell7, cell3]; decide, Finset.mem_erase.mpr ⟨by simp [cell7, cell2]; decide, Finset.mem_erase.mpr ⟨by simp [cell7, cell1]; decide, Finset.mem_erase.mpr ⟨by simp [cell7, cell0]; decide, (mem_ownCells (g := (cell7 d (cV L) (jV L)))).mpr ⟨rfl, by show (SemLoc.dma cc0_scoped1.sem : SemLoc sig).isScoped .scVector = true; decide⟩⟩⟩⟩⟩⟩⟩⟩)]

omit [FloatOps F] [CountersIn U] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := (Proc.scVector (cV L) (jV L))) (b := (Proc.scVector (cV L) (jV L)).devRef cc0_scratch0) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩)]

omit [FloatOps F] [CountersIn U] in
theorem pts_iRowK (f : Buf (Elt F) (iLoc d)) :
    ((iRowK L).view.loc (V d (cV L) (jV L)) ↦[(iRowK L).view.set]{fullShare} f : sProp 𝕄) = iLoc d ↦[iRowSet L]{fullShare} f := rfl
omit [FloatOps F] [CountersIn U] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] [CountersIn U] in
theorem pts_eV (q : PosShare TreeShare) (f : Buf (Elt F) (eLoc d)) :
    ((eV).view.loc (V d (cV L) (jV L)) ↦{q} f : sProp 𝕄) = eLoc d ↦{q} f := rfl
omit [FloatOps F] [CountersIn U] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] [CountersIn U] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl
omit [FloatOps F] [CountersIn U] in
theorem pts_sA (f : Buf (Elt F) ((V d (cV L) (jV L)).loc cc0_scratch2)) :
    ((sA).view.loc (V d (cV L) (jV L)) ↦{fullShare} f : sProp 𝕄) = (V d (cV L) (jV L)).loc cc0_scratch2 ↦{fullShare} f := rfl

/-- Naming what the pooled scratch held when it was copied out. -/
theorem name_out (d : Dev nD) (L : grid0.Coords) (fo : Buf (Elt F) (oLoc d)) (Tt : S128x128.Idx → F .f32) :
    ((oRowK L).view.loc (V d (cV L) (jV L)) ↦[(oRowK L).view.set]{fullShare}
        ((oRowK L).view.writes (Elt F) fo [⟨Rect.whole S128x128, (ReadAs.same : ReadAs (Elt F) S128x128 .f32 S128x128 .f32).apply (View.read (Elt F) sA.view Tt)⟩]) : sProp 𝕄)
      ⊢ iprop(∃ T' : S128x128.Idx → F .f32, ⌜T' = Tt⌝ ∗
          ((oRowK L).view.loc (V d (cV L) (jV L)) ↦[(oRowK L).view.set]{fullShare}
            ((oRowK L).view.writes (Elt F) fo [⟨Rect.whole S128x128, (ReadAs.same : ReadAs (Elt F) S128x128 .f32 S128x128 .f32).apply (View.read (Elt F) sA.view T')⟩]))) := by
  iintro H
  iexists Tt
  isplitr
  · ipureintro; rfl
  · iexact H

set_option maxHeartbeats 40000000 in
theorem tile_body (d : Dev nD) (L : grid0.Coords) (qe : PosShare TreeShare)
    (fi : Buf (Elt F) (iLoc d)) (fe : Buf (Elt F) (eLoc d)) (fo : Buf (Elt F) (oLoc d))
    (hin : ∀ j, (fi j).toNat < 100000) (hF : (K (F := F)).Facts)
    (O : CellTallies nD τ sig (HIx 1)) (W : Waits sig (HIx 1)) (hO : ∀ g, O g none = 0) :
    iprop(levAts (K (F := F)).L (K (F := F)).lev ∗ emp
        ∗ ((iLoc d ↦[iRowSet L]{fullShare} fi) ∗ (eLoc d ↦{qe} fe) ∗ (oLoc d ↦[oRowSet L]{fullShare} fo))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__pool L iV (Memref.isWhole_whole _) eV (Memref.isWhole_whole _) oV (Memref.isWhole_whole _)
            sI (Memref.isWhole_whole _) sR (Memref.isWhole_whole _) sA (Memref.isWhole_whole _)
            cc0_scratch3 cc0_scratch4 cc0_scratch5 cc0_scratch6 cc0_scratch7 cc0_scratch8 cc0_scoped0 cc0_scoped1)
          fun _ => iprop(((iLoc d ↦[iRowSet L]{fullShare} fi) ∗ (eLoc d ↦{qe} fe) ∗ (oLoc d ↦[oRowSet L]{fullShare} pooledBuf scaleC fe fi))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__pool_eq_skeleton]; unfold cc0__pool_skel
  rw [(K (F := F)).scopedBufs_V hF d (cV L) (jV L), SparseCore.Cfg.scopedSems0_V (Val := Elt F) d (cV L) (jV L), ownSems0_V, ownBufs_V]
  iintro ⟨#Hlv, -, ⟨Hi, He, Ho⟩, ⟨⟨%fsI, HsI⟩, ⟨%fsR, HsR⟩, ⟨%fsA, HsA⟩, Hbufs⟩, ⟨Hc0, Hc1, Hc2, Hc3, Hc4, Hc5, Hc6, Hc7, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) (U := U) d L _).symm) $$ Hi
  ihave Ho' := (Entails.of_eq (pts_oRowK (F := F) (U := U) d L _).symm) $$ Ho
  ihave He' := (Entails.of_eq (pts_eV (F := F) (U := U) d L _ _).symm) $$ He
  ihave HsI' := (Entails.of_eq (pts_sI (F := F) (U := U) d L _).symm) $$ HsI
  ihave HsR' := (Entails.of_eq (pts_sR (F := F) (U := U) d L _).symm) $$ HsR
  ihave HsA' := (Entails.of_eq (pts_sA (F := F) (U := U) d L _).symm) $$ HsA
  sl_exec

  -- the token scratch now holds the tile's block of the token array, whose words all name rows of the table
  have hI := idxScr_inb (F := F) L fi hin
  have eI : View.write (Elt F) sI.view fsI (tile_body.sl.dma0 d L fi) Finset.univ = idxScr (F := F) L fi := View.write_whole_univ _ _ _
  rw [eI]
  -- the row scratch into its slots; the table's share and the token scratch into a piece per slot
  ihave Hs := (sR_split (F := F) (U := U) d (cV L) (jV L) fsR) $$ HsR'
  icases Hs with ⟨HS0, HS1, HS2, HS3, HS4, HS5, HSr⟩
  ihave Hes := (share_split (F := F) (U := U) (ℓ := eV.view.loc (V d (cV L) (jV L))) Finset.univ qe fe).1 $$ He'
  icases Hes with ⟨HE0, HE1, HE2, HE3, HE4, HE5, HEr⟩
  ihave His := (share_split (F := F) (U := U) (ℓ := sI.view.loc (V d (cV L) (jV L))) Finset.univ fullShare (idxScr (F := F) L fi)).1 $$ HsI'
  icases His with ⟨HI0, HI1, HI2, HI3, HI4, HI5, HIr⟩
  -- list 0 into slot 0
  iapply (issue_slot (F := F) (U := U) d L slot0 cc0_scratch3.sem (sh0 fullShare) (sh0 qe) (idxScr (F := F) L fi) hI fe ![0, 0] inb_S256x100_S1x100_0_0 _) $$ [HS0 HI0 HE0 Hc0]
  · unfold Free
    isplitl [HS0]; · iexists _; iexact HS0
    isplitl [HI0]; · iexact HI0
    isplitl [HE0]; · iexact HE0
    iexact Hc0
  iintro HB0
  sl_exec
  -- list 1 into slot 1
  iapply (issue_slot (F := F) (U := U) d L slot1 cc0_scratch4.sem (sh1 fullShare) (sh1 qe) (idxScr (F := F) L fi) hI fe ![1, 0] inb_S256x100_S1x100_1_0 _) $$ [HS1 HI1 HE1 Hc1]
  · unfold Free
    isplitl [HS1]; · iexists _; iexact HS1
    isplitl [HI1]; · iexact HI1
    isplitl [HE1]; · iexact HE1
    iexact Hc1
  iintro HB1
  sl_exec
  -- list 2 into slot 2
  iapply (issue_slot (F := F) (U := U) d L slot2 cc0_scratch5.sem (sh2 fullShare) (sh2 qe) (idxScr (F := F) L fi) hI fe ![2, 0] inb_S256x100_S1x100_2_0 _) $$ [HS2 HI2 HE2 Hc2]
  · unfold Free
    isplitl [HS2]; · iexists _; iexact HS2
    isplitl [HI2]; · iexact HI2
    isplitl [HE2]; · iexact HE2
    iexact Hc2
  iintro HB2
  sl_exec
  -- list 3 into slot 3
  iapply (issue_slot (F := F) (U := U) d L slot3 cc0_scratch6.sem (sh3 fullShare) (sh3 qe) (idxScr (F := F) L fi) hI fe ![3, 0] inb_S256x100_S1x100_3_0 _) $$ [HS3 HI3 HE3 Hc3]
  · unfold Free
    isplitl [HS3]; · iexists _; iexact HS3
    isplitl [HI3]; · iexact HI3
    isplitl [HE3]; · iexact HE3
    iexact Hc3
  iintro HB3
  sl_exec
  -- list 4 into slot 4
  iapply (issue_slot (F := F) (U := U) d L slot4 cc0_scratch7.sem (sh4 fullShare) (sh4 qe) (idxScr (F := F) L fi) hI fe ![4, 0] inb_S256x100_S1x100_4_0 _) $$ [HS4 HI4 HE4 Hc4]
  · unfold Free
    isplitl [HS4]; · iexists _; iexact HS4
    isplitl [HI4]; · iexact HI4
    isplitl [HE4]; · iexact HE4
    iexact Hc4
  iintro HB4
  sl_exec
  -- the group loop
  sl_for (grpInvV (F := F) (U := U) d L qe fi hin fe O (insert (SemLoc.dma cc0_scoped0.sem, (default : HIx 1)) W)) $$ [Hmw HB0 HB1 HB2 HB3 HB4 HS5 HI5 HE5 Hc5 HsA' HO]

  case region =>
    intro k acc
    exact grp_tripV (F := F) (U := U) d L qe fi hin fe O _ k acc

  · unfold grpInvV
    isplitr; · iexact Hmw
    isplitl [HB0]; · iapply (Entails.of_eq (SlotSt_busy (F := F) (U := U) d L slot0 _ _ _ _ hI fe (6 * 0 + 0) ![0, 0] inb_S256x100_S1x100_0_0 rfl (by decide)).symm); iexact HB0
    isplitl [HB1]; · iapply (Entails.of_eq (SlotSt_busy (F := F) (U := U) d L slot1 _ _ _ _ hI fe (6 * 0 + 1) ![1, 0] inb_S256x100_S1x100_1_0 rfl (by decide)).symm); iexact HB1
    isplitl [HB2]; · iapply (Entails.of_eq (SlotSt_busy (F := F) (U := U) d L slot2 _ _ _ _ hI fe (6 * 0 + 2) ![2, 0] inb_S256x100_S1x100_2_0 rfl (by decide)).symm); iexact HB2
    isplitl [HB3]; · iapply (Entails.of_eq (SlotSt_busy (F := F) (U := U) d L slot3 _ _ _ _ hI fe (6 * 0 + 3) ![3, 0] inb_S256x100_S1x100_3_0 rfl (by decide)).symm); iexact HB3
    isplitl [HB4]; · iapply (Entails.of_eq (SlotSt_busy (F := F) (U := U) d L slot4 _ _ _ _ hI fe (6 * 0 + 4) ![4, 0] inb_S256x100_S1x100_4_0 rfl (by decide)).symm); iexact HB4
    isplitl [HS5 HI5 HE5 Hc5]
    · iapply (Free_intro (F := F) (U := U) d L slot5 cc0_scratch8.sem _ _ _ _ _)
      isplitl [HS5]; · iexact HS5
      isplitl [HI5]; · iexact HI5
      isplitl [HE5]; · iexact HE5
      iexact Hc5
    isplitl [HsA']
    · iexists _; isplitl [HsA']; · iexact HsA'
      ipureintro; intro b e hb; exact absurd hb (by omega)
    iexists _; isplitr
    · ipureintro; exact fun p hp => .inl hp
    · iexact HO

  iintro %accEnd HI
  have htr : Scf.trips k0_t1_loop.lb k0_t1_loop.ub k0_t1_loop.st = 42 := by decide
  rw [htr]
  unfold grpInvV
  icases HI with ⟨-, H0, H1, H2, H3, H4, HF5, ⟨%fA, HsA, %hfA⟩, %W', %hW', HO⟩
  sl_exec
  -- slot 0's list has landed
  ihave HB0 := (Entails.of_eq (SlotSt_busy (F := F) (U := U) d L slot0 _ _ _ _ hI fe (6 * 42 + 0) (rowOff (6 * 42 + 0)) (rowInb _ (by decide)) rfl (by decide))) $$ H0
  iapply (wait_slot (F := F) (U := U) d L slot0 cc0_scratch3.sem _ _ _ hI fe _ _ _ O _ _) $$ [HB0 HO]
  · isplitl [HB0]; · iexact HB0
    isplitl [HO]; · iexact HO
    iexact Hmw
  iintro ⟨HL0, HO⟩
  ihave HL0 := (Loaded_open (F := F) (U := U) d L slot0 _ _ _ _ hI fe _ _) $$ HL0
  icases HL0 with ⟨⟨%g0, Hd0⟩, Hi0, He0, Hs0⟩
  sl_exec
  -- the slot's hundred rows are added to the registers
  sl_for (accInv (F := F) (U := U) d L slot0 g0 (gathered (F := F) (idxScr (F := F) L fi) hI fe (rowOff (6 * 42 + 0)) (rowInb _ (by decide))) (zv (F := F), zv (F := F), zv (F := F), zv (F := F), zv (F := F), zv (F := F), zv (F := F), zv (F := F))) $$ [Hd0]
  case region =>
    intro t a
    unfold accInv
    iintro ⟨Hd, %ha⟩
    sl_exec
    sl_step
    isplitl [Hd]; · iexact Hd
    ipureintro
    intro j x
    have ht : t.val < 100 := t.isLt
    sl_unfold_run_names
    match j with
    | ⟨0, _⟩ => exact (addRow_apply (F := F) slot0 g0 _ _ _ t.val 0 (k0_off65_eq t) ht (by omega) _ x).trans ((congrArg₂ FloatOps.addf (ha ⟨0, by omega⟩ x) rfl).trans (accList_succ (F := F) _ _ _ _ ht).symm)
    | ⟨1, _⟩ => exact (addRow_apply (F := F) slot0 g0 _ _ _ t.val 16 (k0_off66_eq t) ht (by omega) _ x).trans ((congrArg₂ FloatOps.addf (ha ⟨1, by omega⟩ x) rfl).trans (accList_succ (F := F) _ _ _ _ ht).symm)
    | ⟨2, _⟩ => exact (addRow_apply (F := F) slot0 g0 _ _ _ t.val 32 (k0_off67_eq t) ht (by omega) _ x).trans ((congrArg₂ FloatOps.addf (ha ⟨2, by omega⟩ x) rfl).trans (accList_succ (F := F) _ _ _ _ ht).symm)
    | ⟨3, _⟩ => exact (addRow_apply (F := F) slot0 g0 _ _ _ t.val 48 (k0_off68_eq t) ht (by omega) _ x).trans ((congrArg₂ FloatOps.addf (ha ⟨3, by omega⟩ x) rfl).trans (accList_succ (F := F) _ _ _ _ ht).symm)
    | ⟨4, _⟩ => exact (addRow_apply (F := F) slot0 g0 _ _ _ t.val 64 (k0_off69_eq t) ht (by omega) _ x).trans ((congrArg₂ FloatOps.addf (ha ⟨4, by omega⟩ x) rfl).trans (accList_succ (F := F) _ _ _ _ ht).symm)
    | ⟨5, _⟩ => exact (addRow_apply (F := F) slot0 g0 _ _ _ t.val 80 (k0_off70_eq t) ht (by omega) _ x).trans ((congrArg₂ FloatOps.addf (ha ⟨5, by omega⟩ x) rfl).trans (accList_succ (F := F) _ _ _ _ ht).symm)
    | ⟨6, _⟩ => exact (addRow_apply (F := F) slot0 g0 _ _ _ t.val 96 (k0_off71_eq t) ht (by omega) _ x).trans ((congrArg₂ FloatOps.addf (ha ⟨6, by omega⟩ x) rfl).trans (accList_succ (F := F) _ _ _ _ ht).symm)
    | ⟨7, _⟩ => exact (addRow_apply (F := F) slot0 g0 _ _ _ t.val 112 (k0_off72_eq t) ht (by omega) _ x).trans ((congrArg₂ FloatOps.addf (ha ⟨7, by omega⟩ x) rfl).trans (accList_succ (F := F) _ _ _ _ ht).symm)
  · unfold accInv
    isplitl [Hd0]; · iexact Hd0
    ipureintro; intro j x
    sl_unfold_run_names
    match j with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  iintro %a0 Hacc0
  unfold accInv
  icases Hacc0 with ⟨Hd0, %ha0⟩
  sl_exec
  -- slot 1's list has landed
  ihave HB1 := (Entails.of_eq (SlotSt_busy (F := F) (U := U) d L slot1 _ _ _ _ hI fe (6 * 42 + 1) (rowOff (6 * 42 + 1)) (rowInb _ (by decide)) rfl (by decide))) $$ H1
  iapply (wait_slot (F := F) (U := U) d L slot1 cc0_scratch4.sem _ _ _ hI fe _ _ _ O _ _) $$ [HB1 HO]
  · isplitl [HB1]; · iexact HB1
    isplitl [HO]; · iexact HO
    iexact Hmw
  iintro ⟨HL1, HO⟩
  ihave HL1 := (Loaded_open (F := F) (U := U) d L slot1 _ _ _ _ hI fe _ _) $$ HL1
  icases HL1 with ⟨⟨%g1, Hd1⟩, Hi1, He1, Hs1⟩
  sl_exec
  -- the slot's hundred rows are added to the registers
  sl_for (accInv (F := F) (U := U) d L slot1 g1 (gathered (F := F) (idxScr (F := F) L fi) hI fe (rowOff (6 * 42 + 1)) (rowInb _ (by decide))) a0) $$ [Hd1]
  case region =>
    intro t a
    unfold accInv
    iintro ⟨Hd, %ha⟩
    sl_exec
    sl_step
    isplitl [Hd]; · iexact Hd
    ipureintro
    intro j x
    have ht : t.val < 100 := t.isLt
    sl_unfold_run_names
    match j with
    | ⟨0, _⟩ => exact (addRow_apply (F := F) slot1 g1 _ _ _ t.val 0 (k0_off73_eq t) ht (by omega) _ x).trans ((congrArg₂ FloatOps.addf (ha ⟨0, by omega⟩ x) rfl).trans (accList_succ (F := F) _ _ _ _ ht).symm)
    | ⟨1, _⟩ => exact (addRow_apply (F := F) slot1 g1 _ _ _ t.val 16 (k0_off74_eq t) ht (by omega) _ x).trans ((congrArg₂ FloatOps.addf (ha ⟨1, by omega⟩ x) rfl).trans (accList_succ (F := F) _ _ _ _ ht).symm)
    | ⟨2, _⟩ => exact (addRow_apply (F := F) slot1 g1 _ _ _ t.val 32 (k0_off75_eq t) ht (by omega) _ x).trans ((congrArg₂ FloatOps.addf (ha ⟨2, by omega⟩ x) rfl).trans (accList_succ (F := F) _ _ _ _ ht).symm)
    | ⟨3, _⟩ => exact (addRow_apply (F := F) slot1 g1 _ _ _ t.val 48 (k0_off76_eq t) ht (by omega) _ x).trans ((congrArg₂ FloatOps.addf (ha ⟨3, by omega⟩ x) rfl).trans (accList_succ (F := F) _ _ _ _ ht).symm)
    | ⟨4, _⟩ => exact (addRow_apply (F := F) slot1 g1 _ _ _ t.val 64 (k0_off77_eq t) ht (by omega) _ x).trans ((congrArg₂ FloatOps.addf (ha ⟨4, by omega⟩ x) rfl).trans (accList_succ (F := F) _ _ _ _ ht).symm)
    | ⟨5, _⟩ => exact (addRow_apply (F := F) slot1 g1 _ _ _ t.val 80 (k0_off78_eq t) ht (by omega) _ x).trans ((congrArg₂ FloatOps.addf (ha ⟨5, by omega⟩ x) rfl).trans (accList_succ (F := F) _ _ _ _ ht).symm)
    | ⟨6, _⟩ => exact (addRow_apply (F := F) slot1 g1 _ _ _ t.val 96 (k0_off79_eq t) ht (by omega) _ x).trans ((congrArg₂ FloatOps.addf (ha ⟨6, by omega⟩ x) rfl).trans (accList_succ (F := F) _ _ _ _ ht).symm)
    | ⟨7, _⟩ => exact (addRow_apply (F := F) slot1 g1 _ _ _ t.val 112 (k0_off80_eq t) ht (by omega) _ x).trans ((congrArg₂ FloatOps.addf (ha ⟨7, by omega⟩ x) rfl).trans (accList_succ (F := F) _ _ _ _ ht).symm)
  · unfold accInv
    isplitl [Hd1]; · iexact Hd1
    ipureintro; intro j x
    sl_unfold_run_names
    match j with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  iintro %a1 Hacc1
  unfold accInv
  icases Hacc1 with ⟨Hd1, %ha1⟩
  sl_exec
  -- slot 2's list has landed
  ihave HB2 := (Entails.of_eq (SlotSt_busy (F := F) (U := U) d L slot2 _ _ _ _ hI fe (6 * 42 + 2) (rowOff (6 * 42 + 2)) (rowInb _ (by decide)) rfl (by decide))) $$ H2
  iapply (wait_slot (F := F) (U := U) d L slot2 cc0_scratch5.sem _ _ _ hI fe _ _ _ O _ _) $$ [HB2 HO]
  · isplitl [HB2]; · iexact HB2
    isplitl [HO]; · iexact HO
    iexact Hmw
  iintro ⟨HL2, HO⟩
  ihave HL2 := (Loaded_open (F := F) (U := U) d L slot2 _ _ _ _ hI fe _ _) $$ HL2
  icases HL2 with ⟨⟨%g2, Hd2⟩, Hi2, He2, Hs2⟩
  sl_exec
  -- the slot's hundred rows are added to the registers
  sl_for (accInv (F := F) (U := U) d L slot2 g2 (gathered (F := F) (idxScr (F := F) L fi) hI fe (rowOff (6 * 42 + 2)) (rowInb _ (by decide))) (zv (F := F), zv (F := F), zv (F := F), zv (F := F), zv (F := F), zv (F := F), zv (F := F), zv (F := F))) $$ [Hd2]
  case region =>
    intro t a
    unfold accInv
    iintro ⟨Hd, %ha⟩
    sl_exec
    sl_step
    isplitl [Hd]; · iexact Hd
    ipureintro
    intro j x
    have ht : t.val < 100 := t.isLt
    sl_unfold_run_names
    match j with
    | ⟨0, _⟩ => exact (addRow_apply (F := F) slot2 g2 _ _ _ t.val 0 (k0_off81_eq t) ht (by omega) _ x).trans ((congrArg₂ FloatOps.addf (ha ⟨0, by omega⟩ x) rfl).trans (accList_succ (F := F) _ _ _ _ ht).symm)
    | ⟨1, _⟩ => exact (addRow_apply (F := F) slot2 g2 _ _ _ t.val 16 (k0_off82_eq t) ht (by omega) _ x).trans ((congrArg₂ FloatOps.addf (ha ⟨1, by omega⟩ x) rfl).trans (accList_succ (F := F) _ _ _ _ ht).symm)
    | ⟨2, _⟩ => exact (addRow_apply (F := F) slot2 g2 _ _ _ t.val 32 (k0_off83_eq t) ht (by omega) _ x).trans ((congrArg₂ FloatOps.addf (ha ⟨2, by omega⟩ x) rfl).trans (accList_succ (F := F) _ _ _ _ ht).symm)
    | ⟨3, _⟩ => exact (addRow_apply (F := F) slot2 g2 _ _ _ t.val 48 (k0_off84_eq t) ht (by omega) _ x).trans ((congrArg₂ FloatOps.addf (ha ⟨3, by omega⟩ x) rfl).trans (accList_succ (F := F) _ _ _ _ ht).symm)
    | ⟨4, _⟩ => exact (addRow_apply (F := F) slot2 g2 _ _ _ t.val 64 (k0_off85_eq t) ht (by omega) _ x).trans ((congrArg₂ FloatOps.addf (ha ⟨4, by omega⟩ x) rfl).trans (accList_succ (F := F) _ _ _ _ ht).symm)
    | ⟨5, _⟩ => exact (addRow_apply (F := F) slot2 g2 _ _ _ t.val 80 (k0_off86_eq t) ht (by omega) _ x).trans ((congrArg₂ FloatOps.addf (ha ⟨5, by omega⟩ x) rfl).trans (accList_succ (F := F) _ _ _ _ ht).symm)
    | ⟨6, _⟩ => exact (addRow_apply (F := F) slot2 g2 _ _ _ t.val 96 (k0_off87_eq t) ht (by omega) _ x).trans ((congrArg₂ FloatOps.addf (ha ⟨6, by omega⟩ x) rfl).trans (accList_succ (F := F) _ _ _ _ ht).symm)
    | ⟨7, _⟩ => exact (addRow_apply (F := F) slot2 g2 _ _ _ t.val 112 (k0_off88_eq t) ht (by omega) _ x).trans ((congrArg₂ FloatOps.addf (ha ⟨7, by omega⟩ x) rfl).trans (accList_succ (F := F) _ _ _ _ ht).symm)
  · unfold accInv
    isplitl [Hd2]; · iexact Hd2
    ipureintro; intro j x
    sl_unfold_run_names
    match j with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  iintro %a2 Hacc2
  unfold accInv
  icases Hacc2 with ⟨Hd2, %ha2⟩
  sl_exec
  -- slot 3's list has landed
  ihave HB3 := (Entails.of_eq (SlotSt_busy (F := F) (U := U) d L slot3 _ _ _ _ hI fe (6 * 42 + 3) (rowOff (6 * 42 + 3)) (rowInb _ (by decide)) rfl (by decide))) $$ H3
  iapply (wait_slot (F := F) (U := U) d L slot3 cc0_scratch6.sem _ _ _ hI fe _ _ _ O _ _) $$ [HB3 HO]
  · isplitl [HB3]; · iexact HB3
    isplitl [HO]; · iexact HO
    iexact Hmw
  iintro ⟨HL3, HO⟩
  ihave HL3 := (Loaded_open (F := F) (U := U) d L slot3 _ _ _ _ hI fe _ _) $$ HL3
  icases HL3 with ⟨⟨%g3, Hd3⟩, Hi3, He3, Hs3⟩
  sl_exec
  -- the slot's hundred rows are added to the registers
  sl_for (accInv (F := F) (U := U) d L slot3 g3 (gathered (F := F) (idxScr (F := F) L fi) hI fe (rowOff (6 * 42 + 3)) (rowInb _ (by decide))) a2) $$ [Hd3]
  case region =>
    intro t a
    unfold accInv
    iintro ⟨Hd, %ha⟩
    sl_exec
    sl_step
    isplitl [Hd]; · iexact Hd
    ipureintro
    intro j x
    have ht : t.val < 100 := t.isLt
    sl_unfold_run_names
    match j with
    | ⟨0, _⟩ => exact (addRow_apply (F := F) slot3 g3 _ _ _ t.val 0 (k0_off89_eq t) ht (by omega) _ x).trans ((congrArg₂ FloatOps.addf (ha ⟨0, by omega⟩ x) rfl).trans (accList_succ (F := F) _ _ _ _ ht).symm)
    | ⟨1, _⟩ => exact (addRow_apply (F := F) slot3 g3 _ _ _ t.val 16 (k0_off90_eq t) ht (by omega) _ x).trans ((congrArg₂ FloatOps.addf (ha ⟨1, by omega⟩ x) rfl).trans (accList_succ (F := F) _ _ _ _ ht).symm)
    | ⟨2, _⟩ => exact (addRow_apply (F := F) slot3 g3 _ _ _ t.val 32 (k0_off91_eq t) ht (by omega) _ x).trans ((congrArg₂ FloatOps.addf (ha ⟨2, by omega⟩ x) rfl).trans (accList_succ (F := F) _ _ _ _ ht).symm)
    | ⟨3, _⟩ => exact (addRow_apply (F := F) slot3 g3 _ _ _ t.val 48 (k0_off92_eq t) ht (by omega) _ x).trans ((congrArg₂ FloatOps.addf (ha ⟨3, by omega⟩ x) rfl).trans (accList_succ (F := F) _ _ _ _ ht).symm)
    | ⟨4, _⟩ => exact (addRow_apply (F := F) slot3 g3 _ _ _ t.val 64 (k0_off93_eq t) ht (by omega) _ x).trans ((congrArg₂ FloatOps.addf (ha ⟨4, by omega⟩ x) rfl).trans (accList_succ (F := F) _ _ _ _ ht).symm)
    | ⟨5, _⟩ => exact (addRow_apply (F := F) slot3 g3 _ _ _ t.val 80 (k0_off94_eq t) ht (by omega) _ x).trans ((congrArg₂ FloatOps.addf (ha ⟨5, by omega⟩ x) rfl).trans (accList_succ (F := F) _ _ _ _ ht).symm)
    | ⟨6, _⟩ => exact (addRow_apply (F := F) slot3 g3 _ _ _ t.val 96 (k0_off95_eq t) ht (by omega) _ x).trans ((congrArg₂ FloatOps.addf (ha ⟨6, by omega⟩ x) rfl).trans (accList_succ (F := F) _ _ _ _ ht).symm)
    | ⟨7, _⟩ => exact (addRow_apply (F := F) slot3 g3 _ _ _ t.val 112 (k0_off96_eq t) ht (by omega) _ x).trans ((congrArg₂ FloatOps.addf (ha ⟨7, by omega⟩ x) rfl).trans (accList_succ (F := F) _ _ _ _ ht).symm)
  · unfold accInv
    isplitl [Hd3]; · iexact Hd3
    ipureintro; intro j x
    sl_unfold_run_names
    match j with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  iintro %a3 Hacc3
  unfold accInv
  icases Hacc3 with ⟨Hd3, %ha3⟩
  sl_exec
  sl_unfold_run_names
  -- the pooled scratch now holds every row's pooled value
  have hT : ∀ b e : Fin 128, (sA.view.writes (Elt F) fA (tailList (F := F) scaleC a1 a3)) (ix2 b e)
      = pooledBuf (scaleC (F := F)) fe fi (ix2 ⟨128 * wid L + b.val, by have := wid_lt L; have := b.isLt; omega⟩ e) := by
    intro b e
    obtain ⟨j, x, hjx⟩ : ∃ (j : Fin 8) (x : Fin 16), e.val = 16 * j.val + x.val :=
      ⟨⟨e.val / 16, by have := e.isLt; omega⟩, ⟨e.val % 16, Nat.mod_lt _ (by decide)⟩, by show e.val = 16 * (e.val / 16) + e.val % 16; omega⟩
    have ee : e = ⟨16 * j.val + x.val, col_lt j x⟩ := Fin.ext hjx
    subst ee
    by_cases hlt : b.val < 126
    · exact (tail_miss (F := F) fA scaleC a1 a3 b _ hlt).trans (hfA b _ (by omega))
    · by_cases h126 : b.val = 126
      · have eb : b = ⟨126, by decide⟩ := Fin.ext h126
        subst eb
        exact (tail_hit126 (F := F) fA scaleC a1 a3 j x).trans
          (row_value (F := F) L fi hin fe ⟨126, by decide⟩ (6 * 42 + 0) (6 * 42 + 1) (by decide) (by decide) (by decide) (by decide)
            (rowOff (6 * 42 + 0)) (rowOff (6 * 42 + 1)) (rowInb _ (by decide)) (rowInb _ (by decide)) rfl rfl _ _ (by decide) (by decide) _ _ _ zv8_get ha0 ha1 j x)
      · have eb : b = ⟨127, by decide⟩ := Fin.ext (show b.val = 127 by have := b.isLt; omega)
        subst eb
        exact (tail_hit127 (F := F) fA scaleC a1 a3 j x).trans
          (row_value (F := F) L fi hin fe ⟨127, by decide⟩ (6 * 42 + 2) (6 * 42 + 3) (by decide) (by decide) (by decide) (by decide)
            (rowOff (6 * 42 + 2)) (rowOff (6 * 42 + 3)) (rowInb _ (by decide)) (rowInb _ (by decide)) rfl rfl _ _ (by decide) (by decide) _ _ _ zv8_get ha2 ha3 j x)
  ihave Hn := (name_out (F := F) (U := U) d L fo _) $$ Ho'
  icases Hn with ⟨%T', %hT', Ho'⟩
  have hT2 : ∀ b e : Fin 128, T' (ix2 b e)
      = pooledBuf (scaleC (F := F)) fe fi (ix2 ⟨128 * wid L + b.val, by have := wid_lt L; have := b.isLt; omega⟩ e) := by
    intro b e; rw [hT']; exact hT b e
  ihave Ho2 := (Entails.of_eq (out_rows (F := F) (U := U) d L fo T' (pooledBuf (scaleC (F := F)) fe fi) hT2)) $$ Ho'

  -- what is left in flight is nothing; everything goes back
  sl_step
  ihave HF4 := (Entails.of_eq (SlotSt_free (F := F) (U := U) d L slot4 _ _ _ _ hI fe (6 * 42 + 4) (by decide))) $$ H4
  ihave HF4 := (Free_open (F := F) (U := U) d L slot4 _ _ _ _ _) $$ HF4
  icases HF4 with ⟨Hd4, Hi4, He4, Hs4⟩
  ihave HF5 := (Free_open (F := F) (U := U) d L slot5 _ _ _ _ _) $$ HF5
  icases HF5 with ⟨Hd5, Hi5, He5, Hs5⟩
  ihave HeAll := (share_split (F := F) (U := U) (ℓ := eV.view.loc (V d (cV L) (jV L))) Finset.univ qe fe).2 $$ [He0 He1 He2 He3 He4 He5 HEr]
  · isplitl [He0]; · iexact He0
    isplitl [He1]; · iexact He1
    isplitl [He2]; · iexact He2
    isplitl [He3]; · iexact He3
    isplitl [He4]; · iexact He4
    isplitl [He5]; · iexact He5
    iexact HEr
  ihave HiAll := (share_split (F := F) (U := U) (ℓ := sI.view.loc (V d (cV L) (jV L))) Finset.univ fullShare (idxScr (F := F) L fi)).2 $$ [Hi0 Hi1 Hi2 Hi3 Hi4 Hi5 HIr]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    iexact HIr
  ihave HrAll := (sR_join (F := F) (U := U) d (cV L) (jV L) fsR) $$ [Hd0 Hd1 Hd2 Hd3 Hd4 Hd5 HSr]
  · isplitl [Hd0]; · iexists _; iexact Hd0
    isplitl [Hd1]; · iexists _; iexact Hd1
    isplitl [Hd2]; · iexists _; iexact Hd2
    isplitl [Hd3]; · iexists _; iexact Hd3
    isplitl [Hd4]; · iexact Hd4
    isplitl [Hd5]; · iexact Hd5
    iexact HSr
  isplitl [Hi' HeAll Ho2]
  · isplitl [Hi']; · iapply (Entails.of_eq (pts_iRowK (F := F) (U := U) d L _)); iexact Hi'
    isplitl [HeAll]; · iexact HeAll
    iapply (Entails.of_eq (pts_oRowK (F := F) (U := U) d L _)); iexact Ho2
  isplitl [HiAll HrAll HsA Hbufs]
  · isplitl [HiAll]; · iexists _; iexact HiAll
    isplitl [HrAll]; · iexact HrAll
    isplitl [HsA]; · iexists _; iexact HsA
    iexact Hbufs
  isplitl [Hs0 Hs1 Hs2 Hs3 Hs4 Hs5 Hc6 Hc7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hc6]; · iexact Hc6
    isplitl [Hc7]; · iexact Hc7
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases hW' p hp with hp | hp
  · rcases Finset.mem_insert.mp hp with hp | hp
    · exact .inr (hp ▸ rfl)
    · exact .inl hp
  · exact .inr hp

end Cert.Kernel.Tile
end
-- ==== Proof.lean ====
/- The proof of `Cert.Claim`: the three frames, the idealization's ledger and the comparison at the ideal values, assembled
   from the run of all the threads (the launch, the perceptron's pipeline, a vector subcore's task at either float
   instance) and the reference's run, both read against one specification of the computation. -/
import proofs.«207436_g25675314495810_cont_9to1_828_42_alg».proof.Defs
import proofs.«207436_g25675314495810_cont_9to1_828_42_alg».proof.Proof.Gen.Kernel
import proofs.«207436_g25675314495810_cont_9to1_828_42_alg».proof.Proof.Gen.Kernel.Skeleton
import proofs.«207436_g25675314495810_cont_9to1_828_42_alg».proof.Proof.Gen.Kernel.Launch
import proofs.«207436_g25675314495810_cont_9to1_828_42_alg».proof.Proof.Gen.Kernel.Points
import proofs.«207436_g25675314495810_cont_9to1_828_42_alg».proof.Proof.Gen.KernelIdeal
import proofs.«207436_g25675314495810_cont_9to1_828_42_alg».proof.Proof.Gen.KernelIdeal.Skeleton
import proofs.«207436_g25675314495810_cont_9to1_828_42_alg».proof.Proof.Gen.KernelIdeal.Launch
import proofs.«207436_g25675314495810_cont_9to1_828_42_alg».proof.Proof.Gen.KernelIdeal.Points
import proofs.«207436_g25675314495810_cont_9to1_828_42_alg».proof.Proof.Gen.ReferenceIdeal
import proofs.«207436_g25675314495810_cont_9to1_828_42_alg».proof.Proof.Gen.Pre_input_domain
import proofs.«207436_g25675314495810_cont_9to1_828_42_alg».proof.Proof.AssembleK
import proofs.«207436_g25675314495810_cont_9to1_828_42_alg».proof.Proof.TileBody
import proofs.«207436_g25675314495810_cont_9to1_828_42_alg».proof.Proof.TileBodyK
import Idealize.ShloMosaic.Adequacy
import Idealize.ShloMosaic.Init

noncomputable section

namespace Cert.Proof

open Idealize.ShloMosaic Idealize.SL.Sem

theorem claim : Cert.Claim :=
  Cert.Assemble.claim_of
    (fun d L q fi fe old hin hF O W hO => Cert.Kernel.Tile.tile_body d L q fi fe old hin hF O W hO)
    (fun d L q fi fe old hin hF O W hO => Cert.KernelIdeal.Tile.tile_body d L q fi fe old hin hF O W hO)

end Cert.Proof

end
